-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v165)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v165) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x400000 : Shape := ⟨2, ![2, 400000]⟩
abbrev S400000x1 : Shape := ⟨2, ![400000, 1]⟩
abbrev S32x32 : Shape := ⟨2, ![32, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S400000x1 : S_.BroadcastsInDim S400000x1 (![] : Fin 0 → Fin S400000x1.rank)
  reducesTo_S400000x1_S_d0_1 : S400000x1.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg26 : FVec F S1 .f32) (main_v118 : IVec S_ 1) (main_v119 : FVec F S128x1 .f32) : IVec S_ 1 :=
  let main_cst_46 : FVec F S_ .f32 := constant S_ .f32 0x7F800000#32
  let main_v120 : FVec F S128x1 .f32 := broadcastInDim S128x1 ![] bcast_S_S128x1 main_cst_46
  let main_v121 : IVec S128x1 1 := cmpf .olt main_v119 main_v120
  let main_c_47 : IVec S_ 1 := constantI S_ 1 1#1
  let main_v122 : IVec S_ 1 := (fun x v => Host.reduce IntOp.andi x v reducesTo_S128x1_S_d0_1 h_S_) main_v121 main_c_47
  let main_v123 : IVec S_ 1 := andi main_v118 main_v122
  let main_v124 : FVec F S1 .f32 := Host.absf main_arg26
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  main_v128

def fn_part6 {F : FTy → Type} [FloatOps F] (main_arg22 : FVec F S256 .f32) (main_arg23 : FVec F S256x128 .f32) (main_arg24 : FVec F S128 .f32) (main_arg25 : FVec F S128x1 .f32) (main_arg26 : FVec F S1 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256 .f32 := Host.absf main_arg22
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x128 .f32 := Host.absf main_arg23
  let main_cst_42 : FVec F S_ .f32 := constant S_ .f32 0x7F800000#32
  let main_v110 : FVec F S256x128 .f32 := broadcastInDim S256x128 ![] bcast_S_S256x128 main_cst_42
  let main_v111 : IVec S256x128 1 := cmpf .olt main_v109 main_v110
  let main_c_43 : IVec S_ 1 := constantI S_ 1 1#1
  let main_v112 : IVec S_ 1 := (fun x v => Host.reduce IntOp.andi x v reducesTo_S256x128_S_d0_1 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x1 .f32 := Host.absf main_arg25
  fn_part7 (F := F) main_arg26 main_v118 main_v119

def fn_part5 {F : FTy → Type} [FloatOps F] (main_arg19 : FVec F S128x256 .f32) (main_arg20 : FVec F S256 .f32) (main_arg21 : FVec F S256 .f32) (main_arg22 : FVec F S256 .f32) (main_arg23 : FVec F S256x128 .f32) (main_arg24 : FVec F S128 .f32) (main_arg25 : FVec F S128x1 .f32) (main_arg26 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x256 .f32 := Host.absf main_arg19
  let main_cst_34 : FVec F S_ .f32 := constant S_ .f32 0x7F800000#32
  let main_v90 : FVec F S128x256 .f32 := broadcastInDim S128x256 ![] bcast_S_S128x256 main_cst_34
  let main_v91 : IVec S128x256 1 := cmpf .olt main_v89 main_v90
  let main_c_35 : IVec S_ 1 := constantI S_ 1 1#1
  let main_v92 : IVec S_ 1 := (fun x v => Host.reduce IntOp.andi x v reducesTo_S128x256_S_d0_1 h_S_) main_v91 main_c_35
  let main_v93 : IVec S_ 1 := andi main_v88 main_v92
  let main_v94 : FVec F S256 .f32 := Host.absf main_arg20
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg21
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg22 main_arg23 main_arg24 main_arg25 main_arg26 main_v98 main_v101 main_c_39

def fn_part4 {F : FTy → Type} [FloatOps F] (main_arg15 : FVec F S128x128 .f32) (main_arg16 : FVec F S128 .f32) (main_arg17 : FVec F S128 .f32) (main_arg18 : FVec F S128 .f32) (main_arg19 : FVec F S128x256 .f32) (main_arg20 : FVec F S256 .f32) (main_arg21 : FVec F S256 .f32) (main_arg22 : FVec F S256 .f32) (main_arg23 : FVec F S256x128 .f32) (main_arg24 : FVec F S128 .f32) (main_arg25 : FVec F S128x1 .f32) (main_arg26 : FVec F S1 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_arg22 main_arg23 main_arg24 main_arg25 main_arg26 main_v83 main_v84 main_cst_32

def fn_part3 {F : FTy → Type} [FloatOps F] (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128x256 .f32) (main_arg20 : FVec F S256 .f32) (main_arg21 : FVec F S256 .f32) (main_arg22 : FVec F S256 .f32) (main_arg23 : FVec F S256x128 .f32) (main_arg24 : FVec F S128 .f32) (main_arg25 : FVec F S128x1 .f32) (main_arg26 : FVec F S1 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_arg23 main_arg24 main_arg25 main_arg26 main_v63 main_v67

def fn_part2 {F : FTy → Type} [FloatOps F] (main_arg8 : FVec F S64 .f32) (main_arg9 : FVec F S64 .f32) (main_arg10 : FVec F S64 .f32) (main_arg11 : FVec F S64x128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128x256 .f32) (main_arg20 : FVec F S256 .f32) (main_arg21 : FVec F S256 .f32) (main_arg22 : FVec F S256 .f32) (main_arg23 : FVec F S256x128 .f32) (main_arg24 : FVec F S128 .f32) (main_arg25 : FVec F S128x1 .f32) (main_arg26 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg5 : FVec F S32 .f32) (main_arg6 : FVec F S32 .f32) (main_arg7 : FVec F S32x64 .f32) (main_arg8 : FVec F S64 .f32) (main_arg9 : FVec F S64 .f32) (main_arg10 : FVec F S64 .f32) (main_arg11 : FVec F S64x128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128x256 .f32) (main_arg20 : FVec F S256 .f32) (main_arg21 : FVec F S256 .f32) (main_arg22 : FVec F S256 .f32) (main_arg23 : FVec F S256x128 .f32) (main_arg24 : FVec F S128 .f32) (main_arg25 : FVec F S128x1 .f32) (main_arg26 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S50000x32 .f32) (main_arg1 : IVec S2x400000 32) (main_arg2 : FVec F S400000x1 .f32) (main_arg3 : FVec F S32x32 .f32) (main_arg4 : FVec F S32 .f32) (main_arg5 : FVec F S32 .f32) (main_arg6 : FVec F S32 .f32) (main_arg7 : FVec F S32x64 .f32) (main_arg8 : FVec F S64 .f32) (main_arg9 : FVec F S64 .f32) (main_arg10 : FVec F S64 .f32) (main_arg11 : FVec F S64x128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128x256 .f32) (main_arg20 : FVec F S256 .f32) (main_arg21 : FVec F S256 .f32) (main_arg22 : FVec F S256 .f32) (main_arg23 : FVec F S256x128 .f32) (main_arg24 : FVec F S128 .f32) (main_arg25 : FVec F S128x1 .f32) (main_arg26 : FVec F S1 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S400000x1 .f32 := Host.absf main_arg2
  let main_cst_0 : FVec F S_ .f32 := constant S_ .f32 0x7F800000#32
  let main_v5 : FVec F S400000x1 .f32 := broadcastInDim S400000x1 ![] bcast_S_S400000x1 main_cst_0
  let main_v6 : IVec S400000x1 1 := cmpf .olt main_v4 main_v5
  let main_c_1 : IVec S_ 1 := constantI S_ 1 1#1
  let main_v7 : IVec S_ 1 := (fun x v => Host.reduce IntOp.andi x v reducesTo_S400000x1_S_d0_1 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S50000x32 : Shape := ⟨2, ![50000, 32]⟩
abbrev S2x400000 : Shape := ⟨2, ![2, 400000]⟩
abbrev S400000x1 : Shape := ⟨2, ![400000, 1]⟩
abbrev S32x32 : Shape := ⟨2, ![32, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S400000 : Shape := ⟨1, ![400000]⟩
abbrev S50000 : Shape := ⟨1, ![50000]⟩
abbrev S1x400000 : Shape := ⟨2, ![1, 400000]⟩
abbrev S450000 : Shape := ⟨1, ![450000]⟩
abbrev S_ : Shape := ⟨0, ![]⟩
abbrev S450000x1 : Shape := ⟨2, ![450000, 1]⟩
abbrev S2000x32 : Shape := ⟨2, ![2000, 32]⟩
abbrev S450000x32 : Shape := ⟨2, ![450000, 32]⟩
abbrev S1x32 : Shape := ⟨2, ![1, 32]⟩
abbrev S50000x64 : Shape := ⟨2, ![50000, 64]⟩
abbrev S2000x64 : Shape := ⟨2, ![2000, 64]⟩
abbrev S450000x64 : Shape := ⟨2, ![450000, 64]⟩
abbrev S1x64 : Shape := ⟨2, ![1, 64]⟩
abbrev S50000x128 : Shape := ⟨2, ![50000, 128]⟩
abbrev S2000x128 : Shape := ⟨2, ![2000, 128]⟩
abbrev S450000x128 : Shape := ⟨2, ![450000, 128]⟩
abbrev S1x128 : Shape := ⟨2, ![1, 128]⟩
abbrev S50000x256 : Shape := ⟨2, ![50000, 256]⟩
abbrev S2000x256 : Shape := ⟨2, ![2000, 256]⟩
abbrev S450000x256 : Shape := ⟨2, ![450000, 256]⟩
abbrev S1x256 : Shape := ⟨2, ![1, 256]⟩
abbrev S1x1 : Shape := ⟨2, ![1, 1]⟩
abbrev S50000x1 : Shape := ⟨2, ![50000, 1]⟩
abbrev S2000x1 : Shape := ⟨2, ![2000, 1]⟩

abbrev nBuf : Space → Nat
  | .hbm => 242
  | .vmem => 112
  | .smem => 0
  | _ => 0

abbrev hbmTy0_0 (i : Nat) : BufTy := match i % 128 with
  | 0 => ⟨S50000x32, .f32⟩
  | 1 => ⟨S2x400000, .i32⟩
  | 2 => ⟨S400000x1, .f32⟩
  | 3 => ⟨S32x32, .f32⟩
  | 4 => ⟨S32, .f32⟩
  | 5 => ⟨S32, .f32⟩
  | 6 => ⟨S32, .f32⟩
  | 7 => ⟨S32x64, .f32⟩
  | 8 => ⟨S64, .f32⟩
  | 9 => ⟨S64, .f32⟩
  | 10 => ⟨S64, .f32⟩
  | 11 => ⟨S64x128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128x256, .f32⟩
  | 20 => ⟨S256, .f32⟩
  | 21 => ⟨S256, .f32⟩
  | 22 => ⟨S256, .f32⟩
  | 23 => ⟨S256x128, .f32⟩
  | 24 => ⟨S128, .f32⟩
  | 25 => ⟨S128x1, .f32⟩
  | 26 => ⟨S1, .f32⟩
  | 27 => ⟨S400000, .f32⟩
  | 28 => ⟨S50000, .i32⟩
  | 29 => ⟨S1x400000, .i32⟩
  | 30 => ⟨S400000, .i32⟩
  | 31 => ⟨S450000, .i32⟩
  | 32 => ⟨S1x400000, .i32⟩
  | 33 => ⟨S400000, .i32⟩
  | 34 => ⟨S450000, .i32⟩
  | 35 => ⟨S_, .f32⟩
  | 36 => ⟨S50000, .f32⟩
  | 37 => ⟨S450000, .f32⟩
  | 38 => ⟨S_, .f32⟩
  | 39 => ⟨S50000, .f32⟩
  | 40 => ⟨S450000x1, .i32⟩
  | 41 => ⟨S50000, .f32⟩
  | 42 => ⟨S_, .f32⟩
  | 43 => ⟨S50000, .f32⟩
  | 44 => ⟨S50000, .i1⟩
  | 45 => ⟨S_, .f32⟩
  | 46 => ⟨S50000, .f32⟩
  | 47 => ⟨S50000, .i1⟩
  | 48 => ⟨S_, .f32⟩
  | 49 => ⟨S_, .f32⟩
  | 50 => ⟨S50000, .f32⟩
  | 51 => ⟨S50000, .f32⟩
  | 52 => ⟨S50000, .f32⟩
  | 53 => ⟨S_, .f32⟩
  | 54 => ⟨S_, .f32⟩
  | 55 => ⟨S50000, .f32⟩
  | 56 => ⟨S50000, .f32⟩
  | 57 => ⟨S_, .i32⟩
  | 58 => ⟨S450000, .i32⟩
  | 59 => ⟨S450000, .i1⟩
  | 60 => ⟨S_, .i32⟩
  | 61 => ⟨S450000, .i32⟩
  | 62 => ⟨S450000, .i32⟩
  | 63 => ⟨S450000, .i32⟩
  | 64 => ⟨S450000x1, .i32⟩
  | 65 => ⟨S450000, .f32⟩
  | 66 => ⟨S450000, .f32⟩
  | 67 => ⟨S_, .i32⟩
  | 68 => ⟨S450000, .i32⟩
  | 69 => ⟨S450000, .i1⟩
  | 70 => ⟨S_, .i32⟩
  | 71 => ⟨S450000, .i32⟩
  | 72 => ⟨S450000, .i32⟩
  | 73 => ⟨S450000, .i32⟩
  | 74 => ⟨S450000x1, .i32⟩
  | 75 => ⟨S450000, .f32⟩
  | 76 => ⟨S450000, .f32⟩
  | 77 => ⟨S50000x32, .f32⟩
  | 78 => ⟨S450000x1, .f32⟩
  | 79 => ⟨S_, .i32⟩
  | 80 => ⟨S450000, .i32⟩
  | 81 => ⟨S450000, .i1⟩
  | 82 => ⟨S_, .i32⟩
  | 83 => ⟨S450000, .i32⟩
  | 84 => ⟨S450000, .i32⟩
  | 85 => ⟨S450000, .i32⟩
  | 86 => ⟨S450000x1, .i32⟩
  | 87 => ⟨S450000x32, .f32⟩
  | 88 => ⟨S450000x32, .f32⟩
  | 89 => ⟨S450000x32, .f32⟩
  | 90 => ⟨S_, .f32⟩
  | 91 => ⟨S50000x32, .f32⟩
  | 92 => ⟨S450000x1, .i32⟩
  | 93 => ⟨S50000x32, .f32⟩
  | 94 => ⟨S1x32, .f32⟩
  | 95 => ⟨S50000x32, .f32⟩
  | 96 => ⟨S1x32, .f32⟩
  | 97 => ⟨S1x32, .f32⟩
  | 98 => ⟨S_, .f32⟩
  | 99 => ⟨S1x32, .f32⟩
  | 100 => ⟨S1x32, .f32⟩
  | 101 => ⟨S_, .f32⟩
  | 102 => ⟨S1x32, .f32⟩
  | 103 => ⟨S1x32, .f32⟩
  | 104 => ⟨S1x32, .f32⟩
  | 105 => ⟨S1x32, .f32⟩
  | 106 => ⟨S1x32, .f32⟩
  | 107 => ⟨S1x32, .f32⟩
  | 108 => ⟨S50000x32, .f32⟩
  | 109 => ⟨S50000x64, .f32⟩
  | 110 => ⟨S450000x1, .f32⟩
  | 111 => ⟨S_, .i32⟩
  | 112 => ⟨S450000, .i32⟩
  | 113 => ⟨S450000, .i1⟩
  | 114 => ⟨S_, .i32⟩
  | 115 => ⟨S450000, .i32⟩
  | 116 => ⟨S450000, .i32⟩
  | 117 => ⟨S450000, .i32⟩
  | 118 => ⟨S450000x1, .i32⟩
  | 119 => ⟨S450000x64, .f32⟩
  | 120 => ⟨S450000x64, .f32⟩
  | 121 => ⟨S450000x64, .f32⟩
  | 122 => ⟨S_, .f32⟩
  | 123 => ⟨S50000x64, .f32⟩
  | 124 => ⟨S450000x1, .i32⟩
  | 125 => ⟨S50000x64, .f32⟩
  | 126 => ⟨S1x64, .f32⟩
  | 127 => ⟨S50000x64, .f32⟩
  | _ => ⟨S50000x32, .f32⟩

abbrev hbmTy0_1 (i : Nat) : BufTy := match i % 128 with
  | 0 => ⟨S1x64, .f32⟩
  | 1 => ⟨S1x64, .f32⟩
  | 2 => ⟨S_, .f32⟩
  | 3 => ⟨S1x64, .f32⟩
  | 4 => ⟨S1x64, .f32⟩
  | 5 => ⟨S_, .f32⟩
  | 6 => ⟨S1x64, .f32⟩
  | 7 => ⟨S1x64, .f32⟩
  | 8 => ⟨S1x64, .f32⟩
  | 9 => ⟨S1x64, .f32⟩
  | 10 => ⟨S1x64, .f32⟩
  | 11 => ⟨S1x64, .f32⟩
  | 12 => ⟨S50000x64, .f32⟩
  | 13 => ⟨S50000x128, .f32⟩
  | 14 => ⟨S450000x1, .f32⟩
  | 15 => ⟨S_, .i32⟩
  | 16 => ⟨S450000, .i32⟩
  | 17 => ⟨S450000, .i1⟩
  | 18 => ⟨S_, .i32⟩
  | 19 => ⟨S450000, .i32⟩
  | 20 => ⟨S450000, .i32⟩
  | 21 => ⟨S450000, .i32⟩
  | 22 => ⟨S450000x1, .i32⟩
  | 23 => ⟨S450000x128, .f32⟩
  | 24 => ⟨S450000x128, .f32⟩
  | 25 => ⟨S450000x128, .f32⟩
  | 26 => ⟨S_, .f32⟩
  | 27 => ⟨S50000x128, .f32⟩
  | 28 => ⟨S450000x1, .i32⟩
  | 29 => ⟨S50000x128, .f32⟩
  | 30 => ⟨S1x128, .f32⟩
  | 31 => ⟨S50000x128, .f32⟩
  | 32 => ⟨S1x128, .f32⟩
  | 33 => ⟨S1x128, .f32⟩
  | 34 => ⟨S_, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S1x128, .f32⟩
  | 41 => ⟨S1x128, .f32⟩
  | 42 => ⟨S1x128, .f32⟩
  | 43 => ⟨S1x128, .f32⟩
  | 44 => ⟨S50000x128, .f32⟩
  | 45 => ⟨S50000x128, .f32⟩
  | 46 => ⟨S450000x1, .f32⟩
  | 47 => ⟨S_, .i32⟩
  | 48 => ⟨S450000, .i32⟩
  | 49 => ⟨S450000, .i1⟩
  | 50 => ⟨S_, .i32⟩
  | 51 => ⟨S450000, .i32⟩
  | 52 => ⟨S450000, .i32⟩
  | 53 => ⟨S450000, .i32⟩
  | 54 => ⟨S450000x1, .i32⟩
  | 55 => ⟨S450000x128, .f32⟩
  | 56 => ⟨S450000x128, .f32⟩
  | 57 => ⟨S450000x128, .f32⟩
  | 58 => ⟨S_, .f32⟩
  | 59 => ⟨S50000x128, .f32⟩
  | 60 => ⟨S450000x1, .i32⟩
  | 61 => ⟨S50000x128, .f32⟩
  | 62 => ⟨S1x128, .f32⟩
  | 63 => ⟨S50000x128, .f32⟩
  | 64 => ⟨S1x128, .f32⟩
  | 65 => ⟨S1x128, .f32⟩
  | 66 => ⟨S_, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S1x128, .f32⟩
  | 76 => ⟨S50000x128, .f32⟩
  | 77 => ⟨S50000x256, .f32⟩
  | 78 => ⟨S450000x1, .f32⟩
  | 79 => ⟨S_, .i32⟩
  | 80 => ⟨S450000, .i32⟩
  | 81 => ⟨S450000, .i1⟩
  | 82 => ⟨S_, .i32⟩
  | 83 => ⟨S450000, .i32⟩
  | 84 => ⟨S450000, .i32⟩
  | 85 => ⟨S450000, .i32⟩
  | 86 => ⟨S450000x1, .i32⟩
  | 87 => ⟨S450000x256, .f32⟩
  | 88 => ⟨S450000x256, .f32⟩
  | 89 => ⟨S450000x256, .f32⟩
  | 90 => ⟨S_, .f32⟩
  | 91 => ⟨S50000x256, .f32⟩
  | 92 => ⟨S450000x1, .i32⟩
  | 93 => ⟨S50000x256, .f32⟩
  | 94 => ⟨S1x256, .f32⟩
  | 95 => ⟨S50000x256, .f32⟩
  | 96 => ⟨S1x256, .f32⟩
  | 97 => ⟨S1x256, .f32⟩
  | 98 => ⟨S_, .f32⟩
  | 99 => ⟨S1x256, .f32⟩
  | 100 => ⟨S1x256, .f32⟩
  | 101 => ⟨S_, .f32⟩
  | 102 => ⟨S1x256, .f32⟩
  | 103 => ⟨S1x256, .f32⟩
  | 104 => ⟨S1x256, .f32⟩
  | 105 => ⟨S1x256, .f32⟩
  | 106 => ⟨S1x256, .f32⟩
  | 107 => ⟨S1x256, .f32⟩
  | 108 => ⟨S50000x256, .f32⟩
  | 109 => ⟨S1x128, .f32⟩
  | 110 => ⟨S50000x128, .f32⟩
  | 111 => ⟨S1x1, .f32⟩
  | 112 => ⟨S50000x1, .f32⟩
  | 113 => ⟨S50000, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | .local _ .vmem, ⟨0, _⟩ => ⟨S2000x32, .f32⟩
  | .local _ .vmem, ⟨1, _⟩ => ⟨S2000x32, .f32⟩
  | .local _ .vmem, ⟨2, _⟩ => ⟨S32x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S1x32, .f32⟩
  | .local _ .vmem, ⟨8, _⟩ => ⟨S2000x32, .f32⟩
  | .local _ .vmem, ⟨9, _⟩ => ⟨S2000x32, .f32⟩
  | .local _ .vmem, ⟨10, _⟩ => ⟨S1x32, .f32⟩
  | .local _ .vmem, ⟨11, _⟩ => ⟨S1x32, .f32⟩
  | .local _ .vmem, ⟨12, _⟩ => ⟨S2000x32, .f32⟩
  | .local _ .vmem, ⟨13, _⟩ => ⟨S2000x32, .f32⟩
  | .local _ .vmem, ⟨14, _⟩ => ⟨S1x32, .f32⟩
  | .local _ .vmem, ⟨15, _⟩ => ⟨S1x32, .f32⟩
  | .local _ .vmem, ⟨16, _⟩ => ⟨S1x32, .f32⟩
  | .local _ .vmem, ⟨17, _⟩ => ⟨S1x32, .f32⟩
  | .local _ .vmem, ⟨18, _⟩ => ⟨S2000x32, .f32⟩
  | .local _ .vmem, ⟨19, _⟩ => ⟨S2000x32, .f32⟩
  | .local _ .vmem, ⟨20, _⟩ => ⟨S2000x32, .f32⟩
  | .local _ .vmem, ⟨21, _⟩ => ⟨S2000x32, .f32⟩
  | .local _ .vmem, ⟨22, _⟩ => ⟨S32x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | .local _ .vmem, ⟨30, _⟩ => ⟨S1x64, .f32⟩
  | .local _ .vmem, ⟨31, _⟩ => ⟨S1x64, .f32⟩
  | .local _ .vmem, ⟨32, _⟩ => ⟨S2000x64, .f32⟩
  | .local _ .vmem, ⟨33, _⟩ => ⟨S2000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S64x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S1x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S128x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S1x128, .f32⟩
  | .local _ .vmem, ⟨68, _⟩ => ⟨S2000x128, .f32⟩
  | .local _ .vmem, ⟨69, _⟩ => ⟨S2000x128, .f32⟩
  | .local _ .vmem, ⟨70, _⟩ => ⟨S1x128, .f32⟩
  | .local _ .vmem, ⟨71, _⟩ => ⟨S1x128, .f32⟩
  | .local _ .vmem, ⟨72, _⟩ => ⟨S2000x128, .f32⟩
  | .local _ .vmem, ⟨73, _⟩ => ⟨S2000x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S2000x128, .f32⟩
  | .local _ .vmem, ⟨79, _⟩ => ⟨S2000x128, .f32⟩
  | .local _ .vmem, ⟨80, _⟩ => ⟨S2000x128, .f32⟩
  | .local _ .vmem, ⟨81, _⟩ => ⟨S2000x128, .f32⟩
  | .local _ .vmem, ⟨82, _⟩ => ⟨S128x256, .f32⟩
  | .local _ .vmem, ⟨83, _⟩ => ⟨S2000x256, .f32⟩
  | .local _ .vmem, ⟨84, _⟩ => ⟨S2000x256, .f32⟩
  | .local _ .vmem, ⟨85, _⟩ => ⟨S2000x256, .f32⟩
  | .local _ .vmem, ⟨86, _⟩ => ⟨S2000x256, .f32⟩
  | .local _ .vmem, ⟨87, _⟩ => ⟨S1x256, .f32⟩
  | .local _ .vmem, ⟨88, _⟩ => ⟨S2000x256, .f32⟩
  | .local _ .vmem, ⟨89, _⟩ => ⟨S2000x256, .f32⟩
  | .local _ .vmem, ⟨90, _⟩ => ⟨S1x256, .f32⟩
  | .local _ .vmem, ⟨91, _⟩ => ⟨S1x256, .f32⟩
  | .local _ .vmem, ⟨92, _⟩ => ⟨S2000x256, .f32⟩
  | .local _ .vmem, ⟨93, _⟩ => ⟨S2000x256, .f32⟩
  | .local _ .vmem, ⟨94, _⟩ => ⟨S1x256, .f32⟩
  | .local _ .vmem, ⟨95, _⟩ => ⟨S1x256, .f32⟩
  | .local _ .vmem, ⟨96, _⟩ => ⟨S1x256, .f32⟩
  | .local _ .vmem, ⟨97, _⟩ => ⟨S1x256, .f32⟩
  | .local _ .vmem, ⟨98, _⟩ => ⟨S2000x256, .f32⟩
  | .local _ .vmem, ⟨99, _⟩ => ⟨S2000x256, .f32⟩
  | .local _ .vmem, ⟨100, _⟩ => ⟨S2000x256, .f32⟩
  | .local _ .vmem, ⟨101, _⟩ => ⟨S2000x256, .f32⟩
  | .local _ .vmem, ⟨102, _⟩ => ⟨S256x128, .f32⟩
  | .local _ .vmem, ⟨103, _⟩ => ⟨S1x128, .f32⟩
  | .local _ .vmem, ⟨104, _⟩ => ⟨S2000x128, .f32⟩
  | .local _ .vmem, ⟨105, _⟩ => ⟨S2000x128, .f32⟩
  | .local _ .vmem, ⟨106, _⟩ => ⟨S2000x128, .f32⟩
  | .local _ .vmem, ⟨107, _⟩ => ⟨S2000x128, .f32⟩
  | .local _ .vmem, ⟨108, _⟩ => ⟨S128x1, .f32⟩
  | .local _ .vmem, ⟨109, _⟩ => ⟨S1x1, .f32⟩
  | .local _ .vmem, ⟨110, _⟩ => ⟨S2000x1, .f32⟩
  | .local _ .vmem, ⟨111, _⟩ => ⟨S2000x1, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_1 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_cst_3 : Ref sig .tc := ⟨.hbm, 48, rfl⟩
abbrev main_call0_v0 : Ref sig .tc := ⟨.hbm, 49, rfl⟩
abbrev main_call0_v1 : Ref sig .tc := ⟨.hbm, 50, rfl⟩
abbrev main_v17 : Ref sig .tc := ⟨.hbm, 51, rfl⟩
abbrev main_v18 : Ref sig .tc := ⟨.hbm, 52, rfl⟩
abbrev main_cst_4 : Ref sig .tc := ⟨.hbm, 53, rfl⟩
abbrev main_call1_v0 : Ref sig .tc := ⟨.hbm, 54, rfl⟩
abbrev main_call1_v1 : Ref sig .tc := ⟨.hbm, 55, rfl⟩
abbrev main_v19 : Ref sig .tc := ⟨.hbm, 56, rfl⟩
abbrev main_c : Ref sig .tc := ⟨.hbm, 57, rfl⟩
abbrev main_v20 : Ref sig .tc := ⟨.hbm, 58, rfl⟩
abbrev main_v21 : Ref sig .tc := ⟨.hbm, 59, rfl⟩
abbrev main_c_5 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_c_6 : Ref sig .tc := ⟨.hbm, 67, rfl⟩
abbrev main_v28 : Ref sig .tc := ⟨.hbm, 68, rfl⟩
abbrev main_v29 : Ref sig .tc := ⟨.hbm, 69, rfl⟩
abbrev main_c_7 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_c_8 : Ref sig .tc := ⟨.hbm, 79, rfl⟩
abbrev main_v38 : Ref sig .tc := ⟨.hbm, 80, rfl⟩
abbrev main_v39 : Ref sig .tc := ⟨.hbm, 81, rfl⟩
abbrev main_c_9 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_10 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51_0 : Ref sig .tc := ⟨.hbm, 95, rfl⟩
abbrev main_v51_1 : Ref sig .tc := ⟨.hbm, 96, rfl⟩
abbrev main_v51_2 : Ref sig .tc := ⟨.hbm, 97, rfl⟩
abbrev main_cst_11 : Ref sig .tc := ⟨.hbm, 98, rfl⟩
abbrev main_v52 : Ref sig .tc := ⟨.hbm, 99, rfl⟩
abbrev main_v53 : Ref sig .tc := ⟨.hbm, 100, rfl⟩
abbrev main_cst_12 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_c_13 : Ref sig .tc := ⟨.hbm, 111, rfl⟩
abbrev main_v63 : Ref sig .tc := ⟨.hbm, 112, rfl⟩
abbrev main_v64 : Ref sig .tc := ⟨.hbm, 113, rfl⟩
abbrev main_c_14 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_15 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76_0 : Ref sig .tc := ⟨.hbm, 127, rfl⟩
abbrev main_v76_1 : Ref sig .tc := ⟨.hbm, 128, rfl⟩
abbrev main_v76_2 : Ref sig .tc := ⟨.hbm, 129, rfl⟩
abbrev main_cst_16 : Ref sig .tc := ⟨.hbm, 130, rfl⟩
abbrev main_v77 : Ref sig .tc := ⟨.hbm, 131, rfl⟩
abbrev main_v78 : Ref sig .tc := ⟨.hbm, 132, rfl⟩
abbrev main_cst_17 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_c_18 : Ref sig .tc := ⟨.hbm, 143, rfl⟩
abbrev main_v88 : Ref sig .tc := ⟨.hbm, 144, rfl⟩
abbrev main_v89 : Ref sig .tc := ⟨.hbm, 145, rfl⟩
abbrev main_c_19 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_cst_20 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101_0 : Ref sig .tc := ⟨.hbm, 159, rfl⟩
abbrev main_v101_1 : Ref sig .tc := ⟨.hbm, 160, rfl⟩
abbrev main_v101_2 : Ref sig .tc := ⟨.hbm, 161, rfl⟩
abbrev main_cst_21 : Ref sig .tc := ⟨.hbm, 162, rfl⟩
abbrev main_v102 : Ref sig .tc := ⟨.hbm, 163, rfl⟩
abbrev main_v103 : Ref sig .tc := ⟨.hbm, 164, rfl⟩
abbrev main_cst_22 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_c_23 : Ref sig .tc := ⟨.hbm, 175, rfl⟩
abbrev main_v113 : Ref sig .tc := ⟨.hbm, 176, rfl⟩
abbrev main_v114 : Ref sig .tc := ⟨.hbm, 177, rfl⟩
abbrev main_c_24 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_25 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126_0 : Ref sig .tc := ⟨.hbm, 191, rfl⟩
abbrev main_v126_1 : Ref sig .tc := ⟨.hbm, 192, rfl⟩
abbrev main_v126_2 : Ref sig .tc := ⟨.hbm, 193, rfl⟩
abbrev main_cst_26 : Ref sig .tc := ⟨.hbm, 194, rfl⟩
abbrev main_v127 : Ref sig .tc := ⟨.hbm, 195, rfl⟩
abbrev main_v128 : Ref sig .tc := ⟨.hbm, 196, rfl⟩
abbrev main_cst_27 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_c_28 : Ref sig .tc := ⟨.hbm, 207, rfl⟩
abbrev main_v138 : Ref sig .tc := ⟨.hbm, 208, rfl⟩
abbrev main_v139 : Ref sig .tc := ⟨.hbm, 209, rfl⟩
abbrev main_c_29 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_cst_30 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151_0 : Ref sig .tc := ⟨.hbm, 223, rfl⟩
abbrev main_v151_1 : Ref sig .tc := ⟨.hbm, 224, rfl⟩
abbrev main_v151_2 : Ref sig .tc := ⟨.hbm, 225, rfl⟩
abbrev main_cst_31 : Ref sig .tc := ⟨.hbm, 226, rfl⟩
abbrev main_v152 : Ref sig .tc := ⟨.hbm, 227, rfl⟩
abbrev main_v153 : Ref sig .tc := ⟨.hbm, 228, rfl⟩
abbrev main_cst_32 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg2_1 : Ref sig .tc := ⟨.vmem, 49, rfl⟩
abbrev cc7_stg3_0 : Ref sig .tc := ⟨.vmem, 50, rfl⟩
abbrev cc7_stg4_0 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg4_0 : Ref sig .tc := ⟨.vmem, 57, rfl⟩
abbrev cc8_stg5_0 : Ref sig .tc := ⟨.vmem, 58, rfl⟩
abbrev cc8_stg5_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg2_1 : Ref sig .tc := ⟨.vmem, 64, rfl⟩
abbrev cc10_stg0_0 : Ref sig .tc := ⟨.vmem, 65, rfl⟩
abbrev cc10_stg0_1 : Ref sig .tc := ⟨.vmem, 66, rfl⟩
abbrev cc10_stg1_0 : Ref sig .tc := ⟨.vmem, 67, rfl⟩
abbrev cc10_stg2_0 : Ref sig .tc := ⟨.vmem, 68, rfl⟩
abbrev cc10_stg2_1 : Ref sig .tc := ⟨.vmem, 69, rfl⟩
abbrev cc10_stg3_0 : Ref sig .tc := ⟨.vmem, 70, rfl⟩
abbrev cc10_stg4_0 : Ref sig .tc := ⟨.vmem, 71, rfl⟩
abbrev cc11_stg0_0 : Ref sig .tc := ⟨.vmem, 72, rfl⟩
abbrev cc11_stg0_1 : Ref sig .tc := ⟨.vmem, 73, rfl⟩
abbrev cc11_stg1_0 : Ref sig .tc := ⟨.vmem, 74, rfl⟩
abbrev cc11_stg2_0 : Ref sig .tc := ⟨.vmem, 75, rfl⟩
abbrev cc11_stg3_0 : Ref sig .tc := ⟨.vmem, 76, rfl⟩
abbrev cc11_stg4_0 : Ref sig .tc := ⟨.vmem, 77, rfl⟩
abbrev cc11_stg5_0 : Ref sig .tc := ⟨.vmem, 78, rfl⟩
abbrev cc11_stg5_1 : Ref sig .tc := ⟨.vmem, 79, rfl⟩
abbrev cc12_stg0_0 : Ref sig .tc := ⟨.vmem, 80, rfl⟩
abbrev cc12_stg0_1 : Ref sig .tc := ⟨.vmem, 81, rfl⟩
abbrev cc12_stg1_0 : Ref sig .tc := ⟨.vmem, 82, rfl⟩
abbrev cc12_stg2_0 : Ref sig .tc := ⟨.vmem, 83, rfl⟩
abbrev cc12_stg2_1 : Ref sig .tc := ⟨.vmem, 84, rfl⟩
abbrev cc13_stg0_0 : Ref sig .tc := ⟨.vmem, 85, rfl⟩
abbrev cc13_stg0_1 : Ref sig .tc := ⟨.vmem, 86, rfl⟩
abbrev cc13_stg1_0 : Ref sig .tc := ⟨.vmem, 87, rfl⟩
abbrev cc13_stg2_0 : Ref sig .tc := ⟨.vmem, 88, rfl⟩
abbrev cc13_stg2_1 : Ref sig .tc := ⟨.vmem, 89, rfl⟩
abbrev cc13_stg3_0 : Ref sig .tc := ⟨.vmem, 90, rfl⟩
abbrev cc13_stg4_0 : Ref sig .tc := ⟨.vmem, 91, rfl⟩
abbrev cc14_stg0_0 : Ref sig .tc := ⟨.vmem, 92, rfl⟩
abbrev cc14_stg0_1 : Ref sig .tc := ⟨.vmem, 93, rfl⟩
abbrev cc14_stg1_0 : Ref sig .tc := ⟨.vmem, 94, rfl⟩
abbrev cc14_stg2_0 : Ref sig .tc := ⟨.vmem, 95, rfl⟩
abbrev cc14_stg3_0 : Ref sig .tc := ⟨.vmem, 96, rfl⟩
abbrev cc14_stg4_0 : Ref sig .tc := ⟨.vmem, 97, rfl⟩
abbrev cc14_stg5_0 : Ref sig .tc := ⟨.vmem, 98, rfl⟩
abbrev cc14_stg5_1 : Ref sig .tc := ⟨.vmem, 99, rfl⟩
abbrev cc15_stg0_0 : Ref sig .tc := ⟨.vmem, 100, rfl⟩
abbrev cc15_stg0_1 : Ref sig .tc := ⟨.vmem, 101, rfl⟩
abbrev cc15_stg1_0 : Ref sig .tc := ⟨.vmem, 102, rfl⟩
abbrev cc15_stg2_0 : Ref sig .tc := ⟨.vmem, 103, rfl⟩
abbrev cc15_stg3_0 : Ref sig .tc := ⟨.vmem, 104, rfl⟩
abbrev cc15_stg3_1 : Ref sig .tc := ⟨.vmem, 105, rfl⟩
abbrev cc16_stg0_0 : Ref sig .tc := ⟨.vmem, 106, rfl⟩
abbrev cc16_stg0_1 : Ref sig .tc := ⟨.vmem, 107, rfl⟩
abbrev cc16_stg1_0 : Ref sig .tc := ⟨.vmem, 108, rfl⟩
abbrev cc16_stg2_0 : Ref sig .tc := ⟨.vmem, 109, rfl⟩
abbrev cc16_stg3_0 : Ref sig .tc := ⟨.vmem, 110, rfl⟩
abbrev cc16_stg3_1 : Ref sig .tc := ⟨.vmem, 111, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49
abbrev cc7_sem3_0 : DmaSem sig := 50
abbrev cc7_sem4_0 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem3_0 : DmaSem sig := 56
abbrev cc8_sem4_0 : DmaSem sig := 57
abbrev cc8_sem5_0 : DmaSem sig := 58
abbrev cc8_sem5_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem2_1 : DmaSem sig := 64
abbrev cc10_sem0_0 : DmaSem sig := 65
abbrev cc10_sem0_1 : DmaSem sig := 66
abbrev cc10_sem1_0 : DmaSem sig := 67
abbrev cc10_sem2_0 : DmaSem sig := 68
abbrev cc10_sem2_1 : DmaSem sig := 69
abbrev cc10_sem3_0 : DmaSem sig := 70
abbrev cc10_sem4_0 : DmaSem sig := 71
abbrev cc11_sem0_0 : DmaSem sig := 72
abbrev cc11_sem0_1 : DmaSem sig := 73
abbrev cc11_sem1_0 : DmaSem sig := 74
abbrev cc11_sem2_0 : DmaSem sig := 75
abbrev cc11_sem3_0 : DmaSem sig := 76
abbrev cc11_sem4_0 : DmaSem sig := 77
abbrev cc11_sem5_0 : DmaSem sig := 78
abbrev cc11_sem5_1 : DmaSem sig := 79
abbrev cc12_sem0_0 : DmaSem sig := 80
abbrev cc12_sem0_1 : DmaSem sig := 81
abbrev cc12_sem1_0 : DmaSem sig := 82
abbrev cc12_sem2_0 : DmaSem sig := 83
abbrev cc12_sem2_1 : DmaSem sig := 84
abbrev cc13_sem0_0 : DmaSem sig := 85
abbrev cc13_sem0_1 : DmaSem sig := 86
abbrev cc13_sem1_0 : DmaSem sig := 87
abbrev cc13_sem2_0 : DmaSem sig := 88
abbrev cc13_sem2_1 : DmaSem sig := 89
abbrev cc13_sem3_0 : DmaSem sig := 90
abbrev cc13_sem4_0 : DmaSem sig := 91
abbrev cc14_sem0_0 : DmaSem sig := 92
abbrev cc14_sem0_1 : DmaSem sig := 93
abbrev cc14_sem1_0 : DmaSem sig := 94
abbrev cc14_sem2_0 : DmaSem sig := 95
abbrev cc14_sem3_0 : DmaSem sig := 96
abbrev cc14_sem4_0 : DmaSem sig := 97
abbrev cc14_sem5_0 : DmaSem sig := 98
abbrev cc14_sem5_1 : DmaSem sig := 99
abbrev cc15_sem0_0 : DmaSem sig := 100
abbrev cc15_sem0_1 : DmaSem sig := 101
abbrev cc15_sem1_0 : DmaSem sig := 102
abbrev cc15_sem2_0 : DmaSem sig := 103
abbrev cc15_sem3_0 : DmaSem sig := 104
abbrev cc15_sem3_1 : DmaSem sig := 105
abbrev cc16_sem0_0 : DmaSem sig := 106
abbrev cc16_sem0_1 : DmaSem sig := 107
abbrev cc16_sem1_0 : DmaSem sig := 108
abbrev cc16_sem2_0 : DmaSem sig := 109
abbrev cc16_sem3_0 : DmaSem sig := 110
abbrev cc16_sem3_1 : DmaSem sig := 111

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S2000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x256 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S2000x256 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S2000x256 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x256 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S2000x256 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 1 → Memref sig .tc .vmem S1x256 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x256 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x256 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x256 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x256 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x256 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S2000x256 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![25], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x256 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S256x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S2000x128 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![25], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S2000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S128x1 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x1 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S2000x1 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

class Facts₀ : Prop where
  shapeCasts_S400000x1_S400000 : S400000x1.ShapeCasts S400000
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S50000 : S_.BroadcastsInDim S50000 (![] : Fin 0 → Fin S50000.rank)
  bcast_S450000_S450000x1_0 : S450000.BroadcastsInDim S450000x1 (![0] : Fin 1 → Fin S450000x1.rank)
  bcast_S_S450000 : S_.BroadcastsInDim S450000 (![] : Fin 0 → Fin S450000.rank)
  inb_S2000x32_S2000x32_0_0 : ∀ a, (![0, 0] : Fin 2 → Nat) a + S2000x32.size a ≤ S2000x32.size a
  h_S2000x32 : 0 < S2000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  bcast_S450000x1_S450000x32_0_1 : S450000x1.BroadcastsInDim S450000x32 (![0, 1] : Fin 2 → Fin S450000x32.rank)
  bcast_S_S50000x32 : S_.BroadcastsInDim S50000x32 (![] : Fin 0 → Fin S50000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S2000x32_S2000x32 : S2000x32.ShapeCasts S2000x32
  shapeCasts_S1x32_S1x32 : S1x32.ShapeCasts S1x32
  broadcasts_S1x32_S2000x32 : S1x32.Broadcasts S2000x32
  reduces_S2000x32_S32 : S2000x32.Reduces [0] S32
  bcast_S_S1x32 : S_.BroadcastsInDim S1x32 (![] : Fin 0 → Fin S1x32.rank)
  inb_S32x64_S32x64_0_0 : ∀ a, (![0, 0] : Fin 2 → Nat) a + S32x64.size a ≤ S32x64.size a
  h_S32x64 : 0 < S32x64.numel
  inb_S2000x64_S2000x64_0_0 : ∀ a, (![0, 0] : Fin 2 → Nat) a + S2000x64.size a ≤ S2000x64.size a
  h_S2000x64 : 0 < S2000x64.numel
  bcast_S450000x1_S450000x64_0_1 : S450000x1.BroadcastsInDim S450000x64 (![0, 1] : Fin 2 → Fin S450000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S2000x64_S2000x64 : S2000x64.ShapeCasts S2000x64
  shapeCasts_S1x64_S1x64 : S1x64.ShapeCasts S1x64
  broadcasts_S1x64_S2000x64 : S1x64.Broadcasts S2000x64
  reduces_S2000x64_S64 : S2000x64.Reduces [0] S64
  bcast_S_S1x64 : S_.BroadcastsInDim S1x64 (![] : Fin 0 → Fin S1x64.rank)
  inb_S64x128_S64x128_0_0 : ∀ a, (![0, 0] : Fin 2 → Nat) a + S64x128.size a ≤ S64x128.size a
  h_S64x128 : 0 < S64x128.numel
  inb_S2000x128_S2000x128_0_0 : ∀ a, (![0, 0] : Fin 2 → Nat) a + S2000x128.size a ≤ S2000x128.size a
  h_S2000x128 : 0 < S2000x128.numel
  bcast_S450000x1_S450000x128_0_1 : S450000x1.BroadcastsInDim S450000x128 (![0, 1] : Fin 2 → Fin S450000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S2000x128_S2000x128 : S2000x128.ShapeCasts S2000x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  inb_S128x128_S128x128_0_0 : ∀ a, (![0, 0] : Fin 2 → Nat) a + S128x128.size a ≤ S128x128.size a
  h_S128x128 : 0 < S128x128.numel
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S2000x256_S2000x256 : S2000x256.ShapeCasts S2000x256
  shapeCasts_S1x256_S1x256 : S1x256.ShapeCasts S1x256
  broadcasts_S1x256_S2000x256 : S1x256.Broadcasts S2000x256
  reduces_S2000x256_S256 : S2000x256.Reduces [0] S256
  bcast_S_S1x256 : S_.BroadcastsInDim S1x256 (![] : Fin 0 → Fin S1x256.rank)
  inb_S256x128_S256x128_0_0 : ∀ a, (![0, 0] : Fin 2 → Nat) a + S256x128.size a ≤ S256x128.size a
  h_S256x128 : 0 < S256x128.numel
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S2000x32_S32x32_S2000x32_1_0_0_1_n_n_wf : DotDims.WF S2000x32 S32x32 S2000x32 [1] [0] [0] [1] [] []
  gather_S50000x32_S450000x1_S450000x32_1_0_n_n_0_1_132_wf : GatherDims.WF S50000x32 S450000x1 S450000x32 [1] [0] [] [0] [] 1 ![1, 32]
  scatter_S50000x32_S450000x1_S450000x32_1_0_0_1_wf : ScatterDims.WF S50000x32 S450000x1 S450000x32 [1] [0] [0] 1
  dot_S2000x32_S32x64_S2000x64_1_0_0_1_n_n_wf : DotDims.WF S2000x32 S32x64 S2000x64 [1] [0] [0] [1] [] []
  gather_S50000x64_S450000x1_S450000x64_1_0_n_n_0_1_164_wf : GatherDims.WF S50000x64 S450000x1 S450000x64 [1] [0] [] [0] [] 1 ![1, 64]
  scatter_S50000x64_S450000x1_S450000x64_1_0_0_1_wf : ScatterDims.WF S50000x64 S450000x1 S450000x64 [1] [0] [0] 1
  dot_S2000x64_S64x128_S2000x128_1_0_0_1_n_n_wf : DotDims.WF S2000x64 S64x128 S2000x128 [1] [0] [0] [1] [] []
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S50000x32.size a
  hwx0_0 : ∀ i : grid0.Coords, EltTy.bits .f32 = 32 ∨ (Rect.block (s := S50000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S50000x32.size a
  hwx0_2 : ∀ i : grid0.Coords, EltTy.bits .f32 = 32 ∨ (Rect.block (s := S50000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S50000x32.size a
  hwx1_0 : ∀ i : grid1.Coords, EltTy.bits .f32 = 32 ∨ (Rect.block (s := S50000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S50000x32.size a
  hwx1_2 : ∀ i : grid1.Coords, EltTy.bits .f32 = 32 ∨ (Rect.block (s := S50000x32) S2000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S50000x32.size a
  hwx2_0 : ∀ i : grid2.Coords, EltTy.bits .f32 = 32 ∨ (Rect.block (s := S50000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x32.size a ≤ S50000x32.size a
  hwx2_5 : ∀ i : grid2.Coords, EltTy.bits .f32 = 32 ∨ (Rect.block (s := S50000x32) S2000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S50000x32.size a
  hwx3_0 : ∀ i : grid3.Coords, EltTy.bits .f32 = 32 ∨ (Rect.block (s := S50000x32) S2000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x64.size a ≤ S32x64.size a
  hwx3_1 : ∀ i : grid3.Coords, EltTy.bits .f32 = 32 ∨ (Rect.block (s := S32x64) S32x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x64.size a ≤ S50000x64.size a
  hwx5_5 : ∀ i : grid5.Coords, EltTy.bits .f32 = 32 ∨ (Rect.block (s := S50000x64) S2000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S50000x128.size a
  hwx7_2 : ∀ i : grid7.Coords, EltTy.bits .f32 = 32 ∨ (Rect.block (s := S50000x128) S2000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S50000x128.size a
  hwx8_5 : ∀ i : grid8.Coords, EltTy.bits .f32 = 32 ∨ (Rect.block (s := S50000x128) S2000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x128.size a ≤ S50000x128.size a
  hwx9_2 : ∀ i : grid9.Coords, EltTy.bits .f32 = 32 ∨ (Rect.block (s := S50000x128) S2000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x128.size a ≤ S50000x128.size a
  hwx10_2 : ∀ i : grid10.Coords, EltTy.bits .f32 = 32 ∨ (Rect.block (s := S50000x128) S2000x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x128.size a ≤ S50000x128.size a
  hwx11_5 : ∀ i : grid11.Coords, EltTy.bits .f32 = 32 ∨ (Rect.block (s := S50000x128) S2000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S50000x128.size a
  hwx12_0 : ∀ i : grid12.Coords, EltTy.bits .f32 = 32 ∨ (Rect.block (s := S50000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x256.size a ≤ S128x256.size a
  hwx12_1 : ∀ i : grid12.Coords, EltTy.bits .f32 = 32 ∨ (Rect.block (s := S128x256) S128x256.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2000x256.size a ≤ S50000x256.size a
  hwx12_2 : ∀ i : grid12.Coords, EltTy.bits .f32 = 32 ∨ (Rect.block (s := S50000x256) S2000x256.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x256.size a ≤ S50000x256.size a
  hwx13_0 : ∀ i : grid13.Coords, EltTy.bits .f32 = 32 ∨ (Rect.block (s := S50000x256) S2000x256.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x256.size a ≤ S1x256.size a
  hwx13_1 : ∀ i : grid13.Coords, EltTy.bits .f32 = 32 ∨ (Rect.block (s := S1x256) S1x256.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2000x256.size a ≤ S50000x256.size a
  hwx13_2 : ∀ i : grid13.Coords, EltTy.bits .f32 = 32 ∨ (Rect.block (s := S50000x256) S2000x256.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x256.size a ≤ S1x256.size a
  hwx13_3 : ∀ i : grid13.Coords, EltTy.bits .f32 = 32 ∨ (Rect.block (s := S1x256) S1x256.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x256.size a ≤ S1x256.size a
  hwx13_4 : ∀ i : grid13.Coords, EltTy.bits .f32 = 32 ∨ (Rect.block (s := S1x256) S1x256.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x256.size a ≤ S50000x256.size a
  hwx14_0 : ∀ i : grid14.Coords, EltTy.bits .f32 = 32 ∨ (Rect.block (s := S50000x256) S2000x256.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x256.size a ≤ S1x256.size a
  hwx14_1 : ∀ i : grid14.Coords, EltTy.bits .f32 = 32 ∨ (Rect.block (s := S1x256) S1x256.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x256.size a ≤ S1x256.size a
  hwx14_2 : ∀ i : grid14.Coords, EltTy.bits .f32 = 32 ∨ (Rect.block (s := S1x256) S1x256.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x256.size a ≤ S1x256.size a
  hwx14_3 : ∀ i : grid14.Coords, EltTy.bits .f32 = 32 ∨ (Rect.block (s := S1x256) S1x256.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x256.size a ≤ S1x256.size a
  hwx14_4 : ∀ i : grid14.Coords, EltTy.bits .f32 = 32 ∨ (Rect.block (s := S1x256) S1x256.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S2000x256.size a ≤ S50000x256.size a
  hwx14_5 : ∀ i : grid14.Coords, EltTy.bits .f32 = 32 ∨ (Rect.block (s := S50000x256) S2000x256.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x256.size a ≤ S50000x256.size a
  hwx15_0 : ∀ i : grid15.Coords, EltTy.bits .f32 = 32 ∨ (Rect.block (s := S50000x256) S2000x256.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S256x128.size a ≤ S256x128.size a
  hwx15_1 : ∀ i : grid15.Coords, EltTy.bits .f32 = 32 ∨ (Rect.block (s := S256x128) S256x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S2000x128.size a ≤ S50000x128.size a
  hwx15_3 : ∀ i : grid15.Coords, EltTy.bits .f32 = 32 ∨ (Rect.block (s := S50000x128) S2000x128.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2000x128.size a ≤ S50000x128.size a
  hwx16_0 : ∀ i : grid16.Coords, EltTy.bits .f32 = 32 ∨ (Rect.block (s := S50000x128) S2000x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S128x1.size a ≤ S128x1.size a
  hwx16_1 : ∀ i : grid16.Coords, EltTy.bits .f32 = 32 ∨ (Rect.block (s := S128x1) S128x1.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x1.size a ≤ S1x1.size a
  hwx16_2 : ∀ i : grid16.Coords, EltTy.bits .f32 = 32 ∨ (Rect.block (s := S1x1) S1x1.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S2000x1.size a ≤ S50000x1.size a
  hwx16_3 : ∀ i : grid16.Coords, EltTy.bits .f32 = 32 ∨ (Rect.block (s := S50000x1) S2000x1.size (cc16_transform_3 i) (hinb16_3 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def gather_S50000x32_S450000x1_S450000x32_1_0_n_n_0_1_132 : GatherDims S50000x32 S450000x1 S450000x32 where
  offsetDims := [1]
  collapsedSliceDims := [0]
  operandBatchingDims := []
  startIndicesBatchingDims := []
  startIndexMap := [0]
  indexVectorDim := 1
  sliceSizes := ![1, 32]
  wf := gather_S50000x32_S450000x1_S450000x32_1_0_n_n_0_1_132_wf
def scatter_S50000x32_S450000x1_S450000x32_1_0_0_1 : ScatterDims S50000x32 S450000x1 S450000x32 where
  updateWindowDims := [1]
  insertedWindowDims := [0]
  scatterDimsToOperandDims := [0]
  indexVectorDim := 1
  wf := scatter_S50000x32_S450000x1_S450000x32_1_0_0_1_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def gather_S50000x64_S450000x1_S450000x64_1_0_n_n_0_1_164 : GatherDims S50000x64 S450000x1 S450000x64 where
  offsetDims := [1]
  collapsedSliceDims := [0]
  operandBatchingDims := []
  startIndicesBatchingDims := []
  startIndexMap := [0]
  indexVectorDim := 1
  sliceSizes := ![1, 64]
  wf := gather_S50000x64_S450000x1_S450000x64_1_0_n_n_0_1_164_wf
def scatter_S50000x64_S450000x1_S450000x64_1_0_0_1 : ScatterDims S50000x64 S450000x1 S450000x64 where
  updateWindowDims := [1]
  insertedWindowDims := [0]
  scatterDimsToOperandDims := [0]
  indexVectorDim := 1
  wf := scatter_S50000x64_S450000x1_S450000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51_0) S2000x32.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51_1) S1x32.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51_2) S1x32.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51_0) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S2000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S32x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76_0) S2000x64.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v76_1) S1x64.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76_2) S1x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v76_0) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v85) S2000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v85) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v86) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v99) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v100) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v101_0) S2000x128.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v101_1) S1x128.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v101_2) S1x128.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v101_0) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v103) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v107) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v108) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v109) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v110) S2000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v110) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg15) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v111) S2000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v124) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v125) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v126_0) S2000x128.size cc10_transform_2 reads10_2 true false 2 stage10_2 sem10_2
    hrank10 hreads10_2 hinb10_2 nbuf10_2 (Memref.isWhole_whole _) hwx10_2 hstage10_2

abbrev win10_3 : Pipeline.Window sig grid10 :=
  Pipeline.Window.ofSpec (Memref.whole main_v126_1) S1x128.size cc10_transform_3 reads10_3 true true 1 stage10_3 sem10_3
    hrank10 hreads10_3 hinb10_3 nbuf10_3 (Memref.isWhole_whole _) hwx10_3 hstage10_3

abbrev win10_4 : Pipeline.Window sig grid10 :=
  Pipeline.Window.ofSpec (Memref.whole main_v126_2) S1x128.size cc10_transform_4 reads10_4 true true 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v126_0) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v128) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v132) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v133) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v134) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v135) S2000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v135) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg19) S128x256.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v136) S2000x256.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v149) S2000x256.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v150) S1x256.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v151_0) S2000x256.size cc13_transform_2 reads13_2 true false 2 stage13_2 sem13_2
    hrank13 hreads13_2 hinb13_2 nbuf13_2 (Memref.isWhole_whole _) hwx13_2 hstage13_2

abbrev win13_3 : Pipeline.Window sig grid13 :=
  Pipeline.Window.ofSpec (Memref.whole main_v151_1) S1x256.size cc13_transform_3 reads13_3 true true 1 stage13_3 sem13_3
    hrank13 hreads13_3 hinb13_3 nbuf13_3 (Memref.isWhole_whole _) hwx13_3 hstage13_3

abbrev win13_4 : Pipeline.Window sig grid13 :=
  Pipeline.Window.ofSpec (Memref.whole main_v151_2) S1x256.size cc13_transform_4 reads13_4 true true 1 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v151_0) S2000x256.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v153) S1x256.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v157) S1x256.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v158) S1x256.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v159) S1x256.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v160) S2000x256.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v160) S2000x256.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg23) S256x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v161) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v162) S2000x128.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v162) S2000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_arg25) S128x1.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v163) S1x1.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v164) S2000x1.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

class Facts : Prop extends Facts₀ where

variable [Facts]
-- ==== ReferenceIdeal.lean ====
abbrev S50000x32 : Shape := ⟨2, ![50000, 32]⟩
abbrev S2x400000 : Shape := ⟨2, ![2, 400000]⟩
abbrev S400000x1 : Shape := ⟨2, ![400000, 1]⟩
abbrev S32x32 : Shape := ⟨2, ![32, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S400000 : Shape := ⟨1, ![400000]⟩
abbrev S50000 : Shape := ⟨1, ![50000]⟩
abbrev S1x400000 : Shape := ⟨2, ![1, 400000]⟩
abbrev S450000 : Shape := ⟨1, ![450000]⟩
abbrev S_ : Shape := ⟨0, ![]⟩
abbrev S450000x1 : Shape := ⟨2, ![450000, 1]⟩
abbrev S450000x32 : Shape := ⟨2, ![450000, 32]⟩
abbrev S1x32 : Shape := ⟨2, ![1, 32]⟩
abbrev S50000x64 : Shape := ⟨2, ![50000, 64]⟩
abbrev S450000x64 : Shape := ⟨2, ![450000, 64]⟩
abbrev S1x64 : Shape := ⟨2, ![1, 64]⟩
abbrev S50000x128 : Shape := ⟨2, ![50000, 128]⟩
abbrev S450000x128 : Shape := ⟨2, ![450000, 128]⟩
abbrev S1x128 : Shape := ⟨2, ![1, 128]⟩
abbrev S50000x256 : Shape := ⟨2, ![50000, 256]⟩
abbrev S450000x256 : Shape := ⟨2, ![450000, 256]⟩
abbrev S1x256 : Shape := ⟨2, ![1, 256]⟩
abbrev S50000x1 : Shape := ⟨2, ![50000, 1]⟩
abbrev S1x1 : Shape := ⟨2, ![1, 1]⟩

abbrev nBuf : Space → Nat
  | .hbm => 424
  | .vmem => 0
  | .smem => 0
  | _ => 0

abbrev hbmTy0_0 (i : Nat) : BufTy := match i % 128 with
  | 0 => ⟨S50000x32, .f32⟩
  | 1 => ⟨S2x400000, .i32⟩
  | 2 => ⟨S400000x1, .f32⟩
  | 3 => ⟨S32x32, .f32⟩
  | 4 => ⟨S32, .f32⟩
  | 5 => ⟨S32, .f32⟩
  | 6 => ⟨S32, .f32⟩
  | 7 => ⟨S32x64, .f32⟩
  | 8 => ⟨S64, .f32⟩
  | 9 => ⟨S64, .f32⟩
  | 10 => ⟨S64, .f32⟩
  | 11 => ⟨S64x128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128x256, .f32⟩
  | 20 => ⟨S256, .f32⟩
  | 21 => ⟨S256, .f32⟩
  | 22 => ⟨S256, .f32⟩
  | 23 => ⟨S256x128, .f32⟩
  | 24 => ⟨S128, .f32⟩
  | 25 => ⟨S128x1, .f32⟩
  | 26 => ⟨S1, .f32⟩
  | 27 => ⟨S400000, .f32⟩
  | 28 => ⟨S50000, .i32⟩
  | 29 => ⟨S1x400000, .i32⟩
  | 30 => ⟨S400000, .i32⟩
  | 31 => ⟨S450000, .i32⟩
  | 32 => ⟨S1x400000, .i32⟩
  | 33 => ⟨S400000, .i32⟩
  | 34 => ⟨S450000, .i32⟩
  | 35 => ⟨S_, .f32⟩
  | 36 => ⟨S50000, .f32⟩
  | 37 => ⟨S450000, .f32⟩
  | 38 => ⟨S_, .f32⟩
  | 39 => ⟨S50000, .f32⟩
  | 40 => ⟨S450000x1, .i32⟩
  | 41 => ⟨S50000, .f32⟩
  | 42 => ⟨S_, .f32⟩
  | 43 => ⟨S50000, .f32⟩
  | 44 => ⟨S50000, .i1⟩
  | 45 => ⟨S_, .f32⟩
  | 46 => ⟨S50000, .f32⟩
  | 47 => ⟨S50000, .i1⟩
  | 48 => ⟨S_, .f32⟩
  | 49 => ⟨S_, .f32⟩
  | 50 => ⟨S50000, .f32⟩
  | 51 => ⟨S50000, .f32⟩
  | 52 => ⟨S50000, .f32⟩
  | 53 => ⟨S_, .f32⟩
  | 54 => ⟨S_, .f32⟩
  | 55 => ⟨S50000, .f32⟩
  | 56 => ⟨S50000, .f32⟩
  | 57 => ⟨S_, .i32⟩
  | 58 => ⟨S450000, .i32⟩
  | 59 => ⟨S450000, .i1⟩
  | 60 => ⟨S_, .i32⟩
  | 61 => ⟨S450000, .i32⟩
  | 62 => ⟨S450000, .i32⟩
  | 63 => ⟨S450000, .i32⟩
  | 64 => ⟨S450000x1, .i32⟩
  | 65 => ⟨S450000, .f32⟩
  | 66 => ⟨S450000, .f32⟩
  | 67 => ⟨S_, .i32⟩
  | 68 => ⟨S450000, .i32⟩
  | 69 => ⟨S450000, .i1⟩
  | 70 => ⟨S_, .i32⟩
  | 71 => ⟨S450000, .i32⟩
  | 72 => ⟨S450000, .i32⟩
  | 73 => ⟨S450000, .i32⟩
  | 74 => ⟨S450000x1, .i32⟩
  | 75 => ⟨S450000, .f32⟩
  | 76 => ⟨S450000, .f32⟩
  | 77 => ⟨S50000x32, .f32⟩
  | 78 => ⟨S450000x1, .f32⟩
  | 79 => ⟨S_, .i32⟩
  | 80 => ⟨S450000, .i32⟩
  | 81 => ⟨S450000, .i1⟩
  | 82 => ⟨S_, .i32⟩
  | 83 => ⟨S450000, .i32⟩
  | 84 => ⟨S450000, .i32⟩
  | 85 => ⟨S450000, .i32⟩
  | 86 => ⟨S450000x1, .i32⟩
  | 87 => ⟨S450000x32, .f32⟩
  | 88 => ⟨S450000x32, .f32⟩
  | 89 => ⟨S450000x32, .f32⟩
  | 90 => ⟨S_, .f32⟩
  | 91 => ⟨S50000x32, .f32⟩
  | 92 => ⟨S450000x1, .i32⟩
  | 93 => ⟨S50000x32, .f32⟩
  | 94 => ⟨S1x32, .f32⟩
  | 95 => ⟨S50000x32, .f32⟩
  | 96 => ⟨S50000x32, .f32⟩
  | 97 => ⟨S_, .f32⟩
  | 98 => ⟨S50000x32, .f32⟩
  | 99 => ⟨S50000x32, .f32⟩
  | 100 => ⟨S_, .f32⟩
  | 101 => ⟨S32, .f32⟩
  | 102 => ⟨S_, .f32⟩
  | 103 => ⟨S32, .f32⟩
  | 104 => ⟨S32, .f32⟩
  | 105 => ⟨S_, .i32⟩
  | 106 => ⟨S_, .f32⟩
  | 107 => ⟨S32, .f32⟩
  | 108 => ⟨S1x32, .f32⟩
  | 109 => ⟨S_, .f32⟩
  | 110 => ⟨S1x32, .f32⟩
  | 111 => ⟨S1x32, .f32⟩
  | 112 => ⟨S50000x32, .f32⟩
  | 113 => ⟨S50000x32, .f32⟩
  | 114 => ⟨S50000x32, .f32⟩
  | 115 => ⟨S_, .f32⟩
  | 116 => ⟨S_, .f32⟩
  | 117 => ⟨S_, .f32⟩
  | 118 => ⟨S_, .f32⟩
  | 119 => ⟨S32, .f32⟩
  | 120 => ⟨S32, .f32⟩
  | 121 => ⟨S32, .f32⟩
  | 122 => ⟨S_, .f32⟩
  | 123 => ⟨S_, .i1⟩
  | 124 => ⟨S_, .f32⟩
  | 125 => ⟨S_, .f32⟩
  | 126 => ⟨S32, .f32⟩
  | 127 => ⟨S32, .f32⟩
  | _ => ⟨S50000x32, .f32⟩

abbrev hbmTy0_1 (i : Nat) : BufTy := match i % 128 with
  | 0 => ⟨S1x32, .f32⟩
  | 1 => ⟨S50000x32, .f32⟩
  | 2 => ⟨S50000x32, .f32⟩
  | 3 => ⟨S1x32, .f32⟩
  | 4 => ⟨S50000x32, .f32⟩
  | 5 => ⟨S50000x32, .f32⟩
  | 6 => ⟨S_, .f32⟩
  | 7 => ⟨S32, .f32⟩
  | 8 => ⟨S32, .f32⟩
  | 9 => ⟨S32, .f32⟩
  | 10 => ⟨S1x32, .f32⟩
  | 11 => ⟨S50000x32, .f32⟩
  | 12 => ⟨S50000x32, .f32⟩
  | 13 => ⟨S1x32, .f32⟩
  | 14 => ⟨S50000x32, .f32⟩
  | 15 => ⟨S50000x32, .f32⟩
  | 16 => ⟨S50000x64, .f32⟩
  | 17 => ⟨S450000x1, .f32⟩
  | 18 => ⟨S_, .i32⟩
  | 19 => ⟨S450000, .i32⟩
  | 20 => ⟨S450000, .i1⟩
  | 21 => ⟨S_, .i32⟩
  | 22 => ⟨S450000, .i32⟩
  | 23 => ⟨S450000, .i32⟩
  | 24 => ⟨S450000, .i32⟩
  | 25 => ⟨S450000x1, .i32⟩
  | 26 => ⟨S450000x64, .f32⟩
  | 27 => ⟨S450000x64, .f32⟩
  | 28 => ⟨S450000x64, .f32⟩
  | 29 => ⟨S_, .f32⟩
  | 30 => ⟨S50000x64, .f32⟩
  | 31 => ⟨S450000x1, .i32⟩
  | 32 => ⟨S50000x64, .f32⟩
  | 33 => ⟨S1x64, .f32⟩
  | 34 => ⟨S50000x64, .f32⟩
  | 35 => ⟨S50000x64, .f32⟩
  | 36 => ⟨S_, .f32⟩
  | 37 => ⟨S50000x64, .f32⟩
  | 38 => ⟨S50000x64, .f32⟩
  | 39 => ⟨S_, .f32⟩
  | 40 => ⟨S64, .f32⟩
  | 41 => ⟨S_, .f32⟩
  | 42 => ⟨S64, .f32⟩
  | 43 => ⟨S64, .f32⟩
  | 44 => ⟨S_, .i32⟩
  | 45 => ⟨S_, .f32⟩
  | 46 => ⟨S64, .f32⟩
  | 47 => ⟨S1x64, .f32⟩
  | 48 => ⟨S_, .f32⟩
  | 49 => ⟨S1x64, .f32⟩
  | 50 => ⟨S1x64, .f32⟩
  | 51 => ⟨S50000x64, .f32⟩
  | 52 => ⟨S50000x64, .f32⟩
  | 53 => ⟨S50000x64, .f32⟩
  | 54 => ⟨S_, .f32⟩
  | 55 => ⟨S_, .f32⟩
  | 56 => ⟨S_, .f32⟩
  | 57 => ⟨S_, .f32⟩
  | 58 => ⟨S64, .f32⟩
  | 59 => ⟨S64, .f32⟩
  | 60 => ⟨S64, .f32⟩
  | 61 => ⟨S_, .f32⟩
  | 62 => ⟨S_, .i1⟩
  | 63 => ⟨S_, .f32⟩
  | 64 => ⟨S_, .f32⟩
  | 65 => ⟨S64, .f32⟩
  | 66 => ⟨S64, .f32⟩
  | 67 => ⟨S1x64, .f32⟩
  | 68 => ⟨S50000x64, .f32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S64, .f32⟩
  | 75 => ⟨S64, .f32⟩
  | 76 => ⟨S64, .f32⟩
  | 77 => ⟨S1x64, .f32⟩
  | 78 => ⟨S50000x64, .f32⟩
  | 79 => ⟨S50000x64, .f32⟩
  | 80 => ⟨S1x64, .f32⟩
  | 81 => ⟨S50000x64, .f32⟩
  | 82 => ⟨S50000x64, .f32⟩
  | 83 => ⟨S50000x128, .f32⟩
  | 84 => ⟨S450000x1, .f32⟩
  | 85 => ⟨S_, .i32⟩
  | 86 => ⟨S450000, .i32⟩
  | 87 => ⟨S450000, .i1⟩
  | 88 => ⟨S_, .i32⟩
  | 89 => ⟨S450000, .i32⟩
  | 90 => ⟨S450000, .i32⟩
  | 91 => ⟨S450000, .i32⟩
  | 92 => ⟨S450000x1, .i32⟩
  | 93 => ⟨S450000x128, .f32⟩
  | 94 => ⟨S450000x128, .f32⟩
  | 95 => ⟨S450000x128, .f32⟩
  | 96 => ⟨S_, .f32⟩
  | 97 => ⟨S50000x128, .f32⟩
  | 98 => ⟨S450000x1, .i32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S_, .f32⟩
  | 107 => ⟨S128, .f32⟩
  | 108 => ⟨S_, .f32⟩
  | 109 => ⟨S128, .f32⟩
  | 110 => ⟨S128, .f32⟩
  | 111 => ⟨S_, .i32⟩
  | 112 => ⟨S_, .f32⟩
  | 113 => ⟨S128, .f32⟩
  | 114 => ⟨S1x128, .f32⟩
  | 115 => ⟨S_, .f32⟩
  | 116 => ⟨S1x128, .f32⟩
  | 117 => ⟨S1x128, .f32⟩
  | 118 => ⟨S50000x128, .f32⟩
  | 119 => ⟨S50000x128, .f32⟩
  | 120 => ⟨S50000x128, .f32⟩
  | 121 => ⟨S_, .f32⟩
  | 122 => ⟨S_, .f32⟩
  | 123 => ⟨S_, .f32⟩
  | 124 => ⟨S_, .f32⟩
  | 125 => ⟨S128, .f32⟩
  | 126 => ⟨S128, .f32⟩
  | 127 => ⟨S128, .f32⟩
  | _ => ⟨S50000x32, .f32⟩

abbrev hbmTy0_2 (i : Nat) : BufTy := match i % 128 with
  | 0 => ⟨S_, .f32⟩
  | 1 => ⟨S_, .i1⟩
  | 2 => ⟨S_, .f32⟩
  | 3 => ⟨S_, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S128, .f32⟩
  | 14 => ⟨S128, .f32⟩
  | 15 => ⟨S128, .f32⟩
  | 16 => ⟨S1x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S50000x128, .f32⟩
  | 23 => ⟨S450000x1, .f32⟩
  | 24 => ⟨S_, .i32⟩
  | 25 => ⟨S450000, .i32⟩
  | 26 => ⟨S450000, .i1⟩
  | 27 => ⟨S_, .i32⟩
  | 28 => ⟨S450000, .i32⟩
  | 29 => ⟨S450000, .i32⟩
  | 30 => ⟨S450000, .i32⟩
  | 31 => ⟨S450000x1, .i32⟩
  | 32 => ⟨S450000x128, .f32⟩
  | 33 => ⟨S450000x128, .f32⟩
  | 34 => ⟨S450000x128, .f32⟩
  | 35 => ⟨S_, .f32⟩
  | 36 => ⟨S50000x128, .f32⟩
  | 37 => ⟨S450000x1, .i32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S128, .f32⟩
  | 44 => ⟨S_, .f32⟩
  | 45 => ⟨S128, .f32⟩
  | 46 => ⟨S128, .f32⟩
  | 47 => ⟨S_, .i32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | 54 => ⟨S50000x128, .f32⟩
  | 55 => ⟨S50000x128, .f32⟩
  | 56 => ⟨S50000x128, .f32⟩
  | 57 => ⟨S_, .f32⟩
  | 58 => ⟨S_, .f32⟩
  | 59 => ⟨S_, .f32⟩
  | 60 => ⟨S_, .f32⟩
  | 61 => ⟨S128, .f32⟩
  | 62 => ⟨S128, .f32⟩
  | 63 => ⟨S128, .f32⟩
  | 64 => ⟨S_, .f32⟩
  | 65 => ⟨S_, .i1⟩
  | 66 => ⟨S_, .f32⟩
  | 67 => ⟨S_, .f32⟩
  | 68 => ⟨S128, .f32⟩
  | 69 => ⟨S128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S128, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x256, .f32⟩
  | 90 => ⟨S450000x1, .f32⟩
  | 91 => ⟨S_, .i32⟩
  | 92 => ⟨S450000, .i32⟩
  | 93 => ⟨S450000, .i1⟩
  | 94 => ⟨S_, .i32⟩
  | 95 => ⟨S450000, .i32⟩
  | 96 => ⟨S450000, .i32⟩
  | 97 => ⟨S450000, .i32⟩
  | 98 => ⟨S450000x1, .i32⟩
  | 99 => ⟨S450000x256, .f32⟩
  | 100 => ⟨S450000x256, .f32⟩
  | 101 => ⟨S450000x256, .f32⟩
  | 102 => ⟨S_, .f32⟩
  | 103 => ⟨S50000x256, .f32⟩
  | 104 => ⟨S450000x1, .i32⟩
  | 105 => ⟨S50000x256, .f32⟩
  | 106 => ⟨S1x256, .f32⟩
  | 107 => ⟨S50000x256, .f32⟩
  | 108 => ⟨S50000x256, .f32⟩
  | 109 => ⟨S_, .f32⟩
  | 110 => ⟨S256, .f32⟩
  | 111 => ⟨S_, .f32⟩
  | 112 => ⟨S256, .f32⟩
  | 113 => ⟨S256, .f32⟩
  | 114 => ⟨S_, .i32⟩
  | 115 => ⟨S_, .f32⟩
  | 116 => ⟨S256, .f32⟩
  | 117 => ⟨S1x256, .f32⟩
  | 118 => ⟨S_, .f32⟩
  | 119 => ⟨S1x256, .f32⟩
  | 120 => ⟨S1x256, .f32⟩
  | 121 => ⟨S50000x256, .f32⟩
  | 122 => ⟨S50000x256, .f32⟩
  | 123 => ⟨S50000x256, .f32⟩
  | 124 => ⟨S_, .f32⟩
  | 125 => ⟨S_, .f32⟩
  | 126 => ⟨S_, .f32⟩
  | 127 => ⟨S_, .f32⟩
  | _ => ⟨S50000x32, .f32⟩

abbrev hbmTy0_3 (i : Nat) : BufTy := match i % 128 with
  | 0 => ⟨S256, .f32⟩
  | 1 => ⟨S256, .f32⟩
  | 2 => ⟨S256, .f32⟩
  | 3 => ⟨S_, .f32⟩
  | 4 => ⟨S_, .i1⟩
  | 5 => ⟨S_, .f32⟩
  | 6 => ⟨S_, .f32⟩
  | 7 => ⟨S256, .f32⟩
  | 8 => ⟨S256, .f32⟩
  | 9 => ⟨S1x256, .f32⟩
  | 10 => ⟨S50000x256, .f32⟩
  | 11 => ⟨S50000x256, .f32⟩
  | 12 => ⟨S1x256, .f32⟩
  | 13 => ⟨S50000x256, .f32⟩
  | 14 => ⟨S50000x256, .f32⟩
  | 15 => ⟨S_, .f32⟩
  | 16 => ⟨S256, .f32⟩
  | 17 => ⟨S256, .f32⟩
  | 18 => ⟨S256, .f32⟩
  | 19 => ⟨S1x256, .f32⟩
  | 20 => ⟨S50000x256, .f32⟩
  | 21 => ⟨S50000x256, .f32⟩
  | 22 => ⟨S1x256, .f32⟩
  | 23 => ⟨S50000x256, .f32⟩
  | 24 => ⟨S50000x256, .f32⟩
  | 25 => ⟨S_, .f32⟩
  | 26 => ⟨S50000x256, .f32⟩
  | 27 => ⟨S50000x256, .f32⟩
  | 28 => ⟨S50000x128, .f32⟩
  | 29 => ⟨S1x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S50000x1, .f32⟩
  | 36 => ⟨S1x1, .f32⟩
  | 37 => ⟨S50000x1, .f32⟩
  | 38 => ⟨S50000x1, .f32⟩
  | 39 => ⟨S50000, .f32⟩
  | _ => ⟨S50000x32, .f32⟩

abbrev hbmTy (i : Nat) : BufTy := match i / 128 with
  | 0 => hbmTy0_0 i
  | 1 => hbmTy0_1 i
  | 2 => hbmTy0_2 i
  | 3 => hbmTy0_3 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_1 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_cst_3 : Ref sig .tc := ⟨.hbm, 48, rfl⟩
abbrev main_call0_v0 : Ref sig .tc := ⟨.hbm, 49, rfl⟩
abbrev main_call0_v1 : Ref sig .tc := ⟨.hbm, 50, rfl⟩
abbrev main_v17 : Ref sig .tc := ⟨.hbm, 51, rfl⟩
abbrev main_v18 : Ref sig .tc := ⟨.hbm, 52, rfl⟩
abbrev main_cst_4 : Ref sig .tc := ⟨.hbm, 53, rfl⟩
abbrev main_call1_v0 : Ref sig .tc := ⟨.hbm, 54, rfl⟩
abbrev main_call1_v1 : Ref sig .tc := ⟨.hbm, 55, rfl⟩
abbrev main_v19 : Ref sig .tc := ⟨.hbm, 56, rfl⟩
abbrev main_c : Ref sig .tc := ⟨.hbm, 57, rfl⟩
abbrev main_v20 : Ref sig .tc := ⟨.hbm, 58, rfl⟩
abbrev main_v21 : Ref sig .tc := ⟨.hbm, 59, rfl⟩
abbrev main_c_5 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_c_6 : Ref sig .tc := ⟨.hbm, 67, rfl⟩
abbrev main_v28 : Ref sig .tc := ⟨.hbm, 68, rfl⟩
abbrev main_v29 : Ref sig .tc := ⟨.hbm, 69, rfl⟩
abbrev main_c_7 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_c_8 : Ref sig .tc := ⟨.hbm, 79, rfl⟩
abbrev main_v38 : Ref sig .tc := ⟨.hbm, 80, rfl⟩
abbrev main_v39 : Ref sig .tc := ⟨.hbm, 81, rfl⟩
abbrev main_c_9 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_10 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_call2_cst : Ref sig .tc := ⟨.hbm, 97, rfl⟩
abbrev main_call2_v0 : Ref sig .tc := ⟨.hbm, 98, rfl⟩
abbrev main_v53 : Ref sig .tc := ⟨.hbm, 99, rfl⟩
abbrev main_cst_11 : Ref sig .tc := ⟨.hbm, 100, rfl⟩
abbrev main_v54 : Ref sig .tc := ⟨.hbm, 101, rfl⟩
abbrev main_cst_12 : Ref sig .tc := ⟨.hbm, 102, rfl⟩
abbrev main_v55 : Ref sig .tc := ⟨.hbm, 103, rfl⟩
abbrev main_v56 : Ref sig .tc := ⟨.hbm, 104, rfl⟩
abbrev main_c_13 : Ref sig .tc := ⟨.hbm, 105, rfl⟩
abbrev main_call3_cst : Ref sig .tc := ⟨.hbm, 106, rfl⟩
abbrev main_call3_v0 : Ref sig .tc := ⟨.hbm, 107, rfl⟩
abbrev main_call3_v1 : Ref sig .tc := ⟨.hbm, 108, rfl⟩
abbrev main_call3_cst_0 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_v6 : Ref sig .tc := ⟨.hbm, 114, rfl⟩
abbrev main_call3_v7 : Ref sig .tc := ⟨.hbm, 115, rfl⟩
abbrev main_call3_cst_1 : Ref sig .tc := ⟨.hbm, 116, rfl⟩
abbrev main_call3_v8 : Ref sig .tc := ⟨.hbm, 117, rfl⟩
abbrev main_call3_cst_2 : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_cst_3 : Ref sig .tc := ⟨.hbm, 122, rfl⟩
abbrev main_call3_v12 : Ref sig .tc := ⟨.hbm, 123, rfl⟩
abbrev main_call3_cst_4 : Ref sig .tc := ⟨.hbm, 124, rfl⟩
abbrev main_call3_call0_v0 : Ref sig .tc := ⟨.hbm, 125, rfl⟩
abbrev main_call3_call0_v1 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_cst_14 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_c_15 : Ref sig .tc := ⟨.hbm, 146, rfl⟩
abbrev main_v75 : Ref sig .tc := ⟨.hbm, 147, rfl⟩
abbrev main_v76 : Ref sig .tc := ⟨.hbm, 148, rfl⟩
abbrev main_c_16 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_cst_17 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_call4_cst : Ref sig .tc := ⟨.hbm, 164, rfl⟩
abbrev main_call4_v0 : Ref sig .tc := ⟨.hbm, 165, rfl⟩
abbrev main_v90 : Ref sig .tc := ⟨.hbm, 166, rfl⟩
abbrev main_cst_18 : Ref sig .tc := ⟨.hbm, 167, rfl⟩
abbrev main_v91 : Ref sig .tc := ⟨.hbm, 168, rfl⟩
abbrev main_cst_19 : Ref sig .tc := ⟨.hbm, 169, rfl⟩
abbrev main_v92 : Ref sig .tc := ⟨.hbm, 170, rfl⟩
abbrev main_v93 : Ref sig .tc := ⟨.hbm, 171, rfl⟩
abbrev main_c_20 : Ref sig .tc := ⟨.hbm, 172, rfl⟩
abbrev main_call5_cst : Ref sig .tc := ⟨.hbm, 173, rfl⟩
abbrev main_call5_v0 : Ref sig .tc := ⟨.hbm, 174, rfl⟩
abbrev main_call5_v1 : Ref sig .tc := ⟨.hbm, 175, rfl⟩
abbrev main_call5_cst_0 : Ref sig .tc := ⟨.hbm, 176, rfl⟩
abbrev main_call5_v2 : Ref sig .tc := ⟨.hbm, 177, rfl⟩
abbrev main_call5_v3 : Ref sig .tc := ⟨.hbm, 178, rfl⟩
abbrev main_call5_v4 : Ref sig .tc := ⟨.hbm, 179, rfl⟩
abbrev main_call5_v5 : Ref sig .tc := ⟨.hbm, 180, rfl⟩
abbrev main_call5_v6 : Ref sig .tc := ⟨.hbm, 181, rfl⟩
abbrev main_call5_v7 : Ref sig .tc := ⟨.hbm, 182, rfl⟩
abbrev main_call5_cst_1 : Ref sig .tc := ⟨.hbm, 183, rfl⟩
abbrev main_call5_v8 : Ref sig .tc := ⟨.hbm, 184, rfl⟩
abbrev main_call5_cst_2 : Ref sig .tc := ⟨.hbm, 185, rfl⟩
abbrev main_call5_v9 : Ref sig .tc := ⟨.hbm, 186, rfl⟩
abbrev main_call5_v10 : Ref sig .tc := ⟨.hbm, 187, rfl⟩
abbrev main_call5_v11 : Ref sig .tc := ⟨.hbm, 188, rfl⟩
abbrev main_call5_cst_3 : Ref sig .tc := ⟨.hbm, 189, rfl⟩
abbrev main_call5_v12 : Ref sig .tc := ⟨.hbm, 190, rfl⟩
abbrev main_call5_cst_4 : Ref sig .tc := ⟨.hbm, 191, rfl⟩
abbrev main_call5_call0_v0 : Ref sig .tc := ⟨.hbm, 192, rfl⟩
abbrev main_call5_call0_v1 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev main_v97 : Ref sig .tc := ⟨.hbm, 197, rfl⟩
abbrev main_v98 : Ref sig .tc := ⟨.hbm, 198, rfl⟩
abbrev main_v99 : Ref sig .tc := ⟨.hbm, 199, rfl⟩
abbrev main_v100 : Ref sig .tc := ⟨.hbm, 200, rfl⟩
abbrev main_cst_21 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_v108 : Ref sig .tc := ⟨.hbm, 209, rfl⟩
abbrev main_v109 : Ref sig .tc := ⟨.hbm, 210, rfl⟩
abbrev main_v110 : Ref sig .tc := ⟨.hbm, 211, rfl⟩
abbrev main_v111 : Ref sig .tc := ⟨.hbm, 212, rfl⟩
abbrev main_c_22 : Ref sig .tc := ⟨.hbm, 213, rfl⟩
abbrev main_v112 : Ref sig .tc := ⟨.hbm, 214, rfl⟩
abbrev main_v113 : Ref sig .tc := ⟨.hbm, 215, rfl⟩
abbrev main_c_23 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_cst_24 : Ref sig .tc := ⟨.hbm, 224, rfl⟩
abbrev main_v121 : Ref sig .tc := ⟨.hbm, 225, rfl⟩
abbrev main_v122 : Ref sig .tc := ⟨.hbm, 226, rfl⟩
abbrev main_v123 : Ref sig .tc := ⟨.hbm, 227, rfl⟩
abbrev main_v124 : Ref sig .tc := ⟨.hbm, 228, rfl⟩
abbrev main_v125 : Ref sig .tc := ⟨.hbm, 229, rfl⟩
abbrev main_v126 : Ref sig .tc := ⟨.hbm, 230, rfl⟩
abbrev main_call6_cst : Ref sig .tc := ⟨.hbm, 231, rfl⟩
abbrev main_call6_v0 : Ref sig .tc := ⟨.hbm, 232, rfl⟩
abbrev main_v127 : Ref sig .tc := ⟨.hbm, 233, rfl⟩
abbrev main_cst_25 : Ref sig .tc := ⟨.hbm, 234, rfl⟩
abbrev main_v128 : Ref sig .tc := ⟨.hbm, 235, rfl⟩
abbrev main_cst_26 : Ref sig .tc := ⟨.hbm, 236, rfl⟩
abbrev main_v129 : Ref sig .tc := ⟨.hbm, 237, rfl⟩
abbrev main_v130 : Ref sig .tc := ⟨.hbm, 238, rfl⟩
abbrev main_c_27 : Ref sig .tc := ⟨.hbm, 239, rfl⟩
abbrev main_call7_cst : Ref sig .tc := ⟨.hbm, 240, rfl⟩
abbrev main_call7_v0 : Ref sig .tc := ⟨.hbm, 241, rfl⟩
abbrev main_call7_v1 : Ref sig .tc := ⟨.hbm, 242, rfl⟩
abbrev main_call7_cst_0 : Ref sig .tc := ⟨.hbm, 243, rfl⟩
abbrev main_call7_v2 : Ref sig .tc := ⟨.hbm, 244, rfl⟩
abbrev main_call7_v3 : Ref sig .tc := ⟨.hbm, 245, rfl⟩
abbrev main_call7_v4 : Ref sig .tc := ⟨.hbm, 246, rfl⟩
abbrev main_call7_v5 : Ref sig .tc := ⟨.hbm, 247, rfl⟩
abbrev main_call7_v6 : Ref sig .tc := ⟨.hbm, 248, rfl⟩
abbrev main_call7_v7 : Ref sig .tc := ⟨.hbm, 249, rfl⟩
abbrev main_call7_cst_1 : Ref sig .tc := ⟨.hbm, 250, rfl⟩
abbrev main_call7_v8 : Ref sig .tc := ⟨.hbm, 251, rfl⟩
abbrev main_call7_cst_2 : Ref sig .tc := ⟨.hbm, 252, rfl⟩
abbrev main_call7_v9 : Ref sig .tc := ⟨.hbm, 253, rfl⟩
abbrev main_call7_v10 : Ref sig .tc := ⟨.hbm, 254, rfl⟩
abbrev main_call7_v11 : Ref sig .tc := ⟨.hbm, 255, rfl⟩
abbrev main_call7_cst_3 : Ref sig .tc := ⟨.hbm, 256, rfl⟩
abbrev main_call7_v12 : Ref sig .tc := ⟨.hbm, 257, rfl⟩
abbrev main_call7_cst_4 : Ref sig .tc := ⟨.hbm, 258, rfl⟩
abbrev main_call7_call0_v0 : Ref sig .tc := ⟨.hbm, 259, rfl⟩
abbrev main_call7_call0_v1 : Ref sig .tc := ⟨.hbm, 260, rfl⟩
abbrev main_v131 : Ref sig .tc := ⟨.hbm, 261, rfl⟩
abbrev main_v132 : Ref sig .tc := ⟨.hbm, 262, rfl⟩
abbrev main_v133 : Ref sig .tc := ⟨.hbm, 263, rfl⟩
abbrev main_v134 : Ref sig .tc := ⟨.hbm, 264, rfl⟩
abbrev main_v135 : Ref sig .tc := ⟨.hbm, 265, rfl⟩
abbrev main_v136 : Ref sig .tc := ⟨.hbm, 266, rfl⟩
abbrev main_v137 : Ref sig .tc := ⟨.hbm, 267, rfl⟩
abbrev main_cst_28 : Ref sig .tc := ⟨.hbm, 268, rfl⟩
abbrev main_v138 : Ref sig .tc := ⟨.hbm, 269, rfl⟩
abbrev main_v139 : Ref sig .tc := ⟨.hbm, 270, rfl⟩
abbrev main_v140 : Ref sig .tc := ⟨.hbm, 271, rfl⟩
abbrev main_v141 : Ref sig .tc := ⟨.hbm, 272, rfl⟩
abbrev main_v142 : Ref sig .tc := ⟨.hbm, 273, rfl⟩
abbrev main_v143 : Ref sig .tc := ⟨.hbm, 274, rfl⟩
abbrev main_v144 : Ref sig .tc := ⟨.hbm, 275, rfl⟩
abbrev main_v145 : Ref sig .tc := ⟨.hbm, 276, rfl⟩
abbrev main_v146 : Ref sig .tc := ⟨.hbm, 277, rfl⟩
abbrev main_v147 : Ref sig .tc := ⟨.hbm, 278, rfl⟩
abbrev main_v148 : Ref sig .tc := ⟨.hbm, 279, rfl⟩
abbrev main_c_29 : Ref sig .tc := ⟨.hbm, 280, rfl⟩
abbrev main_v149 : Ref sig .tc := ⟨.hbm, 281, rfl⟩
abbrev main_v150 : Ref sig .tc := ⟨.hbm, 282, rfl⟩
abbrev main_c_30 : Ref sig .tc := ⟨.hbm, 283, rfl⟩
abbrev main_v151 : Ref sig .tc := ⟨.hbm, 284, rfl⟩
abbrev main_v152 : Ref sig .tc := ⟨.hbm, 285, rfl⟩
abbrev main_v153 : Ref sig .tc := ⟨.hbm, 286, rfl⟩
abbrev main_v154 : Ref sig .tc := ⟨.hbm, 287, rfl⟩
abbrev main_v155 : Ref sig .tc := ⟨.hbm, 288, rfl⟩
abbrev main_v156 : Ref sig .tc := ⟨.hbm, 289, rfl⟩
abbrev main_v157 : Ref sig .tc := ⟨.hbm, 290, rfl⟩
abbrev main_cst_31 : Ref sig .tc := ⟨.hbm, 291, rfl⟩
abbrev main_v158 : Ref sig .tc := ⟨.hbm, 292, rfl⟩
abbrev main_v159 : Ref sig .tc := ⟨.hbm, 293, rfl⟩
abbrev main_v160 : Ref sig .tc := ⟨.hbm, 294, rfl⟩
abbrev main_v161 : Ref sig .tc := ⟨.hbm, 295, rfl⟩
abbrev main_v162 : Ref sig .tc := ⟨.hbm, 296, rfl⟩
abbrev main_v163 : Ref sig .tc := ⟨.hbm, 297, rfl⟩
abbrev main_cst_32 : Ref sig .tc := ⟨.hbm, 298, rfl⟩
abbrev main_v164 : Ref sig .tc := ⟨.hbm, 299, rfl⟩
abbrev main_cst_33 : Ref sig .tc := ⟨.hbm, 300, rfl⟩
abbrev main_v165 : Ref sig .tc := ⟨.hbm, 301, rfl⟩
abbrev main_v166 : Ref sig .tc := ⟨.hbm, 302, rfl⟩
abbrev main_c_34 : Ref sig .tc := ⟨.hbm, 303, rfl⟩
abbrev main_call8_cst : Ref sig .tc := ⟨.hbm, 304, rfl⟩
abbrev main_call8_v0 : Ref sig .tc := ⟨.hbm, 305, rfl⟩
abbrev main_call8_v1 : Ref sig .tc := ⟨.hbm, 306, rfl⟩
abbrev main_call8_cst_0 : Ref sig .tc := ⟨.hbm, 307, rfl⟩
abbrev main_call8_v2 : Ref sig .tc := ⟨.hbm, 308, rfl⟩
abbrev main_call8_v3 : Ref sig .tc := ⟨.hbm, 309, rfl⟩
abbrev main_call8_v4 : Ref sig .tc := ⟨.hbm, 310, rfl⟩
abbrev main_call8_v5 : Ref sig .tc := ⟨.hbm, 311, rfl⟩
abbrev main_call8_v6 : Ref sig .tc := ⟨.hbm, 312, rfl⟩
abbrev main_call8_v7 : Ref sig .tc := ⟨.hbm, 313, rfl⟩
abbrev main_call8_cst_1 : Ref sig .tc := ⟨.hbm, 314, rfl⟩
abbrev main_call8_v8 : Ref sig .tc := ⟨.hbm, 315, rfl⟩
abbrev main_call8_cst_2 : Ref sig .tc := ⟨.hbm, 316, rfl⟩
abbrev main_call8_v9 : Ref sig .tc := ⟨.hbm, 317, rfl⟩
abbrev main_call8_v10 : Ref sig .tc := ⟨.hbm, 318, rfl⟩
abbrev main_call8_v11 : Ref sig .tc := ⟨.hbm, 319, rfl⟩
abbrev main_call8_cst_3 : Ref sig .tc := ⟨.hbm, 320, rfl⟩
abbrev main_call8_v12 : Ref sig .tc := ⟨.hbm, 321, rfl⟩
abbrev main_call8_cst_4 : Ref sig .tc := ⟨.hbm, 322, rfl⟩
abbrev main_call8_call0_v0 : Ref sig .tc := ⟨.hbm, 323, rfl⟩
abbrev main_call8_call0_v1 : Ref sig .tc := ⟨.hbm, 324, rfl⟩
abbrev main_v167 : Ref sig .tc := ⟨.hbm, 325, rfl⟩
abbrev main_v168 : Ref sig .tc := ⟨.hbm, 326, rfl⟩
abbrev main_v169 : Ref sig .tc := ⟨.hbm, 327, rfl⟩
abbrev main_v170 : Ref sig .tc := ⟨.hbm, 328, rfl⟩
abbrev main_v171 : Ref sig .tc := ⟨.hbm, 329, rfl⟩
abbrev main_v172 : Ref sig .tc := ⟨.hbm, 330, rfl⟩
abbrev main_v173 : Ref sig .tc := ⟨.hbm, 331, rfl⟩
abbrev main_cst_35 : Ref sig .tc := ⟨.hbm, 332, rfl⟩
abbrev main_v174 : Ref sig .tc := ⟨.hbm, 333, rfl⟩
abbrev main_v175 : Ref sig .tc := ⟨.hbm, 334, rfl⟩
abbrev main_v176 : Ref sig .tc := ⟨.hbm, 335, rfl⟩
abbrev main_v177 : Ref sig .tc := ⟨.hbm, 336, rfl⟩
abbrev main_v178 : Ref sig .tc := ⟨.hbm, 337, rfl⟩
abbrev main_v179 : Ref sig .tc := ⟨.hbm, 338, rfl⟩
abbrev main_v180 : Ref sig .tc := ⟨.hbm, 339, rfl⟩
abbrev main_v181 : Ref sig .tc := ⟨.hbm, 340, rfl⟩
abbrev main_v182 : Ref sig .tc := ⟨.hbm, 341, rfl⟩
abbrev main_call9_cst : Ref sig .tc := ⟨.hbm, 342, rfl⟩
abbrev main_call9_v0 : Ref sig .tc := ⟨.hbm, 343, rfl⟩
abbrev main_v183 : Ref sig .tc := ⟨.hbm, 344, rfl⟩
abbrev main_v184 : Ref sig .tc := ⟨.hbm, 345, rfl⟩
abbrev main_v185 : Ref sig .tc := ⟨.hbm, 346, rfl⟩
abbrev main_c_36 : Ref sig .tc := ⟨.hbm, 347, rfl⟩
abbrev main_v186 : Ref sig .tc := ⟨.hbm, 348, rfl⟩
abbrev main_v187 : Ref sig .tc := ⟨.hbm, 349, rfl⟩
abbrev main_c_37 : Ref sig .tc := ⟨.hbm, 350, rfl⟩
abbrev main_v188 : Ref sig .tc := ⟨.hbm, 351, rfl⟩
abbrev main_v189 : Ref sig .tc := ⟨.hbm, 352, rfl⟩
abbrev main_v190 : Ref sig .tc := ⟨.hbm, 353, rfl⟩
abbrev main_v191 : Ref sig .tc := ⟨.hbm, 354, rfl⟩
abbrev main_v192 : Ref sig .tc := ⟨.hbm, 355, rfl⟩
abbrev main_v193 : Ref sig .tc := ⟨.hbm, 356, rfl⟩
abbrev main_v194 : Ref sig .tc := ⟨.hbm, 357, rfl⟩
abbrev main_cst_38 : Ref sig .tc := ⟨.hbm, 358, rfl⟩
abbrev main_v195 : Ref sig .tc := ⟨.hbm, 359, rfl⟩
abbrev main_v196 : Ref sig .tc := ⟨.hbm, 360, rfl⟩
abbrev main_v197 : Ref sig .tc := ⟨.hbm, 361, rfl⟩
abbrev main_v198 : Ref sig .tc := ⟨.hbm, 362, rfl⟩
abbrev main_v199 : Ref sig .tc := ⟨.hbm, 363, rfl⟩
abbrev main_v200 : Ref sig .tc := ⟨.hbm, 364, rfl⟩
abbrev main_cst_39 : Ref sig .tc := ⟨.hbm, 365, rfl⟩
abbrev main_v201 : Ref sig .tc := ⟨.hbm, 366, rfl⟩
abbrev main_cst_40 : Ref sig .tc := ⟨.hbm, 367, rfl⟩
abbrev main_v202 : Ref sig .tc := ⟨.hbm, 368, rfl⟩
abbrev main_v203 : Ref sig .tc := ⟨.hbm, 369, rfl⟩
abbrev main_c_41 : Ref sig .tc := ⟨.hbm, 370, rfl⟩
abbrev main_call10_cst : Ref sig .tc := ⟨.hbm, 371, rfl⟩
abbrev main_call10_v0 : Ref sig .tc := ⟨.hbm, 372, rfl⟩
abbrev main_call10_v1 : Ref sig .tc := ⟨.hbm, 373, rfl⟩
abbrev main_call10_cst_0 : Ref sig .tc := ⟨.hbm, 374, rfl⟩
abbrev main_call10_v2 : Ref sig .tc := ⟨.hbm, 375, rfl⟩
abbrev main_call10_v3 : Ref sig .tc := ⟨.hbm, 376, rfl⟩
abbrev main_call10_v4 : Ref sig .tc := ⟨.hbm, 377, rfl⟩
abbrev main_call10_v5 : Ref sig .tc := ⟨.hbm, 378, rfl⟩
abbrev main_call10_v6 : Ref sig .tc := ⟨.hbm, 379, rfl⟩
abbrev main_call10_v7 : Ref sig .tc := ⟨.hbm, 380, rfl⟩
abbrev main_call10_cst_1 : Ref sig .tc := ⟨.hbm, 381, rfl⟩
abbrev main_call10_v8 : Ref sig .tc := ⟨.hbm, 382, rfl⟩
abbrev main_call10_cst_2 : Ref sig .tc := ⟨.hbm, 383, rfl⟩
abbrev main_call10_v9 : Ref sig .tc := ⟨.hbm, 384, rfl⟩
abbrev main_call10_v10 : Ref sig .tc := ⟨.hbm, 385, rfl⟩
abbrev main_call10_v11 : Ref sig .tc := ⟨.hbm, 386, rfl⟩
abbrev main_call10_cst_3 : Ref sig .tc := ⟨.hbm, 387, rfl⟩
abbrev main_call10_v12 : Ref sig .tc := ⟨.hbm, 388, rfl⟩
abbrev main_call10_cst_4 : Ref sig .tc := ⟨.hbm, 389, rfl⟩
abbrev main_call10_call0_v0 : Ref sig .tc := ⟨.hbm, 390, rfl⟩
abbrev main_call10_call0_v1 : Ref sig .tc := ⟨.hbm, 391, rfl⟩
abbrev main_v204 : Ref sig .tc := ⟨.hbm, 392, rfl⟩
abbrev main_v205 : Ref sig .tc := ⟨.hbm, 393, rfl⟩
abbrev main_v206 : Ref sig .tc := ⟨.hbm, 394, rfl⟩
abbrev main_v207 : Ref sig .tc := ⟨.hbm, 395, rfl⟩
abbrev main_v208 : Ref sig .tc := ⟨.hbm, 396, rfl⟩
abbrev main_v209 : Ref sig .tc := ⟨.hbm, 397, rfl⟩
abbrev main_v210 : Ref sig .tc := ⟨.hbm, 398, rfl⟩
abbrev main_cst_42 : Ref sig .tc := ⟨.hbm, 399, rfl⟩
abbrev main_v211 : Ref sig .tc := ⟨.hbm, 400, rfl⟩
abbrev main_v212 : Ref sig .tc := ⟨.hbm, 401, rfl⟩
abbrev main_v213 : Ref sig .tc := ⟨.hbm, 402, rfl⟩
abbrev main_v214 : Ref sig .tc := ⟨.hbm, 403, rfl⟩
abbrev main_v215 : Ref sig .tc := ⟨.hbm, 404, rfl⟩
abbrev main_v216 : Ref sig .tc := ⟨.hbm, 405, rfl⟩
abbrev main_v217 : Ref sig .tc := ⟨.hbm, 406, rfl⟩
abbrev main_v218 : Ref sig .tc := ⟨.hbm, 407, rfl⟩
abbrev main_v219 : Ref sig .tc := ⟨.hbm, 408, rfl⟩
abbrev main_call11_cst : Ref sig .tc := ⟨.hbm, 409, rfl⟩
abbrev main_call11_v0 : Ref sig .tc := ⟨.hbm, 410, rfl⟩
abbrev main_v220 : Ref sig .tc := ⟨.hbm, 411, rfl⟩
abbrev main_v221 : Ref sig .tc := ⟨.hbm, 412, rfl⟩
abbrev main_v222 : Ref sig .tc := ⟨.hbm, 413, rfl⟩
abbrev main_v223 : Ref sig .tc := ⟨.hbm, 414, rfl⟩
abbrev main_v224 : Ref sig .tc := ⟨.hbm, 415, rfl⟩
abbrev main_call12_cst : Ref sig .tc := ⟨.hbm, 416, rfl⟩
abbrev main_call12_v0 : Ref sig .tc := ⟨.hbm, 417, rfl⟩
abbrev main_v225 : Ref sig .tc := ⟨.hbm, 418, rfl⟩
abbrev main_v226 : Ref sig .tc := ⟨.hbm, 419, rfl⟩
abbrev main_v227 : Ref sig .tc := ⟨.hbm, 420, rfl⟩
abbrev main_v228 : Ref sig .tc := ⟨.hbm, 421, rfl⟩
abbrev main_v229 : Ref sig .tc := ⟨.hbm, 422, rfl⟩
abbrev main_v230 : Ref sig .tc := ⟨.hbm, 423, rfl⟩

abbrev nD : Nat := 1
abbrev τ : Topo := Topo.v7x

variable {F : FTy → Type} [FloatOps F]

class Facts₀ : Prop where
  shapeCasts_S400000x1_S400000 : S400000x1.ShapeCasts S400000
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S50000 : S_.BroadcastsInDim S50000 (![] : Fin 0 → Fin S50000.rank)
  bcast_S450000_S450000x1_0 : S450000.BroadcastsInDim S450000x1 (![0] : Fin 1 → Fin S450000x1.rank)
  bcast_S_S450000 : S_.BroadcastsInDim S450000 (![] : Fin 0 → Fin S450000.rank)
  bcast_S450000x1_S450000x32_0_1 : S450000x1.BroadcastsInDim S450000x32 (![0, 1] : Fin 2 → Fin S450000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S32_d0 : S50000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  bcast_S450000x1_S450000x64_0_1 : S450000x1.BroadcastsInDim S450000x64 (![0, 1] : Fin 2 → Fin S450000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  bcast_S_S1x64 : S_.BroadcastsInDim S1x64 (![] : Fin 0 → Fin S1x64.rank)
  bcast_S450000x1_S450000x128_0_1 : S450000x1.BroadcastsInDim S450000x128 (![0, 1] : Fin 2 → Fin S450000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  bcast_S_S256 : S_.BroadcastsInDim S256 (![] : Fin 0 → Fin S256.rank)
  bcast_S_S1x256 : S_.BroadcastsInDim S1x256 (![] : Fin 0 → Fin S1x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x32_S32x32_S50000x32_1_0_0_1_n_n_wf : DotDims.WF S50000x32 S32x32 S50000x32 [1] [0] [0] [1] [] []
  gather_S50000x32_S450000x1_S450000x32_1_0_n_n_0_1_132_wf : GatherDims.WF S50000x32 S450000x1 S450000x32 [1] [0] [] [0] [] 1 ![1, 32]
  scatter_S50000x32_S450000x1_S450000x32_1_0_0_1_wf : ScatterDims.WF S50000x32 S450000x1 S450000x32 [1] [0] [0] 1
  dot_S50000x32_S32x64_S50000x64_1_0_0_1_n_n_wf : DotDims.WF S50000x32 S32x64 S50000x64 [1] [0] [0] [1] [] []
  gather_S50000x64_S450000x1_S450000x64_1_0_n_n_0_1_164_wf : GatherDims.WF S50000x64 S450000x1 S450000x64 [1] [0] [] [0] [] 1 ![1, 64]
  scatter_S50000x64_S450000x1_S450000x64_1_0_0_1_wf : ScatterDims.WF S50000x64 S450000x1 S450000x64 [1] [0] [0] 1
  dot_S50000x64_S64x128_S50000x128_1_0_0_1_n_n_wf : DotDims.WF S50000x64 S64x128 S50000x128 [1] [0] [0] [1] [] []
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S50000x256_S256x128_S50000x128_1_0_0_1_n_n_wf : DotDims.WF S50000x256 S256x128 S50000x128 [1] [0] [0] [1] [] []
  dot_S50000x128_S128x1_S50000x1_1_0_0_1_n_n_wf : DotDims.WF S50000x128 S128x1 S50000x1 [1] [0] [0] [1] [] []

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def gather_S50000x32_S450000x1_S450000x32_1_0_n_n_0_1_132 : GatherDims S50000x32 S450000x1 S450000x32 where
  offsetDims := [1]
  collapsedSliceDims := [0]
  operandBatchingDims := []
  startIndicesBatchingDims := []
  startIndexMap := [0]
  indexVectorDim := 1
  sliceSizes := ![1, 32]
  wf := gather_S50000x32_S450000x1_S450000x32_1_0_n_n_0_1_132_wf
def scatter_S50000x32_S450000x1_S450000x32_1_0_0_1 : ScatterDims S50000x32 S450000x1 S450000x32 where
  updateWindowDims := [1]
  insertedWindowDims := [0]
  scatterDimsToOperandDims := [0]
  indexVectorDim := 1
  wf := scatter_S50000x32_S450000x1_S450000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S450000x1_S450000x64_1_0_n_n_0_1_164 : GatherDims S50000x64 S450000x1 S450000x64 where
  offsetDims := [1]
  collapsedSliceDims := [0]
  operandBatchingDims := []
  startIndicesBatchingDims := []
  startIndexMap := [0]
  indexVectorDim := 1
  sliceSizes := ![1, 64]
  wf := gather_S50000x64_S450000x1_S450000x64_1_0_n_n_0_1_164_wf
def scatter_S50000x64_S450000x1_S450000x64_1_0_0_1 : ScatterDims S50000x64 S450000x1 S450000x64 where
  updateWindowDims := [1]
  insertedWindowDims := [0]
  scatterDimsToOperandDims := [0]
  indexVectorDim := 1
  wf := scatter_S50000x64_S450000x1_S450000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.RefOpsA.lean ====
import proofs.«107715_j23149873725632_1_alg».proof.Proof.Gen.ReferenceIdeal
import Idealize.ShloMosaic.Lib.StableHlo.Run

/-! The reference program's operations as lists:  @main is printed in windows main_partN, and it calls
    module-local functions; a function's body runs on the call's operands and on the call's own buffer record, so a call
    is listed here as the callee's operations with its parameters replaced by the operands and its record by the call's
    (a call inside a callee likewise).  A piece is a maximal run of statements inside one printed window and one stage of
    the computation (stage 0: the normalised edge weights, up to %35; stages 1-5: one graph-convolution layer each, from
    its matrix product to its normalisation; stage 6: the two dense layers of the head). -/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Stage 0 inside window main_part0: 50 operations. -/
abbrev piece0 : List (HloOp τ sig (Elt F)) :=
  [ StableHlo.reshape main_arg2 main_v0 rfl shapeCasts_S400000x1_S400000,
    StableHlo.nullary main_v1 (iotaInDim S50000 32 0),
    StableHlo.unary main_arg1 main_v2 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v2 main_v3 rfl shapeCasts_S1x400000_S400000,
    StableHlo.binary main_v3 main_v1 main_v4 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)),
    StableHlo.unary main_arg1 main_v5 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v5 main_v6 rfl shapeCasts_S1x400000_S400000,
    StableHlo.binary main_v6 main_v1 main_v7 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)),
    StableHlo.nullary main_cst (constant S_ .f32 0x3F800000#32),
    StableHlo.unary main_cst main_v8 (broadcastInDim S50000 ![] bcast_S_S50000 : (⟨S_, .f32⟩ : BufTy).Contents (Elt F) → (⟨S50000, .f32⟩ : BufTy).Contents (Elt F)),
    StableHlo.binary main_v0 main_v8 main_v9 ((fun a b => concatenate S450000 0 [⟨S400000, a⟩, ⟨S50000, b⟩] concatenates_S400000_S50000_S450000_d0) : (⟨S400000, .f32⟩ : BufTy).Contents (Elt F) → (⟨S50000, .f32⟩ : BufTy).Contents (Elt F) → (⟨S450000, .f32⟩ : BufTy).Contents (Elt F)),
    StableHlo.nullary main_cst_0 (constant S_ .f32 0x00000000#32),
    StableHlo.unary main_cst_0 main_v10 (broadcastInDim S50000 ![] bcast_S_S50000 : (⟨S_, .f32⟩ : BufTy).Contents (Elt F) → (⟨S50000, .f32⟩ : BufTy).Contents (Elt F)),
    StableHlo.unary main_v7 main_v11 (broadcastInDim S450000x1 ![0] bcast_S450000_S450000x1_0 : (⟨S450000, .i32⟩ : BufTy).Contents (Elt F) → (⟨S450000x1, .i32⟩ : BufTy).Contents (Elt F)),
    StableHlo.ternary main_v10 main_v11 main_v9 main_v12 ((fun x i u => Host.scatterAdd scatter_S50000_S450000x1_S450000_n_0_0_1 x i u) : (⟨S50000, .f32⟩ : BufTy).Contents (Elt F) → (⟨S450000x1, .i32⟩ : BufTy).Contents (Elt F) → (⟨S450000, .f32⟩ : BufTy).Contents (Elt F) → (⟨S50000, .f32⟩ : BufTy).Contents (Elt F)),
    StableHlo.nullary main_cst_1 (constant S_ .f32 0x00000000#32),
    StableHlo.unary main_cst_1 main_v13 (broadcastInDim S50000 ![] bcast_S_S50000 : (⟨S_, .f32⟩ : BufTy).Contents (Elt F) → (⟨S50000, .f32⟩ : BufTy).Contents (Elt F)),
    StableHlo.binary main_v12 main_v13 main_v14 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.binary main_v12 main_v15 main_v16 (cmpf .ogt : (⟨S50000, .f32⟩ : BufTy).Contents (Elt F) → (⟨S50000, .f32⟩ : BufTy).Contents (Elt F) → (⟨S50000, .i1⟩ : BufTy).Contents (Elt F)),
    StableHlo.nullary main_cst_3 (constant S_ .f32 0x3F800000#32),
    StableHlo.TRef.unary (.of main_cst_3 : StableHlo.TRef sig ⟨S_, .f32⟩) main_call0.v0 id,
    StableHlo.TRef.unary main_call0.v0 main_call0.v1 (broadcastInDim S50000 ![] bcast_S_S50000),
    StableHlo.TRef.ternary (.of main_v16 : StableHlo.TRef sig ⟨S50000, .i1⟩) (.of main_v12 : StableHlo.TRef sig ⟨S50000, .f32⟩) main_call0.v1 main_call0.v2 select,
    StableHlo.unary main_v17 main_v18 (Host.rsqrt : (⟨S50000, .f32⟩ : BufTy).Contents (Elt F) → (⟨S50000, .f32⟩ : BufTy).Contents (Elt F)),
    StableHlo.nullary main_cst_4 (constant S_ .f32 0x00000000#32),
    StableHlo.TRef.unary (.of main_cst_4 : StableHlo.TRef sig ⟨S_, .f32⟩) main_call1.v0 id,
    StableHlo.TRef.unary main_call1.v0 main_call1.v1 (broadcastInDim S50000 ![] bcast_S_S50000),
    StableHlo.TRef.ternary (.of main_v14 : StableHlo.TRef sig ⟨S50000, .i1⟩) (.of main_v18 : StableHlo.TRef sig ⟨S50000, .f32⟩) main_call1.v1 main_call1.v2 select,
    StableHlo.nullary main_c (constantI S_ 32 0#32),
    StableHlo.unary main_c main_v20 (broadcastInDim S450000 ![] bcast_S_S450000 : (⟨S_, .i32⟩ : BufTy).Contents (Elt F) → (⟨S450000, .i32⟩ : BufTy).Contents (Elt F)),
    StableHlo.binary main_v4 main_v20 main_v21 (cmpi .slt : (⟨S450000, .i32⟩ : BufTy).Contents (Elt F) → (⟨S450000, .i32⟩ : BufTy).Contents (Elt F) → (⟨S450000, .i1⟩ : BufTy).Contents (Elt F)),
    StableHlo.nullary main_c_5 (constantI S_ 32 50000#32),
    StableHlo.unary main_c_5 main_v22 (broadcastInDim S450000 ![] bcast_S_S450000 : (⟨S_, .i32⟩ : BufTy).Contents (Elt F) → (⟨S450000, .i32⟩ : BufTy).Contents (Elt F)),
    StableHlo.binary main_v4 main_v22 main_v23 (addi : (⟨S450000, .i32⟩ : BufTy).Contents (Elt F) → (⟨S450000, .i32⟩ : BufTy).Contents (Elt F) → (⟨S450000, .i32⟩ : BufTy).Contents (Elt F)),
    StableHlo.ternary main_v21 main_v23 main_v4 main_v24 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    StableHlo.unary main_v24 main_v25 (broadcastInDim S450000x1 ![0] bcast_S450000_S450000x1_0 : (⟨S450000, .i32⟩ : BufTy).Contents (Elt F) → (⟨S450000x1, .i32⟩ : BufTy).Contents (Elt F)),
    StableHlo.binary main_v19 main_v25 main_v26 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    StableHlo.binary main_v26 main_v9 main_v27 (mulf : (⟨S450000, .f32⟩ : BufTy).Contents (Elt F) → (⟨S450000, .f32⟩ : BufTy).Contents (Elt F) → (⟨S450000, .f32⟩ : BufTy).Contents (Elt F)),
    StableHlo.nullary main_c_6 (constantI S_ 32 0#32),
    StableHlo.unary main_c_6 main_v28 (broadcastInDim S450000 ![] bcast_S_S450000 : (⟨S_, .i32⟩ : BufTy).Contents (Elt F) → (⟨S450000, .i32⟩ : BufTy).Contents (Elt F)),
    StableHlo.binary main_v7 main_v28 main_v29 (cmpi .slt : (⟨S450000, .i32⟩ : BufTy).Contents (Elt F) → (⟨S450000, .i32⟩ : BufTy).Contents (Elt F) → (⟨S450000, .i1⟩ : BufTy).Contents (Elt F)),
    StableHlo.nullary main_c_7 (constantI S_ 32 50000#32),
    StableHlo.unary main_c_7 main_v30 (broadcastInDim S450000 ![] bcast_S_S450000 : (⟨S_, .i32⟩ : BufTy).Contents (Elt F) → (⟨S450000, .i32⟩ : BufTy).Contents (Elt F)),
    StableHlo.binary main_v7 main_v30 main_v31 (addi : (⟨S450000, .i32⟩ : BufTy).Contents (Elt F) → (⟨S450000, .i32⟩ : BufTy).Contents (Elt F) → (⟨S450000, .i32⟩ : BufTy).Contents (Elt F)),
    StableHlo.ternary main_v29 main_v31 main_v7 main_v32 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    StableHlo.unary main_v32 main_v33 (broadcastInDim S450000x1 ![0] bcast_S450000_S450000x1_0 : (⟨S450000, .i32⟩ : BufTy).Contents (Elt F) → (⟨S450000x1, .i32⟩ : BufTy).Contents (Elt F)),
    StableHlo.binary main_v19 main_v33 main_v34 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    StableHlo.binary main_v27 main_v34 main_v35 (mulf : (⟨S450000, .f32⟩ : BufTy).Contents (Elt F) → (⟨S450000, .f32⟩ : BufTy).Contents (Elt F) → (⟨S450000, .f32⟩ : BufTy).Contents (Elt F)) ]

set_option maxRecDepth 8192 in
theorem piece0_sub : (piece0 : List (HloOp τ sig (Elt F))).Forall fun op => op.bufs ⊆ tcRefs τ sig :=
  ⟨reshape_bufs_sub .., nullary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

set_option maxRecDepth 8192 in
theorem piece0_fresh : (piece0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references piece0 writes, in order. -/
abbrev piece0_W : List (Ref sig .tc) := [main_v0, main_v1, main_v2, main_v3, main_v4, main_v5, main_v6, main_v7, main_cst, main_v8, main_v9, main_cst_0, main_v10, main_v11, main_v12, main_cst_1, main_v13, main_v14, main_cst_2, main_v15, main_v16, main_cst_3, main_call0_v0, main_call0_v1, main_v17, main_v18, main_cst_4, main_call1_v0, main_call1_v1, main_v19, main_c, main_v20, main_v21, main_c_5, main_v22, main_v23, main_v24, main_v25, main_v26, main_v27, main_c_6, main_v28, main_v29, main_c_7, main_v30, main_v31, main_v32, main_v33, main_v34, main_v35]

set_option maxRecDepth 8192 in
theorem piece0_writes : (piece0 : List (HloOp τ sig (Elt F))).Forall fun op => op.writes ⊆ (piece0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Stage 1 inside window main_part0: 14 operations. -/
abbrev piece1 : List (HloOp τ sig (Elt F)) :=
  [ StableHlo.binary main_arg0 main_arg3 main_v36 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    StableHlo.unary main_v35 main_v37 (broadcastInDim S450000x1 ![0] bcast_S450000_S450000x1_0 : (⟨S450000, .f32⟩ : BufTy).Contents (Elt F) → (⟨S450000x1, .f32⟩ : BufTy).Contents (Elt F)),
    StableHlo.nullary main_c_8 (constantI S_ 32 0#32),
    StableHlo.unary main_c_8 main_v38 (broadcastInDim S450000 ![] bcast_S_S450000 : (⟨S_, .i32⟩ : BufTy).Contents (Elt F) → (⟨S450000, .i32⟩ : BufTy).Contents (Elt F)),
    StableHlo.binary main_v4 main_v38 main_v39 (cmpi .slt : (⟨S450000, .i32⟩ : BufTy).Contents (Elt F) → (⟨S450000, .i32⟩ : BufTy).Contents (Elt F) → (⟨S450000, .i1⟩ : BufTy).Contents (Elt F)),
    StableHlo.nullary main_c_9 (constantI S_ 32 50000#32),
    StableHlo.unary main_c_9 main_v40 (broadcastInDim S450000 ![] bcast_S_S450000 : (⟨S_, .i32⟩ : BufTy).Contents (Elt F) → (⟨S450000, .i32⟩ : BufTy).Contents (Elt F)),
    StableHlo.binary main_v4 main_v40 main_v41 (addi : (⟨S450000, .i32⟩ : BufTy).Contents (Elt F) → (⟨S450000, .i32⟩ : BufTy).Contents (Elt F) → (⟨S450000, .i32⟩ : BufTy).Contents (Elt F)),
    StableHlo.ternary main_v39 main_v41 main_v4 main_v42 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    StableHlo.unary main_v42 main_v43 (broadcastInDim S450000x1 ![0] bcast_S450000_S450000x1_0 : (⟨S450000, .i32⟩ : BufTy).Contents (Elt F) → (⟨S450000x1, .i32⟩ : BufTy).Contents (Elt F)),
    StableHlo.binary main_v36 main_v43 main_v44 ((fun x i => Host.gather gather_S50000x32_S450000x1_S450000x32_1_0_n_n_0_1_132 x i) : (⟨S50000x32, .f32⟩ : BufTy).Contents (Elt F) → (⟨S450000x1, .i32⟩ : BufTy).Contents (Elt F) → (⟨S450000x32, .f32⟩ : BufTy).Contents (Elt F)),
    StableHlo.unary main_v37 main_v45 (broadcastInDim S450000x32 ![0, 1] bcast_S450000x1_S450000x32_0_1 : (⟨S450000x1, .f32⟩ : BufTy).Contents (Elt F) → (⟨S450000x32, .f32⟩ : BufTy).Contents (Elt F)),
    StableHlo.binary main_v45 main_v44 main_v46 (mulf : (⟨S450000x32, .f32⟩ : BufTy).Contents (Elt F) → (⟨S450000x32, .f32⟩ : BufTy).Contents (Elt F) → (⟨S450000x32, .f32⟩ : BufTy).Contents (Elt F)),
    StableHlo.nullary main_cst_10 (constant S_ .f32 0x00000000#32) ]

set_option maxRecDepth 8192 in
theorem piece1_sub : (piece1 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub ..⟩

set_option maxRecDepth 8192 in
theorem piece1_fresh : (piece1 : List (HloOp τ sig (Elt F))).Forall fun op => op.fresh = ∅ :=
  ⟨rfl, rfl, rfl, rfl, rfl, rfl, rfl, rfl, rfl, rfl, rfl, rfl, rfl, rfl⟩

/-- The references piece1 writes, in order. -/
abbrev piece1_W : List (Ref sig .tc) := [main_v36, main_v37, main_c_8, main_v38, main_v39, main_c_9, main_v40, main_v41, main_v42, main_v43, main_v44, main_v45, main_v46, main_cst_10]

set_option maxRecDepth 8192 in
theorem piece1_writes : (piece1 : List (HloOp τ sig (Elt F))).Forall fun op => op.writes ⊆ (piece1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Stage 1 inside window main_part1: 53 operations. -/
abbrev piece2 : List (HloOp τ sig (Elt F)) :=
  [ StableHlo.unary main_cst_10 main_v47 (broadcastInDim S50000x32 ![] bcast_S_S50000x32 : (⟨S_, .f32⟩ : BufTy).Contents (Elt F) → (⟨S50000x32, .f32⟩ : BufTy).Contents (Elt F)),
    StableHlo.unary main_v7 main_v48 (broadcastInDim S450000x1 ![0] bcast_S450000_S450000x1_0 : (⟨S450000, .i32⟩ : BufTy).Contents (Elt F) → (⟨S450000x1, .i32⟩ : BufTy).Contents (Elt F)),
    StableHlo.ternary main_v47 main_v48 main_v46 main_v49 ((fun x i u => Host.scatterAdd scatter_S50000x32_S450000x1_S450000x32_1_0_0_1 x i u) : (⟨S50000x32, .f32⟩ : BufTy).Contents (Elt F) → (⟨S450000x1, .i32⟩ : BufTy).Contents (Elt F) → (⟨S450000x32, .f32⟩ : BufTy).Contents (Elt F) → (⟨S50000x32, .f32⟩ : BufTy).Contents (Elt F)),
    StableHlo.unary main_arg4 main_v50 (broadcastInDim S1x32 ![1] bcast_S32_S1x32_1 : (⟨S32, .f32⟩ : BufTy).Contents (Elt F) → (⟨S1x32, .f32⟩ : BufTy).Contents (Elt F)),
    StableHlo.unary main_v50 main_v51 (broadcastInDim S50000x32 ![0, 1] bcast_S1x32_S50000x32_0_1 : (⟨S1x32, .f32⟩ : BufTy).Contents (Elt F) → (⟨S50000x32, .f32⟩ : BufTy).Contents (Elt F)),
    StableHlo.binary main_v49 main_v51 main_v52 (addf : (⟨S50000x32, .f32⟩ : BufTy).Contents (Elt F) → (⟨S50000x32, .f32⟩ : BufTy).Contents (Elt F) → (⟨S50000x32, .f32⟩ : BufTy).Contents (Elt F)),
    StableHlo.TRef.nullary main_call2.cst (constant S_ .f32 0x00000000#32),
    StableHlo.TRef.unary main_call2.cst main_call2.v0 (broadcastInDim S50000x32 ![] bcast_S_S50000x32),
    StableHlo.TRef.binary (.of main_v52 : StableHlo.TRef sig ⟨S50000x32, .f32⟩) main_call2.v0 main_call2.v1 maximumf,
    StableHlo.nullary main_cst_11 (constant S_ .f32 0x00000000#32),
    StableHlo.binary main_v53 main_cst_11 main_v54 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    StableHlo.nullary main_cst_12 (constant S_ .f32 0x47435000#32),
    StableHlo.unary main_cst_12 main_v55 (broadcastInDim S32 ![] bcast_S_S32 : (⟨S_, .f32⟩ : BufTy).Contents (Elt F) → (⟨S32, .f32⟩ : BufTy).Contents (Elt F)),
    StableHlo.binary main_v54 main_v55 main_v56 (Host.divf : (⟨S32, .f32⟩ : BufTy).Contents (Elt F) → (⟨S32, .f32⟩ : BufTy).Contents (Elt F) → (⟨S32, .f32⟩ : BufTy).Contents (Elt F)),
    StableHlo.nullary main_c_13 (constantI S_ 32 0#32),
    StableHlo.TRef.nullary main_call3.cst (constant S_ .f32 0x00000000#32),
    StableHlo.TRef.binary (.of main_v53 : StableHlo.TRef sig ⟨S50000x32, .f32⟩) main_call3.cst main_call3.v0 (fun x v => Host.reduceAdd x v reducesTo_S50000x32_S32_d0 h_S_),
    StableHlo.TRef.unary main_call3.v0 main_call3.v1 (broadcastInDim S1x32 ![1] bcast_S32_S1x32_1),
    StableHlo.TRef.nullary main_call3.cst_0 (constant S_ .f32 0x47435000#32),
    StableHlo.TRef.unary main_call3.cst_0 main_call3.v2 (broadcastInDim S1x32 ![] bcast_S_S1x32),
    StableHlo.TRef.binary main_call3.v1 main_call3.v2 main_call3.v3 Host.divf,
    StableHlo.TRef.unary main_call3.v3 main_call3.v4 (broadcastInDim S50000x32 ![0, 1] bcast_S1x32_S50000x32_0_1),
    StableHlo.TRef.binary (.of main_v53 : StableHlo.TRef sig ⟨S50000x32, .f32⟩) main_call3.v4 main_call3.v5 subf,
    StableHlo.TRef.binary main_call3.v5 main_call3.v5 main_call3.v6 mulf,
    StableHlo.TRef.unary (.of main_c_13 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x32_S32_d0 h_S_),
    StableHlo.TRef.unary main_call3.v8 main_call3.v10 (broadcastInDim S32 ![] bcast_S_S32),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S32 ![] bcast_S_S32),
    StableHlo.TRef.ternary main_call3.v12 main_call3.v11 main_call3.call0.v1 main_call3.call0.v2 (fun p a b => select (broadcastInDim S32 ![] bcast_S_S32 p) a b),
    StableHlo.unary main_v56 main_v58 (broadcastInDim S1x32 ![1] bcast_S32_S1x32_1 : (⟨S32, .f32⟩ : BufTy).Contents (Elt F) → (⟨S1x32, .f32⟩ : BufTy).Contents (Elt F)),
    StableHlo.unary main_v58 main_v59 (broadcastInDim S50000x32 ![0, 1] bcast_S1x32_S50000x32_0_1 : (⟨S1x32, .f32⟩ : BufTy).Contents (Elt F) → (⟨S50000x32, .f32⟩ : BufTy).Contents (Elt F)),
    StableHlo.binary main_v53 main_v59 main_v60 (subf : (⟨S50000x32, .f32⟩ : BufTy).Contents (Elt F) → (⟨S50000x32, .f32⟩ : BufTy).Contents (Elt F) → (⟨S50000x32, .f32⟩ : BufTy).Contents (Elt F)),
    StableHlo.unary main_arg5 main_v61 (broadcastInDim S1x32 ![1] bcast_S32_S1x32_1 : (⟨S32, .f32⟩ : BufTy).Contents (Elt F) → (⟨S1x32, .f32⟩ : BufTy).Contents (Elt F)),
    StableHlo.unary main_v61 main_v62 (broadcastInDim S50000x32 ![0, 1] bcast_S1x32_S50000x32_0_1 : (⟨S1x32, .f32⟩ : BufTy).Contents (Elt F) → (⟨S50000x32, .f32⟩ : BufTy).Contents (Elt F)),
    StableHlo.binary main_v62 main_v60 main_v63 (mulf : (⟨S50000x32, .f32⟩ : BufTy).Contents (Elt F) → (⟨S50000x32, .f32⟩ : BufTy).Contents (Elt F) → (⟨S50000x32, .f32⟩ : BufTy).Contents (Elt F)),
    StableHlo.nullary main_cst_14 (constant S_ .f32 0x3727C5AC#32),
    StableHlo.unary main_cst_14 main_v64 (broadcastInDim S32 ![] bcast_S_S32 : (⟨S_, .f32⟩ : BufTy).Contents (Elt F) → (⟨S32, .f32⟩ : BufTy).Contents (Elt F)),
    StableHlo.binary main_v57 main_v64 main_v65 (addf : (⟨S32, .f32⟩ : BufTy).Contents (Elt F) → (⟨S32, .f32⟩ : BufTy).Contents (Elt F) → (⟨S32, .f32⟩ : BufTy).Contents (Elt F)),
    StableHlo.unary main_v65 main_v66 (Host.rsqrt : (⟨S32, .f32⟩ : BufTy).Contents (Elt F) → (⟨S32, .f32⟩ : BufTy).Contents (Elt F)),
    StableHlo.unary main_v66 main_v67 (broadcastInDim S1x32 ![1] bcast_S32_S1x32_1 : (⟨S32, .f32⟩ : BufTy).Contents (Elt F) → (⟨S1x32, .f32⟩ : BufTy).Contents (Elt F)),
    StableHlo.unary main_v67 main_v68 (broadcastInDim S50000x32 ![0, 1] bcast_S1x32_S50000x32_0_1 : (⟨S1x32, .f32⟩ : BufTy).Contents (Elt F) → (⟨S50000x32, .f32⟩ : BufTy).Contents (Elt F)),
    StableHlo.binary main_v63 main_v68 main_v69 (mulf : (⟨S50000x32, .f32⟩ : BufTy).Contents (Elt F) → (⟨S50000x32, .f32⟩ : BufTy).Contents (Elt F) → (⟨S50000x32, .f32⟩ : BufTy).Contents (Elt F)),
    StableHlo.unary main_arg6 main_v70 (broadcastInDim S1x32 ![1] bcast_S32_S1x32_1 : (⟨S32, .f32⟩ : BufTy).Contents (Elt F) → (⟨S1x32, .f32⟩ : BufTy).Contents (Elt F)),
    StableHlo.unary main_v70 main_v71 (broadcastInDim S50000x32 ![0, 1] bcast_S1x32_S50000x32_0_1 : (⟨S1x32, .f32⟩ : BufTy).Contents (Elt F) → (⟨S50000x32, .f32⟩ : BufTy).Contents (Elt F)),
    StableHlo.binary main_v69 main_v71 main_v72 (addf : (⟨S50000x32, .f32⟩ : BufTy).Contents (Elt F) → (⟨S50000x32, .f32⟩ : BufTy).Contents (Elt F) → (⟨S50000x32, .f32⟩ : BufTy).Contents (Elt F)) ]

set_option maxRecDepth 8192 in
theorem piece2_sub : (piece2 : List (HloOp τ sig (Elt F))).Forall fun op => op.bufs ⊆ tcRefs τ sig :=
  ⟨unary_bufs_sub .., unary_bufs_sub .., ternary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

set_option maxRecDepth 8192 in
theorem piece2_fresh : (piece2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references piece2 writes, in order. -/
abbrev piece2_W : List (Ref sig .tc) := [main_v47, main_v48, main_v49, main_v50, main_v51, main_v52, main_call2_cst, main_call2_v0, main_v53, main_cst_11, main_v54, main_cst_12, main_v55, main_v56, main_c_13, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v57, main_v58, main_v59, main_v60, main_v61, main_v62, main_v63, main_cst_14, main_v64, main_v65, main_v66, main_v67, main_v68, main_v69, main_v70, main_v71, main_v72]

set_option maxRecDepth 8192 in
theorem piece2_writes : (piece2 : List (HloOp τ sig (Elt F))).Forall fun op => op.writes ⊆ (piece2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Stage 2 inside window main_part1: 53 operations. -/
abbrev piece3 : List (HloOp τ sig (Elt F)) :=
  [ StableHlo.binary main_v72 main_arg7 main_v73 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    StableHlo.unary main_v35 main_v74 (broadcastInDim S450000x1 ![0] bcast_S450000_S450000x1_0 : (⟨S450000, .f32⟩ : BufTy).Contents (Elt F) → (⟨S450000x1, .f32⟩ : BufTy).Contents (Elt F)),
    StableHlo.nullary main_c_15 (constantI S_ 32 0#32),
    StableHlo.unary main_c_15 main_v75 (broadcastInDim S450000 ![] bcast_S_S450000 : (⟨S_, .i32⟩ : BufTy).Contents (Elt F) → (⟨S450000, .i32⟩ : BufTy).Contents (Elt F)),
    StableHlo.binary main_v4 main_v75 main_v76 (cmpi .slt : (⟨S450000, .i32⟩ : BufTy).Contents (Elt F) → (⟨S450000, .i32⟩ : BufTy).Contents (Elt F) → (⟨S450000, .i1⟩ : BufTy).Contents (Elt F)),
    StableHlo.nullary main_c_16 (constantI S_ 32 50000#32),
    StableHlo.unary main_c_16 main_v77 (broadcastInDim S450000 ![] bcast_S_S450000 : (⟨S_, .i32⟩ : BufTy).Contents (Elt F) → (⟨S450000, .i32⟩ : BufTy).Contents (Elt F)),
    StableHlo.binary main_v4 main_v77 main_v78 (addi : (⟨S450000, .i32⟩ : BufTy).Contents (Elt F) → (⟨S450000, .i32⟩ : BufTy).Contents (Elt F) → (⟨S450000, .i32⟩ : BufTy).Contents (Elt F)),
    StableHlo.ternary main_v76 main_v78 main_v4 main_v79 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    StableHlo.unary main_v79 main_v80 (broadcastInDim S450000x1 ![0] bcast_S450000_S450000x1_0 : (⟨S450000, .i32⟩ : BufTy).Contents (Elt F) → (⟨S450000x1, .i32⟩ : BufTy).Contents (Elt F)),
    StableHlo.binary main_v73 main_v80 main_v81 ((fun x i => Host.gather gather_S50000x64_S450000x1_S450000x64_1_0_n_n_0_1_164 x i) : (⟨S50000x64, .f32⟩ : BufTy).Contents (Elt F) → (⟨S450000x1, .i32⟩ : BufTy).Contents (Elt F) → (⟨S450000x64, .f32⟩ : BufTy).Contents (Elt F)),
    StableHlo.unary main_v74 main_v82 (broadcastInDim S450000x64 ![0, 1] bcast_S450000x1_S450000x64_0_1 : (⟨S450000x1, .f32⟩ : BufTy).Contents (Elt F) → (⟨S450000x64, .f32⟩ : BufTy).Contents (Elt F)),
    StableHlo.binary main_v82 main_v81 main_v83 (mulf : (⟨S450000x64, .f32⟩ : BufTy).Contents (Elt F) → (⟨S450000x64, .f32⟩ : BufTy).Contents (Elt F) → (⟨S450000x64, .f32⟩ : BufTy).Contents (Elt F)),
    StableHlo.nullary main_cst_17 (constant S_ .f32 0x00000000#32),
    StableHlo.unary main_cst_17 main_v84 (broadcastInDim S50000x64 ![] bcast_S_S50000x64 : (⟨S_, .f32⟩ : BufTy).Contents (Elt F) → (⟨S50000x64, .f32⟩ : BufTy).Contents (Elt F)),
    StableHlo.unary main_v7 main_v85 (broadcastInDim S450000x1 ![0] bcast_S450000_S450000x1_0 : (⟨S450000, .i32⟩ : BufTy).Contents (Elt F) → (⟨S450000x1, .i32⟩ : BufTy).Contents (Elt F)),
    StableHlo.ternary main_v84 main_v85 main_v83 main_v86 ((fun x i u => Host.scatterAdd scatter_S50000x64_S450000x1_S450000x64_1_0_0_1 x i u) : (⟨S50000x64, .f32⟩ : BufTy).Contents (Elt F) → (⟨S450000x1, .i32⟩ : BufTy).Contents (Elt F) → (⟨S450000x64, .f32⟩ : BufTy).Contents (Elt F) → (⟨S50000x64, .f32⟩ : BufTy).Contents (Elt F)),
    StableHlo.unary main_arg8 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S50000x64 ![0, 1] bcast_S1x64_S50000x64_0_1 : (⟨S1x64, .f32⟩ : BufTy).Contents (Elt F) → (⟨S50000x64, .f32⟩ : BufTy).Contents (Elt F)),
    StableHlo.binary main_v86 main_v88 main_v89 (addf : (⟨S50000x64, .f32⟩ : BufTy).Contents (Elt F) → (⟨S50000x64, .f32⟩ : BufTy).Contents (Elt F) → (⟨S50000x64, .f32⟩ : BufTy).Contents (Elt F)),
    StableHlo.TRef.nullary main_call4.cst (constant S_ .f32 0x00000000#32),
    StableHlo.TRef.unary main_call4.cst main_call4.v0 (broadcastInDim S50000x64 ![] bcast_S_S50000x64),
    StableHlo.TRef.binary (.of main_v89 : StableHlo.TRef sig ⟨S50000x64, .f32⟩) main_call4.v0 main_call4.v1 maximumf,
    StableHlo.nullary main_cst_18 (constant S_ .f32 0x00000000#32),
    StableHlo.binary main_v90 main_cst_18 main_v91 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_19 (constant S_ .f32 0x47435000#32),
    StableHlo.unary main_cst_19 main_v92 (broadcastInDim S64 ![] bcast_S_S64 : (⟨S_, .f32⟩ : BufTy).Contents (Elt F) → (⟨S64, .f32⟩ : BufTy).Contents (Elt F)),
    StableHlo.binary main_v91 main_v92 main_v93 (Host.divf : (⟨S64, .f32⟩ : BufTy).Contents (Elt F) → (⟨S64, .f32⟩ : BufTy).Contents (Elt F) → (⟨S64, .f32⟩ : BufTy).Contents (Elt F)),
    StableHlo.nullary main_c_20 (constantI S_ 32 0#32),
    StableHlo.TRef.nullary main_call5.cst (constant S_ .f32 0x00000000#32),
    StableHlo.TRef.binary (.of main_v90 : StableHlo.TRef sig ⟨S50000x64, .f32⟩) main_call5.cst main_call5.v0 (fun x v => Host.reduceAdd x v reducesTo_S50000x64_S64_d0 h_S_),
    StableHlo.TRef.unary main_call5.v0 main_call5.v1 (broadcastInDim S1x64 ![1] bcast_S64_S1x64_1),
    StableHlo.TRef.nullary main_call5.cst_0 (constant S_ .f32 0x47435000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S50000x64 ![0, 1] bcast_S1x64_S50000x64_0_1),
    StableHlo.TRef.binary (.of main_v90 : StableHlo.TRef sig ⟨S50000x64, .f32⟩) main_call5.v4 main_call5.v5 subf,
    StableHlo.TRef.binary main_call5.v5 main_call5.v5 main_call5.v6 mulf,
    StableHlo.TRef.unary (.of main_c_20 : StableHlo.TRef sig ⟨S_, .i32⟩) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S64 ![] bcast_S_S64),
    StableHlo.TRef.ternary main_call5.v12 main_call5.v11 main_call5.call0.v1 main_call5.call0.v2 (fun p a b => select (broadcastInDim S64 ![] bcast_S_S64 p) a b),
    StableHlo.unary main_v93 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S50000x64 ![0, 1] bcast_S1x64_S50000x64_0_1 : (⟨S1x64, .f32⟩ : BufTy).Contents (Elt F) → (⟨S50000x64, .f32⟩ : BufTy).Contents (Elt F)) ]

set_option maxRecDepth 8192 in
theorem piece3_sub : (piece3 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub ..⟩

set_option maxRecDepth 8192 in
theorem piece3_fresh : (piece3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references piece3 writes, in order. -/
abbrev piece3_W : List (Ref sig .tc) := [main_v73, main_v74, main_c_15, main_v75, main_v76, main_c_16, main_v77, main_v78, main_v79, main_v80, main_v81, main_v82, main_v83, main_cst_17, main_v84, main_v85, main_v86, main_v87, main_v88, main_v89, main_call4_cst, main_call4_v0, main_v90, main_cst_18, main_v91, main_cst_19, main_v92, main_v93, main_c_20, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v94, main_v95, main_v96]

set_option maxRecDepth 8192 in
theorem piece3_writes : (piece3 : List (HloOp τ sig (Elt F))).Forall fun op => op.writes ⊆ (piece3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

end Cert.ReferenceIdeal.HandRun

end
-- ==== Proof.RefOpsB.lean ====
import proofs.«107715_j23149873725632_1_alg».proof.Proof.Gen.ReferenceIdeal
import Idealize.ShloMosaic.Lib.StableHlo.Run

/-! The reference program's operations as lists:  @main is printed in windows main_partN, and it calls
    module-local functions; a function's body runs on the call's operands and on the call's own buffer record, so a call
    is listed here as the callee's operations with its parameters replaced by the operands and its record by the call's
    (a call inside a callee likewise).  A piece is a maximal run of statements inside one printed window and one stage of
    the computation (stage 0: the normalised edge weights, up to %35; stages 1-5: one graph-convolution layer each, from
    its matrix product to its normalisation; stage 6: the two dense layers of the head). -/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Stage 2 inside window main_part2: 14 operations. -/
abbrev piece4 : List (HloOp τ sig (Elt F)) :=
  [ StableHlo.binary main_v90 main_v96 main_v97 (subf : (⟨S50000x64, .f32⟩ : BufTy).Contents (Elt F) → (⟨S50000x64, .f32⟩ : BufTy).Contents (Elt F) → (⟨S50000x64, .f32⟩ : BufTy).Contents (Elt F)),
    StableHlo.unary main_arg9 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S50000x64 ![0, 1] bcast_S1x64_S50000x64_0_1 : (⟨S1x64, .f32⟩ : BufTy).Contents (Elt F) → (⟨S50000x64, .f32⟩ : BufTy).Contents (Elt F)),
    StableHlo.binary main_v99 main_v97 main_v100 (mulf : (⟨S50000x64, .f32⟩ : BufTy).Contents (Elt F) → (⟨S50000x64, .f32⟩ : BufTy).Contents (Elt F) → (⟨S50000x64, .f32⟩ : BufTy).Contents (Elt F)),
    StableHlo.nullary main_cst_21 (constant S_ .f32 0x3727C5AC#32),
    StableHlo.unary main_cst_21 main_v101 (broadcastInDim S64 ![] bcast_S_S64 : (⟨S_, .f32⟩ : BufTy).Contents (Elt F) → (⟨S64, .f32⟩ : BufTy).Contents (Elt F)),
    StableHlo.binary main_v94 main_v101 main_v102 (addf : (⟨S64, .f32⟩ : BufTy).Contents (Elt F) → (⟨S64, .f32⟩ : BufTy).Contents (Elt F) → (⟨S64, .f32⟩ : BufTy).Contents (Elt F)),
    StableHlo.unary main_v102 main_v103 (Host.rsqrt : (⟨S64, .f32⟩ : BufTy).Contents (Elt F) → (⟨S64, .f32⟩ : BufTy).Contents (Elt F)),
    StableHlo.unary main_v103 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S50000x64 ![0, 1] bcast_S1x64_S50000x64_0_1 : (⟨S1x64, .f32⟩ : BufTy).Contents (Elt F) → (⟨S50000x64, .f32⟩ : BufTy).Contents (Elt F)),
    StableHlo.binary main_v100 main_v105 main_v106 (mulf : (⟨S50000x64, .f32⟩ : BufTy).Contents (Elt F) → (⟨S50000x64, .f32⟩ : BufTy).Contents (Elt F) → (⟨S50000x64, .f32⟩ : BufTy).Contents (Elt F)),
    StableHlo.unary main_arg10 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S50000x64 ![0, 1] bcast_S1x64_S50000x64_0_1 : (⟨S1x64, .f32⟩ : BufTy).Contents (Elt F) → (⟨S50000x64, .f32⟩ : BufTy).Contents (Elt F)),
    StableHlo.binary main_v106 main_v108 main_v109 (addf : (⟨S50000x64, .f32⟩ : BufTy).Contents (Elt F) → (⟨S50000x64, .f32⟩ : BufTy).Contents (Elt F) → (⟨S50000x64, .f32⟩ : BufTy).Contents (Elt F)) ]

set_option maxRecDepth 8192 in
theorem piece4_sub : (piece4 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

set_option maxRecDepth 8192 in
theorem piece4_fresh : (piece4 : List (HloOp τ sig (Elt F))).Forall fun op => op.fresh = ∅ :=
  ⟨rfl, rfl, rfl, rfl, rfl, rfl, rfl, rfl, rfl, rfl, rfl, rfl, rfl, rfl⟩

/-- The references piece4 writes, in order. -/
abbrev piece4_W : List (Ref sig .tc) := [main_v97, main_v98, main_v99, main_v100, main_cst_21, main_v101, main_v102, main_v103, main_v104, main_v105, main_v106, main_v107, main_v108, main_v109]

set_option maxRecDepth 8192 in
theorem piece4_writes : (piece4 : List (HloOp τ sig (Elt F))).Forall fun op => op.writes ⊆ (piece4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Stage 3 inside window main_part2: 67 operations. -/
abbrev piece5 : List (HloOp τ sig (Elt F)) :=
  [ StableHlo.binary main_v109 main_arg11 main_v110 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_v35 main_v111 (broadcastInDim S450000x1 ![0] bcast_S450000_S450000x1_0 : (⟨S450000, .f32⟩ : BufTy).Contents (Elt F) → (⟨S450000x1, .f32⟩ : BufTy).Contents (Elt F)),
    StableHlo.nullary main_c_22 (constantI S_ 32 0#32),
    StableHlo.unary main_c_22 main_v112 (broadcastInDim S450000 ![] bcast_S_S450000 : (⟨S_, .i32⟩ : BufTy).Contents (Elt F) → (⟨S450000, .i32⟩ : BufTy).Contents (Elt F)),
    StableHlo.binary main_v4 main_v112 main_v113 (cmpi .slt : (⟨S450000, .i32⟩ : BufTy).Contents (Elt F) → (⟨S450000, .i32⟩ : BufTy).Contents (Elt F) → (⟨S450000, .i1⟩ : BufTy).Contents (Elt F)),
    StableHlo.nullary main_c_23 (constantI S_ 32 50000#32),
    StableHlo.unary main_c_23 main_v114 (broadcastInDim S450000 ![] bcast_S_S450000 : (⟨S_, .i32⟩ : BufTy).Contents (Elt F) → (⟨S450000, .i32⟩ : BufTy).Contents (Elt F)),
    StableHlo.binary main_v4 main_v114 main_v115 (addi : (⟨S450000, .i32⟩ : BufTy).Contents (Elt F) → (⟨S450000, .i32⟩ : BufTy).Contents (Elt F) → (⟨S450000, .i32⟩ : BufTy).Contents (Elt F)),
    StableHlo.ternary main_v113 main_v115 main_v4 main_v116 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    StableHlo.unary main_v116 main_v117 (broadcastInDim S450000x1 ![0] bcast_S450000_S450000x1_0 : (⟨S450000, .i32⟩ : BufTy).Contents (Elt F) → (⟨S450000x1, .i32⟩ : BufTy).Contents (Elt F)),
    StableHlo.binary main_v110 main_v117 main_v118 ((fun x i => Host.gather gather_S50000x128_S450000x1_S450000x128_1_0_n_n_0_1_1128 x i) : (⟨S50000x128, .f32⟩ : BufTy).Contents (Elt F) → (⟨S450000x1, .i32⟩ : BufTy).Contents (Elt F) → (⟨S450000x128, .f32⟩ : BufTy).Contents (Elt F)),
    StableHlo.unary main_v111 main_v119 (broadcastInDim S450000x128 ![0, 1] bcast_S450000x1_S450000x128_0_1 : (⟨S450000x1, .f32⟩ : BufTy).Contents (Elt F) → (⟨S450000x128, .f32⟩ : BufTy).Contents (Elt F)),
    StableHlo.binary main_v119 main_v118 main_v120 (mulf : (⟨S450000x128, .f32⟩ : BufTy).Contents (Elt F) → (⟨S450000x128, .f32⟩ : BufTy).Contents (Elt F) → (⟨S450000x128, .f32⟩ : BufTy).Contents (Elt F)),
    StableHlo.nullary main_cst_24 (constant S_ .f32 0x00000000#32),
    StableHlo.unary main_cst_24 main_v121 (broadcastInDim S50000x128 ![] bcast_S_S50000x128 : (⟨S_, .f32⟩ : BufTy).Contents (Elt F) → (⟨S50000x128, .f32⟩ : BufTy).Contents (Elt F)),
    StableHlo.unary main_v7 main_v122 (broadcastInDim S450000x1 ![0] bcast_S450000_S450000x1_0 : (⟨S450000, .i32⟩ : BufTy).Contents (Elt F) → (⟨S450000x1, .i32⟩ : BufTy).Contents (Elt F)),
    StableHlo.ternary main_v121 main_v122 main_v120 main_v123 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    StableHlo.unary main_arg12 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v123 main_v125 main_v126 (addf : (⟨S50000x128, .f32⟩ : BufTy).Contents (Elt F) → (⟨S50000x128, .f32⟩ : BufTy).Contents (Elt F) → (⟨S50000x128, .f32⟩ : BufTy).Contents (Elt F)),
    StableHlo.TRef.nullary main_call6.cst (constant S_ .f32 0x00000000#32),
    StableHlo.TRef.unary main_call6.cst main_call6.v0 (broadcastInDim S50000x128 ![] bcast_S_S50000x128),
    StableHlo.TRef.binary (.of main_v126 : StableHlo.TRef sig ⟨S50000x128, .f32⟩) main_call6.v0 main_call6.v1 maximumf,
    StableHlo.nullary main_cst_25 (constant S_ .f32 0x00000000#32),
    StableHlo.binary main_v127 main_cst_25 main_v128 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_26 (constant S_ .f32 0x47435000#32),
    StableHlo.unary main_cst_26 main_v129 (broadcastInDim S128 ![] bcast_S_S128 : (⟨S_, .f32⟩ : BufTy).Contents (Elt F) → (⟨S128, .f32⟩ : BufTy).Contents (Elt F)),
    StableHlo.binary main_v128 main_v129 main_v130 (Host.divf : (⟨S128, .f32⟩ : BufTy).Contents (Elt F) → (⟨S128, .f32⟩ : BufTy).Contents (Elt F) → (⟨S128, .f32⟩ : BufTy).Contents (Elt F)),
    StableHlo.nullary main_c_27 (constantI S_ 32 0#32),
    StableHlo.TRef.nullary main_call7.cst (constant S_ .f32 0x00000000#32),
    StableHlo.TRef.binary (.of main_v127 : StableHlo.TRef sig ⟨S50000x128, .f32⟩) main_call7.cst main_call7.v0 (fun x v => Host.reduceAdd x v reducesTo_S50000x128_S128_d0 h_S_),
    StableHlo.TRef.unary main_call7.v0 main_call7.v1 (broadcastInDim S1x128 ![1] bcast_S128_S1x128_1),
    StableHlo.TRef.nullary main_call7.cst_0 (constant S_ .f32 0x47435000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S50000x128 ![0, 1] bcast_S1x128_S50000x128_0_1),
    StableHlo.TRef.binary (.of main_v127 : StableHlo.TRef sig ⟨S50000x128, .f32⟩) main_call7.v4 main_call7.v5 subf,
    StableHlo.TRef.binary main_call7.v5 main_call7.v5 main_call7.v6 mulf,
    StableHlo.TRef.unary (.of main_c_27 : StableHlo.TRef sig ⟨S_, .i32⟩) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S128 ![] bcast_S_S128),
    StableHlo.TRef.ternary main_call7.v12 main_call7.v11 main_call7.call0.v1 main_call7.call0.v2 (fun p a b => select (broadcastInDim S128 ![] bcast_S_S128 p) a b),
    StableHlo.unary main_v130 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S50000x128 ![0, 1] bcast_S1x128_S50000x128_0_1 : (⟨S1x128, .f32⟩ : BufTy).Contents (Elt F) → (⟨S50000x128, .f32⟩ : BufTy).Contents (Elt F)),
    StableHlo.binary main_v127 main_v133 main_v134 (subf : (⟨S50000x128, .f32⟩ : BufTy).Contents (Elt F) → (⟨S50000x128, .f32⟩ : BufTy).Contents (Elt F) → (⟨S50000x128, .f32⟩ : BufTy).Contents (Elt F)),
    StableHlo.unary main_arg13 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S50000x128 ![0, 1] bcast_S1x128_S50000x128_0_1 : (⟨S1x128, .f32⟩ : BufTy).Contents (Elt F) → (⟨S50000x128, .f32⟩ : BufTy).Contents (Elt F)),
    StableHlo.binary main_v136 main_v134 main_v137 (mulf : (⟨S50000x128, .f32⟩ : BufTy).Contents (Elt F) → (⟨S50000x128, .f32⟩ : BufTy).Contents (Elt F) → (⟨S50000x128, .f32⟩ : BufTy).Contents (Elt F)),
    StableHlo.nullary main_cst_28 (constant S_ .f32 0x3727C5AC#32),
    StableHlo.unary main_cst_28 main_v138 (broadcastInDim S128 ![] bcast_S_S128 : (⟨S_, .f32⟩ : BufTy).Contents (Elt F) → (⟨S128, .f32⟩ : BufTy).Contents (Elt F)),
    StableHlo.binary main_v131 main_v138 main_v139 (addf : (⟨S128, .f32⟩ : BufTy).Contents (Elt F) → (⟨S128, .f32⟩ : BufTy).Contents (Elt F) → (⟨S128, .f32⟩ : BufTy).Contents (Elt F)),
    StableHlo.unary main_v139 main_v140 (Host.rsqrt : (⟨S128, .f32⟩ : BufTy).Contents (Elt F) → (⟨S128, .f32⟩ : BufTy).Contents (Elt F)),
    StableHlo.unary main_v140 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S50000x128 ![0, 1] bcast_S1x128_S50000x128_0_1 : (⟨S1x128, .f32⟩ : BufTy).Contents (Elt F) → (⟨S50000x128, .f32⟩ : BufTy).Contents (Elt F)),
    StableHlo.binary main_v137 main_v142 main_v143 (mulf : (⟨S50000x128, .f32⟩ : BufTy).Contents (Elt F) → (⟨S50000x128, .f32⟩ : BufTy).Contents (Elt F) → (⟨S50000x128, .f32⟩ : BufTy).Contents (Elt F)),
    StableHlo.unary main_arg14 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S50000x128 ![0, 1] bcast_S1x128_S50000x128_0_1 : (⟨S1x128, .f32⟩ : BufTy).Contents (Elt F) → (⟨S50000x128, .f32⟩ : BufTy).Contents (Elt F)),
    StableHlo.binary main_v143 main_v145 main_v146 (addf : (⟨S50000x128, .f32⟩ : BufTy).Contents (Elt F) → (⟨S50000x128, .f32⟩ : BufTy).Contents (Elt F) → (⟨S50000x128, .f32⟩ : BufTy).Contents (Elt F)) ]

set_option maxRecDepth 8192 in
theorem piece5_sub : (piece5 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

set_option maxRecDepth 8192 in
theorem piece5_fresh : (piece5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references piece5 writes, in order. -/
abbrev piece5_W : List (Ref sig .tc) := [main_v110, main_v111, main_c_22, main_v112, main_v113, main_c_23, main_v114, main_v115, main_v116, main_v117, main_v118, main_v119, main_v120, main_cst_24, main_v121, main_v122, main_v123, main_v124, main_v125, main_v126, main_call6_cst, main_call6_v0, main_v127, main_cst_25, main_v128, main_cst_26, main_v129, main_v130, main_c_27, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v131, main_v132, main_v133, main_v134, main_v135, main_v136, main_v137, main_cst_28, main_v138, main_v139, main_v140, main_v141, main_v142, main_v143, main_v144, main_v145, main_v146]

set_option maxRecDepth 8192 in
theorem piece5_writes : (piece5 : List (HloOp τ sig (Elt F))).Forall fun op => op.writes ⊆ (piece5_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Stage 4 inside window main_part2: 2 operations. -/
abbrev piece6 : List (HloOp τ sig (Elt F)) :=
  [ StableHlo.binary main_v146 main_arg15 main_v147 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v35 main_v148 (broadcastInDim S450000x1 ![0] bcast_S450000_S450000x1_0 : (⟨S450000, .f32⟩ : BufTy).Contents (Elt F) → (⟨S450000x1, .f32⟩ : BufTy).Contents (Elt F)) ]

set_option maxRecDepth 8192 in
theorem piece6_sub : (piece6 : List (HloOp τ sig (Elt F))).Forall fun op => op.bufs ⊆ tcRefs τ sig :=
  ⟨binary_bufs_sub .., unary_bufs_sub ..⟩

set_option maxRecDepth 8192 in
theorem piece6_fresh : (piece6 : List (HloOp τ sig (Elt F))).Forall fun op => op.fresh = ∅ :=
  ⟨rfl, rfl⟩

/-- The references piece6 writes, in order. -/
abbrev piece6_W : List (Ref sig .tc) := [main_v147, main_v148]

set_option maxRecDepth 8192 in
theorem piece6_writes : (piece6 : List (HloOp τ sig (Elt F))).Forall fun op => op.writes ⊆ (piece6_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Stage 4 inside window main_part3: 65 operations. -/
abbrev piece7 : List (HloOp τ sig (Elt F)) :=
  [ StableHlo.nullary main_c_29 (constantI S_ 32 0#32),
    StableHlo.unary main_c_29 main_v149 (broadcastInDim S450000 ![] bcast_S_S450000 : (⟨S_, .i32⟩ : BufTy).Contents (Elt F) → (⟨S450000, .i32⟩ : BufTy).Contents (Elt F)),
    StableHlo.binary main_v4 main_v149 main_v150 (cmpi .slt : (⟨S450000, .i32⟩ : BufTy).Contents (Elt F) → (⟨S450000, .i32⟩ : BufTy).Contents (Elt F) → (⟨S450000, .i1⟩ : BufTy).Contents (Elt F)),
    StableHlo.nullary main_c_30 (constantI S_ 32 50000#32),
    StableHlo.unary main_c_30 main_v151 (broadcastInDim S450000 ![] bcast_S_S450000 : (⟨S_, .i32⟩ : BufTy).Contents (Elt F) → (⟨S450000, .i32⟩ : BufTy).Contents (Elt F)),
    StableHlo.binary main_v4 main_v151 main_v152 (addi : (⟨S450000, .i32⟩ : BufTy).Contents (Elt F) → (⟨S450000, .i32⟩ : BufTy).Contents (Elt F) → (⟨S450000, .i32⟩ : BufTy).Contents (Elt F)),
    StableHlo.ternary main_v150 main_v152 main_v4 main_v153 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    StableHlo.unary main_v153 main_v154 (broadcastInDim S450000x1 ![0] bcast_S450000_S450000x1_0 : (⟨S450000, .i32⟩ : BufTy).Contents (Elt F) → (⟨S450000x1, .i32⟩ : BufTy).Contents (Elt F)),
    StableHlo.binary main_v147 main_v154 main_v155 ((fun x i => Host.gather gather_S50000x128_S450000x1_S450000x128_1_0_n_n_0_1_1128 x i) : (⟨S50000x128, .f32⟩ : BufTy).Contents (Elt F) → (⟨S450000x1, .i32⟩ : BufTy).Contents (Elt F) → (⟨S450000x128, .f32⟩ : BufTy).Contents (Elt F)),
    StableHlo.unary main_v148 main_v156 (broadcastInDim S450000x128 ![0, 1] bcast_S450000x1_S450000x128_0_1 : (⟨S450000x1, .f32⟩ : BufTy).Contents (Elt F) → (⟨S450000x128, .f32⟩ : BufTy).Contents (Elt F)),
    StableHlo.binary main_v156 main_v155 main_v157 (mulf : (⟨S450000x128, .f32⟩ : BufTy).Contents (Elt F) → (⟨S450000x128, .f32⟩ : BufTy).Contents (Elt F) → (⟨S450000x128, .f32⟩ : BufTy).Contents (Elt F)),
    StableHlo.nullary main_cst_31 (constant S_ .f32 0x00000000#32),
    StableHlo.unary main_cst_31 main_v158 (broadcastInDim S50000x128 ![] bcast_S_S50000x128 : (⟨S_, .f32⟩ : BufTy).Contents (Elt F) → (⟨S50000x128, .f32⟩ : BufTy).Contents (Elt F)),
    StableHlo.unary main_v7 main_v159 (broadcastInDim S450000x1 ![0] bcast_S450000_S450000x1_0 : (⟨S450000, .i32⟩ : BufTy).Contents (Elt F) → (⟨S450000x1, .i32⟩ : BufTy).Contents (Elt F)),
    StableHlo.ternary main_v158 main_v159 main_v157 main_v160 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    StableHlo.unary main_arg16 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S50000x128 ![0, 1] bcast_S1x128_S50000x128_0_1 : (⟨S1x128, .f32⟩ : BufTy).Contents (Elt F) → (⟨S50000x128, .f32⟩ : BufTy).Contents (Elt F)),
    StableHlo.binary main_v160 main_v162 main_v163 (addf : (⟨S50000x128, .f32⟩ : BufTy).Contents (Elt F) → (⟨S50000x128, .f32⟩ : BufTy).Contents (Elt F) → (⟨S50000x128, .f32⟩ : BufTy).Contents (Elt F)),
    StableHlo.nullary main_cst_32 (constant S_ .f32 0x00000000#32),
    StableHlo.binary main_v163 main_cst_32 main_v164 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_33 (constant S_ .f32 0x47435000#32),
    StableHlo.unary main_cst_33 main_v165 (broadcastInDim S128 ![] bcast_S_S128 : (⟨S_, .f32⟩ : BufTy).Contents (Elt F) → (⟨S128, .f32⟩ : BufTy).Contents (Elt F)),
    StableHlo.binary main_v164 main_v165 main_v166 (Host.divf : (⟨S128, .f32⟩ : BufTy).Contents (Elt F) → (⟨S128, .f32⟩ : BufTy).Contents (Elt F) → (⟨S128, .f32⟩ : BufTy).Contents (Elt F)),
    StableHlo.nullary main_c_34 (constantI S_ 32 0#32),
    StableHlo.TRef.nullary main_call8.cst (constant S_ .f32 0x00000000#32),
    StableHlo.TRef.binary (.of main_v163 : StableHlo.TRef sig ⟨S50000x128, .f32⟩) main_call8.cst main_call8.v0 (fun x v => Host.reduceAdd x v reducesTo_S50000x128_S128_d0 h_S_),
    StableHlo.TRef.unary main_call8.v0 main_call8.v1 (broadcastInDim S1x128 ![1] bcast_S128_S1x128_1),
    StableHlo.TRef.nullary main_call8.cst_0 (constant S_ .f32 0x47435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S50000x128 ![0, 1] bcast_S1x128_S50000x128_0_1),
    StableHlo.TRef.binary (.of main_v163 : StableHlo.TRef sig ⟨S50000x128, .f32⟩) main_call8.v4 main_call8.v5 subf,
    StableHlo.TRef.binary main_call8.v5 main_call8.v5 main_call8.v6 mulf,
    StableHlo.TRef.unary (.of main_c_34 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v166 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S50000x128 ![0, 1] bcast_S1x128_S50000x128_0_1 : (⟨S1x128, .f32⟩ : BufTy).Contents (Elt F) → (⟨S50000x128, .f32⟩ : BufTy).Contents (Elt F)),
    StableHlo.binary main_v163 main_v169 main_v170 (subf : (⟨S50000x128, .f32⟩ : BufTy).Contents (Elt F) → (⟨S50000x128, .f32⟩ : BufTy).Contents (Elt F) → (⟨S50000x128, .f32⟩ : BufTy).Contents (Elt F)),
    StableHlo.unary main_arg17 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S50000x128 ![0, 1] bcast_S1x128_S50000x128_0_1 : (⟨S1x128, .f32⟩ : BufTy).Contents (Elt F) → (⟨S50000x128, .f32⟩ : BufTy).Contents (Elt F)),
    StableHlo.binary main_v172 main_v170 main_v173 (mulf : (⟨S50000x128, .f32⟩ : BufTy).Contents (Elt F) → (⟨S50000x128, .f32⟩ : BufTy).Contents (Elt F) → (⟨S50000x128, .f32⟩ : BufTy).Contents (Elt F)),
    StableHlo.nullary main_cst_35 (constant S_ .f32 0x3727C5AC#32),
    StableHlo.unary main_cst_35 main_v174 (broadcastInDim S128 ![] bcast_S_S128 : (⟨S_, .f32⟩ : BufTy).Contents (Elt F) → (⟨S128, .f32⟩ : BufTy).Contents (Elt F)),
    StableHlo.binary main_v167 main_v174 main_v175 (addf : (⟨S128, .f32⟩ : BufTy).Contents (Elt F) → (⟨S128, .f32⟩ : BufTy).Contents (Elt F) → (⟨S128, .f32⟩ : BufTy).Contents (Elt F)),
    StableHlo.unary main_v175 main_v176 (Host.rsqrt : (⟨S128, .f32⟩ : BufTy).Contents (Elt F) → (⟨S128, .f32⟩ : BufTy).Contents (Elt F)),
    StableHlo.unary main_v176 main_v177 (broadcastInDim S1x128 ![1] bcast_S128_S1x128_1 : (⟨S128, .f32⟩ : BufTy).Contents (Elt F) → (⟨S1x128, .f32⟩ : BufTy).Contents (Elt F)),
    StableHlo.unary main_v177 main_v178 (broadcastInDim S50000x128 ![0, 1] bcast_S1x128_S50000x128_0_1 : (⟨S1x128, .f32⟩ : BufTy).Contents (Elt F) → (⟨S50000x128, .f32⟩ : BufTy).Contents (Elt F)),
    StableHlo.binary main_v173 main_v178 main_v179 (mulf : (⟨S50000x128, .f32⟩ : BufTy).Contents (Elt F) → (⟨S50000x128, .f32⟩ : BufTy).Contents (Elt F) → (⟨S50000x128, .f32⟩ : BufTy).Contents (Elt F)),
    StableHlo.unary main_arg18 main_v180 (broadcastInDim S1x128 ![1] bcast_S128_S1x128_1 : (⟨S128, .f32⟩ : BufTy).Contents (Elt F) → (⟨S1x128, .f32⟩ : BufTy).Contents (Elt F)),
    StableHlo.unary main_v180 main_v181 (broadcastInDim S50000x128 ![0, 1] bcast_S1x128_S50000x128_0_1 : (⟨S1x128, .f32⟩ : BufTy).Contents (Elt F) → (⟨S50000x128, .f32⟩ : BufTy).Contents (Elt F)),
    StableHlo.binary main_v179 main_v181 main_v182 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v182 : StableHlo.TRef sig ⟨S50000x128, .f32⟩) main_call9.v0 main_call9.v1 maximumf ]

set_option maxRecDepth 8192 in
theorem piece7_sub : (piece7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem piece7_fresh : (piece7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references piece7 writes, in order. -/
abbrev piece7_W : List (Ref sig .tc) := [main_c_29, main_v149, main_v150, main_c_30, main_v151, main_v152, main_v153, main_v154, main_v155, main_v156, main_v157, main_cst_31, main_v158, main_v159, main_v160, main_v161, main_v162, main_v163, main_cst_32, main_v164, main_cst_33, main_v165, main_v166, main_c_34, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v167, main_v168, main_v169, main_v170, main_v171, main_v172, main_v173, main_cst_35, main_v174, main_v175, main_v176, main_v177, main_v178, main_v179, main_v180, main_v181, main_v182, main_call9_cst, main_call9_v0, main_v183]

set_option maxRecDepth 8192 in
theorem piece7_writes : (piece7 : List (HloOp τ sig (Elt F))).Forall fun op => op.writes ⊆ (piece7_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Stage 5 inside window main_part3: 18 operations. -/
abbrev piece8 : List (HloOp τ sig (Elt F)) :=
  [ StableHlo.binary main_v183 main_arg19 main_v184 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_v35 main_v185 (broadcastInDim S450000x1 ![0] bcast_S450000_S450000x1_0 : (⟨S450000, .f32⟩ : BufTy).Contents (Elt F) → (⟨S450000x1, .f32⟩ : BufTy).Contents (Elt F)),
    StableHlo.nullary main_c_36 (constantI S_ 32 0#32),
    StableHlo.unary main_c_36 main_v186 (broadcastInDim S450000 ![] bcast_S_S450000 : (⟨S_, .i32⟩ : BufTy).Contents (Elt F) → (⟨S450000, .i32⟩ : BufTy).Contents (Elt F)),
    StableHlo.binary main_v4 main_v186 main_v187 (cmpi .slt : (⟨S450000, .i32⟩ : BufTy).Contents (Elt F) → (⟨S450000, .i32⟩ : BufTy).Contents (Elt F) → (⟨S450000, .i1⟩ : BufTy).Contents (Elt F)),
    StableHlo.nullary main_c_37 (constantI S_ 32 50000#32),
    StableHlo.unary main_c_37 main_v188 (broadcastInDim S450000 ![] bcast_S_S450000 : (⟨S_, .i32⟩ : BufTy).Contents (Elt F) → (⟨S450000, .i32⟩ : BufTy).Contents (Elt F)),
    StableHlo.binary main_v4 main_v188 main_v189 (addi : (⟨S450000, .i32⟩ : BufTy).Contents (Elt F) → (⟨S450000, .i32⟩ : BufTy).Contents (Elt F) → (⟨S450000, .i32⟩ : BufTy).Contents (Elt F)),
    StableHlo.ternary main_v187 main_v189 main_v4 main_v190 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    StableHlo.unary main_v190 main_v191 (broadcastInDim S450000x1 ![0] bcast_S450000_S450000x1_0 : (⟨S450000, .i32⟩ : BufTy).Contents (Elt F) → (⟨S450000x1, .i32⟩ : BufTy).Contents (Elt F)),
    StableHlo.binary main_v184 main_v191 main_v192 ((fun x i => Host.gather gather_S50000x256_S450000x1_S450000x256_1_0_n_n_0_1_1256 x i) : (⟨S50000x256, .f32⟩ : BufTy).Contents (Elt F) → (⟨S450000x1, .i32⟩ : BufTy).Contents (Elt F) → (⟨S450000x256, .f32⟩ : BufTy).Contents (Elt F)),
    StableHlo.unary main_v185 main_v193 (broadcastInDim S450000x256 ![0, 1] bcast_S450000x1_S450000x256_0_1 : (⟨S450000x1, .f32⟩ : BufTy).Contents (Elt F) → (⟨S450000x256, .f32⟩ : BufTy).Contents (Elt F)),
    StableHlo.binary main_v193 main_v192 main_v194 (mulf : (⟨S450000x256, .f32⟩ : BufTy).Contents (Elt F) → (⟨S450000x256, .f32⟩ : BufTy).Contents (Elt F) → (⟨S450000x256, .f32⟩ : BufTy).Contents (Elt F)),
    StableHlo.nullary main_cst_38 (constant S_ .f32 0x00000000#32),
    StableHlo.unary main_cst_38 main_v195 (broadcastInDim S50000x256 ![] bcast_S_S50000x256 : (⟨S_, .f32⟩ : BufTy).Contents (Elt F) → (⟨S50000x256, .f32⟩ : BufTy).Contents (Elt F)),
    StableHlo.unary main_v7 main_v196 (broadcastInDim S450000x1 ![0] bcast_S450000_S450000x1_0 : (⟨S450000, .i32⟩ : BufTy).Contents (Elt F) → (⟨S450000x1, .i32⟩ : BufTy).Contents (Elt F)),
    StableHlo.ternary main_v195 main_v196 main_v194 main_v197 ((fun x i u => Host.scatterAdd scatter_S50000x256_S450000x1_S450000x256_1_0_0_1 x i u) : (⟨S50000x256, .f32⟩ : BufTy).Contents (Elt F) → (⟨S450000x1, .i32⟩ : BufTy).Contents (Elt F) → (⟨S450000x256, .f32⟩ : BufTy).Contents (Elt F) → (⟨S50000x256, .f32⟩ : BufTy).Contents (Elt F)),
    StableHlo.unary main_arg20 main_v198 (broadcastInDim S1x256 ![1] bcast_S256_S1x256_1 : (⟨S256, .f32⟩ : BufTy).Contents (Elt F) → (⟨S1x256, .f32⟩ : BufTy).Contents (Elt F)) ]

set_option maxRecDepth 8192 in
theorem piece8_sub : (piece8 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub ..⟩

set_option maxRecDepth 8192 in
theorem piece8_fresh : (piece8 : List (HloOp τ sig (Elt F))).Forall fun op => op.fresh = ∅ :=
  ⟨rfl, rfl, rfl, rfl, rfl, rfl, rfl, rfl, rfl, rfl, rfl, rfl, rfl, rfl, rfl, rfl, rfl, rfl⟩

/-- The references piece8 writes, in order. -/
abbrev piece8_W : List (Ref sig .tc) := [main_v184, main_v185, main_c_36, main_v186, main_v187, main_c_37, main_v188, main_v189, main_v190, main_v191, main_v192, main_v193, main_v194, main_cst_38, main_v195, main_v196, main_v197, main_v198]

set_option maxRecDepth 8192 in
theorem piece8_writes : (piece8 : List (HloOp τ sig (Elt F))).Forall fun op => op.writes ⊆ (piece8_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Stage 5 inside window main_part4: 49 operations. -/
abbrev piece9 : List (HloOp τ sig (Elt F)) :=
  [ StableHlo.unary main_v198 main_v199 (broadcastInDim S50000x256 ![0, 1] bcast_S1x256_S50000x256_0_1 : (⟨S1x256, .f32⟩ : BufTy).Contents (Elt F) → (⟨S50000x256, .f32⟩ : BufTy).Contents (Elt F)),
    StableHlo.binary main_v197 main_v199 main_v200 (addf : (⟨S50000x256, .f32⟩ : BufTy).Contents (Elt F) → (⟨S50000x256, .f32⟩ : BufTy).Contents (Elt F) → (⟨S50000x256, .f32⟩ : BufTy).Contents (Elt F)),
    StableHlo.nullary main_cst_39 (constant S_ .f32 0x00000000#32),
    StableHlo.binary main_v200 main_cst_39 main_v201 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_40 (constant S_ .f32 0x47435000#32),
    StableHlo.unary main_cst_40 main_v202 (broadcastInDim S256 ![] bcast_S_S256 : (⟨S_, .f32⟩ : BufTy).Contents (Elt F) → (⟨S256, .f32⟩ : BufTy).Contents (Elt F)),
    StableHlo.binary main_v201 main_v202 main_v203 (Host.divf : (⟨S256, .f32⟩ : BufTy).Contents (Elt F) → (⟨S256, .f32⟩ : BufTy).Contents (Elt F) → (⟨S256, .f32⟩ : BufTy).Contents (Elt F)),
    StableHlo.nullary main_c_41 (constantI S_ 32 0#32),
    StableHlo.TRef.nullary main_call10.cst (constant S_ .f32 0x00000000#32),
    StableHlo.TRef.binary (.of main_v200 : StableHlo.TRef sig ⟨S50000x256, .f32⟩) main_call10.cst main_call10.v0 (fun x v => Host.reduceAdd x v reducesTo_S50000x256_S256_d0 h_S_),
    StableHlo.TRef.unary main_call10.v0 main_call10.v1 (broadcastInDim S1x256 ![1] bcast_S256_S1x256_1),
    StableHlo.TRef.nullary main_call10.cst_0 (constant S_ .f32 0x47435000#32),
    StableHlo.TRef.unary main_call10.cst_0 main_call10.v2 (broadcastInDim S1x256 ![] bcast_S_S1x256),
    StableHlo.TRef.binary main_call10.v1 main_call10.v2 main_call10.v3 Host.divf,
    StableHlo.TRef.unary main_call10.v3 main_call10.v4 (broadcastInDim S50000x256 ![0, 1] bcast_S1x256_S50000x256_0_1),
    StableHlo.TRef.binary (.of main_v200 : StableHlo.TRef sig ⟨S50000x256, .f32⟩) main_call10.v4 main_call10.v5 subf,
    StableHlo.TRef.binary main_call10.v5 main_call10.v5 main_call10.v6 mulf,
    StableHlo.TRef.unary (.of main_c_41 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x256_S256_d0 h_S_),
    StableHlo.TRef.unary main_call10.v8 main_call10.v10 (broadcastInDim S256 ![] bcast_S_S256),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S256 ![] bcast_S_S256),
    StableHlo.TRef.ternary main_call10.v12 main_call10.v11 main_call10.call0.v1 main_call10.call0.v2 (fun p a b => select (broadcastInDim S256 ![] bcast_S_S256 p) a b),
    StableHlo.unary main_v203 main_v205 (broadcastInDim S1x256 ![1] bcast_S256_S1x256_1 : (⟨S256, .f32⟩ : BufTy).Contents (Elt F) → (⟨S1x256, .f32⟩ : BufTy).Contents (Elt F)),
    StableHlo.unary main_v205 main_v206 (broadcastInDim S50000x256 ![0, 1] bcast_S1x256_S50000x256_0_1 : (⟨S1x256, .f32⟩ : BufTy).Contents (Elt F) → (⟨S50000x256, .f32⟩ : BufTy).Contents (Elt F)),
    StableHlo.binary main_v200 main_v206 main_v207 (subf : (⟨S50000x256, .f32⟩ : BufTy).Contents (Elt F) → (⟨S50000x256, .f32⟩ : BufTy).Contents (Elt F) → (⟨S50000x256, .f32⟩ : BufTy).Contents (Elt F)),
    StableHlo.unary main_arg21 main_v208 (broadcastInDim S1x256 ![1] bcast_S256_S1x256_1 : (⟨S256, .f32⟩ : BufTy).Contents (Elt F) → (⟨S1x256, .f32⟩ : BufTy).Contents (Elt F)),
    StableHlo.unary main_v208 main_v209 (broadcastInDim S50000x256 ![0, 1] bcast_S1x256_S50000x256_0_1 : (⟨S1x256, .f32⟩ : BufTy).Contents (Elt F) → (⟨S50000x256, .f32⟩ : BufTy).Contents (Elt F)),
    StableHlo.binary main_v209 main_v207 main_v210 (mulf : (⟨S50000x256, .f32⟩ : BufTy).Contents (Elt F) → (⟨S50000x256, .f32⟩ : BufTy).Contents (Elt F) → (⟨S50000x256, .f32⟩ : BufTy).Contents (Elt F)),
    StableHlo.nullary main_cst_42 (constant S_ .f32 0x3727C5AC#32),
    StableHlo.unary main_cst_42 main_v211 (broadcastInDim S256 ![] bcast_S_S256 : (⟨S_, .f32⟩ : BufTy).Contents (Elt F) → (⟨S256, .f32⟩ : BufTy).Contents (Elt F)),
    StableHlo.binary main_v204 main_v211 main_v212 (addf : (⟨S256, .f32⟩ : BufTy).Contents (Elt F) → (⟨S256, .f32⟩ : BufTy).Contents (Elt F) → (⟨S256, .f32⟩ : BufTy).Contents (Elt F)),
    StableHlo.unary main_v212 main_v213 (Host.rsqrt : (⟨S256, .f32⟩ : BufTy).Contents (Elt F) → (⟨S256, .f32⟩ : BufTy).Contents (Elt F)),
    StableHlo.unary main_v213 main_v214 (broadcastInDim S1x256 ![1] bcast_S256_S1x256_1 : (⟨S256, .f32⟩ : BufTy).Contents (Elt F) → (⟨S1x256, .f32⟩ : BufTy).Contents (Elt F)),
    StableHlo.unary main_v214 main_v215 (broadcastInDim S50000x256 ![0, 1] bcast_S1x256_S50000x256_0_1 : (⟨S1x256, .f32⟩ : BufTy).Contents (Elt F) → (⟨S50000x256, .f32⟩ : BufTy).Contents (Elt F)),
    StableHlo.binary main_v210 main_v215 main_v216 (mulf : (⟨S50000x256, .f32⟩ : BufTy).Contents (Elt F) → (⟨S50000x256, .f32⟩ : BufTy).Contents (Elt F) → (⟨S50000x256, .f32⟩ : BufTy).Contents (Elt F)),
    StableHlo.unary main_arg22 main_v217 (broadcastInDim S1x256 ![1] bcast_S256_S1x256_1 : (⟨S256, .f32⟩ : BufTy).Contents (Elt F) → (⟨S1x256, .f32⟩ : BufTy).Contents (Elt F)),
    StableHlo.unary main_v217 main_v218 (broadcastInDim S50000x256 ![0, 1] bcast_S1x256_S50000x256_0_1 : (⟨S1x256, .f32⟩ : BufTy).Contents (Elt F) → (⟨S50000x256, .f32⟩ : BufTy).Contents (Elt F)),
    StableHlo.binary main_v216 main_v218 main_v219 (addf : (⟨S50000x256, .f32⟩ : BufTy).Contents (Elt F) → (⟨S50000x256, .f32⟩ : BufTy).Contents (Elt F) → (⟨S50000x256, .f32⟩ : BufTy).Contents (Elt F)),
    StableHlo.TRef.nullary main_call11.cst (constant S_ .f32 0x00000000#32),
    StableHlo.TRef.unary main_call11.cst main_call11.v0 (broadcastInDim S50000x256 ![] bcast_S_S50000x256),
    StableHlo.TRef.binary (.of main_v219 : StableHlo.TRef sig ⟨S50000x256, .f32⟩) main_call11.v0 main_call11.v1 maximumf ]

set_option maxRecDepth 8192 in
theorem piece9_sub : (piece9 : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem piece9_fresh : (piece9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references piece9 writes, in order. -/
abbrev piece9_W : List (Ref sig .tc) := [main_v199, main_v200, main_cst_39, main_v201, main_cst_40, main_v202, main_v203, main_c_41, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v204, main_v205, main_v206, main_v207, main_v208, main_v209, main_v210, main_cst_42, main_v211, main_v212, main_v213, main_v214, main_v215, main_v216, main_v217, main_v218, main_v219, main_call11_cst, main_call11_v0, main_v220]

set_option maxRecDepth 8192 in
theorem piece9_writes : (piece9 : List (HloOp τ sig (Elt F))).Forall fun op => op.writes ⊆ (piece9_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Stage 6 inside window main_part4: 12 operations. -/
abbrev piece10 : List (HloOp τ sig (Elt F)) :=
  [ StableHlo.binary main_v220 main_arg23 main_v221 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg24 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S50000x128 ![0, 1] bcast_S1x128_S50000x128_0_1 : (⟨S1x128, .f32⟩ : BufTy).Contents (Elt F) → (⟨S50000x128, .f32⟩ : BufTy).Contents (Elt F)),
    StableHlo.binary main_v221 main_v223 main_v224 (addf : (⟨S50000x128, .f32⟩ : BufTy).Contents (Elt F) → (⟨S50000x128, .f32⟩ : BufTy).Contents (Elt F) → (⟨S50000x128, .f32⟩ : BufTy).Contents (Elt F)),
    StableHlo.TRef.nullary main_call12.cst (constant S_ .f32 0x00000000#32),
    StableHlo.TRef.unary main_call12.cst main_call12.v0 (broadcastInDim S50000x128 ![] bcast_S_S50000x128),
    StableHlo.TRef.binary (.of main_v224 : StableHlo.TRef sig ⟨S50000x128, .f32⟩) main_call12.v0 main_call12.v1 maximumf,
    StableHlo.binary main_v225 main_arg25 main_v226 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg26 main_v227 (broadcastInDim S1x1 ![1] bcast_S1_S1x1_1 : (⟨S1, .f32⟩ : BufTy).Contents (Elt F) → (⟨S1x1, .f32⟩ : BufTy).Contents (Elt F)),
    StableHlo.unary main_v227 main_v228 (broadcastInDim S50000x1 ![0, 1] bcast_S1x1_S50000x1_0_1 : (⟨S1x1, .f32⟩ : BufTy).Contents (Elt F) → (⟨S50000x1, .f32⟩ : BufTy).Contents (Elt F)),
    StableHlo.binary main_v226 main_v228 main_v229 (addf : (⟨S50000x1, .f32⟩ : BufTy).Contents (Elt F) → (⟨S50000x1, .f32⟩ : BufTy).Contents (Elt F) → (⟨S50000x1, .f32⟩ : BufTy).Contents (Elt F)),
    StableHlo.reshape main_v229 main_v230 rfl shapeCasts_S50000x1_S50000 ]

set_option maxRecDepth 8192 in
theorem piece10_sub : (piece10 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

set_option maxRecDepth 8192 in
theorem piece10_fresh : (piece10 : List (HloOp τ sig (Elt F))).Forall fun op => op.fresh = ∅ :=
  ⟨rfl, rfl, rfl, rfl, rfl, rfl, rfl, rfl, rfl, rfl, rfl, rfl⟩

/-- The references piece10 writes, in order. -/
abbrev piece10_W : List (Ref sig .tc) := [main_v221, main_v222, main_v223, main_v224, main_call12_cst, main_call12_v0, main_v225, main_v226, main_v227, main_v228, main_v229, main_v230]

set_option maxRecDepth 8192 in
theorem piece10_writes : (piece10 : List (HloOp τ sig (Elt F))).Forall fun op => op.writes ⊆ (piece10_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

end Cert.ReferenceIdeal.HandRun

end
-- ==== Proof.RefOps.lean ====
import proofs.«107715_j23149873725632_1_alg».proof.Proof.RefOpsA
import proofs.«107715_j23149873725632_1_alg».proof.Proof.RefOpsB

/-! The reference program as ONE straight line of operations.

    The printed @main is five windows run in order, and thirteen of its statements call a module-local function
    (the conditional select, the rectifier, the variance, which itself calls a select).  A call runs the callee's body on
    the call's operands and buffer record, and the body is itself a straight line of operations ending in the return, so
    the whole of @main is the concatenation of the operation lists of RefOpsA / RefOpsB: window by window this is the
    unfolding of the definitions (the program monad's bind is computed by recursion on the left program, so the two
    sides of each window's equation reduce to the same chain of steps), and the windows are joined by
    seq (l₁ ++ l₂) = seq l₁ >>= fun _ => seq l₂.

    The operations are grouped by the STAGE of the computation they belong to (seg0 ... seg6 below): later stages read
    only a few buffers of earlier ones, which is what makes the run readable one stage at a time. -/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## Lists of operations run one after the other -/

section General

variable {τ' : Topo} {sig' : RefSig} {Val : EltTy → Type}

/-- The contents after two lines in a row are the second line's after the first's. -/
theorem after_app : ∀ (l₁ l₂ : List (HloOp τ' sig' Val)) (V : Valuation τ' sig' Val),
    after (l₁ ++ l₂) V = after l₂ (after l₁ V)
  | [], _, _ => rfl
  | op :: l₁, l₂, V => by rw [List.cons_append, after_cons, after_cons, after_app l₁ l₂]

/-- A property of every operation of two lines holds of every operation of their concatenation. -/
theorem forall_app {p : HloOp τ' sig' Val → Prop} {l₁ l₂ : List (HloOp τ' sig' Val)}
    (h₁ : l₁.Forall p) (h₂ : l₂.Forall p) : (l₁ ++ l₂).Forall p :=
  List.forall_append.mpr ⟨h₁, h₂⟩

/-- A line KEEPS a reference when the buffer holds after the line what it held before, whatever that was. -/
def Keeps (l : List (HloOp τ' sig' Val)) (r : Ref sig' .tc) : Prop :=
  ∀ V : Valuation τ' sig' Val, after l V (Proc.devRef .tc r) = V (Proc.devRef .tc r)

/-- A line keeps every reference outside a list that holds all the references it writes. -/
theorem Keeps.of_writes {W : List (Ref sig' .tc)} {l : List (HloOp τ' sig' Val)} {r : Ref sig' .tc}
    (hW : l.Forall fun op => op.writes ⊆ (W.map (Proc.devRef (τ := τ') .tc)).toFinset) (hr : r ∉ W) : Keeps l r :=
  fun V => after_of_writes_sub l V hW hr

/-- Two lines that each keep a reference keep it when run one after the other. -/
theorem Keeps.app {l₁ l₂ : List (HloOp τ' sig' Val)} {r : Ref sig' .tc} (h₁ : Keeps l₁ r) (h₂ : Keeps l₂ r) :
    Keeps (l₁ ++ l₂) r :=
  fun V => by rw [after_app, h₂, h₁]

/-- A line keeps every reference OUTSIDE the list W. -/
def KeepsOutside (l : List (HloOp τ' sig' Val)) (W : List (Ref sig' .tc)) : Prop :=
  ∀ r : Ref sig' .tc, r ∉ W → Keeps l r

/-- ... when W holds every reference the line writes. -/
theorem KeepsOutside.of_writes {W : List (Ref sig' .tc)} {l : List (HloOp τ' sig' Val)}
    (hW : l.Forall fun op => op.writes ⊆ (W.map (Proc.devRef (τ := τ') .tc)).toFinset) : KeepsOutside l W :=
  fun _ hr => Keeps.of_writes hW hr

/-- Two lines in a row keep what is outside both lists. -/
theorem KeepsOutside.app {l₁ l₂ : List (HloOp τ' sig' Val)} {W₁ W₂ : List (Ref sig' .tc)}
    (h₁ : KeepsOutside l₁ W₁) (h₂ : KeepsOutside l₂ W₂) : KeepsOutside (l₁ ++ l₂) (W₁ ++ W₂) :=
  fun r hr => Keeps.app (h₁ r fun h => hr (List.mem_append_left _ h)) (h₂ r fun h => hr (List.mem_append_right _ h))

end General

/-! ## The stages and the whole line -/

/-- Stage 0 (50 operations): the edge list with self loops, the degrees and the normalised edge weights, up to %35. -/
abbrev seg0 : List (HloOp τ sig (Elt F)) := piece0
/-- Stage 1 (67 operations): the first graph-convolution layer, from %36 to its normalised output %72. -/
abbrev seg1 : List (HloOp τ sig (Elt F)) := piece1 ++ piece2
/-- Stage 2 (67 operations): the second layer, %73 to %109. -/
abbrev seg2 : List (HloOp τ sig (Elt F)) := piece3 ++ piece4
/-- Stage 3 (67 operations): the third layer, %110 to %146. -/
abbrev seg3 : List (HloOp τ sig (Elt F)) := piece5
/-- Stage 4 (67 operations): the fourth layer, %147 to %183. -/
abbrev seg4 : List (HloOp τ sig (Elt F)) := piece6 ++ piece7
/-- Stage 5 (67 operations): the fifth layer, %184 to %220. -/
abbrev seg5 : List (HloOp τ sig (Elt F)) := piece8 ++ piece9
/-- Stage 6 (12 operations): the two dense layers of the head, %221 to the result %230. -/
abbrev seg6 : List (HloOp τ sig (Elt F)) := piece10

/-- @main's 397 operations, in order, the calls unfolded. -/
abbrev ops : List (HloOp τ sig (Elt F)) :=
  seg0 ++ (seg1 ++ (seg2 ++ (seg3 ++ (seg4 ++ (seg5 ++ seg6)))))

/-! ## @main is that line -/

-- each window is some sixty statements and up to a hundred operations: the unfolding nests once per operation
set_option maxRecDepth 16384 in
set_option maxHeartbeats 4000000 in
theorem main_part0_eq (c : Dev nD) : main_part0 (F := F) c = seq (piece0 ++ piece1) := rfl

set_option maxRecDepth 16384 in
set_option maxHeartbeats 4000000 in
theorem main_part1_eq (c : Dev nD) : main_part1 (F := F) c = seq (piece2 ++ piece3) := rfl

set_option maxRecDepth 16384 in
set_option maxHeartbeats 4000000 in
theorem main_part2_eq (c : Dev nD) : main_part2 (F := F) c = seq (piece4 ++ (piece5 ++ piece6)) := rfl

set_option maxRecDepth 16384 in
set_option maxHeartbeats 4000000 in
theorem main_part3_eq (c : Dev nD) : main_part3 (F := F) c = seq (piece7 ++ piece8) := rfl

set_option maxRecDepth 16384 in
set_option maxHeartbeats 4000000 in
theorem main_part4_eq (c : Dev nD) : main_part4 (F := F) c = seq (piece9 ++ piece10) := rfl

/-- @main runs its five windows in order; each is the line of its pieces; lines in a row are their concatenation
    (seq_append), and both sides are then the eleven pieces run in order once the binds are associated to the right. -/
theorem main_eq (c : Dev nD) : main (F := F) c = seq ops := by
  have h : main (F := F) c
      = (main_part0 (F := F) c >>= fun _ => main_part1 (F := F) c >>= fun _ => main_part2 (F := F) c >>= fun _ =>
          main_part3 (F := F) c >>= fun _ => main_part4 (F := F) c) := rfl
  rw [h, main_part0_eq, main_part1_eq, main_part2_eq, main_part3_eq, main_part4_eq]
  simp only [ops, seg0, seg1, seg2, seg3, seg4, seg5, seg6, List.append_assoc, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: piece by piece. -/
theorem ops_sub : (ops : List (HloOp τ sig (Elt F))).Forall fun op => op.bufs ⊆ tcRefs τ sig :=
  forall_app piece0_sub (forall_app (forall_app piece1_sub piece2_sub) (forall_app (forall_app piece3_sub piece4_sub)
    (forall_app piece5_sub (forall_app (forall_app piece6_sub piece7_sub) (forall_app (forall_app piece8_sub piece9_sub)
      piece10_sub)))))

/-- Every operation determines what it writes (none allocates an unwritten buffer): piece by piece. -/
theorem ops_fresh : ∀ op ∈ (ops : List (HloOp τ sig (Elt F))), op.fresh = ∅ :=
  List.forall_iff_forall_mem.mp
    (forall_app piece0_fresh (forall_app (forall_app piece1_fresh piece2_fresh) (forall_app (forall_app piece3_fresh piece4_fresh)
      (forall_app piece5_fresh (forall_app (forall_app piece6_fresh piece7_fresh) (forall_app (forall_app piece8_fresh piece9_fresh)
        piece10_fresh))))))

/-! ## What the stages write, and what they leave alone -/

/-- The references each stage writes, in order. -/
abbrev seg0_W : List (Ref sig .tc) := piece0_W
abbrev seg1_W : List (Ref sig .tc) := piece1_W ++ piece2_W
abbrev seg2_W : List (Ref sig .tc) := piece3_W ++ piece4_W
abbrev seg3_W : List (Ref sig .tc) := piece5_W
abbrev seg4_W : List (Ref sig .tc) := piece6_W ++ piece7_W
abbrev seg5_W : List (Ref sig .tc) := piece8_W ++ piece9_W
abbrev seg6_W : List (Ref sig .tc) := piece10_W
/-- The references @main writes: every buffer of the signature but the 27 arguments. -/
abbrev ops_W : List (Ref sig .tc) := seg0_W ++ (seg1_W ++ (seg2_W ++ (seg3_W ++ (seg4_W ++ (seg5_W ++ seg6_W)))))

theorem seg0_keeps : KeepsOutside (seg0 (F := F)) seg0_W := .of_writes piece0_writes
theorem seg1_keeps : KeepsOutside (seg1 (F := F)) seg1_W := .app (.of_writes piece1_writes) (.of_writes piece2_writes)
theorem seg2_keeps : KeepsOutside (seg2 (F := F)) seg2_W := .app (.of_writes piece3_writes) (.of_writes piece4_writes)
theorem seg3_keeps : KeepsOutside (seg3 (F := F)) seg3_W := .of_writes piece5_writes
theorem seg4_keeps : KeepsOutside (seg4 (F := F)) seg4_W := .app (.of_writes piece6_writes) (.of_writes piece7_writes)
theorem seg5_keeps : KeepsOutside (seg5 (F := F)) seg5_W := .app (.of_writes piece8_writes) (.of_writes piece9_writes)
theorem seg6_keeps : KeepsOutside (seg6 (F := F)) seg6_W := .of_writes piece10_writes

/-- The whole line keeps every reference no stage writes. -/
theorem ops_keeps : KeepsOutside (ops (F := F)) ops_W :=
  .app seg0_keeps (.app seg1_keeps (.app seg2_keeps (.app seg3_keeps (.app seg4_keeps (.app seg5_keeps seg6_keeps)))))

end Cert.ReferenceIdeal.HandRun

end
-- ==== Proof.RefRun.lean ====
import proofs.«107715_j23149873725632_1_alg».proof.Proof.RefOps
import proofs.«107715_j23149873725632_1_alg».proof.Proof.Gen.Pre_finite_inputs
import proofs.«107715_j23149873725632_1_alg».proof.Defs

/-! The reference program's run: from any memory with zero counters every weakly fair execution of @main terminates
    with each TensorCore buffer at the fold of the operations over the launch contents (run_main: the library's
    statement about a straight line of operations, at the line RefOps.lean shows @main to be), and the 27 arguments
    end as they began, since no operation writes one (argK_eq: an argument is outside the list of references written). -/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The arguments are not written -/

set_option maxRecDepth 16384

-- BEGIN TABLE args
theorem arg0_eq (V : Valuation τ sig (Elt F)) :
    after ops V (main_arg0 : DevRef τ sig) = V (main_arg0 : DevRef τ sig) := ops_keeps main_arg0 (by decide) V
theorem arg1_eq (V : Valuation τ sig (Elt F)) :
    after ops V (main_arg1 : DevRef τ sig) = V (main_arg1 : DevRef τ sig) := ops_keeps main_arg1 (by decide) V
theorem arg2_eq (V : Valuation τ sig (Elt F)) :
    after ops V (main_arg2 : DevRef τ sig) = V (main_arg2 : DevRef τ sig) := ops_keeps main_arg2 (by decide) V
theorem arg3_eq (V : Valuation τ sig (Elt F)) :
    after ops V (main_arg3 : DevRef τ sig) = V (main_arg3 : DevRef τ sig) := ops_keeps main_arg3 (by decide) V
theorem arg4_eq (V : Valuation τ sig (Elt F)) :
    after ops V (main_arg4 : DevRef τ sig) = V (main_arg4 : DevRef τ sig) := ops_keeps main_arg4 (by decide) V
theorem arg5_eq (V : Valuation τ sig (Elt F)) :
    after ops V (main_arg5 : DevRef τ sig) = V (main_arg5 : DevRef τ sig) := ops_keeps main_arg5 (by decide) V
theorem arg6_eq (V : Valuation τ sig (Elt F)) :
    after ops V (main_arg6 : DevRef τ sig) = V (main_arg6 : DevRef τ sig) := ops_keeps main_arg6 (by decide) V
theorem arg7_eq (V : Valuation τ sig (Elt F)) :
    after ops V (main_arg7 : DevRef τ sig) = V (main_arg7 : DevRef τ sig) := ops_keeps main_arg7 (by decide) V
theorem arg8_eq (V : Valuation τ sig (Elt F)) :
    after ops V (main_arg8 : DevRef τ sig) = V (main_arg8 : DevRef τ sig) := ops_keeps main_arg8 (by decide) V
theorem arg9_eq (V : Valuation τ sig (Elt F)) :
    after ops V (main_arg9 : DevRef τ sig) = V (main_arg9 : DevRef τ sig) := ops_keeps main_arg9 (by decide) V
theorem arg10_eq (V : Valuation τ sig (Elt F)) :
    after ops V (main_arg10 : DevRef τ sig) = V (main_arg10 : DevRef τ sig) := ops_keeps main_arg10 (by decide) V
theorem arg11_eq (V : Valuation τ sig (Elt F)) :
    after ops V (main_arg11 : DevRef τ sig) = V (main_arg11 : DevRef τ sig) := ops_keeps main_arg11 (by decide) V
theorem arg12_eq (V : Valuation τ sig (Elt F)) :
    after ops V (main_arg12 : DevRef τ sig) = V (main_arg12 : DevRef τ sig) := ops_keeps main_arg12 (by decide) V
theorem arg13_eq (V : Valuation τ sig (Elt F)) :
    after ops V (main_arg13 : DevRef τ sig) = V (main_arg13 : DevRef τ sig) := ops_keeps main_arg13 (by decide) V
theorem arg14_eq (V : Valuation τ sig (Elt F)) :
    after ops V (main_arg14 : DevRef τ sig) = V (main_arg14 : DevRef τ sig) := ops_keeps main_arg14 (by decide) V
theorem arg15_eq (V : Valuation τ sig (Elt F)) :
    after ops V (main_arg15 : DevRef τ sig) = V (main_arg15 : DevRef τ sig) := ops_keeps main_arg15 (by decide) V
theorem arg16_eq (V : Valuation τ sig (Elt F)) :
    after ops V (main_arg16 : DevRef τ sig) = V (main_arg16 : DevRef τ sig) := ops_keeps main_arg16 (by decide) V
theorem arg17_eq (V : Valuation τ sig (Elt F)) :
    after ops V (main_arg17 : DevRef τ sig) = V (main_arg17 : DevRef τ sig) := ops_keeps main_arg17 (by decide) V
theorem arg18_eq (V : Valuation τ sig (Elt F)) :
    after ops V (main_arg18 : DevRef τ sig) = V (main_arg18 : DevRef τ sig) := ops_keeps main_arg18 (by decide) V
theorem arg19_eq (V : Valuation τ sig (Elt F)) :
    after ops V (main_arg19 : DevRef τ sig) = V (main_arg19 : DevRef τ sig) := ops_keeps main_arg19 (by decide) V
theorem arg20_eq (V : Valuation τ sig (Elt F)) :
    after ops V (main_arg20 : DevRef τ sig) = V (main_arg20 : DevRef τ sig) := ops_keeps main_arg20 (by decide) V
theorem arg21_eq (V : Valuation τ sig (Elt F)) :
    after ops V (main_arg21 : DevRef τ sig) = V (main_arg21 : DevRef τ sig) := ops_keeps main_arg21 (by decide) V
theorem arg22_eq (V : Valuation τ sig (Elt F)) :
    after ops V (main_arg22 : DevRef τ sig) = V (main_arg22 : DevRef τ sig) := ops_keeps main_arg22 (by decide) V
theorem arg23_eq (V : Valuation τ sig (Elt F)) :
    after ops V (main_arg23 : DevRef τ sig) = V (main_arg23 : DevRef τ sig) := ops_keeps main_arg23 (by decide) V
theorem arg24_eq (V : Valuation τ sig (Elt F)) :
    after ops V (main_arg24 : DevRef τ sig) = V (main_arg24 : DevRef τ sig) := ops_keeps main_arg24 (by decide) V
theorem arg25_eq (V : Valuation τ sig (Elt F)) :
    after ops V (main_arg25 : DevRef τ sig) = V (main_arg25 : DevRef τ sig) := ops_keeps main_arg25 (by decide) V
theorem arg26_eq (V : Valuation τ sig (Elt F)) :
    after ops V (main_arg26 : DevRef τ sig) = V (main_arg26 : DevRef τ sig) := ops_keeps main_arg26 (by decide) V
-- END TABLE args

/-- The reference runs (terminates, no fault) and its argument arrays end unchanged. -/
theorem frame_ri : Cert.frame_ReferenceIdeal :=
  fun m ρ _ => (θ_run Cert.ReferenceIdeal.defs _ _).mono (fun _ h c =>
-- BEGIN TABLE frame
    ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _),
      (h c main_arg20).trans (arg20_eq _),
      (h c main_arg21).trans (arg21_eq _),
      (h c main_arg22).trans (arg22_eq _),
      (h c main_arg23).trans (arg23_eq _),
      (h c main_arg24).trans (arg24_eq _),
      (h c main_arg25).trans (arg25_eq _),
      (h c main_arg26).trans (arg26_eq _)⟩)
-- END TABLE frame
    (run_main (F := Ideal) m ρ)

end Cert.ReferenceIdeal.HandRun

end
-- ==== Proof.KernelRun.lean ====
/-
  The idealized kernel's run with its result named. The program is seventeen kernel regions among stretches of
  host operations; its run is the fold of those segments over the launch memory, and the fold's last boundary
  contents `W35` hold, at the result buffer, what the last stretch leaves there. Every weakly fair execution
  terminates, nothing faulting, and every final state has the result buffer at that boundary's contents and the
  twenty-seven argument arrays as launched.
-/
import proofs.«107715_j23149873725632_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments from the launch memory: at the end every unscoped buffer holds the last boundary's
    contents, so the result buffer holds `W35` there and each argument, read back through the fold, its launch
    contents. -/
theorem run_named : θ_run defs (onTc (τ := τ) (main (F := F))) ⟨m, fun _ => 0, ρ⟩ (fun r => ∀ c : Dev nD,
      r.2.mem ((c.tc : Thread nD τ).loc main_v165) = W35 m ρ c (Proc.devRef .tc main_v165)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W35 m ρ c b)
    (hfin := fun c s' => by
      iintro ⟨⟨Hh, -⟩, HSI⟩
      unfold StableHlo.held
      imodintro
      iapply (pointsTo_read_all (Pipeline.ucRefs τ sig) (fun b => (((c : Thread nD τ)).1, b)) (W35 m ρ c) s')
      isplitl [Hh] <;> iassumption)
    (hQ := fun s h c =>
      ⟨h c _ (mem_uc main_v165 (by decide)),
       (h c _ (mem_uc main_arg0 (by decide))).trans (W35_main_arg0 m ρ c),
       (h c _ (mem_uc main_arg1 (by decide))).trans (W35_main_arg1 m ρ c),
       (h c _ (mem_uc main_arg2 (by decide))).trans (W35_main_arg2 m ρ c),
       (h c _ (mem_uc main_arg3 (by decide))).trans (W35_main_arg3 m ρ c),
       (h c _ (mem_uc main_arg4 (by decide))).trans (W35_main_arg4 m ρ c),
       (h c _ (mem_uc main_arg5 (by decide))).trans (W35_main_arg5 m ρ c),
       (h c _ (mem_uc main_arg6 (by decide))).trans (W35_main_arg6 m ρ c),
       (h c _ (mem_uc main_arg7 (by decide))).trans (W35_main_arg7 m ρ c),
       (h c _ (mem_uc main_arg8 (by decide))).trans (W35_main_arg8 m ρ c),
       (h c _ (mem_uc main_arg9 (by decide))).trans (W35_main_arg9 m ρ c),
       (h c _ (mem_uc main_arg10 (by decide))).trans (W35_main_arg10 m ρ c),
       (h c _ (mem_uc main_arg11 (by decide))).trans (W35_main_arg11 m ρ c),
       (h c _ (mem_uc main_arg12 (by decide))).trans (W35_main_arg12 m ρ c),
       (h c _ (mem_uc main_arg13 (by decide))).trans (W35_main_arg13 m ρ c),
       (h c _ (mem_uc main_arg14 (by decide))).trans (W35_main_arg14 m ρ c),
       (h c _ (mem_uc main_arg15 (by decide))).trans (W35_main_arg15 m ρ c),
       (h c _ (mem_uc main_arg16 (by decide))).trans (W35_main_arg16 m ρ c),
       (h c _ (mem_uc main_arg17 (by decide))).trans (W35_main_arg17 m ρ c),
       (h c _ (mem_uc main_arg18 (by decide))).trans (W35_main_arg18 m ρ c),
       (h c _ (mem_uc main_arg19 (by decide))).trans (W35_main_arg19 m ρ c),
       (h c _ (mem_uc main_arg20 (by decide))).trans (W35_main_arg20 m ρ c),
       (h c _ (mem_uc main_arg21 (by decide))).trans (W35_main_arg21 m ρ c),
       (h c _ (mem_uc main_arg22 (by decide))).trans (W35_main_arg22 m ρ c),
       (h c _ (mem_uc main_arg23 (by decide))).trans (W35_main_arg23 m ρ c),
       (h c _ (mem_uc main_arg24 (by decide))).trans (W35_main_arg24 m ρ c),
       (h c _ (mem_uc main_arg25 (by decide))).trans (W35_main_arg25 m ρ c),
       (h c _ (mem_uc main_arg26 (by decide))).trans (W35_main_arg26 m ρ c)⟩)

end Cert.KernelIdeal.Named

end
-- ==== Proof.KerOpsW.lean ====
import proofs.«107715_j23149873725632_1_alg».proof.Proof.Gen.KernelIdeal.Launch
import proofs.«107715_j23149873725632_1_alg».proof.Proof.RefOps

/-! The kernel program's host stretches (the generated lists hostOpsK): per stretch the references it writes, in order,
    and that it keeps every other reference (the general statements about lines of operations are RefOps.lean's). -/

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.HandRun (Keeps KeepsOutside)

variable {F : FTy → Type} [FloatOps F]

/-- The references hostOps0 writes, in order. -/
abbrev hostOps0_W : List (Ref sig .tc) := [main_v0, main_v1, main_v2, main_v3, main_v4, main_v5, main_v6, main_v7, main_cst, main_v8, main_v9, main_cst_0, main_v10, main_v11, main_v12, main_cst_1, main_v13, main_v14, main_cst_2, main_v15, main_v16, main_cst_3]
set_option maxRecDepth 8192 in
theorem hostOps0_writes : (hostOps0 : List (HloOp τ sig (Elt F))).Forall fun op => op.writes ⊆ (hostOps0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem hostOps0_keeps : KeepsOutside (hostOps0 (F := F)) hostOps0_W := .of_writes hostOps0_writes

/-- The references hostOps0_1 writes, in order. -/
abbrev hostOps0_1_W : List (Ref sig .tc) := [main_call0_v0, main_call0_v1, main_v17]
set_option maxRecDepth 8192 in
theorem hostOps0_1_writes : (hostOps0_1 : List (HloOp τ sig (Elt F))).Forall fun op => op.writes ⊆ (hostOps0_1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem hostOps0_1_keeps : KeepsOutside (hostOps0_1 (F := F)) hostOps0_1_W := .of_writes hostOps0_1_writes

/-- The references hostOps0_2 writes, in order. -/
abbrev hostOps0_2_W : List (Ref sig .tc) := [main_v18, main_cst_4]
set_option maxRecDepth 8192 in
theorem hostOps0_2_writes : (hostOps0_2 : List (HloOp τ sig (Elt F))).Forall fun op => op.writes ⊆ (hostOps0_2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem hostOps0_2_keeps : KeepsOutside (hostOps0_2 (F := F)) hostOps0_2_W := .of_writes hostOps0_2_writes

/-- The references hostOps0_3 writes, in order. -/
abbrev hostOps0_3_W : List (Ref sig .tc) := [main_call1_v0, main_call1_v1, main_v19]
set_option maxRecDepth 8192 in
theorem hostOps0_3_writes : (hostOps0_3 : List (HloOp τ sig (Elt F))).Forall fun op => op.writes ⊆ (hostOps0_3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem hostOps0_3_keeps : KeepsOutside (hostOps0_3 (F := F)) hostOps0_3_W := .of_writes hostOps0_3_writes

/-- The references hostOps0_4 writes, in order. -/
abbrev hostOps0_4_W : List (Ref sig .tc) := [main_c, main_v20, main_v21, main_c_5, main_v22, main_v23, main_v24, main_v25, main_v26, main_v27, main_c_6, main_v28, main_v29, main_c_7, main_v30, main_v31, main_v32, main_v33, main_v34, main_v35]
set_option maxRecDepth 8192 in
theorem hostOps0_4_writes : (hostOps0_4 : List (HloOp τ sig (Elt F))).Forall fun op => op.writes ⊆ (hostOps0_4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem hostOps0_4_keeps : KeepsOutside (hostOps0_4 (F := F)) hostOps0_4_W := .of_writes hostOps0_4_writes

/-- The references hostOps1 writes, in order. -/
abbrev hostOps1_W : List (Ref sig .tc) := [main_v37, main_c_8, main_v38, main_v39, main_c_9, main_v40, main_v41, main_v42, main_v43, main_v44, main_v45, main_v46, main_cst_10, main_v47, main_v48, main_v49, main_v50]
set_option maxRecDepth 8192 in
theorem hostOps1_writes : (hostOps1 : List (HloOp τ sig (Elt F))).Forall fun op => op.writes ⊆ (hostOps1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem hostOps1_keeps : KeepsOutside (hostOps1 (F := F)) hostOps1_W := .of_writes hostOps1_writes

/-- The references hostOps2 writes, in order. -/
abbrev hostOps2_W : List (Ref sig .tc) := [main_cst_11, main_v52, main_v53, main_cst_12, main_v54, main_v55, main_v56, main_v57, main_v58, main_v59]
set_option maxRecDepth 8192 in
theorem hostOps2_writes : (hostOps2 : List (HloOp τ sig (Elt F))).Forall fun op => op.writes ⊆ (hostOps2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem hostOps2_keeps : KeepsOutside (hostOps2 (F := F)) hostOps2_W := .of_writes hostOps2_writes

/-- The references hostOps4 writes, in order. -/
abbrev hostOps4_W : List (Ref sig .tc) := [main_v62, main_c_13, main_v63, main_v64, main_c_14, main_v65, main_v66, main_v67, main_v68, main_v69, main_v70, main_v71, main_cst_15, main_v72, main_v73, main_v74, main_v75]
set_option maxRecDepth 8192 in
theorem hostOps4_writes : (hostOps4 : List (HloOp τ sig (Elt F))).Forall fun op => op.writes ⊆ (hostOps4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem hostOps4_keeps : KeepsOutside (hostOps4 (F := F)) hostOps4_W := .of_writes hostOps4_writes

/-- The references hostOps5 writes, in order. -/
abbrev hostOps5_W : List (Ref sig .tc) := [main_cst_16, main_v77, main_v78, main_cst_17, main_v79, main_v80, main_v81, main_v82, main_v83, main_v84]
set_option maxRecDepth 8192 in
theorem hostOps5_writes : (hostOps5 : List (HloOp τ sig (Elt F))).Forall fun op => op.writes ⊆ (hostOps5_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem hostOps5_keeps : KeepsOutside (hostOps5 (F := F)) hostOps5_W := .of_writes hostOps5_writes

/-- The references hostOps7 writes, in order. -/
abbrev hostOps7_W : List (Ref sig .tc) := [main_v87, main_c_18, main_v88, main_v89, main_c_19, main_v90, main_v91, main_v92, main_v93, main_v94, main_v95, main_v96, main_cst_20, main_v97, main_v98, main_v99, main_v100]
set_option maxRecDepth 8192 in
theorem hostOps7_writes : (hostOps7 : List (HloOp τ sig (Elt F))).Forall fun op => op.writes ⊆ (hostOps7_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem hostOps7_keeps : KeepsOutside (hostOps7 (F := F)) hostOps7_W := .of_writes hostOps7_writes

/-- The references hostOps8 writes, in order. -/
abbrev hostOps8_W : List (Ref sig .tc) := [main_cst_21, main_v102, main_v103, main_cst_22, main_v104, main_v105, main_v106, main_v107, main_v108, main_v109]
set_option maxRecDepth 8192 in
theorem hostOps8_writes : (hostOps8 : List (HloOp τ sig (Elt F))).Forall fun op => op.writes ⊆ (hostOps8_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem hostOps8_keeps : KeepsOutside (hostOps8 (F := F)) hostOps8_W := .of_writes hostOps8_writes

/-- The references hostOps10 writes, in order. -/
abbrev hostOps10_W : List (Ref sig .tc) := [main_v112, main_c_23, main_v113, main_v114, main_c_24, main_v115, main_v116, main_v117, main_v118, main_v119, main_v120, main_v121, main_cst_25, main_v122, main_v123, main_v124, main_v125]
set_option maxRecDepth 8192 in
theorem hostOps10_writes : (hostOps10 : List (HloOp τ sig (Elt F))).Forall fun op => op.writes ⊆ (hostOps10_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem hostOps10_keeps : KeepsOutside (hostOps10 (F := F)) hostOps10_W := .of_writes hostOps10_writes

/-- The references hostOps11 writes, in order. -/
abbrev hostOps11_W : List (Ref sig .tc) := [main_cst_26, main_v127, main_v128, main_cst_27, main_v129, main_v130, main_v131, main_v132, main_v133, main_v134]
set_option maxRecDepth 8192 in
theorem hostOps11_writes : (hostOps11 : List (HloOp τ sig (Elt F))).Forall fun op => op.writes ⊆ (hostOps11_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem hostOps11_keeps : KeepsOutside (hostOps11 (F := F)) hostOps11_W := .of_writes hostOps11_writes

/-- The references hostOps13 writes, in order. -/
abbrev hostOps13_W : List (Ref sig .tc) := [main_v137, main_c_28, main_v138, main_v139, main_c_29, main_v140, main_v141, main_v142, main_v143, main_v144, main_v145, main_v146, main_cst_30, main_v147, main_v148, main_v149, main_v150]
set_option maxRecDepth 8192 in
theorem hostOps13_writes : (hostOps13 : List (HloOp τ sig (Elt F))).Forall fun op => op.writes ⊆ (hostOps13_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem hostOps13_keeps : KeepsOutside (hostOps13 (F := F)) hostOps13_W := .of_writes hostOps13_writes

/-- The references hostOps14 writes, in order. -/
abbrev hostOps14_W : List (Ref sig .tc) := [main_cst_31, main_v152, main_v153, main_cst_32, main_v154, main_v155, main_v156, main_v157, main_v158, main_v159]
set_option maxRecDepth 8192 in
theorem hostOps14_writes : (hostOps14 : List (HloOp τ sig (Elt F))).Forall fun op => op.writes ⊆ (hostOps14_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem hostOps14_keeps : KeepsOutside (hostOps14 (F := F)) hostOps14_W := .of_writes hostOps14_writes

/-- The references hostOps15 writes, in order. -/
abbrev hostOps15_W : List (Ref sig .tc) := [main_v161]
set_option maxRecDepth 8192 in
theorem hostOps15_writes : (hostOps15 : List (HloOp τ sig (Elt F))).Forall fun op => op.writes ⊆ (hostOps15_W.map (Proc.devRef (τ := τ) .tc)).toFinset := by
  simp only [List.Forall]
  exact (by simp only [nullary_writes, unary_writes, binary_writes, ternary_writes, quaternary_writes, reshape_writes, Finset.singleton_subset_iff, List.mem_toFinset]; exact List.mem_map_of_mem (by decide))
theorem hostOps15_keeps : KeepsOutside (hostOps15 (F := F)) hostOps15_W := .of_writes hostOps15_writes

/-- The references hostOps16 writes, in order. -/
abbrev hostOps16_W : List (Ref sig .tc) := [main_v163]
set_option maxRecDepth 8192 in
theorem hostOps16_writes : (hostOps16 : List (HloOp τ sig (Elt F))).Forall fun op => op.writes ⊆ (hostOps16_W.map (Proc.devRef (τ := τ) .tc)).toFinset := by
  simp only [List.Forall]
  exact (by simp only [nullary_writes, unary_writes, binary_writes, ternary_writes, quaternary_writes, reshape_writes, Finset.singleton_subset_iff, List.mem_toFinset]; exact List.mem_map_of_mem (by decide))
theorem hostOps16_keeps : KeepsOutside (hostOps16 (F := F)) hostOps16_W := .of_writes hostOps16_writes

/-- The references hostOps17 writes, in order. -/
abbrev hostOps17_W : List (Ref sig .tc) := [main_v165]
set_option maxRecDepth 8192 in
theorem hostOps17_writes : (hostOps17 : List (HloOp τ sig (Elt F))).Forall fun op => op.writes ⊆ (hostOps17_W.map (Proc.devRef (τ := τ) .tc)).toFinset := by
  simp only [List.Forall]
  exact (by simp only [nullary_writes, unary_writes, binary_writes, ternary_writes, quaternary_writes, reshape_writes, Finset.singleton_subset_iff, List.mem_toFinset]; exact List.mem_map_of_mem (by decide))
theorem hostOps17_keeps : KeepsOutside (hostOps17 (F := F)) hostOps17_W := .of_writes hostOps17_writes

end Cert.KernelIdeal.Chain

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«107715_j23149873725632_1_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.RegMM0.lean ====
/-
  Region 0: the first layer's feature transform. The 50000-row input is cut into 25 blocks of 2000 rows; at each grid point the kernel
  multiplies one block by the whole 32×32 weight matrix and writes the 2000×32 product to the same rows of the
  output. A row of the product depends only on the same row of the input, so the blocks are the restrictions of
  one whole-array function: entry (r, j) of the output is the sum over k of X(r, k) · W(k, j), and the 25 blocks tile
  the 50000 rows.
-/
import proofs.«107715_j23149873725632_1_alg».proof.Proof.Gen.KernelIdeal.Frame
import proofs.«107715_j23149873725632_1_alg».proof.Proof.LibMatmul2D
import Idealize.ShloMosaic.Lib.Pipeline.Value
import Idealize.ShloMosaic.Lib.ValueIdx

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2_0 : (![0, 0] : Fin 2 → Nat) = fun _ => 0 := funext fun a => by fin_cases a <;> rfl

/-- Rows of `X` against columns of `Wt`: entry (r, j) is the sum over k of X(r, k) · Wt(k, j). -/
def mm0 (X : S50000x32.Idx → EReal) (Wt : S32x32.Idx → EReal) : S50000x32.Idx → EReal :=
  fun i => ∑ k : Fin 32, X (ix2 (i 0) k) * Wt (ix2 k (i 1))

/-- The body's one store at an entry of the block: the matrix product into the zero accumulator, the two changes
    of float format being the identity on the extended reals. -/
theorem pay0 (x0 : Vec Ideal S2000x32 .f32) (x1 : Vec Ideal S32x32 .f32) (p : Fin 2000) (q : Fin 32) :
    k0_pay1 x0 x1 (ix2 p q) = ∑ k : Fin 32, x0 (ix2 p k) * x1 (ix2 k q) := by
  unfold k0_pay1
  try simp only [shapeCast_self]
  exact Cert.LibMatmul2D.rows_cols _ none _ _ p q

/-- The index maps over the 25 grid points: the row block moves with the point, the weight block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 1000000 in
/-- What point `t` writes back is block `t` of the whole product (the two input arrays named `X` and `Wt`). -/
theorem flushed0 (c : Dev nD) (t : Fin cfg0.N) (X : S50000x32.Idx → EReal) (Wt : S32x32.Idx → EReal)
    (hX : V c (Pipeline.arrRef spec0 0) = X) (hW : V c (Pipeline.arrRef spec0 1) = Wt) :
    (dat0 V c).flushed 2 t = ((cfg0.win 2).blk t).view.read (Elt Ideal) (mm0 X Wt) := by
  have hb0 : iblk0 V c 0 t = ((cfg0.win 0).blk t).view.read (Elt Ideal) X := by unfold iblk0; rw [hX]
  have hb1 : iblk0 V c 1 t = ((cfg0.win 1).blk t).view.read (Elt Ideal) Wt := by unfold iblk0; rw [hW]
  show (cfg0.win 2).cut (grid0.coords t) ((dat0 V c).after 2 t) = _
  rw [after0_2, hb0, hb1]
  unfold out0_2
  rw [View.canon_unit_zero hz2_0]
  simp only [View.ld_unit_zero (S := S2000x32) hz2_0, View.ld_unit_zero (S := S32x32) hz2_0]
  obtain ⟨e0, e1, e2, e3, e4, e5⟩ := idx0 t
  funext j
  obtain ⟨p, q, rfl⟩ : ∃ (p : Fin 2000) (q : Fin 32), j = ix2 p q := ⟨j 0, j 1, eq_ix2 j⟩
  refine (pay0 _ _ p q).trans ?_
  show ∑ k : Fin 32, X (((cfg0.win 0).blk t).view.emb (ix2 p k)) * Wt (((cfg0.win 1).blk t).view.emb (ix2 k q))
      = mm0 X Wt (((cfg0.win 2).blk t).view.emb (ix2 p q))
  unfold mm0
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 32 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 32 + 1 * k.val = k.val; omega
    | ⟨1, _⟩ => show win0_1.index t (1 : Fin 2) * 32 + 1 * q.val = win0_2.index t (1 : Fin 2) * 32 + 1 * q.val; omega
  exact congrArg₂ (· * ·) (congrArg X h0) (congrArg Wt h1)

/-- An index of the output array is in point `t`'s block iff each coordinate is in the block's range on its axis. -/
theorem mem_blk0 (t : Fin cfg0.N) (i : S50000x32.Idx) :
    i ∈ ((cfg0.win 2).blk t).view.set ↔ ∀ a : Fin 2, win0_2.index t a * S2000x32.size a ≤ (i a).val
      ∧ (i a).val < win0_2.index t a * S2000x32.size a + S2000x32.size a := by
  show i ∈ ((View.whole main_v36).slice (win0_2.rect t)).set ↔ _
  rw [View.set_slice_whole, Rect.mem_set_unit]
  exact Iff.rfl

/-- Every block of rows is some point's. -/
theorem idx_onto0 : ∀ q0 : Fin 25, ∃ t : Fin cfg0.N, win0_2.index t = ![q0.val, 0] :=
  (by decide +kernel : ∀ q0 : Fin 25, ∃ t : Fin grid0.N, win0_2.index t = ![q0.val, 0])

/-- The 25 blocks of 2000 rows tile the 50000 rows: row r is in block r / 2000. -/
theorem cover0 (i : S50000x32.Idx) :
    ∃ t : Fin cfg0.N, (cfg0.win 2).flush t = true ∧ i ∈ ((cfg0.win 2).blk t).view.set := by
  have hi0 : (i 0).val < 50000 := (i 0).isLt
  have hi1 : (i 1).val < 32 := (i 1).isLt
  obtain ⟨t, ht⟩ := idx_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 32 ≤ (i 1).val ∧ (i 1).val < win0_2.index t (1 : Fin 2) * 32 + 32; omega

/-- After the region the output array holds the whole product of the two input arrays as the region found them. -/
theorem final0 (c : Dev nD) (X : S50000x32.Idx → EReal) (Wt : S32x32.Idx → EReal)
    (hX : V c (Pipeline.arrRef spec0 0) = X) (hW : V c (Pipeline.arrRef spec0 1) = Wt) :
    (dat0 V c).arrAt 2 cfg0.N = mm0 X Wt :=
  (dat0 V c).arrAt_eq_of_cover 2 _ (fun t _ => flushed0 V c t X Wt hX hW) cover0

end Cert.KernelIdeal.RegVal

end
-- ==== Proof.RegBN2.lean ====
/-
  Region 2: the first layer's normalisation. The activations (50000 rows, 32 columns) are cut into 25 blocks of 2000 rows; the column
  mean, the column variance, the scale and the shift are 32-entry rows every point reads whole. At each entry the
  kernel computes scale · (a − mean) · (variance + ε)^(−1/2) + shift: entry (r, j) of the output
  depends on entry (r, j) of the activations and on column j of the four rows only, so the blocks are the
  restrictions of one whole-array function and the 25 blocks tile the 50000 rows.
-/
import proofs.«107715_j23149873725632_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hzB_2 : (![0, 0] : Fin 2 → Nat) = fun _ => 0 := funext fun a => by fin_cases a <;> rfl

/-- The stabilising constant ε as the body's float word reads on the extended reals. -/
def epsW2 : EReal := Scalar.ofBits (F := Ideal) .f32 0x3727C5AC#32

/-- The normalisation, entry by entry: scale · (a − mean) · (variance + ε)^(−1/2) + shift, the four rows read at the
    entry's column. -/
def bn2 (A : S50000x32.Idx → EReal) (Mn Vr G Be : S1x32.Idx → EReal) : S50000x32.Idx → EReal :=
  fun i => G (ix2 (0 : Fin 1) (i 1)) * (A i - Mn (ix2 (0 : Fin 1) (i 1))) * Ideal.rsqrt (Vr (ix2 (0 : Fin 1) (i 1)) + epsW2) + Be (ix2 (0 : Fin 1) (i 1))

/-- The body's one store at an entry of the block. -/
theorem payB2 (x0 : Vec Ideal S2000x32 .f32) (g mn vr be : Vec Ideal S1x32 .f32) (p : Fin 2000) (q : Fin 32) :
    k2_pay1 x0 g mn vr be (ix2 p q)
      = g (ix2 (0 : Fin 1) q) * (x0 (ix2 p q) - mn (ix2 (0 : Fin 1) q)) * Ideal.rsqrt (vr (ix2 (0 : Fin 1) q) + epsW2) + be (ix2 (0 : Fin 1) q) := by
  unfold k2_pay1
  simp only [shapeCast_self, addf, mulf, subf, rsqrt, maximumf, broadcast, broadcastTo_1b_ab_apply,
    Ideal.addf_def, Ideal.mulf_def, Ideal.subf_def, Ideal.rsqrt_def, Ideal.maximumf_def, epsW2]

/-- The index maps over the 25 grid points: the row blocks move with the point, the four rows stay. -/
theorem idxB2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 1000000 in
/-- What point `t` writes back is block `t` of the whole normalised array (the five input arrays named). -/
theorem flushedB2 (c : Dev nD) (t : Fin cfg2.N) (A : S50000x32.Idx → EReal) (Mn Vr G Be : S1x32.Idx → EReal)
    (hA : V c (Pipeline.arrRef spec2 0) = A) (hM : V c (Pipeline.arrRef spec2 1) = Mn)
    (hV : V c (Pipeline.arrRef spec2 2) = Vr) (hG : V c (Pipeline.arrRef spec2 3) = G)
    (hB : V c (Pipeline.arrRef spec2 4) = Be) :
    (dat2 V c).flushed 5 t = ((cfg2.win 5).blk t).view.read (Elt Ideal) (bn2 A Mn Vr G Be) := by
  have hb0 : iblk2 V c 0 t = ((cfg2.win 0).blk t).view.read (Elt Ideal) A := by unfold iblk2; rw [hA]
  have hb1 : iblk2 V c 1 t = ((cfg2.win 1).blk t).view.read (Elt Ideal) Mn := by unfold iblk2; rw [hM]
  have hb2 : iblk2 V c 2 t = ((cfg2.win 2).blk t).view.read (Elt Ideal) Vr := by unfold iblk2; rw [hV]
  have hb3 : iblk2 V c 3 t = ((cfg2.win 3).blk t).view.read (Elt Ideal) G := by unfold iblk2; rw [hG]
  have hb4 : iblk2 V c 4 t = ((cfg2.win 4).blk t).view.read (Elt Ideal) Be := by unfold iblk2; rw [hB]
  show (cfg2.win 5).cut (grid2.coords t) ((dat2 V c).after 5 t) = _
  rw [after2_5, hb0, hb1, hb2, hb3, hb4]
  unfold out2_5
  rw [View.canon_unit_zero hzB_2]
  simp only [View.ld_unit_zero (S := S2000x32) hzB_2, View.ld_unit_zero (S := S1x32) hzB_2]
  obtain ⟨e0, e1, e2, e3, e4, e5, e6, e7, e8, e9, e10, e11⟩ := idxB2 t
  funext j
  obtain ⟨p, q, rfl⟩ : ∃ (p : Fin 2000) (q : Fin 32), j = ix2 p q := ⟨j 0, j 1, eq_ix2 j⟩
  refine (payB2 _ _ _ _ _ p q).trans ?_
  have h0 : ((cfg2.win 0).blk t).view.emb (ix2 p q) = ((cfg2.win 5).blk t).view.emb (ix2 p q) := by
    funext a; apply Fin.ext
    match a with
    | ⟨0, _⟩ => show win2_0.index t (0 : Fin 2) * 2000 + 1 * p.val = win2_5.index t (0 : Fin 2) * 2000 + 1 * p.val; omega
    | ⟨1, _⟩ => show win2_0.index t (1 : Fin 2) * 32 + 1 * q.val = win2_5.index t (1 : Fin 2) * 32 + 1 * q.val; omega
  have h1 : ((cfg2.win 1).blk t).view.emb (ix2 (0 : Fin 1) q) = ix2 (0 : Fin 1) ((((cfg2.win 5).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 32 + 1 * q.val = win2_5.index t (1 : Fin 2) * 32 + 1 * q.val; omega
  have h2 : ((cfg2.win 2).blk t).view.emb (ix2 (0 : Fin 1) q) = ix2 (0 : Fin 1) ((((cfg2.win 5).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 32 + 1 * q.val = win2_5.index t (1 : Fin 2) * 32 + 1 * q.val; omega
  have h3 : ((cfg2.win 3).blk t).view.emb (ix2 (0 : Fin 1) q) = ix2 (0 : Fin 1) ((((cfg2.win 5).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 32 + 1 * q.val = win2_5.index t (1 : Fin 2) * 32 + 1 * q.val; omega
  have h4 : ((cfg2.win 4).blk t).view.emb (ix2 (0 : Fin 1) q) = ix2 (0 : Fin 1) ((((cfg2.win 5).blk t).view.emb (ix2 p q)) 1) := by
    funext a; apply Fin.ext
    match a with
    | ⟨0, _⟩ => show win2_4.index t (0 : Fin 2) * 1 + 1 * 0 = 0; omega
    | ⟨1, _⟩ => show win2_4.index t (1 : Fin 2) * 32 + 1 * q.val = win2_5.index t (1 : Fin 2) * 32 + 1 * q.val; omega
  show G (((cfg2.win 3).blk t).view.emb (ix2 (0 : Fin 1) q)) * (A (((cfg2.win 0).blk t).view.emb (ix2 p q)) - Mn (((cfg2.win 1).blk t).view.emb (ix2 (0 : Fin 1) q))) * Ideal.rsqrt (Vr (((cfg2.win 2).blk t).view.emb (ix2 (0 : Fin 1) q)) + epsW2) + Be (((cfg2.win 4).blk t).view.emb (ix2 (0 : Fin 1) q))
      = bn2 A Mn Vr G Be (((cfg2.win 5).blk t).view.emb (ix2 p q))
  unfold bn2
  rw [congrArg A h0, congrArg Mn h1, congrArg Vr h2, congrArg G h3, congrArg Be h4]
  rfl

/-- An index of the output array is in point `t`'s block iff each coordinate is in the block's range on its axis. -/
theorem mem_blkB2 (t : Fin cfg2.N) (i : S50000x32.Idx) :
    i ∈ ((cfg2.win 5).blk t).view.set ↔ ∀ a : Fin 2, win2_5.index t a * S2000x32.size a ≤ (i a).val
      ∧ (i a).val < win2_5.index t a * S2000x32.size a + S2000x32.size a := by
  show i ∈ ((View.whole main_v60).slice (win2_5.rect t)).set ↔ _
  rw [View.set_slice_whole, Rect.mem_set_unit]
  exact Iff.rfl

/-- Every block of rows is some point's. -/
theorem idx_ontoB2 : ∀ q0 : Fin 25, ∃ t : Fin cfg2.N, win2_5.index t = ![q0.val, 0] :=
  (by decide +kernel : ∀ q0 : Fin 25, ∃ t : Fin grid2.N, win2_5.index t = ![q0.val, 0])

/-- The 25 blocks of 2000 rows tile the 50000 rows: row r is in block r / 2000. -/
theorem coverB2 (i : S50000x32.Idx) :
    ∃ t : Fin cfg2.N, (cfg2.win 5).flush t = true ∧ i ∈ ((cfg2.win 5).blk t).view.set := by
  have hi0 : (i 0).val < 50000 := (i 0).isLt
  have hi1 : (i 1).val < 32 := (i 1).isLt
  obtain ⟨t, ht⟩ := idx_ontoB2 ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blkB2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 32 ≤ (i 1).val ∧ (i 1).val < win2_5.index t (1 : Fin 2) * 32 + 32; omega

/-- After the region the output array holds the normalised activations. -/
theorem finalB2 (c : Dev nD) (A : S50000x32.Idx → EReal) (Mn Vr G Be : S1x32.Idx → EReal)
    (hA : V c (Pipeline.arrRef spec2 0) = A) (hM : V c (Pipeline.arrRef spec2 1) = Mn)
    (hV : V c (Pipeline.arrRef spec2 2) = Vr) (hG : V c (Pipeline.arrRef spec2 3) = G)
    (hB : V c (Pipeline.arrRef spec2 4) = Be) :
    (dat2 V c).arrAt 5 cfg2.N = bn2 A Mn Vr G Be :=
  (dat2 V c).arrAt_eq_of_cover 5 _ (fun t _ => flushedB2 V c t A Mn Vr G Be hA hM hV hG hB) coverB2

end Cert.KernelIdeal.RegVal

end
-- ==== Proof.RefOpsRead1.lean ====
import proofs.«107715_j23149873725632_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! Stage 1 (the first graph-convolution layer) read back: each named intermediate of the layer is a closed term of
    the contents the stage starts from.  With h = x·W the layer computes, for the edge list (src, dst) with self loops and
    the normalised edge weights wgt,  a = Σ_{e : dst e = i} wgt e · h (src e)  (rows gathered at the sources, scaled,
    scatter-added at the destinations), z = a + b, y = max(z, 0), the column mean μ and (biased) column variance σ² of
    y over the 50000 rows, and  γ · (y − μ) · rsqrt(σ² + 1e-5) + β. -/

/-- (a) The layer's matrix product. -/
def lin1 (x : FVec F S50000x32 .f32) (w : FVec F S32x32 .f32) : FVec F S50000x32 .f32 :=
  Host.dotGeneral (F := F) dot_S50000x32_S32x32_S50000x32_1_0_0_1_n_n none x w

/-- A vector of row indices with the negative ones shifted up by the row count 50000 (the gather's index
    normalisation), as a column of index vectors. -/
def wrapIdx (e : IVec S450000 32) : IVec S450000x1 32 :=
  broadcastInDim S450000x1 ![0] bcast_S450000_S450000x1_0
    (select (cmpi .slt e (broadcastInDim S450000 ![] bcast_S_S450000 (constantI S_ 32 0#32)))
      (addi e (broadcastInDim S450000 ![] bcast_S_S450000 (constantI S_ 32 50000#32))) e)

/-- (b) The aggregate: the rows of h at the source indices, each scaled by its edge weight, added up into the rows at
    the destination indices, from zero. -/
def agg1 (h : FVec F S50000x32 .f32) (wgt : FVec F S450000 .f32) (src dst : IVec S450000 32) : FVec F S50000x32 .f32 :=
  Host.scatterAdd (F := F) scatter_S50000x32_S450000x1_S450000x32_1_0_0_1
    (broadcastInDim S50000x32 ![] bcast_S_S50000x32 (constant (F := F) S_ .f32 0x00000000#32))
    (broadcastInDim S450000x1 ![0] bcast_S450000_S450000x1_0 dst)
    (mulf
      (broadcastInDim S450000x32 ![0, 1] bcast_S450000x1_S450000x32_0_1
        (broadcastInDim S450000x1 ![0] bcast_S450000_S450000x1_0 wgt))
      (Host.gather gather_S50000x32_S450000x1_S450000x32_1_0_n_n_0_1_132 h (wrapIdx src)))

/-- A row vector repeated down the 50000 rows. -/
def rows1 (v : FVec F S32 .f32) : FVec F S50000x32 .f32 :=
  broadcastInDim S50000x32 ![0, 1] bcast_S1x32_S50000x32_0_1 (broadcastInDim S1x32 ![1] bcast_S32_S1x32_1 v)

/-- (c) The pre-activation: the aggregate plus the bias on every row. -/
def pre1 (a : FVec F S50000x32 .f32) (b : FVec F S32 .f32) : FVec F S50000x32 .f32 := addf a (rows1 b)

/-- (c) The rectifier. -/
def relu1 (z : FVec F S50000x32 .f32) : FVec F S50000x32 .f32 :=
  maximumf z (broadcastInDim S50000x32 ![] bcast_S_S50000x32 (constant (F := F) S_ .f32 0x00000000#32))

/-- The column sums over the 50000 rows, from zero. -/
def colSum1 (y : FVec F S50000x32 .f32) : FVec F S32 .f32 :=
  Host.reduceAdd (F := F) y (constant (F := F) S_ .f32 0x00000000#32) reducesTo_S50000x32_S32_d0 h_S_

/-- (d) The column means: the column sums over 50000. -/
def mean1 (y : FVec F S50000x32 .f32) : FVec F S32 .f32 :=
  Host.divf (F := F) (colSum1 y) (broadcastInDim S32 ![] bcast_S_S32 (constant (F := F) S_ .f32 0x47435000#32))

/-- The divisor of the variance: the row count 50000 less the correction 0, as a rank-zero tensor. -/
def varCount : FVec F S_ .f32 :=
  subf (constant (F := F) S_ .f32 0x47435000#32) (sitofp .f32 (constantI S_ 32 0#32))

/-- The rows less their column means, the means taken as the variance takes them (the sums as a row, over 50000). -/
def centered1 (y : FVec F S50000x32 .f32) : FVec F S50000x32 .f32 :=
  subf y
    (broadcastInDim S50000x32 ![0, 1] bcast_S1x32_S50000x32_0_1
      (Host.divf (F := F) (broadcastInDim S1x32 ![1] bcast_S32_S1x32_1 (colSum1 y))
        (broadcastInDim S1x32 ![] bcast_S_S1x32 (constant (F := F) S_ .f32 0x47435000#32))))

/-- (d) The column variances: the column sums of the squared centred rows over the count, where the count is positive
    (and the quiet NaN otherwise). -/
def var1 (y : FVec F S50000x32 .f32) : FVec F S32 .f32 :=
  select (broadcastInDim S32 ![] bcast_S_S32 (cmpf .ogt (varCount (F := F)) (constant (F := F) S_ .f32 0x00000000#32)))
    (Host.divf (F := F) (colSum1 (mulf (centered1 y) (centered1 y))) (broadcastInDim S32 ![] bcast_S_S32 (varCount (F := F))))
    (broadcastInDim S32 ![] bcast_S_S32 (id (constant (F := F) S_ .f32 0x7FC00000#32)))

/-- (e) The normalisation: γ · (y − μ) · rsqrt(σ² + 1e-5) + β, row by row. -/
def norm1 (y : FVec F S50000x32 .f32) (μ σ2 γ β : FVec F S32 .f32) : FVec F S50000x32 .f32 :=
  addf
    (mulf (mulf (rows1 γ) (subf y (rows1 μ)))
      (rows1 (Host.rsqrt (F := F) (addf σ2 (broadcastInDim S32 ![] bcast_S_S32 (constant (F := F) S_ .f32 0x3727C5AC#32))))))
    (rows1 β)

/-- The rectified pre-activation of the layer, of the contents the stage starts from. -/
def act1 (x : FVec F S50000x32 .f32) (w : FVec F S32x32 .f32) (b : FVec F S32 .f32)
    (src dst : IVec S450000 32) (wgt : FVec F S450000 .f32) : FVec F S50000x32 .f32 :=
  relu1 (pre1 (agg1 (lin1 x w) wgt src dst) b)

/-- The whole layer. -/
def refLayer1 (x : FVec F S50000x32 .f32) (w : FVec F S32x32 .f32) (b γ β : FVec F S32 .f32)
    (src dst : IVec S450000 32) (wgt : FVec F S450000 .f32) : FVec F S50000x32 .f32 :=
  norm1 (act1 x w b src dst wgt) (mean1 (act1 x w b src dst wgt)) (var1 (act1 x w b src dst wgt)) γ β

section
variable (V : Valuation τ sig (Elt F))

-- the stage is 67 operations: one simp pass over the fold, one inequality of references per operation passed
set_option maxRecDepth 16384
set_option maxHeartbeats 4000000

theorem seg1_v36 : after seg1 V (main_v36 : DevRef τ sig) = lin1 (V (main_arg0 : DevRef τ sig)) (V (main_arg3 : DevRef τ sig)) := by
  simp only [seg1, after_app, piece1, piece2]
  after_results_simp
  rfl

theorem seg1_v49 : after seg1 V (main_v49 : DevRef τ sig)
    = agg1 (lin1 (V (main_arg0 : DevRef τ sig)) (V (main_arg3 : DevRef τ sig))) (V (main_v35 : DevRef τ sig))
        (V (main_v4 : DevRef τ sig)) (V (main_v7 : DevRef τ sig)) := by
  simp only [seg1, after_app, piece1, piece2]
  after_results_simp
  rfl

theorem seg1_v52 : after seg1 V (main_v52 : DevRef τ sig)
    = pre1 (agg1 (lin1 (V (main_arg0 : DevRef τ sig)) (V (main_arg3 : DevRef τ sig))) (V (main_v35 : DevRef τ sig))
        (V (main_v4 : DevRef τ sig)) (V (main_v7 : DevRef τ sig))) (V (main_arg4 : DevRef τ sig)) := by
  simp only [seg1, after_app, piece1, piece2]
  after_results_simp
  rfl

theorem seg1_v53 : after seg1 V (main_v53 : DevRef τ sig)
    = act1 (V (main_arg0 : DevRef τ sig)) (V (main_arg3 : DevRef τ sig)) (V (main_arg4 : DevRef τ sig))
        (V (main_v4 : DevRef τ sig)) (V (main_v7 : DevRef τ sig)) (V (main_v35 : DevRef τ sig)) := by
  simp only [seg1, after_app, piece1, piece2]
  after_results_simp
  rfl

theorem seg1_v56 : after seg1 V (main_v56 : DevRef τ sig)
    = mean1 (act1 (V (main_arg0 : DevRef τ sig)) (V (main_arg3 : DevRef τ sig)) (V (main_arg4 : DevRef τ sig))
        (V (main_v4 : DevRef τ sig)) (V (main_v7 : DevRef τ sig)) (V (main_v35 : DevRef τ sig))) := by
  simp only [seg1, after_app, piece1, piece2]
  after_results_simp
  rfl

theorem seg1_v57 : after seg1 V (main_v57 : DevRef τ sig)
    = var1 (act1 (V (main_arg0 : DevRef τ sig)) (V (main_arg3 : DevRef τ sig)) (V (main_arg4 : DevRef τ sig))
        (V (main_v4 : DevRef τ sig)) (V (main_v7 : DevRef τ sig)) (V (main_v35 : DevRef τ sig))) := by
  simp only [seg1, after_app, piece1, piece2]
  after_results_simp
  rfl

/-- The stage's output, the only buffer of it a later stage reads. -/
theorem seg1_v72 : after seg1 V (main_v72 : DevRef τ sig)
    = refLayer1 (V (main_arg0 : DevRef τ sig)) (V (main_arg3 : DevRef τ sig)) (V (main_arg4 : DevRef τ sig))
        (V (main_arg5 : DevRef τ sig)) (V (main_arg6 : DevRef τ sig))
        (V (main_v4 : DevRef τ sig)) (V (main_v7 : DevRef τ sig)) (V (main_v35 : DevRef τ sig)) := by
  simp only [seg1, after_app, piece1, piece2]
  after_results_simp
  rfl

end

end Cert.ReferenceIdeal.HandRun

end
-- ==== Proof.RefOpsRead0.lean ====
import proofs.«107715_j23149873725632_1_alg».proof.Proof.RefOpsRead1

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! Stage 0 read back: the edge list with one self loop per node appended (sources main_v4, destinations main_v7), and
    the symmetrically normalised edge weights main_v35:  with the weights w (1 on a self loop) and the weighted
    in-degree  deg i = Σ_{e : dst e = i} w e,  the weight of edge e is  dinv (src e) · w e · dinv (dst e)  where
    dinv = rsqrt deg where deg > 0 and 0 elsewhere.  (The index normalisation wrapIdx is RefOpsRead1's.) -/

/-- A row of the 2 × 400000 edge list followed by the 50000 self loops 0, 1, …, 49999. -/
def withLoops (r : IVec S1x400000 32) : IVec S450000 32 :=
  concatenate S450000 0
    [⟨S400000, shapeCast S400000 r shapeCasts_S1x400000_S400000⟩, ⟨S50000, iotaInDim S50000 32 0⟩]
    concatenates_S400000_S50000_S450000_d0

/-- The source indices: row 0 of the edge list, with the self loops. -/
def srcIdx (ei : IVec S2x400000 32) : IVec S450000 32 :=
  withLoops (extractStridedSlice S1x400000 ![0, 0] ei slices_S2x400000_S1x400000_0_0)

/-- The destination indices: row 1 of the edge list, with the self loops. -/
def dstIdx (ei : IVec S2x400000 32) : IVec S450000 32 :=
  withLoops (extractStridedSlice S1x400000 ![1, 0] ei slices_S2x400000_S1x400000_1_0)

/-- The edge weights as a vector, followed by the weight 1 of each self loop. -/
def wgtLoops (ew : FVec F S400000x1 .f32) : FVec F S450000 .f32 :=
  concatenate S450000 0
    [⟨S400000, shapeCast S400000 ew shapeCasts_S400000x1_S400000⟩,
     ⟨S50000, broadcastInDim S50000 ![] bcast_S_S50000 (constant (F := F) S_ .f32 0x3F800000#32)⟩]
    concatenates_S400000_S50000_S450000_d0

/-- The zero vector over the nodes. -/
def zeroNodes : FVec F S50000 .f32 := broadcastInDim S50000 ![] bcast_S_S50000 (constant (F := F) S_ .f32 0x00000000#32)

/-- The weighted in-degrees: the weights added up at their destinations, from zero. -/
def degree (ei : IVec S2x400000 32) (ew : FVec F S400000x1 .f32) : FVec F S50000 .f32 :=
  Host.scatterAdd (F := F) scatter_S50000_S450000x1_S450000_n_0_0_1 (zeroNodes (F := F))
    (broadcastInDim S450000x1 ![0] bcast_S450000_S450000x1_0 (dstIdx ei)) (wgtLoops ew)

/-- rsqrt of the degree where it is positive (taken of 1 elsewhere), and 0 where it is not. -/
def dinv (d : FVec F S50000 .f32) : FVec F S50000 .f32 :=
  select (cmpf .ogt d (zeroNodes (F := F)))
    (Host.rsqrt (F := F)
      (select (cmpf .ogt d (zeroNodes (F := F))) d
        (broadcastInDim S50000 ![] bcast_S_S50000 (id (constant (F := F) S_ .f32 0x3F800000#32)))))
    (broadcastInDim S50000 ![] bcast_S_S50000 (id (constant (F := F) S_ .f32 0x00000000#32)))

/-- The normalised edge weights: dinv at the source, times the weight, times dinv at the destination. -/
def edgeNorm (ei : IVec S2x400000 32) (ew : FVec F S400000x1 .f32) : FVec F S450000 .f32 :=
  mulf
    (mulf (Host.gather gather_S50000_S450000x1_S450000_n_0_n_n_0_1_1 (dinv (degree ei ew)) (wrapIdx (srcIdx ei))) (wgtLoops ew))
    (Host.gather gather_S50000_S450000x1_S450000_n_0_n_n_0_1_1 (dinv (degree ei ew)) (wrapIdx (dstIdx ei)))

section
variable (V : Valuation τ sig (Elt F))

set_option maxRecDepth 16384
set_option maxHeartbeats 4000000

theorem seg0_v4 : after seg0 V (main_v4 : DevRef τ sig) = srcIdx (V (main_arg1 : DevRef τ sig)) := by
  simp only [seg0, piece0]
  after_results_simp
  rfl

theorem seg0_v7 : after seg0 V (main_v7 : DevRef τ sig) = dstIdx (V (main_arg1 : DevRef τ sig)) := by
  simp only [seg0, piece0]
  after_results_simp
  rfl

theorem seg0_v9 : after seg0 V (main_v9 : DevRef τ sig) = wgtLoops (V (main_arg2 : DevRef τ sig)) := by
  simp only [seg0, piece0]
  after_results_simp
  rfl

theorem seg0_v12 : after seg0 V (main_v12 : DevRef τ sig)
    = degree (V (main_arg1 : DevRef τ sig)) (V (main_arg2 : DevRef τ sig)) := by
  simp only [seg0, piece0]
  after_results_simp
  rfl

theorem seg0_v19 : after seg0 V (main_v19 : DevRef τ sig)
    = dinv (degree (V (main_arg1 : DevRef τ sig)) (V (main_arg2 : DevRef τ sig))) := by
  simp only [seg0, piece0]
  after_results_simp
  rfl

theorem seg0_v35 : after seg0 V (main_v35 : DevRef τ sig)
    = edgeNorm (V (main_arg1 : DevRef τ sig)) (V (main_arg2 : DevRef τ sig)) := by
  simp only [seg0, piece0]
  after_results_simp
  rfl

end

end Cert.ReferenceIdeal.HandRun

end
-- ==== Proof.KerChain1.lean ====
import proofs.«107715_j23149873725632_1_alg».proof.Proof.Gen.KernelIdeal.Frame
import proofs.«107715_j23149873725632_1_alg».proof.Proof.KerOpsW
import proofs.«107715_j23149873725632_1_alg».proof.Proof.RegMM0
import proofs.«107715_j23149873725632_1_alg».proof.Proof.RegBN2
import proofs.«107715_j23149873725632_1_alg».proof.Proof.RefOpsRead0

/-! The kernel program's buffer contents at the segment boundaries of its first layer (W5 … W10 of the generated frame),
    as terms of the launch contents.  The host stretches are the same operations as the reference's prelude and its
    first layer's aggregation, over the kernel program's own records, so their composed terms are the reference's
    definitions (srcIdx, dstIdx, edgeNorm, agg1) by unfolding; a region's arrays hold what its region theorem says,
    and every other buffer what it held before. -/

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx
open Cert.KernelIdeal.RegVal (mm0 bn2 final0 finalB2)
open Cert.ReferenceIdeal.HandRun (srcIdx dstIdx edgeNorm agg1 Keeps KeepsOutside)

/-! ## The host stretches, from any contents -/

section Stretches
variable {F : FTy → Type} [FloatOps F] (V : Valuation τ sig (Elt F))

set_option maxHeartbeats 4000000

/-- The prelude (five stretches in a row) leaves the sources with self loops in main_v4 … -/
theorem pre_v4 : after hostOps0_4 (after hostOps0_3 (after hostOps0_2 (after hostOps0_1 (after hostOps0 V))))
    (main_v4 : DevRef τ sig) = srcIdx (V (main_arg1 : DevRef τ sig)) := by
  simp only [hostOps0, hostOps0_1, hostOps0_2, hostOps0_3, hostOps0_4]
  after_results_simp
  rfl

/-- … the destinations in main_v7 … -/
theorem pre_v7 : after hostOps0_4 (after hostOps0_3 (after hostOps0_2 (after hostOps0_1 (after hostOps0 V))))
    (main_v7 : DevRef τ sig) = dstIdx (V (main_arg1 : DevRef τ sig)) := by
  simp only [hostOps0, hostOps0_1, hostOps0_2, hostOps0_3, hostOps0_4]
  after_results_simp
  rfl

/-- … and the normalised edge weights in main_v35. -/
theorem pre_v35 : after hostOps0_4 (after hostOps0_3 (after hostOps0_2 (after hostOps0_1 (after hostOps0 V))))
    (main_v35 : DevRef τ sig) = edgeNorm (F := F) (V (main_arg1 : DevRef τ sig)) (V (main_arg2 : DevRef τ sig)) := by
  simp only [hostOps0, hostOps0_1, hostOps0_2, hostOps0_3, hostOps0_4]
  after_results_simp
  rfl

/-- The stretch before region 1 aggregates main_v36 over the edges … -/
theorem h1_v49 : after hostOps1 V (main_v49 : DevRef τ sig)
    = agg1 (F := F) (V (main_v36 : DevRef τ sig)) (V (main_v35 : DevRef τ sig)) (V (main_v4 : DevRef τ sig)) (V (main_v7 : DevRef τ sig)) := by
  simp only [hostOps1]
  after_results_simp
  rfl

/-- … and lays the bias out as a one-row array. -/
theorem h1_v50 : after hostOps1 V (main_v50 : DevRef τ sig)
    = shapeCast S1x32 (V (main_arg4 : DevRef τ sig)) shapeCasts_S32_S1x32 := by
  simp only [hostOps1]
  after_results_simp
  rfl

/-- The 50000-word spread over a one-row array of 32. -/
def countRow : FVec F S1x32 .f32 := broadcastInDim S1x32 ![] bcast_S_S1x32 (constant (F := F) S_ .f32 0x47435000#32)

/-- The stretch before region 2: the mean is the column sums over the count … -/
theorem h2_v53 : after hostOps2 V (main_v53 : DevRef τ sig) = Host.divf (F := F) (V (main_v51_1 : DevRef τ sig)) (countRow (F := F)) := by
  simp only [hostOps2]
  after_results_simp
  rfl

/-- … the variance the sums of squares over the count less the squared mean … -/
theorem h2_v57 : after hostOps2 V (main_v57 : DevRef τ sig)
    = subf (Host.divf (F := F) (V (main_v51_2 : DevRef τ sig)) (countRow (F := F)))
        (mulf (Host.divf (F := F) (V (main_v51_1 : DevRef τ sig)) (countRow (F := F))) (Host.divf (F := F) (V (main_v51_1 : DevRef τ sig)) (countRow (F := F)))) := by
  simp only [hostOps2]
  after_results_simp
  rfl

/-- … and the scale and the shift are laid out as one-row arrays. -/
theorem h2_v58 : after hostOps2 V (main_v58 : DevRef τ sig) = shapeCast S1x32 (V (main_arg5 : DevRef τ sig)) shapeCasts_S32_S1x32 := by
  simp only [hostOps2]
  after_results_simp
  rfl

theorem h2_v59 : after hostOps2 V (main_v59 : DevRef τ sig) = shapeCast S1x32 (V (main_arg6 : DevRef τ sig)) shapeCasts_S32_S1x32 := by
  simp only [hostOps2]
  after_results_simp
  rfl

end Stretches

/-! ## The boundaries W5 … W10, from the launch memory -/

variable (m : (ℓ : Loc nD τ sig) → Buf (Elt Ideal) ℓ) (ρ : Dev nD → PrngReg) (c : Dev nD)

/-- The references the prelude writes. -/
abbrev preW : List (Ref sig .tc) := hostOps0_W ++ (hostOps0_1_W ++ (hostOps0_2_W ++ (hostOps0_3_W ++ hostOps0_4_W)))

/-- The prelude keeps what it does not write: at region 0's entry such a buffer is as launched. -/
theorem W5_keep (r : Ref sig .tc) (h : r ∉ preW) : W5 m ρ c (Proc.devRef .tc r) = W0 m ρ c (Proc.devRef .tc r) := by
  have h0 : r ∉ hostOps0_W := fun h' => h (List.mem_append_left _ h')
  have h1 : r ∉ hostOps0_1_W := fun h' => h (List.mem_append_right _ (List.mem_append_left _ h'))
  have h2 : r ∉ hostOps0_2_W := fun h' => h (List.mem_append_right _ (List.mem_append_right _ (List.mem_append_left _ h')))
  have h3 : r ∉ hostOps0_3_W := fun h' => h (List.mem_append_right _ (List.mem_append_right _ (List.mem_append_right _ (List.mem_append_left _ h'))))
  have h4 : r ∉ hostOps0_4_W := fun h' => h (List.mem_append_right _ (List.mem_append_right _ (List.mem_append_right _ (List.mem_append_right _ h'))))
  exact (hostOps0_4_keeps r h4 _).trans ((hostOps0_3_keeps r h3 _).trans ((hostOps0_2_keeps r h2 _).trans
    ((hostOps0_1_keeps r h1 _).trans (hostOps0_keeps r h0 _))))

theorem W5_v4 : W5 m ρ c (main_v4 : DevRef τ sig) = srcIdx (m ((c : Thread nD τ).loc main_arg1)) := pre_v4 (W0 m ρ c)
theorem W5_v7 : W5 m ρ c (main_v7 : DevRef τ sig) = dstIdx (m ((c : Thread nD τ).loc main_arg1)) := pre_v7 (W0 m ρ c)
theorem W5_v35 : W5 m ρ c (main_v35 : DevRef τ sig)
    = edgeNorm (F := Ideal) (m ((c : Thread nD τ).loc main_arg1)) (m ((c : Thread nD τ).loc main_arg2)) := pre_v35 (W0 m ρ c)

/-- Region 0 leaves the product of the features and the first weights in main_v36. -/
theorem W6_v36 : W6 m ρ c (main_v36 : DevRef τ sig)
    = mm0 (m ((c : Thread nD τ).loc main_arg0)) (m ((c : Thread nD τ).loc main_arg3)) :=
  (W6_arr m ρ c 2).trans (final0 (V5 m ρ) c _ _ (W5_keep m ρ c main_arg0 (by decide)) (W5_keep m ρ c main_arg3 (by decide)))

/-- Region 0 keeps every buffer that is not one of its three arrays. -/
theorem W6_keep (r : Ref sig .tc) (h : ∀ w, Pipeline.arrRef spec0 w ≠ r) :
    W6 m ρ c (Proc.devRef .tc r) = W5 m ρ c (Proc.devRef .tc r) := W6_of_ne m ρ c r h

/-- At region 1's entry main_v49 is the aggregate of that product over the edges … -/
theorem W7_v49 : W7 m ρ c (main_v49 : DevRef τ sig)
    = agg1 (F := Ideal) (mm0 (m ((c : Thread nD τ).loc main_arg0)) (m ((c : Thread nD τ).loc main_arg3)))
        (edgeNorm (F := Ideal) (m ((c : Thread nD τ).loc main_arg1)) (m ((c : Thread nD τ).loc main_arg2)))
        (srcIdx (m ((c : Thread nD τ).loc main_arg1))) (dstIdx (m ((c : Thread nD τ).loc main_arg1))) :=
  (h1_v49 (W6 m ρ c)).trans (by
    rw [W6_v36 m ρ c, W6_keep m ρ c main_v35 (by decide), W6_keep m ρ c main_v4 (by decide), W6_keep m ρ c main_v7 (by decide),
      W5_v35 m ρ c, W5_v4 m ρ c, W5_v7 m ρ c])

/-- … and main_v50 the first bias as a one-row array. -/
theorem W7_v50 : W7 m ρ c (main_v50 : DevRef τ sig)
    = shapeCast S1x32 (m ((c : Thread nD τ).loc main_arg4)) shapeCasts_S32_S1x32 :=
  (h1_v50 (W6 m ρ c)).trans (by rw [W6_keep m ρ c main_arg4 (by decide), W5_keep m ρ c main_arg4 (by decide)])

/-- The stretch before region 1 keeps what it does not write. -/
theorem W7_keep (r : Ref sig .tc) (h : r ∉ hostOps1_W) : W7 m ρ c (Proc.devRef .tc r) = W6 m ρ c (Proc.devRef .tc r) :=
  hostOps1_keeps r h _

/-- Region 1's arrays hold what its pipeline leaves (main_v51_0, main_v51_1, main_v51_2 are its windows 2, 3, 4; its
    inputs, windows 0 and 1, are main_v49 and main_v50 as W7_v49 and W7_v50 give them) … -/
theorem W8_v51_0 (Y : S50000x32.Idx → EReal) (h : (dat1 (V7 m ρ) c).arrAt 2 cfg1.N = Y) :
    W8 m ρ c (main_v51_0 : DevRef τ sig) = Y := (W8_arr m ρ c 2).trans h
theorem W8_v51_1 (Y : S1x32.Idx → EReal) (h : (dat1 (V7 m ρ) c).arrAt 3 cfg1.N = Y) :
    W8 m ρ c (main_v51_1 : DevRef τ sig) = Y := (W8_arr m ρ c 3).trans h
theorem W8_v51_2 (Y : S1x32.Idx → EReal) (h : (dat1 (V7 m ρ) c).arrAt 4 cfg1.N = Y) :
    W8 m ρ c (main_v51_2 : DevRef τ sig) = Y := (W8_arr m ρ c 4).trans h

/-- … and every other buffer what it held. -/
theorem W8_keep (r : Ref sig .tc) (h : ∀ w, Pipeline.arrRef spec1 w ≠ r) :
    W8 m ρ c (Proc.devRef .tc r) = W7 m ρ c (Proc.devRef .tc r) := W8_of_ne m ρ c r h

/-- The stretch before region 2 keeps what it does not write. -/
theorem W9_keep (r : Ref sig .tc) (h : r ∉ hostOps2_W) : W9 m ρ c (Proc.devRef .tc r) = W8 m ρ c (Proc.devRef .tc r) :=
  hostOps2_keeps r h _

/-- Region 2 keeps every buffer that is not one of its six arrays. -/
theorem W10_keep (r : Ref sig .tc) (h : ∀ w, Pipeline.arrRef spec2 w ≠ r) :
    W10 m ρ c (Proc.devRef .tc r) = W9 m ρ c (Proc.devRef .tc r) := W10_of_ne m ρ c r h

/-- A buffer none of layer 1's stretches and regions writes is at region 3's entry what it was at region 0's. -/
theorem W10_of_W5 (r : Ref sig .tc) (h0 : ∀ w, Pipeline.arrRef spec0 w ≠ r) (h1 : r ∉ hostOps1_W)
    (h2 : ∀ w, Pipeline.arrRef spec1 w ≠ r) (h3 : r ∉ hostOps2_W) (h4 : ∀ w, Pipeline.arrRef spec2 w ≠ r) :
    W10 m ρ c (Proc.devRef .tc r) = W5 m ρ c (Proc.devRef .tc r) :=
  (W10_keep m ρ c r h4).trans ((W9_keep m ρ c r h3).trans ((W8_keep m ρ c r h2).trans ((W7_keep m ρ c r h1).trans (W6_keep m ρ c r h0))))

/-- At region 2's entry, with S1 the column sums and S2 the column sums of squares region 1 left: the mean … -/
theorem W9_v53 (S1 : S1x32.Idx → EReal) (h1 : W8 m ρ c (main_v51_1 : DevRef τ sig) = S1) :
    W9 m ρ c (main_v53 : DevRef τ sig) = Host.divf (F := Ideal) S1 (countRow (F := Ideal)) :=
  (h2_v53 (W8 m ρ c)).trans (by rw [h1])

/-- … the variance … -/
theorem W9_v57 (S1 S2 : S1x32.Idx → EReal) (h1 : W8 m ρ c (main_v51_1 : DevRef τ sig) = S1)
    (h2 : W8 m ρ c (main_v51_2 : DevRef τ sig) = S2) :
    W9 m ρ c (main_v57 : DevRef τ sig)
      = subf (Host.divf (F := Ideal) S2 (countRow (F := Ideal))) (mulf (Host.divf (F := Ideal) S1 (countRow (F := Ideal))) (Host.divf (F := Ideal) S1 (countRow (F := Ideal)))) :=
  (h2_v57 (W8 m ρ c)).trans (by rw [h1, h2])

/-- … the scale and the shift as one-row arrays … -/
theorem W9_v58 : W9 m ρ c (main_v58 : DevRef τ sig) = shapeCast S1x32 (m ((c : Thread nD τ).loc main_arg5)) shapeCasts_S32_S1x32 :=
  (h2_v58 (W8 m ρ c)).trans (by
    rw [W8_keep m ρ c main_arg5 (by decide), W7_keep m ρ c main_arg5 (by decide), W6_keep m ρ c main_arg5 (by decide),
      W5_keep m ρ c main_arg5 (by decide)])
theorem W9_v59 : W9 m ρ c (main_v59 : DevRef τ sig) = shapeCast S1x32 (m ((c : Thread nD τ).loc main_arg6)) shapeCasts_S32_S1x32 :=
  (h2_v59 (W8 m ρ c)).trans (by
    rw [W8_keep m ρ c main_arg6 (by decide), W7_keep m ρ c main_arg6 (by decide), W6_keep m ρ c main_arg6 (by decide),
      W5_keep m ρ c main_arg6 (by decide)])

/-- … and the activation region 1 left is still there. -/
theorem W9_v51_0 (A : S50000x32.Idx → EReal) (hA : W8 m ρ c (main_v51_0 : DevRef τ sig) = A) :
    W9 m ρ c (main_v51_0 : DevRef τ sig) = A := (W9_keep m ρ c main_v51_0 (by decide)).trans hA

/-- Region 2 leaves the normalised activation in main_v60: with A the activation and S1, S2 its column sums and column
    sums of squares (region 1's three outputs), bn2 of A, the mean S1 / 50000, the variance S2 / 50000 − mean², and the
    scale and shift rows. -/
theorem W10_v60 (A : S50000x32.Idx → EReal) (S1 S2 : S1x32.Idx → EReal)
    (hA : W8 m ρ c (main_v51_0 : DevRef τ sig) = A) (h1 : W8 m ρ c (main_v51_1 : DevRef τ sig) = S1)
    (h2 : W8 m ρ c (main_v51_2 : DevRef τ sig) = S2) :
    W10 m ρ c (main_v60 : DevRef τ sig)
      = bn2 A (Host.divf (F := Ideal) S1 (countRow (F := Ideal)))
          (subf (Host.divf (F := Ideal) S2 (countRow (F := Ideal))) (mulf (Host.divf (F := Ideal) S1 (countRow (F := Ideal))) (Host.divf (F := Ideal) S1 (countRow (F := Ideal)))))
          (shapeCast S1x32 (m ((c : Thread nD τ).loc main_arg5)) shapeCasts_S32_S1x32)
          (shapeCast S1x32 (m ((c : Thread nD τ).loc main_arg6)) shapeCasts_S32_S1x32) :=
  (W10_arr m ρ c 5).trans (finalB2 (V9 m ρ) c _ _ _ _ _ (W9_v51_0 m ρ c A hA) (W9_v53 m ρ c S1 h1) (W9_v57 m ρ c S1 S2 h1 h2)
    (W9_v58 m ρ c) (W9_v59 m ρ c))

/-- At region 3's entry the graph buffers are still the prelude's … -/
theorem W10_v4 : W10 m ρ c (main_v4 : DevRef τ sig) = srcIdx (m ((c : Thread nD τ).loc main_arg1)) :=
  (W10_of_W5 m ρ c main_v4 (by decide) (by decide) (by decide) (by decide) (by decide)).trans (W5_v4 m ρ c)
theorem W10_v7 : W10 m ρ c (main_v7 : DevRef τ sig) = dstIdx (m ((c : Thread nD τ).loc main_arg1)) :=
  (W10_of_W5 m ρ c main_v7 (by decide) (by decide) (by decide) (by decide) (by decide)).trans (W5_v7 m ρ c)
theorem W10_v35 : W10 m ρ c (main_v35 : DevRef τ sig)
    = edgeNorm (F := Ideal) (m ((c : Thread nD τ).loc main_arg1)) (m ((c : Thread nD τ).loc main_arg2)) :=
  (W10_of_W5 m ρ c main_v35 (by decide) (by decide) (by decide) (by decide) (by decide)).trans (W5_v35 m ρ c)

/-- … and a buffer nothing up to there writes (an argument) is as launched. -/
theorem W10_of_launch (r : Ref sig .tc) (hp : r ∉ preW) (h0 : ∀ w, Pipeline.arrRef spec0 w ≠ r) (h1 : r ∉ hostOps1_W)
    (h2 : ∀ w, Pipeline.arrRef spec1 w ≠ r) (h3 : r ∉ hostOps2_W) (h4 : ∀ w, Pipeline.arrRef spec2 w ≠ r) :
    W10 m ρ c (Proc.devRef .tc r) = W0 m ρ c (Proc.devRef .tc r) :=
  (W10_of_W5 m ρ c r h0 h1 h2 h3 h4).trans (W5_keep m ρ c r hp)

end Cert.KernelIdeal.Chain

end
-- ==== Proof.RegMM3.lean ====
/-
  Region 3: the second layer's feature transform. The 50000-row input is cut into 25 blocks of 2000 rows; at each grid point the kernel
  multiplies one block by the whole 32×64 weight matrix and writes the 2000×64 product to the same rows of the
  output. A row of the product depends only on the same row of the input, so the blocks are the restrictions of
  one whole-array function: entry (r, j) of the output is the sum over k of X(r, k) · W(k, j), and the 25 blocks tile
  the 50000 rows.
-/
import proofs.«107715_j23149873725632_1_alg».proof.Proof.Gen.KernelIdeal.Frame
import proofs.«107715_j23149873725632_1_alg».proof.Proof.LibMatmul2D
import Idealize.ShloMosaic.Lib.Pipeline.Value
import Idealize.ShloMosaic.Lib.ValueIdx

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2_3 : (![0, 0] : Fin 2 → Nat) = fun _ => 0 := funext fun a => by fin_cases a <;> rfl

/-- Rows of `X` against columns of `Wt`: entry (r, j) is the sum over k of X(r, k) · Wt(k, j). -/
def mm3 (X : S50000x32.Idx → EReal) (Wt : S32x64.Idx → EReal) : S50000x64.Idx → EReal :=
  fun i => ∑ k : Fin 32, X (ix2 (i 0) k) * Wt (ix2 k (i 1))

/-- The body's one store at an entry of the block: the matrix product into the zero accumulator, the two changes
    of float format being the identity on the extended reals. -/
theorem pay3 (x0 : Vec Ideal S2000x32 .f32) (x1 : Vec Ideal S32x64 .f32) (p : Fin 2000) (q : Fin 64) :
    k3_pay1 x0 x1 (ix2 p q) = ∑ k : Fin 32, x0 (ix2 p k) * x1 (ix2 k q) := by
  unfold k3_pay1
  try simp only [shapeCast_self]
  exact Cert.LibMatmul2D.rows_cols _ none _ _ p q

/-- The index maps over the 25 grid points: the row block moves with the point, the weight block stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 1000000 in
/-- What point `t` writes back is block `t` of the whole product (the two input arrays named `X` and `Wt`). -/
theorem flushed3 (c : Dev nD) (t : Fin cfg3.N) (X : S50000x32.Idx → EReal) (Wt : S32x64.Idx → EReal)
    (hX : V c (Pipeline.arrRef spec3 0) = X) (hW : V c (Pipeline.arrRef spec3 1) = Wt) :
    (dat3 V c).flushed 2 t = ((cfg3.win 2).blk t).view.read (Elt Ideal) (mm3 X Wt) := by
  have hb0 : iblk3 V c 0 t = ((cfg3.win 0).blk t).view.read (Elt Ideal) X := by unfold iblk3; rw [hX]
  have hb1 : iblk3 V c 1 t = ((cfg3.win 1).blk t).view.read (Elt Ideal) Wt := by unfold iblk3; rw [hW]
  show (cfg3.win 2).cut (grid3.coords t) ((dat3 V c).after 2 t) = _
  rw [after3_2, hb0, hb1]
  unfold out3_2
  rw [View.canon_unit_zero hz2_3]
  simp only [View.ld_unit_zero (S := S2000x32) hz2_3, View.ld_unit_zero (S := S32x64) hz2_3]
  obtain ⟨e0, e1, e2, e3, e4, e5⟩ := idx3 t
  funext j
  obtain ⟨p, q, rfl⟩ : ∃ (p : Fin 2000) (q : Fin 64), j = ix2 p q := ⟨j 0, j 1, eq_ix2 j⟩
  refine (pay3 _ _ p q).trans ?_
  show ∑ k : Fin 32, X (((cfg3.win 0).blk t).view.emb (ix2 p k)) * Wt (((cfg3.win 1).blk t).view.emb (ix2 k q))
      = mm3 X Wt (((cfg3.win 2).blk t).view.emb (ix2 p q))
  unfold mm3
  refine Finset.sum_congr rfl fun k _ => ?_
  have h0 : ((cfg3.win 0).blk t).view.emb (ix2 p k) = ix2 ((((cfg3.win 2).blk t).view.emb (ix2 p q)) 0) k := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 32 + 1 * k.val = k.val; omega
  have h1 : ((cfg3.win 1).blk t).view.emb (ix2 k q) = ix2 k ((((cfg3.win 2).blk t).view.emb (ix2 p q)) 1) := by
    funext a; apply Fin.ext
    match a with
    | ⟨0, _⟩ => show win3_1.index t (0 : Fin 2) * 32 + 1 * k.val = k.val; omega
    | ⟨1, _⟩ => show win3_1.index t (1 : Fin 2) * 64 + 1 * q.val = win3_2.index t (1 : Fin 2) * 64 + 1 * q.val; omega
  exact congrArg₂ (· * ·) (congrArg X h0) (congrArg Wt h1)

/-- An index of the output array is in point `t`'s block iff each coordinate is in the block's range on its axis. -/
theorem mem_blk3 (t : Fin cfg3.N) (i : S50000x64.Idx) :
    i ∈ ((cfg3.win 2).blk t).view.set ↔ ∀ a : Fin 2, win3_2.index t a * S2000x64.size a ≤ (i a).val
      ∧ (i a).val < win3_2.index t a * S2000x64.size a + S2000x64.size a := by
  show i ∈ ((View.whole main_v61).slice (win3_2.rect t)).set ↔ _
  rw [View.set_slice_whole, Rect.mem_set_unit]
  exact Iff.rfl

/-- Every block of rows is some point's. -/
theorem idx_onto3 : ∀ q0 : Fin 25, ∃ t : Fin cfg3.N, win3_2.index t = ![q0.val, 0] :=
  (by decide +kernel : ∀ q0 : Fin 25, ∃ t : Fin grid3.N, win3_2.index t = ![q0.val, 0])

/-- The 25 blocks of 2000 rows tile the 50000 rows: row r is in block r / 2000. -/
theorem cover3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idx_onto3 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- After the region the output array holds the whole product of the two input arrays as the region found them. -/
theorem final3 (c : Dev nD) (X : S50000x32.Idx → EReal) (Wt : S32x64.Idx → EReal)
    (hX : V c (Pipeline.arrRef spec3 0) = X) (hW : V c (Pipeline.arrRef spec3 1) = Wt) :
    (dat3 V c).arrAt 2 cfg3.N = mm3 X Wt :=
  (dat3 V c).arrAt_eq_of_cover 2 _ (fun t _ => flushed3 V c t X Wt hX hW) cover3

end Cert.KernelIdeal.RegVal

end
-- ==== Proof.RegBN5.lean ====
/-
  Region 5: the second layer's normalisation. The activations (50000 rows, 64 columns) are cut into 25 blocks of 2000 rows; the column
  mean, the column variance, the scale and the shift are 64-entry rows every point reads whole. At each entry the
  kernel computes scale · (a − mean) · (variance + ε)^(−1/2) + shift: entry (r, j) of the output
  depends on entry (r, j) of the activations and on column j of the four rows only, so the blocks are the
  restrictions of one whole-array function and the 25 blocks tile the 50000 rows.
-/
import proofs.«107715_j23149873725632_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hzB_5 : (![0, 0] : Fin 2 → Nat) = fun _ => 0 := funext fun a => by fin_cases a <;> rfl

/-- The stabilising constant ε as the body's float word reads on the extended reals. -/
def epsW5 : EReal := Scalar.ofBits (F := Ideal) .f32 0x3727C5AC#32

/-- The normalisation, entry by entry: scale · (a − mean) · (variance + ε)^(−1/2) + shift, the four rows read at the
    entry's column. -/
def bn5 (A : S50000x64.Idx → EReal) (Mn Vr G Be : S1x64.Idx → EReal) : S50000x64.Idx → EReal :=
  fun i => G (ix2 (0 : Fin 1) (i 1)) * (A i - Mn (ix2 (0 : Fin 1) (i 1))) * Ideal.rsqrt (Vr (ix2 (0 : Fin 1) (i 1)) + epsW5) + Be (ix2 (0 : Fin 1) (i 1))

/-- The body's one store at an entry of the block. -/
theorem payB5 (x0 : Vec Ideal S2000x64 .f32) (g mn vr be : Vec Ideal S1x64 .f32) (p : Fin 2000) (q : Fin 64) :
    k5_pay1 x0 g mn vr be (ix2 p q)
      = g (ix2 (0 : Fin 1) q) * (x0 (ix2 p q) - mn (ix2 (0 : Fin 1) q)) * Ideal.rsqrt (vr (ix2 (0 : Fin 1) q) + epsW5) + be (ix2 (0 : Fin 1) q) := by
  unfold k5_pay1
  simp only [shapeCast_self, addf, mulf, subf, rsqrt, maximumf, broadcast, broadcastTo_1b_ab_apply,
    Ideal.addf_def, Ideal.mulf_def, Ideal.subf_def, Ideal.rsqrt_def, Ideal.maximumf_def, epsW5]

/-- The index maps over the 25 grid points: the row blocks move with the point, the four rows stay. -/
theorem idxB5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

set_option maxHeartbeats 1000000 in
/-- What point `t` writes back is block `t` of the whole normalised array (the five input arrays named). -/
theorem flushedB5 (c : Dev nD) (t : Fin cfg5.N) (A : S50000x64.Idx → EReal) (Mn Vr G Be : S1x64.Idx → EReal)
    (hA : V c (Pipeline.arrRef spec5 0) = A) (hM : V c (Pipeline.arrRef spec5 1) = Mn)
    (hV : V c (Pipeline.arrRef spec5 2) = Vr) (hG : V c (Pipeline.arrRef spec5 3) = G)
    (hB : V c (Pipeline.arrRef spec5 4) = Be) :
    (dat5 V c).flushed 5 t = ((cfg5.win 5).blk t).view.read (Elt Ideal) (bn5 A Mn Vr G Be) := by
  have hb0 : iblk5 V c 0 t = ((cfg5.win 0).blk t).view.read (Elt Ideal) A := by unfold iblk5; rw [hA]
  have hb1 : iblk5 V c 1 t = ((cfg5.win 1).blk t).view.read (Elt Ideal) Mn := by unfold iblk5; rw [hM]
  have hb2 : iblk5 V c 2 t = ((cfg5.win 2).blk t).view.read (Elt Ideal) Vr := by unfold iblk5; rw [hV]
  have hb3 : iblk5 V c 3 t = ((cfg5.win 3).blk t).view.read (Elt Ideal) G := by unfold iblk5; rw [hG]
  have hb4 : iblk5 V c 4 t = ((cfg5.win 4).blk t).view.read (Elt Ideal) Be := by unfold iblk5; rw [hB]
  show (cfg5.win 5).cut (grid5.coords t) ((dat5 V c).after 5 t) = _
  rw [after5_5, hb0, hb1, hb2, hb3, hb4]
  unfold out5_5
  rw [View.canon_unit_zero hzB_5]
  simp only [View.ld_unit_zero (S := S2000x64) hzB_5, View.ld_unit_zero (S := S1x64) hzB_5]
  obtain ⟨e0, e1, e2, e3, e4, e5, e6, e7, e8, e9, e10, e11⟩ := idxB5 t
  funext j
  obtain ⟨p, q, rfl⟩ : ∃ (p : Fin 2000) (q : Fin 64), j = ix2 p q := ⟨j 0, j 1, eq_ix2 j⟩
  refine (payB5 _ _ _ _ _ p q).trans ?_
  have h0 : ((cfg5.win 0).blk t).view.emb (ix2 p q) = ((cfg5.win 5).blk t).view.emb (ix2 p q) := by
    funext a; apply Fin.ext
    match a with
    | ⟨0, _⟩ => show win5_0.index t (0 : Fin 2) * 2000 + 1 * p.val = win5_5.index t (0 : Fin 2) * 2000 + 1 * p.val; omega
    | ⟨1, _⟩ => show win5_0.index t (1 : Fin 2) * 64 + 1 * q.val = win5_5.index t (1 : Fin 2) * 64 + 1 * q.val; omega
  have h1 : ((cfg5.win 1).blk t).view.emb (ix2 (0 : Fin 1) q) = ix2 (0 : Fin 1) ((((cfg5.win 5).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 64 + 1 * q.val = win5_5.index t (1 : Fin 2) * 64 + 1 * q.val; omega
  have h2 : ((cfg5.win 2).blk t).view.emb (ix2 (0 : Fin 1) q) = ix2 (0 : Fin 1) ((((cfg5.win 5).blk t).view.emb (ix2 p q)) 1) := by
    funext a; apply Fin.ext
    match a with
    | ⟨0, _⟩ => show win5_2.index t (0 : Fin 2) * 1 + 1 * 0 = 0; omega
    | ⟨1, _⟩ => show win5_2.index t (1 : Fin 2) * 64 + 1 * q.val = win5_5.index t (1 : Fin 2) * 64 + 1 * q.val; omega
  have h3 : ((cfg5.win 3).blk t).view.emb (ix2 (0 : Fin 1) q) = ix2 (0 : Fin 1) ((((cfg5.win 5).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 64 + 1 * q.val = win5_5.index t (1 : Fin 2) * 64 + 1 * q.val; omega
  have h4 : ((cfg5.win 4).blk t).view.emb (ix2 (0 : Fin 1) q) = ix2 (0 : Fin 1) ((((cfg5.win 5).blk t).view.emb (ix2 p q)) 1) := by
    funext a; apply Fin.ext
    match a with
    | ⟨0, _⟩ => show win5_4.index t (0 : Fin 2) * 1 + 1 * 0 = 0; omega
    | ⟨1, _⟩ => show win5_4.index t (1 : Fin 2) * 64 + 1 * q.val = win5_5.index t (1 : Fin 2) * 64 + 1 * q.val; omega
  show G (((cfg5.win 3).blk t).view.emb (ix2 (0 : Fin 1) q)) * (A (((cfg5.win 0).blk t).view.emb (ix2 p q)) - Mn (((cfg5.win 1).blk t).view.emb (ix2 (0 : Fin 1) q))) * Ideal.rsqrt (Vr (((cfg5.win 2).blk t).view.emb (ix2 (0 : Fin 1) q)) + epsW5) + Be (((cfg5.win 4).blk t).view.emb (ix2 (0 : Fin 1) q))
      = bn5 A Mn Vr G Be (((cfg5.win 5).blk t).view.emb (ix2 p q))
  unfold bn5
  rw [congrArg A h0, congrArg Mn h1, congrArg Vr h2, congrArg G h3, congrArg Be h4]
  rfl

/-- An index of the output array is in point `t`'s block iff each coordinate is in the block's range on its axis. -/
theorem mem_blkB5 (t : Fin cfg5.N) (i : S50000x64.Idx) :
    i ∈ ((cfg5.win 5).blk t).view.set ↔ ∀ a : Fin 2, win5_5.index t a * S2000x64.size a ≤ (i a).val
      ∧ (i a).val < win5_5.index t a * S2000x64.size a + S2000x64.size a := by
  show i ∈ ((View.whole main_v85).slice (win5_5.rect t)).set ↔ _
  rw [View.set_slice_whole, Rect.mem_set_unit]
  exact Iff.rfl

/-- Every block of rows is some point's. -/
theorem idx_ontoB5 : ∀ q0 : Fin 25, ∃ t : Fin cfg5.N, win5_5.index t = ![q0.val, 0] :=
  (by decide +kernel : ∀ q0 : Fin 25, ∃ t : Fin grid5.N, win5_5.index t = ![q0.val, 0])

/-- The 25 blocks of 2000 rows tile the 50000 rows: row r is in block r / 2000. -/
theorem coverB5 (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  obtain ⟨t, ht⟩ := idx_ontoB5 ⟨(i 0).val / 2000, by omega⟩
  have q0 : win5_5.index t (0 : Fin 2) = (i 0).val / 2000 := congrFun ht 0
  have q1 : win5_5.index t (1 : Fin 2) = 0 := congrFun ht 1
  refine ⟨t, flush5_5 t, ?_⟩
  rw [mem_blkB5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 64 ≤ (i 1).val ∧ (i 1).val < win5_5.index t (1 : Fin 2) * 64 + 64; omega

/-- After the region the output array holds the normalised activations. -/
theorem finalB5 (c : Dev nD) (A : S50000x64.Idx → EReal) (Mn Vr G Be : S1x64.Idx → EReal)
    (hA : V c (Pipeline.arrRef spec5 0) = A) (hM : V c (Pipeline.arrRef spec5 1) = Mn)
    (hV : V c (Pipeline.arrRef spec5 2) = Vr) (hG : V c (Pipeline.arrRef spec5 3) = G)
    (hB : V c (Pipeline.arrRef spec5 4) = Be) :
    (dat5 V c).arrAt 5 cfg5.N = bn5 A Mn Vr G Be :=
  (dat5 V c).arrAt_eq_of_cover 5 _ (fun t _ => flushedB5 V c t A Mn Vr G Be hA hM hV hG hB) coverB5

end Cert.KernelIdeal.RegVal

end
-- ==== Proof.RefOpsRead2.lean ====
import proofs.«107715_j23149873725632_1_alg».proof.Proof.RefOpsRead1

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! Stage 2 (graph-convolution layer 2, width 32 to 64) read back, in the sub-stages of RefOpsRead1.lean:
    (a) the matrix product, (b) the aggregate over the edges, (c) the pre-activation and its rectification, (d) the column mean and
    variance of the rectified pre-activation over the 50000 rows, (e) the normalisation.  The definitions are layer 1's at this
    layer's shapes (wrapIdx and varCount do not depend on the width and are layer 1's). -/

/-- (a) The layer's matrix product. -/
def lin2 (x : FVec F S50000x32 .f32) (w : FVec F S32x64 .f32) : FVec F S50000x64 .f32 :=
  Host.dotGeneral (F := F) dot_S50000x32_S32x64_S50000x64_1_0_0_1_n_n none x w

/-- (b) The aggregate: the rows of h at the source indices, each scaled by its edge weight, added up into the rows at
    the destination indices, from zero. -/
def agg2 (h : FVec F S50000x64 .f32) (wgt : FVec F S450000 .f32) (src dst : IVec S450000 32) : FVec F S50000x64 .f32 :=
  Host.scatterAdd (F := F) scatter_S50000x64_S450000x1_S450000x64_1_0_0_1
    (broadcastInDim S50000x64 ![] bcast_S_S50000x64 (constant (F := F) S_ .f32 0x00000000#32))
    (broadcastInDim S450000x1 ![0] bcast_S450000_S450000x1_0 dst)
    (mulf
      (broadcastInDim S450000x64 ![0, 1] bcast_S450000x1_S450000x64_0_1
        (broadcastInDim S450000x1 ![0] bcast_S450000_S450000x1_0 wgt))
      (Host.gather gather_S50000x64_S450000x1_S450000x64_1_0_n_n_0_1_164 h (wrapIdx src)))

/-- A row vector repeated down the 50000 rows. -/
def rows2 (v : FVec F S64 .f32) : FVec F S50000x64 .f32 :=
  broadcastInDim S50000x64 ![0, 1] bcast_S1x64_S50000x64_0_1 (broadcastInDim S1x64 ![1] bcast_S64_S1x64_1 v)

/-- (c) The pre-activation: the aggregate plus the bias on every row. -/
def pre2 (a : FVec F S50000x64 .f32) (b : FVec F S64 .f32) : FVec F S50000x64 .f32 := addf a (rows2 b)

/-- The rectifier. -/
def relu2 (z : FVec F S50000x64 .f32) : FVec F S50000x64 .f32 :=
  maximumf z (broadcastInDim S50000x64 ![] bcast_S_S50000x64 (constant (F := F) S_ .f32 0x00000000#32))

/-- The column sums over the 50000 rows, from zero. -/
def colSum2 (y : FVec F S50000x64 .f32) : FVec F S64 .f32 :=
  Host.reduceAdd (F := F) y (constant (F := F) S_ .f32 0x00000000#32) reducesTo_S50000x64_S64_d0 h_S_

/-- (d) The column means: the column sums over 50000. -/
def mean2 (y : FVec F S50000x64 .f32) : FVec F S64 .f32 :=
  Host.divf (F := F) (colSum2 y) (broadcastInDim S64 ![] bcast_S_S64 (constant (F := F) S_ .f32 0x47435000#32))

/-- The rows less their column means, the means taken as the variance takes them (the sums as a row, over 50000). -/
def centered2 (y : FVec F S50000x64 .f32) : FVec F S50000x64 .f32 :=
  subf y
    (broadcastInDim S50000x64 ![0, 1] bcast_S1x64_S50000x64_0_1
      (Host.divf (F := F) (broadcastInDim S1x64 ![1] bcast_S64_S1x64_1 (colSum2 y))
        (broadcastInDim S1x64 ![] bcast_S_S1x64 (constant (F := F) S_ .f32 0x47435000#32))))

/-- (d) The column variances: the column sums of the squared centred rows over the count, where the count is positive
    (and the quiet NaN otherwise). -/
def var2 (y : FVec F S50000x64 .f32) : FVec F S64 .f32 :=
  select (broadcastInDim S64 ![] bcast_S_S64 (cmpf .ogt (varCount (F := F)) (constant (F := F) S_ .f32 0x00000000#32)))
    (Host.divf (F := F) (colSum2 (mulf (centered2 y) (centered2 y))) (broadcastInDim S64 ![] bcast_S_S64 (varCount (F := F))))
    (broadcastInDim S64 ![] bcast_S_S64 (id (constant (F := F) S_ .f32 0x7FC00000#32)))

/-- (e) The normalisation: γ · (y − μ) · rsqrt(σ² + 1e-5) + β, row by row. -/
def norm2 (y : FVec F S50000x64 .f32) (μ σ2 γ β : FVec F S64 .f32) : FVec F S50000x64 .f32 :=
  addf
    (mulf (mulf (rows2 γ) (subf y (rows2 μ)))
      (rows2 (Host.rsqrt (F := F) (addf σ2 (broadcastInDim S64 ![] bcast_S_S64 (constant (F := F) S_ .f32 0x3727C5AC#32))))))
    (rows2 β)

/-- The rectified pre-activation of the layer, of the contents the stage starts from. -/
def act2 (x : FVec F S50000x32 .f32) (w : FVec F S32x64 .f32) (b : FVec F S64 .f32)
    (src dst : IVec S450000 32) (wgt : FVec F S450000 .f32) : FVec F S50000x64 .f32 :=
  relu2 (pre2 (agg2 (lin2 x w) wgt src dst) b)

/-- The whole layer. -/
def refLayer2 (x : FVec F S50000x32 .f32) (w : FVec F S32x64 .f32) (b γ β : FVec F S64 .f32)
    (src dst : IVec S450000 32) (wgt : FVec F S450000 .f32) : FVec F S50000x64 .f32 :=
  norm2 (act2 x w b src dst wgt) (mean2 (act2 x w b src dst wgt)) (var2 (act2 x w b src dst wgt)) γ β

section
variable (V : Valuation τ sig (Elt F))

-- the stage is 67 operations: one simp pass over the fold, one inequality of references per operation passed
set_option maxRecDepth 16384
set_option maxHeartbeats 4000000

theorem seg2_v73 : after seg2 V (main_v73 : DevRef τ sig)
    = lin2 (V (main_v72 : DevRef τ sig)) (V (main_arg7 : DevRef τ sig)) := by
  simp only [seg2, after_app, piece3, piece4]
  after_results_simp
  rfl

theorem seg2_v86 : after seg2 V (main_v86 : DevRef τ sig)
    = agg2 (lin2 (V (main_v72 : DevRef τ sig)) (V (main_arg7 : DevRef τ sig))) (V (main_v35 : DevRef τ sig))
        (V (main_v4 : DevRef τ sig)) (V (main_v7 : DevRef τ sig)) := by
  simp only [seg2, after_app, piece3, piece4]
  after_results_simp
  rfl

theorem seg2_v89 : after seg2 V (main_v89 : DevRef τ sig)
    = pre2 (agg2 (lin2 (V (main_v72 : DevRef τ sig)) (V (main_arg7 : DevRef τ sig))) (V (main_v35 : DevRef τ sig))
        (V (main_v4 : DevRef τ sig)) (V (main_v7 : DevRef τ sig))) (V (main_arg8 : DevRef τ sig)) := by
  simp only [seg2, after_app, piece3, piece4]
  after_results_simp
  rfl

theorem seg2_v90 : after seg2 V (main_v90 : DevRef τ sig)
    = act2 (V (main_v72 : DevRef τ sig)) (V (main_arg7 : DevRef τ sig)) (V (main_arg8 : DevRef τ sig))
        (V (main_v4 : DevRef τ sig)) (V (main_v7 : DevRef τ sig)) (V (main_v35 : DevRef τ sig)) := by
  simp only [seg2, after_app, piece3, piece4]
  after_results_simp
  rfl

theorem seg2_v93 : after seg2 V (main_v93 : DevRef τ sig)
    = mean2 (act2 (V (main_v72 : DevRef τ sig)) (V (main_arg7 : DevRef τ sig)) (V (main_arg8 : DevRef τ sig))
        (V (main_v4 : DevRef τ sig)) (V (main_v7 : DevRef τ sig)) (V (main_v35 : DevRef τ sig))) := by
  simp only [seg2, after_app, piece3, piece4]
  after_results_simp
  rfl

theorem seg2_v94 : after seg2 V (main_v94 : DevRef τ sig)
    = var2 (act2 (V (main_v72 : DevRef τ sig)) (V (main_arg7 : DevRef τ sig)) (V (main_arg8 : DevRef τ sig))
        (V (main_v4 : DevRef τ sig)) (V (main_v7 : DevRef τ sig)) (V (main_v35 : DevRef τ sig))) := by
  simp only [seg2, after_app, piece3, piece4]
  after_results_simp
  rfl

/-- The stage's output, the only buffer of it a later stage reads. -/
theorem seg2_v109 : after seg2 V (main_v109 : DevRef τ sig)
    = refLayer2 (V (main_v72 : DevRef τ sig)) (V (main_arg7 : DevRef τ sig)) (V (main_arg8 : DevRef τ sig))
        (V (main_arg9 : DevRef τ sig)) (V (main_arg10 : DevRef τ sig))
        (V (main_v4 : DevRef τ sig)) (V (main_v7 : DevRef τ sig)) (V (main_v35 : DevRef τ sig)) := by
  simp only [seg2, after_app, piece3, piece4]
  after_results_simp
  rfl

end

end Cert.ReferenceIdeal.HandRun

end
-- ==== Proof.KerChain2.lean ====
import proofs.«107715_j23149873725632_1_alg».proof.Proof.Gen.KernelIdeal.Frame
import proofs.«107715_j23149873725632_1_alg».proof.Proof.KerChain1
import proofs.«107715_j23149873725632_1_alg».proof.Proof.RegMM3
import proofs.«107715_j23149873725632_1_alg».proof.Proof.RegBN5
import proofs.«107715_j23149873725632_1_alg».proof.Proof.RefOpsRead2

/-! The kernel program's buffer contents at the segment boundaries of its layer 2 (W10 … W15 of the generated frame):
    KerChain1.lean's statements at this layer's regions (3: the matrix product, 4: the activation and its column
    statistics, 5: the normalisation), stretches (hostOps4: the aggregation over the edges, hostOps5: mean and
    variance) and buffers.  X is the layer's input, the contents of main_v60 at the layer's entry. -/

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx
open Cert.KernelIdeal.RegVal (mm3 bn5 final3 finalB5)
open Cert.ReferenceIdeal.HandRun (srcIdx dstIdx edgeNorm agg2 Keeps KeepsOutside)

/-! ## The host stretches, from any contents -/

section Stretches
variable {F : FTy → Type} [FloatOps F] (V : Valuation τ sig (Elt F))

set_option maxHeartbeats 4000000

theorem h4_v74 : after hostOps4 V (main_v74 : DevRef τ sig)
    = agg2 (F := F) (V (main_v61 : DevRef τ sig)) (V (main_v35 : DevRef τ sig)) (V (main_v4 : DevRef τ sig)) (V (main_v7 : DevRef τ sig)) := by
  simp only [hostOps4]
  after_results_simp
  rfl

theorem h4_v75 : after hostOps4 V (main_v75 : DevRef τ sig)
    = shapeCast S1x64 (V (main_arg8 : DevRef τ sig)) shapeCasts_S64_S1x64 := by
  simp only [hostOps4]
  after_results_simp
  rfl

/-- The 50000-word spread over a one-row array of 64. -/
def countRow2 : FVec F S1x64 .f32 := broadcastInDim S1x64 ![] bcast_S_S1x64 (constant (F := F) S_ .f32 0x47435000#32)

theorem h5_v78 : after hostOps5 V (main_v78 : DevRef τ sig) = Host.divf (F := F) (V (main_v76_1 : DevRef τ sig)) (countRow2 (F := F)) := by
  simp only [hostOps5]
  after_results_simp
  rfl

theorem h5_v82 : after hostOps5 V (main_v82 : DevRef τ sig)
    = subf (Host.divf (F := F) (V (main_v76_2 : DevRef τ sig)) (countRow2 (F := F)))
        (mulf (Host.divf (F := F) (V (main_v76_1 : DevRef τ sig)) (countRow2 (F := F))) (Host.divf (F := F) (V (main_v76_1 : DevRef τ sig)) (countRow2 (F := F)))) := by
  simp only [hostOps5]
  after_results_simp
  rfl

theorem h5_v83 : after hostOps5 V (main_v83 : DevRef τ sig) = shapeCast S1x64 (V (main_arg9 : DevRef τ sig)) shapeCasts_S64_S1x64 := by
  simp only [hostOps5]
  after_results_simp
  rfl

theorem h5_v84 : after hostOps5 V (main_v84 : DevRef τ sig) = shapeCast S1x64 (V (main_arg10 : DevRef τ sig)) shapeCasts_S64_S1x64 := by
  simp only [hostOps5]
  after_results_simp
  rfl

end Stretches

/-! ## The boundaries W10 … W15 -/

variable (m : (ℓ : Loc nD τ sig) → Buf (Elt Ideal) ℓ) (ρ : Dev nD → PrngReg) (c : Dev nD)

theorem W11_keep (r : Ref sig .tc) (h : ∀ w, Pipeline.arrRef spec3 w ≠ r) :
    W11 m ρ c (Proc.devRef .tc r) = W10 m ρ c (Proc.devRef .tc r) := W11_of_ne m ρ c r h
theorem W12_keep (r : Ref sig .tc) (h : r ∉ hostOps4_W) : W12 m ρ c (Proc.devRef .tc r) = W11 m ρ c (Proc.devRef .tc r) :=
  hostOps4_keeps r h _
theorem W13_keep (r : Ref sig .tc) (h : ∀ w, Pipeline.arrRef spec4 w ≠ r) :
    W13 m ρ c (Proc.devRef .tc r) = W12 m ρ c (Proc.devRef .tc r) := W13_of_ne m ρ c r h
theorem W14_keep (r : Ref sig .tc) (h : r ∉ hostOps5_W) : W14 m ρ c (Proc.devRef .tc r) = W13 m ρ c (Proc.devRef .tc r) :=
  hostOps5_keeps r h _
theorem W15_keep (r : Ref sig .tc) (h : ∀ w, Pipeline.arrRef spec5 w ≠ r) :
    W15 m ρ c (Proc.devRef .tc r) = W14 m ρ c (Proc.devRef .tc r) := W15_of_ne m ρ c r h

/-- A buffer none of this layer's stretches and regions writes is at its exit what it was at its entry. -/
theorem W15_of_W10 (r : Ref sig .tc) (h0 : ∀ w, Pipeline.arrRef spec3 w ≠ r) (h1 : r ∉ hostOps4_W)
    (h2 : ∀ w, Pipeline.arrRef spec4 w ≠ r) (h3 : r ∉ hostOps5_W) (h4 : ∀ w, Pipeline.arrRef spec5 w ≠ r) :
    W15 m ρ c (Proc.devRef .tc r) = W10 m ρ c (Proc.devRef .tc r) :=
  (W15_keep m ρ c r h4).trans ((W14_keep m ρ c r h3).trans ((W13_keep m ρ c r h2).trans ((W12_keep m ρ c r h1).trans (W11_keep m ρ c r h0))))

/-- … and as launched if it was so at the entry. -/
theorem W15_of_launch (r : Ref sig .tc) (h : W10 m ρ c (Proc.devRef .tc r) = W0 m ρ c (Proc.devRef .tc r))
    (h0 : ∀ w, Pipeline.arrRef spec3 w ≠ r) (h1 : r ∉ hostOps4_W)
    (h2 : ∀ w, Pipeline.arrRef spec4 w ≠ r) (h3 : r ∉ hostOps5_W) (h4 : ∀ w, Pipeline.arrRef spec5 w ≠ r) :
    W15 m ρ c (Proc.devRef .tc r) = W0 m ρ c (Proc.devRef .tc r) :=
  (W15_of_W10 m ρ c r h0 h1 h2 h3 h4).trans h

/-- The layer's four parameter arrays are as launched at its entry. -/
theorem W10_arg7 : W10 m ρ c (main_arg7 : DevRef τ sig) = m ((c : Thread nD τ).loc main_arg7) := W10_of_launch m ρ c main_arg7 (by decide) (by decide) (by decide) (by decide) (by decide) (by decide)
theorem W10_arg8 : W10 m ρ c (main_arg8 : DevRef τ sig) = m ((c : Thread nD τ).loc main_arg8) := W10_of_launch m ρ c main_arg8 (by decide) (by decide) (by decide) (by decide) (by decide) (by decide)
theorem W10_arg9 : W10 m ρ c (main_arg9 : DevRef τ sig) = m ((c : Thread nD τ).loc main_arg9) := W10_of_launch m ρ c main_arg9 (by decide) (by decide) (by decide) (by decide) (by decide) (by decide)
theorem W10_arg10 : W10 m ρ c (main_arg10 : DevRef τ sig) = m ((c : Thread nD τ).loc main_arg10) := W10_of_launch m ρ c main_arg10 (by decide) (by decide) (by decide) (by decide) (by decide) (by decide)

/-- Region 3 leaves the product of the layer's input and its weights in main_v61. -/
theorem W11_v61 (X : S50000x32.Idx → EReal) (hX : W10 m ρ c (main_v60 : DevRef τ sig) = X) :
    W11 m ρ c (main_v61 : DevRef τ sig) = mm3 X (m ((c : Thread nD τ).loc main_arg7)) :=
  (W11_arr m ρ c 2).trans (final3 (V10 m ρ) c X _ hX (W10_arg7 m ρ c))

/-- At region 4's entry main_v74 is the aggregate of that product over the edges … -/
theorem W12_v74 (X : S50000x32.Idx → EReal) (hX : W10 m ρ c (main_v60 : DevRef τ sig) = X) :
    W12 m ρ c (main_v74 : DevRef τ sig)
      = agg2 (F := Ideal) (mm3 X (m ((c : Thread nD τ).loc main_arg7)))
          (edgeNorm (F := Ideal) (m ((c : Thread nD τ).loc main_arg1)) (m ((c : Thread nD τ).loc main_arg2)))
          (srcIdx (m ((c : Thread nD τ).loc main_arg1))) (dstIdx (m ((c : Thread nD τ).loc main_arg1))) :=
  (h4_v74 (W11 m ρ c)).trans (by
    rw [W11_v61 m ρ c X hX, W11_keep m ρ c main_v35 (by decide), W11_keep m ρ c main_v4 (by decide), W11_keep m ρ c main_v7 (by decide),
      W10_v35 m ρ c, W10_v4 m ρ c, W10_v7 m ρ c])

/-- … and main_v75 the layer's bias as a one-row array. -/
theorem W12_v75 : W12 m ρ c (main_v75 : DevRef τ sig)
    = shapeCast S1x64 (m ((c : Thread nD τ).loc main_arg8)) shapeCasts_S64_S1x64 :=
  (h4_v75 (W11 m ρ c)).trans (by rw [W11_keep m ρ c main_arg8 (by decide), W10_arg8 m ρ c])

/-- Region 4's three outputs hold what its pipeline leaves (windows 2, 3, 4; its inputs, windows 0 and 1, are main_v74 and
    main_v75 as the two statements above give them). -/
theorem W13_v76_0 (Y : S50000x64.Idx → EReal) (h : (dat4 (V12 m ρ) c).arrAt 2 cfg4.N = Y) :
    W13 m ρ c (main_v76_0 : DevRef τ sig) = Y := (W13_arr m ρ c 2).trans h
theorem W13_v76_1 (Y : S1x64.Idx → EReal) (h : (dat4 (V12 m ρ) c).arrAt 3 cfg4.N = Y) :
    W13 m ρ c (main_v76_1 : DevRef τ sig) = Y := (W13_arr m ρ c 3).trans h
theorem W13_v76_2 (Y : S1x64.Idx → EReal) (h : (dat4 (V12 m ρ) c).arrAt 4 cfg4.N = Y) :
    W13 m ρ c (main_v76_2 : DevRef τ sig) = Y := (W13_arr m ρ c 4).trans h

/-- At region 5's entry, with S1 the column sums and S2 the column sums of squares region 4 left: the mean … -/
theorem W14_v78 (S1 : S1x64.Idx → EReal) (h1 : W13 m ρ c (main_v76_1 : DevRef τ sig) = S1) :
    W14 m ρ c (main_v78 : DevRef τ sig) = Host.divf (F := Ideal) S1 (countRow2 (F := Ideal)) :=
  (h5_v78 (W13 m ρ c)).trans (by rw [h1])

/-- … the variance … -/
theorem W14_v82 (S1 S2 : S1x64.Idx → EReal) (h1 : W13 m ρ c (main_v76_1 : DevRef τ sig) = S1)
    (h2 : W13 m ρ c (main_v76_2 : DevRef τ sig) = S2) :
    W14 m ρ c (main_v82 : DevRef τ sig)
      = subf (Host.divf (F := Ideal) S2 (countRow2 (F := Ideal)))
          (mulf (Host.divf (F := Ideal) S1 (countRow2 (F := Ideal))) (Host.divf (F := Ideal) S1 (countRow2 (F := Ideal)))) :=
  (h5_v82 (W13 m ρ c)).trans (by rw [h1, h2])

/-- … the scale and the shift as one-row arrays … -/
theorem W14_v83 : W14 m ρ c (main_v83 : DevRef τ sig) = shapeCast S1x64 (m ((c : Thread nD τ).loc main_arg9)) shapeCasts_S64_S1x64 :=
  (h5_v83 (W13 m ρ c)).trans (by
    rw [W13_keep m ρ c main_arg9 (by decide), W12_keep m ρ c main_arg9 (by decide), W11_keep m ρ c main_arg9 (by decide), W10_arg9 m ρ c])
theorem W14_v84 : W14 m ρ c (main_v84 : DevRef τ sig) = shapeCast S1x64 (m ((c : Thread nD τ).loc main_arg10)) shapeCasts_S64_S1x64 :=
  (h5_v84 (W13 m ρ c)).trans (by
    rw [W13_keep m ρ c main_arg10 (by decide), W12_keep m ρ c main_arg10 (by decide), W11_keep m ρ c main_arg10 (by decide), W10_arg10 m ρ c])

/-- … and the activation region 4 left is still there. -/
theorem W14_v76_0 (A : S50000x64.Idx → EReal) (hA : W13 m ρ c (main_v76_0 : DevRef τ sig) = A) :
    W14 m ρ c (main_v76_0 : DevRef τ sig) = A := (W14_keep m ρ c main_v76_0 (by decide)).trans hA

/-- Region 5 leaves the normalised activation in main_v85: with A the activation and S1, S2 its column sums and column
    sums of squares (region 4's three outputs), bn5 of A, the mean S1 / 50000, the variance S2 / 50000 − mean², and the
    scale and shift rows. -/
theorem W15_v85 (A : S50000x64.Idx → EReal) (S1 S2 : S1x64.Idx → EReal)
    (hA : W13 m ρ c (main_v76_0 : DevRef τ sig) = A) (h1 : W13 m ρ c (main_v76_1 : DevRef τ sig) = S1)
    (h2 : W13 m ρ c (main_v76_2 : DevRef τ sig) = S2) :
    W15 m ρ c (main_v85 : DevRef τ sig)
      = bn5 A (Host.divf (F := Ideal) S1 (countRow2 (F := Ideal)))
          (subf (Host.divf (F := Ideal) S2 (countRow2 (F := Ideal)))
            (mulf (Host.divf (F := Ideal) S1 (countRow2 (F := Ideal))) (Host.divf (F := Ideal) S1 (countRow2 (F := Ideal)))))
          (shapeCast S1x64 (m ((c : Thread nD τ).loc main_arg9)) shapeCasts_S64_S1x64)
          (shapeCast S1x64 (m ((c : Thread nD τ).loc main_arg10)) shapeCasts_S64_S1x64) :=
  (W15_arr m ρ c 5).trans (finalB5 (V14 m ρ) c _ _ _ _ _ (W14_v76_0 m ρ c A hA) (W14_v78 m ρ c S1 h1)
    (W14_v82 m ρ c S1 S2 h1 h2) (W14_v83 m ρ c) (W14_v84 m ρ c))

/-- At the next layer's entry the graph buffers are still the prelude's. -/
theorem W15_v4 : W15 m ρ c (main_v4 : DevRef τ sig) = srcIdx (m ((c : Thread nD τ).loc main_arg1)) :=
  (W15_of_W10 m ρ c main_v4 (by decide) (by decide) (by decide) (by decide) (by decide)).trans (W10_v4 m ρ c)
theorem W15_v7 : W15 m ρ c (main_v7 : DevRef τ sig) = dstIdx (m ((c : Thread nD τ).loc main_arg1)) :=
  (W15_of_W10 m ρ c main_v7 (by decide) (by decide) (by decide) (by decide) (by decide)).trans (W10_v7 m ρ c)
theorem W15_v35 : W15 m ρ c (main_v35 : DevRef τ sig)
    = edgeNorm (F := Ideal) (m ((c : Thread nD τ).loc main_arg1)) (m ((c : Thread nD τ).loc main_arg2)) :=
  (W15_of_W10 m ρ c main_v35 (by decide) (by decide) (by decide) (by decide) (by decide)).trans (W10_v35 m ρ c)

end Cert.KernelIdeal.Chain

end
-- ==== Proof.RegMM6.lean ====
/-
  Region 6: the third layer's feature transform. The 50000-row input is cut into 25 blocks of 2000 rows; at each grid point the kernel
  multiplies one block by the whole 64×128 weight matrix and writes the 2000×128 product to the same rows of the
  output. A row of the product depends only on the same row of the input, so the blocks are the restrictions of
  one whole-array function: entry (r, j) of the output is the sum over k of X(r, k) · W(k, j), and the 25 blocks tile
  the 50000 rows.
-/
import proofs.«107715_j23149873725632_1_alg».proof.Proof.Gen.KernelIdeal.Frame
import proofs.«107715_j23149873725632_1_alg».proof.Proof.LibMatmul2D
import Idealize.ShloMosaic.Lib.Pipeline.Value
import Idealize.ShloMosaic.Lib.ValueIdx

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2_6 : (![0, 0] : Fin 2 → Nat) = fun _ => 0 := funext fun a => by fin_cases a <;> rfl

/-- Rows of `X` against columns of `Wt`: entry (r, j) is the sum over k of X(r, k) · Wt(k, j). -/
def mm6 (X : S50000x64.Idx → EReal) (Wt : S64x128.Idx → EReal) : S50000x128.Idx → EReal :=
  fun i => ∑ k : Fin 64, X (ix2 (i 0) k) * Wt (ix2 k (i 1))

/-- The body's one store at an entry of the block: the matrix product into the zero accumulator, the two changes
    of float format being the identity on the extended reals. -/
theorem pay6 (x0 : Vec Ideal S2000x64 .f32) (x1 : Vec Ideal S64x128 .f32) (p : Fin 2000) (q : Fin 128) :
    k6_pay1 x0 x1 (ix2 p q) = ∑ k : Fin 64, x0 (ix2 p k) * x1 (ix2 k q) := by
  unfold k6_pay1
  try simp only [shapeCast_self]
  exact Cert.LibMatmul2D.rows_cols _ none _ _ p q

/-- The index maps over the 25 grid points: the row block moves with the point, the weight block stays. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

set_option maxHeartbeats 1000000 in
/-- What point `t` writes back is block `t` of the whole product (the two input arrays named `X` and `Wt`). -/
theorem flushed6 (c : Dev nD) (t : Fin cfg6.N) (X : S50000x64.Idx → EReal) (Wt : S64x128.Idx → EReal)
    (hX : V c (Pipeline.arrRef spec6 0) = X) (hW : V c (Pipeline.arrRef spec6 1) = Wt) :
    (dat6 V c).flushed 2 t = ((cfg6.win 2).blk t).view.read (Elt Ideal) (mm6 X Wt) := by
  have hb0 : iblk6 V c 0 t = ((cfg6.win 0).blk t).view.read (Elt Ideal) X := by unfold iblk6; rw [hX]
  have hb1 : iblk6 V c 1 t = ((cfg6.win 1).blk t).view.read (Elt Ideal) Wt := by unfold iblk6; rw [hW]
  show (cfg6.win 2).cut (grid6.coords t) ((dat6 V c).after 2 t) = _
  rw [after6_2, hb0, hb1]
  unfold out6_2
  rw [View.canon_unit_zero hz2_6]
  simp only [View.ld_unit_zero (S := S2000x64) hz2_6, View.ld_unit_zero (S := S64x128) hz2_6]
  obtain ⟨e0, e1, e2, e3, e4, e5⟩ := idx6 t
  funext j
  obtain ⟨p, q, rfl⟩ : ∃ (p : Fin 2000) (q : Fin 128), j = ix2 p q := ⟨j 0, j 1, eq_ix2 j⟩
  refine (pay6 _ _ p q).trans ?_
  show ∑ k : Fin 64, X (((cfg6.win 0).blk t).view.emb (ix2 p k)) * Wt (((cfg6.win 1).blk t).view.emb (ix2 k q))
      = mm6 X Wt (((cfg6.win 2).blk t).view.emb (ix2 p q))
  unfold mm6
  refine Finset.sum_congr rfl fun k _ => ?_
  have h0 : ((cfg6.win 0).blk t).view.emb (ix2 p k) = ix2 ((((cfg6.win 2).blk t).view.emb (ix2 p q)) 0) k := by
    funext a; apply Fin.ext
    match a with
    | ⟨0, _⟩ => show win6_0.index t (0 : Fin 2) * 2000 + 1 * p.val = win6_2.index t (0 : Fin 2) * 2000 + 1 * p.val; omega
    | ⟨1, _⟩ => show win6_0.index t (1 : Fin 2) * 64 + 1 * k.val = k.val; omega
  have h1 : ((cfg6.win 1).blk t).view.emb (ix2 k q) = ix2 k ((((cfg6.win 2).blk t).view.emb (ix2 p q)) 1) := by
    funext a; apply Fin.ext
    match a with
    | ⟨0, _⟩ => show win6_1.index t (0 : Fin 2) * 64 + 1 * k.val = k.val; omega
    | ⟨1, _⟩ => show win6_1.index t (1 : Fin 2) * 128 + 1 * q.val = win6_2.index t (1 : Fin 2) * 128 + 1 * q.val; omega
  exact congrArg₂ (· * ·) (congrArg X h0) (congrArg Wt h1)

/-- An index of the output array is in point `t`'s block iff each coordinate is in the block's range on its axis. -/
theorem mem_blk6 (t : Fin cfg6.N) (i : S50000x128.Idx) :
    i ∈ ((cfg6.win 2).blk t).view.set ↔ ∀ a : Fin 2, win6_2.index t a * S2000x128.size a ≤ (i a).val
      ∧ (i a).val < win6_2.index t a * S2000x128.size a + S2000x128.size a := by
  show i ∈ ((View.whole main_v86).slice (win6_2.rect t)).set ↔ _
  rw [View.set_slice_whole, Rect.mem_set_unit]
  exact Iff.rfl

/-- Every block of rows is some point's. -/
theorem idx_onto6 : ∀ q0 : Fin 25, ∃ t : Fin cfg6.N, win6_2.index t = ![q0.val, 0] :=
  (by decide +kernel : ∀ q0 : Fin 25, ∃ t : Fin grid6.N, win6_2.index t = ![q0.val, 0])

/-- The 25 blocks of 2000 rows tile the 50000 rows: row r is in block r / 2000. -/
theorem cover6 (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  obtain ⟨t, ht⟩ := idx_onto6 ⟨(i 0).val / 2000, by omega⟩
  have q0 : win6_2.index t (0 : Fin 2) = (i 0).val / 2000 := congrFun ht 0
  have q1 : win6_2.index t (1 : Fin 2) = 0 := congrFun ht 1
  refine ⟨t, flush6_2 t, ?_⟩
  rw [mem_blk6]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 128 ≤ (i 1).val ∧ (i 1).val < win6_2.index t (1 : Fin 2) * 128 + 128; omega

/-- After the region the output array holds the whole product of the two input arrays as the region found them. -/
theorem final6 (c : Dev nD) (X : S50000x64.Idx → EReal) (Wt : S64x128.Idx → EReal)
    (hX : V c (Pipeline.arrRef spec6 0) = X) (hW : V c (Pipeline.arrRef spec6 1) = Wt) :
    (dat6 V c).arrAt 2 cfg6.N = mm6 X Wt :=
  (dat6 V c).arrAt_eq_of_cover 2 _ (fun t _ => flushed6 V c t X Wt hX hW) cover6

end Cert.KernelIdeal.RegVal

end
-- ==== Proof.RegBN8.lean ====
/-
  Region 8: the third layer's normalisation. The activations (50000 rows, 128 columns) are cut into 25 blocks of 2000 rows; the column
  mean, the column variance, the scale and the shift are 128-entry rows every point reads whole. At each entry the
  kernel computes scale · (a − mean) · (variance + ε)^(−1/2) + shift: entry (r, j) of the output
  depends on entry (r, j) of the activations and on column j of the four rows only, so the blocks are the
  restrictions of one whole-array function and the 25 blocks tile the 50000 rows.
-/
import proofs.«107715_j23149873725632_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hzB_8 : (![0, 0] : Fin 2 → Nat) = fun _ => 0 := funext fun a => by fin_cases a <;> rfl

/-- The stabilising constant ε as the body's float word reads on the extended reals. -/
def epsW8 : EReal := Scalar.ofBits (F := Ideal) .f32 0x3727C5AC#32

/-- The normalisation, entry by entry: scale · (a − mean) · (variance + ε)^(−1/2) + shift, the four rows read at the
    entry's column. -/
def bn8 (A : S50000x128.Idx → EReal) (Mn Vr G Be : S1x128.Idx → EReal) : S50000x128.Idx → EReal :=
  fun i => G (ix2 (0 : Fin 1) (i 1)) * (A i - Mn (ix2 (0 : Fin 1) (i 1))) * Ideal.rsqrt (Vr (ix2 (0 : Fin 1) (i 1)) + epsW8) + Be (ix2 (0 : Fin 1) (i 1))

/-- The body's one store at an entry of the block. -/
theorem payB8 (x0 : Vec Ideal S2000x128 .f32) (g mn vr be : Vec Ideal S1x128 .f32) (p : Fin 2000) (q : Fin 128) :
    k8_pay1 x0 g mn vr be (ix2 p q)
      = g (ix2 (0 : Fin 1) q) * (x0 (ix2 p q) - mn (ix2 (0 : Fin 1) q)) * Ideal.rsqrt (vr (ix2 (0 : Fin 1) q) + epsW8) + be (ix2 (0 : Fin 1) q) := by
  unfold k8_pay1
  simp only [shapeCast_self, addf, mulf, subf, rsqrt, maximumf, broadcast, broadcastTo_1b_ab_apply,
    Ideal.addf_def, Ideal.mulf_def, Ideal.subf_def, Ideal.rsqrt_def, Ideal.maximumf_def, epsW8]

/-- The index maps over the 25 grid points: the row blocks move with the point, the four rows stay. -/
theorem idxB8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

set_option maxHeartbeats 1000000 in
/-- What point `t` writes back is block `t` of the whole normalised array (the five input arrays named). -/
theorem flushedB8 (c : Dev nD) (t : Fin cfg8.N) (A : S50000x128.Idx → EReal) (Mn Vr G Be : S1x128.Idx → EReal)
    (hA : V c (Pipeline.arrRef spec8 0) = A) (hM : V c (Pipeline.arrRef spec8 1) = Mn)
    (hV : V c (Pipeline.arrRef spec8 2) = Vr) (hG : V c (Pipeline.arrRef spec8 3) = G)
    (hB : V c (Pipeline.arrRef spec8 4) = Be) :
    (dat8 V c).flushed 5 t = ((cfg8.win 5).blk t).view.read (Elt Ideal) (bn8 A Mn Vr G Be) := by
  have hb0 : iblk8 V c 0 t = ((cfg8.win 0).blk t).view.read (Elt Ideal) A := by unfold iblk8; rw [hA]
  have hb1 : iblk8 V c 1 t = ((cfg8.win 1).blk t).view.read (Elt Ideal) Mn := by unfold iblk8; rw [hM]
  have hb2 : iblk8 V c 2 t = ((cfg8.win 2).blk t).view.read (Elt Ideal) Vr := by unfold iblk8; rw [hV]
  have hb3 : iblk8 V c 3 t = ((cfg8.win 3).blk t).view.read (Elt Ideal) G := by unfold iblk8; rw [hG]
  have hb4 : iblk8 V c 4 t = ((cfg8.win 4).blk t).view.read (Elt Ideal) Be := by unfold iblk8; rw [hB]
  show (cfg8.win 5).cut (grid8.coords t) ((dat8 V c).after 5 t) = _
  rw [after8_5, hb0, hb1, hb2, hb3, hb4]
  unfold out8_5
  rw [View.canon_unit_zero hzB_8]
  simp only [View.ld_unit_zero (S := S2000x128) hzB_8, View.ld_unit_zero (S := S1x128) hzB_8]
  obtain ⟨e0, e1, e2, e3, e4, e5, e6, e7, e8, e9, e10, e11⟩ := idxB8 t
  funext j
  obtain ⟨p, q, rfl⟩ : ∃ (p : Fin 2000) (q : Fin 128), j = ix2 p q := ⟨j 0, j 1, eq_ix2 j⟩
  refine (payB8 _ _ _ _ _ p q).trans ?_
  have h0 : ((cfg8.win 0).blk t).view.emb (ix2 p q) = ((cfg8.win 5).blk t).view.emb (ix2 p q) := by
    funext a; apply Fin.ext
    match a with
    | ⟨0, _⟩ => show win8_0.index t (0 : Fin 2) * 2000 + 1 * p.val = win8_5.index t (0 : Fin 2) * 2000 + 1 * p.val; omega
    | ⟨1, _⟩ => show win8_0.index t (1 : Fin 2) * 128 + 1 * q.val = win8_5.index t (1 : Fin 2) * 128 + 1 * q.val; omega
  have h1 : ((cfg8.win 1).blk t).view.emb (ix2 (0 : Fin 1) q) = ix2 (0 : Fin 1) ((((cfg8.win 5).blk t).view.emb (ix2 p q)) 1) := by
    funext a; apply Fin.ext
    match a with
    | ⟨0, _⟩ => show win8_1.index t (0 : Fin 2) * 1 + 1 * 0 = 0; omega
    | ⟨1, _⟩ => show win8_1.index t (1 : Fin 2) * 128 + 1 * q.val = win8_5.index t (1 : Fin 2) * 128 + 1 * q.val; omega
  have h2 : ((cfg8.win 2).blk t).view.emb (ix2 (0 : Fin 1) q) = ix2 (0 : Fin 1) ((((cfg8.win 5).blk t).view.emb (ix2 p q)) 1) := by
    funext a; apply Fin.ext
    match a with
    | ⟨0, _⟩ => show win8_2.index t (0 : Fin 2) * 1 + 1 * 0 = 0; omega
    | ⟨1, _⟩ => show win8_2.index t (1 : Fin 2) * 128 + 1 * q.val = win8_5.index t (1 : Fin 2) * 128 + 1 * q.val; omega
  have h3 : ((cfg8.win 3).blk t).view.emb (ix2 (0 : Fin 1) q) = ix2 (0 : Fin 1) ((((cfg8.win 5).blk t).view.emb (ix2 p q)) 1) := by
    funext a; apply Fin.ext
    match a with
    | ⟨0, _⟩ => show win8_3.index t (0 : Fin 2) * 1 + 1 * 0 = 0; omega
    | ⟨1, _⟩ => show win8_3.index t (1 : Fin 2) * 128 + 1 * q.val = win8_5.index t (1 : Fin 2) * 128 + 1 * q.val; omega
  have h4 : ((cfg8.win 4).blk t).view.emb (ix2 (0 : Fin 1) q) = ix2 (0 : Fin 1) ((((cfg8.win 5).blk t).view.emb (ix2 p q)) 1) := by
    funext a; apply Fin.ext
    match a with
    | ⟨0, _⟩ => show win8_4.index t (0 : Fin 2) * 1 + 1 * 0 = 0; omega
    | ⟨1, _⟩ => show win8_4.index t (1 : Fin 2) * 128 + 1 * q.val = win8_5.index t (1 : Fin 2) * 128 + 1 * q.val; omega
  show G (((cfg8.win 3).blk t).view.emb (ix2 (0 : Fin 1) q)) * (A (((cfg8.win 0).blk t).view.emb (ix2 p q)) - Mn (((cfg8.win 1).blk t).view.emb (ix2 (0 : Fin 1) q))) * Ideal.rsqrt (Vr (((cfg8.win 2).blk t).view.emb (ix2 (0 : Fin 1) q)) + epsW8) + Be (((cfg8.win 4).blk t).view.emb (ix2 (0 : Fin 1) q))
      = bn8 A Mn Vr G Be (((cfg8.win 5).blk t).view.emb (ix2 p q))
  unfold bn8
  rw [congrArg A h0, congrArg Mn h1, congrArg Vr h2, congrArg G h3, congrArg Be h4]
  rfl

/-- An index of the output array is in point `t`'s block iff each coordinate is in the block's range on its axis. -/
theorem mem_blkB8 (t : Fin cfg8.N) (i : S50000x128.Idx) :
    i ∈ ((cfg8.win 5).blk t).view.set ↔ ∀ a : Fin 2, win8_5.index t a * S2000x128.size a ≤ (i a).val
      ∧ (i a).val < win8_5.index t a * S2000x128.size a + S2000x128.size a := by
  show i ∈ ((View.whole main_v110).slice (win8_5.rect t)).set ↔ _
  rw [View.set_slice_whole, Rect.mem_set_unit]
  exact Iff.rfl

/-- Every block of rows is some point's. -/
theorem idx_ontoB8 : ∀ q0 : Fin 25, ∃ t : Fin cfg8.N, win8_5.index t = ![q0.val, 0] :=
  (by decide +kernel : ∀ q0 : Fin 25, ∃ t : Fin grid8.N, win8_5.index t = ![q0.val, 0])

/-- The 25 blocks of 2000 rows tile the 50000 rows: row r is in block r / 2000. -/
theorem coverB8 (i : S50000x128.Idx) :
    ∃ t : Fin cfg8.N, (cfg8.win 5).flush t = true ∧ i ∈ ((cfg8.win 5).blk t).view.set := by
  have hi0 : (i 0).val < 50000 := (i 0).isLt
  have hi1 : (i 1).val < 128 := (i 1).isLt
  obtain ⟨t, ht⟩ := idx_ontoB8 ⟨(i 0).val / 2000, by omega⟩
  have q0 : win8_5.index t (0 : Fin 2) = (i 0).val / 2000 := congrFun ht 0
  have q1 : win8_5.index t (1 : Fin 2) = 0 := congrFun ht 1
  refine ⟨t, flush8_5 t, ?_⟩
  rw [mem_blkB8]
  intro a
  match a with
  | ⟨0, _⟩ => show win8_5.index t (0 : Fin 2) * 2000 ≤ (i 0).val ∧ (i 0).val < win8_5.index t (0 : Fin 2) * 2000 + 2000; omega
  | ⟨1, _⟩ => show win8_5.index t (1 : Fin 2) * 128 ≤ (i 1).val ∧ (i 1).val < win8_5.index t (1 : Fin 2) * 128 + 128; omega

/-- After the region the output array holds the normalised activations. -/
theorem finalB8 (c : Dev nD) (A : S50000x128.Idx → EReal) (Mn Vr G Be : S1x128.Idx → EReal)
    (hA : V c (Pipeline.arrRef spec8 0) = A) (hM : V c (Pipeline.arrRef spec8 1) = Mn)
    (hV : V c (Pipeline.arrRef spec8 2) = Vr) (hG : V c (Pipeline.arrRef spec8 3) = G)
    (hB : V c (Pipeline.arrRef spec8 4) = Be) :
    (dat8 V c).arrAt 5 cfg8.N = bn8 A Mn Vr G Be :=
  (dat8 V c).arrAt_eq_of_cover 5 _ (fun t _ => flushedB8 V c t A Mn Vr G Be hA hM hV hG hB) coverB8

end Cert.KernelIdeal.RegVal

end
-- ==== Proof.RefOpsRead3.lean ====
import proofs.«107715_j23149873725632_1_alg».proof.Proof.RefOpsRead1

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! Stage 3 (graph-convolution layer 3, width 64 to 128) read back, in the sub-stages of RefOpsRead1.lean:
    (a) the matrix product, (b) the aggregate over the edges, (c) the pre-activation and its rectification, (d) the column mean and
    variance of the rectified pre-activation over the 50000 rows, (e) the normalisation.  The definitions are layer 1's at this
    layer's shapes (wrapIdx and varCount do not depend on the width and are layer 1's). -/

/-- (a) The layer's matrix product. -/
def lin3 (x : FVec F S50000x64 .f32) (w : FVec F S64x128 .f32) : FVec F S50000x128 .f32 :=
  Host.dotGeneral (F := F) dot_S50000x64_S64x128_S50000x128_1_0_0_1_n_n none x w

/-- (b) The aggregate: the rows of h at the source indices, each scaled by its edge weight, added up into the rows at
    the destination indices, from zero. -/
def agg3 (h : FVec F S50000x128 .f32) (wgt : FVec F S450000 .f32) (src dst : IVec S450000 32) : FVec F S50000x128 .f32 :=
  Host.scatterAdd (F := F) scatter_S50000x128_S450000x1_S450000x128_1_0_0_1
    (broadcastInDim S50000x128 ![] bcast_S_S50000x128 (constant (F := F) S_ .f32 0x00000000#32))
    (broadcastInDim S450000x1 ![0] bcast_S450000_S450000x1_0 dst)
    (mulf
      (broadcastInDim S450000x128 ![0, 1] bcast_S450000x1_S450000x128_0_1
        (broadcastInDim S450000x1 ![0] bcast_S450000_S450000x1_0 wgt))
      (Host.gather gather_S50000x128_S450000x1_S450000x128_1_0_n_n_0_1_1128 h (wrapIdx src)))

/-- A row vector repeated down the 50000 rows. -/
def rows3 (v : FVec F S128 .f32) : FVec F S50000x128 .f32 :=
  broadcastInDim S50000x128 ![0, 1] bcast_S1x128_S50000x128_0_1 (broadcastInDim S1x128 ![1] bcast_S128_S1x128_1 v)

/-- (c) The pre-activation: the aggregate plus the bias on every row. -/
def pre3 (a : FVec F S50000x128 .f32) (b : FVec F S128 .f32) : FVec F S50000x128 .f32 := addf a (rows3 b)

/-- The rectifier. -/
def relu3 (z : FVec F S50000x128 .f32) : FVec F S50000x128 .f32 :=
  maximumf z (broadcastInDim S50000x128 ![] bcast_S_S50000x128 (constant (F := F) S_ .f32 0x00000000#32))

/-- The column sums over the 50000 rows, from zero. -/
def colSum3 (y : FVec F S50000x128 .f32) : FVec F S128 .f32 :=
  Host.reduceAdd (F := F) y (constant (F := F) S_ .f32 0x00000000#32) reducesTo_S50000x128_S128_d0 h_S_

/-- (d) The column means: the column sums over 50000. -/
def mean3 (y : FVec F S50000x128 .f32) : FVec F S128 .f32 :=
  Host.divf (F := F) (colSum3 y) (broadcastInDim S128 ![] bcast_S_S128 (constant (F := F) S_ .f32 0x47435000#32))

/-- The rows less their column means, the means taken as the variance takes them (the sums as a row, over 50000). -/
def centered3 (y : FVec F S50000x128 .f32) : FVec F S50000x128 .f32 :=
  subf y
    (broadcastInDim S50000x128 ![0, 1] bcast_S1x128_S50000x128_0_1
      (Host.divf (F := F) (broadcastInDim S1x128 ![1] bcast_S128_S1x128_1 (colSum3 y))
        (broadcastInDim S1x128 ![] bcast_S_S1x128 (constant (F := F) S_ .f32 0x47435000#32))))

/-- (d) The column variances: the column sums of the squared centred rows over the count, where the count is positive
    (and the quiet NaN otherwise). -/
def var3 (y : FVec F S50000x128 .f32) : FVec F S128 .f32 :=
  select (broadcastInDim S128 ![] bcast_S_S128 (cmpf .ogt (varCount (F := F)) (constant (F := F) S_ .f32 0x00000000#32)))
    (Host.divf (F := F) (colSum3 (mulf (centered3 y) (centered3 y))) (broadcastInDim S128 ![] bcast_S_S128 (varCount (F := F))))
    (broadcastInDim S128 ![] bcast_S_S128 (id (constant (F := F) S_ .f32 0x7FC00000#32)))

/-- (e) The normalisation: γ · (y − μ) · rsqrt(σ² + 1e-5) + β, row by row. -/
def norm3 (y : FVec F S50000x128 .f32) (μ σ2 γ β : FVec F S128 .f32) : FVec F S50000x128 .f32 :=
  addf
    (mulf (mulf (rows3 γ) (subf y (rows3 μ)))
      (rows3 (Host.rsqrt (F := F) (addf σ2 (broadcastInDim S128 ![] bcast_S_S128 (constant (F := F) S_ .f32 0x3727C5AC#32))))))
    (rows3 β)

/-- The rectified pre-activation of the layer, of the contents the stage starts from. -/
def act3 (x : FVec F S50000x64 .f32) (w : FVec F S64x128 .f32) (b : FVec F S128 .f32)
    (src dst : IVec S450000 32) (wgt : FVec F S450000 .f32) : FVec F S50000x128 .f32 :=
  relu3 (pre3 (agg3 (lin3 x w) wgt src dst) b)

/-- The whole layer. -/
def refLayer3 (x : FVec F S50000x64 .f32) (w : FVec F S64x128 .f32) (b γ β : FVec F S128 .f32)
    (src dst : IVec S450000 32) (wgt : FVec F S450000 .f32) : FVec F S50000x128 .f32 :=
  norm3 (act3 x w b src dst wgt) (mean3 (act3 x w b src dst wgt)) (var3 (act3 x w b src dst wgt)) γ β

section
variable (V : Valuation τ sig (Elt F))

-- the stage is 67 operations: one simp pass over the fold, one inequality of references per operation passed
set_option maxRecDepth 16384
set_option maxHeartbeats 4000000

theorem seg3_v110 : after seg3 V (main_v110 : DevRef τ sig)
    = lin3 (V (main_v109 : DevRef τ sig)) (V (main_arg11 : DevRef τ sig)) := by
  simp only [seg3, piece5]
  after_results_simp
  rfl

theorem seg3_v123 : after seg3 V (main_v123 : DevRef τ sig)
    = agg3 (lin3 (V (main_v109 : DevRef τ sig)) (V (main_arg11 : DevRef τ sig))) (V (main_v35 : DevRef τ sig))
        (V (main_v4 : DevRef τ sig)) (V (main_v7 : DevRef τ sig)) := by
  simp only [seg3, piece5]
  after_results_simp
  rfl

theorem seg3_v126 : after seg3 V (main_v126 : DevRef τ sig)
    = pre3 (agg3 (lin3 (V (main_v109 : DevRef τ sig)) (V (main_arg11 : DevRef τ sig))) (V (main_v35 : DevRef τ sig))
        (V (main_v4 : DevRef τ sig)) (V (main_v7 : DevRef τ sig))) (V (main_arg12 : DevRef τ sig)) := by
  simp only [seg3, piece5]
  after_results_simp
  rfl

theorem seg3_v127 : after seg3 V (main_v127 : DevRef τ sig)
    = act3 (V (main_v109 : DevRef τ sig)) (V (main_arg11 : DevRef τ sig)) (V (main_arg12 : DevRef τ sig))
        (V (main_v4 : DevRef τ sig)) (V (main_v7 : DevRef τ sig)) (V (main_v35 : DevRef τ sig)) := by
  simp only [seg3, piece5]
  after_results_simp
  rfl

theorem seg3_v130 : after seg3 V (main_v130 : DevRef τ sig)
    = mean3 (act3 (V (main_v109 : DevRef τ sig)) (V (main_arg11 : DevRef τ sig)) (V (main_arg12 : DevRef τ sig))
        (V (main_v4 : DevRef τ sig)) (V (main_v7 : DevRef τ sig)) (V (main_v35 : DevRef τ sig))) := by
  simp only [seg3, piece5]
  after_results_simp
  rfl

theorem seg3_v131 : after seg3 V (main_v131 : DevRef τ sig)
    = var3 (act3 (V (main_v109 : DevRef τ sig)) (V (main_arg11 : DevRef τ sig)) (V (main_arg12 : DevRef τ sig))
        (V (main_v4 : DevRef τ sig)) (V (main_v7 : DevRef τ sig)) (V (main_v35 : DevRef τ sig))) := by
  simp only [seg3, piece5]
  after_results_simp
  rfl

/-- The stage's output, the only buffer of it a later stage reads. -/
theorem seg3_v146 : after seg3 V (main_v146 : DevRef τ sig)
    = refLayer3 (V (main_v109 : DevRef τ sig)) (V (main_arg11 : DevRef τ sig)) (V (main_arg12 : DevRef τ sig))
        (V (main_arg13 : DevRef τ sig)) (V (main_arg14 : DevRef τ sig))
        (V (main_v4 : DevRef τ sig)) (V (main_v7 : DevRef τ sig)) (V (main_v35 : DevRef τ sig)) := by
  simp only [seg3, piece5]
  after_results_simp
  rfl

end

end Cert.ReferenceIdeal.HandRun

end
-- ==== Proof.KerChain3.lean ====
import proofs.«107715_j23149873725632_1_alg».proof.Proof.Gen.KernelIdeal.Frame
import proofs.«107715_j23149873725632_1_alg».proof.Proof.KerChain2
import proofs.«107715_j23149873725632_1_alg».proof.Proof.RegMM6
import proofs.«107715_j23149873725632_1_alg».proof.Proof.RegBN8
import proofs.«107715_j23149873725632_1_alg».proof.Proof.RefOpsRead3

/-! The kernel program's buffer contents at the segment boundaries of its layer 3 (W15 … W20 of the generated frame):
    KerChain1.lean's statements at this layer's regions (6: the matrix product, 7: the activation and its column
    statistics, 8: the normalisation), stretches (hostOps7: the aggregation over the edges, hostOps8: mean and
    variance) and buffers.  X is the layer's input, the contents of main_v85 at the layer's entry. -/

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx
open Cert.KernelIdeal.RegVal (mm6 bn8 final6 finalB8)
open Cert.ReferenceIdeal.HandRun (srcIdx dstIdx edgeNorm agg3 Keeps KeepsOutside)

/-! ## The host stretches, from any contents -/

section Stretches
variable {F : FTy → Type} [FloatOps F] (V : Valuation τ sig (Elt F))

set_option maxHeartbeats 4000000

theorem h7_v99 : after hostOps7 V (main_v99 : DevRef τ sig)
    = agg3 (F := F) (V (main_v86 : DevRef τ sig)) (V (main_v35 : DevRef τ sig)) (V (main_v4 : DevRef τ sig)) (V (main_v7 : DevRef τ sig)) := by
  simp only [hostOps7]
  after_results_simp
  rfl

theorem h7_v100 : after hostOps7 V (main_v100 : DevRef τ sig)
    = shapeCast S1x128 (V (main_arg12 : DevRef τ sig)) shapeCasts_S128_S1x128 := by
  simp only [hostOps7]
  after_results_simp
  rfl

/-- The 50000-word spread over a one-row array of 128. -/
def countRow3 : FVec F S1x128 .f32 := broadcastInDim S1x128 ![] bcast_S_S1x128 (constant (F := F) S_ .f32 0x47435000#32)

theorem h8_v103 : after hostOps8 V (main_v103 : DevRef τ sig) = Host.divf (F := F) (V (main_v101_1 : DevRef τ sig)) (countRow3 (F := F)) := by
  simp only [hostOps8]
  after_results_simp
  rfl

theorem h8_v107 : after hostOps8 V (main_v107 : DevRef τ sig)
    = subf (Host.divf (F := F) (V (main_v101_2 : DevRef τ sig)) (countRow3 (F := F)))
        (mulf (Host.divf (F := F) (V (main_v101_1 : DevRef τ sig)) (countRow3 (F := F))) (Host.divf (F := F) (V (main_v101_1 : DevRef τ sig)) (countRow3 (F := F)))) := by
  simp only [hostOps8]
  after_results_simp
  rfl

theorem h8_v108 : after hostOps8 V (main_v108 : DevRef τ sig) = shapeCast S1x128 (V (main_arg13 : DevRef τ sig)) shapeCasts_S128_S1x128 := by
  simp only [hostOps8]
  after_results_simp
  rfl

theorem h8_v109 : after hostOps8 V (main_v109 : DevRef τ sig) = shapeCast S1x128 (V (main_arg14 : DevRef τ sig)) shapeCasts_S128_S1x128 := by
  simp only [hostOps8]
  after_results_simp
  rfl

end Stretches

/-! ## The boundaries W15 … W20 -/

variable (m : (ℓ : Loc nD τ sig) → Buf (Elt Ideal) ℓ) (ρ : Dev nD → PrngReg) (c : Dev nD)

theorem W16_keep (r : Ref sig .tc) (h : ∀ w, Pipeline.arrRef spec6 w ≠ r) :
    W16 m ρ c (Proc.devRef .tc r) = W15 m ρ c (Proc.devRef .tc r) := W16_of_ne m ρ c r h
theorem W17_keep (r : Ref sig .tc) (h : r ∉ hostOps7_W) : W17 m ρ c (Proc.devRef .tc r) = W16 m ρ c (Proc.devRef .tc r) :=
  hostOps7_keeps r h _
theorem W18_keep (r : Ref sig .tc) (h : ∀ w, Pipeline.arrRef spec7 w ≠ r) :
    W18 m ρ c (Proc.devRef .tc r) = W17 m ρ c (Proc.devRef .tc r) := W18_of_ne m ρ c r h
theorem W19_keep (r : Ref sig .tc) (h : r ∉ hostOps8_W) : W19 m ρ c (Proc.devRef .tc r) = W18 m ρ c (Proc.devRef .tc r) :=
  hostOps8_keeps r h _
theorem W20_keep (r : Ref sig .tc) (h : ∀ w, Pipeline.arrRef spec8 w ≠ r) :
    W20 m ρ c (Proc.devRef .tc r) = W19 m ρ c (Proc.devRef .tc r) := W20_of_ne m ρ c r h

/-- A buffer none of this layer's stretches and regions writes is at its exit what it was at its entry. -/
theorem W20_of_W15 (r : Ref sig .tc) (h0 : ∀ w, Pipeline.arrRef spec6 w ≠ r) (h1 : r ∉ hostOps7_W)
    (h2 : ∀ w, Pipeline.arrRef spec7 w ≠ r) (h3 : r ∉ hostOps8_W) (h4 : ∀ w, Pipeline.arrRef spec8 w ≠ r) :
    W20 m ρ c (Proc.devRef .tc r) = W15 m ρ c (Proc.devRef .tc r) :=
  (W20_keep m ρ c r h4).trans ((W19_keep m ρ c r h3).trans ((W18_keep m ρ c r h2).trans ((W17_keep m ρ c r h1).trans (W16_keep m ρ c r h0))))

/-- … and as launched if it was so at the entry. -/
theorem W20_of_launch (r : Ref sig .tc) (h : W15 m ρ c (Proc.devRef .tc r) = W0 m ρ c (Proc.devRef .tc r))
    (h0 : ∀ w, Pipeline.arrRef spec6 w ≠ r) (h1 : r ∉ hostOps7_W)
    (h2 : ∀ w, Pipeline.arrRef spec7 w ≠ r) (h3 : r ∉ hostOps8_W) (h4 : ∀ w, Pipeline.arrRef spec8 w ≠ r) :
    W20 m ρ c (Proc.devRef .tc r) = W0 m ρ c (Proc.devRef .tc r) :=
  (W20_of_W15 m ρ c r h0 h1 h2 h3 h4).trans h

/-- The layer's four parameter arrays are as launched at its entry. -/
theorem W15_arg11 : W15 m ρ c (main_arg11 : DevRef τ sig) = m ((c : Thread nD τ).loc main_arg11) := W15_of_launch m ρ c main_arg11 (W10_of_launch m ρ c main_arg11 (by decide) (by decide) (by decide) (by decide) (by decide) (by decide)) (by decide) (by decide) (by decide) (by decide) (by decide)
theorem W15_arg12 : W15 m ρ c (main_arg12 : DevRef τ sig) = m ((c : Thread nD τ).loc main_arg12) := W15_of_launch m ρ c main_arg12 (W10_of_launch m ρ c main_arg12 (by decide) (by decide) (by decide) (by decide) (by decide) (by decide)) (by decide) (by decide) (by decide) (by decide) (by decide)
theorem W15_arg13 : W15 m ρ c (main_arg13 : DevRef τ sig) = m ((c : Thread nD τ).loc main_arg13) := W15_of_launch m ρ c main_arg13 (W10_of_launch m ρ c main_arg13 (by decide) (by decide) (by decide) (by decide) (by decide) (by decide)) (by decide) (by decide) (by decide) (by decide) (by decide)
theorem W15_arg14 : W15 m ρ c (main_arg14 : DevRef τ sig) = m ((c : Thread nD τ).loc main_arg14) := W15_of_launch m ρ c main_arg14 (W10_of_launch m ρ c main_arg14 (by decide) (by decide) (by decide) (by decide) (by decide) (by decide)) (by decide) (by decide) (by decide) (by decide) (by decide)

/-- Region 6 leaves the product of the layer's input and its weights in main_v86. -/
theorem W16_v86 (X : S50000x64.Idx → EReal) (hX : W15 m ρ c (main_v85 : DevRef τ sig) = X) :
    W16 m ρ c (main_v86 : DevRef τ sig) = mm6 X (m ((c : Thread nD τ).loc main_arg11)) :=
  (W16_arr m ρ c 2).trans (final6 (V15 m ρ) c X _ hX (W15_arg11 m ρ c))

/-- At region 7's entry main_v99 is the aggregate of that product over the edges … -/
theorem W17_v99 (X : S50000x64.Idx → EReal) (hX : W15 m ρ c (main_v85 : DevRef τ sig) = X) :
    W17 m ρ c (main_v99 : DevRef τ sig)
      = agg3 (F := Ideal) (mm6 X (m ((c : Thread nD τ).loc main_arg11)))
          (edgeNorm (F := Ideal) (m ((c : Thread nD τ).loc main_arg1)) (m ((c : Thread nD τ).loc main_arg2)))
          (srcIdx (m ((c : Thread nD τ).loc main_arg1))) (dstIdx (m ((c : Thread nD τ).loc main_arg1))) :=
  (h7_v99 (W16 m ρ c)).trans (by
    rw [W16_v86 m ρ c X hX, W16_keep m ρ c main_v35 (by decide), W16_keep m ρ c main_v4 (by decide), W16_keep m ρ c main_v7 (by decide),
      W15_v35 m ρ c, W15_v4 m ρ c, W15_v7 m ρ c])

/-- … and main_v100 the layer's bias as a one-row array. -/
theorem W17_v100 : W17 m ρ c (main_v100 : DevRef τ sig)
    = shapeCast S1x128 (m ((c : Thread nD τ).loc main_arg12)) shapeCasts_S128_S1x128 :=
  (h7_v100 (W16 m ρ c)).trans (by rw [W16_keep m ρ c main_arg12 (by decide), W15_arg12 m ρ c])

/-- Region 7's three outputs hold what its pipeline leaves (windows 2, 3, 4; its inputs, windows 0 and 1, are main_v99 and
    main_v100 as the two statements above give them). -/
theorem W18_v101_0 (Y : S50000x128.Idx → EReal) (h : (dat7 (V17 m ρ) c).arrAt 2 cfg7.N = Y) :
    W18 m ρ c (main_v101_0 : DevRef τ sig) = Y := (W18_arr m ρ c 2).trans h
theorem W18_v101_1 (Y : S1x128.Idx → EReal) (h : (dat7 (V17 m ρ) c).arrAt 3 cfg7.N = Y) :
    W18 m ρ c (main_v101_1 : DevRef τ sig) = Y := (W18_arr m ρ c 3).trans h
theorem W18_v101_2 (Y : S1x128.Idx → EReal) (h : (dat7 (V17 m ρ) c).arrAt 4 cfg7.N = Y) :
    W18 m ρ c (main_v101_2 : DevRef τ sig) = Y := (W18_arr m ρ c 4).trans h

/-- At region 8's entry, with S1 the column sums and S2 the column sums of squares region 7 left: the mean … -/
theorem W19_v103 (S1 : S1x128.Idx → EReal) (h1 : W18 m ρ c (main_v101_1 : DevRef τ sig) = S1) :
    W19 m ρ c (main_v103 : DevRef τ sig) = Host.divf (F := Ideal) S1 (countRow3 (F := Ideal)) :=
  (h8_v103 (W18 m ρ c)).trans (by rw [h1])

/-- … the variance … -/
theorem W19_v107 (S1 S2 : S1x128.Idx → EReal) (h1 : W18 m ρ c (main_v101_1 : DevRef τ sig) = S1)
    (h2 : W18 m ρ c (main_v101_2 : DevRef τ sig) = S2) :
    W19 m ρ c (main_v107 : DevRef τ sig)
      = subf (Host.divf (F := Ideal) S2 (countRow3 (F := Ideal)))
          (mulf (Host.divf (F := Ideal) S1 (countRow3 (F := Ideal))) (Host.divf (F := Ideal) S1 (countRow3 (F := Ideal)))) :=
  (h8_v107 (W18 m ρ c)).trans (by rw [h1, h2])

/-- … the scale and the shift as one-row arrays … -/
theorem W19_v108 : W19 m ρ c (main_v108 : DevRef τ sig) = shapeCast S1x128 (m ((c : Thread nD τ).loc main_arg13)) shapeCasts_S128_S1x128 :=
  (h8_v108 (W18 m ρ c)).trans (by
    rw [W18_keep m ρ c main_arg13 (by decide), W17_keep m ρ c main_arg13 (by decide), W16_keep m ρ c main_arg13 (by decide), W15_arg13 m ρ c])
theorem W19_v109 : W19 m ρ c (main_v109 : DevRef τ sig) = shapeCast S1x128 (m ((c : Thread nD τ).loc main_arg14)) shapeCasts_S128_S1x128 :=
  (h8_v109 (W18 m ρ c)).trans (by
    rw [W18_keep m ρ c main_arg14 (by decide), W17_keep m ρ c main_arg14 (by decide), W16_keep m ρ c main_arg14 (by decide), W15_arg14 m ρ c])

/-- … and the activation region 7 left is still there. -/
theorem W19_v101_0 (A : S50000x128.Idx → EReal) (hA : W18 m ρ c (main_v101_0 : DevRef τ sig) = A) :
    W19 m ρ c (main_v101_0 : DevRef τ sig) = A := (W19_keep m ρ c main_v101_0 (by decide)).trans hA

/-- Region 8 leaves the normalised activation in main_v110: with A the activation and S1, S2 its column sums and column
    sums of squares (region 7's three outputs), bn8 of A, the mean S1 / 50000, the variance S2 / 50000 − mean², and the
    scale and shift rows. -/
theorem W20_v110 (A : S50000x128.Idx → EReal) (S1 S2 : S1x128.Idx → EReal)
    (hA : W18 m ρ c (main_v101_0 : DevRef τ sig) = A) (h1 : W18 m ρ c (main_v101_1 : DevRef τ sig) = S1)
    (h2 : W18 m ρ c (main_v101_2 : DevRef τ sig) = S2) :
    W20 m ρ c (main_v110 : DevRef τ sig)
      = bn8 A (Host.divf (F := Ideal) S1 (countRow3 (F := Ideal)))
          (subf (Host.divf (F := Ideal) S2 (countRow3 (F := Ideal)))
            (mulf (Host.divf (F := Ideal) S1 (countRow3 (F := Ideal))) (Host.divf (F := Ideal) S1 (countRow3 (F := Ideal)))))
          (shapeCast S1x128 (m ((c : Thread nD τ).loc main_arg13)) shapeCasts_S128_S1x128)
          (shapeCast S1x128 (m ((c : Thread nD τ).loc main_arg14)) shapeCasts_S128_S1x128) :=
  (W20_arr m ρ c 5).trans (finalB8 (V19 m ρ) c _ _ _ _ _ (W19_v101_0 m ρ c A hA) (W19_v103 m ρ c S1 h1)
    (W19_v107 m ρ c S1 S2 h1 h2) (W19_v108 m ρ c) (W19_v109 m ρ c))

/-- At the next layer's entry the graph buffers are still the prelude's. -/
theorem W20_v4 : W20 m ρ c (main_v4 : DevRef τ sig) = srcIdx (m ((c : Thread nD τ).loc main_arg1)) :=
  (W20_of_W15 m ρ c main_v4 (by decide) (by decide) (by decide) (by decide) (by decide)).trans (W15_v4 m ρ c)
theorem W20_v7 : W20 m ρ c (main_v7 : DevRef τ sig) = dstIdx (m ((c : Thread nD τ).loc main_arg1)) :=
  (W20_of_W15 m ρ c main_v7 (by decide) (by decide) (by decide) (by decide) (by decide)).trans (W15_v7 m ρ c)
theorem W20_v35 : W20 m ρ c (main_v35 : DevRef τ sig)
    = edgeNorm (F := Ideal) (m ((c : Thread nD τ).loc main_arg1)) (m ((c : Thread nD τ).loc main_arg2)) :=
  (W20_of_W15 m ρ c main_v35 (by decide) (by decide) (by decide) (by decide) (by decide)).trans (W15_v35 m ρ c)

end Cert.KernelIdeal.Chain

end
-- ==== Proof.RegMM9.lean ====
/-
  Region 9: the fourth layer's feature transform. The 50000-row input is cut into 25 blocks of 2000 rows; at each grid point the kernel
  multiplies one block by the whole 128×128 weight matrix and writes the 2000×128 product to the same rows of the
  output. A row of the product depends only on the same row of the input, so the blocks are the restrictions of
  one whole-array function: entry (r, j) of the output is the sum over k of X(r, k) · W(k, j), and the 25 blocks tile
  the 50000 rows.
-/
import proofs.«107715_j23149873725632_1_alg».proof.Proof.Gen.KernelIdeal.Frame
import proofs.«107715_j23149873725632_1_alg».proof.Proof.LibMatmul2D
import Idealize.ShloMosaic.Lib.Pipeline.Value
import Idealize.ShloMosaic.Lib.ValueIdx

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2_9 : (![0, 0] : Fin 2 → Nat) = fun _ => 0 := funext fun a => by fin_cases a <;> rfl

/-- Rows of `X` against columns of `Wt`: entry (r, j) is the sum over k of X(r, k) · Wt(k, j). -/
def mm9 (X : S50000x128.Idx → EReal) (Wt : S128x128.Idx → EReal) : S50000x128.Idx → EReal :=
  fun i => ∑ k : Fin 128, X (ix2 (i 0) k) * Wt (ix2 k (i 1))

/-- The body's one store at an entry of the block: the matrix product into the zero accumulator, the two changes
    of float format being the identity on the extended reals. -/
theorem pay9 (x0 : Vec Ideal S2000x128 .f32) (x1 : Vec Ideal S128x128 .f32) (p : Fin 2000) (q : Fin 128) :
    k9_pay1 x0 x1 (ix2 p q) = ∑ k : Fin 128, x0 (ix2 p k) * x1 (ix2 k q) := by
  unfold k9_pay1
  try simp only [shapeCast_self]
  exact Cert.LibMatmul2D.rows_cols _ none _ _ p q

/-- The index maps over the 25 grid points: the row block moves with the point, the weight block stays. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

set_option maxHeartbeats 1000000 in
/-- What point `t` writes back is block `t` of the whole product (the two input arrays named `X` and `Wt`). -/
theorem flushed9 (c : Dev nD) (t : Fin cfg9.N) (X : S50000x128.Idx → EReal) (Wt : S128x128.Idx → EReal)
    (hX : V c (Pipeline.arrRef spec9 0) = X) (hW : V c (Pipeline.arrRef spec9 1) = Wt) :
    (dat9 V c).flushed 2 t = ((cfg9.win 2).blk t).view.read (Elt Ideal) (mm9 X Wt) := by
  have hb0 : iblk9 V c 0 t = ((cfg9.win 0).blk t).view.read (Elt Ideal) X := by unfold iblk9; rw [hX]
  have hb1 : iblk9 V c 1 t = ((cfg9.win 1).blk t).view.read (Elt Ideal) Wt := by unfold iblk9; rw [hW]
  show (cfg9.win 2).cut (grid9.coords t) ((dat9 V c).after 2 t) = _
  rw [after9_2, hb0, hb1]
  unfold out9_2
  rw [View.canon_unit_zero hz2_9]
  simp only [View.ld_unit_zero (S := S2000x128) hz2_9, View.ld_unit_zero (S := S128x128) hz2_9]
  obtain ⟨e0, e1, e2, e3, e4, e5⟩ := idx9 t
  funext j
  obtain ⟨p, q, rfl⟩ : ∃ (p : Fin 2000) (q : Fin 128), j = ix2 p q := ⟨j 0, j 1, eq_ix2 j⟩
  refine (pay9 _ _ p q).trans ?_
  show ∑ k : Fin 128, X (((cfg9.win 0).blk t).view.emb (ix2 p k)) * Wt (((cfg9.win 1).blk t).view.emb (ix2 k q))
      = mm9 X Wt (((cfg9.win 2).blk t).view.emb (ix2 p q))
  unfold mm9
  refine Finset.sum_congr rfl fun k _ => ?_
  have h0 : ((cfg9.win 0).blk t).view.emb (ix2 p k) = ix2 ((((cfg9.win 2).blk t).view.emb (ix2 p q)) 0) k := by
    funext a; apply Fin.ext
    match a with
    | ⟨0, _⟩ => show win9_0.index t (0 : Fin 2) * 2000 + 1 * p.val = win9_2.index t (0 : Fin 2) * 2000 + 1 * p.val; omega
    | ⟨1, _⟩ => show win9_0.index t (1 : Fin 2) * 128 + 1 * k.val = k.val; omega
  have h1 : ((cfg9.win 1).blk t).view.emb (ix2 k q) = ix2 k ((((cfg9.win 2).blk t).view.emb (ix2 p q)) 1) := by
    funext a; apply Fin.ext
    match a with
    | ⟨0, _⟩ => show win9_1.index t (0 : Fin 2) * 128 + 1 * k.val = k.val; omega
    | ⟨1, _⟩ => show win9_1.index t (1 : Fin 2) * 128 + 1 * q.val = win9_2.index t (1 : Fin 2) * 128 + 1 * q.val; omega
  exact congrArg₂ (· * ·) (congrArg X h0) (congrArg Wt h1)

/-- An index of the output array is in point `t`'s block iff each coordinate is in the block's range on its axis. -/
theorem mem_blk9 (t : Fin cfg9.N) (i : S50000x128.Idx) :
    i ∈ ((cfg9.win 2).blk t).view.set ↔ ∀ a : Fin 2, win9_2.index t a * S2000x128.size a ≤ (i a).val
      ∧ (i a).val < win9_2.index t a * S2000x128.size a + S2000x128.size a := by
  show i ∈ ((View.whole main_v111).slice (win9_2.rect t)).set ↔ _
  rw [View.set_slice_whole, Rect.mem_set_unit]
  exact Iff.rfl

/-- Every block of rows is some point's. -/
theorem idx_onto9 : ∀ q0 : Fin 25, ∃ t : Fin cfg9.N, win9_2.index t = ![q0.val, 0] :=
  (by decide +kernel : ∀ q0 : Fin 25, ∃ t : Fin grid9.N, win9_2.index t = ![q0.val, 0])

/-- The 25 blocks of 2000 rows tile the 50000 rows: row r is in block r / 2000. -/
theorem cover9 (i : S50000x128.Idx) :
    ∃ t : Fin cfg9.N, (cfg9.win 2).flush t = true ∧ i ∈ ((cfg9.win 2).blk t).view.set := by
  have hi0 : (i 0).val < 50000 := (i 0).isLt
  have hi1 : (i 1).val < 128 := (i 1).isLt
  obtain ⟨t, ht⟩ := idx_onto9 ⟨(i 0).val / 2000, by omega⟩
  have q0 : win9_2.index t (0 : Fin 2) = (i 0).val / 2000 := congrFun ht 0
  have q1 : win9_2.index t (1 : Fin 2) = 0 := congrFun ht 1
  refine ⟨t, flush9_2 t, ?_⟩
  rw [mem_blk9]
  intro a
  match a with
  | ⟨0, _⟩ => show win9_2.index t (0 : Fin 2) * 2000 ≤ (i 0).val ∧ (i 0).val < win9_2.index t (0 : Fin 2) * 2000 + 2000; omega
  | ⟨1, _⟩ => show win9_2.index t (1 : Fin 2) * 128 ≤ (i 1).val ∧ (i 1).val < win9_2.index t (1 : Fin 2) * 128 + 128; omega

/-- After the region the output array holds the whole product of the two input arrays as the region found them. -/
theorem final9 (c : Dev nD) (X : S50000x128.Idx → EReal) (Wt : S128x128.Idx → EReal)
    (hX : V c (Pipeline.arrRef spec9 0) = X) (hW : V c (Pipeline.arrRef spec9 1) = Wt) :
    (dat9 V c).arrAt 2 cfg9.N = mm9 X Wt :=
  (dat9 V c).arrAt_eq_of_cover 2 _ (fun t _ => flushed9 V c t X Wt hX hW) cover9

end Cert.KernelIdeal.RegVal

end
-- ==== Proof.RegBN11.lean ====
/-
  Region 11: the fourth layer's normalisation, followed by the rectifier. The activations (50000 rows, 128 columns) are cut into 25 blocks of 2000 rows; the column
  mean, the column variance, the scale and the shift are 128-entry rows every point reads whole. At each entry the
  kernel computes scale · (a − mean) · (variance + ε)^(−1/2) + shift, then the maximum with zero: entry (r, j) of the output
  depends on entry (r, j) of the activations and on column j of the four rows only, so the blocks are the
  restrictions of one whole-array function and the 25 blocks tile the 50000 rows.
-/
import proofs.«107715_j23149873725632_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hzB_11 : (![0, 0] : Fin 2 → Nat) = fun _ => 0 := funext fun a => by fin_cases a <;> rfl

/-- The stabilising constant ε as the body's float word reads on the extended reals. -/
def epsW11 : EReal := Scalar.ofBits (F := Ideal) .f32 0x3727C5AC#32
/-- The zero word. -/
def zeroW11 : EReal := Scalar.ofBits (F := Ideal) .f32 0x00000000#32

/-- The normalisation, entry by entry: scale · (a − mean) · (variance + ε)^(−1/2) + shift, clipped below at zero, the four rows read at the
    entry's column. -/
def bn11 (A : S50000x128.Idx → EReal) (Mn Vr G Be : S1x128.Idx → EReal) : S50000x128.Idx → EReal :=
  fun i => max (G (ix2 (0 : Fin 1) (i 1)) * (A i - Mn (ix2 (0 : Fin 1) (i 1))) * Ideal.rsqrt (Vr (ix2 (0 : Fin 1) (i 1)) + epsW11) + Be (ix2 (0 : Fin 1) (i 1))) zeroW11

/-- The body's one store at an entry of the block. -/
theorem payB11 (x0 : Vec Ideal S2000x128 .f32) (g mn vr be : Vec Ideal S1x128 .f32) (p : Fin 2000) (q : Fin 128) :
    k11_pay1 x0 g mn vr be (ix2 p q)
      = max (g (ix2 (0 : Fin 1) q) * (x0 (ix2 p q) - mn (ix2 (0 : Fin 1) q)) * Ideal.rsqrt (vr (ix2 (0 : Fin 1) q) + epsW11) + be (ix2 (0 : Fin 1) q)) zeroW11 := by
  unfold k11_pay1
  simp only [shapeCast_self, addf, mulf, subf, rsqrt, maximumf, broadcast, broadcastTo_1b_ab_apply,
    Ideal.addf_def, Ideal.mulf_def, Ideal.subf_def, Ideal.rsqrt_def, Ideal.maximumf_def, epsW11, zeroW11]

/-- The index maps over the 25 grid points: the row blocks move with the point, the four rows stay. -/
theorem idxB11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

set_option maxHeartbeats 1000000 in
/-- What point `t` writes back is block `t` of the whole normalised array (the five input arrays named). -/
theorem flushedB11 (c : Dev nD) (t : Fin cfg11.N) (A : S50000x128.Idx → EReal) (Mn Vr G Be : S1x128.Idx → EReal)
    (hA : V c (Pipeline.arrRef spec11 0) = A) (hM : V c (Pipeline.arrRef spec11 1) = Mn)
    (hV : V c (Pipeline.arrRef spec11 2) = Vr) (hG : V c (Pipeline.arrRef spec11 3) = G)
    (hB : V c (Pipeline.arrRef spec11 4) = Be) :
    (dat11 V c).flushed 5 t = ((cfg11.win 5).blk t).view.read (Elt Ideal) (bn11 A Mn Vr G Be) := by
  have hb0 : iblk11 V c 0 t = ((cfg11.win 0).blk t).view.read (Elt Ideal) A := by unfold iblk11; rw [hA]
  have hb1 : iblk11 V c 1 t = ((cfg11.win 1).blk t).view.read (Elt Ideal) Mn := by unfold iblk11; rw [hM]
  have hb2 : iblk11 V c 2 t = ((cfg11.win 2).blk t).view.read (Elt Ideal) Vr := by unfold iblk11; rw [hV]
  have hb3 : iblk11 V c 3 t = ((cfg11.win 3).blk t).view.read (Elt Ideal) G := by unfold iblk11; rw [hG]
  have hb4 : iblk11 V c 4 t = ((cfg11.win 4).blk t).view.read (Elt Ideal) Be := by unfold iblk11; rw [hB]
  show (cfg11.win 5).cut (grid11.coords t) ((dat11 V c).after 5 t) = _
  rw [after11_5, hb0, hb1, hb2, hb3, hb4]
  unfold out11_5
  rw [View.canon_unit_zero hzB_11]
  simp only [View.ld_unit_zero (S := S2000x128) hzB_11, View.ld_unit_zero (S := S1x128) hzB_11]
  obtain ⟨e0, e1, e2, e3, e4, e5, e6, e7, e8, e9, e10, e11⟩ := idxB11 t
  funext j
  obtain ⟨p, q, rfl⟩ : ∃ (p : Fin 2000) (q : Fin 128), j = ix2 p q := ⟨j 0, j 1, eq_ix2 j⟩
  refine (payB11 _ _ _ _ _ p q).trans ?_
  have h0 : ((cfg11.win 0).blk t).view.emb (ix2 p q) = ((cfg11.win 5).blk t).view.emb (ix2 p q) := by
    funext a; apply Fin.ext
    match a with
    | ⟨0, _⟩ => show win11_0.index t (0 : Fin 2) * 2000 + 1 * p.val = win11_5.index t (0 : Fin 2) * 2000 + 1 * p.val; omega
    | ⟨1, _⟩ => show win11_0.index t (1 : Fin 2) * 128 + 1 * q.val = win11_5.index t (1 : Fin 2) * 128 + 1 * q.val; omega
  have h1 : ((cfg11.win 1).blk t).view.emb (ix2 (0 : Fin 1) q) = ix2 (0 : Fin 1) ((((cfg11.win 5).blk t).view.emb (ix2 p q)) 1) := by
    funext a; apply Fin.ext
    match a with
    | ⟨0, _⟩ => show win11_1.index t (0 : Fin 2) * 1 + 1 * 0 = 0; omega
    | ⟨1, _⟩ => show win11_1.index t (1 : Fin 2) * 128 + 1 * q.val = win11_5.index t (1 : Fin 2) * 128 + 1 * q.val; omega
  have h2 : ((cfg11.win 2).blk t).view.emb (ix2 (0 : Fin 1) q) = ix2 (0 : Fin 1) ((((cfg11.win 5).blk t).view.emb (ix2 p q)) 1) := by
    funext a; apply Fin.ext
    match a with
    | ⟨0, _⟩ => show win11_2.index t (0 : Fin 2) * 1 + 1 * 0 = 0; omega
    | ⟨1, _⟩ => show win11_2.index t (1 : Fin 2) * 128 + 1 * q.val = win11_5.index t (1 : Fin 2) * 128 + 1 * q.val; omega
  have h3 : ((cfg11.win 3).blk t).view.emb (ix2 (0 : Fin 1) q) = ix2 (0 : Fin 1) ((((cfg11.win 5).blk t).view.emb (ix2 p q)) 1) := by
    funext a; apply Fin.ext
    match a with
    | ⟨0, _⟩ => show win11_3.index t (0 : Fin 2) * 1 + 1 * 0 = 0; omega
    | ⟨1, _⟩ => show win11_3.index t (1 : Fin 2) * 128 + 1 * q.val = win11_5.index t (1 : Fin 2) * 128 + 1 * q.val; omega
  have h4 : ((cfg11.win 4).blk t).view.emb (ix2 (0 : Fin 1) q) = ix2 (0 : Fin 1) ((((cfg11.win 5).blk t).view.emb (ix2 p q)) 1) := by
    funext a; apply Fin.ext
    match a with
    | ⟨0, _⟩ => show win11_4.index t (0 : Fin 2) * 1 + 1 * 0 = 0; omega
    | ⟨1, _⟩ => show win11_4.index t (1 : Fin 2) * 128 + 1 * q.val = win11_5.index t (1 : Fin 2) * 128 + 1 * q.val; omega
  show max (G (((cfg11.win 3).blk t).view.emb (ix2 (0 : Fin 1) q)) * (A (((cfg11.win 0).blk t).view.emb (ix2 p q)) - Mn (((cfg11.win 1).blk t).view.emb (ix2 (0 : Fin 1) q))) * Ideal.rsqrt (Vr (((cfg11.win 2).blk t).view.emb (ix2 (0 : Fin 1) q)) + epsW11) + Be (((cfg11.win 4).blk t).view.emb (ix2 (0 : Fin 1) q))) zeroW11
      = bn11 A Mn Vr G Be (((cfg11.win 5).blk t).view.emb (ix2 p q))
  unfold bn11
  rw [congrArg A h0, congrArg Mn h1, congrArg Vr h2, congrArg G h3, congrArg Be h4]
  rfl

/-- An index of the output array is in point `t`'s block iff each coordinate is in the block's range on its axis. -/
theorem mem_blkB11 (t : Fin cfg11.N) (i : S50000x128.Idx) :
    i ∈ ((cfg11.win 5).blk t).view.set ↔ ∀ a : Fin 2, win11_5.index t a * S2000x128.size a ≤ (i a).val
      ∧ (i a).val < win11_5.index t a * S2000x128.size a + S2000x128.size a := by
  show i ∈ ((View.whole main_v135).slice (win11_5.rect t)).set ↔ _
  rw [View.set_slice_whole, Rect.mem_set_unit]
  exact Iff.rfl

/-- Every block of rows is some point's. -/
theorem idx_ontoB11 : ∀ q0 : Fin 25, ∃ t : Fin cfg11.N, win11_5.index t = ![q0.val, 0] :=
  (by decide +kernel : ∀ q0 : Fin 25, ∃ t : Fin grid11.N, win11_5.index t = ![q0.val, 0])

/-- The 25 blocks of 2000 rows tile the 50000 rows: row r is in block r / 2000. -/
theorem coverB11 (i : S50000x128.Idx) :
    ∃ t : Fin cfg11.N, (cfg11.win 5).flush t = true ∧ i ∈ ((cfg11.win 5).blk t).view.set := by
  have hi0 : (i 0).val < 50000 := (i 0).isLt
  have hi1 : (i 1).val < 128 := (i 1).isLt
  obtain ⟨t, ht⟩ := idx_ontoB11 ⟨(i 0).val / 2000, by omega⟩
  have q0 : win11_5.index t (0 : Fin 2) = (i 0).val / 2000 := congrFun ht 0
  have q1 : win11_5.index t (1 : Fin 2) = 0 := congrFun ht 1
  refine ⟨t, flush11_5 t, ?_⟩
  rw [mem_blkB11]
  intro a
  match a with
  | ⟨0, _⟩ => show win11_5.index t (0 : Fin 2) * 2000 ≤ (i 0).val ∧ (i 0).val < win11_5.index t (0 : Fin 2) * 2000 + 2000; omega
  | ⟨1, _⟩ => show win11_5.index t (1 : Fin 2) * 128 ≤ (i 1).val ∧ (i 1).val < win11_5.index t (1 : Fin 2) * 128 + 128; omega

/-- After the region the output array holds the normalised activations. -/
theorem finalB11 (c : Dev nD) (A : S50000x128.Idx → EReal) (Mn Vr G Be : S1x128.Idx → EReal)
    (hA : V c (Pipeline.arrRef spec11 0) = A) (hM : V c (Pipeline.arrRef spec11 1) = Mn)
    (hV : V c (Pipeline.arrRef spec11 2) = Vr) (hG : V c (Pipeline.arrRef spec11 3) = G)
    (hB : V c (Pipeline.arrRef spec11 4) = Be) :
    (dat11 V c).arrAt 5 cfg11.N = bn11 A Mn Vr G Be :=
  (dat11 V c).arrAt_eq_of_cover 5 _ (fun t _ => flushedB11 V c t A Mn Vr G Be hA hM hV hG hB) coverB11

end Cert.KernelIdeal.RegVal

end
-- ==== Proof.RefOpsRead4.lean ====
import proofs.«107715_j23149873725632_1_alg».proof.Proof.RefOpsRead1

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! Stage 4 (graph-convolution layer 4, width 128 to 128) read back, in the sub-stages of RefOpsRead1.lean:
    (a) the matrix product, (b) the aggregate over the edges, (c) the pre-activation, (d) the column mean and
    variance of the pre-activation over the 50000 rows, (e) the normalisation, and then the rectification.  The definitions are layer 1's at this
    layer's shapes (wrapIdx and varCount do not depend on the width and are layer 1's). -/

/-- (a) The layer's matrix product. -/
def lin4 (x : FVec F S50000x128 .f32) (w : FVec F S128x128 .f32) : FVec F S50000x128 .f32 :=
  Host.dotGeneral (F := F) dot_S50000x128_S128x128_S50000x128_1_0_0_1_n_n none x w

/-- (b) The aggregate: the rows of h at the source indices, each scaled by its edge weight, added up into the rows at
    the destination indices, from zero. -/
def agg4 (h : FVec F S50000x128 .f32) (wgt : FVec F S450000 .f32) (src dst : IVec S450000 32) : FVec F S50000x128 .f32 :=
  Host.scatterAdd (F := F) scatter_S50000x128_S450000x1_S450000x128_1_0_0_1
    (broadcastInDim S50000x128 ![] bcast_S_S50000x128 (constant (F := F) S_ .f32 0x00000000#32))
    (broadcastInDim S450000x1 ![0] bcast_S450000_S450000x1_0 dst)
    (mulf
      (broadcastInDim S450000x128 ![0, 1] bcast_S450000x1_S450000x128_0_1
        (broadcastInDim S450000x1 ![0] bcast_S450000_S450000x1_0 wgt))
      (Host.gather gather_S50000x128_S450000x1_S450000x128_1_0_n_n_0_1_1128 h (wrapIdx src)))

/-- A row vector repeated down the 50000 rows. -/
def rows4 (v : FVec F S128 .f32) : FVec F S50000x128 .f32 :=
  broadcastInDim S50000x128 ![0, 1] bcast_S1x128_S50000x128_0_1 (broadcastInDim S1x128 ![1] bcast_S128_S1x128_1 v)

/-- (c) The pre-activation: the aggregate plus the bias on every row. -/
def pre4 (a : FVec F S50000x128 .f32) (b : FVec F S128 .f32) : FVec F S50000x128 .f32 := addf a (rows4 b)

/-- The rectifier. -/
def relu4 (z : FVec F S50000x128 .f32) : FVec F S50000x128 .f32 :=
  maximumf z (broadcastInDim S50000x128 ![] bcast_S_S50000x128 (constant (F := F) S_ .f32 0x00000000#32))

/-- The column sums over the 50000 rows, from zero. -/
def colSum4 (y : FVec F S50000x128 .f32) : FVec F S128 .f32 :=
  Host.reduceAdd (F := F) y (constant (F := F) S_ .f32 0x00000000#32) reducesTo_S50000x128_S128_d0 h_S_

/-- (d) The column means: the column sums over 50000. -/
def mean4 (y : FVec F S50000x128 .f32) : FVec F S128 .f32 :=
  Host.divf (F := F) (colSum4 y) (broadcastInDim S128 ![] bcast_S_S128 (constant (F := F) S_ .f32 0x47435000#32))

/-- The rows less their column means, the means taken as the variance takes them (the sums as a row, over 50000). -/
def centered4 (y : FVec F S50000x128 .f32) : FVec F S50000x128 .f32 :=
  subf y
    (broadcastInDim S50000x128 ![0, 1] bcast_S1x128_S50000x128_0_1
      (Host.divf (F := F) (broadcastInDim S1x128 ![1] bcast_S128_S1x128_1 (colSum4 y))
        (broadcastInDim S1x128 ![] bcast_S_S1x128 (constant (F := F) S_ .f32 0x47435000#32))))

/-- (d) The column variances: the column sums of the squared centred rows over the count, where the count is positive
    (and the quiet NaN otherwise). -/
def var4 (y : FVec F S50000x128 .f32) : FVec F S128 .f32 :=
  select (broadcastInDim S128 ![] bcast_S_S128 (cmpf .ogt (varCount (F := F)) (constant (F := F) S_ .f32 0x00000000#32)))
    (Host.divf (F := F) (colSum4 (mulf (centered4 y) (centered4 y))) (broadcastInDim S128 ![] bcast_S_S128 (varCount (F := F))))
    (broadcastInDim S128 ![] bcast_S_S128 (id (constant (F := F) S_ .f32 0x7FC00000#32)))

/-- (e) The normalisation: γ · (y − μ) · rsqrt(σ² + 1e-5) + β, row by row. -/
def norm4 (y : FVec F S50000x128 .f32) (μ σ2 γ β : FVec F S128 .f32) : FVec F S50000x128 .f32 :=
  addf
    (mulf (mulf (rows4 γ) (subf y (rows4 μ)))
      (rows4 (Host.rsqrt (F := F) (addf σ2 (broadcastInDim S128 ![] bcast_S_S128 (constant (F := F) S_ .f32 0x3727C5AC#32))))))
    (rows4 β)

/-- The pre-activation of the layer, of the contents the stage starts from (this layer normalises it, then rectifies). -/
def act4 (x : FVec F S50000x128 .f32) (w : FVec F S128x128 .f32) (b : FVec F S128 .f32)
    (src dst : IVec S450000 32) (wgt : FVec F S450000 .f32) : FVec F S50000x128 .f32 :=
  pre4 (agg4 (lin4 x w) wgt src dst) b

/-- The normalised pre-activation. -/
def normed4 (x : FVec F S50000x128 .f32) (w : FVec F S128x128 .f32) (b γ β : FVec F S128 .f32)
    (src dst : IVec S450000 32) (wgt : FVec F S450000 .f32) : FVec F S50000x128 .f32 :=
  norm4 (act4 x w b src dst wgt) (mean4 (act4 x w b src dst wgt)) (var4 (act4 x w b src dst wgt)) γ β

/-- The whole layer. -/
def refLayer4 (x : FVec F S50000x128 .f32) (w : FVec F S128x128 .f32) (b γ β : FVec F S128 .f32)
    (src dst : IVec S450000 32) (wgt : FVec F S450000 .f32) : FVec F S50000x128 .f32 :=
  relu4 (normed4 x w b γ β src dst wgt)

section
variable (V : Valuation τ sig (Elt F))

-- the stage is 67 operations: one simp pass over the fold, one inequality of references per operation passed
set_option maxRecDepth 16384
set_option maxHeartbeats 4000000

theorem seg4_v147 : after seg4 V (main_v147 : DevRef τ sig)
    = lin4 (V (main_v146 : DevRef τ sig)) (V (main_arg15 : DevRef τ sig)) := by
  simp only [seg4, after_app, piece6, piece7]
  after_results_simp
  rfl

theorem seg4_v160 : after seg4 V (main_v160 : DevRef τ sig)
    = agg4 (lin4 (V (main_v146 : DevRef τ sig)) (V (main_arg15 : DevRef τ sig))) (V (main_v35 : DevRef τ sig))
        (V (main_v4 : DevRef τ sig)) (V (main_v7 : DevRef τ sig)) := by
  simp only [seg4, after_app, piece6, piece7]
  after_results_simp
  rfl

theorem seg4_v163 : after seg4 V (main_v163 : DevRef τ sig)
    = act4 (V (main_v146 : DevRef τ sig)) (V (main_arg15 : DevRef τ sig)) (V (main_arg16 : DevRef τ sig))
        (V (main_v4 : DevRef τ sig)) (V (main_v7 : DevRef τ sig)) (V (main_v35 : DevRef τ sig)) := by
  simp only [seg4, after_app, piece6, piece7]
  after_results_simp
  rfl

theorem seg4_v166 : after seg4 V (main_v166 : DevRef τ sig)
    = mean4 (act4 (V (main_v146 : DevRef τ sig)) (V (main_arg15 : DevRef τ sig)) (V (main_arg16 : DevRef τ sig))
        (V (main_v4 : DevRef τ sig)) (V (main_v7 : DevRef τ sig)) (V (main_v35 : DevRef τ sig))) := by
  simp only [seg4, after_app, piece6, piece7]
  after_results_simp
  rfl

theorem seg4_v167 : after seg4 V (main_v167 : DevRef τ sig)
    = var4 (act4 (V (main_v146 : DevRef τ sig)) (V (main_arg15 : DevRef τ sig)) (V (main_arg16 : DevRef τ sig))
        (V (main_v4 : DevRef τ sig)) (V (main_v7 : DevRef τ sig)) (V (main_v35 : DevRef τ sig))) := by
  simp only [seg4, after_app, piece6, piece7]
  after_results_simp
  rfl

theorem seg4_v182 : after seg4 V (main_v182 : DevRef τ sig)
    = normed4 (V (main_v146 : DevRef τ sig)) (V (main_arg15 : DevRef τ sig)) (V (main_arg16 : DevRef τ sig))
        (V (main_arg17 : DevRef τ sig)) (V (main_arg18 : DevRef τ sig))
        (V (main_v4 : DevRef τ sig)) (V (main_v7 : DevRef τ sig)) (V (main_v35 : DevRef τ sig)) := by
  simp only [seg4, after_app, piece6, piece7]
  after_results_simp
  rfl

/-- The stage's output, the only buffer of it a later stage reads. -/
theorem seg4_v183 : after seg4 V (main_v183 : DevRef τ sig)
    = refLayer4 (V (main_v146 : DevRef τ sig)) (V (main_arg15 : DevRef τ sig)) (V (main_arg16 : DevRef τ sig))
        (V (main_arg17 : DevRef τ sig)) (V (main_arg18 : DevRef τ sig))
        (V (main_v4 : DevRef τ sig)) (V (main_v7 : DevRef τ sig)) (V (main_v35 : DevRef τ sig)) := by
  simp only [seg4, after_app, piece6, piece7]
  after_results_simp
  rfl

end

end Cert.ReferenceIdeal.HandRun

end
-- ==== Proof.KerChain4.lean ====
import proofs.«107715_j23149873725632_1_alg».proof.Proof.Gen.KernelIdeal.Frame
import proofs.«107715_j23149873725632_1_alg».proof.Proof.KerChain3
import proofs.«107715_j23149873725632_1_alg».proof.Proof.RegMM9
import proofs.«107715_j23149873725632_1_alg».proof.Proof.RegBN11
import proofs.«107715_j23149873725632_1_alg».proof.Proof.RefOpsRead4

/-! The kernel program's buffer contents at the segment boundaries of its layer 4 (W20 … W25 of the generated frame):
    KerChain1.lean's statements at this layer's regions (9: the matrix product, 10: the activation and its column
    statistics, 11: the normalisation), stretches (hostOps10: the aggregation over the edges, hostOps11: mean and
    variance) and buffers.  X is the layer's input, the contents of main_v110 at the layer's entry. -/

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx
open Cert.KernelIdeal.RegVal (mm9 bn11 final9 finalB11)
open Cert.ReferenceIdeal.HandRun (srcIdx dstIdx edgeNorm agg4 Keeps KeepsOutside)

/-! ## The host stretches, from any contents -/

section Stretches
variable {F : FTy → Type} [FloatOps F] (V : Valuation τ sig (Elt F))

set_option maxHeartbeats 4000000

theorem h10_v124 : after hostOps10 V (main_v124 : DevRef τ sig)
    = agg4 (F := F) (V (main_v111 : DevRef τ sig)) (V (main_v35 : DevRef τ sig)) (V (main_v4 : DevRef τ sig)) (V (main_v7 : DevRef τ sig)) := by
  simp only [hostOps10]
  after_results_simp
  rfl

theorem h10_v125 : after hostOps10 V (main_v125 : DevRef τ sig)
    = shapeCast S1x128 (V (main_arg16 : DevRef τ sig)) shapeCasts_S128_S1x128 := by
  simp only [hostOps10]
  after_results_simp
  rfl

/-- The 50000-word spread over a one-row array of 128. -/
def countRow4 : FVec F S1x128 .f32 := broadcastInDim S1x128 ![] bcast_S_S1x128 (constant (F := F) S_ .f32 0x47435000#32)

theorem h11_v128 : after hostOps11 V (main_v128 : DevRef τ sig) = Host.divf (F := F) (V (main_v126_1 : DevRef τ sig)) (countRow4 (F := F)) := by
  simp only [hostOps11]
  after_results_simp
  rfl

theorem h11_v132 : after hostOps11 V (main_v132 : DevRef τ sig)
    = subf (Host.divf (F := F) (V (main_v126_2 : DevRef τ sig)) (countRow4 (F := F)))
        (mulf (Host.divf (F := F) (V (main_v126_1 : DevRef τ sig)) (countRow4 (F := F))) (Host.divf (F := F) (V (main_v126_1 : DevRef τ sig)) (countRow4 (F := F)))) := by
  simp only [hostOps11]
  after_results_simp
  rfl

theorem h11_v133 : after hostOps11 V (main_v133 : DevRef τ sig) = shapeCast S1x128 (V (main_arg17 : DevRef τ sig)) shapeCasts_S128_S1x128 := by
  simp only [hostOps11]
  after_results_simp
  rfl

theorem h11_v134 : after hostOps11 V (main_v134 : DevRef τ sig) = shapeCast S1x128 (V (main_arg18 : DevRef τ sig)) shapeCasts_S128_S1x128 := by
  simp only [hostOps11]
  after_results_simp
  rfl

end Stretches

/-! ## The boundaries W20 … W25 -/

variable (m : (ℓ : Loc nD τ sig) → Buf (Elt Ideal) ℓ) (ρ : Dev nD → PrngReg) (c : Dev nD)

theorem W21_keep (r : Ref sig .tc) (h : ∀ w, Pipeline.arrRef spec9 w ≠ r) :
    W21 m ρ c (Proc.devRef .tc r) = W20 m ρ c (Proc.devRef .tc r) := W21_of_ne m ρ c r h
theorem W22_keep (r : Ref sig .tc) (h : r ∉ hostOps10_W) : W22 m ρ c (Proc.devRef .tc r) = W21 m ρ c (Proc.devRef .tc r) :=
  hostOps10_keeps r h _
theorem W23_keep (r : Ref sig .tc) (h : ∀ w, Pipeline.arrRef spec10 w ≠ r) :
    W23 m ρ c (Proc.devRef .tc r) = W22 m ρ c (Proc.devRef .tc r) := W23_of_ne m ρ c r h
theorem W24_keep (r : Ref sig .tc) (h : r ∉ hostOps11_W) : W24 m ρ c (Proc.devRef .tc r) = W23 m ρ c (Proc.devRef .tc r) :=
  hostOps11_keeps r h _
theorem W25_keep (r : Ref sig .tc) (h : ∀ w, Pipeline.arrRef spec11 w ≠ r) :
    W25 m ρ c (Proc.devRef .tc r) = W24 m ρ c (Proc.devRef .tc r) := W25_of_ne m ρ c r h

/-- A buffer none of this layer's stretches and regions writes is at its exit what it was at its entry. -/
theorem W25_of_W20 (r : Ref sig .tc) (h0 : ∀ w, Pipeline.arrRef spec9 w ≠ r) (h1 : r ∉ hostOps10_W)
    (h2 : ∀ w, Pipeline.arrRef spec10 w ≠ r) (h3 : r ∉ hostOps11_W) (h4 : ∀ w, Pipeline.arrRef spec11 w ≠ r) :
    W25 m ρ c (Proc.devRef .tc r) = W20 m ρ c (Proc.devRef .tc r) :=
  (W25_keep m ρ c r h4).trans ((W24_keep m ρ c r h3).trans ((W23_keep m ρ c r h2).trans ((W22_keep m ρ c r h1).trans (W21_keep m ρ c r h0))))

/-- … and as launched if it was so at the entry. -/
theorem W25_of_launch (r : Ref sig .tc) (h : W20 m ρ c (Proc.devRef .tc r) = W0 m ρ c (Proc.devRef .tc r))
    (h0 : ∀ w, Pipeline.arrRef spec9 w ≠ r) (h1 : r ∉ hostOps10_W)
    (h2 : ∀ w, Pipeline.arrRef spec10 w ≠ r) (h3 : r ∉ hostOps11_W) (h4 : ∀ w, Pipeline.arrRef spec11 w ≠ r) :
    W25 m ρ c (Proc.devRef .tc r) = W0 m ρ c (Proc.devRef .tc r) :=
  (W25_of_W20 m ρ c r h0 h1 h2 h3 h4).trans h

/-- The layer's four parameter arrays are as launched at its entry. -/
theorem W20_arg15 : W20 m ρ c (main_arg15 : DevRef τ sig) = m ((c : Thread nD τ).loc main_arg15) := W20_of_launch m ρ c main_arg15 (W15_of_launch m ρ c main_arg15 (W10_of_launch m ρ c main_arg15 (by decide) (by decide) (by decide) (by decide) (by decide) (by decide)) (by decide) (by decide) (by decide) (by decide) (by decide)) (by decide) (by decide) (by decide) (by decide) (by decide)
theorem W20_arg16 : W20 m ρ c (main_arg16 : DevRef τ sig) = m ((c : Thread nD τ).loc main_arg16) := W20_of_launch m ρ c main_arg16 (W15_of_launch m ρ c main_arg16 (W10_of_launch m ρ c main_arg16 (by decide) (by decide) (by decide) (by decide) (by decide) (by decide)) (by decide) (by decide) (by decide) (by decide) (by decide)) (by decide) (by decide) (by decide) (by decide) (by decide)
theorem W20_arg17 : W20 m ρ c (main_arg17 : DevRef τ sig) = m ((c : Thread nD τ).loc main_arg17) := W20_of_launch m ρ c main_arg17 (W15_of_launch m ρ c main_arg17 (W10_of_launch m ρ c main_arg17 (by decide) (by decide) (by decide) (by decide) (by decide) (by decide)) (by decide) (by decide) (by decide) (by decide) (by decide)) (by decide) (by decide) (by decide) (by decide) (by decide)
theorem W20_arg18 : W20 m ρ c (main_arg18 : DevRef τ sig) = m ((c : Thread nD τ).loc main_arg18) := W20_of_launch m ρ c main_arg18 (W15_of_launch m ρ c main_arg18 (W10_of_launch m ρ c main_arg18 (by decide) (by decide) (by decide) (by decide) (by decide) (by decide)) (by decide) (by decide) (by decide) (by decide) (by decide)) (by decide) (by decide) (by decide) (by decide) (by decide)

/-- Region 9 leaves the product of the layer's input and its weights in main_v111. -/
theorem W21_v111 (X : S50000x128.Idx → EReal) (hX : W20 m ρ c (main_v110 : DevRef τ sig) = X) :
    W21 m ρ c (main_v111 : DevRef τ sig) = mm9 X (m ((c : Thread nD τ).loc main_arg15)) :=
  (W21_arr m ρ c 2).trans (final9 (V20 m ρ) c X _ hX (W20_arg15 m ρ c))

/-- At region 10's entry main_v124 is the aggregate of that product over the edges … -/
theorem W22_v124 (X : S50000x128.Idx → EReal) (hX : W20 m ρ c (main_v110 : DevRef τ sig) = X) :
    W22 m ρ c (main_v124 : DevRef τ sig)
      = agg4 (F := Ideal) (mm9 X (m ((c : Thread nD τ).loc main_arg15)))
          (edgeNorm (F := Ideal) (m ((c : Thread nD τ).loc main_arg1)) (m ((c : Thread nD τ).loc main_arg2)))
          (srcIdx (m ((c : Thread nD τ).loc main_arg1))) (dstIdx (m ((c : Thread nD τ).loc main_arg1))) :=
  (h10_v124 (W21 m ρ c)).trans (by
    rw [W21_v111 m ρ c X hX, W21_keep m ρ c main_v35 (by decide), W21_keep m ρ c main_v4 (by decide), W21_keep m ρ c main_v7 (by decide),
      W20_v35 m ρ c, W20_v4 m ρ c, W20_v7 m ρ c])

/-- … and main_v125 the layer's bias as a one-row array. -/
theorem W22_v125 : W22 m ρ c (main_v125 : DevRef τ sig)
    = shapeCast S1x128 (m ((c : Thread nD τ).loc main_arg16)) shapeCasts_S128_S1x128 :=
  (h10_v125 (W21 m ρ c)).trans (by rw [W21_keep m ρ c main_arg16 (by decide), W20_arg16 m ρ c])

/-- Region 10's three outputs hold what its pipeline leaves (windows 2, 3, 4; its inputs, windows 0 and 1, are main_v124 and
    main_v125 as the two statements above give them). -/
theorem W23_v126_0 (Y : S50000x128.Idx → EReal) (h : (dat10 (V22 m ρ) c).arrAt 2 cfg10.N = Y) :
    W23 m ρ c (main_v126_0 : DevRef τ sig) = Y := (W23_arr m ρ c 2).trans h
theorem W23_v126_1 (Y : S1x128.Idx → EReal) (h : (dat10 (V22 m ρ) c).arrAt 3 cfg10.N = Y) :
    W23 m ρ c (main_v126_1 : DevRef τ sig) = Y := (W23_arr m ρ c 3).trans h
theorem W23_v126_2 (Y : S1x128.Idx → EReal) (h : (dat10 (V22 m ρ) c).arrAt 4 cfg10.N = Y) :
    W23 m ρ c (main_v126_2 : DevRef τ sig) = Y := (W23_arr m ρ c 4).trans h

/-- At region 11's entry, with S1 the column sums and S2 the column sums of squares region 10 left: the mean … -/
theorem W24_v128 (S1 : S1x128.Idx → EReal) (h1 : W23 m ρ c (main_v126_1 : DevRef τ sig) = S1) :
    W24 m ρ c (main_v128 : DevRef τ sig) = Host.divf (F := Ideal) S1 (countRow4 (F := Ideal)) :=
  (h11_v128 (W23 m ρ c)).trans (by rw [h1])

/-- … the variance … -/
theorem W24_v132 (S1 S2 : S1x128.Idx → EReal) (h1 : W23 m ρ c (main_v126_1 : DevRef τ sig) = S1)
    (h2 : W23 m ρ c (main_v126_2 : DevRef τ sig) = S2) :
    W24 m ρ c (main_v132 : DevRef τ sig)
      = subf (Host.divf (F := Ideal) S2 (countRow4 (F := Ideal)))
          (mulf (Host.divf (F := Ideal) S1 (countRow4 (F := Ideal))) (Host.divf (F := Ideal) S1 (countRow4 (F := Ideal)))) :=
  (h11_v132 (W23 m ρ c)).trans (by rw [h1, h2])

/-- … the scale and the shift as one-row arrays … -/
theorem W24_v133 : W24 m ρ c (main_v133 : DevRef τ sig) = shapeCast S1x128 (m ((c : Thread nD τ).loc main_arg17)) shapeCasts_S128_S1x128 :=
  (h11_v133 (W23 m ρ c)).trans (by
    rw [W23_keep m ρ c main_arg17 (by decide), W22_keep m ρ c main_arg17 (by decide), W21_keep m ρ c main_arg17 (by decide), W20_arg17 m ρ c])
theorem W24_v134 : W24 m ρ c (main_v134 : DevRef τ sig) = shapeCast S1x128 (m ((c : Thread nD τ).loc main_arg18)) shapeCasts_S128_S1x128 :=
  (h11_v134 (W23 m ρ c)).trans (by
    rw [W23_keep m ρ c main_arg18 (by decide), W22_keep m ρ c main_arg18 (by decide), W21_keep m ρ c main_arg18 (by decide), W20_arg18 m ρ c])

/-- … and the activation region 10 left is still there. -/
theorem W24_v126_0 (A : S50000x128.Idx → EReal) (hA : W23 m ρ c (main_v126_0 : DevRef τ sig) = A) :
    W24 m ρ c (main_v126_0 : DevRef τ sig) = A := (W24_keep m ρ c main_v126_0 (by decide)).trans hA

/-- Region 11 leaves the normalised activation in main_v135: with A the activation and S1, S2 its column sums and column
    sums of squares (region 10's three outputs), bn11 of A, the mean S1 / 50000, the variance S2 / 50000 − mean², and the
    scale and shift rows. -/
theorem W25_v135 (A : S50000x128.Idx → EReal) (S1 S2 : S1x128.Idx → EReal)
    (hA : W23 m ρ c (main_v126_0 : DevRef τ sig) = A) (h1 : W23 m ρ c (main_v126_1 : DevRef τ sig) = S1)
    (h2 : W23 m ρ c (main_v126_2 : DevRef τ sig) = S2) :
    W25 m ρ c (main_v135 : DevRef τ sig)
      = bn11 A (Host.divf (F := Ideal) S1 (countRow4 (F := Ideal)))
          (subf (Host.divf (F := Ideal) S2 (countRow4 (F := Ideal)))
            (mulf (Host.divf (F := Ideal) S1 (countRow4 (F := Ideal))) (Host.divf (F := Ideal) S1 (countRow4 (F := Ideal)))))
          (shapeCast S1x128 (m ((c : Thread nD τ).loc main_arg17)) shapeCasts_S128_S1x128)
          (shapeCast S1x128 (m ((c : Thread nD τ).loc main_arg18)) shapeCasts_S128_S1x128) :=
  (W25_arr m ρ c 5).trans (finalB11 (V24 m ρ) c _ _ _ _ _ (W24_v126_0 m ρ c A hA) (W24_v128 m ρ c S1 h1)
    (W24_v132 m ρ c S1 S2 h1 h2) (W24_v133 m ρ c) (W24_v134 m ρ c))

/-- At the next layer's entry the graph buffers are still the prelude's. -/
theorem W25_v4 : W25 m ρ c (main_v4 : DevRef τ sig) = srcIdx (m ((c : Thread nD τ).loc main_arg1)) :=
  (W25_of_W20 m ρ c main_v4 (by decide) (by decide) (by decide) (by decide) (by decide)).trans (W20_v4 m ρ c)
theorem W25_v7 : W25 m ρ c (main_v7 : DevRef τ sig) = dstIdx (m ((c : Thread nD τ).loc main_arg1)) :=
  (W25_of_W20 m ρ c main_v7 (by decide) (by decide) (by decide) (by decide) (by decide)).trans (W20_v7 m ρ c)
theorem W25_v35 : W25 m ρ c (main_v35 : DevRef τ sig)
    = edgeNorm (F := Ideal) (m ((c : Thread nD τ).loc main_arg1)) (m ((c : Thread nD τ).loc main_arg2)) :=
  (W25_of_W20 m ρ c main_v35 (by decide) (by decide) (by decide) (by decide) (by decide)).trans (W20_v35 m ρ c)

end Cert.KernelIdeal.Chain

end
-- ==== Proof.RegMM12.lean ====
/-
  Region 12: the fifth layer's feature transform. The 50000-row input is cut into 25 blocks of 2000 rows; at each grid point the kernel
  multiplies one block by the whole 128×256 weight matrix and writes the 2000×256 product to the same rows of the
  output. A row of the product depends only on the same row of the input, so the blocks are the restrictions of
  one whole-array function: entry (r, j) of the output is the sum over k of X(r, k) · W(k, j), and the 25 blocks tile
  the 50000 rows.
-/
import proofs.«107715_j23149873725632_1_alg».proof.Proof.Gen.KernelIdeal.Frame
import proofs.«107715_j23149873725632_1_alg».proof.Proof.LibMatmul2D
import Idealize.ShloMosaic.Lib.Pipeline.Value
import Idealize.ShloMosaic.Lib.ValueIdx

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2_12 : (![0, 0] : Fin 2 → Nat) = fun _ => 0 := funext fun a => by fin_cases a <;> rfl

/-- Rows of `X` against columns of `Wt`: entry (r, j) is the sum over k of X(r, k) · Wt(k, j). -/
def mm12 (X : S50000x128.Idx → EReal) (Wt : S128x256.Idx → EReal) : S50000x256.Idx → EReal :=
  fun i => ∑ k : Fin 128, X (ix2 (i 0) k) * Wt (ix2 k (i 1))

/-- The body's one store at an entry of the block: the matrix product into the zero accumulator, the two changes
    of float format being the identity on the extended reals. -/
theorem pay12 (x0 : Vec Ideal S2000x128 .f32) (x1 : Vec Ideal S128x256 .f32) (p : Fin 2000) (q : Fin 256) :
    k12_pay1 x0 x1 (ix2 p q) = ∑ k : Fin 128, x0 (ix2 p k) * x1 (ix2 k q) := by
  unfold k12_pay1
  try simp only [shapeCast_self]
  exact Cert.LibMatmul2D.rows_cols _ none _ _ p q

/-- The index maps over the 25 grid points: the row block moves with the point, the weight block stays. -/
theorem idx12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

set_option maxHeartbeats 1000000 in
/-- What point `t` writes back is block `t` of the whole product (the two input arrays named `X` and `Wt`). -/
theorem flushed12 (c : Dev nD) (t : Fin cfg12.N) (X : S50000x128.Idx → EReal) (Wt : S128x256.Idx → EReal)
    (hX : V c (Pipeline.arrRef spec12 0) = X) (hW : V c (Pipeline.arrRef spec12 1) = Wt) :
    (dat12 V c).flushed 2 t = ((cfg12.win 2).blk t).view.read (Elt Ideal) (mm12 X Wt) := by
  have hb0 : iblk12 V c 0 t = ((cfg12.win 0).blk t).view.read (Elt Ideal) X := by unfold iblk12; rw [hX]
  have hb1 : iblk12 V c 1 t = ((cfg12.win 1).blk t).view.read (Elt Ideal) Wt := by unfold iblk12; rw [hW]
  show (cfg12.win 2).cut (grid12.coords t) ((dat12 V c).after 2 t) = _
  rw [after12_2, hb0, hb1]
  unfold out12_2
  rw [View.canon_unit_zero hz2_12]
  simp only [View.ld_unit_zero (S := S2000x128) hz2_12, View.ld_unit_zero (S := S128x256) hz2_12]
  obtain ⟨e0, e1, e2, e3, e4, e5⟩ := idx12 t
  funext j
  obtain ⟨p, q, rfl⟩ : ∃ (p : Fin 2000) (q : Fin 256), j = ix2 p q := ⟨j 0, j 1, eq_ix2 j⟩
  refine (pay12 _ _ p q).trans ?_
  show ∑ k : Fin 128, X (((cfg12.win 0).blk t).view.emb (ix2 p k)) * Wt (((cfg12.win 1).blk t).view.emb (ix2 k q))
      = mm12 X Wt (((cfg12.win 2).blk t).view.emb (ix2 p q))
  unfold mm12
  refine Finset.sum_congr rfl fun k _ => ?_
  have h0 : ((cfg12.win 0).blk t).view.emb (ix2 p k) = ix2 ((((cfg12.win 2).blk t).view.emb (ix2 p q)) 0) k := by
    funext a; apply Fin.ext
    match a with
    | ⟨0, _⟩ => show win12_0.index t (0 : Fin 2) * 2000 + 1 * p.val = win12_2.index t (0 : Fin 2) * 2000 + 1 * p.val; omega
    | ⟨1, _⟩ => show win12_0.index t (1 : Fin 2) * 128 + 1 * k.val = k.val; omega
  have h1 : ((cfg12.win 1).blk t).view.emb (ix2 k q) = ix2 k ((((cfg12.win 2).blk t).view.emb (ix2 p q)) 1) := by
    funext a; apply Fin.ext
    match a with
    | ⟨0, _⟩ => show win12_1.index t (0 : Fin 2) * 128 + 1 * k.val = k.val; omega
    | ⟨1, _⟩ => show win12_1.index t (1 : Fin 2) * 256 + 1 * q.val = win12_2.index t (1 : Fin 2) * 256 + 1 * q.val; omega
  exact congrArg₂ (· * ·) (congrArg X h0) (congrArg Wt h1)

/-- An index of the output array is in point `t`'s block iff each coordinate is in the block's range on its axis. -/
theorem mem_blk12 (t : Fin cfg12.N) (i : S50000x256.Idx) :
    i ∈ ((cfg12.win 2).blk t).view.set ↔ ∀ a : Fin 2, win12_2.index t a * S2000x256.size a ≤ (i a).val
      ∧ (i a).val < win12_2.index t a * S2000x256.size a + S2000x256.size a := by
  show i ∈ ((View.whole main_v136).slice (win12_2.rect t)).set ↔ _
  rw [View.set_slice_whole, Rect.mem_set_unit]
  exact Iff.rfl

/-- Every block of rows is some point's. -/
theorem idx_onto12 : ∀ q0 : Fin 25, ∃ t : Fin cfg12.N, win12_2.index t = ![q0.val, 0] :=
  (by decide +kernel : ∀ q0 : Fin 25, ∃ t : Fin grid12.N, win12_2.index t = ![q0.val, 0])

/-- The 25 blocks of 2000 rows tile the 50000 rows: row r is in block r / 2000. -/
theorem cover12 (i : S50000x256.Idx) :
    ∃ t : Fin cfg12.N, (cfg12.win 2).flush t = true ∧ i ∈ ((cfg12.win 2).blk t).view.set := by
  have hi0 : (i 0).val < 50000 := (i 0).isLt
  have hi1 : (i 1).val < 256 := (i 1).isLt
  obtain ⟨t, ht⟩ := idx_onto12 ⟨(i 0).val / 2000, by omega⟩
  have q0 : win12_2.index t (0 : Fin 2) = (i 0).val / 2000 := congrFun ht 0
  have q1 : win12_2.index t (1 : Fin 2) = 0 := congrFun ht 1
  refine ⟨t, flush12_2 t, ?_⟩
  rw [mem_blk12]
  intro a
  match a with
  | ⟨0, _⟩ => show win12_2.index t (0 : Fin 2) * 2000 ≤ (i 0).val ∧ (i 0).val < win12_2.index t (0 : Fin 2) * 2000 + 2000; omega
  | ⟨1, _⟩ => show win12_2.index t (1 : Fin 2) * 256 ≤ (i 1).val ∧ (i 1).val < win12_2.index t (1 : Fin 2) * 256 + 256; omega

/-- After the region the output array holds the whole product of the two input arrays as the region found them. -/
theorem final12 (c : Dev nD) (X : S50000x128.Idx → EReal) (Wt : S128x256.Idx → EReal)
    (hX : V c (Pipeline.arrRef spec12 0) = X) (hW : V c (Pipeline.arrRef spec12 1) = Wt) :
    (dat12 V c).arrAt 2 cfg12.N = mm12 X Wt :=
  (dat12 V c).arrAt_eq_of_cover 2 _ (fun t _ => flushed12 V c t X Wt hX hW) cover12

end Cert.KernelIdeal.RegVal

end
-- ==== Proof.RegBN14.lean ====
/-
  Region 14: the fifth layer's normalisation, followed by the rectifier. The activations (50000 rows, 256 columns) are cut into 25 blocks of 2000 rows; the column
  mean, the column variance, the scale and the shift are 256-entry rows every point reads whole. At each entry the
  kernel computes scale · (a − mean) · (variance + ε)^(−1/2) + shift, then the maximum with zero: entry (r, j) of the output
  depends on entry (r, j) of the activations and on column j of the four rows only, so the blocks are the
  restrictions of one whole-array function and the 25 blocks tile the 50000 rows.
-/
import proofs.«107715_j23149873725632_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hzB_14 : (![0, 0] : Fin 2 → Nat) = fun _ => 0 := funext fun a => by fin_cases a <;> rfl

/-- The stabilising constant ε as the body's float word reads on the extended reals. -/
def epsW14 : EReal := Scalar.ofBits (F := Ideal) .f32 0x3727C5AC#32
/-- The zero word. -/
def zeroW14 : EReal := Scalar.ofBits (F := Ideal) .f32 0x00000000#32

/-- The normalisation, entry by entry: scale · (a − mean) · (variance + ε)^(−1/2) + shift, clipped below at zero, the four rows read at the
    entry's column. -/
def bn14 (A : S50000x256.Idx → EReal) (Mn Vr G Be : S1x256.Idx → EReal) : S50000x256.Idx → EReal :=
  fun i => max (G (ix2 (0 : Fin 1) (i 1)) * (A i - Mn (ix2 (0 : Fin 1) (i 1))) * Ideal.rsqrt (Vr (ix2 (0 : Fin 1) (i 1)) + epsW14) + Be (ix2 (0 : Fin 1) (i 1))) zeroW14

/-- The body's one store at an entry of the block. -/
theorem payB14 (x0 : Vec Ideal S2000x256 .f32) (g mn vr be : Vec Ideal S1x256 .f32) (p : Fin 2000) (q : Fin 256) :
    k14_pay1 x0 g mn vr be (ix2 p q)
      = max (g (ix2 (0 : Fin 1) q) * (x0 (ix2 p q) - mn (ix2 (0 : Fin 1) q)) * Ideal.rsqrt (vr (ix2 (0 : Fin 1) q) + epsW14) + be (ix2 (0 : Fin 1) q)) zeroW14 := by
  unfold k14_pay1
  simp only [shapeCast_self, addf, mulf, subf, rsqrt, maximumf, broadcast, broadcastTo_1b_ab_apply,
    Ideal.addf_def, Ideal.mulf_def, Ideal.subf_def, Ideal.rsqrt_def, Ideal.maximumf_def, epsW14, zeroW14]

/-- The index maps over the 25 grid points: the row blocks move with the point, the four rows stay. -/
theorem idxB14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

set_option maxHeartbeats 1000000 in
/-- What point `t` writes back is block `t` of the whole normalised array (the five input arrays named). -/
theorem flushedB14 (c : Dev nD) (t : Fin cfg14.N) (A : S50000x256.Idx → EReal) (Mn Vr G Be : S1x256.Idx → EReal)
    (hA : V c (Pipeline.arrRef spec14 0) = A) (hM : V c (Pipeline.arrRef spec14 1) = Mn)
    (hV : V c (Pipeline.arrRef spec14 2) = Vr) (hG : V c (Pipeline.arrRef spec14 3) = G)
    (hB : V c (Pipeline.arrRef spec14 4) = Be) :
    (dat14 V c).flushed 5 t = ((cfg14.win 5).blk t).view.read (Elt Ideal) (bn14 A Mn Vr G Be) := by
  have hb0 : iblk14 V c 0 t = ((cfg14.win 0).blk t).view.read (Elt Ideal) A := by unfold iblk14; rw [hA]
  have hb1 : iblk14 V c 1 t = ((cfg14.win 1).blk t).view.read (Elt Ideal) Mn := by unfold iblk14; rw [hM]
  have hb2 : iblk14 V c 2 t = ((cfg14.win 2).blk t).view.read (Elt Ideal) Vr := by unfold iblk14; rw [hV]
  have hb3 : iblk14 V c 3 t = ((cfg14.win 3).blk t).view.read (Elt Ideal) G := by unfold iblk14; rw [hG]
  have hb4 : iblk14 V c 4 t = ((cfg14.win 4).blk t).view.read (Elt Ideal) Be := by unfold iblk14; rw [hB]
  show (cfg14.win 5).cut (grid14.coords t) ((dat14 V c).after 5 t) = _
  rw [after14_5, hb0, hb1, hb2, hb3, hb4]
  unfold out14_5
  rw [View.canon_unit_zero hzB_14]
  simp only [View.ld_unit_zero (S := S2000x256) hzB_14, View.ld_unit_zero (S := S1x256) hzB_14]
  obtain ⟨e0, e1, e2, e3, e4, e5, e6, e7, e8, e9, e10, e11⟩ := idxB14 t
  funext j
  obtain ⟨p, q, rfl⟩ : ∃ (p : Fin 2000) (q : Fin 256), j = ix2 p q := ⟨j 0, j 1, eq_ix2 j⟩
  refine (payB14 _ _ _ _ _ p q).trans ?_
  have h0 : ((cfg14.win 0).blk t).view.emb (ix2 p q) = ((cfg14.win 5).blk t).view.emb (ix2 p q) := by
    funext a; apply Fin.ext
    match a with
    | ⟨0, _⟩ => show win14_0.index t (0 : Fin 2) * 2000 + 1 * p.val = win14_5.index t (0 : Fin 2) * 2000 + 1 * p.val; omega
    | ⟨1, _⟩ => show win14_0.index t (1 : Fin 2) * 256 + 1 * q.val = win14_5.index t (1 : Fin 2) * 256 + 1 * q.val; omega
  have h1 : ((cfg14.win 1).blk t).view.emb (ix2 (0 : Fin 1) q) = ix2 (0 : Fin 1) ((((cfg14.win 5).blk t).view.emb (ix2 p q)) 1) := by
    funext a; apply Fin.ext
    match a with
    | ⟨0, _⟩ => show win14_1.index t (0 : Fin 2) * 1 + 1 * 0 = 0; omega
    | ⟨1, _⟩ => show win14_1.index t (1 : Fin 2) * 256 + 1 * q.val = win14_5.index t (1 : Fin 2) * 256 + 1 * q.val; omega
  have h2 : ((cfg14.win 2).blk t).view.emb (ix2 (0 : Fin 1) q) = ix2 (0 : Fin 1) ((((cfg14.win 5).blk t).view.emb (ix2 p q)) 1) := by
    funext a; apply Fin.ext
    match a with
    | ⟨0, _⟩ => show win14_2.index t (0 : Fin 2) * 1 + 1 * 0 = 0; omega
    | ⟨1, _⟩ => show win14_2.index t (1 : Fin 2) * 256 + 1 * q.val = win14_5.index t (1 : Fin 2) * 256 + 1 * q.val; omega
  have h3 : ((cfg14.win 3).blk t).view.emb (ix2 (0 : Fin 1) q) = ix2 (0 : Fin 1) ((((cfg14.win 5).blk t).view.emb (ix2 p q)) 1) := by
    funext a; apply Fin.ext
    match a with
    | ⟨0, _⟩ => show win14_3.index t (0 : Fin 2) * 1 + 1 * 0 = 0; omega
    | ⟨1, _⟩ => show win14_3.index t (1 : Fin 2) * 256 + 1 * q.val = win14_5.index t (1 : Fin 2) * 256 + 1 * q.val; omega
  have h4 : ((cfg14.win 4).blk t).view.emb (ix2 (0 : Fin 1) q) = ix2 (0 : Fin 1) ((((cfg14.win 5).blk t).view.emb (ix2 p q)) 1) := by
    funext a; apply Fin.ext
    match a with
    | ⟨0, _⟩ => show win14_4.index t (0 : Fin 2) * 1 + 1 * 0 = 0; omega
    | ⟨1, _⟩ => show win14_4.index t (1 : Fin 2) * 256 + 1 * q.val = win14_5.index t (1 : Fin 2) * 256 + 1 * q.val; omega
  show max (G (((cfg14.win 3).blk t).view.emb (ix2 (0 : Fin 1) q)) * (A (((cfg14.win 0).blk t).view.emb (ix2 p q)) - Mn (((cfg14.win 1).blk t).view.emb (ix2 (0 : Fin 1) q))) * Ideal.rsqrt (Vr (((cfg14.win 2).blk t).view.emb (ix2 (0 : Fin 1) q)) + epsW14) + Be (((cfg14.win 4).blk t).view.emb (ix2 (0 : Fin 1) q))) zeroW14
      = bn14 A Mn Vr G Be (((cfg14.win 5).blk t).view.emb (ix2 p q))
  unfold bn14
  rw [congrArg A h0, congrArg Mn h1, congrArg Vr h2, congrArg G h3, congrArg Be h4]
  rfl

/-- An index of the output array is in point `t`'s block iff each coordinate is in the block's range on its axis. -/
theorem mem_blkB14 (t : Fin cfg14.N) (i : S50000x256.Idx) :
    i ∈ ((cfg14.win 5).blk t).view.set ↔ ∀ a : Fin 2, win14_5.index t a * S2000x256.size a ≤ (i a).val
      ∧ (i a).val < win14_5.index t a * S2000x256.size a + S2000x256.size a := by
  show i ∈ ((View.whole main_v160).slice (win14_5.rect t)).set ↔ _
  rw [View.set_slice_whole, Rect.mem_set_unit]
  exact Iff.rfl

/-- Every block of rows is some point's. -/
theorem idx_ontoB14 : ∀ q0 : Fin 25, ∃ t : Fin cfg14.N, win14_5.index t = ![q0.val, 0] :=
  (by decide +kernel : ∀ q0 : Fin 25, ∃ t : Fin grid14.N, win14_5.index t = ![q0.val, 0])

/-- The 25 blocks of 2000 rows tile the 50000 rows: row r is in block r / 2000. -/
theorem coverB14 (i : S50000x256.Idx) :
    ∃ t : Fin cfg14.N, (cfg14.win 5).flush t = true ∧ i ∈ ((cfg14.win 5).blk t).view.set := by
  have hi0 : (i 0).val < 50000 := (i 0).isLt
  have hi1 : (i 1).val < 256 := (i 1).isLt
  obtain ⟨t, ht⟩ := idx_ontoB14 ⟨(i 0).val / 2000, by omega⟩
  have q0 : win14_5.index t (0 : Fin 2) = (i 0).val / 2000 := congrFun ht 0
  have q1 : win14_5.index t (1 : Fin 2) = 0 := congrFun ht 1
  refine ⟨t, flush14_5 t, ?_⟩
  rw [mem_blkB14]
  intro a
  match a with
  | ⟨0, _⟩ => show win14_5.index t (0 : Fin 2) * 2000 ≤ (i 0).val ∧ (i 0).val < win14_5.index t (0 : Fin 2) * 2000 + 2000; omega
  | ⟨1, _⟩ => show win14_5.index t (1 : Fin 2) * 256 ≤ (i 1).val ∧ (i 1).val < win14_5.index t (1 : Fin 2) * 256 + 256; omega

/-- After the region the output array holds the normalised activations. -/
theorem finalB14 (c : Dev nD) (A : S50000x256.Idx → EReal) (Mn Vr G Be : S1x256.Idx → EReal)
    (hA : V c (Pipeline.arrRef spec14 0) = A) (hM : V c (Pipeline.arrRef spec14 1) = Mn)
    (hV : V c (Pipeline.arrRef spec14 2) = Vr) (hG : V c (Pipeline.arrRef spec14 3) = G)
    (hB : V c (Pipeline.arrRef spec14 4) = Be) :
    (dat14 V c).arrAt 5 cfg14.N = bn14 A Mn Vr G Be :=
  (dat14 V c).arrAt_eq_of_cover 5 _ (fun t _ => flushedB14 V c t A Mn Vr G Be hA hM hV hG hB) coverB14

end Cert.KernelIdeal.RegVal

end
-- ==== Proof.RefOpsRead5.lean ====
import proofs.«107715_j23149873725632_1_alg».proof.Proof.RefOpsRead1

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! Stage 5 (graph-convolution layer 5, width 128 to 256) read back, in the sub-stages of RefOpsRead1.lean:
    (a) the matrix product, (b) the aggregate over the edges, (c) the pre-activation, (d) the column mean and
    variance of the pre-activation over the 50000 rows, (e) the normalisation, and then the rectification.  The definitions are layer 1's at this
    layer's shapes (wrapIdx and varCount do not depend on the width and are layer 1's). -/

/-- (a) The layer's matrix product. -/
def lin5 (x : FVec F S50000x128 .f32) (w : FVec F S128x256 .f32) : FVec F S50000x256 .f32 :=
  Host.dotGeneral (F := F) dot_S50000x128_S128x256_S50000x256_1_0_0_1_n_n none x w

/-- (b) The aggregate: the rows of h at the source indices, each scaled by its edge weight, added up into the rows at
    the destination indices, from zero. -/
def agg5 (h : FVec F S50000x256 .f32) (wgt : FVec F S450000 .f32) (src dst : IVec S450000 32) : FVec F S50000x256 .f32 :=
  Host.scatterAdd (F := F) scatter_S50000x256_S450000x1_S450000x256_1_0_0_1
    (broadcastInDim S50000x256 ![] bcast_S_S50000x256 (constant (F := F) S_ .f32 0x00000000#32))
    (broadcastInDim S450000x1 ![0] bcast_S450000_S450000x1_0 dst)
    (mulf
      (broadcastInDim S450000x256 ![0, 1] bcast_S450000x1_S450000x256_0_1
        (broadcastInDim S450000x1 ![0] bcast_S450000_S450000x1_0 wgt))
      (Host.gather gather_S50000x256_S450000x1_S450000x256_1_0_n_n_0_1_1256 h (wrapIdx src)))

/-- A row vector repeated down the 50000 rows. -/
def rows5 (v : FVec F S256 .f32) : FVec F S50000x256 .f32 :=
  broadcastInDim S50000x256 ![0, 1] bcast_S1x256_S50000x256_0_1 (broadcastInDim S1x256 ![1] bcast_S256_S1x256_1 v)

/-- (c) The pre-activation: the aggregate plus the bias on every row. -/
def pre5 (a : FVec F S50000x256 .f32) (b : FVec F S256 .f32) : FVec F S50000x256 .f32 := addf a (rows5 b)

/-- The rectifier. -/
def relu5 (z : FVec F S50000x256 .f32) : FVec F S50000x256 .f32 :=
  maximumf z (broadcastInDim S50000x256 ![] bcast_S_S50000x256 (constant (F := F) S_ .f32 0x00000000#32))

/-- The column sums over the 50000 rows, from zero. -/
def colSum5 (y : FVec F S50000x256 .f32) : FVec F S256 .f32 :=
  Host.reduceAdd (F := F) y (constant (F := F) S_ .f32 0x00000000#32) reducesTo_S50000x256_S256_d0 h_S_

/-- (d) The column means: the column sums over 50000. -/
def mean5 (y : FVec F S50000x256 .f32) : FVec F S256 .f32 :=
  Host.divf (F := F) (colSum5 y) (broadcastInDim S256 ![] bcast_S_S256 (constant (F := F) S_ .f32 0x47435000#32))

/-- The rows less their column means, the means taken as the variance takes them (the sums as a row, over 50000). -/
def centered5 (y : FVec F S50000x256 .f32) : FVec F S50000x256 .f32 :=
  subf y
    (broadcastInDim S50000x256 ![0, 1] bcast_S1x256_S50000x256_0_1
      (Host.divf (F := F) (broadcastInDim S1x256 ![1] bcast_S256_S1x256_1 (colSum5 y))
        (broadcastInDim S1x256 ![] bcast_S_S1x256 (constant (F := F) S_ .f32 0x47435000#32))))

/-- (d) The column variances: the column sums of the squared centred rows over the count, where the count is positive
    (and the quiet NaN otherwise). -/
def var5 (y : FVec F S50000x256 .f32) : FVec F S256 .f32 :=
  select (broadcastInDim S256 ![] bcast_S_S256 (cmpf .ogt (varCount (F := F)) (constant (F := F) S_ .f32 0x00000000#32)))
    (Host.divf (F := F) (colSum5 (mulf (centered5 y) (centered5 y))) (broadcastInDim S256 ![] bcast_S_S256 (varCount (F := F))))
    (broadcastInDim S256 ![] bcast_S_S256 (id (constant (F := F) S_ .f32 0x7FC00000#32)))

/-- (e) The normalisation: γ · (y − μ) · rsqrt(σ² + 1e-5) + β, row by row. -/
def norm5 (y : FVec F S50000x256 .f32) (μ σ2 γ β : FVec F S256 .f32) : FVec F S50000x256 .f32 :=
  addf
    (mulf (mulf (rows5 γ) (subf y (rows5 μ)))
      (rows5 (Host.rsqrt (F := F) (addf σ2 (broadcastInDim S256 ![] bcast_S_S256 (constant (F := F) S_ .f32 0x3727C5AC#32))))))
    (rows5 β)

/-- The pre-activation of the layer, of the contents the stage starts from (this layer normalises it, then rectifies). -/
def act5 (x : FVec F S50000x128 .f32) (w : FVec F S128x256 .f32) (b : FVec F S256 .f32)
    (src dst : IVec S450000 32) (wgt : FVec F S450000 .f32) : FVec F S50000x256 .f32 :=
  pre5 (agg5 (lin5 x w) wgt src dst) b

/-- The normalised pre-activation. -/
def normed5 (x : FVec F S50000x128 .f32) (w : FVec F S128x256 .f32) (b γ β : FVec F S256 .f32)
    (src dst : IVec S450000 32) (wgt : FVec F S450000 .f32) : FVec F S50000x256 .f32 :=
  norm5 (act5 x w b src dst wgt) (mean5 (act5 x w b src dst wgt)) (var5 (act5 x w b src dst wgt)) γ β

/-- The whole layer. -/
def refLayer5 (x : FVec F S50000x128 .f32) (w : FVec F S128x256 .f32) (b γ β : FVec F S256 .f32)
    (src dst : IVec S450000 32) (wgt : FVec F S450000 .f32) : FVec F S50000x256 .f32 :=
  relu5 (normed5 x w b γ β src dst wgt)

section
variable (V : Valuation τ sig (Elt F))

-- the stage is 67 operations: one simp pass over the fold, one inequality of references per operation passed
set_option maxRecDepth 16384
set_option maxHeartbeats 4000000

theorem seg5_v184 : after seg5 V (main_v184 : DevRef τ sig)
    = lin5 (V (main_v183 : DevRef τ sig)) (V (main_arg19 : DevRef τ sig)) := by
  simp only [seg5, after_app, piece8, piece9]
  after_results_simp
  rfl

theorem seg5_v197 : after seg5 V (main_v197 : DevRef τ sig)
    = agg5 (lin5 (V (main_v183 : DevRef τ sig)) (V (main_arg19 : DevRef τ sig))) (V (main_v35 : DevRef τ sig))
        (V (main_v4 : DevRef τ sig)) (V (main_v7 : DevRef τ sig)) := by
  simp only [seg5, after_app, piece8, piece9]
  after_results_simp
  rfl

theorem seg5_v200 : after seg5 V (main_v200 : DevRef τ sig)
    = act5 (V (main_v183 : DevRef τ sig)) (V (main_arg19 : DevRef τ sig)) (V (main_arg20 : DevRef τ sig))
        (V (main_v4 : DevRef τ sig)) (V (main_v7 : DevRef τ sig)) (V (main_v35 : DevRef τ sig)) := by
  simp only [seg5, after_app, piece8, piece9]
  after_results_simp
  rfl

theorem seg5_v203 : after seg5 V (main_v203 : DevRef τ sig)
    = mean5 (act5 (V (main_v183 : DevRef τ sig)) (V (main_arg19 : DevRef τ sig)) (V (main_arg20 : DevRef τ sig))
        (V (main_v4 : DevRef τ sig)) (V (main_v7 : DevRef τ sig)) (V (main_v35 : DevRef τ sig))) := by
  simp only [seg5, after_app, piece8, piece9]
  after_results_simp
  rfl

theorem seg5_v204 : after seg5 V (main_v204 : DevRef τ sig)
    = var5 (act5 (V (main_v183 : DevRef τ sig)) (V (main_arg19 : DevRef τ sig)) (V (main_arg20 : DevRef τ sig))
        (V (main_v4 : DevRef τ sig)) (V (main_v7 : DevRef τ sig)) (V (main_v35 : DevRef τ sig))) := by
  simp only [seg5, after_app, piece8, piece9]
  after_results_simp
  rfl

theorem seg5_v219 : after seg5 V (main_v219 : DevRef τ sig)
    = normed5 (V (main_v183 : DevRef τ sig)) (V (main_arg19 : DevRef τ sig)) (V (main_arg20 : DevRef τ sig))
        (V (main_arg21 : DevRef τ sig)) (V (main_arg22 : DevRef τ sig))
        (V (main_v4 : DevRef τ sig)) (V (main_v7 : DevRef τ sig)) (V (main_v35 : DevRef τ sig)) := by
  simp only [seg5, after_app, piece8, piece9]
  after_results_simp
  rfl

/-- The stage's output, the only buffer of it a later stage reads. -/
theorem seg5_v220 : after seg5 V (main_v220 : DevRef τ sig)
    = refLayer5 (V (main_v183 : DevRef τ sig)) (V (main_arg19 : DevRef τ sig)) (V (main_arg20 : DevRef τ sig))
        (V (main_arg21 : DevRef τ sig)) (V (main_arg22 : DevRef τ sig))
        (V (main_v4 : DevRef τ sig)) (V (main_v7 : DevRef τ sig)) (V (main_v35 : DevRef τ sig)) := by
  simp only [seg5, after_app, piece8, piece9]
  after_results_simp
  rfl

end

end Cert.ReferenceIdeal.HandRun

end
-- ==== Proof.KerChain5.lean ====
import proofs.«107715_j23149873725632_1_alg».proof.Proof.Gen.KernelIdeal.Frame
import proofs.«107715_j23149873725632_1_alg».proof.Proof.KerChain4
import proofs.«107715_j23149873725632_1_alg».proof.Proof.RegMM12
import proofs.«107715_j23149873725632_1_alg».proof.Proof.RegBN14
import proofs.«107715_j23149873725632_1_alg».proof.Proof.RefOpsRead5

/-! The kernel program's buffer contents at the segment boundaries of its layer 5 (W25 … W30 of the generated frame):
    KerChain1.lean's statements at this layer's regions (12: the matrix product, 13: the activation and its column
    statistics, 14: the normalisation), stretches (hostOps13: the aggregation over the edges, hostOps14: mean and
    variance) and buffers.  X is the layer's input, the contents of main_v135 at the layer's entry. -/

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx
open Cert.KernelIdeal.RegVal (mm12 bn14 final12 finalB14)
open Cert.ReferenceIdeal.HandRun (srcIdx dstIdx edgeNorm agg5 Keeps KeepsOutside)

/-! ## The host stretches, from any contents -/

section Stretches
variable {F : FTy → Type} [FloatOps F] (V : Valuation τ sig (Elt F))

set_option maxHeartbeats 4000000

theorem h13_v149 : after hostOps13 V (main_v149 : DevRef τ sig)
    = agg5 (F := F) (V (main_v136 : DevRef τ sig)) (V (main_v35 : DevRef τ sig)) (V (main_v4 : DevRef τ sig)) (V (main_v7 : DevRef τ sig)) := by
  simp only [hostOps13]
  after_results_simp
  rfl

theorem h13_v150 : after hostOps13 V (main_v150 : DevRef τ sig)
    = shapeCast S1x256 (V (main_arg20 : DevRef τ sig)) shapeCasts_S256_S1x256 := by
  simp only [hostOps13]
  after_results_simp
  rfl

/-- The 50000-word spread over a one-row array of 256. -/
def countRow5 : FVec F S1x256 .f32 := broadcastInDim S1x256 ![] bcast_S_S1x256 (constant (F := F) S_ .f32 0x47435000#32)

theorem h14_v153 : after hostOps14 V (main_v153 : DevRef τ sig) = Host.divf (F := F) (V (main_v151_1 : DevRef τ sig)) (countRow5 (F := F)) := by
  simp only [hostOps14]
  after_results_simp
  rfl

theorem h14_v157 : after hostOps14 V (main_v157 : DevRef τ sig)
    = subf (Host.divf (F := F) (V (main_v151_2 : DevRef τ sig)) (countRow5 (F := F)))
        (mulf (Host.divf (F := F) (V (main_v151_1 : DevRef τ sig)) (countRow5 (F := F))) (Host.divf (F := F) (V (main_v151_1 : DevRef τ sig)) (countRow5 (F := F)))) := by
  simp only [hostOps14]
  after_results_simp
  rfl

theorem h14_v158 : after hostOps14 V (main_v158 : DevRef τ sig) = shapeCast S1x256 (V (main_arg21 : DevRef τ sig)) shapeCasts_S256_S1x256 := by
  simp only [hostOps14]
  after_results_simp
  rfl

theorem h14_v159 : after hostOps14 V (main_v159 : DevRef τ sig) = shapeCast S1x256 (V (main_arg22 : DevRef τ sig)) shapeCasts_S256_S1x256 := by
  simp only [hostOps14]
  after_results_simp
  rfl

end Stretches

/-! ## The boundaries W25 … W30 -/

variable (m : (ℓ : Loc nD τ sig) → Buf (Elt Ideal) ℓ) (ρ : Dev nD → PrngReg) (c : Dev nD)

theorem W26_keep (r : Ref sig .tc) (h : ∀ w, Pipeline.arrRef spec12 w ≠ r) :
    W26 m ρ c (Proc.devRef .tc r) = W25 m ρ c (Proc.devRef .tc r) := W26_of_ne m ρ c r h
theorem W27_keep (r : Ref sig .tc) (h : r ∉ hostOps13_W) : W27 m ρ c (Proc.devRef .tc r) = W26 m ρ c (Proc.devRef .tc r) :=
  hostOps13_keeps r h _
theorem W28_keep (r : Ref sig .tc) (h : ∀ w, Pipeline.arrRef spec13 w ≠ r) :
    W28 m ρ c (Proc.devRef .tc r) = W27 m ρ c (Proc.devRef .tc r) := W28_of_ne m ρ c r h
theorem W29_keep (r : Ref sig .tc) (h : r ∉ hostOps14_W) : W29 m ρ c (Proc.devRef .tc r) = W28 m ρ c (Proc.devRef .tc r) :=
  hostOps14_keeps r h _
theorem W30_keep (r : Ref sig .tc) (h : ∀ w, Pipeline.arrRef spec14 w ≠ r) :
    W30 m ρ c (Proc.devRef .tc r) = W29 m ρ c (Proc.devRef .tc r) := W30_of_ne m ρ c r h

/-- A buffer none of this layer's stretches and regions writes is at its exit what it was at its entry. -/
theorem W30_of_W25 (r : Ref sig .tc) (h0 : ∀ w, Pipeline.arrRef spec12 w ≠ r) (h1 : r ∉ hostOps13_W)
    (h2 : ∀ w, Pipeline.arrRef spec13 w ≠ r) (h3 : r ∉ hostOps14_W) (h4 : ∀ w, Pipeline.arrRef spec14 w ≠ r) :
    W30 m ρ c (Proc.devRef .tc r) = W25 m ρ c (Proc.devRef .tc r) :=
  (W30_keep m ρ c r h4).trans ((W29_keep m ρ c r h3).trans ((W28_keep m ρ c r h2).trans ((W27_keep m ρ c r h1).trans (W26_keep m ρ c r h0))))

/-- … and as launched if it was so at the entry. -/
theorem W30_of_launch (r : Ref sig .tc) (h : W25 m ρ c (Proc.devRef .tc r) = W0 m ρ c (Proc.devRef .tc r))
    (h0 : ∀ w, Pipeline.arrRef spec12 w ≠ r) (h1 : r ∉ hostOps13_W)
    (h2 : ∀ w, Pipeline.arrRef spec13 w ≠ r) (h3 : r ∉ hostOps14_W) (h4 : ∀ w, Pipeline.arrRef spec14 w ≠ r) :
    W30 m ρ c (Proc.devRef .tc r) = W0 m ρ c (Proc.devRef .tc r) :=
  (W30_of_W25 m ρ c r h0 h1 h2 h3 h4).trans h

/-- The layer's four parameter arrays are as launched at its entry. -/
theorem W25_arg19 : W25 m ρ c (main_arg19 : DevRef τ sig) = m ((c : Thread nD τ).loc main_arg19) := W25_of_launch m ρ c main_arg19 (W20_of_launch m ρ c main_arg19 (W15_of_launch m ρ c main_arg19 (W10_of_launch m ρ c main_arg19 (by decide) (by decide) (by decide) (by decide) (by decide) (by decide)) (by decide) (by decide) (by decide) (by decide) (by decide)) (by decide) (by decide) (by decide) (by decide) (by decide)) (by decide) (by decide) (by decide) (by decide) (by decide)
theorem W25_arg20 : W25 m ρ c (main_arg20 : DevRef τ sig) = m ((c : Thread nD τ).loc main_arg20) := W25_of_launch m ρ c main_arg20 (W20_of_launch m ρ c main_arg20 (W15_of_launch m ρ c main_arg20 (W10_of_launch m ρ c main_arg20 (by decide) (by decide) (by decide) (by decide) (by decide) (by decide)) (by decide) (by decide) (by decide) (by decide) (by decide)) (by decide) (by decide) (by decide) (by decide) (by decide)) (by decide) (by decide) (by decide) (by decide) (by decide)
theorem W25_arg21 : W25 m ρ c (main_arg21 : DevRef τ sig) = m ((c : Thread nD τ).loc main_arg21) := W25_of_launch m ρ c main_arg21 (W20_of_launch m ρ c main_arg21 (W15_of_launch m ρ c main_arg21 (W10_of_launch m ρ c main_arg21 (by decide) (by decide) (by decide) (by decide) (by decide) (by decide)) (by decide) (by decide) (by decide) (by decide) (by decide)) (by decide) (by decide) (by decide) (by decide) (by decide)) (by decide) (by decide) (by decide) (by decide) (by decide)
theorem W25_arg22 : W25 m ρ c (main_arg22 : DevRef τ sig) = m ((c : Thread nD τ).loc main_arg22) := W25_of_launch m ρ c main_arg22 (W20_of_launch m ρ c main_arg22 (W15_of_launch m ρ c main_arg22 (W10_of_launch m ρ c main_arg22 (by decide) (by decide) (by decide) (by decide) (by decide) (by decide)) (by decide) (by decide) (by decide) (by decide) (by decide)) (by decide) (by decide) (by decide) (by decide) (by decide)) (by decide) (by decide) (by decide) (by decide) (by decide)

/-- Region 12 leaves the product of the layer's input and its weights in main_v136. -/
theorem W26_v136 (X : S50000x128.Idx → EReal) (hX : W25 m ρ c (main_v135 : DevRef τ sig) = X) :
    W26 m ρ c (main_v136 : DevRef τ sig) = mm12 X (m ((c : Thread nD τ).loc main_arg19)) :=
  (W26_arr m ρ c 2).trans (final12 (V25 m ρ) c X _ hX (W25_arg19 m ρ c))

/-- At region 13's entry main_v149 is the aggregate of that product over the edges … -/
theorem W27_v149 (X : S50000x128.Idx → EReal) (hX : W25 m ρ c (main_v135 : DevRef τ sig) = X) :
    W27 m ρ c (main_v149 : DevRef τ sig)
      = agg5 (F := Ideal) (mm12 X (m ((c : Thread nD τ).loc main_arg19)))
          (edgeNorm (F := Ideal) (m ((c : Thread nD τ).loc main_arg1)) (m ((c : Thread nD τ).loc main_arg2)))
          (srcIdx (m ((c : Thread nD τ).loc main_arg1))) (dstIdx (m ((c : Thread nD τ).loc main_arg1))) :=
  (h13_v149 (W26 m ρ c)).trans (by
    rw [W26_v136 m ρ c X hX, W26_keep m ρ c main_v35 (by decide), W26_keep m ρ c main_v4 (by decide), W26_keep m ρ c main_v7 (by decide),
      W25_v35 m ρ c, W25_v4 m ρ c, W25_v7 m ρ c])

/-- … and main_v150 the layer's bias as a one-row array. -/
theorem W27_v150 : W27 m ρ c (main_v150 : DevRef τ sig)
    = shapeCast S1x256 (m ((c : Thread nD τ).loc main_arg20)) shapeCasts_S256_S1x256 :=
  (h13_v150 (W26 m ρ c)).trans (by rw [W26_keep m ρ c main_arg20 (by decide), W25_arg20 m ρ c])

/-- Region 13's three outputs hold what its pipeline leaves (windows 2, 3, 4; its inputs, windows 0 and 1, are main_v149 and
    main_v150 as the two statements above give them). -/
theorem W28_v151_0 (Y : S50000x256.Idx → EReal) (h : (dat13 (V27 m ρ) c).arrAt 2 cfg13.N = Y) :
    W28 m ρ c (main_v151_0 : DevRef τ sig) = Y := (W28_arr m ρ c 2).trans h
theorem W28_v151_1 (Y : S1x256.Idx → EReal) (h : (dat13 (V27 m ρ) c).arrAt 3 cfg13.N = Y) :
    W28 m ρ c (main_v151_1 : DevRef τ sig) = Y := (W28_arr m ρ c 3).trans h
theorem W28_v151_2 (Y : S1x256.Idx → EReal) (h : (dat13 (V27 m ρ) c).arrAt 4 cfg13.N = Y) :
    W28 m ρ c (main_v151_2 : DevRef τ sig) = Y := (W28_arr m ρ c 4).trans h

/-- At region 14's entry, with S1 the column sums and S2 the column sums of squares region 13 left: the mean … -/
theorem W29_v153 (S1 : S1x256.Idx → EReal) (h1 : W28 m ρ c (main_v151_1 : DevRef τ sig) = S1) :
    W29 m ρ c (main_v153 : DevRef τ sig) = Host.divf (F := Ideal) S1 (countRow5 (F := Ideal)) :=
  (h14_v153 (W28 m ρ c)).trans (by rw [h1])

/-- … the variance … -/
theorem W29_v157 (S1 S2 : S1x256.Idx → EReal) (h1 : W28 m ρ c (main_v151_1 : DevRef τ sig) = S1)
    (h2 : W28 m ρ c (main_v151_2 : DevRef τ sig) = S2) :
    W29 m ρ c (main_v157 : DevRef τ sig)
      = subf (Host.divf (F := Ideal) S2 (countRow5 (F := Ideal)))
          (mulf (Host.divf (F := Ideal) S1 (countRow5 (F := Ideal))) (Host.divf (F := Ideal) S1 (countRow5 (F := Ideal)))) :=
  (h14_v157 (W28 m ρ c)).trans (by rw [h1, h2])

/-- … the scale and the shift as one-row arrays … -/
theorem W29_v158 : W29 m ρ c (main_v158 : DevRef τ sig) = shapeCast S1x256 (m ((c : Thread nD τ).loc main_arg21)) shapeCasts_S256_S1x256 :=
  (h14_v158 (W28 m ρ c)).trans (by
    rw [W28_keep m ρ c main_arg21 (by decide), W27_keep m ρ c main_arg21 (by decide), W26_keep m ρ c main_arg21 (by decide), W25_arg21 m ρ c])
theorem W29_v159 : W29 m ρ c (main_v159 : DevRef τ sig) = shapeCast S1x256 (m ((c : Thread nD τ).loc main_arg22)) shapeCasts_S256_S1x256 :=
  (h14_v159 (W28 m ρ c)).trans (by
    rw [W28_keep m ρ c main_arg22 (by decide), W27_keep m ρ c main_arg22 (by decide), W26_keep m ρ c main_arg22 (by decide), W25_arg22 m ρ c])

/-- … and the activation region 13 left is still there. -/
theorem W29_v151_0 (A : S50000x256.Idx → EReal) (hA : W28 m ρ c (main_v151_0 : DevRef τ sig) = A) :
    W29 m ρ c (main_v151_0 : DevRef τ sig) = A := (W29_keep m ρ c main_v151_0 (by decide)).trans hA

/-- Region 14 leaves the normalised activation in main_v160: with A the activation and S1, S2 its column sums and column
    sums of squares (region 13's three outputs), bn14 of A, the mean S1 / 50000, the variance S2 / 50000 − mean², and the
    scale and shift rows. -/
theorem W30_v160 (A : S50000x256.Idx → EReal) (S1 S2 : S1x256.Idx → EReal)
    (hA : W28 m ρ c (main_v151_0 : DevRef τ sig) = A) (h1 : W28 m ρ c (main_v151_1 : DevRef τ sig) = S1)
    (h2 : W28 m ρ c (main_v151_2 : DevRef τ sig) = S2) :
    W30 m ρ c (main_v160 : DevRef τ sig)
      = bn14 A (Host.divf (F := Ideal) S1 (countRow5 (F := Ideal)))
          (subf (Host.divf (F := Ideal) S2 (countRow5 (F := Ideal)))
            (mulf (Host.divf (F := Ideal) S1 (countRow5 (F := Ideal))) (Host.divf (F := Ideal) S1 (countRow5 (F := Ideal)))))
          (shapeCast S1x256 (m ((c : Thread nD τ).loc main_arg21)) shapeCasts_S256_S1x256)
          (shapeCast S1x256 (m ((c : Thread nD τ).loc main_arg22)) shapeCasts_S256_S1x256) :=
  (W30_arr m ρ c 5).trans (finalB14 (V29 m ρ) c _ _ _ _ _ (W29_v151_0 m ρ c A hA) (W29_v153 m ρ c S1 h1)
    (W29_v157 m ρ c S1 S2 h1 h2) (W29_v158 m ρ c) (W29_v159 m ρ c))

/-- At the next layer's entry the graph buffers are still the prelude's. -/
theorem W30_v4 : W30 m ρ c (main_v4 : DevRef τ sig) = srcIdx (m ((c : Thread nD τ).loc main_arg1)) :=
  (W30_of_W25 m ρ c main_v4 (by decide) (by decide) (by decide) (by decide) (by decide)).trans (W25_v4 m ρ c)
theorem W30_v7 : W30 m ρ c (main_v7 : DevRef τ sig) = dstIdx (m ((c : Thread nD τ).loc main_arg1)) :=
  (W30_of_W25 m ρ c main_v7 (by decide) (by decide) (by decide) (by decide) (by decide)).trans (W25_v7 m ρ c)
theorem W30_v35 : W30 m ρ c (main_v35 : DevRef τ sig)
    = edgeNorm (F := Ideal) (m ((c : Thread nD τ).loc main_arg1)) (m ((c : Thread nD τ).loc main_arg2)) :=
  (W30_of_W25 m ρ c main_v35 (by decide) (by decide) (by decide) (by decide) (by decide)).trans (W25_v35 m ρ c)

end Cert.KernelIdeal.Chain

end
-- ==== Proof.LibColSum.lean ====
/-
  Column sums of a two-dimensional array, read at an entry on the extended reals.

  A kernel that accumulates per-column statistics of an [a, b] block takes the sum over the rows (axis 0) into a
  vector [b] and casts it to the one-row shape [1, b] of its accumulator. Read at an entry written by its coordinates:
    * the sum over axis 0 of an [a, b] array at k is the sum over i of the array at (i, k);
    * the same sums kept as a [1, b] row read, at (u, k), that sum.
  Over any extents a, b.
-/
import Idealize.ShloMosaic.PureOps.Ideal.Laws
import Idealize.ShloMosaic.Lib.ValueIdx
import Idealize.ShloMosaic.Lib.ValueLayout
import Idealize.ShloMosaic.Lib.Pipeline.Value

namespace Cert.LibColSum

open Idealize.ShloMosaic Idealize.ShloMosaic.ValueIdx

variable {a b : ℕ}

/-- The sum over the rows of an `[a, b]` array of extended reals, at column `k`, is the sum over `i` of the array at `(i, k)`. -/
theorem colSum_apply (src : FVec Ideal (⟨2, ![a, b]⟩ : Shape) .f32)
    (h : (⟨2, ![a, b]⟩ : Shape).Reduces [0] ⟨1, ![b]⟩) (hφ : FKind.Formats .f32)
    (hacc : (0x00000000#32 : BitVec (FTy.bits .f32)) = FKind.add.neutral .f32 hφ) (k : Fin b) :
    multiReduction .add [0] ⟨1, ![b]⟩ src 0x00000000#32 h hφ hacc (ix1 k) = ∑ i : Fin a, src (ix2 i k) := by
  refine (Ideal.multiReduction_add_single src 0x00000000#32 h hφ hacc (ix1 k)).trans ?_
  refine Finset.sum_congr rfl fun i _ => congrArg src ?_
  funext ax; apply Fin.ext
  match ax with
  | ⟨0, _⟩ => rfl
  | ⟨1, _⟩ => rfl

/-- The column sums kept as a one-row array: the `[b]` sums cast to `[1, b]` read, at `(u, k)`, the sum over `i` of the array at `(i, k)`. -/
theorem rowOfColSums_apply (src : FVec Ideal (⟨2, ![a, b]⟩ : Shape) .f32)
    (h : (⟨2, ![a, b]⟩ : Shape).Reduces [0] ⟨1, ![b]⟩) (hφ : FKind.Formats .f32)
    (hacc : (0x00000000#32 : BitVec (FTy.bits .f32)) = FKind.add.neutral .f32 hφ)
    (hc : (⟨1, ![b]⟩ : Shape).ShapeCasts ⟨2, ![1, b]⟩) (u : Fin 1) (k : Fin b) :
    shapeCast ⟨2, ![1, b]⟩ (multiReduction .add [0] ⟨1, ![b]⟩ src 0x00000000#32 h hφ hacc) hc (ix2 u k)
      = ∑ i : Fin a, src (ix2 i k) :=
  (shapeCast_a_1a_apply _ hc u k).trans (colSum_apply src h hφ hacc k)

end Cert.LibColSum
-- ==== Proof.LibTileSum.lean ====
/-
  Summing a long axis tile by tile.

  An axis of length `T * R` is cut into `T` consecutive tiles of `R` rows; row `r` of tile `j` is row
  `R * j + r` of the axis. In any additive commutative monoid the sum over the whole axis is the sum over the tiles
  of each tile's sum (`sum_tiles`). An accumulator that starts at zero and adds one tile's sum per step
  (`tileAcc`: after the first step it holds `0 + ` the first tile's sum) therefore holds, after `n` steps, the sum
  of the first `n` tiles (`tileAcc_eq`), and after all `T` steps the sum over the whole axis (`tileAcc_all`;
  `tileAcc_512_8` is the instance of 8 tiles of 512 rows, an axis of length 4096). Only commutativity and
  associativity of `+` are used, so the statements hold on the extended reals with their infinities.
-/
import Mathlib.Algebra.BigOperators.Fin
import Mathlib.Algebra.BigOperators.Intervals

namespace Cert.LibTileSum

open scoped BigOperators

variable {M : Type*} [AddCommMonoid M]

/-- The sum over an axis of `T * R` rows is the sum over its `T` tiles of the sum over each tile's `R` rows. -/
theorem sum_tiles (T R : ℕ) (g : ℕ → M) :
    (∑ s : Fin (T * R), g s.val) = ∑ j ∈ Finset.range T, ∑ r : Fin R, g (R * j + r.val) := by
  rw [Fin.sum_univ_eq_sum_range (fun n => g n) (T * R)]
  induction T with
  | zero => simp
  | succ T ih =>
    rw [Finset.sum_range_succ, ← ih, Nat.succ_mul, Finset.sum_range_add,
      Fin.sum_univ_eq_sum_range (fun r => g (R * T + r)) R, Nat.mul_comm R T]

/-- The accumulator after `n` tiles: zero, then one tile's sum added per step. -/
def tileAcc (R : ℕ) (g : ℕ → M) : ℕ → M
  | 0 => 0
  | n + 1 => tileAcc R g n + ∑ r : Fin R, g (R * n + r.val)

@[simp] theorem tileAcc_zero (R : ℕ) (g : ℕ → M) : tileAcc R g 0 = 0 := rfl

theorem tileAcc_succ (R : ℕ) (g : ℕ → M) (n : ℕ) :
    tileAcc R g (n + 1) = tileAcc R g n + ∑ r : Fin R, g (R * n + r.val) := rfl

/-- After `n` steps the accumulator holds the sum of the first `n` tiles. -/
theorem tileAcc_eq (R : ℕ) (g : ℕ → M) (n : ℕ) :
    tileAcc R g n = ∑ j ∈ Finset.range n, ∑ r : Fin R, g (R * j + r.val) := by
  induction n with
  | zero => simp
  | succ n ih => rw [tileAcc_succ, ih, Finset.sum_range_succ]

/-- After all `T` steps the accumulator holds the sum over the whole axis. -/
theorem tileAcc_all (T R : ℕ) (g : ℕ → M) : tileAcc R g T = ∑ s : Fin (T * R), g s.val := by
  rw [tileAcc_eq, sum_tiles]

/-- Eight tiles of 512 rows: the accumulator ends at the sum over the axis of length 4096. -/
theorem tileAcc_512_8 (g : ℕ → M) : tileAcc 512 g 8 = ∑ s : Fin 4096, g s.val :=
  tileAcc_all 8 512 g

end Cert.LibTileSum
-- ==== Proof.RegR1.lean ====
/-
  Region 1: the first layer's bias, rectifier and column statistics. The aggregated features (50000 rows, 32 columns) are cut into 25 blocks of 2000 rows and the
  bias is one 32-entry row. At each grid point the kernel adds the bias to the block, clips it below at zero and
  writes the result to the same rows of the first output; the second and third outputs are 32-entry rows that stay
  in place over the whole grid: the first point sets them to zero, and every point adds to them the block's column
  sums and the column sums of its squares. So after point n they hold the column sums over the first (n + 1)·2000
  rows, and after the last point, which alone writes them back, over all 50000 rows.
-/
import proofs.«107715_j23149873725632_1_alg».proof.Proof.Gen.KernelIdeal.Frame
import proofs.«107715_j23149873725632_1_alg».proof.Proof.LibColSum
import proofs.«107715_j23149873725632_1_alg».proof.Proof.LibTileSum
import Idealize.ShloMosaic.Lib.Pipeline.Value
import Idealize.ShloMosaic.Lib.ValueIdx
import Idealize.ShloMosaic.Lib.ValueLayout

set_option maxRecDepth 16384

noncomputable section

namespace Cert.KernelIdeal.RegVal

open Cert.KernelIdeal Cert.KernelIdeal.Gen Idealize.ShloMosaic Idealize.ShloMosaic.TcCoe Idealize.SL.Sem Idealize.ShloMosaic.Tactic
open Idealize.ShloMosaic.ValueIdx
open Idealize.ShloMosaic.Pipeline (Dat)

theorem hzR_1 : (![0, 0] : Fin 2 → Nat) = fun _ => 0 := funext fun a => by fin_cases a <;> rfl

/-! ## What each case of the body leaves in the three outputs -/

section Pieces
variable {F : FTy → Type} [FloatOps F]

theorem pieceA2_1 (c : Dev nD) (i : grid1.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : cond1_0 i)
    (x0 : Vec F S2000x32 .f32) (x1 : Vec F S1x32 .f32) :
    out1_A_2 c i arg1 harg1 arg2 harg2 arg3 harg3 arg4 harg4 arg5 harg5 hc0 x0 x1 = k1_pay3 x0 x1 := by
  unfold out1_A_2
  rw [View.read_writes_eq_canon _ _ _ (cover1_A_2 c i arg1 harg1 arg2 harg2 arg3 harg3 arg4 harg4 arg5 harg5 hc0 x0 x1)]
  unfold kernelRun1_A
  dsimp only
  sl_unfold_words
  rw [View.canon_unit_zero hzR_1]
  simp only [View.readAt_eq_ld, harg1.read_unread, harg2.read_unread,
    View.ld_unit_zero (S := S2000x32) hzR_1, View.ld_unit_zero (S := S1x32) hzR_1]

theorem pieceB2_1 (c : Dev nD) (i : grid1.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond1_0 i)
    (x0 : Vec F S2000x32 .f32) (x1 : Vec F S1x32 .f32) (xo3 xo4 : Vec F S1x32 .f32) :
    out1_B_2 c i arg1 harg1 arg2 harg2 arg3 harg3 arg4 harg4 arg5 harg5 hc0 x0 x1 xo3 xo4 = k1_pay3 x0 x1 := by
  unfold out1_B_2
  rw [View.read_writes_eq_canon _ _ _ (cover1_B_2 c i arg1 harg1 arg2 harg2 arg3 harg3 arg4 harg4 arg5 harg5 hc0 x0 x1 xo3 xo4)]
  unfold kernelRun1_B
  dsimp only
  rw [View.canon_unit_zero hzR_1]
  simp only [View.readAt_eq_ld, harg1.read_unread, harg2.read_unread,
    View.ld_unit_zero (S := S2000x32) hzR_1, View.ld_unit_zero (S := S1x32) hzR_1]

theorem pieceA3_1 (c : Dev nD) (i : grid1.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : cond1_0 i)
    (x0 : Vec F S2000x32 .f32) (x1 : Vec F S1x32 .f32) :
    out1_A_3 c i arg1 harg1 arg2 harg2 arg3 harg3 arg4 harg4 arg5 harg5 hc0 x0 x1 = k1_pay4 x0 x1 k1_pay1 := by
  unfold out1_A_3
  rw [View.read_writes_eq_canon _ _ _ (cover1_A_3 c i arg1 harg1 arg2 harg2 arg3 harg3 arg4 harg4 arg5 harg5 hc0 x0 x1)]
  unfold kernelRun1_A
  dsimp only
  sl_unfold_words
  rw [View.canon_cons_unit_zero hzR_1]
  simp only [View.readAt_eq_ld, harg1.read_unread, harg2.read_unread, View.readCov_unit_zero (S := S1x32) arg4.view hzR_1,
    View.ld_unit_zero (S := S2000x32) hzR_1, View.ld_unit_zero (S := S1x32) hzR_1]

theorem pieceB3_1 (c : Dev nD) (i : grid1.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond1_0 i)
    (x0 : Vec F S2000x32 .f32) (x1 : Vec F S1x32 .f32) (xo3 xo4 : Vec F S1x32 .f32) :
    out1_B_3 c i arg1 harg1 arg2 harg2 arg3 harg3 arg4 harg4 arg5 harg5 hc0 x0 x1 xo3 xo4 = k1_pay4 x0 x1 xo3 := by
  unfold out1_B_3
  rw [View.read_writes_eq_canon _ _ _ (cover1_B_3 c i arg1 harg1 arg2 harg2 arg3 harg3 arg4 harg4 arg5 harg5 hc0 x0 x1 xo3 xo4)]
  unfold kernelRun1_B
  dsimp only
  rw [View.canon_unit_zero hzR_1]
  simp only [View.readAt_eq_ld, harg1.read_unread, harg2.read_unread, harg4.read_unread,
    View.ld_unit_zero (S := S2000x32) hzR_1, View.ld_unit_zero (S := S1x32) hzR_1]

theorem pieceA4_1 (c : Dev nD) (i : grid1.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : cond1_0 i)
    (x0 : Vec F S2000x32 .f32) (x1 : Vec F S1x32 .f32) :
    out1_A_4 c i arg1 harg1 arg2 harg2 arg3 harg3 arg4 harg4 arg5 harg5 hc0 x0 x1 = k1_pay5 x0 x1 k1_pay2 := by
  unfold out1_A_4
  rw [View.read_writes_eq_canon _ _ _ (cover1_A_4 c i arg1 harg1 arg2 harg2 arg3 harg3 arg4 harg4 arg5 harg5 hc0 x0 x1)]
  unfold kernelRun1_A
  dsimp only
  sl_unfold_words
  rw [View.canon_cons_unit_zero hzR_1]
  simp only [View.readAt_eq_ld, harg1.read_unread, harg2.read_unread, View.readCov_unit_zero (S := S1x32) arg5.view hzR_1,
    View.ld_unit_zero (S := S2000x32) hzR_1, View.ld_unit_zero (S := S1x32) hzR_1]

theorem pieceB4_1 (c : Dev nD) (i : grid1.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond1_0 i)
    (x0 : Vec F S2000x32 .f32) (x1 : Vec F S1x32 .f32) (xo3 xo4 : Vec F S1x32 .f32) :
    out1_B_4 c i arg1 harg1 arg2 harg2 arg3 harg3 arg4 harg4 arg5 harg5 hc0 x0 x1 xo3 xo4 = k1_pay5 x0 x1 xo4 := by
  unfold out1_B_4
  rw [View.read_writes_eq_canon _ _ _ (cover1_B_4 c i arg1 harg1 arg2 harg2 arg3 harg3 arg4 harg4 arg5 harg5 hc0 x0 x1 xo3 xo4)]
  unfold kernelRun1_B
  dsimp only
  rw [View.canon_unit_zero hzR_1]
  simp only [View.readAt_eq_ld, harg1.read_unread, harg2.read_unread, harg5.read_unread,
    View.ld_unit_zero (S := S2000x32) hzR_1, View.ld_unit_zero (S := S1x32) hzR_1]

end Pieces

/-! ## The payloads on the extended reals -/

/-- The zero word. -/
def zeroWR1 : EReal := Scalar.ofBits (F := Ideal) .f32 0x00000000#32

/-- The bias added and the rectifier applied, entry by entry. -/
theorem payR3_1 (x0 : Vec Ideal S2000x32 .f32) (x1 : Vec Ideal S1x32 .f32) (p : Fin 2000) (q : Fin 32) :
    k1_pay3 x0 x1 (ix2 p q) = max (x0 (ix2 p q) + x1 (ix2 (0 : Fin 1) q)) zeroWR1 := by
  unfold k1_pay3
  simp only [shapeCast_self, addf, maximumf, broadcast, broadcastTo_1b_ab_apply, Ideal.addf_def, Ideal.maximumf_def, zeroWR1]

/-- The running column sums after a point: what they held plus the block's column sums. -/
theorem payR4_1 (x0 : Vec Ideal S2000x32 .f32) (x1 s : Vec Ideal S1x32 .f32) (q : Fin 32) :
    k1_pay4 x0 x1 s (ix2 (0 : Fin 1) q) = s (ix2 (0 : Fin 1) q) + ∑ p : Fin 2000, k1_pay3 x0 x1 (ix2 p q) := by
  unfold k1_pay4
  simp only [shapeCast_self, addf, Ideal.addf_def]
  exact congrArg (s (ix2 (0 : Fin 1) q) + ·) (Cert.LibColSum.rowOfColSums_apply (k1_pay3 x0 x1) _ _ _ _ 0 q)

/-- The running column sums of squares after a point. -/
theorem payR5_1 (x0 : Vec Ideal S2000x32 .f32) (x1 s : Vec Ideal S1x32 .f32) (q : Fin 32) :
    k1_pay5 x0 x1 s (ix2 (0 : Fin 1) q)
      = s (ix2 (0 : Fin 1) q) + ∑ p : Fin 2000, k1_pay3 x0 x1 (ix2 p q) * k1_pay3 x0 x1 (ix2 p q) := by
  unfold k1_pay5
  simp only [shapeCast_self, addf, Ideal.addf_def]
  refine congrArg (s (ix2 (0 : Fin 1) q) + ·) ((Cert.LibColSum.rowOfColSums_apply (mulf (k1_pay3 x0 x1) (k1_pay3 x0 x1)) _ _ _ _ 0 q).trans ?_)
  simp only [mulf, Ideal.mulf_def]

/-- The first point's reset of the two running rows. -/
theorem payR1_1 (q : Fin 32) : k1_pay1 (F := Ideal) (ix2 (0 : Fin 1) q) = zeroWR1 := by
  unfold k1_pay1; simp only [broadcast, zeroWR1]
theorem payR2_1 (q : Fin 32) : k1_pay2 (F := Ideal) (ix2 (0 : Fin 1) q) = zeroWR1 := by
  unfold k1_pay2; simp only [broadcast, zeroWR1]

variable (V : (c : Dev nD) → (b : Ref sig .tc) → Buf (Elt Ideal) ((c : Thread nD τ).loc b))

/-- The index maps over the 25 grid points: the row blocks move with the point, the three rows stay. -/
theorem idxR1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The bias added and the rectifier applied to the whole array. -/
def actR1 (A : S50000x32.Idx → EReal) (B : S1x32.Idx → EReal) : S50000x32.Idx → EReal :=
  fun i => max (A i + B (ix2 (0 : Fin 1) (i 1))) zeroWR1

/-- Column `q` of a 50000-row array as a sequence (zero past the last row). -/
def colR1 (Y : S50000x32.Idx → EReal) (q : Fin 32) (s : ℕ) : EReal :=
  if h : s < 50000 then Y (ix2 (⟨s, h⟩ : Fin 50000) q) else 0

set_option maxHeartbeats 4000000 in
/-- What every point leaves in the first output's block: the whole-array activations at the block's rows. -/
theorem afterR2_1 (c : Dev nD) (t : Fin cfg1.N) :
    (outsAt1 V c t.val t.isLt).1 = k1_pay3 (iblk1 V c 0 t) (iblk1 V c 1 t) := by
  by_cases h0 : t.val % 25 = 0
  · exact (congrArg (fun z => z.1) (outsAt1_A V c t h0)).trans
      (pieceA2_1 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t))
  · exact (congrArg (fun z => z.1) (outsAt1_B V c t h0)).trans
      (pieceB2_1 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t)
        (outsAt1 V c (t.val - 1) (Nat.lt_of_le_of_lt (Nat.sub_le _ _) t.isLt)).2.1 (outsAt1 V c (t.val - 1) (Nat.lt_of_le_of_lt (Nat.sub_le _ _) t.isLt)).2.2)

/-- A block's activations are the whole array's at the block's rows. -/
theorem blkAct1 (c : Dev nD) (t : Fin cfg1.N) (A : S50000x32.Idx → EReal) (B : S1x32.Idx → EReal)
    (hA : V c (Pipeline.arrRef spec1 0) = A) (hB : V c (Pipeline.arrRef spec1 1) = B) (p : Fin 2000) (q : Fin 32) :
    k1_pay3 (iblk1 V c 0 t) (iblk1 V c 1 t) (ix2 p q) = colR1 (actR1 A B) q (2000 * t.val + p.val) := by
  have hb0 : iblk1 V c 0 t = ((cfg1.win 0).blk t).view.read (Elt Ideal) A := by unfold iblk1; rw [hA]
  have hb1 : iblk1 V c 1 t = ((cfg1.win 1).blk t).view.read (Elt Ideal) B := by unfold iblk1; rw [hB]
  rw [hb0, hb1]
  refine (payR3_1 _ _ p q).trans ?_
  obtain ⟨e0, e1, e2, e3, e4, e5, e6, e7, e8, e9⟩ := idxR1 t
  have hN : t.val < 25 := lt_of_lt_of_eq t.isLt (show cfg1.N = 25 from N_1)
  have hlt : 2000 * t.val + p.val < 50000 := by have := p.isLt; omega
  have h0 : ((cfg1.win 0).blk t).view.emb (ix2 p q) = ix2 (⟨2000 * t.val + p.val, hlt⟩ : Fin 50000) q := by
    funext a; apply Fin.ext
    match a with
    | ⟨0, _⟩ => show win1_0.index t (0 : Fin 2) * 2000 + 1 * p.val = 2000 * t.val + p.val; omega
    | ⟨1, _⟩ => show win1_0.index t (1 : Fin 2) * 32 + 1 * q.val = q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 32 + 1 * q.val = q.val; omega
  show max (A (((cfg1.win 0).blk t).view.emb (ix2 p q)) + B (((cfg1.win 1).blk t).view.emb (ix2 (0 : Fin 1) q))) zeroWR1 = _
  rw [congrArg A h0, congrArg B h1]
  unfold colR1 actR1
  rw [dif_pos hlt]

/-! ## The running sums, point by point -/

set_option maxHeartbeats 4000000 in
/-- After point `n` the second output's row holds, in column `q`, the column's sum over the first (n + 1) blocks. -/
theorem acc3_1 (c : Dev nD) (A : S50000x32.Idx → EReal) (B : S1x32.Idx → EReal)
    (hA : V c (Pipeline.arrRef spec1 0) = A) (hB : V c (Pipeline.arrRef spec1 1) = B) :
    ∀ (n : ℕ) (hn : n < cfg1.N) (q : Fin 32),
      (outsAt1 V c n hn).2.1 (ix2 (0 : Fin 1) q)
        = zeroWR1 + Cert.LibTileSum.tileAcc 2000 (colR1 (actR1 A B) q) (n + 1) := by
  intro n
  induction n with
  | zero =>
    intro hn q
    have h : (outsAt1 V c 0 hn).2.1 = k1_pay4 (iblk1 V c 0 ⟨0, hn⟩) (iblk1 V c 1 ⟨0, hn⟩) (k1_pay1 (F := Ideal)) :=
      (congrArg (fun z => z.2.1) (outsAt1_A V c ⟨0, hn⟩ (Nat.zero_mod _))).trans
        (pieceA3_1 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _))
          (iblk1 V c 0 ⟨0, hn⟩) (iblk1 V c 1 ⟨0, hn⟩))
    rw [h, payR4_1, payR1_1, Cert.LibTileSum.tileAcc_succ, Cert.LibTileSum.tileAcc_zero, zero_add]
    exact congrArg (zeroWR1 + ·) (Finset.sum_congr rfl fun p _ => blkAct1 V c ⟨0, hn⟩ A B hA hB p q)
  | succ n ih =>
    intro hn q
    have hN : n + 1 < 25 := lt_of_lt_of_eq hn (show cfg1.N = 25 from N_1)
    have h0 : ¬ (n + 1) % 25 = 0 := by omega
    have h : (outsAt1 V c (n + 1) hn).2.1
        = k1_pay4 (iblk1 V c 0 ⟨n + 1, hn⟩) (iblk1 V c 1 ⟨n + 1, hn⟩) (outsAt1 V c n (Nat.lt_of_succ_lt hn)).2.1 :=
      (congrArg (fun z => z.2.1) (outsAt1_B V c ⟨n + 1, hn⟩ h0)).trans
        (pieceB3_1 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h))
          (iblk1 V c 0 ⟨n + 1, hn⟩) (iblk1 V c 1 ⟨n + 1, hn⟩)
          (outsAt1 V c n (Nat.lt_of_succ_lt hn)).2.1 (outsAt1 V c n (Nat.lt_of_succ_lt hn)).2.2)
    rw [h, payR4_1, ih (Nat.lt_of_succ_lt hn) q, Cert.LibTileSum.tileAcc_succ 2000 _ (n + 1), add_assoc]
    exact congrArg (fun z => zeroWR1 + (Cert.LibTileSum.tileAcc 2000 (colR1 (actR1 A B) q) (n + 1) + z))
      (Finset.sum_congr rfl fun p _ => blkAct1 V c ⟨n + 1, hn⟩ A B hA hB p q)

set_option maxHeartbeats 4000000 in
/-- After point `n` the third output's row holds, in column `q`, the column's sum of squares over the first (n + 1) blocks. -/
theorem acc4_1 (c : Dev nD) (A : S50000x32.Idx → EReal) (B : S1x32.Idx → EReal)
    (hA : V c (Pipeline.arrRef spec1 0) = A) (hB : V c (Pipeline.arrRef spec1 1) = B) :
    ∀ (n : ℕ) (hn : n < cfg1.N) (q : Fin 32),
      (outsAt1 V c n hn).2.2 (ix2 (0 : Fin 1) q)
        = zeroWR1 + Cert.LibTileSum.tileAcc 2000 (fun s => colR1 (actR1 A B) q s * colR1 (actR1 A B) q s) (n + 1) := by
  intro n
  induction n with
  | zero =>
    intro hn q
    have h : (outsAt1 V c 0 hn).2.2 = k1_pay5 (iblk1 V c 0 ⟨0, hn⟩) (iblk1 V c 1 ⟨0, hn⟩) (k1_pay2 (F := Ideal)) :=
      (congrArg (fun z => z.2.2) (outsAt1_A V c ⟨0, hn⟩ (Nat.zero_mod _))).trans
        (pieceA4_1 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _))
          (iblk1 V c 0 ⟨0, hn⟩) (iblk1 V c 1 ⟨0, hn⟩))
    rw [h, payR5_1, payR2_1, Cert.LibTileSum.tileAcc_succ, Cert.LibTileSum.tileAcc_zero, zero_add]
    exact congrArg (zeroWR1 + ·) (Finset.sum_congr rfl fun p _ => by rw [blkAct1 V c ⟨0, hn⟩ A B hA hB p q])
  | succ n ih =>
    intro hn q
    have hN : n + 1 < 25 := lt_of_lt_of_eq hn (show cfg1.N = 25 from N_1)
    have h0 : ¬ (n + 1) % 25 = 0 := by omega
    have h : (outsAt1 V c (n + 1) hn).2.2
        = k1_pay5 (iblk1 V c 0 ⟨n + 1, hn⟩) (iblk1 V c 1 ⟨n + 1, hn⟩) (outsAt1 V c n (Nat.lt_of_succ_lt hn)).2.2 :=
      (congrArg (fun z => z.2.2) (outsAt1_B V c ⟨n + 1, hn⟩ h0)).trans
        (pieceB4_1 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h))
          (iblk1 V c 0 ⟨n + 1, hn⟩) (iblk1 V c 1 ⟨n + 1, hn⟩)
          (outsAt1 V c n (Nat.lt_of_succ_lt hn)).2.1 (outsAt1 V c n (Nat.lt_of_succ_lt hn)).2.2)
    rw [h, payR5_1, ih (Nat.lt_of_succ_lt hn) q, Cert.LibTileSum.tileAcc_succ 2000 _ (n + 1), add_assoc]
    exact congrArg (fun z => zeroWR1 + (Cert.LibTileSum.tileAcc 2000 (fun s => colR1 (actR1 A B) q s * colR1 (actR1 A B) q s) (n + 1) + z))
      (Finset.sum_congr rfl fun p _ => by rw [blkAct1 V c ⟨n + 1, hn⟩ A B hA hB p q])

end Cert.KernelIdeal.RegVal

end
-- ==== Proof.RegR1b.lean ====
/-
  Region 1, continued: the three output arrays after the region. The first is the bias and rectifier applied to the whole
  input, block by block; the second and third are the column sums and the column sums of squares of that array
  over all 50000 rows, which the last grid point writes back.
-/
import proofs.«107715_j23149873725632_1_alg».proof.Proof.RegR1

set_option maxRecDepth 16384

noncomputable section

namespace Cert.KernelIdeal.RegVal

open Cert.KernelIdeal Cert.KernelIdeal.Gen Idealize.ShloMosaic Idealize.ShloMosaic.TcCoe Idealize.SL.Sem Idealize.ShloMosaic.Tactic
open Idealize.ShloMosaic.ValueIdx
open Idealize.ShloMosaic.Pipeline (Dat)

variable (V : (c : Dev nD) → (b : Ref sig .tc) → Buf (Elt Ideal) ((c : Thread nD τ).loc b))

set_option maxHeartbeats 2000000 in
/-- What point `t` writes back to the first output is block `t` of the whole array of activations. -/
theorem flushedR2_1 (c : Dev nD) (t : Fin cfg1.N) (A : S50000x32.Idx → EReal) (B : S1x32.Idx → EReal)
    (hA : V c (Pipeline.arrRef spec1 0) = A) (hB : V c (Pipeline.arrRef spec1 1) = B) :
    (dat1 V c).flushed 2 t = ((cfg1.win 2).blk t).view.read (Elt Ideal) (actR1 A B) := by
  have hN : t.val < 25 := lt_of_lt_of_eq t.isLt (show cfg1.N = 25 from N_1)
  obtain ⟨e0, e1, e2, e3, e4, e5, e6, e7, e8, e9⟩ := idxR1 t
  show (cfg1.win 2).cut (grid1.coords t) ((dat1 V c).after 2 t) = _
  rw [after1_2, afterR2_1 V c t]
  funext j
  obtain ⟨p, q, rfl⟩ : ∃ (p : Fin 2000) (q : Fin 32), j = ix2 p q := ⟨j 0, j 1, eq_ix2 j⟩
  refine (blkAct1 V c t A B hA hB p q).trans ?_
  have hlt : 2000 * t.val + p.val < 50000 := by have := p.isLt; omega
  unfold colR1
  rw [dif_pos hlt]
  show actR1 A B (ix2 (⟨2000 * t.val + p.val, hlt⟩ : Fin 50000) q) = actR1 A B (((cfg1.win 2).blk t).view.emb (ix2 p q))
  refine congrArg (actR1 A B) ?_
  funext a; apply Fin.ext
  match a with
  | ⟨0, _⟩ => show 2000 * t.val + p.val = win1_2.index t (0 : Fin 2) * 2000 + 1 * p.val; omega
  | ⟨1, _⟩ => show q.val = win1_2.index t (1 : Fin 2) * 32 + 1 * q.val; omega

/-- An index of the first output is in point `t`'s block iff each coordinate is in the block's range on its axis. -/
theorem mem_blkR2_1 (t : Fin cfg1.N) (i : S50000x32.Idx) :
    i ∈ ((cfg1.win 2).blk t).view.set ↔ ∀ a : Fin 2, win1_2.index t a * S2000x32.size a ≤ (i a).val
      ∧ (i a).val < win1_2.index t a * S2000x32.size a + S2000x32.size a := by
  show i ∈ ((View.whole main_v51_0).slice (win1_2.rect t)).set ↔ _
  rw [View.set_slice_whole, Rect.mem_set_unit]
  exact Iff.rfl

/-- Every block of rows is some point's. -/
theorem idx_ontoR2_1 : ∀ q0 : Fin 25, ∃ t : Fin cfg1.N, win1_2.index t = ![q0.val, 0] :=
  (by decide +kernel : ∀ q0 : Fin 25, ∃ t : Fin grid1.N, win1_2.index t = ![q0.val, 0])

/-- The 25 blocks of 2000 rows tile the 50000 rows. -/
theorem coverR2_1 (i : S50000x32.Idx) :
    ∃ t : Fin cfg1.N, (cfg1.win 2).flush t = true ∧ i ∈ ((cfg1.win 2).blk t).view.set := by
  have hi0 : (i 0).val < 50000 := (i 0).isLt
  have hi1 : (i 1).val < 32 := (i 1).isLt
  obtain ⟨t, ht⟩ := idx_ontoR2_1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blkR2_1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 32 ≤ (i 1).val ∧ (i 1).val < win1_2.index t (1 : Fin 2) * 32 + 32; omega

/-- After the region the first output holds the activations of the whole input. -/
theorem finalR2_1 (c : Dev nD) (A : S50000x32.Idx → EReal) (B : S1x32.Idx → EReal)
    (hA : V c (Pipeline.arrRef spec1 0) = A) (hB : V c (Pipeline.arrRef spec1 1) = B) :
    (dat1 V c).arrAt 2 cfg1.N = actR1 A B :=
  (dat1 V c).arrAt_eq_of_cover 2 _ (fun t _ => flushedR2_1 V c t A B hA hB) coverR2_1

/-- The column sums of the activations over all 50000 rows (from the zero word). -/
def sumR1 (A : S50000x32.Idx → EReal) (B : S1x32.Idx → EReal) : S1x32.Idx → EReal :=
  fun j => zeroWR1 + ∑ s : Fin 50000, actR1 A B (ix2 s (j 1))

set_option maxHeartbeats 2000000 in
/-- Only the last point writes this row back, and what it writes is the sum over all 25 blocks. -/
theorem flushedR3_1 (c : Dev nD) (t : Fin cfg1.N) (hf : (cfg1.win 3).flush t = true)
    (A : S50000x32.Idx → EReal) (B : S1x32.Idx → EReal)
    (hA : V c (Pipeline.arrRef spec1 0) = A) (hB : V c (Pipeline.arrRef spec1 1) = B) :
    (dat1 V c).flushed 3 t = ((cfg1.win 3).blk t).view.read (Elt Ideal) (sumR1 A B) := by
  have hN : t.val < 25 := lt_of_lt_of_eq t.isLt (show cfg1.N = 25 from N_1)
  have h24 : t.val % 25 = 24 := (flush1_3 t).mp hf
  have ht : t.val + 1 = 25 := by omega
  obtain ⟨e0, e1, e2, e3, e4, e5, e6, e7, e8, e9⟩ := idxR1 t
  show (cfg1.win 3).cut (grid1.coords t) ((dat1 V c).after 3 t) = _
  rw [after1_3]
  funext j
  obtain ⟨u, q, rfl⟩ : ∃ (u : Fin 1) (q : Fin 32), j = ix2 u q := ⟨j 0, j 1, eq_ix2 j⟩
  obtain rfl : u = 0 := Subsingleton.elim _ _
  refine (acc3_1 V c A B hA hB t.val t.isLt q).trans ?_
  rw [ht, Cert.LibTileSum.tileAcc_all 25 2000]
  show zeroWR1 + ∑ s : Fin 50000, colR1 (actR1 A B) q s.val = sumR1 A B (((cfg1.win 3).blk t).view.emb (ix2 (0 : Fin 1) q))
  unfold sumR1
  refine congrArg (zeroWR1 + ·) (Finset.sum_congr rfl fun s _ => ?_)
  have hq : ix2 s q = ix2 s ((((cfg1.win 3).blk t).view.emb (ix2 (0 : Fin 1) q)) 1) := by
    funext a; apply Fin.ext
    match a with
    | ⟨0, _⟩ => rfl
    | ⟨1, _⟩ => show q.val = win1_3.index t (1 : Fin 2) * 32 + 1 * q.val; omega
  unfold colR1
  rw [dif_pos s.isLt]
  show actR1 A B (ix2 s q) = _
  rw [hq]
  rfl

/-- An index of the row is in point `t`'s block iff each coordinate is in the block's range on its axis. -/
theorem mem_blkR3_1 (t : Fin cfg1.N) (i : S1x32.Idx) :
    i ∈ ((cfg1.win 3).blk t).view.set ↔ ∀ a : Fin 2, win1_3.index t a * S1x32.size a ≤ (i a).val
      ∧ (i a).val < win1_3.index t a * S1x32.size a + S1x32.size a := by
  show i ∈ ((View.whole main_v51_1).slice (win1_3.rect t)).set ↔ _
  rw [View.set_slice_whole, Rect.mem_set_unit]
  exact Iff.rfl

/-- The last point's block is the whole row. -/
theorem coverR3_1 (i : S1x32.Idx) :
    ∃ t : Fin cfg1.N, (cfg1.win 3).flush t = true ∧ i ∈ ((cfg1.win 3).blk t).view.set := by
  have hi0 : (i 0).val < 1 := (i 0).isLt
  have hi1 : (i 1).val < 32 := (i 1).isLt
  have h24 : 24 < cfg1.N := by rw [show cfg1.N = 25 from N_1]; omega
  obtain ⟨e0, e1, e2, e3, e4, e5, e6, e7, e8, e9⟩ := idxR1 ⟨24, h24⟩
  refine ⟨⟨24, h24⟩, (flush1_3 _).mpr (show (24 : ℕ) % 25 = 24 from rfl), ?_⟩
  rw [mem_blkR3_1]
  intro a
  match a with
  | ⟨0, _⟩ => show win1_3.index ⟨24, h24⟩ (0 : Fin 2) * 1 ≤ (i 0).val ∧ (i 0).val < win1_3.index ⟨24, h24⟩ (0 : Fin 2) * 1 + 1; omega
  | ⟨1, _⟩ => show win1_3.index ⟨24, h24⟩ (1 : Fin 2) * 32 ≤ (i 1).val ∧ (i 1).val < win1_3.index ⟨24, h24⟩ (1 : Fin 2) * 32 + 32; omega

/-- After the region the row holds the column statistic over all 50000 rows. -/
theorem finalR3_1 (c : Dev nD) (A : S50000x32.Idx → EReal) (B : S1x32.Idx → EReal)
    (hA : V c (Pipeline.arrRef spec1 0) = A) (hB : V c (Pipeline.arrRef spec1 1) = B) :
    (dat1 V c).arrAt 3 cfg1.N = sumR1 A B :=
  (dat1 V c).arrAt_eq_of_cover 3 _ (fun t hf => flushedR3_1 V c t hf A B hA hB) coverR3_1

/-- The column sums of the squared activations over all 50000 rows (from the zero word). -/
def sqR1 (A : S50000x32.Idx → EReal) (B : S1x32.Idx → EReal) : S1x32.Idx → EReal :=
  fun j => zeroWR1 + ∑ s : Fin 50000, actR1 A B (ix2 s (j 1)) * actR1 A B (ix2 s (j 1))

set_option maxHeartbeats 2000000 in
/-- Only the last point writes this row back, and what it writes is the sum over all 25 blocks. -/
theorem flushedR4_1 (c : Dev nD) (t : Fin cfg1.N) (hf : (cfg1.win 4).flush t = true)
    (A : S50000x32.Idx → EReal) (B : S1x32.Idx → EReal)
    (hA : V c (Pipeline.arrRef spec1 0) = A) (hB : V c (Pipeline.arrRef spec1 1) = B) :
    (dat1 V c).flushed 4 t = ((cfg1.win 4).blk t).view.read (Elt Ideal) (sqR1 A B) := by
  have hN : t.val < 25 := lt_of_lt_of_eq t.isLt (show cfg1.N = 25 from N_1)
  have h24 : t.val % 25 = 24 := (flush1_4 t).mp hf
  have ht : t.val + 1 = 25 := by omega
  obtain ⟨e0, e1, e2, e3, e4, e5, e6, e7, e8, e9⟩ := idxR1 t
  show (cfg1.win 4).cut (grid1.coords t) ((dat1 V c).after 4 t) = _
  rw [after1_4]
  funext j
  obtain ⟨u, q, rfl⟩ : ∃ (u : Fin 1) (q : Fin 32), j = ix2 u q := ⟨j 0, j 1, eq_ix2 j⟩
  obtain rfl : u = 0 := Subsingleton.elim _ _
  refine (acc4_1 V c A B hA hB t.val t.isLt q).trans ?_
  rw [ht, Cert.LibTileSum.tileAcc_all 25 2000]
  show zeroWR1 + ∑ s : Fin 50000, colR1 (actR1 A B) q s.val * colR1 (actR1 A B) q s.val = sqR1 A B (((cfg1.win 4).blk t).view.emb (ix2 (0 : Fin 1) q))
  unfold sqR1
  refine congrArg (zeroWR1 + ·) (Finset.sum_congr rfl fun s _ => ?_)
  have hq : ix2 s q = ix2 s ((((cfg1.win 4).blk t).view.emb (ix2 (0 : Fin 1) q)) 1) := by
    funext a; apply Fin.ext
    match a with
    | ⟨0, _⟩ => rfl
    | ⟨1, _⟩ => show q.val = win1_4.index t (1 : Fin 2) * 32 + 1 * q.val; omega
  unfold colR1
  rw [dif_pos s.isLt]
  show actR1 A B (ix2 s q) * actR1 A B (ix2 s q) = _
  rw [hq]
  rfl

/-- An index of the row is in point `t`'s block iff each coordinate is in the block's range on its axis. -/
theorem mem_blkR4_1 (t : Fin cfg1.N) (i : S1x32.Idx) :
    i ∈ ((cfg1.win 4).blk t).view.set ↔ ∀ a : Fin 2, win1_4.index t a * S1x32.size a ≤ (i a).val
      ∧ (i a).val < win1_4.index t a * S1x32.size a + S1x32.size a := by
  show i ∈ ((View.whole main_v51_2).slice (win1_4.rect t)).set ↔ _
  rw [View.set_slice_whole, Rect.mem_set_unit]
  exact Iff.rfl

/-- The last point's block is the whole row. -/
theorem coverR4_1 (i : S1x32.Idx) :
    ∃ t : Fin cfg1.N, (cfg1.win 4).flush t = true ∧ i ∈ ((cfg1.win 4).blk t).view.set := by
  have hi0 : (i 0).val < 1 := (i 0).isLt
  have hi1 : (i 1).val < 32 := (i 1).isLt
  have h24 : 24 < cfg1.N := by rw [show cfg1.N = 25 from N_1]; omega
  obtain ⟨e0, e1, e2, e3, e4, e5, e6, e7, e8, e9⟩ := idxR1 ⟨24, h24⟩
  refine ⟨⟨24, h24⟩, (flush1_4 _).mpr (show (24 : ℕ) % 25 = 24 from rfl), ?_⟩
  rw [mem_blkR4_1]
  intro a
  match a with
  | ⟨0, _⟩ => show win1_4.index ⟨24, h24⟩ (0 : Fin 2) * 1 ≤ (i 0).val ∧ (i 0).val < win1_4.index ⟨24, h24⟩ (0 : Fin 2) * 1 + 1; omega
  | ⟨1, _⟩ => show win1_4.index ⟨24, h24⟩ (1 : Fin 2) * 32 ≤ (i 1).val ∧ (i 1).val < win1_4.index ⟨24, h24⟩ (1 : Fin 2) * 32 + 32; omega

/-- After the region the row holds the column statistic over all 50000 rows. -/
theorem finalR4_1 (c : Dev nD) (A : S50000x32.Idx → EReal) (B : S1x32.Idx → EReal)
    (hA : V c (Pipeline.arrRef spec1 0) = A) (hB : V c (Pipeline.arrRef spec1 1) = B) :
    (dat1 V c).arrAt 4 cfg1.N = sqR1 A B :=
  (dat1 V c).arrAt_eq_of_cover 4 _ (fun t hf => flushedR4_1 V c t hf A B hA hB) coverR4_1

end Cert.KernelIdeal.RegVal

end
-- ==== Proof.LibDotRows.lean ====
/-
  The host's matrix product, rows by columns, read at an entry on the extended reals:
  for lhs : [M, K] and rhs : [K, N] with the left axis 1 contracted against the right axis 0, entry (m, n) of the product
  is ∑ k, lhs (m, k) * rhs (k, n).  The dimension record is the one built from the literal axis lists; its
  well-formedness proof is a parameter.  Over any extents and operand formats.
-/
import Idealize.ShloMosaic.PureOps.Ideal.Laws
import Idealize.ShloMosaic.Lib.ValueIdx

namespace Cert.LibDotRows

open Idealize.ShloMosaic Idealize.ShloMosaic.ValueIdx

variable {M K N : ℕ} {φ₁ φ₂ : FTy}

theorem dot_rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    Host.dotGeneral (⟨[1], [0], [0], [1], [], [], wf⟩ : DotDims (⟨2, ![M, K]⟩ : Shape) (⟨2, ![K, N]⟩ : Shape) (⟨2, ![M, N]⟩ : Shape))
        prec lhs rhs (ix2 m n)
      = ∑ k : Fin K, lhs (ix2 m k) * rhs (ix2 k n) := by
  simp only [Host.dotGeneral]
  rw [Ideal.dotGeneral_apply,
    ← Equiv.sum_comp (contrEquiv1 (⟨[1], [0], [0], [1], [], [], wf⟩ : DotDims (⟨2, ![M, K]⟩ : Shape) (⟨2, ![K, N]⟩ : Shape) (⟨2, ![M, N]⟩ : Shape)) K rfl rfl).symm]
  refine Finset.sum_congr rfl fun k _ => ?_
  congr 2
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

end Cert.LibDotRows
-- ==== Proof.LibBcast.lean ====
/-
  Four layouts of `broadcast_in_dim` read at an entry, for any element type and extents:
    * a vector [n] as a column [n, 1]:            entry (p, u) is the vector at p;
    * a column [n, 1] spread over k lanes [n, k]:  entry (p, q) is the column at (p, 0);
    * a vector [k] as a row [1, k]:               entry (u, q) is the vector at q;
    * a row [1, k] spread down n rows [n, k]:      entry (p, q) is the row at (0, q).
-/
import Idealize.ShloMosaic.Lib.ValueIdx
import Idealize.ShloMosaic.Lib.Pipeline.Value

namespace Cert.LibBcast

open Idealize.ShloMosaic Idealize.ShloMosaic.ValueIdx

variable {α : Type} {n k : ℕ}

theorem vecAsCol_apply (x : (⟨1, ![n]⟩ : Shape).Idx → α) (h : (⟨1, ![n]⟩ : Shape).BroadcastsInDim ⟨2, ![n, 1]⟩ ![0])
    (p : Fin n) (u : Fin 1) : broadcastInDim ⟨2, ![n, 1]⟩ ![0] h x (ix2 p u) = x (ix1 p) := by
  refine broadcastInDim_apply _ h x (ix2 p u) (ix1 p) fun a => ?_
  obtain rfl : a = 0 := Subsingleton.elim _ _
  show p.val = if n = 1 then 0 else p.val
  split
  · have := p.isLt; omega
  · rfl

theorem colOverLanes_apply (x : (⟨2, ![n, 1]⟩ : Shape).Idx → α)
    (h : (⟨2, ![n, 1]⟩ : Shape).BroadcastsInDim ⟨2, ![n, k]⟩ ![0, 1]) (p : Fin n) (q : Fin k) :
    broadcastInDim ⟨2, ![n, k]⟩ ![0, 1] h x (ix2 p q) = x (ix2 p (0 : Fin 1)) := by
  refine broadcastInDim_apply _ h x (ix2 p q) (ix2 p (0 : Fin 1)) fun a => ?_
  match a with
  | ⟨0, _⟩ =>
    show p.val = if n = 1 then 0 else p.val
    split
    · have := p.isLt; omega
    · rfl
  | ⟨1, _⟩ => rfl

theorem vecAsRow_apply (x : (⟨1, ![k]⟩ : Shape).Idx → α) (h : (⟨1, ![k]⟩ : Shape).BroadcastsInDim ⟨2, ![1, k]⟩ ![1])
    (u : Fin 1) (q : Fin k) : broadcastInDim ⟨2, ![1, k]⟩ ![1] h x (ix2 u q) = x (ix1 q) := by
  refine broadcastInDim_apply _ h x (ix2 u q) (ix1 q) fun a => ?_
  obtain rfl : a = 0 := Subsingleton.elim _ _
  show q.val = if k = 1 then 0 else q.val
  split
  · have := q.isLt; omega
  · rfl

theorem rowDownRows_apply (x : (⟨2, ![1, k]⟩ : Shape).Idx → α)
    (h : (⟨2, ![1, k]⟩ : Shape).BroadcastsInDim ⟨2, ![n, k]⟩ ![0, 1]) (p : Fin n) (q : Fin k) :
    broadcastInDim ⟨2, ![n, k]⟩ ![0, 1] h x (ix2 p q) = x (ix2 (0 : Fin 1) q) := by
  refine broadcastInDim_apply _ h x (ix2 p q) (ix2 (0 : Fin 1) q) fun a => ?_
  match a with
  | ⟨0, _⟩ => rfl
  | ⟨1, _⟩ =>
    show q.val = if k = 1 then 0 else q.val
    split
    · have := q.isLt; omega
    · rfl

end Cert.LibBcast
-- ==== Proof.RefMath1.lean ====
import proofs.«107715_j23149873725632_1_alg».proof.Proof.RefOpsRead1
import proofs.«107715_j23149873725632_1_alg».proof.Proof.LibDotRows
import proofs.«107715_j23149873725632_1_alg».proof.Proof.LibBcast
import Idealize.ShloMosaic.Lib.IdealHost

/-! Layer 1's named sub-stages read at an entry, on the extended reals (the ideal float instance): the matrix product
    as a sum over the contracted axis, the bias added along the rows, the rectifier as a maximum with zero, and the
    normalisation entry by entry.  (ix2 r j is the entry at row r and column j, ix1 j the entry j of a vector.) -/

noncomputable section

namespace Cert.ReferenceIdeal.HandRun

open Cert.ReferenceIdeal Cert.ReferenceIdeal.Gen Idealize.ShloMosaic Idealize.ShloMosaic.ValueIdx

/-- (M1) The matrix product at an entry: the sum over the 32 input columns. -/
theorem lin1_apply (x : FVec Ideal S50000x32 .f32) (w : FVec Ideal S32x32 .f32) (r : Fin 50000) (j : Fin 32) :
    lin1 x w (ix2 r j) = ∑ k : Fin 32, x (ix2 r k) * w (ix2 k j) :=
  Cert.LibDotRows.dot_rows_cols dot_S50000x32_S32x32_S50000x32_1_0_0_1_n_n_wf none x w r j

/-- A row vector repeated down the rows reads, at (r, j), the vector at j (for any float values). -/
theorem rows1_apply {F : FTy → Type} [FloatOps F] (v : FVec F S32 .f32) (r : Fin 50000) (j : Fin 32) :
    rows1 v (ix2 r j) = v (ix1 j) :=
  (Cert.LibBcast.rowDownRows_apply _ bcast_S1x32_S50000x32_0_1 r j).trans
    (Cert.LibBcast.vecAsRow_apply v bcast_S32_S1x32_1 0 j)

/-- A rank-zero value spread over the 32 columns reads that value. -/
theorem splat32_apply {α : Type} (c : S_.Idx → α) (j : Fin 32) :
    broadcastInDim S32 ![] bcast_S_S32 c (ix1 j) = c ix0 :=
  broadcastInDim_scalar_apply bcast_S_S32 c (ix1 j)

/-- (M2) The pre-activation at an entry: the aggregate's entry plus the bias of its column. -/
theorem pre1_apply (a : FVec Ideal S50000x32 .f32) (b : FVec Ideal S32 .f32) (r : Fin 50000) (j : Fin 32) :
    pre1 a b (ix2 r j) = a (ix2 r j) + b (ix1 j) := by
  show addf a (rows1 b) (ix2 r j) = _
  rw [addf_apply, rows1_apply]

/-- (M2) The rectifier at an entry: the maximum with the real zero (the word 0x00000000 read as an extended real). -/
theorem relu1_apply (z : FVec Ideal S50000x32 .f32) (r : Fin 50000) (j : Fin 32) :
    relu1 z (ix2 r j) = max (z (ix2 r j)) 0 := by
  show maximumf z (broadcastInDim S50000x32 ![] bcast_S_S50000x32 (constant (F := Ideal) S_ .f32 0x00000000#32)) (ix2 r j) = _
  rw [maximumf_apply, broadcastInDim_scalar_apply, constant_apply, Ideal.ofBits_zero_f32]

/-- (M4) The normalisation at an entry; the word 0x3727C5AC is the f32 nearest 1e-5. -/
theorem norm1_apply (y : FVec Ideal S50000x32 .f32) (μ σ2 γ β : FVec Ideal S32 .f32) (r : Fin 50000) (j : Fin 32) :
    norm1 y μ σ2 γ β (ix2 r j)
      = γ (ix1 j) * (y (ix2 r j) - μ (ix1 j)) * Ideal.rsqrt (σ2 (ix1 j) + Ideal.ofBits .f32 0x3727C5AC#32) + β (ix1 j) := by
  show addf (mulf (mulf (rows1 γ) (subf y (rows1 μ)))
      (rows1 (Host.rsqrt (F := Ideal) (addf σ2 (broadcastInDim S32 ![] bcast_S_S32 (constant (F := Ideal) S_ .f32 0x3727C5AC#32))))))
    (rows1 β) (ix2 r j) = _
  rw [addf_apply, mulf_apply, mulf_apply, subf_apply, rows1_apply, rows1_apply, rows1_apply, rows1_apply]
  show _ * _ * FloatOps.hostUnary .rsqrt (addf σ2 (broadcastInDim S32 ![] bcast_S_S32 (constant (F := Ideal) S_ .f32 0x3727C5AC#32)) (ix1 j)) + _ = _
  rw [addf_apply, splat32_apply, constant_apply]
  rfl

end Cert.ReferenceIdeal.HandRun

end
-- ==== Proof.LibBatchVariance.lean ====
/-
  Batch statistics on the extended reals, for real-valued data.

  A batch normalisation computes the variance of a column of numbers in one of two ways: as the mean of the
  squared deviations from the mean, or as the mean of the squares minus the square of the mean. Over the reals
  the two agree; on the extended reals they agree whenever the data are real numbers, because every
  intermediate value is then a real number and the extended-real operations restrict to the real ones.

  * `sum_coe`: a finite sum of coerced reals is the coerced sum.
  * `mean_sq_dev`: over ℝ, with `n` the number of samples, `(∑ (hᵢ − μ)²)/n = (∑ hᵢ²)/n − μ²` for `μ = (∑ hᵢ)/n`.
  * `variance_two_forms`: the same identity on the extended reals, the quotients taken by `Ideal.div`
    (the division of the ideal float instance) by the real number `n ≠ 0`.
  * `mean_real`, `variance_real`: both statistics of real data are real numbers, and the variance in the
    deviation form is nonnegative.
-/
import Mathlib
import Idealize.ShloMosaic.PureOps.Ideal

noncomputable section

namespace LibBatchVariance

open Idealize.ShloMosaic

variable {ι : Type} [Fintype ι]

/-- A finite sum of coerced reals is the coerced sum. -/
theorem sum_coe (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Over ℝ: the mean of the squared deviations from the mean is the mean of the squares minus the squared mean. -/
theorem mean_sq_dev (h : ι → ℝ) (n : ℝ) (hn : n ≠ 0) (hc : (Fintype.card ι : ℝ) = n) :
    (∑ i, (h i - (∑ j, h j) * (1 / n)) * (h i - (∑ j, h j) * (1 / n))) * (1 / n)
      = (∑ i, h i * h i) * (1 / n) - ((∑ j, h j) * (1 / n)) * ((∑ j, h j) * (1 / n)) := by
  set S := ∑ j, h j with hS
  have e : ∑ i, (h i - S * (1 / n)) * (h i - S * (1 / n))
      = (∑ i, h i * h i) - 2 * (S * (1 / n)) * S + n * ((S * (1 / n)) * (S * (1 / n))) := by
    have hterm : ∀ i, (h i - S * (1 / n)) * (h i - S * (1 / n))
        = h i * h i - 2 * (S * (1 / n)) * h i + (S * (1 / n)) * (S * (1 / n)) := fun i => by ring
    simp only [hterm, Finset.sum_add_distrib, Finset.sum_sub_distrib, ← Finset.mul_sum, Finset.sum_const,
      Finset.card_univ, nsmul_eq_mul, hc, ← hS]
    ring
  rw [e]
  field_simp
  ring

/-- On the extended reals, for real data and a real divisor `n ≠ 0` equal to the number of samples: the variance as
    the mean of squared deviations is the variance as the mean of squares minus the squared mean. -/
theorem variance_two_forms (h : ι → ℝ) (n : ℝ) (hn : n ≠ 0) (hc : (Fintype.card ι : ℝ) = n) :
    Ideal.div (∑ i, ((h i : EReal) - Ideal.div (∑ j, (h j : EReal)) (n : EReal))
        * ((h i : EReal) - Ideal.div (∑ j, (h j : EReal)) (n : EReal))) (n : EReal)
      = Ideal.div (∑ i, (h i : EReal) * (h i : EReal)) (n : EReal)
        - Ideal.div (∑ j, (h j : EReal)) (n : EReal) * Ideal.div (∑ j, (h j : EReal)) (n : EReal) := by
  simp only [Ideal.div_coe hn, sum_coe, ← EReal.coe_mul, ← EReal.coe_sub]
  exact congrArg _ (mean_sq_dev h n hn hc)

/-- The mean of real data is a real number. -/
theorem mean_real (h : ι → ℝ) (n : ℝ) (hn : n ≠ 0) :
    Ideal.div (∑ j, (h j : EReal)) (n : EReal) = (((∑ j, h j) * (1 / n) : ℝ) : EReal) := by
  simp only [Ideal.div_coe hn, sum_coe, ← EReal.coe_mul]

/-- The variance of real data, in the deviation form, is a nonnegative real number when `n > 0`. -/
theorem variance_real (h : ι → ℝ) (n : ℝ) (hn : 0 < n) :
    ∃ v : ℝ, 0 ≤ v ∧
      Ideal.div (∑ i, ((h i : EReal) - Ideal.div (∑ j, (h j : EReal)) (n : EReal))
        * ((h i : EReal) - Ideal.div (∑ j, (h j : EReal)) (n : EReal))) (n : EReal) = (v : EReal) := by
  refine ⟨(∑ i, (h i - (∑ j, h j) * (1 / n)) * (h i - (∑ j, h j) * (1 / n))) * (1 / n), ?_, ?_⟩
  · exact mul_nonneg (Finset.sum_nonneg fun i _ => mul_self_nonneg _) (by positivity)
  · simp only [Ideal.div_coe hn.ne', sum_coe, ← EReal.coe_mul, ← EReal.coe_sub]

end LibBatchVariance

end
-- ==== Proof.RefMath1Stats.lean ====
import proofs.«107715_j23149873725632_1_alg».proof.Proof.RefMath1
import proofs.«107715_j23149873725632_1_alg».proof.Proof.LibBatchVariance

/-! Layer 1's column statistics read at a column, on the extended reals: the column sum, the mean (the sum over the
    real number 50000), and the variance with its guard resolved (the count 50000 − 0 is positive, so the select takes
    the quotient, never the NaN branch): the mean of the squared deviations.  For real-valued data this is the mean of
    the squares less the squared mean (the two forms of the variance), and both statistics are real, the variance
    nonnegative. -/

set_option maxRecDepth 8192

noncomputable section

namespace Cert.ReferenceIdeal.HandRun

open Cert.ReferenceIdeal Cert.ReferenceIdeal.Gen Idealize.ShloMosaic Idealize.ShloMosaic.ValueIdx

/-- Every entry is a real number. -/
def AllReal {ι : Type} (f : ι → EReal) : Prop := ∀ i, ∃ r : ℝ, f i = (r : EReal)

/-- The comparison "greater than zero" of a real number, as a bit. -/
theorem cmp_ogt_coe_zero (r : ℝ) : Ideal.cmp .ogt ((r : ℝ) : EReal) (0 : EReal) = (1 : BitVec 1) ↔ 0 < r := by
  by_cases h : 0 < r <;> simp [Ideal.cmp, h]

/-- The f32 word 0x47435000 is the real number 50000. -/
theorem ofBits_count : Ideal.ofBits .f32 0x47435000#32 = ((50000 : ℝ) : EReal) := by
  simp [Ideal.ofBits, Ideal.ieee, -EReal.coe_mul]; norm_num

/-- The column sum at column j (the host sum starts from the zero word: 0 + s = s). -/
theorem colSum1_apply (y : FVec Ideal S50000x32 .f32) (j : Fin 32) : colSum1 y (ix1 j) = ∑ r : Fin 50000, y (ix2 r j) := by
  show Host.reduceAdd y (constant (F := Ideal) S_ .f32 0x00000000#32) reducesTo_S50000x32_S32_d0 h_S_ (ix1 j) = _
  rw [hostReduceAdd_apply, Ideal.hostReduceAdd_single reducesTo_S50000x32_S32_d0 (by decide : S50000x32.Reduces [0] S32),
    constant_apply, Ideal.ofBits_zero_f32, zero_add]
  refine Finset.sum_congr rfl fun i _ => congrArg y ?_
  funext ax; apply Fin.ext
  match ax with
  | ⟨0, _⟩ => rfl
  | ⟨1, _⟩ => rfl

/-- (M3) The mean at column j. -/
theorem mean1_apply (y : FVec Ideal S50000x32 .f32) (j : Fin 32) :
    mean1 y (ix1 j) = Ideal.div (∑ r : Fin 50000, y (ix2 r j)) ((50000 : ℝ) : EReal) := by
  show Host.divf (F := Ideal) (colSum1 y) (broadcastInDim S32 ![] bcast_S_S32 (constant (F := Ideal) S_ .f32 0x47435000#32)) (ix1 j) = _
  rw [hostDivf_apply, colSum1_apply, splat32_apply, constant_apply, ofBits_count]

/-- The variance's divisor: 50000 less the correction 0 (the integer 0 converted) is 50000. -/
theorem varCount_apply (i : S_.Idx) : varCount (F := Ideal) i = ((50000 : ℝ) : EReal) := by
  show subf (constant (F := Ideal) S_ .f32 0x47435000#32) (sitofp .f32 (constantI S_ 32 0#32)) i = _
  rw [subf_apply, constant_apply, sitofp_apply, ofBits_count]
  show ((50000 : ℝ) : EReal) - (((0#32 : BitVec 32).toInt : ℝ) : EReal) = _
  simp

/-- A centred entry: the entry less its column's mean. -/
theorem centered1_apply (y : FVec Ideal S50000x32 .f32) (r : Fin 50000) (j : Fin 32) :
    centered1 y (ix2 r j) = y (ix2 r j) - Ideal.div (∑ s : Fin 50000, y (ix2 s j)) ((50000 : ℝ) : EReal) := by
  show subf y (broadcastInDim S50000x32 ![0, 1] bcast_S1x32_S50000x32_0_1
      (Host.divf (F := Ideal) (broadcastInDim S1x32 ![1] bcast_S32_S1x32_1 (colSum1 y))
        (broadcastInDim S1x32 ![] bcast_S_S1x32 (constant (F := Ideal) S_ .f32 0x47435000#32)))) (ix2 r j) = _
  rw [subf_apply, Cert.LibBcast.rowDownRows_apply, hostDivf_apply, Cert.LibBcast.vecAsRow_apply, broadcastInDim_scalar_apply,
    constant_apply, colSum1_apply, ofBits_count]

/-- (M3) The variance at column j, its guard resolved: the mean of the squared deviations from the column's mean. -/
theorem var1_apply (y : FVec Ideal S50000x32 .f32) (j : Fin 32) :
    var1 y (ix1 j)
      = Ideal.div (∑ r : Fin 50000,
            (y (ix2 r j) - Ideal.div (∑ s : Fin 50000, y (ix2 s j)) ((50000 : ℝ) : EReal))
              * (y (ix2 r j) - Ideal.div (∑ s : Fin 50000, y (ix2 s j)) ((50000 : ℝ) : EReal))) ((50000 : ℝ) : EReal) := by
  show select (broadcastInDim S32 ![] bcast_S_S32 (cmpf .ogt (varCount (F := Ideal)) (constant (F := Ideal) S_ .f32 0x00000000#32)))
      (Host.divf (F := Ideal) (colSum1 (mulf (centered1 y) (centered1 y))) (broadcastInDim S32 ![] bcast_S_S32 (varCount (F := Ideal))))
      (broadcastInDim S32 ![] bcast_S_S32 (id (constant (F := Ideal) S_ .f32 0x7FC00000#32))) (ix1 j) = _
  rw [select_apply, splat32_apply, cmpf_apply, varCount_apply, constant_apply, Ideal.ofBits_zero_f32]
  rw [show FloatOps.cmpf (F := Ideal) .ogt ((50000 : ℝ) : EReal) 0 = 1#1 from (cmp_ogt_coe_zero 50000).mpr (by norm_num),
    select_one, hostDivf_apply, colSum1_apply, splat32_apply, varCount_apply]
  have hsum : (∑ r : Fin 50000, mulf (centered1 y) (centered1 y) (ix2 r j))
      = ∑ r : Fin 50000,
          (y (ix2 r j) - Ideal.div (∑ s : Fin 50000, y (ix2 s j)) ((50000 : ℝ) : EReal))
            * (y (ix2 r j) - Ideal.div (∑ s : Fin 50000, y (ix2 s j)) ((50000 : ℝ) : EReal)) :=
    Finset.sum_congr rfl fun r _ => by rw [mulf_apply, centered1_apply]
  rw [hsum]

/-- (M6) For real-valued data the variance is the mean of the squares less the squared mean. -/
theorem var1_two_forms (y : FVec Ideal S50000x32 .f32) (hy : AllReal y) (j : Fin 32) :
    var1 y (ix1 j)
      = Ideal.div (∑ r : Fin 50000, y (ix2 r j) * y (ix2 r j)) ((50000 : ℝ) : EReal) - mean1 y (ix1 j) * mean1 y (ix1 j) := by
  rw [var1_apply, mean1_apply]
  choose h hh using hy
  have key := LibBatchVariance.variance_two_forms (fun r : Fin 50000 => h (ix2 r j)) 50000 (by norm_num) (by simp)
  simp only [hh]
  exact key

/-- The mean of real-valued data is real. -/
theorem mean1_real (y : FVec Ideal S50000x32 .f32) (hy : AllReal y) (j : Fin 32) : ∃ q : ℝ, mean1 y (ix1 j) = (q : EReal) := by
  rw [mean1_apply]
  choose h hh using hy
  refine ⟨(∑ r : Fin 50000, h (ix2 r j)) * (1 / 50000), ?_⟩
  have key := LibBatchVariance.mean_real (fun r : Fin 50000 => h (ix2 r j)) 50000 (by norm_num)
  simp only [hh]
  exact key

/-- The variance of real-valued data is a nonnegative real. -/
theorem var1_real (y : FVec Ideal S50000x32 .f32) (hy : AllReal y) (j : Fin 32) :
    ∃ v : ℝ, 0 ≤ v ∧ var1 y (ix1 j) = (v : EReal) := by
  rw [var1_apply]
  choose h hh using hy
  obtain ⟨v, hv, key⟩ := LibBatchVariance.variance_real (fun r : Fin 50000 => h (ix2 r j)) 50000 (by norm_num)
  refine ⟨v, hv, ?_⟩
  simp only [hh]
  exact key

end Cert.ReferenceIdeal.HandRun

end
-- ==== Proof.Bridge1.lean ====
/-
  Layer 1, the two sides joined. The kernel computes the layer as: the matrix product, the weighted aggregate over
  the edges, the bias and the rectifier with the column sums s and the column sums of squares ss, then
  mean = s / N, variance = ss / N − mean², and scale · (a − mean) · (variance + ε)^(−1/2) + shift. The reference
  computes the same product, aggregate, bias and rectifier, takes the mean as the column sum over N, the variance
  as the mean of the squared deviations from the mean, and normalises in the same way. For real-valued activations
  the two variances are one number: the mean of the squared deviations is the mean of the squares less the squared
  mean. Everything else agrees entry by entry.
-/
import proofs.«107715_j23149873725632_1_alg».proof.Proof.RegMM0
import proofs.«107715_j23149873725632_1_alg».proof.Proof.RegR1b
import proofs.«107715_j23149873725632_1_alg».proof.Proof.RegBN2
import proofs.«107715_j23149873725632_1_alg».proof.Proof.RefMath1Stats
import proofs.«107715_j23149873725632_1_alg».proof.Proof.KerChain1
import Idealize.ShloMosaic.Lib.ValueLayout

noncomputable section

namespace Cert.Bridge

open Idealize.ShloMosaic Idealize.ShloMosaic.ValueIdx
open Cert.KernelIdeal Cert.KernelIdeal.RegVal Cert.KernelIdeal.Gen
open Cert.ReferenceIdeal.HandRun (AllReal lin1 agg1 pre1 relu1 act1 mean1 var1 norm1 refLayer1 lin1_apply pre1_apply relu1_apply
  norm1_apply mean1_apply var1_two_forms ofBits_count)

theorem zeroWR1_zero : zeroWR1 = 0 := by
  show Ideal.ofBits .f32 0x00000000#32 = 0
  exact Ideal.ofBits_zero_f32

/-- The kernel's product is the reference's. -/
theorem mm0_lin1 (x : S50000x32.Idx → EReal) (w : S32x32.Idx → EReal) : mm0 x w = lin1 (F := Ideal) x w := by
  funext i
  obtain ⟨r, j, rfl⟩ : ∃ (r : Fin 50000) (j : Fin 32), i = ix2 r j := ⟨i 0, i 1, eq_ix2 i⟩
  exact (lin1_apply x w r j).symm

/-- The kernel's bias and rectifier over the bias as a row are the reference's over the bias as a vector. -/
theorem actR1_relu (a : S50000x32.Idx → EReal) (b : S32.Idx → EReal) :
    actR1 a (shapeCast S1x32 b shapeCasts_S32_S1x32) = relu1 (F := Ideal) (pre1 a b) := by
  funext i
  obtain ⟨r, j, rfl⟩ : ∃ (r : Fin 50000) (j : Fin 32), i = ix2 r j := ⟨i 0, i 1, eq_ix2 i⟩
  rw [relu1_apply, pre1_apply]
  show max (a (ix2 r j) + shapeCast S1x32 b shapeCasts_S32_S1x32 (ix2 (0 : Fin 1) j)) zeroWR1 = _
  rw [shapeCast_a_1a_apply, zeroWR1_zero]

/-- The row of counts the kernel divides by is the real number 50000 in every column. -/
theorem countRow_apply (j : Fin 32) : Cert.KernelIdeal.Chain.countRow (F := Ideal) (ix2 (0 : Fin 1) j) = ((50000 : ℝ) : EReal) := by
  show Ideal.ofBits .f32 0x47435000#32 = _
  exact ofBits_count

/-- The kernel's mean row, at a column, is the reference's mean. -/
theorem mean_row (a : S50000x32.Idx → EReal) (Bb : S1x32.Idx → EReal) (j : Fin 32) :
    Host.divf (F := Ideal) (sumR1 a Bb) Cert.KernelIdeal.Chain.countRow (ix2 (0 : Fin 1) j)
      = mean1 (F := Ideal) (actR1 a Bb) (ix1 j) := by
  rw [mean1_apply]
  show Ideal.div (sumR1 a Bb (ix2 (0 : Fin 1) j)) (Cert.KernelIdeal.Chain.countRow (F := Ideal) (ix2 (0 : Fin 1) j)) = _
  rw [countRow_apply]
  unfold sumR1
  rw [zeroWR1_zero, zero_add]

/-- The kernel's variance row, at a column, is the reference's variance, for real-valued activations. -/
theorem var_row (a : S50000x32.Idx → EReal) (Bb : S1x32.Idx → EReal) (hy : AllReal (actR1 a Bb)) (j : Fin 32) :
    subf (Host.divf (F := Ideal) (sqR1 a Bb) Cert.KernelIdeal.Chain.countRow)
        (mulf (Host.divf (F := Ideal) (sumR1 a Bb) Cert.KernelIdeal.Chain.countRow)
          (Host.divf (F := Ideal) (sumR1 a Bb) Cert.KernelIdeal.Chain.countRow)) (ix2 (0 : Fin 1) j)
      = var1 (F := Ideal) (actR1 a Bb) (ix1 j) := by
  rw [var1_two_forms _ hy j, ← mean_row a Bb j]
  show Ideal.div (sqR1 a Bb (ix2 (0 : Fin 1) j)) (Cert.KernelIdeal.Chain.countRow (F := Ideal) (ix2 (0 : Fin 1) j)) - _ = _
  rw [countRow_apply]
  unfold sqR1
  rw [zeroWR1_zero, zero_add]
  rfl

/-- Layer 1: the kernel's value is the reference's, when the layer's activations are real. -/
theorem layer1 (x : S50000x32.Idx → EReal) (w : S32x32.Idx → EReal) (b g be : S32.Idx → EReal)
    (src dst : IVec S450000 32) (wgt : S450000.Idx → EReal)
    (hact : AllReal (act1 (F := Ideal) x w b src dst wgt)) :
    bn2 (actR1 (agg1 (F := Ideal) (mm0 x w) wgt src dst) (shapeCast S1x32 b shapeCasts_S32_S1x32))
        (Host.divf (F := Ideal) (sumR1 (agg1 (F := Ideal) (mm0 x w) wgt src dst) (shapeCast S1x32 b shapeCasts_S32_S1x32)) Cert.KernelIdeal.Chain.countRow)
        (subf (Host.divf (F := Ideal) (sqR1 (agg1 (F := Ideal) (mm0 x w) wgt src dst) (shapeCast S1x32 b shapeCasts_S32_S1x32)) Cert.KernelIdeal.Chain.countRow)
          (mulf (Host.divf (F := Ideal) (sumR1 (agg1 (F := Ideal) (mm0 x w) wgt src dst) (shapeCast S1x32 b shapeCasts_S32_S1x32)) Cert.KernelIdeal.Chain.countRow)
            (Host.divf (F := Ideal) (sumR1 (agg1 (F := Ideal) (mm0 x w) wgt src dst) (shapeCast S1x32 b shapeCasts_S32_S1x32)) Cert.KernelIdeal.Chain.countRow)))
        (shapeCast S1x32 g shapeCasts_S32_S1x32) (shapeCast S1x32 be shapeCasts_S32_S1x32)
      = refLayer1 (F := Ideal) x w b g be src dst wgt := by
  have hA : actR1 (agg1 (F := Ideal) (mm0 x w) wgt src dst) (shapeCast S1x32 b shapeCasts_S32_S1x32)
      = act1 (F := Ideal) x w b src dst wgt := by
    rw [actR1_relu, mm0_lin1]; rfl
  have hy : AllReal (actR1 (agg1 (F := Ideal) (mm0 x w) wgt src dst) (shapeCast S1x32 b shapeCasts_S32_S1x32)) := hA ▸ hact
  funext i
  obtain ⟨r, j, rfl⟩ : ∃ (r : Fin 50000) (j : Fin 32), i = ix2 r j := ⟨i 0, i 1, eq_ix2 i⟩
  unfold refLayer1
  rw [norm1_apply, ← hA, ← mean_row _ _ j, ← var_row _ _ hy j]
  unfold bn2
  show _ * _ * Ideal.rsqrt (_ + epsW2) + _ = _
  rw [shapeCast_a_1a_apply, shapeCast_a_1a_apply]
  rfl

end Cert.Bridge

end
-- ==== Proof.RegR4.lean ====
/-
  Region 4: the second layer's bias, rectifier and column statistics. The aggregated features (50000 rows, 64 columns) are cut into 25 blocks of 2000 rows and the
  bias is one 64-entry row. At each grid point the kernel adds the bias to the block, clips it below at zero and
  writes the result to the same rows of the first output; the second and third outputs are 64-entry rows that stay
  in place over the whole grid: the first point sets them to zero, and every point adds to them the block's column
  sums and the column sums of its squares. So after point n they hold the column sums over the first (n + 1)·2000
  rows, and after the last point, which alone writes them back, over all 50000 rows.
-/
import proofs.«107715_j23149873725632_1_alg».proof.Proof.Gen.KernelIdeal.Frame
import proofs.«107715_j23149873725632_1_alg».proof.Proof.LibColSum
import proofs.«107715_j23149873725632_1_alg».proof.Proof.LibTileSum
import Idealize.ShloMosaic.Lib.Pipeline.Value
import Idealize.ShloMosaic.Lib.ValueIdx
import Idealize.ShloMosaic.Lib.ValueLayout

set_option maxRecDepth 16384

noncomputable section

namespace Cert.KernelIdeal.RegVal

open Cert.KernelIdeal Cert.KernelIdeal.Gen Idealize.ShloMosaic Idealize.ShloMosaic.TcCoe Idealize.SL.Sem Idealize.ShloMosaic.Tactic
open Idealize.ShloMosaic.ValueIdx
open Idealize.ShloMosaic.Pipeline (Dat)

theorem hzR_4 : (![0, 0] : Fin 2 → Nat) = fun _ => 0 := funext fun a => by fin_cases a <;> rfl

/-! ## What each case of the body leaves in the three outputs -/

section Pieces
variable {F : FTy → Type} [FloatOps F]

theorem pieceA2_4 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S2000x64 .f32) (x1 : Vec F S1x64 .f32) :
    out4_A_2 c i arg1 harg1 arg2 harg2 arg3 harg3 arg4 harg4 arg5 harg5 hc0 x0 x1 = k4_pay3 x0 x1 := by
  unfold out4_A_2
  rw [View.read_writes_eq_canon _ _ _ (cover4_A_2 c i arg1 harg1 arg2 harg2 arg3 harg3 arg4 harg4 arg5 harg5 hc0 x0 x1)]
  unfold kernelRun4_A
  dsimp only
  sl_unfold_words
  rw [View.canon_unit_zero hzR_4]
  simp only [View.readAt_eq_ld, harg1.read_unread, harg2.read_unread,
    View.ld_unit_zero (S := S2000x64) hzR_4, View.ld_unit_zero (S := S1x64) hzR_4]

theorem pieceB2_4 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S2000x64 .f32) (x1 : Vec F S1x64 .f32) (xo3 xo4 : Vec F S1x64 .f32) :
    out4_B_2 c i arg1 harg1 arg2 harg2 arg3 harg3 arg4 harg4 arg5 harg5 hc0 x0 x1 xo3 xo4 = k4_pay3 x0 x1 := by
  unfold out4_B_2
  rw [View.read_writes_eq_canon _ _ _ (cover4_B_2 c i arg1 harg1 arg2 harg2 arg3 harg3 arg4 harg4 arg5 harg5 hc0 x0 x1 xo3 xo4)]
  unfold kernelRun4_B
  dsimp only
  rw [View.canon_unit_zero hzR_4]
  simp only [View.readAt_eq_ld, harg1.read_unread, harg2.read_unread,
    View.ld_unit_zero (S := S2000x64) hzR_4, View.ld_unit_zero (S := S1x64) hzR_4]

theorem pieceA3_4 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S2000x64 .f32) (x1 : Vec F S1x64 .f32) :
    out4_A_3 c i arg1 harg1 arg2 harg2 arg3 harg3 arg4 harg4 arg5 harg5 hc0 x0 x1 = k4_pay4 x0 x1 k4_pay1 := by
  unfold out4_A_3
  rw [View.read_writes_eq_canon _ _ _ (cover4_A_3 c i arg1 harg1 arg2 harg2 arg3 harg3 arg4 harg4 arg5 harg5 hc0 x0 x1)]
  unfold kernelRun4_A
  dsimp only
  sl_unfold_words
  rw [View.canon_cons_unit_zero hzR_4]
  simp only [View.readAt_eq_ld, harg1.read_unread, harg2.read_unread, View.readCov_unit_zero (S := S1x64) arg4.view hzR_4,
    View.ld_unit_zero (S := S2000x64) hzR_4, View.ld_unit_zero (S := S1x64) hzR_4]

theorem pieceB3_4 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S2000x64 .f32) (x1 : Vec F S1x64 .f32) (xo3 xo4 : Vec F S1x64 .f32) :
    out4_B_3 c i arg1 harg1 arg2 harg2 arg3 harg3 arg4 harg4 arg5 harg5 hc0 x0 x1 xo3 xo4 = k4_pay4 x0 x1 xo3 := by
  unfold out4_B_3
  rw [View.read_writes_eq_canon _ _ _ (cover4_B_3 c i arg1 harg1 arg2 harg2 arg3 harg3 arg4 harg4 arg5 harg5 hc0 x0 x1 xo3 xo4)]
  unfold kernelRun4_B
  dsimp only
  rw [View.canon_unit_zero hzR_4]
  simp only [View.readAt_eq_ld, harg1.read_unread, harg2.read_unread, harg4.read_unread,
    View.ld_unit_zero (S := S2000x64) hzR_4, View.ld_unit_zero (S := S1x64) hzR_4]

theorem pieceA4_4 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S2000x64 .f32) (x1 : Vec F S1x64 .f32) :
    out4_A_4 c i arg1 harg1 arg2 harg2 arg3 harg3 arg4 harg4 arg5 harg5 hc0 x0 x1 = k4_pay5 x0 x1 k4_pay2 := by
  unfold out4_A_4
  rw [View.read_writes_eq_canon _ _ _ (cover4_A_4 c i arg1 harg1 arg2 harg2 arg3 harg3 arg4 harg4 arg5 harg5 hc0 x0 x1)]
  unfold kernelRun4_A
  dsimp only
  sl_unfold_words
  rw [View.canon_cons_unit_zero hzR_4]
  simp only [View.readAt_eq_ld, harg1.read_unread, harg2.read_unread, View.readCov_unit_zero (S := S1x64) arg5.view hzR_4,
    View.ld_unit_zero (S := S2000x64) hzR_4, View.ld_unit_zero (S := S1x64) hzR_4]

theorem pieceB4_4 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S2000x64 .f32) (x1 : Vec F S1x64 .f32) (xo3 xo4 : Vec F S1x64 .f32) :
    out4_B_4 c i arg1 harg1 arg2 harg2 arg3 harg3 arg4 harg4 arg5 harg5 hc0 x0 x1 xo3 xo4 = k4_pay5 x0 x1 xo4 := by
  unfold out4_B_4
  rw [View.read_writes_eq_canon _ _ _ (cover4_B_4 c i arg1 harg1 arg2 harg2 arg3 harg3 arg4 harg4 arg5 harg5 hc0 x0 x1 xo3 xo4)]
  unfold kernelRun4_B
  dsimp only
  rw [View.canon_unit_zero hzR_4]
  simp only [View.readAt_eq_ld, harg1.read_unread, harg2.read_unread, harg5.read_unread,
    View.ld_unit_zero (S := S2000x64) hzR_4, View.ld_unit_zero (S := S1x64) hzR_4]

end Pieces

/-! ## The payloads on the extended reals -/

/-- The zero word. -/
def zeroWR4 : EReal := Scalar.ofBits (F := Ideal) .f32 0x00000000#32

/-- The bias added and the rectifier applied, entry by entry. -/
theorem payR3_4 (x0 : Vec Ideal S2000x64 .f32) (x1 : Vec Ideal S1x64 .f32) (p : Fin 2000) (q : Fin 64) :
    k4_pay3 x0 x1 (ix2 p q) = max (x0 (ix2 p q) + x1 (ix2 (0 : Fin 1) q)) zeroWR4 := by
  unfold k4_pay3
  simp only [shapeCast_self, addf, maximumf, broadcast, broadcastTo_1b_ab_apply, Ideal.addf_def, Ideal.maximumf_def, zeroWR4]

/-- The running column sums after a point: what they held plus the block's column sums. -/
theorem payR4_4 (x0 : Vec Ideal S2000x64 .f32) (x1 s : Vec Ideal S1x64 .f32) (q : Fin 64) :
    k4_pay4 x0 x1 s (ix2 (0 : Fin 1) q) = s (ix2 (0 : Fin 1) q) + ∑ p : Fin 2000, k4_pay3 x0 x1 (ix2 p q) := by
  unfold k4_pay4
  simp only [shapeCast_self, addf, Ideal.addf_def]
  exact congrArg (s (ix2 (0 : Fin 1) q) + ·) (Cert.LibColSum.rowOfColSums_apply (k4_pay3 x0 x1) _ _ _ _ 0 q)

/-- The running column sums of squares after a point. -/
theorem payR5_4 (x0 : Vec Ideal S2000x64 .f32) (x1 s : Vec Ideal S1x64 .f32) (q : Fin 64) :
    k4_pay5 x0 x1 s (ix2 (0 : Fin 1) q)
      = s (ix2 (0 : Fin 1) q) + ∑ p : Fin 2000, k4_pay3 x0 x1 (ix2 p q) * k4_pay3 x0 x1 (ix2 p q) := by
  unfold k4_pay5
  simp only [shapeCast_self, addf, Ideal.addf_def]
  refine congrArg (s (ix2 (0 : Fin 1) q) + ·) ((Cert.LibColSum.rowOfColSums_apply (mulf (k4_pay3 x0 x1) (k4_pay3 x0 x1)) _ _ _ _ 0 q).trans ?_)
  simp only [mulf, Ideal.mulf_def]

/-- The first point's reset of the two running rows. -/
theorem payR1_4 (q : Fin 64) : k4_pay1 (F := Ideal) (ix2 (0 : Fin 1) q) = zeroWR4 := by
  unfold k4_pay1; simp only [broadcast, zeroWR4]
theorem payR2_4 (q : Fin 64) : k4_pay2 (F := Ideal) (ix2 (0 : Fin 1) q) = zeroWR4 := by
  unfold k4_pay2; simp only [broadcast, zeroWR4]

variable (V : (c : Dev nD) → (b : Ref sig .tc) → Buf (Elt Ideal) ((c : Thread nD τ).loc b))

/-- The index maps over the 25 grid points: the row blocks move with the point, the three rows stay. -/
theorem idxR4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- The bias added and the rectifier applied to the whole array. -/
def actR4 (A : S50000x64.Idx → EReal) (B : S1x64.Idx → EReal) : S50000x64.Idx → EReal :=
  fun i => max (A i + B (ix2 (0 : Fin 1) (i 1))) zeroWR4

/-- Column `q` of a 50000-row array as a sequence (zero past the last row). -/
def colR4 (Y : S50000x64.Idx → EReal) (q : Fin 64) (s : ℕ) : EReal :=
  if h : s < 50000 then Y (ix2 (⟨s, h⟩ : Fin 50000) q) else 0

set_option maxHeartbeats 4000000 in
/-- What every point leaves in the first output's block: the whole-array activations at the block's rows. -/
theorem afterR2_4 (c : Dev nD) (t : Fin cfg4.N) :
    (outsAt4 V c t.val t.isLt).1 = k4_pay3 (iblk4 V c 0 t) (iblk4 V c 1 t) := by
  by_cases h0 : t.val % 25 = 0
  · exact (congrArg (fun z => z.1) (outsAt4_A V c t h0)).trans
      (pieceA2_4 (F := Ideal) c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t))
  · exact (congrArg (fun z => z.1) (outsAt4_B V c t h0)).trans
      (pieceB2_4 (F := Ideal) c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t)
        (outsAt4 V c (t.val - 1) (Nat.lt_of_le_of_lt (Nat.sub_le _ _) t.isLt)).2.1 (outsAt4 V c (t.val - 1) (Nat.lt_of_le_of_lt (Nat.sub_le _ _) t.isLt)).2.2)

/-- A block's activations are the whole array's at the block's rows. -/
theorem blkAct4 (c : Dev nD) (t : Fin cfg4.N) (A : S50000x64.Idx → EReal) (B : S1x64.Idx → EReal)
    (hA : V c (Pipeline.arrRef spec4 0) = A) (hB : V c (Pipeline.arrRef spec4 1) = B) (p : Fin 2000) (q : Fin 64) :
    k4_pay3 (iblk4 V c 0 t) (iblk4 V c 1 t) (ix2 p q) = colR4 (actR4 A B) q (2000 * t.val + p.val) := by
  have hb0 : iblk4 V c 0 t = ((cfg4.win 0).blk t).view.read (Elt Ideal) A := by unfold iblk4; rw [hA]
  have hb1 : iblk4 V c 1 t = ((cfg4.win 1).blk t).view.read (Elt Ideal) B := by unfold iblk4; rw [hB]
  rw [hb0, hb1]
  refine (payR3_4 _ _ p q).trans ?_
  obtain ⟨e0, e1, e2, e3, e4, e5, e6, e7, e8, e9⟩ := idxR4 t
  have hN : t.val < 25 := lt_of_lt_of_eq t.isLt (show cfg4.N = 25 from N_4)
  have hlt : 2000 * t.val + p.val < 50000 := by have := p.isLt; omega
  have h0 : ((cfg4.win 0).blk t).view.emb (ix2 p q) = ix2 (⟨2000 * t.val + p.val, hlt⟩ : Fin 50000) q := by
    funext a; apply Fin.ext
    match a with
    | ⟨0, _⟩ => show win4_0.index t (0 : Fin 2) * 2000 + 1 * p.val = 2000 * t.val + p.val; omega
    | ⟨1, _⟩ => show win4_0.index t (1 : Fin 2) * 64 + 1 * q.val = q.val; omega
  have h1 : ((cfg4.win 1).blk t).view.emb (ix2 (0 : Fin 1) q) = ix2 (0 : Fin 1) q := by
    funext a; apply Fin.ext
    match a with
    | ⟨0, _⟩ => show win4_1.index t (0 : Fin 2) * 1 + 1 * 0 = 0; omega
    | ⟨1, _⟩ => show win4_1.index t (1 : Fin 2) * 64 + 1 * q.val = q.val; omega
  show max (A (((cfg4.win 0).blk t).view.emb (ix2 p q)) + B (((cfg4.win 1).blk t).view.emb (ix2 (0 : Fin 1) q))) zeroWR4 = _
  rw [congrArg A h0, congrArg B h1]
  unfold colR4 actR4
  rw [dif_pos hlt]

/-! ## The running sums, point by point -/

set_option maxHeartbeats 4000000 in
/-- After point `n` the second output's row holds, in column `q`, the column's sum over the first (n + 1) blocks. -/
theorem acc3_4 (c : Dev nD) (A : S50000x64.Idx → EReal) (B : S1x64.Idx → EReal)
    (hA : V c (Pipeline.arrRef spec4 0) = A) (hB : V c (Pipeline.arrRef spec4 1) = B) :
    ∀ (n : ℕ) (hn : n < cfg4.N) (q : Fin 64),
      (outsAt4 V c n hn).2.1 (ix2 (0 : Fin 1) q)
        = zeroWR4 + Cert.LibTileSum.tileAcc 2000 (colR4 (actR4 A B) q) (n + 1) := by
  intro n
  induction n with
  | zero =>
    intro hn q
    have h : (outsAt4 V c 0 hn).2.1 = k4_pay4 (iblk4 V c 0 ⟨0, hn⟩) (iblk4 V c 1 ⟨0, hn⟩) (k4_pay1 (F := Ideal)) :=
      (congrArg (fun z => z.2.1) (outsAt4_A V c ⟨0, hn⟩ (Nat.zero_mod _))).trans
        (pieceA3_4 (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) ((hcond4_0 ⟨0, hn⟩).mpr (Nat.zero_mod _))
          (iblk4 V c 0 ⟨0, hn⟩) (iblk4 V c 1 ⟨0, hn⟩))
    rw [h, payR4_4, payR1_4, Cert.LibTileSum.tileAcc_succ, Cert.LibTileSum.tileAcc_zero, zero_add]
    exact congrArg (zeroWR4 + ·) (Finset.sum_congr rfl fun p _ => blkAct4 V c ⟨0, hn⟩ A B hA hB p q)
  | succ n ih =>
    intro hn q
    have hN : n + 1 < 25 := lt_of_lt_of_eq hn (show cfg4.N = 25 from N_4)
    have h0 : ¬ (n + 1) % 25 = 0 := by omega
    have h : (outsAt4 V c (n + 1) hn).2.1
        = k4_pay4 (iblk4 V c 0 ⟨n + 1, hn⟩) (iblk4 V c 1 ⟨n + 1, hn⟩) (outsAt4 V c n (Nat.lt_of_succ_lt hn)).2.1 :=
      (congrArg (fun z => z.2.1) (outsAt4_B V c ⟨n + 1, hn⟩ h0)).trans
        (pieceB3_4 (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => h0 ((hcond4_0 ⟨n + 1, hn⟩).mp h))
          (iblk4 V c 0 ⟨n + 1, hn⟩) (iblk4 V c 1 ⟨n + 1, hn⟩)
          (outsAt4 V c n (Nat.lt_of_succ_lt hn)).2.1 (outsAt4 V c n (Nat.lt_of_succ_lt hn)).2.2)
    rw [h, payR4_4, ih (Nat.lt_of_succ_lt hn) q, Cert.LibTileSum.tileAcc_succ 2000 _ (n + 1), add_assoc]
    exact congrArg (fun z => zeroWR4 + (Cert.LibTileSum.tileAcc 2000 (colR4 (actR4 A B) q) (n + 1) + z))
      (Finset.sum_congr rfl fun p _ => blkAct4 V c ⟨n + 1, hn⟩ A B hA hB p q)

set_option maxHeartbeats 4000000 in
/-- After point `n` the third output's row holds, in column `q`, the column's sum of squares over the first (n + 1) blocks. -/
theorem acc4_4 (c : Dev nD) (A : S50000x64.Idx → EReal) (B : S1x64.Idx → EReal)
    (hA : V c (Pipeline.arrRef spec4 0) = A) (hB : V c (Pipeline.arrRef spec4 1) = B) :
    ∀ (n : ℕ) (hn : n < cfg4.N) (q : Fin 64),
      (outsAt4 V c n hn).2.2 (ix2 (0 : Fin 1) q)
        = zeroWR4 + Cert.LibTileSum.tileAcc 2000 (fun s => colR4 (actR4 A B) q s * colR4 (actR4 A B) q s) (n + 1) := by
  intro n
  induction n with
  | zero =>
    intro hn q
    have h : (outsAt4 V c 0 hn).2.2 = k4_pay5 (iblk4 V c 0 ⟨0, hn⟩) (iblk4 V c 1 ⟨0, hn⟩) (k4_pay2 (F := Ideal)) :=
      (congrArg (fun z => z.2.2) (outsAt4_A V c ⟨0, hn⟩ (Nat.zero_mod _))).trans
        (pieceA4_4 (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) ((hcond4_0 ⟨0, hn⟩).mpr (Nat.zero_mod _))
          (iblk4 V c 0 ⟨0, hn⟩) (iblk4 V c 1 ⟨0, hn⟩))
    rw [h, payR5_4, payR2_4, Cert.LibTileSum.tileAcc_succ, Cert.LibTileSum.tileAcc_zero, zero_add]
    exact congrArg (zeroWR4 + ·) (Finset.sum_congr rfl fun p _ => by rw [blkAct4 V c ⟨0, hn⟩ A B hA hB p q])
  | succ n ih =>
    intro hn q
    have hN : n + 1 < 25 := lt_of_lt_of_eq hn (show cfg4.N = 25 from N_4)
    have h0 : ¬ (n + 1) % 25 = 0 := by omega
    have h : (outsAt4 V c (n + 1) hn).2.2
        = k4_pay5 (iblk4 V c 0 ⟨n + 1, hn⟩) (iblk4 V c 1 ⟨n + 1, hn⟩) (outsAt4 V c n (Nat.lt_of_succ_lt hn)).2.2 :=
      (congrArg (fun z => z.2.2) (outsAt4_B V c ⟨n + 1, hn⟩ h0)).trans
        (pieceB4_4 (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => h0 ((hcond4_0 ⟨n + 1, hn⟩).mp h))
          (iblk4 V c 0 ⟨n + 1, hn⟩) (iblk4 V c 1 ⟨n + 1, hn⟩)
          (outsAt4 V c n (Nat.lt_of_succ_lt hn)).2.1 (outsAt4 V c n (Nat.lt_of_succ_lt hn)).2.2)
    rw [h, payR5_4, ih (Nat.lt_of_succ_lt hn) q, Cert.LibTileSum.tileAcc_succ 2000 _ (n + 1), add_assoc]
    exact congrArg (fun z => zeroWR4 + (Cert.LibTileSum.tileAcc 2000 (fun s => colR4 (actR4 A B) q s * colR4 (actR4 A B) q s) (n + 1) + z))
      (Finset.sum_congr rfl fun p _ => by rw [blkAct4 V c ⟨n + 1, hn⟩ A B hA hB p q])

end Cert.KernelIdeal.RegVal

end
-- ==== Proof.RegR4b.lean ====
/-
  Region 4, continued: the three output arrays after the region. The first is the bias and rectifier applied to the whole
  input, block by block; the second and third are the column sums and the column sums of squares of that array
  over all 50000 rows, which the last grid point writes back.
-/
import proofs.«107715_j23149873725632_1_alg».proof.Proof.RegR4

set_option maxRecDepth 16384

noncomputable section

namespace Cert.KernelIdeal.RegVal

open Cert.KernelIdeal Cert.KernelIdeal.Gen Idealize.ShloMosaic Idealize.ShloMosaic.TcCoe Idealize.SL.Sem Idealize.ShloMosaic.Tactic
open Idealize.ShloMosaic.ValueIdx
open Idealize.ShloMosaic.Pipeline (Dat)

variable (V : (c : Dev nD) → (b : Ref sig .tc) → Buf (Elt Ideal) ((c : Thread nD τ).loc b))

set_option maxHeartbeats 2000000 in
/-- What point `t` writes back to the first output is block `t` of the whole array of activations. -/
theorem flushedR2_4 (c : Dev nD) (t : Fin cfg4.N) (A : S50000x64.Idx → EReal) (B : S1x64.Idx → EReal)
    (hA : V c (Pipeline.arrRef spec4 0) = A) (hB : V c (Pipeline.arrRef spec4 1) = B) :
    (dat4 V c).flushed 2 t = ((cfg4.win 2).blk t).view.read (Elt Ideal) (actR4 A B) := by
  have hN : t.val < 25 := lt_of_lt_of_eq t.isLt (show cfg4.N = 25 from N_4)
  obtain ⟨e0, e1, e2, e3, e4, e5, e6, e7, e8, e9⟩ := idxR4 t
  show (cfg4.win 2).cut (grid4.coords t) ((dat4 V c).after 2 t) = _
  rw [after4_2, afterR2_4 V c t]
  funext j
  obtain ⟨p, q, rfl⟩ : ∃ (p : Fin 2000) (q : Fin 64), j = ix2 p q := ⟨j 0, j 1, eq_ix2 j⟩
  refine (blkAct4 V c t A B hA hB p q).trans ?_
  have hlt : 2000 * t.val + p.val < 50000 := by have := p.isLt; omega
  unfold colR4
  rw [dif_pos hlt]
  show actR4 A B (ix2 (⟨2000 * t.val + p.val, hlt⟩ : Fin 50000) q) = actR4 A B (((cfg4.win 2).blk t).view.emb (ix2 p q))
  refine congrArg (actR4 A B) ?_
  funext a; apply Fin.ext
  match a with
  | ⟨0, _⟩ => show 2000 * t.val + p.val = win4_2.index t (0 : Fin 2) * 2000 + 1 * p.val; omega
  | ⟨1, _⟩ => show q.val = win4_2.index t (1 : Fin 2) * 64 + 1 * q.val; omega

/-- An index of the first output is in point `t`'s block iff each coordinate is in the block's range on its axis. -/
theorem mem_blkR2_4 (t : Fin cfg4.N) (i : S50000x64.Idx) :
    i ∈ ((cfg4.win 2).blk t).view.set ↔ ∀ a : Fin 2, win4_2.index t a * S2000x64.size a ≤ (i a).val
      ∧ (i a).val < win4_2.index t a * S2000x64.size a + S2000x64.size a := by
  show i ∈ ((View.whole main_v76_0).slice (win4_2.rect t)).set ↔ _
  rw [View.set_slice_whole, Rect.mem_set_unit]
  exact Iff.rfl

/-- Every block of rows is some point's. -/
theorem idx_ontoR2_4 : ∀ q0 : Fin 25, ∃ t : Fin cfg4.N, win4_2.index t = ![q0.val, 0] :=
  (by decide +kernel : ∀ q0 : Fin 25, ∃ t : Fin grid4.N, win4_2.index t = ![q0.val, 0])

/-- The 25 blocks of 2000 rows tile the 50000 rows. -/
theorem coverR2_4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := idx_ontoR2_4 ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blkR2_4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 64 ≤ (i 1).val ∧ (i 1).val < win4_2.index t (1 : Fin 2) * 64 + 64; omega

/-- After the region the first output holds the activations of the whole input. -/
theorem finalR2_4 (c : Dev nD) (A : S50000x64.Idx → EReal) (B : S1x64.Idx → EReal)
    (hA : V c (Pipeline.arrRef spec4 0) = A) (hB : V c (Pipeline.arrRef spec4 1) = B) :
    (dat4 V c).arrAt 2 cfg4.N = actR4 A B :=
  (dat4 V c).arrAt_eq_of_cover 2 _ (fun t _ => flushedR2_4 V c t A B hA hB) coverR2_4

/-- The column sums of the activations over all 50000 rows (from the zero word). -/
def sumR4 (A : S50000x64.Idx → EReal) (B : S1x64.Idx → EReal) : S1x64.Idx → EReal :=
  fun j => zeroWR4 + ∑ s : Fin 50000, actR4 A B (ix2 s (j 1))

set_option maxHeartbeats 2000000 in
/-- Only the last point writes this row back, and what it writes is the sum over all 25 blocks. -/
theorem flushedR3_4 (c : Dev nD) (t : Fin cfg4.N) (hf : (cfg4.win 3).flush t = true)
    (A : S50000x64.Idx → EReal) (B : S1x64.Idx → EReal)
    (hA : V c (Pipeline.arrRef spec4 0) = A) (hB : V c (Pipeline.arrRef spec4 1) = B) :
    (dat4 V c).flushed 3 t = ((cfg4.win 3).blk t).view.read (Elt Ideal) (sumR4 A B) := by
  have hN : t.val < 25 := lt_of_lt_of_eq t.isLt (show cfg4.N = 25 from N_4)
  have h24 : t.val % 25 = 24 := (flush4_3 t).mp hf
  have ht : t.val + 1 = 25 := by omega
  obtain ⟨e0, e1, e2, e3, e4, e5, e6, e7, e8, e9⟩ := idxR4 t
  show (cfg4.win 3).cut (grid4.coords t) ((dat4 V c).after 3 t) = _
  rw [after4_3]
  funext j
  obtain ⟨u, q, rfl⟩ : ∃ (u : Fin 1) (q : Fin 64), j = ix2 u q := ⟨j 0, j 1, eq_ix2 j⟩
  obtain rfl : u = 0 := Subsingleton.elim _ _
  refine (acc3_4 V c A B hA hB t.val t.isLt q).trans ?_
  rw [ht, Cert.LibTileSum.tileAcc_all 25 2000]
  show zeroWR4 + ∑ s : Fin 50000, colR4 (actR4 A B) q s.val = sumR4 A B (((cfg4.win 3).blk t).view.emb (ix2 (0 : Fin 1) q))
  unfold sumR4
  refine congrArg (zeroWR4 + ·) (Finset.sum_congr rfl fun s _ => ?_)
  have hq : ix2 s q = ix2 s ((((cfg4.win 3).blk t).view.emb (ix2 (0 : Fin 1) q)) 1) := by
    funext a; apply Fin.ext
    match a with
    | ⟨0, _⟩ => rfl
    | ⟨1, _⟩ => show q.val = win4_3.index t (1 : Fin 2) * 64 + 1 * q.val; omega
  unfold colR4
  rw [dif_pos s.isLt]
  show actR4 A B (ix2 s q) = _
  rw [hq]
  rfl

/-- An index of the row is in point `t`'s block iff each coordinate is in the block's range on its axis. -/
theorem mem_blkR3_4 (t : Fin cfg4.N) (i : S1x64.Idx) :
    i ∈ ((cfg4.win 3).blk t).view.set ↔ ∀ a : Fin 2, win4_3.index t a * S1x64.size a ≤ (i a).val
      ∧ (i a).val < win4_3.index t a * S1x64.size a + S1x64.size a := by
  show i ∈ ((View.whole main_v76_1).slice (win4_3.rect t)).set ↔ _
  rw [View.set_slice_whole, Rect.mem_set_unit]
  exact Iff.rfl

/-- The last point's block is the whole row. -/
theorem coverR3_4 (i : S1x64.Idx) :
    ∃ t : Fin cfg4.N, (cfg4.win 3).flush t = true ∧ i ∈ ((cfg4.win 3).blk t).view.set := by
  have hi0 : (i 0).val < 1 := (i 0).isLt
  have hi1 : (i 1).val < 64 := (i 1).isLt
  have h24 : 24 < cfg4.N := by rw [show cfg4.N = 25 from N_4]; omega
  obtain ⟨e0, e1, e2, e3, e4, e5, e6, e7, e8, e9⟩ := idxR4 ⟨24, h24⟩
  refine ⟨⟨24, h24⟩, (flush4_3 _).mpr (show (24 : ℕ) % 25 = 24 from rfl), ?_⟩
  rw [mem_blkR3_4]
  intro a
  match a with
  | ⟨0, _⟩ => show win4_3.index ⟨24, h24⟩ (0 : Fin 2) * 1 ≤ (i 0).val ∧ (i 0).val < win4_3.index ⟨24, h24⟩ (0 : Fin 2) * 1 + 1; omega
  | ⟨1, _⟩ => show win4_3.index ⟨24, h24⟩ (1 : Fin 2) * 64 ≤ (i 1).val ∧ (i 1).val < win4_3.index ⟨24, h24⟩ (1 : Fin 2) * 64 + 64; omega

/-- After the region the row holds the column statistic over all 50000 rows. -/
theorem finalR3_4 (c : Dev nD) (A : S50000x64.Idx → EReal) (B : S1x64.Idx → EReal)
    (hA : V c (Pipeline.arrRef spec4 0) = A) (hB : V c (Pipeline.arrRef spec4 1) = B) :
    (dat4 V c).arrAt 3 cfg4.N = sumR4 A B :=
  (dat4 V c).arrAt_eq_of_cover 3 _ (fun t hf => flushedR3_4 V c t hf A B hA hB) coverR3_4

/-- The column sums of the squared activations over all 50000 rows (from the zero word). -/
def sqR4 (A : S50000x64.Idx → EReal) (B : S1x64.Idx → EReal) : S1x64.Idx → EReal :=
  fun j => zeroWR4 + ∑ s : Fin 50000, actR4 A B (ix2 s (j 1)) * actR4 A B (ix2 s (j 1))

set_option maxHeartbeats 2000000 in
/-- Only the last point writes this row back, and what it writes is the sum over all 25 blocks. -/
theorem flushedR4_4 (c : Dev nD) (t : Fin cfg4.N) (hf : (cfg4.win 4).flush t = true)
    (A : S50000x64.Idx → EReal) (B : S1x64.Idx → EReal)
    (hA : V c (Pipeline.arrRef spec4 0) = A) (hB : V c (Pipeline.arrRef spec4 1) = B) :
    (dat4 V c).flushed 4 t = ((cfg4.win 4).blk t).view.read (Elt Ideal) (sqR4 A B) := by
  have hN : t.val < 25 := lt_of_lt_of_eq t.isLt (show cfg4.N = 25 from N_4)
  have h24 : t.val % 25 = 24 := (flush4_4 t).mp hf
  have ht : t.val + 1 = 25 := by omega
  obtain ⟨e0, e1, e2, e3, e4, e5, e6, e7, e8, e9⟩ := idxR4 t
  show (cfg4.win 4).cut (grid4.coords t) ((dat4 V c).after 4 t) = _
  rw [after4_4]
  funext j
  obtain ⟨u, q, rfl⟩ : ∃ (u : Fin 1) (q : Fin 64), j = ix2 u q := ⟨j 0, j 1, eq_ix2 j⟩
  obtain rfl : u = 0 := Subsingleton.elim _ _
  refine (acc4_4 V c A B hA hB t.val t.isLt q).trans ?_
  rw [ht, Cert.LibTileSum.tileAcc_all 25 2000]
  show zeroWR4 + ∑ s : Fin 50000, colR4 (actR4 A B) q s.val * colR4 (actR4 A B) q s.val = sqR4 A B (((cfg4.win 4).blk t).view.emb (ix2 (0 : Fin 1) q))
  unfold sqR4
  refine congrArg (zeroWR4 + ·) (Finset.sum_congr rfl fun s _ => ?_)
  have hq : ix2 s q = ix2 s ((((cfg4.win 4).blk t).view.emb (ix2 (0 : Fin 1) q)) 1) := by
    funext a; apply Fin.ext
    match a with
    | ⟨0, _⟩ => rfl
    | ⟨1, _⟩ => show q.val = win4_4.index t (1 : Fin 2) * 64 + 1 * q.val; omega
  unfold colR4
  rw [dif_pos s.isLt]
  show actR4 A B (ix2 s q) * actR4 A B (ix2 s q) = _
  rw [hq]
  rfl

/-- An index of the row is in point `t`'s block iff each coordinate is in the block's range on its axis. -/
theorem mem_blkR4_4 (t : Fin cfg4.N) (i : S1x64.Idx) :
    i ∈ ((cfg4.win 4).blk t).view.set ↔ ∀ a : Fin 2, win4_4.index t a * S1x64.size a ≤ (i a).val
      ∧ (i a).val < win4_4.index t a * S1x64.size a + S1x64.size a := by
  show i ∈ ((View.whole main_v76_2).slice (win4_4.rect t)).set ↔ _
  rw [View.set_slice_whole, Rect.mem_set_unit]
  exact Iff.rfl

/-- The last point's block is the whole row. -/
theorem coverR4_4 (i : S1x64.Idx) :
    ∃ t : Fin cfg4.N, (cfg4.win 4).flush t = true ∧ i ∈ ((cfg4.win 4).blk t).view.set := by
  have hi0 : (i 0).val < 1 := (i 0).isLt
  have hi1 : (i 1).val < 64 := (i 1).isLt
  have h24 : 24 < cfg4.N := by rw [show cfg4.N = 25 from N_4]; omega
  obtain ⟨e0, e1, e2, e3, e4, e5, e6, e7, e8, e9⟩ := idxR4 ⟨24, h24⟩
  refine ⟨⟨24, h24⟩, (flush4_4 _).mpr (show (24 : ℕ) % 25 = 24 from rfl), ?_⟩
  rw [mem_blkR4_4]
  intro a
  match a with
  | ⟨0, _⟩ => show win4_4.index ⟨24, h24⟩ (0 : Fin 2) * 1 ≤ (i 0).val ∧ (i 0).val < win4_4.index ⟨24, h24⟩ (0 : Fin 2) * 1 + 1; omega
  | ⟨1, _⟩ => show win4_4.index ⟨24, h24⟩ (1 : Fin 2) * 64 ≤ (i 1).val ∧ (i 1).val < win4_4.index ⟨24, h24⟩ (1 : Fin 2) * 64 + 64; omega

/-- After the region the row holds the column statistic over all 50000 rows. -/
theorem finalR4_4 (c : Dev nD) (A : S50000x64.Idx → EReal) (B : S1x64.Idx → EReal)
    (hA : V c (Pipeline.arrRef spec4 0) = A) (hB : V c (Pipeline.arrRef spec4 1) = B) :
    (dat4 V c).arrAt 4 cfg4.N = sqR4 A B :=
  (dat4 V c).arrAt_eq_of_cover 4 _ (fun t hf => flushedR4_4 V c t hf A B hA hB) coverR4_4

end Cert.KernelIdeal.RegVal

end
-- ==== Proof.RefMath2.lean ====
import proofs.«107715_j23149873725632_1_alg».proof.Proof.RefOpsRead2
import proofs.«107715_j23149873725632_1_alg».proof.Proof.RefMath1
import proofs.«107715_j23149873725632_1_alg».proof.Proof.LibDotRows
import proofs.«107715_j23149873725632_1_alg».proof.Proof.LibBcast
import Idealize.ShloMosaic.Lib.IdealHost

/-! Layer 2's named sub-stages read at an entry, on the extended reals: RefMath1.lean's statements at this layer's
    widths (32 in, 64 out). -/

noncomputable section

namespace Cert.ReferenceIdeal.HandRun

open Cert.ReferenceIdeal Cert.ReferenceIdeal.Gen Idealize.ShloMosaic Idealize.ShloMosaic.ValueIdx

/-- (M1) The matrix product at an entry: the sum over the 32 input columns. -/
theorem lin2_apply (x : FVec Ideal S50000x32 .f32) (w : FVec Ideal S32x64 .f32) (r : Fin 50000) (j : Fin 64) :
    lin2 x w (ix2 r j) = ∑ k : Fin 32, x (ix2 r k) * w (ix2 k j) :=
  Cert.LibDotRows.dot_rows_cols dot_S50000x32_S32x64_S50000x64_1_0_0_1_n_n_wf none x w r j

/-- A row vector repeated down the rows reads, at (r, j), the vector at j (for any float values). -/
theorem rows2_apply {F : FTy → Type} [FloatOps F] (v : FVec F S64 .f32) (r : Fin 50000) (j : Fin 64) :
    rows2 v (ix2 r j) = v (ix1 j) :=
  (Cert.LibBcast.rowDownRows_apply _ bcast_S1x64_S50000x64_0_1 r j).trans
    (Cert.LibBcast.vecAsRow_apply v bcast_S64_S1x64_1 0 j)

/-- A rank-zero value spread over the 64 columns reads that value. -/
theorem splat2_apply {α : Type} (c : S_.Idx → α) (j : Fin 64) :
    broadcastInDim S64 ![] bcast_S_S64 c (ix1 j) = c ix0 :=
  broadcastInDim_scalar_apply bcast_S_S64 c (ix1 j)

/-- (M2) The pre-activation at an entry: the aggregate's entry plus the bias of its column. -/
theorem pre2_apply (a : FVec Ideal S50000x64 .f32) (b : FVec Ideal S64 .f32) (r : Fin 50000) (j : Fin 64) :
    pre2 a b (ix2 r j) = a (ix2 r j) + b (ix1 j) := by
  show addf a (rows2 b) (ix2 r j) = _
  rw [addf_apply, rows2_apply]

/-- (M2) The rectifier at an entry: the maximum with the real zero. -/
theorem relu2_apply (z : FVec Ideal S50000x64 .f32) (r : Fin 50000) (j : Fin 64) :
    relu2 z (ix2 r j) = max (z (ix2 r j)) 0 := by
  show maximumf z (broadcastInDim S50000x64 ![] bcast_S_S50000x64 (constant (F := Ideal) S_ .f32 0x00000000#32)) (ix2 r j) = _
  rw [maximumf_apply, broadcastInDim_scalar_apply, constant_apply, Ideal.ofBits_zero_f32]

/-- (M4) The normalisation at an entry; the word 0x3727C5AC is the f32 nearest 1e-5. -/
theorem norm2_apply (y : FVec Ideal S50000x64 .f32) (μ σ2 γ β : FVec Ideal S64 .f32) (r : Fin 50000) (j : Fin 64) :
    norm2 y μ σ2 γ β (ix2 r j)
      = γ (ix1 j) * (y (ix2 r j) - μ (ix1 j)) * Ideal.rsqrt (σ2 (ix1 j) + Ideal.ofBits .f32 0x3727C5AC#32) + β (ix1 j) := by
  show addf (mulf (mulf (rows2 γ) (subf y (rows2 μ)))
      (rows2 (Host.rsqrt (F := Ideal) (addf σ2 (broadcastInDim S64 ![] bcast_S_S64 (constant (F := Ideal) S_ .f32 0x3727C5AC#32))))))
    (rows2 β) (ix2 r j) = _
  rw [addf_apply, mulf_apply, mulf_apply, subf_apply, rows2_apply, rows2_apply, rows2_apply, rows2_apply]
  show _ * _ * FloatOps.hostUnary .rsqrt (addf σ2 (broadcastInDim S64 ![] bcast_S_S64 (constant (F := Ideal) S_ .f32 0x3727C5AC#32)) (ix1 j)) + _ = _
  rw [addf_apply, splat2_apply, constant_apply]
  rfl

/-- The layer's output at an entry: the normalisation of the rectified pre-activation by its own column statistics. -/
theorem refLayer2_apply (x : FVec Ideal S50000x32 .f32) (w : FVec Ideal S32x64 .f32) (b γ β : FVec Ideal S64 .f32)
    (src dst : IVec S450000 32) (wgt : FVec Ideal S450000 .f32) (r : Fin 50000) (j : Fin 64) :
    refLayer2 x w b γ β src dst wgt (ix2 r j)
      = γ (ix1 j) * (act2 x w b src dst wgt (ix2 r j) - mean2 (act2 x w b src dst wgt) (ix1 j))
          * Ideal.rsqrt (var2 (act2 x w b src dst wgt) (ix1 j) + Ideal.ofBits .f32 0x3727C5AC#32) + β (ix1 j) :=
  norm2_apply _ _ _ _ _ r j

end Cert.ReferenceIdeal.HandRun

end
-- ==== Proof.RefMath2Stats.lean ====
import proofs.«107715_j23149873725632_1_alg».proof.Proof.RefMath2
import proofs.«107715_j23149873725632_1_alg».proof.Proof.RefMath1Stats

/-! Layer 2's column statistics read at a column, on the extended reals: RefMath1Stats.lean's statements at width 64
    (AllReal, the comparison lemma, the count word and the variance's divisor are layer 1's). -/

set_option maxRecDepth 8192

noncomputable section

namespace Cert.ReferenceIdeal.HandRun

open Cert.ReferenceIdeal Cert.ReferenceIdeal.Gen Idealize.ShloMosaic Idealize.ShloMosaic.ValueIdx

/-- The column sum at column j (the host sum starts from the zero word: 0 + s = s). -/
theorem colSum2_apply (y : FVec Ideal S50000x64 .f32) (j : Fin 64) : colSum2 y (ix1 j) = ∑ r : Fin 50000, y (ix2 r j) := by
  show Host.reduceAdd y (constant (F := Ideal) S_ .f32 0x00000000#32) reducesTo_S50000x64_S64_d0 h_S_ (ix1 j) = _
  rw [hostReduceAdd_apply, Ideal.hostReduceAdd_single reducesTo_S50000x64_S64_d0 (by decide : S50000x64.Reduces [0] S64),
    constant_apply, Ideal.ofBits_zero_f32, zero_add]
  refine Finset.sum_congr rfl fun i _ => congrArg y ?_
  funext ax; apply Fin.ext
  match ax with
  | ⟨0, _⟩ => rfl
  | ⟨1, _⟩ => rfl

/-- (M3) The mean at column j. -/
theorem mean2_apply (y : FVec Ideal S50000x64 .f32) (j : Fin 64) :
    mean2 y (ix1 j) = Ideal.div (∑ r : Fin 50000, y (ix2 r j)) ((50000 : ℝ) : EReal) := by
  show Host.divf (F := Ideal) (colSum2 y) (broadcastInDim S64 ![] bcast_S_S64 (constant (F := Ideal) S_ .f32 0x47435000#32)) (ix1 j) = _
  rw [hostDivf_apply, colSum2_apply, splat2_apply, constant_apply, ofBits_count]

/-- A centred entry: the entry less its column's mean. -/
theorem centered2_apply (y : FVec Ideal S50000x64 .f32) (r : Fin 50000) (j : Fin 64) :
    centered2 y (ix2 r j) = y (ix2 r j) - Ideal.div (∑ s : Fin 50000, y (ix2 s j)) ((50000 : ℝ) : EReal) := by
  show subf y (broadcastInDim S50000x64 ![0, 1] bcast_S1x64_S50000x64_0_1
      (Host.divf (F := Ideal) (broadcastInDim S1x64 ![1] bcast_S64_S1x64_1 (colSum2 y))
        (broadcastInDim S1x64 ![] bcast_S_S1x64 (constant (F := Ideal) S_ .f32 0x47435000#32)))) (ix2 r j) = _
  rw [subf_apply, Cert.LibBcast.rowDownRows_apply, hostDivf_apply, Cert.LibBcast.vecAsRow_apply, broadcastInDim_scalar_apply,
    constant_apply, colSum2_apply, ofBits_count]

/-- (M3) The variance at column j, its guard resolved: the mean of the squared deviations from the column's mean. -/
theorem var2_apply (y : FVec Ideal S50000x64 .f32) (j : Fin 64) :
    var2 y (ix1 j)
      = Ideal.div (∑ r : Fin 50000,
            (y (ix2 r j) - Ideal.div (∑ s : Fin 50000, y (ix2 s j)) ((50000 : ℝ) : EReal))
              * (y (ix2 r j) - Ideal.div (∑ s : Fin 50000, y (ix2 s j)) ((50000 : ℝ) : EReal))) ((50000 : ℝ) : EReal) := by
  show select (broadcastInDim S64 ![] bcast_S_S64 (cmpf .ogt (varCount (F := Ideal)) (constant (F := Ideal) S_ .f32 0x00000000#32)))
      (Host.divf (F := Ideal) (colSum2 (mulf (centered2 y) (centered2 y))) (broadcastInDim S64 ![] bcast_S_S64 (varCount (F := Ideal))))
      (broadcastInDim S64 ![] bcast_S_S64 (id (constant (F := Ideal) S_ .f32 0x7FC00000#32))) (ix1 j) = _
  rw [select_apply, splat2_apply, cmpf_apply, varCount_apply, constant_apply, Ideal.ofBits_zero_f32]
  rw [show FloatOps.cmpf (F := Ideal) .ogt ((50000 : ℝ) : EReal) 0 = 1#1 from (cmp_ogt_coe_zero 50000).mpr (by norm_num),
    select_one, hostDivf_apply, colSum2_apply, splat2_apply, varCount_apply]
  have hsum : (∑ r : Fin 50000, mulf (centered2 y) (centered2 y) (ix2 r j))
      = ∑ r : Fin 50000,
          (y (ix2 r j) - Ideal.div (∑ s : Fin 50000, y (ix2 s j)) ((50000 : ℝ) : EReal))
            * (y (ix2 r j) - Ideal.div (∑ s : Fin 50000, y (ix2 s j)) ((50000 : ℝ) : EReal)) :=
    Finset.sum_congr rfl fun r _ => by rw [mulf_apply, centered2_apply]
  rw [hsum]

/-- (M6) For real-valued data the variance is the mean of the squares less the squared mean. -/
theorem var2_two_forms (y : FVec Ideal S50000x64 .f32) (hy : AllReal y) (j : Fin 64) :
    var2 y (ix1 j)
      = Ideal.div (∑ r : Fin 50000, y (ix2 r j) * y (ix2 r j)) ((50000 : ℝ) : EReal) - mean2 y (ix1 j) * mean2 y (ix1 j) := by
  rw [var2_apply, mean2_apply]
  choose h hh using hy
  have key := LibBatchVariance.variance_two_forms (fun r : Fin 50000 => h (ix2 r j)) 50000 (by norm_num) (by simp)
  simp only [hh]
  exact key

/-- The mean of real-valued data is real. -/
theorem mean2_real (y : FVec Ideal S50000x64 .f32) (hy : AllReal y) (j : Fin 64) : ∃ q : ℝ, mean2 y (ix1 j) = (q : EReal) := by
  rw [mean2_apply]
  choose h hh using hy
  refine ⟨(∑ r : Fin 50000, h (ix2 r j)) * (1 / 50000), ?_⟩
  have key := LibBatchVariance.mean_real (fun r : Fin 50000 => h (ix2 r j)) 50000 (by norm_num)
  simp only [hh]
  exact key

/-- The variance of real-valued data is a nonnegative real. -/
theorem var2_real (y : FVec Ideal S50000x64 .f32) (hy : AllReal y) (j : Fin 64) :
    ∃ v : ℝ, 0 ≤ v ∧ var2 y (ix1 j) = (v : EReal) := by
  rw [var2_apply]
  choose h hh using hy
  obtain ⟨v, hv, key⟩ := LibBatchVariance.variance_real (fun r : Fin 50000 => h (ix2 r j)) 50000 (by norm_num)
  refine ⟨v, hv, ?_⟩
  simp only [hh]
  exact key

end Cert.ReferenceIdeal.HandRun

end
-- ==== Proof.Bridge2.lean ====
/-
  Layer 2, the two sides joined. The kernel computes the layer as: the matrix product, the weighted aggregate over
  the edges, the bias and the rectifier with the column sums s and the column sums of squares ss, then
  mean = s / N, variance = ss / N − mean², and scale · (a − mean) · (variance + ε)^(−1/2) + shift. The reference
  computes the same product, aggregate, bias and rectifier, takes the mean as the column sum over N, the variance
  as the mean of the squared deviations from the mean, and normalises in the same way. For real-valued activations
  the two variances are one number: the mean of the squared deviations is the mean of the squares less the squared
  mean. Everything else agrees entry by entry.
-/
import proofs.«107715_j23149873725632_1_alg».proof.Proof.RegMM3
import proofs.«107715_j23149873725632_1_alg».proof.Proof.RegR4b
import proofs.«107715_j23149873725632_1_alg».proof.Proof.RegBN5
import proofs.«107715_j23149873725632_1_alg».proof.Proof.RefMath2Stats
import proofs.«107715_j23149873725632_1_alg».proof.Proof.KerChain2
import Idealize.ShloMosaic.Lib.ValueLayout

noncomputable section

namespace Cert.Bridge

open Idealize.ShloMosaic Idealize.ShloMosaic.ValueIdx
open Cert.KernelIdeal Cert.KernelIdeal.RegVal Cert.KernelIdeal.Gen
open Cert.ReferenceIdeal.HandRun (AllReal lin2 agg2 pre2 relu2 act2 mean2 var2 norm2 refLayer2 lin2_apply pre2_apply relu2_apply
  norm2_apply mean2_apply var2_two_forms ofBits_count)

theorem zeroWR4_zero : zeroWR4 = 0 := by
  show Ideal.ofBits .f32 0x00000000#32 = 0
  exact Ideal.ofBits_zero_f32

/-- The kernel's product is the reference's. -/
theorem mm3_lin2 (x : S50000x32.Idx → EReal) (w : S32x64.Idx → EReal) : mm3 x w = lin2 (F := Ideal) x w := by
  funext i
  obtain ⟨r, j, rfl⟩ : ∃ (r : Fin 50000) (j : Fin 64), i = ix2 r j := ⟨i 0, i 1, eq_ix2 i⟩
  exact (lin2_apply x w r j).symm

/-- The kernel's bias and rectifier over the bias as a row are the reference's over the bias as a vector. -/
theorem actR4_relu (a : S50000x64.Idx → EReal) (b : S64.Idx → EReal) :
    actR4 a (shapeCast S1x64 b shapeCasts_S64_S1x64) = relu2 (F := Ideal) (pre2 a b) := by
  funext i
  obtain ⟨r, j, rfl⟩ : ∃ (r : Fin 50000) (j : Fin 64), i = ix2 r j := ⟨i 0, i 1, eq_ix2 i⟩
  rw [relu2_apply, pre2_apply]
  show max (a (ix2 r j) + shapeCast S1x64 b shapeCasts_S64_S1x64 (ix2 (0 : Fin 1) j)) zeroWR4 = _
  rw [shapeCast_a_1a_apply, zeroWR4_zero]

/-- The row of counts the kernel divides by is the real number 50000 in every column. -/
theorem countRow2_apply (j : Fin 64) : Cert.KernelIdeal.Chain.countRow2 (F := Ideal) (ix2 (0 : Fin 1) j) = ((50000 : ℝ) : EReal) := by
  show Ideal.ofBits .f32 0x47435000#32 = _
  exact ofBits_count

/-- The kernel's mean row, at a column, is the reference's mean. -/
theorem mean_row2 (a : S50000x64.Idx → EReal) (Bb : S1x64.Idx → EReal) (j : Fin 64) :
    Host.divf (F := Ideal) (sumR4 a Bb) Cert.KernelIdeal.Chain.countRow2 (ix2 (0 : Fin 1) j)
      = mean2 (F := Ideal) (actR4 a Bb) (ix1 j) := by
  rw [mean2_apply]
  show Ideal.div (sumR4 a Bb (ix2 (0 : Fin 1) j)) (Cert.KernelIdeal.Chain.countRow2 (F := Ideal) (ix2 (0 : Fin 1) j)) = _
  rw [countRow2_apply]
  unfold sumR4
  rw [zeroWR4_zero, zero_add]

/-- The kernel's variance row, at a column, is the reference's variance, for real-valued activations. -/
theorem var_row2 (a : S50000x64.Idx → EReal) (Bb : S1x64.Idx → EReal) (hy : AllReal (actR4 a Bb)) (j : Fin 64) :
    subf (Host.divf (F := Ideal) (sqR4 a Bb) Cert.KernelIdeal.Chain.countRow2)
        (mulf (Host.divf (F := Ideal) (sumR4 a Bb) Cert.KernelIdeal.Chain.countRow2)
          (Host.divf (F := Ideal) (sumR4 a Bb) Cert.KernelIdeal.Chain.countRow2)) (ix2 (0 : Fin 1) j)
      = var2 (F := Ideal) (actR4 a Bb) (ix1 j) := by
  rw [var2_two_forms _ hy j, ← mean_row2 a Bb j]
  show Ideal.div (sqR4 a Bb (ix2 (0 : Fin 1) j)) (Cert.KernelIdeal.Chain.countRow2 (F := Ideal) (ix2 (0 : Fin 1) j)) - _ = _
  rw [countRow2_apply]
  unfold sqR4
  rw [zeroWR4_zero, zero_add]
  rfl

/-- Layer 2: the kernel's value is the reference's, when the layer's activations are real. -/
theorem layer2 (x : S50000x32.Idx → EReal) (w : S32x64.Idx → EReal) (b g be : S64.Idx → EReal)
    (src dst : IVec S450000 32) (wgt : S450000.Idx → EReal)
    (hact : AllReal (act2 (F := Ideal) x w b src dst wgt)) :
    bn5 (actR4 (agg2 (F := Ideal) (mm3 x w) wgt src dst) (shapeCast S1x64 b shapeCasts_S64_S1x64))
        (Host.divf (F := Ideal) (sumR4 (agg2 (F := Ideal) (mm3 x w) wgt src dst) (shapeCast S1x64 b shapeCasts_S64_S1x64)) Cert.KernelIdeal.Chain.countRow2)
        (subf (Host.divf (F := Ideal) (sqR4 (agg2 (F := Ideal) (mm3 x w) wgt src dst) (shapeCast S1x64 b shapeCasts_S64_S1x64)) Cert.KernelIdeal.Chain.countRow2)
          (mulf (Host.divf (F := Ideal) (sumR4 (agg2 (F := Ideal) (mm3 x w) wgt src dst) (shapeCast S1x64 b shapeCasts_S64_S1x64)) Cert.KernelIdeal.Chain.countRow2)
            (Host.divf (F := Ideal) (sumR4 (agg2 (F := Ideal) (mm3 x w) wgt src dst) (shapeCast S1x64 b shapeCasts_S64_S1x64)) Cert.KernelIdeal.Chain.countRow2)))
        (shapeCast S1x64 g shapeCasts_S64_S1x64) (shapeCast S1x64 be shapeCasts_S64_S1x64)
      = refLayer2 (F := Ideal) x w b g be src dst wgt := by
  have hA : actR4 (agg2 (F := Ideal) (mm3 x w) wgt src dst) (shapeCast S1x64 b shapeCasts_S64_S1x64)
      = act2 (F := Ideal) x w b src dst wgt := by
    rw [actR4_relu, mm3_lin2]; rfl
  have hy : AllReal (actR4 (agg2 (F := Ideal) (mm3 x w) wgt src dst) (shapeCast S1x64 b shapeCasts_S64_S1x64)) := hA ▸ hact
  funext i
  obtain ⟨r, j, rfl⟩ : ∃ (r : Fin 50000) (j : Fin 64), i = ix2 r j := ⟨i 0, i 1, eq_ix2 i⟩
  unfold refLayer2
  rw [norm2_apply, ← hA, ← mean_row2 _ _ j, ← var_row2 _ _ hy j]
  unfold bn5
  show _ * _ * Ideal.rsqrt (_ + epsW5) + _ = _
  rw [shapeCast_a_1a_apply, shapeCast_a_1a_apply]
  rfl

end Cert.Bridge

end
-- ==== Proof.RegR7.lean ====
/-
  Region 7: the third layer's bias, rectifier and column statistics. The aggregated features (50000 rows, 128 columns) are cut into 25 blocks of 2000 rows and the
  bias is one 128-entry row. At each grid point the kernel adds the bias to the block, clips it below at zero and
  writes the result to the same rows of the first output; the second and third outputs are 128-entry rows that stay
  in place over the whole grid: the first point sets them to zero, and every point adds to them the block's column
  sums and the column sums of its squares. So after point n they hold the column sums over the first (n + 1)·2000
  rows, and after the last point, which alone writes them back, over all 50000 rows.
-/
import proofs.«107715_j23149873725632_1_alg».proof.Proof.Gen.KernelIdeal.Frame
import proofs.«107715_j23149873725632_1_alg».proof.Proof.LibColSum
import proofs.«107715_j23149873725632_1_alg».proof.Proof.LibTileSum
import Idealize.ShloMosaic.Lib.Pipeline.Value
import Idealize.ShloMosaic.Lib.ValueIdx
import Idealize.ShloMosaic.Lib.ValueLayout

set_option maxRecDepth 16384

noncomputable section

namespace Cert.KernelIdeal.RegVal

open Cert.KernelIdeal Cert.KernelIdeal.Gen Idealize.ShloMosaic Idealize.ShloMosaic.TcCoe Idealize.SL.Sem Idealize.ShloMosaic.Tactic
open Idealize.ShloMosaic.ValueIdx
open Idealize.ShloMosaic.Pipeline (Dat)

theorem hzR_7 : (![0, 0] : Fin 2 → Nat) = fun _ => 0 := funext fun a => by fin_cases a <;> rfl

/-! ## What each case of the body leaves in the three outputs -/

section Pieces
variable {F : FTy → Type} [FloatOps F]

theorem pieceA2_7 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond7_0 i)
    (x0 : Vec F S2000x128 .f32) (x1 : Vec F S1x128 .f32) :
    out7_A_2 c i arg1 harg1 arg2 harg2 arg3 harg3 arg4 harg4 arg5 harg5 hc0 x0 x1 = k7_pay3 x0 x1 := by
  unfold out7_A_2
  rw [View.read_writes_eq_canon _ _ _ (cover7_A_2 c i arg1 harg1 arg2 harg2 arg3 harg3 arg4 harg4 arg5 harg5 hc0 x0 x1)]
  unfold kernelRun7_A
  dsimp only
  sl_unfold_words
  rw [View.canon_unit_zero hzR_7]
  simp only [View.readAt_eq_ld, harg1.read_unread, harg2.read_unread,
    View.ld_unit_zero (S := S2000x128) hzR_7, View.ld_unit_zero (S := S1x128) hzR_7]

theorem pieceB2_7 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond7_0 i)
    (x0 : Vec F S2000x128 .f32) (x1 : Vec F S1x128 .f32) (xo3 xo4 : Vec F S1x128 .f32) :
    out7_B_2 c i arg1 harg1 arg2 harg2 arg3 harg3 arg4 harg4 arg5 harg5 hc0 x0 x1 xo3 xo4 = k7_pay3 x0 x1 := by
  unfold out7_B_2
  rw [View.read_writes_eq_canon _ _ _ (cover7_B_2 c i arg1 harg1 arg2 harg2 arg3 harg3 arg4 harg4 arg5 harg5 hc0 x0 x1 xo3 xo4)]
  unfold kernelRun7_B
  dsimp only
  rw [View.canon_unit_zero hzR_7]
  simp only [View.readAt_eq_ld, harg1.read_unread, harg2.read_unread,
    View.ld_unit_zero (S := S2000x128) hzR_7, View.ld_unit_zero (S := S1x128) hzR_7]

theorem pieceA3_7 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond7_0 i)
    (x0 : Vec F S2000x128 .f32) (x1 : Vec F S1x128 .f32) :
    out7_A_3 c i arg1 harg1 arg2 harg2 arg3 harg3 arg4 harg4 arg5 harg5 hc0 x0 x1 = k7_pay4 x0 x1 k7_pay1 := by
  unfold out7_A_3
  rw [View.read_writes_eq_canon _ _ _ (cover7_A_3 c i arg1 harg1 arg2 harg2 arg3 harg3 arg4 harg4 arg5 harg5 hc0 x0 x1)]
  unfold kernelRun7_A
  dsimp only
  sl_unfold_words
  rw [View.canon_cons_unit_zero hzR_7]
  simp only [View.readAt_eq_ld, harg1.read_unread, harg2.read_unread, View.readCov_unit_zero (S := S1x128) arg4.view hzR_7,
    View.ld_unit_zero (S := S2000x128) hzR_7, View.ld_unit_zero (S := S1x128) hzR_7]

theorem pieceB3_7 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond7_0 i)
    (x0 : Vec F S2000x128 .f32) (x1 : Vec F S1x128 .f32) (xo3 xo4 : Vec F S1x128 .f32) :
    out7_B_3 c i arg1 harg1 arg2 harg2 arg3 harg3 arg4 harg4 arg5 harg5 hc0 x0 x1 xo3 xo4 = k7_pay4 x0 x1 xo3 := by
  unfold out7_B_3
  rw [View.read_writes_eq_canon _ _ _ (cover7_B_3 c i arg1 harg1 arg2 harg2 arg3 harg3 arg4 harg4 arg5 harg5 hc0 x0 x1 xo3 xo4)]
  unfold kernelRun7_B
  dsimp only
  rw [View.canon_unit_zero hzR_7]
  simp only [View.readAt_eq_ld, harg1.read_unread, harg2.read_unread, harg4.read_unread,
    View.ld_unit_zero (S := S2000x128) hzR_7, View.ld_unit_zero (S := S1x128) hzR_7]

theorem pieceA4_7 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond7_0 i)
    (x0 : Vec F S2000x128 .f32) (x1 : Vec F S1x128 .f32) :
    out7_A_4 c i arg1 harg1 arg2 harg2 arg3 harg3 arg4 harg4 arg5 harg5 hc0 x0 x1 = k7_pay5 x0 x1 k7_pay2 := by
  unfold out7_A_4
  rw [View.read_writes_eq_canon _ _ _ (cover7_A_4 c i arg1 harg1 arg2 harg2 arg3 harg3 arg4 harg4 arg5 harg5 hc0 x0 x1)]
  unfold kernelRun7_A
  dsimp only
  sl_unfold_words
  rw [View.canon_cons_unit_zero hzR_7]
  simp only [View.readAt_eq_ld, harg1.read_unread, harg2.read_unread, View.readCov_unit_zero (S := S1x128) arg5.view hzR_7,
    View.ld_unit_zero (S := S2000x128) hzR_7, View.ld_unit_zero (S := S1x128) hzR_7]

theorem pieceB4_7 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond7_0 i)
    (x0 : Vec F S2000x128 .f32) (x1 : Vec F S1x128 .f32) (xo3 xo4 : Vec F S1x128 .f32) :
    out7_B_4 c i arg1 harg1 arg2 harg2 arg3 harg3 arg4 harg4 arg5 harg5 hc0 x0 x1 xo3 xo4 = k7_pay5 x0 x1 xo4 := by
  unfold out7_B_4
  rw [View.read_writes_eq_canon _ _ _ (cover7_B_4 c i arg1 harg1 arg2 harg2 arg3 harg3 arg4 harg4 arg5 harg5 hc0 x0 x1 xo3 xo4)]
  unfold kernelRun7_B
  dsimp only
  rw [View.canon_unit_zero hzR_7]
  simp only [View.readAt_eq_ld, harg1.read_unread, harg2.read_unread, harg5.read_unread,
    View.ld_unit_zero (S := S2000x128) hzR_7, View.ld_unit_zero (S := S1x128) hzR_7]

end Pieces

/-! ## The payloads on the extended reals -/

/-- The zero word. -/
def zeroWR7 : EReal := Scalar.ofBits (F := Ideal) .f32 0x00000000#32

/-- The bias added and the rectifier applied, entry by entry. -/
theorem payR3_7 (x0 : Vec Ideal S2000x128 .f32) (x1 : Vec Ideal S1x128 .f32) (p : Fin 2000) (q : Fin 128) :
    k7_pay3 x0 x1 (ix2 p q) = max (x0 (ix2 p q) + x1 (ix2 (0 : Fin 1) q)) zeroWR7 := by
  unfold k7_pay3
  simp only [shapeCast_self, addf, maximumf, broadcast, broadcastTo_1b_ab_apply, Ideal.addf_def, Ideal.maximumf_def, zeroWR7]

/-- The running column sums after a point: what they held plus the block's column sums. -/
theorem payR4_7 (x0 : Vec Ideal S2000x128 .f32) (x1 s : Vec Ideal S1x128 .f32) (q : Fin 128) :
    k7_pay4 x0 x1 s (ix2 (0 : Fin 1) q) = s (ix2 (0 : Fin 1) q) + ∑ p : Fin 2000, k7_pay3 x0 x1 (ix2 p q) := by
  unfold k7_pay4
  simp only [shapeCast_self, addf, Ideal.addf_def]
  exact congrArg (s (ix2 (0 : Fin 1) q) + ·) (Cert.LibColSum.rowOfColSums_apply (k7_pay3 x0 x1) _ _ _ _ 0 q)

/-- The running column sums of squares after a point. -/
theorem payR5_7 (x0 : Vec Ideal S2000x128 .f32) (x1 s : Vec Ideal S1x128 .f32) (q : Fin 128) :
    k7_pay5 x0 x1 s (ix2 (0 : Fin 1) q)
      = s (ix2 (0 : Fin 1) q) + ∑ p : Fin 2000, k7_pay3 x0 x1 (ix2 p q) * k7_pay3 x0 x1 (ix2 p q) := by
  unfold k7_pay5
  simp only [shapeCast_self, addf, Ideal.addf_def]
  refine congrArg (s (ix2 (0 : Fin 1) q) + ·) ((Cert.LibColSum.rowOfColSums_apply (mulf (k7_pay3 x0 x1) (k7_pay3 x0 x1)) _ _ _ _ 0 q).trans ?_)
  simp only [mulf, Ideal.mulf_def]

/-- The first point's reset of the two running rows. -/
theorem payR1_7 (q : Fin 128) : k7_pay1 (F := Ideal) (ix2 (0 : Fin 1) q) = zeroWR7 := by
  unfold k7_pay1; simp only [broadcast, zeroWR7]
theorem payR2_7 (q : Fin 128) : k7_pay2 (F := Ideal) (ix2 (0 : Fin 1) q) = zeroWR7 := by
  unfold k7_pay2; simp only [broadcast, zeroWR7]

variable (V : (c : Dev nD) → (b : Ref sig .tc) → Buf (Elt Ideal) ((c : Thread nD τ).loc b))

/-- The index maps over the 25 grid points: the row blocks move with the point, the three rows stay. -/
theorem idxR7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- The bias added and the rectifier applied to the whole array. -/
def actR7 (A : S50000x128.Idx → EReal) (B : S1x128.Idx → EReal) : S50000x128.Idx → EReal :=
  fun i => max (A i + B (ix2 (0 : Fin 1) (i 1))) zeroWR7

/-- Column `q` of a 50000-row array as a sequence (zero past the last row). -/
def colR7 (Y : S50000x128.Idx → EReal) (q : Fin 128) (s : ℕ) : EReal :=
  if h : s < 50000 then Y (ix2 (⟨s, h⟩ : Fin 50000) q) else 0

set_option maxHeartbeats 4000000 in
/-- What every point leaves in the first output's block: the whole-array activations at the block's rows. -/
theorem afterR2_7 (c : Dev nD) (t : Fin cfg7.N) :
    (outsAt7 V c t.val t.isLt).1 = k7_pay3 (iblk7 V c 0 t) (iblk7 V c 1 t) := by
  by_cases h0 : t.val % 25 = 0
  · exact (congrArg (fun z => z.1) (outsAt7_A V c t h0)).trans
      (pieceA2_7 (F := Ideal) c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t))
  · exact (congrArg (fun z => z.1) (outsAt7_B V c t h0)).trans
      (pieceB2_7 (F := Ideal) c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t)
        (outsAt7 V c (t.val - 1) (Nat.lt_of_le_of_lt (Nat.sub_le _ _) t.isLt)).2.1 (outsAt7 V c (t.val - 1) (Nat.lt_of_le_of_lt (Nat.sub_le _ _) t.isLt)).2.2)

/-- A block's activations are the whole array's at the block's rows. -/
theorem blkAct7 (c : Dev nD) (t : Fin cfg7.N) (A : S50000x128.Idx → EReal) (B : S1x128.Idx → EReal)
    (hA : V c (Pipeline.arrRef spec7 0) = A) (hB : V c (Pipeline.arrRef spec7 1) = B) (p : Fin 2000) (q : Fin 128) :
    k7_pay3 (iblk7 V c 0 t) (iblk7 V c 1 t) (ix2 p q) = colR7 (actR7 A B) q (2000 * t.val + p.val) := by
  have hb0 : iblk7 V c 0 t = ((cfg7.win 0).blk t).view.read (Elt Ideal) A := by unfold iblk7; rw [hA]
  have hb1 : iblk7 V c 1 t = ((cfg7.win 1).blk t).view.read (Elt Ideal) B := by unfold iblk7; rw [hB]
  rw [hb0, hb1]
  refine (payR3_7 _ _ p q).trans ?_
  obtain ⟨e0, e1, e2, e3, e4, e5, e6, e7, e8, e9⟩ := idxR7 t
  have hN : t.val < 25 := lt_of_lt_of_eq t.isLt (show cfg7.N = 25 from N_7)
  have hlt : 2000 * t.val + p.val < 50000 := by have := p.isLt; omega
  have h0 : ((cfg7.win 0).blk t).view.emb (ix2 p q) = ix2 (⟨2000 * t.val + p.val, hlt⟩ : Fin 50000) q := by
    funext a; apply Fin.ext
    match a with
    | ⟨0, _⟩ => show win7_0.index t (0 : Fin 2) * 2000 + 1 * p.val = 2000 * t.val + p.val; omega
    | ⟨1, _⟩ => show win7_0.index t (1 : Fin 2) * 128 + 1 * q.val = q.val; omega
  have h1 : ((cfg7.win 1).blk t).view.emb (ix2 (0 : Fin 1) q) = ix2 (0 : Fin 1) q := by
    funext a; apply Fin.ext
    match a with
    | ⟨0, _⟩ => show win7_1.index t (0 : Fin 2) * 1 + 1 * 0 = 0; omega
    | ⟨1, _⟩ => show win7_1.index t (1 : Fin 2) * 128 + 1 * q.val = q.val; omega
  show max (A (((cfg7.win 0).blk t).view.emb (ix2 p q)) + B (((cfg7.win 1).blk t).view.emb (ix2 (0 : Fin 1) q))) zeroWR7 = _
  rw [congrArg A h0, congrArg B h1]
  unfold colR7 actR7
  rw [dif_pos hlt]

/-! ## The running sums, point by point -/

set_option maxHeartbeats 4000000 in
/-- After point `n` the second output's row holds, in column `q`, the column's sum over the first (n + 1) blocks. -/
theorem acc3_7 (c : Dev nD) (A : S50000x128.Idx → EReal) (B : S1x128.Idx → EReal)
    (hA : V c (Pipeline.arrRef spec7 0) = A) (hB : V c (Pipeline.arrRef spec7 1) = B) :
    ∀ (n : ℕ) (hn : n < cfg7.N) (q : Fin 128),
      (outsAt7 V c n hn).2.1 (ix2 (0 : Fin 1) q)
        = zeroWR7 + Cert.LibTileSum.tileAcc 2000 (colR7 (actR7 A B) q) (n + 1) := by
  intro n
  induction n with
  | zero =>
    intro hn q
    have h : (outsAt7 V c 0 hn).2.1 = k7_pay4 (iblk7 V c 0 ⟨0, hn⟩) (iblk7 V c 1 ⟨0, hn⟩) (k7_pay1 (F := Ideal)) :=
      (congrArg (fun z => z.2.1) (outsAt7_A V c ⟨0, hn⟩ (Nat.zero_mod _))).trans
        (pieceA3_7 (F := Ideal) c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) ((hcond7_0 ⟨0, hn⟩).mpr (Nat.zero_mod _))
          (iblk7 V c 0 ⟨0, hn⟩) (iblk7 V c 1 ⟨0, hn⟩))
    rw [h, payR4_7, payR1_7, Cert.LibTileSum.tileAcc_succ, Cert.LibTileSum.tileAcc_zero, zero_add]
    exact congrArg (zeroWR7 + ·) (Finset.sum_congr rfl fun p _ => blkAct7 V c ⟨0, hn⟩ A B hA hB p q)
  | succ n ih =>
    intro hn q
    have hN : n + 1 < 25 := lt_of_lt_of_eq hn (show cfg7.N = 25 from N_7)
    have h0 : ¬ (n + 1) % 25 = 0 := by omega
    have h : (outsAt7 V c (n + 1) hn).2.1
        = k7_pay4 (iblk7 V c 0 ⟨n + 1, hn⟩) (iblk7 V c 1 ⟨n + 1, hn⟩) (outsAt7 V c n (Nat.lt_of_succ_lt hn)).2.1 :=
      (congrArg (fun z => z.2.1) (outsAt7_B V c ⟨n + 1, hn⟩ h0)).trans
        (pieceB3_7 (F := Ideal) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (fun h => h0 ((hcond7_0 ⟨n + 1, hn⟩).mp h))
          (iblk7 V c 0 ⟨n + 1, hn⟩) (iblk7 V c 1 ⟨n + 1, hn⟩)
          (outsAt7 V c n (Nat.lt_of_succ_lt hn)).2.1 (outsAt7 V c n (Nat.lt_of_succ_lt hn)).2.2)
    rw [h, payR4_7, ih (Nat.lt_of_succ_lt hn) q, Cert.LibTileSum.tileAcc_succ 2000 _ (n + 1), add_assoc]
    exact congrArg (fun z => zeroWR7 + (Cert.LibTileSum.tileAcc 2000 (colR7 (actR7 A B) q) (n + 1) + z))
      (Finset.sum_congr rfl fun p _ => blkAct7 V c ⟨n + 1, hn⟩ A B hA hB p q)

set_option maxHeartbeats 4000000 in
/-- After point `n` the third output's row holds, in column `q`, the column's sum of squares over the first (n + 1) blocks. -/
theorem acc4_7 (c : Dev nD) (A : S50000x128.Idx → EReal) (B : S1x128.Idx → EReal)
    (hA : V c (Pipeline.arrRef spec7 0) = A) (hB : V c (Pipeline.arrRef spec7 1) = B) :
    ∀ (n : ℕ) (hn : n < cfg7.N) (q : Fin 128),
      (outsAt7 V c n hn).2.2 (ix2 (0 : Fin 1) q)
        = zeroWR7 + Cert.LibTileSum.tileAcc 2000 (fun s => colR7 (actR7 A B) q s * colR7 (actR7 A B) q s) (n + 1) := by
  intro n
  induction n with
  | zero =>
    intro hn q
    have h : (outsAt7 V c 0 hn).2.2 = k7_pay5 (iblk7 V c 0 ⟨0, hn⟩) (iblk7 V c 1 ⟨0, hn⟩) (k7_pay2 (F := Ideal)) :=
      (congrArg (fun z => z.2.2) (outsAt7_A V c ⟨0, hn⟩ (Nat.zero_mod _))).trans
        (pieceA4_7 (F := Ideal) c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) ((hcond7_0 ⟨0, hn⟩).mpr (Nat.zero_mod _))
          (iblk7 V c 0 ⟨0, hn⟩) (iblk7 V c 1 ⟨0, hn⟩))
    rw [h, payR5_7, payR2_7, Cert.LibTileSum.tileAcc_succ, Cert.LibTileSum.tileAcc_zero, zero_add]
    exact congrArg (zeroWR7 + ·) (Finset.sum_congr rfl fun p _ => by rw [blkAct7 V c ⟨0, hn⟩ A B hA hB p q])
  | succ n ih =>
    intro hn q
    have hN : n + 1 < 25 := lt_of_lt_of_eq hn (show cfg7.N = 25 from N_7)
    have h0 : ¬ (n + 1) % 25 = 0 := by omega
    have h : (outsAt7 V c (n + 1) hn).2.2
        = k7_pay5 (iblk7 V c 0 ⟨n + 1, hn⟩) (iblk7 V c 1 ⟨n + 1, hn⟩) (outsAt7 V c n (Nat.lt_of_succ_lt hn)).2.2 :=
      (congrArg (fun z => z.2.2) (outsAt7_B V c ⟨n + 1, hn⟩ h0)).trans
        (pieceB4_7 (F := Ideal) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (fun h => h0 ((hcond7_0 ⟨n + 1, hn⟩).mp h))
          (iblk7 V c 0 ⟨n + 1, hn⟩) (iblk7 V c 1 ⟨n + 1, hn⟩)
          (outsAt7 V c n (Nat.lt_of_succ_lt hn)).2.1 (outsAt7 V c n (Nat.lt_of_succ_lt hn)).2.2)
    rw [h, payR5_7, ih (Nat.lt_of_succ_lt hn) q, Cert.LibTileSum.tileAcc_succ 2000 _ (n + 1), add_assoc]
    exact congrArg (fun z => zeroWR7 + (Cert.LibTileSum.tileAcc 2000 (fun s => colR7 (actR7 A B) q s * colR7 (actR7 A B) q s) (n + 1) + z))
      (Finset.sum_congr rfl fun p _ => by rw [blkAct7 V c ⟨n + 1, hn⟩ A B hA hB p q])

end Cert.KernelIdeal.RegVal

end
-- ==== Proof.RegR7b.lean ====
/-
  Region 7, continued: the three output arrays after the region. The first is the bias and rectifier applied to the whole
  input, block by block; the second and third are the column sums and the column sums of squares of that array
  over all 50000 rows, which the last grid point writes back.
-/
import proofs.«107715_j23149873725632_1_alg».proof.Proof.RegR7

set_option maxRecDepth 16384

noncomputable section

namespace Cert.KernelIdeal.RegVal

open Cert.KernelIdeal Cert.KernelIdeal.Gen Idealize.ShloMosaic Idealize.ShloMosaic.TcCoe Idealize.SL.Sem Idealize.ShloMosaic.Tactic
open Idealize.ShloMosaic.ValueIdx
open Idealize.ShloMosaic.Pipeline (Dat)

variable (V : (c : Dev nD) → (b : Ref sig .tc) → Buf (Elt Ideal) ((c : Thread nD τ).loc b))

set_option maxHeartbeats 2000000 in
/-- What point `t` writes back to the first output is block `t` of the whole array of activations. -/
theorem flushedR2_7 (c : Dev nD) (t : Fin cfg7.N) (A : S50000x128.Idx → EReal) (B : S1x128.Idx → EReal)
    (hA : V c (Pipeline.arrRef spec7 0) = A) (hB : V c (Pipeline.arrRef spec7 1) = B) :
    (dat7 V c).flushed 2 t = ((cfg7.win 2).blk t).view.read (Elt Ideal) (actR7 A B) := by
  have hN : t.val < 25 := lt_of_lt_of_eq t.isLt (show cfg7.N = 25 from N_7)
  obtain ⟨e0, e1, e2, e3, e4, e5, e6, e7, e8, e9⟩ := idxR7 t
  show (cfg7.win 2).cut (grid7.coords t) ((dat7 V c).after 2 t) = _
  rw [after7_2, afterR2_7 V c t]
  funext j
  obtain ⟨p, q, rfl⟩ : ∃ (p : Fin 2000) (q : Fin 128), j = ix2 p q := ⟨j 0, j 1, eq_ix2 j⟩
  refine (blkAct7 V c t A B hA hB p q).trans ?_
  have hlt : 2000 * t.val + p.val < 50000 := by have := p.isLt; omega
  unfold colR7
  rw [dif_pos hlt]
  show actR7 A B (ix2 (⟨2000 * t.val + p.val, hlt⟩ : Fin 50000) q) = actR7 A B (((cfg7.win 2).blk t).view.emb (ix2 p q))
  refine congrArg (actR7 A B) ?_
  funext a; apply Fin.ext
  match a with
  | ⟨0, _⟩ => show 2000 * t.val + p.val = win7_2.index t (0 : Fin 2) * 2000 + 1 * p.val; omega
  | ⟨1, _⟩ => show q.val = win7_2.index t (1 : Fin 2) * 128 + 1 * q.val; omega

/-- An index of the first output is in point `t`'s block iff each coordinate is in the block's range on its axis. -/
theorem mem_blkR2_7 (t : Fin cfg7.N) (i : S50000x128.Idx) :
    i ∈ ((cfg7.win 2).blk t).view.set ↔ ∀ a : Fin 2, win7_2.index t a * S2000x128.size a ≤ (i a).val
      ∧ (i a).val < win7_2.index t a * S2000x128.size a + S2000x128.size a := by
  show i ∈ ((View.whole main_v101_0).slice (win7_2.rect t)).set ↔ _
  rw [View.set_slice_whole, Rect.mem_set_unit]
  exact Iff.rfl

/-- Every block of rows is some point's. -/
theorem idx_ontoR2_7 : ∀ q0 : Fin 25, ∃ t : Fin cfg7.N, win7_2.index t = ![q0.val, 0] :=
  (by decide +kernel : ∀ q0 : Fin 25, ∃ t : Fin grid7.N, win7_2.index t = ![q0.val, 0])

/-- The 25 blocks of 2000 rows tile the 50000 rows. -/
theorem coverR2_7 (i : S50000x128.Idx) :
    ∃ t : Fin cfg7.N, (cfg7.win 2).flush t = true ∧ i ∈ ((cfg7.win 2).blk t).view.set := by
  have hi0 : (i 0).val < 50000 := (i 0).isLt
  have hi1 : (i 1).val < 128 := (i 1).isLt
  obtain ⟨t, ht⟩ := idx_ontoR2_7 ⟨(i 0).val / 2000, by omega⟩
  have q0 : win7_2.index t (0 : Fin 2) = (i 0).val / 2000 := congrFun ht 0
  have q1 : win7_2.index t (1 : Fin 2) = 0 := congrFun ht 1
  refine ⟨t, flush7_2 t, ?_⟩
  rw [mem_blkR2_7]
  intro a
  match a with
  | ⟨0, _⟩ => show win7_2.index t (0 : Fin 2) * 2000 ≤ (i 0).val ∧ (i 0).val < win7_2.index t (0 : Fin 2) * 2000 + 2000; omega
  | ⟨1, _⟩ => show win7_2.index t (1 : Fin 2) * 128 ≤ (i 1).val ∧ (i 1).val < win7_2.index t (1 : Fin 2) * 128 + 128; omega

/-- After the region the first output holds the activations of the whole input. -/
theorem finalR2_7 (c : Dev nD) (A : S50000x128.Idx → EReal) (B : S1x128.Idx → EReal)
    (hA : V c (Pipeline.arrRef spec7 0) = A) (hB : V c (Pipeline.arrRef spec7 1) = B) :
    (dat7 V c).arrAt 2 cfg7.N = actR7 A B :=
  (dat7 V c).arrAt_eq_of_cover 2 _ (fun t _ => flushedR2_7 V c t A B hA hB) coverR2_7

/-- The column sums of the activations over all 50000 rows (from the zero word). -/
def sumR7 (A : S50000x128.Idx → EReal) (B : S1x128.Idx → EReal) : S1x128.Idx → EReal :=
  fun j => zeroWR7 + ∑ s : Fin 50000, actR7 A B (ix2 s (j 1))

set_option maxHeartbeats 2000000 in
/-- Only the last point writes this row back, and what it writes is the sum over all 25 blocks. -/
theorem flushedR3_7 (c : Dev nD) (t : Fin cfg7.N) (hf : (cfg7.win 3).flush t = true)
    (A : S50000x128.Idx → EReal) (B : S1x128.Idx → EReal)
    (hA : V c (Pipeline.arrRef spec7 0) = A) (hB : V c (Pipeline.arrRef spec7 1) = B) :
    (dat7 V c).flushed 3 t = ((cfg7.win 3).blk t).view.read (Elt Ideal) (sumR7 A B) := by
  have hN : t.val < 25 := lt_of_lt_of_eq t.isLt (show cfg7.N = 25 from N_7)
  have h24 : t.val % 25 = 24 := (flush7_3 t).mp hf
  have ht : t.val + 1 = 25 := by omega
  obtain ⟨e0, e1, e2, e3, e4, e5, e6, e7, e8, e9⟩ := idxR7 t
  show (cfg7.win 3).cut (grid7.coords t) ((dat7 V c).after 3 t) = _
  rw [after7_3]
  funext j
  obtain ⟨u, q, rfl⟩ : ∃ (u : Fin 1) (q : Fin 128), j = ix2 u q := ⟨j 0, j 1, eq_ix2 j⟩
  obtain rfl : u = 0 := Subsingleton.elim _ _
  refine (acc3_7 V c A B hA hB t.val t.isLt q).trans ?_
  rw [ht, Cert.LibTileSum.tileAcc_all 25 2000]
  show zeroWR7 + ∑ s : Fin 50000, colR7 (actR7 A B) q s.val = sumR7 A B (((cfg7.win 3).blk t).view.emb (ix2 (0 : Fin 1) q))
  unfold sumR7
  refine congrArg (zeroWR7 + ·) (Finset.sum_congr rfl fun s _ => ?_)
  have hq : ix2 s q = ix2 s ((((cfg7.win 3).blk t).view.emb (ix2 (0 : Fin 1) q)) 1) := by
    funext a; apply Fin.ext
    match a with
    | ⟨0, _⟩ => rfl
    | ⟨1, _⟩ => show q.val = win7_3.index t (1 : Fin 2) * 128 + 1 * q.val; omega
  unfold colR7
  rw [dif_pos s.isLt]
  show actR7 A B (ix2 s q) = _
  rw [hq]
  rfl

/-- An index of the row is in point `t`'s block iff each coordinate is in the block's range on its axis. -/
theorem mem_blkR3_7 (t : Fin cfg7.N) (i : S1x128.Idx) :
    i ∈ ((cfg7.win 3).blk t).view.set ↔ ∀ a : Fin 2, win7_3.index t a * S1x128.size a ≤ (i a).val
      ∧ (i a).val < win7_3.index t a * S1x128.size a + S1x128.size a := by
  show i ∈ ((View.whole main_v101_1).slice (win7_3.rect t)).set ↔ _
  rw [View.set_slice_whole, Rect.mem_set_unit]
  exact Iff.rfl

/-- The last point's block is the whole row. -/
theorem coverR3_7 (i : S1x128.Idx) :
    ∃ t : Fin cfg7.N, (cfg7.win 3).flush t = true ∧ i ∈ ((cfg7.win 3).blk t).view.set := by
  have hi0 : (i 0).val < 1 := (i 0).isLt
  have hi1 : (i 1).val < 128 := (i 1).isLt
  have h24 : 24 < cfg7.N := by rw [show cfg7.N = 25 from N_7]; omega
  obtain ⟨e0, e1, e2, e3, e4, e5, e6, e7, e8, e9⟩ := idxR7 ⟨24, h24⟩
  refine ⟨⟨24, h24⟩, (flush7_3 _).mpr (show (24 : ℕ) % 25 = 24 from rfl), ?_⟩
  rw [mem_blkR3_7]
  intro a
  match a with
  | ⟨0, _⟩ => show win7_3.index ⟨24, h24⟩ (0 : Fin 2) * 1 ≤ (i 0).val ∧ (i 0).val < win7_3.index ⟨24, h24⟩ (0 : Fin 2) * 1 + 1; omega
  | ⟨1, _⟩ => show win7_3.index ⟨24, h24⟩ (1 : Fin 2) * 128 ≤ (i 1).val ∧ (i 1).val < win7_3.index ⟨24, h24⟩ (1 : Fin 2) * 128 + 128; omega

/-- After the region the row holds the column statistic over all 50000 rows. -/
theorem finalR3_7 (c : Dev nD) (A : S50000x128.Idx → EReal) (B : S1x128.Idx → EReal)
    (hA : V c (Pipeline.arrRef spec7 0) = A) (hB : V c (Pipeline.arrRef spec7 1) = B) :
    (dat7 V c).arrAt 3 cfg7.N = sumR7 A B :=
  (dat7 V c).arrAt_eq_of_cover 3 _ (fun t hf => flushedR3_7 V c t hf A B hA hB) coverR3_7

/-- The column sums of the squared activations over all 50000 rows (from the zero word). -/
def sqR7 (A : S50000x128.Idx → EReal) (B : S1x128.Idx → EReal) : S1x128.Idx → EReal :=
  fun j => zeroWR7 + ∑ s : Fin 50000, actR7 A B (ix2 s (j 1)) * actR7 A B (ix2 s (j 1))

set_option maxHeartbeats 2000000 in
/-- Only the last point writes this row back, and what it writes is the sum over all 25 blocks. -/
theorem flushedR4_7 (c : Dev nD) (t : Fin cfg7.N) (hf : (cfg7.win 4).flush t = true)
    (A : S50000x128.Idx → EReal) (B : S1x128.Idx → EReal)
    (hA : V c (Pipeline.arrRef spec7 0) = A) (hB : V c (Pipeline.arrRef spec7 1) = B) :
    (dat7 V c).flushed 4 t = ((cfg7.win 4).blk t).view.read (Elt Ideal) (sqR7 A B) := by
  have hN : t.val < 25 := lt_of_lt_of_eq t.isLt (show cfg7.N = 25 from N_7)
  have h24 : t.val % 25 = 24 := (flush7_4 t).mp hf
  have ht : t.val + 1 = 25 := by omega
  obtain ⟨e0, e1, e2, e3, e4, e5, e6, e7, e8, e9⟩ := idxR7 t
  show (cfg7.win 4).cut (grid7.coords t) ((dat7 V c).after 4 t) = _
  rw [after7_4]
  funext j
  obtain ⟨u, q, rfl⟩ : ∃ (u : Fin 1) (q : Fin 128), j = ix2 u q := ⟨j 0, j 1, eq_ix2 j⟩
  obtain rfl : u = 0 := Subsingleton.elim _ _
  refine (acc4_7 V c A B hA hB t.val t.isLt q).trans ?_
  rw [ht, Cert.LibTileSum.tileAcc_all 25 2000]
  show zeroWR7 + ∑ s : Fin 50000, colR7 (actR7 A B) q s.val * colR7 (actR7 A B) q s.val = sqR7 A B (((cfg7.win 4).blk t).view.emb (ix2 (0 : Fin 1) q))
  unfold sqR7
  refine congrArg (zeroWR7 + ·) (Finset.sum_congr rfl fun s _ => ?_)
  have hq : ix2 s q = ix2 s ((((cfg7.win 4).blk t).view.emb (ix2 (0 : Fin 1) q)) 1) := by
    funext a; apply Fin.ext
    match a with
    | ⟨0, _⟩ => rfl
    | ⟨1, _⟩ => show q.val = win7_4.index t (1 : Fin 2) * 128 + 1 * q.val; omega
  unfold colR7
  rw [dif_pos s.isLt]
  show actR7 A B (ix2 s q) * actR7 A B (ix2 s q) = _
  rw [hq]
  rfl

/-- An index of the row is in point `t`'s block iff each coordinate is in the block's range on its axis. -/
theorem mem_blkR4_7 (t : Fin cfg7.N) (i : S1x128.Idx) :
    i ∈ ((cfg7.win 4).blk t).view.set ↔ ∀ a : Fin 2, win7_4.index t a * S1x128.size a ≤ (i a).val
      ∧ (i a).val < win7_4.index t a * S1x128.size a + S1x128.size a := by
  show i ∈ ((View.whole main_v101_2).slice (win7_4.rect t)).set ↔ _
  rw [View.set_slice_whole, Rect.mem_set_unit]
  exact Iff.rfl

/-- The last point's block is the whole row. -/
theorem coverR4_7 (i : S1x128.Idx) :
    ∃ t : Fin cfg7.N, (cfg7.win 4).flush t = true ∧ i ∈ ((cfg7.win 4).blk t).view.set := by
  have hi0 : (i 0).val < 1 := (i 0).isLt
  have hi1 : (i 1).val < 128 := (i 1).isLt
  have h24 : 24 < cfg7.N := by rw [show cfg7.N = 25 from N_7]; omega
  obtain ⟨e0, e1, e2, e3, e4, e5, e6, e7, e8, e9⟩ := idxR7 ⟨24, h24⟩
  refine ⟨⟨24, h24⟩, (flush7_4 _).mpr (show (24 : ℕ) % 25 = 24 from rfl), ?_⟩
  rw [mem_blkR4_7]
  intro a
  match a with
  | ⟨0, _⟩ => show win7_4.index ⟨24, h24⟩ (0 : Fin 2) * 1 ≤ (i 0).val ∧ (i 0).val < win7_4.index ⟨24, h24⟩ (0 : Fin 2) * 1 + 1; omega
  | ⟨1, _⟩ => show win7_4.index ⟨24, h24⟩ (1 : Fin 2) * 128 ≤ (i 1).val ∧ (i 1).val < win7_4.index ⟨24, h24⟩ (1 : Fin 2) * 128 + 128; omega

/-- After the region the row holds the column statistic over all 50000 rows. -/
theorem finalR4_7 (c : Dev nD) (A : S50000x128.Idx → EReal) (B : S1x128.Idx → EReal)
    (hA : V c (Pipeline.arrRef spec7 0) = A) (hB : V c (Pipeline.arrRef spec7 1) = B) :
    (dat7 V c).arrAt 4 cfg7.N = sqR7 A B :=
  (dat7 V c).arrAt_eq_of_cover 4 _ (fun t hf => flushedR4_7 V c t hf A B hA hB) coverR4_7

end Cert.KernelIdeal.RegVal

end
-- ==== Proof.RefMath3.lean ====
import proofs.«107715_j23149873725632_1_alg».proof.Proof.RefOpsRead3
import proofs.«107715_j23149873725632_1_alg».proof.Proof.RefMath1
import proofs.«107715_j23149873725632_1_alg».proof.Proof.LibDotRows
import proofs.«107715_j23149873725632_1_alg».proof.Proof.LibBcast
import Idealize.ShloMosaic.Lib.IdealHost

/-! Layer 3's named sub-stages read at an entry, on the extended reals: RefMath1.lean's statements at this layer's
    widths (64 in, 128 out). -/

noncomputable section

namespace Cert.ReferenceIdeal.HandRun

open Cert.ReferenceIdeal Cert.ReferenceIdeal.Gen Idealize.ShloMosaic Idealize.ShloMosaic.ValueIdx

/-- (M1) The matrix product at an entry: the sum over the 64 input columns. -/
theorem lin3_apply (x : FVec Ideal S50000x64 .f32) (w : FVec Ideal S64x128 .f32) (r : Fin 50000) (j : Fin 128) :
    lin3 x w (ix2 r j) = ∑ k : Fin 64, x (ix2 r k) * w (ix2 k j) :=
  Cert.LibDotRows.dot_rows_cols dot_S50000x64_S64x128_S50000x128_1_0_0_1_n_n_wf none x w r j

/-- A row vector repeated down the rows reads, at (r, j), the vector at j (for any float values). -/
theorem rows3_apply {F : FTy → Type} [FloatOps F] (v : FVec F S128 .f32) (r : Fin 50000) (j : Fin 128) :
    rows3 v (ix2 r j) = v (ix1 j) :=
  (Cert.LibBcast.rowDownRows_apply _ bcast_S1x128_S50000x128_0_1 r j).trans
    (Cert.LibBcast.vecAsRow_apply v bcast_S128_S1x128_1 0 j)

/-- A rank-zero value spread over the 128 columns reads that value. -/
theorem splat3_apply {α : Type} (c : S_.Idx → α) (j : Fin 128) :
    broadcastInDim S128 ![] bcast_S_S128 c (ix1 j) = c ix0 :=
  broadcastInDim_scalar_apply bcast_S_S128 c (ix1 j)

/-- (M2) The pre-activation at an entry: the aggregate's entry plus the bias of its column. -/
theorem pre3_apply (a : FVec Ideal S50000x128 .f32) (b : FVec Ideal S128 .f32) (r : Fin 50000) (j : Fin 128) :
    pre3 a b (ix2 r j) = a (ix2 r j) + b (ix1 j) := by
  show addf a (rows3 b) (ix2 r j) = _
  rw [addf_apply, rows3_apply]

/-- (M2) The rectifier at an entry: the maximum with the real zero. -/
theorem relu3_apply (z : FVec Ideal S50000x128 .f32) (r : Fin 50000) (j : Fin 128) :
    relu3 z (ix2 r j) = max (z (ix2 r j)) 0 := by
  show maximumf z (broadcastInDim S50000x128 ![] bcast_S_S50000x128 (constant (F := Ideal) S_ .f32 0x00000000#32)) (ix2 r j) = _
  rw [maximumf_apply, broadcastInDim_scalar_apply, constant_apply, Ideal.ofBits_zero_f32]

/-- (M4) The normalisation at an entry; the word 0x3727C5AC is the f32 nearest 1e-5. -/
theorem norm3_apply (y : FVec Ideal S50000x128 .f32) (μ σ2 γ β : FVec Ideal S128 .f32) (r : Fin 50000) (j : Fin 128) :
    norm3 y μ σ2 γ β (ix2 r j)
      = γ (ix1 j) * (y (ix2 r j) - μ (ix1 j)) * Ideal.rsqrt (σ2 (ix1 j) + Ideal.ofBits .f32 0x3727C5AC#32) + β (ix1 j) := by
  show addf (mulf (mulf (rows3 γ) (subf y (rows3 μ)))
      (rows3 (Host.rsqrt (F := Ideal) (addf σ2 (broadcastInDim S128 ![] bcast_S_S128 (constant (F := Ideal) S_ .f32 0x3727C5AC#32))))))
    (rows3 β) (ix2 r j) = _
  rw [addf_apply, mulf_apply, mulf_apply, subf_apply, rows3_apply, rows3_apply, rows3_apply, rows3_apply]
  show _ * _ * FloatOps.hostUnary .rsqrt (addf σ2 (broadcastInDim S128 ![] bcast_S_S128 (constant (F := Ideal) S_ .f32 0x3727C5AC#32)) (ix1 j)) + _ = _
  rw [addf_apply, splat3_apply, constant_apply]
  rfl

/-- The layer's output at an entry: the normalisation of the rectified pre-activation by its own column statistics. -/
theorem refLayer3_apply (x : FVec Ideal S50000x64 .f32) (w : FVec Ideal S64x128 .f32) (b γ β : FVec Ideal S128 .f32)
    (src dst : IVec S450000 32) (wgt : FVec Ideal S450000 .f32) (r : Fin 50000) (j : Fin 128) :
    refLayer3 x w b γ β src dst wgt (ix2 r j)
      = γ (ix1 j) * (act3 x w b src dst wgt (ix2 r j) - mean3 (act3 x w b src dst wgt) (ix1 j))
          * Ideal.rsqrt (var3 (act3 x w b src dst wgt) (ix1 j) + Ideal.ofBits .f32 0x3727C5AC#32) + β (ix1 j) :=
  norm3_apply _ _ _ _ _ r j

end Cert.ReferenceIdeal.HandRun

end
-- ==== Proof.RefMath3Stats.lean ====
import proofs.«107715_j23149873725632_1_alg».proof.Proof.RefMath3
import proofs.«107715_j23149873725632_1_alg».proof.Proof.RefMath1Stats

/-! Layer 3's column statistics read at a column, on the extended reals: RefMath1Stats.lean's statements at width 128
    (AllReal, the comparison lemma, the count word and the variance's divisor are layer 1's). -/

set_option maxRecDepth 8192

noncomputable section

namespace Cert.ReferenceIdeal.HandRun

open Cert.ReferenceIdeal Cert.ReferenceIdeal.Gen Idealize.ShloMosaic Idealize.ShloMosaic.ValueIdx

/-- The column sum at column j (the host sum starts from the zero word: 0 + s = s). -/
theorem colSum3_apply (y : FVec Ideal S50000x128 .f32) (j : Fin 128) : colSum3 y (ix1 j) = ∑ r : Fin 50000, y (ix2 r j) := by
  show Host.reduceAdd y (constant (F := Ideal) S_ .f32 0x00000000#32) reducesTo_S50000x128_S128_d0 h_S_ (ix1 j) = _
  rw [hostReduceAdd_apply, Ideal.hostReduceAdd_single reducesTo_S50000x128_S128_d0 (by decide : S50000x128.Reduces [0] S128),
    constant_apply, Ideal.ofBits_zero_f32, zero_add]
  refine Finset.sum_congr rfl fun i _ => congrArg y ?_
  funext ax; apply Fin.ext
  match ax with
  | ⟨0, _⟩ => rfl
  | ⟨1, _⟩ => rfl

/-- (M3) The mean at column j. -/
theorem mean3_apply (y : FVec Ideal S50000x128 .f32) (j : Fin 128) :
    mean3 y (ix1 j) = Ideal.div (∑ r : Fin 50000, y (ix2 r j)) ((50000 : ℝ) : EReal) := by
  show Host.divf (F := Ideal) (colSum3 y) (broadcastInDim S128 ![] bcast_S_S128 (constant (F := Ideal) S_ .f32 0x47435000#32)) (ix1 j) = _
  rw [hostDivf_apply, colSum3_apply, splat3_apply, constant_apply, ofBits_count]

/-- A centred entry: the entry less its column's mean. -/
theorem centered3_apply (y : FVec Ideal S50000x128 .f32) (r : Fin 50000) (j : Fin 128) :
    centered3 y (ix2 r j) = y (ix2 r j) - Ideal.div (∑ s : Fin 50000, y (ix2 s j)) ((50000 : ℝ) : EReal) := by
  show subf y (broadcastInDim S50000x128 ![0, 1] bcast_S1x128_S50000x128_0_1
      (Host.divf (F := Ideal) (broadcastInDim S1x128 ![1] bcast_S128_S1x128_1 (colSum3 y))
        (broadcastInDim S1x128 ![] bcast_S_S1x128 (constant (F := Ideal) S_ .f32 0x47435000#32)))) (ix2 r j) = _
  rw [subf_apply, Cert.LibBcast.rowDownRows_apply, hostDivf_apply, Cert.LibBcast.vecAsRow_apply, broadcastInDim_scalar_apply,
    constant_apply, colSum3_apply, ofBits_count]

/-- (M3) The variance at column j, its guard resolved: the mean of the squared deviations from the column's mean. -/
theorem var3_apply (y : FVec Ideal S50000x128 .f32) (j : Fin 128) :
    var3 y (ix1 j)
      = Ideal.div (∑ r : Fin 50000,
            (y (ix2 r j) - Ideal.div (∑ s : Fin 50000, y (ix2 s j)) ((50000 : ℝ) : EReal))
              * (y (ix2 r j) - Ideal.div (∑ s : Fin 50000, y (ix2 s j)) ((50000 : ℝ) : EReal))) ((50000 : ℝ) : EReal) := by
  show select (broadcastInDim S128 ![] bcast_S_S128 (cmpf .ogt (varCount (F := Ideal)) (constant (F := Ideal) S_ .f32 0x00000000#32)))
      (Host.divf (F := Ideal) (colSum3 (mulf (centered3 y) (centered3 y))) (broadcastInDim S128 ![] bcast_S_S128 (varCount (F := Ideal))))
      (broadcastInDim S128 ![] bcast_S_S128 (id (constant (F := Ideal) S_ .f32 0x7FC00000#32))) (ix1 j) = _
  rw [select_apply, splat3_apply, cmpf_apply, varCount_apply, constant_apply, Ideal.ofBits_zero_f32]
  rw [show FloatOps.cmpf (F := Ideal) .ogt ((50000 : ℝ) : EReal) 0 = 1#1 from (cmp_ogt_coe_zero 50000).mpr (by norm_num),
    select_one, hostDivf_apply, colSum3_apply, splat3_apply, varCount_apply]
  have hsum : (∑ r : Fin 50000, mulf (centered3 y) (centered3 y) (ix2 r j))
      = ∑ r : Fin 50000,
          (y (ix2 r j) - Ideal.div (∑ s : Fin 50000, y (ix2 s j)) ((50000 : ℝ) : EReal))
            * (y (ix2 r j) - Ideal.div (∑ s : Fin 50000, y (ix2 s j)) ((50000 : ℝ) : EReal)) :=
    Finset.sum_congr rfl fun r _ => by rw [mulf_apply, centered3_apply]
  rw [hsum]

/-- (M6) For real-valued data the variance is the mean of the squares less the squared mean. -/
theorem var3_two_forms (y : FVec Ideal S50000x128 .f32) (hy : AllReal y) (j : Fin 128) :
    var3 y (ix1 j)
      = Ideal.div (∑ r : Fin 50000, y (ix2 r j) * y (ix2 r j)) ((50000 : ℝ) : EReal) - mean3 y (ix1 j) * mean3 y (ix1 j) := by
  rw [var3_apply, mean3_apply]
  choose h hh using hy
  have key := LibBatchVariance.variance_two_forms (fun r : Fin 50000 => h (ix2 r j)) 50000 (by norm_num) (by simp)
  simp only [hh]
  exact key

/-- The mean of real-valued data is real. -/
theorem mean3_real (y : FVec Ideal S50000x128 .f32) (hy : AllReal y) (j : Fin 128) : ∃ q : ℝ, mean3 y (ix1 j) = (q : EReal) := by
  rw [mean3_apply]
  choose h hh using hy
  refine ⟨(∑ r : Fin 50000, h (ix2 r j)) * (1 / 50000), ?_⟩
  have key := LibBatchVariance.mean_real (fun r : Fin 50000 => h (ix2 r j)) 50000 (by norm_num)
  simp only [hh]
  exact key

/-- The variance of real-valued data is a nonnegative real. -/
theorem var3_real (y : FVec Ideal S50000x128 .f32) (hy : AllReal y) (j : Fin 128) :
    ∃ v : ℝ, 0 ≤ v ∧ var3 y (ix1 j) = (v : EReal) := by
  rw [var3_apply]
  choose h hh using hy
  obtain ⟨v, hv, key⟩ := LibBatchVariance.variance_real (fun r : Fin 50000 => h (ix2 r j)) 50000 (by norm_num)
  refine ⟨v, hv, ?_⟩
  simp only [hh]
  exact key

end Cert.ReferenceIdeal.HandRun

end
-- ==== Proof.Bridge3.lean ====
/-
  Layer 3, the two sides joined. The kernel computes the layer as: the matrix product, the weighted aggregate over
  the edges, the bias and the rectifier with the column sums s and the column sums of squares ss, then
  mean = s / N, variance = ss / N − mean², and scale · (a − mean) · (variance + ε)^(−1/2) + shift. The reference
  computes the same product, aggregate, bias and rectifier, takes the mean as the column sum over N, the variance
  as the mean of the squared deviations from the mean, and normalises in the same way. For real-valued activations
  the two variances are one number: the mean of the squared deviations is the mean of the squares less the squared
  mean. Everything else agrees entry by entry.
-/
import proofs.«107715_j23149873725632_1_alg».proof.Proof.RegMM6
import proofs.«107715_j23149873725632_1_alg».proof.Proof.RegR7b
import proofs.«107715_j23149873725632_1_alg».proof.Proof.RegBN8
import proofs.«107715_j23149873725632_1_alg».proof.Proof.RefMath3Stats
import proofs.«107715_j23149873725632_1_alg».proof.Proof.KerChain3
import Idealize.ShloMosaic.Lib.ValueLayout

noncomputable section

namespace Cert.Bridge

open Idealize.ShloMosaic Idealize.ShloMosaic.ValueIdx
open Cert.KernelIdeal Cert.KernelIdeal.RegVal Cert.KernelIdeal.Gen
open Cert.ReferenceIdeal.HandRun (AllReal lin3 agg3 pre3 relu3 act3 mean3 var3 norm3 refLayer3 lin3_apply pre3_apply relu3_apply
  norm3_apply mean3_apply var3_two_forms ofBits_count)

theorem zeroWR7_zero : zeroWR7 = 0 := by
  show Ideal.ofBits .f32 0x00000000#32 = 0
  exact Ideal.ofBits_zero_f32

/-- The kernel's product is the reference's. -/
theorem mm6_lin3 (x : S50000x64.Idx → EReal) (w : S64x128.Idx → EReal) : mm6 x w = lin3 (F := Ideal) x w := by
  funext i
  obtain ⟨r, j, rfl⟩ : ∃ (r : Fin 50000) (j : Fin 128), i = ix2 r j := ⟨i 0, i 1, eq_ix2 i⟩
  exact (lin3_apply x w r j).symm

/-- The kernel's bias and rectifier over the bias as a row are the reference's over the bias as a vector. -/
theorem actR7_relu (a : S50000x128.Idx → EReal) (b : S128.Idx → EReal) :
    actR7 a (shapeCast S1x128 b shapeCasts_S128_S1x128) = relu3 (F := Ideal) (pre3 a b) := by
  funext i
  obtain ⟨r, j, rfl⟩ : ∃ (r : Fin 50000) (j : Fin 128), i = ix2 r j := ⟨i 0, i 1, eq_ix2 i⟩
  rw [relu3_apply, pre3_apply]
  show max (a (ix2 r j) + shapeCast S1x128 b shapeCasts_S128_S1x128 (ix2 (0 : Fin 1) j)) zeroWR7 = _
  rw [shapeCast_a_1a_apply, zeroWR7_zero]

/-- The row of counts the kernel divides by is the real number 50000 in every column. -/
theorem countRow3_apply (j : Fin 128) : Cert.KernelIdeal.Chain.countRow3 (F := Ideal) (ix2 (0 : Fin 1) j) = ((50000 : ℝ) : EReal) := by
  show Ideal.ofBits .f32 0x47435000#32 = _
  exact ofBits_count

/-- The kernel's mean row, at a column, is the reference's mean. -/
theorem mean_row3 (a : S50000x128.Idx → EReal) (Bb : S1x128.Idx → EReal) (j : Fin 128) :
    Host.divf (F := Ideal) (sumR7 a Bb) Cert.KernelIdeal.Chain.countRow3 (ix2 (0 : Fin 1) j)
      = mean3 (F := Ideal) (actR7 a Bb) (ix1 j) := by
  rw [mean3_apply]
  show Ideal.div (sumR7 a Bb (ix2 (0 : Fin 1) j)) (Cert.KernelIdeal.Chain.countRow3 (F := Ideal) (ix2 (0 : Fin 1) j)) = _
  rw [countRow3_apply]
  unfold sumR7
  rw [zeroWR7_zero, zero_add]

/-- The kernel's variance row, at a column, is the reference's variance, for real-valued activations. -/
theorem var_row3 (a : S50000x128.Idx → EReal) (Bb : S1x128.Idx → EReal) (hy : AllReal (actR7 a Bb)) (j : Fin 128) :
    subf (Host.divf (F := Ideal) (sqR7 a Bb) Cert.KernelIdeal.Chain.countRow3)
        (mulf (Host.divf (F := Ideal) (sumR7 a Bb) Cert.KernelIdeal.Chain.countRow3)
          (Host.divf (F := Ideal) (sumR7 a Bb) Cert.KernelIdeal.Chain.countRow3)) (ix2 (0 : Fin 1) j)
      = var3 (F := Ideal) (actR7 a Bb) (ix1 j) := by
  rw [var3_two_forms _ hy j, ← mean_row3 a Bb j]
  show Ideal.div (sqR7 a Bb (ix2 (0 : Fin 1) j)) (Cert.KernelIdeal.Chain.countRow3 (F := Ideal) (ix2 (0 : Fin 1) j)) - _ = _
  rw [countRow3_apply]
  unfold sqR7
  rw [zeroWR7_zero, zero_add]
  rfl

/-- Layer 3: the kernel's value is the reference's, when the layer's activations are real. -/
theorem layer3 (x : S50000x64.Idx → EReal) (w : S64x128.Idx → EReal) (b g be : S128.Idx → EReal)
    (src dst : IVec S450000 32) (wgt : S450000.Idx → EReal)
    (hact : AllReal (act3 (F := Ideal) x w b src dst wgt)) :
    bn8 (actR7 (agg3 (F := Ideal) (mm6 x w) wgt src dst) (shapeCast S1x128 b shapeCasts_S128_S1x128))
        (Host.divf (F := Ideal) (sumR7 (agg3 (F := Ideal) (mm6 x w) wgt src dst) (shapeCast S1x128 b shapeCasts_S128_S1x128)) Cert.KernelIdeal.Chain.countRow3)
        (subf (Host.divf (F := Ideal) (sqR7 (agg3 (F := Ideal) (mm6 x w) wgt src dst) (shapeCast S1x128 b shapeCasts_S128_S1x128)) Cert.KernelIdeal.Chain.countRow3)
          (mulf (Host.divf (F := Ideal) (sumR7 (agg3 (F := Ideal) (mm6 x w) wgt src dst) (shapeCast S1x128 b shapeCasts_S128_S1x128)) Cert.KernelIdeal.Chain.countRow3)
            (Host.divf (F := Ideal) (sumR7 (agg3 (F := Ideal) (mm6 x w) wgt src dst) (shapeCast S1x128 b shapeCasts_S128_S1x128)) Cert.KernelIdeal.Chain.countRow3)))
        (shapeCast S1x128 g shapeCasts_S128_S1x128) (shapeCast S1x128 be shapeCasts_S128_S1x128)
      = refLayer3 (F := Ideal) x w b g be src dst wgt := by
  have hA : actR7 (agg3 (F := Ideal) (mm6 x w) wgt src dst) (shapeCast S1x128 b shapeCasts_S128_S1x128)
      = act3 (F := Ideal) x w b src dst wgt := by
    rw [actR7_relu, mm6_lin3]; rfl
  have hy : AllReal (actR7 (agg3 (F := Ideal) (mm6 x w) wgt src dst) (shapeCast S1x128 b shapeCasts_S128_S1x128)) := hA ▸ hact
  funext i
  obtain ⟨r, j, rfl⟩ : ∃ (r : Fin 50000) (j : Fin 128), i = ix2 r j := ⟨i 0, i 1, eq_ix2 i⟩
  unfold refLayer3
  rw [norm3_apply, ← hA, ← mean_row3 _ _ j, ← var_row3 _ _ hy j]
  unfold bn8
  show _ * _ * Ideal.rsqrt (_ + epsW8) + _ = _
  rw [shapeCast_a_1a_apply, shapeCast_a_1a_apply]
  rfl

end Cert.Bridge

end
-- ==== Proof.RegR10.lean ====
/-
  Region 10: the fourth layer's bias and column statistics. The aggregated features (50000 rows, 128 columns) are cut into 25 blocks of 2000 rows and the
  bias is one 128-entry row. At each grid point the kernel adds the bias to the block and
  writes the result to the same rows of the first output; the second and third outputs are 128-entry rows that stay
  in place over the whole grid: the first point sets them to zero, and every point adds to them the block's column
  sums and the column sums of its squares. So after point n they hold the column sums over the first (n + 1)·2000
  rows, and after the last point, which alone writes them back, over all 50000 rows.
-/
import proofs.«107715_j23149873725632_1_alg».proof.Proof.Gen.KernelIdeal.Frame
import proofs.«107715_j23149873725632_1_alg».proof.Proof.LibColSum
import proofs.«107715_j23149873725632_1_alg».proof.Proof.LibTileSum
import Idealize.ShloMosaic.Lib.Pipeline.Value
import Idealize.ShloMosaic.Lib.ValueIdx
import Idealize.ShloMosaic.Lib.ValueLayout

set_option maxRecDepth 16384

noncomputable section

namespace Cert.KernelIdeal.RegVal

open Cert.KernelIdeal Cert.KernelIdeal.Gen Idealize.ShloMosaic Idealize.ShloMosaic.TcCoe Idealize.SL.Sem Idealize.ShloMosaic.Tactic
open Idealize.ShloMosaic.ValueIdx
open Idealize.ShloMosaic.Pipeline (Dat)

theorem hzR_10 : (![0, 0] : Fin 2 → Nat) = fun _ => 0 := funext fun a => by fin_cases a <;> rfl

/-! ## What each case of the body leaves in the three outputs -/

section Pieces
variable {F : FTy → Type} [FloatOps F]

theorem pieceA2_10 (c : Dev nD) (i : grid10.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond10_0 i)
    (x0 : Vec F S2000x128 .f32) (x1 : Vec F S1x128 .f32) :
    out10_A_2 c i arg1 harg1 arg2 harg2 arg3 harg3 arg4 harg4 arg5 harg5 hc0 x0 x1 = k10_pay3 x0 x1 := by
  unfold out10_A_2
  rw [View.read_writes_eq_canon _ _ _ (cover10_A_2 c i arg1 harg1 arg2 harg2 arg3 harg3 arg4 harg4 arg5 harg5 hc0 x0 x1)]
  unfold kernelRun10_A
  dsimp only
  sl_unfold_words
  rw [View.canon_unit_zero hzR_10]
  simp only [View.readAt_eq_ld, harg1.read_unread, harg2.read_unread,
    View.ld_unit_zero (S := S2000x128) hzR_10, View.ld_unit_zero (S := S1x128) hzR_10]

theorem pieceB2_10 (c : Dev nD) (i : grid10.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond10_0 i)
    (x0 : Vec F S2000x128 .f32) (x1 : Vec F S1x128 .f32) (xo3 xo4 : Vec F S1x128 .f32) :
    out10_B_2 c i arg1 harg1 arg2 harg2 arg3 harg3 arg4 harg4 arg5 harg5 hc0 x0 x1 xo3 xo4 = k10_pay3 x0 x1 := by
  unfold out10_B_2
  rw [View.read_writes_eq_canon _ _ _ (cover10_B_2 c i arg1 harg1 arg2 harg2 arg3 harg3 arg4 harg4 arg5 harg5 hc0 x0 x1 xo3 xo4)]
  unfold kernelRun10_B
  dsimp only
  rw [View.canon_unit_zero hzR_10]
  simp only [View.readAt_eq_ld, harg1.read_unread, harg2.read_unread,
    View.ld_unit_zero (S := S2000x128) hzR_10, View.ld_unit_zero (S := S1x128) hzR_10]

theorem pieceA3_10 (c : Dev nD) (i : grid10.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond10_0 i)
    (x0 : Vec F S2000x128 .f32) (x1 : Vec F S1x128 .f32) :
    out10_A_3 c i arg1 harg1 arg2 harg2 arg3 harg3 arg4 harg4 arg5 harg5 hc0 x0 x1 = k10_pay4 x0 x1 k10_pay1 := by
  unfold out10_A_3
  rw [View.read_writes_eq_canon _ _ _ (cover10_A_3 c i arg1 harg1 arg2 harg2 arg3 harg3 arg4 harg4 arg5 harg5 hc0 x0 x1)]
  unfold kernelRun10_A
  dsimp only
  sl_unfold_words
  rw [View.canon_cons_unit_zero hzR_10]
  simp only [View.readAt_eq_ld, harg1.read_unread, harg2.read_unread, View.readCov_unit_zero (S := S1x128) arg4.view hzR_10,
    View.ld_unit_zero (S := S2000x128) hzR_10, View.ld_unit_zero (S := S1x128) hzR_10]

theorem pieceB3_10 (c : Dev nD) (i : grid10.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond10_0 i)
    (x0 : Vec F S2000x128 .f32) (x1 : Vec F S1x128 .f32) (xo3 xo4 : Vec F S1x128 .f32) :
    out10_B_3 c i arg1 harg1 arg2 harg2 arg3 harg3 arg4 harg4 arg5 harg5 hc0 x0 x1 xo3 xo4 = k10_pay4 x0 x1 xo3 := by
  unfold out10_B_3
  rw [View.read_writes_eq_canon _ _ _ (cover10_B_3 c i arg1 harg1 arg2 harg2 arg3 harg3 arg4 harg4 arg5 harg5 hc0 x0 x1 xo3 xo4)]
  unfold kernelRun10_B
  dsimp only
  rw [View.canon_unit_zero hzR_10]
  simp only [View.readAt_eq_ld, harg1.read_unread, harg2.read_unread, harg4.read_unread,
    View.ld_unit_zero (S := S2000x128) hzR_10, View.ld_unit_zero (S := S1x128) hzR_10]

theorem pieceA4_10 (c : Dev nD) (i : grid10.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond10_0 i)
    (x0 : Vec F S2000x128 .f32) (x1 : Vec F S1x128 .f32) :
    out10_A_4 c i arg1 harg1 arg2 harg2 arg3 harg3 arg4 harg4 arg5 harg5 hc0 x0 x1 = k10_pay5 x0 x1 k10_pay2 := by
  unfold out10_A_4
  rw [View.read_writes_eq_canon _ _ _ (cover10_A_4 c i arg1 harg1 arg2 harg2 arg3 harg3 arg4 harg4 arg5 harg5 hc0 x0 x1)]
  unfold kernelRun10_A
  dsimp only
  sl_unfold_words
  rw [View.canon_cons_unit_zero hzR_10]
  simp only [View.readAt_eq_ld, harg1.read_unread, harg2.read_unread, View.readCov_unit_zero (S := S1x128) arg5.view hzR_10,
    View.ld_unit_zero (S := S2000x128) hzR_10, View.ld_unit_zero (S := S1x128) hzR_10]

theorem pieceB4_10 (c : Dev nD) (i : grid10.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond10_0 i)
    (x0 : Vec F S2000x128 .f32) (x1 : Vec F S1x128 .f32) (xo3 xo4 : Vec F S1x128 .f32) :
    out10_B_4 c i arg1 harg1 arg2 harg2 arg3 harg3 arg4 harg4 arg5 harg5 hc0 x0 x1 xo3 xo4 = k10_pay5 x0 x1 xo4 := by
  unfold out10_B_4
  rw [View.read_writes_eq_canon _ _ _ (cover10_B_4 c i arg1 harg1 arg2 harg2 arg3 harg3 arg4 harg4 arg5 harg5 hc0 x0 x1 xo3 xo4)]
  unfold kernelRun10_B
  dsimp only
  rw [View.canon_unit_zero hzR_10]
  simp only [View.readAt_eq_ld, harg1.read_unread, harg2.read_unread, harg5.read_unread,
    View.ld_unit_zero (S := S2000x128) hzR_10, View.ld_unit_zero (S := S1x128) hzR_10]

end Pieces

/-! ## The payloads on the extended reals -/

/-- The zero word. -/
def zeroWR10 : EReal := Scalar.ofBits (F := Ideal) .f32 0x00000000#32

/-- The bias added, entry by entry. -/
theorem payR3_10 (x0 : Vec Ideal S2000x128 .f32) (x1 : Vec Ideal S1x128 .f32) (p : Fin 2000) (q : Fin 128) :
    k10_pay3 x0 x1 (ix2 p q) = x0 (ix2 p q) + x1 (ix2 (0 : Fin 1) q) := by
  unfold k10_pay3
  simp only [shapeCast_self, addf, maximumf, broadcast, broadcastTo_1b_ab_apply, Ideal.addf_def, Ideal.maximumf_def, zeroWR10]

/-- The running column sums after a point: what they held plus the block's column sums. -/
theorem payR4_10 (x0 : Vec Ideal S2000x128 .f32) (x1 s : Vec Ideal S1x128 .f32) (q : Fin 128) :
    k10_pay4 x0 x1 s (ix2 (0 : Fin 1) q) = s (ix2 (0 : Fin 1) q) + ∑ p : Fin 2000, k10_pay3 x0 x1 (ix2 p q) := by
  unfold k10_pay4
  simp only [shapeCast_self, addf, Ideal.addf_def]
  exact congrArg (s (ix2 (0 : Fin 1) q) + ·) (Cert.LibColSum.rowOfColSums_apply (k10_pay3 x0 x1) _ _ _ _ 0 q)

/-- The running column sums of squares after a point. -/
theorem payR5_10 (x0 : Vec Ideal S2000x128 .f32) (x1 s : Vec Ideal S1x128 .f32) (q : Fin 128) :
    k10_pay5 x0 x1 s (ix2 (0 : Fin 1) q)
      = s (ix2 (0 : Fin 1) q) + ∑ p : Fin 2000, k10_pay3 x0 x1 (ix2 p q) * k10_pay3 x0 x1 (ix2 p q) := by
  unfold k10_pay5
  simp only [shapeCast_self, addf, Ideal.addf_def]
  refine congrArg (s (ix2 (0 : Fin 1) q) + ·) ((Cert.LibColSum.rowOfColSums_apply (mulf (k10_pay3 x0 x1) (k10_pay3 x0 x1)) _ _ _ _ 0 q).trans ?_)
  simp only [mulf, Ideal.mulf_def]

/-- The first point's reset of the two running rows. -/
theorem payR1_10 (q : Fin 128) : k10_pay1 (F := Ideal) (ix2 (0 : Fin 1) q) = zeroWR10 := by
  unfold k10_pay1; simp only [broadcast, zeroWR10]
theorem payR2_10 (q : Fin 128) : k10_pay2 (F := Ideal) (ix2 (0 : Fin 1) q) = zeroWR10 := by
  unfold k10_pay2; simp only [broadcast, zeroWR10]

variable (V : (c : Dev nD) → (b : Ref sig .tc) → Buf (Elt Ideal) ((c : Thread nD τ).loc b))

/-- The index maps over the 25 grid points: the row blocks move with the point, the three rows stay. -/
theorem idxR10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

/-- The bias added to the whole array. -/
def actR10 (A : S50000x128.Idx → EReal) (B : S1x128.Idx → EReal) : S50000x128.Idx → EReal :=
  fun i => A i + B (ix2 (0 : Fin 1) (i 1))

/-- Column `q` of a 50000-row array as a sequence (zero past the last row). -/
def colR10 (Y : S50000x128.Idx → EReal) (q : Fin 128) (s : ℕ) : EReal :=
  if h : s < 50000 then Y (ix2 (⟨s, h⟩ : Fin 50000) q) else 0

set_option maxHeartbeats 4000000 in
/-- What every point leaves in the first output's block: the whole-array activations at the block's rows. -/
theorem afterR2_10 (c : Dev nD) (t : Fin cfg10.N) :
    (outsAt10 V c t.val t.isLt).1 = k10_pay3 (iblk10 V c 0 t) (iblk10 V c 1 t) := by
  by_cases h0 : t.val % 25 = 0
  · exact (congrArg (fun z => z.1) (outsAt10_A V c t h0)).trans
      (pieceA2_10 (F := Ideal) c (grid10.coords t) (ms10_0 t) (hs10_0 t) (ms10_1 t) (hs10_1 t) (ms10_2 t) (hs10_2 t) (ms10_3 t) (hs10_3 t) (ms10_4 t) (hs10_4 t) ((hcond10_0 t).mpr h0) (iblk10 V c 0 t) (iblk10 V c 1 t))
  · exact (congrArg (fun z => z.1) (outsAt10_B V c t h0)).trans
      (pieceB2_10 (F := Ideal) c (grid10.coords t) (ms10_0 t) (hs10_0 t) (ms10_1 t) (hs10_1 t) (ms10_2 t) (hs10_2 t) (ms10_3 t) (hs10_3 t) (ms10_4 t) (hs10_4 t) (fun h => h0 ((hcond10_0 t).mp h)) (iblk10 V c 0 t) (iblk10 V c 1 t)
        (outsAt10 V c (t.val - 1) (Nat.lt_of_le_of_lt (Nat.sub_le _ _) t.isLt)).2.1 (outsAt10 V c (t.val - 1) (Nat.lt_of_le_of_lt (Nat.sub_le _ _) t.isLt)).2.2)

/-- A block's activations are the whole array's at the block's rows. -/
theorem blkAct10 (c : Dev nD) (t : Fin cfg10.N) (A : S50000x128.Idx → EReal) (B : S1x128.Idx → EReal)
    (hA : V c (Pipeline.arrRef spec10 0) = A) (hB : V c (Pipeline.arrRef spec10 1) = B) (p : Fin 2000) (q : Fin 128) :
    k10_pay3 (iblk10 V c 0 t) (iblk10 V c 1 t) (ix2 p q) = colR10 (actR10 A B) q (2000 * t.val + p.val) := by
  have hb0 : iblk10 V c 0 t = ((cfg10.win 0).blk t).view.read (Elt Ideal) A := by unfold iblk10; rw [hA]
  have hb1 : iblk10 V c 1 t = ((cfg10.win 1).blk t).view.read (Elt Ideal) B := by unfold iblk10; rw [hB]
  rw [hb0, hb1]
  refine (payR3_10 _ _ p q).trans ?_
  obtain ⟨e0, e1, e2, e3, e4, e5, e6, e7, e8, e9⟩ := idxR10 t
  have hN : t.val < 25 := lt_of_lt_of_eq t.isLt (show cfg10.N = 25 from N_10)
  have hlt : 2000 * t.val + p.val < 50000 := by have := p.isLt; omega
  have h0 : ((cfg10.win 0).blk t).view.emb (ix2 p q) = ix2 (⟨2000 * t.val + p.val, hlt⟩ : Fin 50000) q := by
    funext a; apply Fin.ext
    match a with
    | ⟨0, _⟩ => show win10_0.index t (0 : Fin 2) * 2000 + 1 * p.val = 2000 * t.val + p.val; omega
    | ⟨1, _⟩ => show win10_0.index t (1 : Fin 2) * 128 + 1 * q.val = q.val; omega
  have h1 : ((cfg10.win 1).blk t).view.emb (ix2 (0 : Fin 1) q) = ix2 (0 : Fin 1) q := by
    funext a; apply Fin.ext
    match a with
    | ⟨0, _⟩ => show win10_1.index t (0 : Fin 2) * 1 + 1 * 0 = 0; omega
    | ⟨1, _⟩ => show win10_1.index t (1 : Fin 2) * 128 + 1 * q.val = q.val; omega
  show A (((cfg10.win 0).blk t).view.emb (ix2 p q)) + B (((cfg10.win 1).blk t).view.emb (ix2 (0 : Fin 1) q)) = _
  rw [congrArg A h0, congrArg B h1]
  unfold colR10 actR10
  rw [dif_pos hlt]

/-! ## The running sums, point by point -/

set_option maxHeartbeats 4000000 in
/-- After point `n` the second output's row holds, in column `q`, the column's sum over the first (n + 1) blocks. -/
theorem acc3_10 (c : Dev nD) (A : S50000x128.Idx → EReal) (B : S1x128.Idx → EReal)
    (hA : V c (Pipeline.arrRef spec10 0) = A) (hB : V c (Pipeline.arrRef spec10 1) = B) :
    ∀ (n : ℕ) (hn : n < cfg10.N) (q : Fin 128),
      (outsAt10 V c n hn).2.1 (ix2 (0 : Fin 1) q)
        = zeroWR10 + Cert.LibTileSum.tileAcc 2000 (colR10 (actR10 A B) q) (n + 1) := by
  intro n
  induction n with
  | zero =>
    intro hn q
    have h : (outsAt10 V c 0 hn).2.1 = k10_pay4 (iblk10 V c 0 ⟨0, hn⟩) (iblk10 V c 1 ⟨0, hn⟩) (k10_pay1 (F := Ideal)) :=
      (congrArg (fun z => z.2.1) (outsAt10_A V c ⟨0, hn⟩ (Nat.zero_mod _))).trans
        (pieceA3_10 (F := Ideal) c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) ((hcond10_0 ⟨0, hn⟩).mpr (Nat.zero_mod _))
          (iblk10 V c 0 ⟨0, hn⟩) (iblk10 V c 1 ⟨0, hn⟩))
    rw [h, payR4_10, payR1_10, Cert.LibTileSum.tileAcc_succ, Cert.LibTileSum.tileAcc_zero, zero_add]
    exact congrArg (zeroWR10 + ·) (Finset.sum_congr rfl fun p _ => blkAct10 V c ⟨0, hn⟩ A B hA hB p q)
  | succ n ih =>
    intro hn q
    have hN : n + 1 < 25 := lt_of_lt_of_eq hn (show cfg10.N = 25 from N_10)
    have h0 : ¬ (n + 1) % 25 = 0 := by omega
    have h : (outsAt10 V c (n + 1) hn).2.1
        = k10_pay4 (iblk10 V c 0 ⟨n + 1, hn⟩) (iblk10 V c 1 ⟨n + 1, hn⟩) (outsAt10 V c n (Nat.lt_of_succ_lt hn)).2.1 :=
      (congrArg (fun z => z.2.1) (outsAt10_B V c ⟨n + 1, hn⟩ h0)).trans
        (pieceB3_10 (F := Ideal) c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (fun h => h0 ((hcond10_0 ⟨n + 1, hn⟩).mp h))
          (iblk10 V c 0 ⟨n + 1, hn⟩) (iblk10 V c 1 ⟨n + 1, hn⟩)
          (outsAt10 V c n (Nat.lt_of_succ_lt hn)).2.1 (outsAt10 V c n (Nat.lt_of_succ_lt hn)).2.2)
    rw [h, payR4_10, ih (Nat.lt_of_succ_lt hn) q, Cert.LibTileSum.tileAcc_succ 2000 _ (n + 1), add_assoc]
    exact congrArg (fun z => zeroWR10 + (Cert.LibTileSum.tileAcc 2000 (colR10 (actR10 A B) q) (n + 1) + z))
      (Finset.sum_congr rfl fun p _ => blkAct10 V c ⟨n + 1, hn⟩ A B hA hB p q)

set_option maxHeartbeats 4000000 in
/-- After point `n` the third output's row holds, in column `q`, the column's sum of squares over the first (n + 1) blocks. -/
theorem acc4_10 (c : Dev nD) (A : S50000x128.Idx → EReal) (B : S1x128.Idx → EReal)
    (hA : V c (Pipeline.arrRef spec10 0) = A) (hB : V c (Pipeline.arrRef spec10 1) = B) :
    ∀ (n : ℕ) (hn : n < cfg10.N) (q : Fin 128),
      (outsAt10 V c n hn).2.2 (ix2 (0 : Fin 1) q)
        = zeroWR10 + Cert.LibTileSum.tileAcc 2000 (fun s => colR10 (actR10 A B) q s * colR10 (actR10 A B) q s) (n + 1) := by
  intro n
  induction n with
  | zero =>
    intro hn q
    have h : (outsAt10 V c 0 hn).2.2 = k10_pay5 (iblk10 V c 0 ⟨0, hn⟩) (iblk10 V c 1 ⟨0, hn⟩) (k10_pay2 (F := Ideal)) :=
      (congrArg (fun z => z.2.2) (outsAt10_A V c ⟨0, hn⟩ (Nat.zero_mod _))).trans
        (pieceA4_10 (F := Ideal) c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) ((hcond10_0 ⟨0, hn⟩).mpr (Nat.zero_mod _))
          (iblk10 V c 0 ⟨0, hn⟩) (iblk10 V c 1 ⟨0, hn⟩))
    rw [h, payR5_10, payR2_10, Cert.LibTileSum.tileAcc_succ, Cert.LibTileSum.tileAcc_zero, zero_add]
    exact congrArg (zeroWR10 + ·) (Finset.sum_congr rfl fun p _ => by rw [blkAct10 V c ⟨0, hn⟩ A B hA hB p q])
  | succ n ih =>
    intro hn q
    have hN : n + 1 < 25 := lt_of_lt_of_eq hn (show cfg10.N = 25 from N_10)
    have h0 : ¬ (n + 1) % 25 = 0 := by omega
    have h : (outsAt10 V c (n + 1) hn).2.2
        = k10_pay5 (iblk10 V c 0 ⟨n + 1, hn⟩) (iblk10 V c 1 ⟨n + 1, hn⟩) (outsAt10 V c n (Nat.lt_of_succ_lt hn)).2.2 :=
      (congrArg (fun z => z.2.2) (outsAt10_B V c ⟨n + 1, hn⟩ h0)).trans
        (pieceB4_10 (F := Ideal) c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (fun h => h0 ((hcond10_0 ⟨n + 1, hn⟩).mp h))
          (iblk10 V c 0 ⟨n + 1, hn⟩) (iblk10 V c 1 ⟨n + 1, hn⟩)
          (outsAt10 V c n (Nat.lt_of_succ_lt hn)).2.1 (outsAt10 V c n (Nat.lt_of_succ_lt hn)).2.2)
    rw [h, payR5_10, ih (Nat.lt_of_succ_lt hn) q, Cert.LibTileSum.tileAcc_succ 2000 _ (n + 1), add_assoc]
    exact congrArg (fun z => zeroWR10 + (Cert.LibTileSum.tileAcc 2000 (fun s => colR10 (actR10 A B) q s * colR10 (actR10 A B) q s) (n + 1) + z))
      (Finset.sum_congr rfl fun p _ => by rw [blkAct10 V c ⟨n + 1, hn⟩ A B hA hB p q])

end Cert.KernelIdeal.RegVal

end
-- ==== Proof.RegR10b.lean ====
/-
  Region 10, continued: the three output arrays after the region. The first is the bias applied to the whole
  input, block by block; the second and third are the column sums and the column sums of squares of that array
  over all 50000 rows, which the last grid point writes back.
-/
import proofs.«107715_j23149873725632_1_alg».proof.Proof.RegR10

set_option maxRecDepth 16384

noncomputable section

namespace Cert.KernelIdeal.RegVal

open Cert.KernelIdeal Cert.KernelIdeal.Gen Idealize.ShloMosaic Idealize.ShloMosaic.TcCoe Idealize.SL.Sem Idealize.ShloMosaic.Tactic
open Idealize.ShloMosaic.ValueIdx
open Idealize.ShloMosaic.Pipeline (Dat)

variable (V : (c : Dev nD) → (b : Ref sig .tc) → Buf (Elt Ideal) ((c : Thread nD τ).loc b))

set_option maxHeartbeats 2000000 in
/-- What point `t` writes back to the first output is block `t` of the whole array of activations. -/
theorem flushedR2_10 (c : Dev nD) (t : Fin cfg10.N) (A : S50000x128.Idx → EReal) (B : S1x128.Idx → EReal)
    (hA : V c (Pipeline.arrRef spec10 0) = A) (hB : V c (Pipeline.arrRef spec10 1) = B) :
    (dat10 V c).flushed 2 t = ((cfg10.win 2).blk t).view.read (Elt Ideal) (actR10 A B) := by
  have hN : t.val < 25 := lt_of_lt_of_eq t.isLt (show cfg10.N = 25 from N_10)
  obtain ⟨e0, e1, e2, e3, e4, e5, e6, e7, e8, e9⟩ := idxR10 t
  show (cfg10.win 2).cut (grid10.coords t) ((dat10 V c).after 2 t) = _
  rw [after10_2, afterR2_10 V c t]
  funext j
  obtain ⟨p, q, rfl⟩ : ∃ (p : Fin 2000) (q : Fin 128), j = ix2 p q := ⟨j 0, j 1, eq_ix2 j⟩
  refine (blkAct10 V c t A B hA hB p q).trans ?_
  have hlt : 2000 * t.val + p.val < 50000 := by have := p.isLt; omega
  unfold colR10
  rw [dif_pos hlt]
  show actR10 A B (ix2 (⟨2000 * t.val + p.val, hlt⟩ : Fin 50000) q) = actR10 A B (((cfg10.win 2).blk t).view.emb (ix2 p q))
  refine congrArg (actR10 A B) ?_
  funext a; apply Fin.ext
  match a with
  | ⟨0, _⟩ => show 2000 * t.val + p.val = win10_2.index t (0 : Fin 2) * 2000 + 1 * p.val; omega
  | ⟨1, _⟩ => show q.val = win10_2.index t (1 : Fin 2) * 128 + 1 * q.val; omega

/-- An index of the first output is in point `t`'s block iff each coordinate is in the block's range on its axis. -/
theorem mem_blkR2_10 (t : Fin cfg10.N) (i : S50000x128.Idx) :
    i ∈ ((cfg10.win 2).blk t).view.set ↔ ∀ a : Fin 2, win10_2.index t a * S2000x128.size a ≤ (i a).val
      ∧ (i a).val < win10_2.index t a * S2000x128.size a + S2000x128.size a := by
  show i ∈ ((View.whole main_v126_0).slice (win10_2.rect t)).set ↔ _
  rw [View.set_slice_whole, Rect.mem_set_unit]
  exact Iff.rfl

/-- Every block of rows is some point's. -/
theorem idx_ontoR2_10 : ∀ q0 : Fin 25, ∃ t : Fin cfg10.N, win10_2.index t = ![q0.val, 0] :=
  (by decide +kernel : ∀ q0 : Fin 25, ∃ t : Fin grid10.N, win10_2.index t = ![q0.val, 0])

/-- The 25 blocks of 2000 rows tile the 50000 rows. -/
theorem coverR2_10 (i : S50000x128.Idx) :
    ∃ t : Fin cfg10.N, (cfg10.win 2).flush t = true ∧ i ∈ ((cfg10.win 2).blk t).view.set := by
  have hi0 : (i 0).val < 50000 := (i 0).isLt
  have hi1 : (i 1).val < 128 := (i 1).isLt
  obtain ⟨t, ht⟩ := idx_ontoR2_10 ⟨(i 0).val / 2000, by omega⟩
  have q0 : win10_2.index t (0 : Fin 2) = (i 0).val / 2000 := congrFun ht 0
  have q1 : win10_2.index t (1 : Fin 2) = 0 := congrFun ht 1
  refine ⟨t, flush10_2 t, ?_⟩
  rw [mem_blkR2_10]
  intro a
  match a with
  | ⟨0, _⟩ => show win10_2.index t (0 : Fin 2) * 2000 ≤ (i 0).val ∧ (i 0).val < win10_2.index t (0 : Fin 2) * 2000 + 2000; omega
  | ⟨1, _⟩ => show win10_2.index t (1 : Fin 2) * 128 ≤ (i 1).val ∧ (i 1).val < win10_2.index t (1 : Fin 2) * 128 + 128; omega

/-- After the region the first output holds the activations of the whole input. -/
theorem finalR2_10 (c : Dev nD) (A : S50000x128.Idx → EReal) (B : S1x128.Idx → EReal)
    (hA : V c (Pipeline.arrRef spec10 0) = A) (hB : V c (Pipeline.arrRef spec10 1) = B) :
    (dat10 V c).arrAt 2 cfg10.N = actR10 A B :=
  (dat10 V c).arrAt_eq_of_cover 2 _ (fun t _ => flushedR2_10 V c t A B hA hB) coverR2_10

/-- The column sums of the activations over all 50000 rows (from the zero word). -/
def sumR10 (A : S50000x128.Idx → EReal) (B : S1x128.Idx → EReal) : S1x128.Idx → EReal :=
  fun j => zeroWR10 + ∑ s : Fin 50000, actR10 A B (ix2 s (j 1))

set_option maxHeartbeats 2000000 in
/-- Only the last point writes this row back, and what it writes is the sum over all 25 blocks. -/
theorem flushedR3_10 (c : Dev nD) (t : Fin cfg10.N) (hf : (cfg10.win 3).flush t = true)
    (A : S50000x128.Idx → EReal) (B : S1x128.Idx → EReal)
    (hA : V c (Pipeline.arrRef spec10 0) = A) (hB : V c (Pipeline.arrRef spec10 1) = B) :
    (dat10 V c).flushed 3 t = ((cfg10.win 3).blk t).view.read (Elt Ideal) (sumR10 A B) := by
  have hN : t.val < 25 := lt_of_lt_of_eq t.isLt (show cfg10.N = 25 from N_10)
  have h24 : t.val % 25 = 24 := (flush10_3 t).mp hf
  have ht : t.val + 1 = 25 := by omega
  obtain ⟨e0, e1, e2, e3, e4, e5, e6, e7, e8, e9⟩ := idxR10 t
  show (cfg10.win 3).cut (grid10.coords t) ((dat10 V c).after 3 t) = _
  rw [after10_3]
  funext j
  obtain ⟨u, q, rfl⟩ : ∃ (u : Fin 1) (q : Fin 128), j = ix2 u q := ⟨j 0, j 1, eq_ix2 j⟩
  obtain rfl : u = 0 := Subsingleton.elim _ _
  refine (acc3_10 V c A B hA hB t.val t.isLt q).trans ?_
  rw [ht, Cert.LibTileSum.tileAcc_all 25 2000]
  show zeroWR10 + ∑ s : Fin 50000, colR10 (actR10 A B) q s.val = sumR10 A B (((cfg10.win 3).blk t).view.emb (ix2 (0 : Fin 1) q))
  unfold sumR10
  refine congrArg (zeroWR10 + ·) (Finset.sum_congr rfl fun s _ => ?_)
  have hq : ix2 s q = ix2 s ((((cfg10.win 3).blk t).view.emb (ix2 (0 : Fin 1) q)) 1) := by
    funext a; apply Fin.ext
    match a with
    | ⟨0, _⟩ => rfl
    | ⟨1, _⟩ => show q.val = win10_3.index t (1 : Fin 2) * 128 + 1 * q.val; omega
  unfold colR10
  rw [dif_pos s.isLt]
  show actR10 A B (ix2 s q) = _
  rw [hq]
  rfl

/-- An index of the row is in point `t`'s block iff each coordinate is in the block's range on its axis. -/
theorem mem_blkR3_10 (t : Fin cfg10.N) (i : S1x128.Idx) :
    i ∈ ((cfg10.win 3).blk t).view.set ↔ ∀ a : Fin 2, win10_3.index t a * S1x128.size a ≤ (i a).val
      ∧ (i a).val < win10_3.index t a * S1x128.size a + S1x128.size a := by
  show i ∈ ((View.whole main_v126_1).slice (win10_3.rect t)).set ↔ _
  rw [View.set_slice_whole, Rect.mem_set_unit]
  exact Iff.rfl

/-- The last point's block is the whole row. -/
theorem coverR3_10 (i : S1x128.Idx) :
    ∃ t : Fin cfg10.N, (cfg10.win 3).flush t = true ∧ i ∈ ((cfg10.win 3).blk t).view.set := by
  have hi0 : (i 0).val < 1 := (i 0).isLt
  have hi1 : (i 1).val < 128 := (i 1).isLt
  have h24 : 24 < cfg10.N := by rw [show cfg10.N = 25 from N_10]; omega
  obtain ⟨e0, e1, e2, e3, e4, e5, e6, e7, e8, e9⟩ := idxR10 ⟨24, h24⟩
  refine ⟨⟨24, h24⟩, (flush10_3 _).mpr (show (24 : ℕ) % 25 = 24 from rfl), ?_⟩
  rw [mem_blkR3_10]
  intro a
  match a with
  | ⟨0, _⟩ => show win10_3.index ⟨24, h24⟩ (0 : Fin 2) * 1 ≤ (i 0).val ∧ (i 0).val < win10_3.index ⟨24, h24⟩ (0 : Fin 2) * 1 + 1; omega
  | ⟨1, _⟩ => show win10_3.index ⟨24, h24⟩ (1 : Fin 2) * 128 ≤ (i 1).val ∧ (i 1).val < win10_3.index ⟨24, h24⟩ (1 : Fin 2) * 128 + 128; omega

/-- After the region the row holds the column statistic over all 50000 rows. -/
theorem finalR3_10 (c : Dev nD) (A : S50000x128.Idx → EReal) (B : S1x128.Idx → EReal)
    (hA : V c (Pipeline.arrRef spec10 0) = A) (hB : V c (Pipeline.arrRef spec10 1) = B) :
    (dat10 V c).arrAt 3 cfg10.N = sumR10 A B :=
  (dat10 V c).arrAt_eq_of_cover 3 _ (fun t hf => flushedR3_10 V c t hf A B hA hB) coverR3_10

/-- The column sums of the squared activations over all 50000 rows (from the zero word). -/
def sqR10 (A : S50000x128.Idx → EReal) (B : S1x128.Idx → EReal) : S1x128.Idx → EReal :=
  fun j => zeroWR10 + ∑ s : Fin 50000, actR10 A B (ix2 s (j 1)) * actR10 A B (ix2 s (j 1))

set_option maxHeartbeats 2000000 in
/-- Only the last point writes this row back, and what it writes is the sum over all 25 blocks. -/
theorem flushedR4_10 (c : Dev nD) (t : Fin cfg10.N) (hf : (cfg10.win 4).flush t = true)
    (A : S50000x128.Idx → EReal) (B : S1x128.Idx → EReal)
    (hA : V c (Pipeline.arrRef spec10 0) = A) (hB : V c (Pipeline.arrRef spec10 1) = B) :
    (dat10 V c).flushed 4 t = ((cfg10.win 4).blk t).view.read (Elt Ideal) (sqR10 A B) := by
  have hN : t.val < 25 := lt_of_lt_of_eq t.isLt (show cfg10.N = 25 from N_10)
  have h24 : t.val % 25 = 24 := (flush10_4 t).mp hf
  have ht : t.val + 1 = 25 := by omega
  obtain ⟨e0, e1, e2, e3, e4, e5, e6, e7, e8, e9⟩ := idxR10 t
  show (cfg10.win 4).cut (grid10.coords t) ((dat10 V c).after 4 t) = _
  rw [after10_4]
  funext j
  obtain ⟨u, q, rfl⟩ : ∃ (u : Fin 1) (q : Fin 128), j = ix2 u q := ⟨j 0, j 1, eq_ix2 j⟩
  obtain rfl : u = 0 := Subsingleton.elim _ _
  refine (acc4_10 V c A B hA hB t.val t.isLt q).trans ?_
  rw [ht, Cert.LibTileSum.tileAcc_all 25 2000]
  show zeroWR10 + ∑ s : Fin 50000, colR10 (actR10 A B) q s.val * colR10 (actR10 A B) q s.val = sqR10 A B (((cfg10.win 4).blk t).view.emb (ix2 (0 : Fin 1) q))
  unfold sqR10
  refine congrArg (zeroWR10 + ·) (Finset.sum_congr rfl fun s _ => ?_)
  have hq : ix2 s q = ix2 s ((((cfg10.win 4).blk t).view.emb (ix2 (0 : Fin 1) q)) 1) := by
    funext a; apply Fin.ext
    match a with
    | ⟨0, _⟩ => rfl
    | ⟨1, _⟩ => show q.val = win10_4.index t (1 : Fin 2) * 128 + 1 * q.val; omega
  unfold colR10
  rw [dif_pos s.isLt]
  show actR10 A B (ix2 s q) * actR10 A B (ix2 s q) = _
  rw [hq]
  rfl

/-- An index of the row is in point `t`'s block iff each coordinate is in the block's range on its axis. -/
theorem mem_blkR4_10 (t : Fin cfg10.N) (i : S1x128.Idx) :
    i ∈ ((cfg10.win 4).blk t).view.set ↔ ∀ a : Fin 2, win10_4.index t a * S1x128.size a ≤ (i a).val
      ∧ (i a).val < win10_4.index t a * S1x128.size a + S1x128.size a := by
  show i ∈ ((View.whole main_v126_2).slice (win10_4.rect t)).set ↔ _
  rw [View.set_slice_whole, Rect.mem_set_unit]
  exact Iff.rfl

/-- The last point's block is the whole row. -/
theorem coverR4_10 (i : S1x128.Idx) :
    ∃ t : Fin cfg10.N, (cfg10.win 4).flush t = true ∧ i ∈ ((cfg10.win 4).blk t).view.set := by
  have hi0 : (i 0).val < 1 := (i 0).isLt
  have hi1 : (i 1).val < 128 := (i 1).isLt
  have h24 : 24 < cfg10.N := by rw [show cfg10.N = 25 from N_10]; omega
  obtain ⟨e0, e1, e2, e3, e4, e5, e6, e7, e8, e9⟩ := idxR10 ⟨24, h24⟩
  refine ⟨⟨24, h24⟩, (flush10_4 _).mpr (show (24 : ℕ) % 25 = 24 from rfl), ?_⟩
  rw [mem_blkR4_10]
  intro a
  match a with
  | ⟨0, _⟩ => show win10_4.index ⟨24, h24⟩ (0 : Fin 2) * 1 ≤ (i 0).val ∧ (i 0).val < win10_4.index ⟨24, h24⟩ (0 : Fin 2) * 1 + 1; omega
  | ⟨1, _⟩ => show win10_4.index ⟨24, h24⟩ (1 : Fin 2) * 128 ≤ (i 1).val ∧ (i 1).val < win10_4.index ⟨24, h24⟩ (1 : Fin 2) * 128 + 128; omega

/-- After the region the row holds the column statistic over all 50000 rows. -/
theorem finalR4_10 (c : Dev nD) (A : S50000x128.Idx → EReal) (B : S1x128.Idx → EReal)
    (hA : V c (Pipeline.arrRef spec10 0) = A) (hB : V c (Pipeline.arrRef spec10 1) = B) :
    (dat10 V c).arrAt 4 cfg10.N = sqR10 A B :=
  (dat10 V c).arrAt_eq_of_cover 4 _ (fun t hf => flushedR4_10 V c t hf A B hA hB) coverR4_10

end Cert.KernelIdeal.RegVal

end
-- ==== Proof.RefMath4.lean ====
import proofs.«107715_j23149873725632_1_alg».proof.Proof.RefOpsRead4
import proofs.«107715_j23149873725632_1_alg».proof.Proof.RefMath1
import proofs.«107715_j23149873725632_1_alg».proof.Proof.LibDotRows
import proofs.«107715_j23149873725632_1_alg».proof.Proof.LibBcast
import Idealize.ShloMosaic.Lib.IdealHost

/-! Layer 4's named sub-stages read at an entry, on the extended reals: RefMath1.lean's statements at this layer's
    widths (128 in, 128 out). -/

noncomputable section

namespace Cert.ReferenceIdeal.HandRun

open Cert.ReferenceIdeal Cert.ReferenceIdeal.Gen Idealize.ShloMosaic Idealize.ShloMosaic.ValueIdx

/-- (M1) The matrix product at an entry: the sum over the 128 input columns. -/
theorem lin4_apply (x : FVec Ideal S50000x128 .f32) (w : FVec Ideal S128x128 .f32) (r : Fin 50000) (j : Fin 128) :
    lin4 x w (ix2 r j) = ∑ k : Fin 128, x (ix2 r k) * w (ix2 k j) :=
  Cert.LibDotRows.dot_rows_cols dot_S50000x128_S128x128_S50000x128_1_0_0_1_n_n_wf none x w r j

/-- A row vector repeated down the rows reads, at (r, j), the vector at j (for any float values). -/
theorem rows4_apply {F : FTy → Type} [FloatOps F] (v : FVec F S128 .f32) (r : Fin 50000) (j : Fin 128) :
    rows4 v (ix2 r j) = v (ix1 j) :=
  (Cert.LibBcast.rowDownRows_apply _ bcast_S1x128_S50000x128_0_1 r j).trans
    (Cert.LibBcast.vecAsRow_apply v bcast_S128_S1x128_1 0 j)

/-- A rank-zero value spread over the 128 columns reads that value. -/
theorem splat4_apply {α : Type} (c : S_.Idx → α) (j : Fin 128) :
    broadcastInDim S128 ![] bcast_S_S128 c (ix1 j) = c ix0 :=
  broadcastInDim_scalar_apply bcast_S_S128 c (ix1 j)

/-- (M2) The pre-activation at an entry: the aggregate's entry plus the bias of its column. -/
theorem pre4_apply (a : FVec Ideal S50000x128 .f32) (b : FVec Ideal S128 .f32) (r : Fin 50000) (j : Fin 128) :
    pre4 a b (ix2 r j) = a (ix2 r j) + b (ix1 j) := by
  show addf a (rows4 b) (ix2 r j) = _
  rw [addf_apply, rows4_apply]

/-- (M2) The rectifier at an entry: the maximum with the real zero. -/
theorem relu4_apply (z : FVec Ideal S50000x128 .f32) (r : Fin 50000) (j : Fin 128) :
    relu4 z (ix2 r j) = max (z (ix2 r j)) 0 := by
  show maximumf z (broadcastInDim S50000x128 ![] bcast_S_S50000x128 (constant (F := Ideal) S_ .f32 0x00000000#32)) (ix2 r j) = _
  rw [maximumf_apply, broadcastInDim_scalar_apply, constant_apply, Ideal.ofBits_zero_f32]

/-- (M4) The normalisation at an entry; the word 0x3727C5AC is the f32 nearest 1e-5. -/
theorem norm4_apply (y : FVec Ideal S50000x128 .f32) (μ σ2 γ β : FVec Ideal S128 .f32) (r : Fin 50000) (j : Fin 128) :
    norm4 y μ σ2 γ β (ix2 r j)
      = γ (ix1 j) * (y (ix2 r j) - μ (ix1 j)) * Ideal.rsqrt (σ2 (ix1 j) + Ideal.ofBits .f32 0x3727C5AC#32) + β (ix1 j) := by
  show addf (mulf (mulf (rows4 γ) (subf y (rows4 μ)))
      (rows4 (Host.rsqrt (F := Ideal) (addf σ2 (broadcastInDim S128 ![] bcast_S_S128 (constant (F := Ideal) S_ .f32 0x3727C5AC#32))))))
    (rows4 β) (ix2 r j) = _
  rw [addf_apply, mulf_apply, mulf_apply, subf_apply, rows4_apply, rows4_apply, rows4_apply, rows4_apply]
  show _ * _ * FloatOps.hostUnary .rsqrt (addf σ2 (broadcastInDim S128 ![] bcast_S_S128 (constant (F := Ideal) S_ .f32 0x3727C5AC#32)) (ix1 j)) + _ = _
  rw [addf_apply, splat4_apply, constant_apply]
  rfl

/-- The normalised pre-activation at an entry (this layer normalises first). -/
theorem normed4_apply (x : FVec Ideal S50000x128 .f32) (w : FVec Ideal S128x128 .f32) (b γ β : FVec Ideal S128 .f32)
    (src dst : IVec S450000 32) (wgt : FVec Ideal S450000 .f32) (r : Fin 50000) (j : Fin 128) :
    normed4 x w b γ β src dst wgt (ix2 r j)
      = γ (ix1 j) * (act4 x w b src dst wgt (ix2 r j) - mean4 (act4 x w b src dst wgt) (ix1 j))
          * Ideal.rsqrt (var4 (act4 x w b src dst wgt) (ix1 j) + Ideal.ofBits .f32 0x3727C5AC#32) + β (ix1 j) :=
  norm4_apply _ _ _ _ _ r j

/-- The layer's output at an entry: the rectified normalised pre-activation. -/
theorem refLayer4_apply (x : FVec Ideal S50000x128 .f32) (w : FVec Ideal S128x128 .f32) (b γ β : FVec Ideal S128 .f32)
    (src dst : IVec S450000 32) (wgt : FVec Ideal S450000 .f32) (r : Fin 50000) (j : Fin 128) :
    refLayer4 x w b γ β src dst wgt (ix2 r j) = max (normed4 x w b γ β src dst wgt (ix2 r j)) 0 :=
  relu4_apply _ r j

end Cert.ReferenceIdeal.HandRun

end
-- ==== Proof.RefMath4Stats.lean ====
import proofs.«107715_j23149873725632_1_alg».proof.Proof.RefMath4
import proofs.«107715_j23149873725632_1_alg».proof.Proof.RefMath1Stats

/-! Layer 4's column statistics read at a column, on the extended reals: RefMath1Stats.lean's statements at width 128
    (AllReal, the comparison lemma, the count word and the variance's divisor are layer 1's). -/

set_option maxRecDepth 8192

noncomputable section

namespace Cert.ReferenceIdeal.HandRun

open Cert.ReferenceIdeal Cert.ReferenceIdeal.Gen Idealize.ShloMosaic Idealize.ShloMosaic.ValueIdx

/-- The column sum at column j (the host sum starts from the zero word: 0 + s = s). -/
theorem colSum4_apply (y : FVec Ideal S50000x128 .f32) (j : Fin 128) : colSum4 y (ix1 j) = ∑ r : Fin 50000, y (ix2 r j) := by
  show Host.reduceAdd y (constant (F := Ideal) S_ .f32 0x00000000#32) reducesTo_S50000x128_S128_d0 h_S_ (ix1 j) = _
  rw [hostReduceAdd_apply, Ideal.hostReduceAdd_single reducesTo_S50000x128_S128_d0 (by decide : S50000x128.Reduces [0] S128),
    constant_apply, Ideal.ofBits_zero_f32, zero_add]
  refine Finset.sum_congr rfl fun i _ => congrArg y ?_
  funext ax; apply Fin.ext
  match ax with
  | ⟨0, _⟩ => rfl
  | ⟨1, _⟩ => rfl

/-- (M3) The mean at column j. -/
theorem mean4_apply (y : FVec Ideal S50000x128 .f32) (j : Fin 128) :
    mean4 y (ix1 j) = Ideal.div (∑ r : Fin 50000, y (ix2 r j)) ((50000 : ℝ) : EReal) := by
  show Host.divf (F := Ideal) (colSum4 y) (broadcastInDim S128 ![] bcast_S_S128 (constant (F := Ideal) S_ .f32 0x47435000#32)) (ix1 j) = _
  rw [hostDivf_apply, colSum4_apply, splat4_apply, constant_apply, ofBits_count]

/-- A centred entry: the entry less its column's mean. -/
theorem centered4_apply (y : FVec Ideal S50000x128 .f32) (r : Fin 50000) (j : Fin 128) :
    centered4 y (ix2 r j) = y (ix2 r j) - Ideal.div (∑ s : Fin 50000, y (ix2 s j)) ((50000 : ℝ) : EReal) := by
  show subf y (broadcastInDim S50000x128 ![0, 1] bcast_S1x128_S50000x128_0_1
      (Host.divf (F := Ideal) (broadcastInDim S1x128 ![1] bcast_S128_S1x128_1 (colSum4 y))
        (broadcastInDim S1x128 ![] bcast_S_S1x128 (constant (F := Ideal) S_ .f32 0x47435000#32)))) (ix2 r j) = _
  rw [subf_apply, Cert.LibBcast.rowDownRows_apply, hostDivf_apply, Cert.LibBcast.vecAsRow_apply, broadcastInDim_scalar_apply,
    constant_apply, colSum4_apply, ofBits_count]

/-- (M3) The variance at column j, its guard resolved: the mean of the squared deviations from the column's mean. -/
theorem var4_apply (y : FVec Ideal S50000x128 .f32) (j : Fin 128) :
    var4 y (ix1 j)
      = Ideal.div (∑ r : Fin 50000,
            (y (ix2 r j) - Ideal.div (∑ s : Fin 50000, y (ix2 s j)) ((50000 : ℝ) : EReal))
              * (y (ix2 r j) - Ideal.div (∑ s : Fin 50000, y (ix2 s j)) ((50000 : ℝ) : EReal))) ((50000 : ℝ) : EReal) := by
  show select (broadcastInDim S128 ![] bcast_S_S128 (cmpf .ogt (varCount (F := Ideal)) (constant (F := Ideal) S_ .f32 0x00000000#32)))
      (Host.divf (F := Ideal) (colSum4 (mulf (centered4 y) (centered4 y))) (broadcastInDim S128 ![] bcast_S_S128 (varCount (F := Ideal))))
      (broadcastInDim S128 ![] bcast_S_S128 (id (constant (F := Ideal) S_ .f32 0x7FC00000#32))) (ix1 j) = _
  rw [select_apply, splat4_apply, cmpf_apply, varCount_apply, constant_apply, Ideal.ofBits_zero_f32]
  rw [show FloatOps.cmpf (F := Ideal) .ogt ((50000 : ℝ) : EReal) 0 = 1#1 from (cmp_ogt_coe_zero 50000).mpr (by norm_num),
    select_one, hostDivf_apply, colSum4_apply, splat4_apply, varCount_apply]
  have hsum : (∑ r : Fin 50000, mulf (centered4 y) (centered4 y) (ix2 r j))
      = ∑ r : Fin 50000,
          (y (ix2 r j) - Ideal.div (∑ s : Fin 50000, y (ix2 s j)) ((50000 : ℝ) : EReal))
            * (y (ix2 r j) - Ideal.div (∑ s : Fin 50000, y (ix2 s j)) ((50000 : ℝ) : EReal)) :=
    Finset.sum_congr rfl fun r _ => by rw [mulf_apply, centered4_apply]
  rw [hsum]

/-- (M6) For real-valued data the variance is the mean of the squares less the squared mean. -/
theorem var4_two_forms (y : FVec Ideal S50000x128 .f32) (hy : AllReal y) (j : Fin 128) :
    var4 y (ix1 j)
      = Ideal.div (∑ r : Fin 50000, y (ix2 r j) * y (ix2 r j)) ((50000 : ℝ) : EReal) - mean4 y (ix1 j) * mean4 y (ix1 j) := by
  rw [var4_apply, mean4_apply]
  choose h hh using hy
  have key := LibBatchVariance.variance_two_forms (fun r : Fin 50000 => h (ix2 r j)) 50000 (by norm_num) (by simp)
  simp only [hh]
  exact key

/-- The mean of real-valued data is real. -/
theorem mean4_real (y : FVec Ideal S50000x128 .f32) (hy : AllReal y) (j : Fin 128) : ∃ q : ℝ, mean4 y (ix1 j) = (q : EReal) := by
  rw [mean4_apply]
  choose h hh using hy
  refine ⟨(∑ r : Fin 50000, h (ix2 r j)) * (1 / 50000), ?_⟩
  have key := LibBatchVariance.mean_real (fun r : Fin 50000 => h (ix2 r j)) 50000 (by norm_num)
  simp only [hh]
  exact key

/-- The variance of real-valued data is a nonnegative real. -/
theorem var4_real (y : FVec Ideal S50000x128 .f32) (hy : AllReal y) (j : Fin 128) :
    ∃ v : ℝ, 0 ≤ v ∧ var4 y (ix1 j) = (v : EReal) := by
  rw [var4_apply]
  choose h hh using hy
  obtain ⟨v, hv, key⟩ := LibBatchVariance.variance_real (fun r : Fin 50000 => h (ix2 r j)) 50000 (by norm_num)
  refine ⟨v, hv, ?_⟩
  simp only [hh]
  exact key

end Cert.ReferenceIdeal.HandRun

end
-- ==== Proof.Bridge4.lean ====
/-
  Layer 4, the two sides joined. The kernel computes the layer as: the matrix product, the weighted aggregate over
  the edges, the bias with the column sums s and the column sums of squares ss, then
  mean = s / N, variance = ss / N − mean², and scale · (a − mean) · (variance + ε)^(−1/2) + shift, clipped below at zero. The reference
  computes the same product, aggregate and bias, takes the mean as the column sum over N, the variance
  as the mean of the squared deviations from the mean, normalises in the same way and applies the rectifier. For real-valued activations
  the two variances are one number: the mean of the squared deviations is the mean of the squares less the squared
  mean. Everything else agrees entry by entry.
-/
import proofs.«107715_j23149873725632_1_alg».proof.Proof.RegMM9
import proofs.«107715_j23149873725632_1_alg».proof.Proof.RegR10b
import proofs.«107715_j23149873725632_1_alg».proof.Proof.RegBN11
import proofs.«107715_j23149873725632_1_alg».proof.Proof.RefMath4Stats
import proofs.«107715_j23149873725632_1_alg».proof.Proof.KerChain4
import Idealize.ShloMosaic.Lib.ValueLayout

noncomputable section

namespace Cert.Bridge

open Idealize.ShloMosaic Idealize.ShloMosaic.ValueIdx
open Cert.KernelIdeal Cert.KernelIdeal.RegVal Cert.KernelIdeal.Gen
open Cert.ReferenceIdeal.HandRun (AllReal lin4 agg4 pre4 relu4 act4 mean4 var4 norm4 normed4 refLayer4 lin4_apply pre4_apply relu4_apply
  norm4_apply normed4_apply refLayer4_apply mean4_apply var4_two_forms ofBits_count)

theorem zeroWR10_zero : zeroWR10 = 0 := by
  show Ideal.ofBits .f32 0x00000000#32 = 0
  exact Ideal.ofBits_zero_f32

/-- The kernel's product is the reference's. -/
theorem mm9_lin4 (x : S50000x128.Idx → EReal) (w : S128x128.Idx → EReal) : mm9 x w = lin4 (F := Ideal) x w := by
  funext i
  obtain ⟨r, j, rfl⟩ : ∃ (r : Fin 50000) (j : Fin 128), i = ix2 r j := ⟨i 0, i 1, eq_ix2 i⟩
  exact (lin4_apply x w r j).symm

theorem zeroW11_zero : zeroW11 = 0 := by
  show Ideal.ofBits .f32 0x00000000#32 = 0
  exact Ideal.ofBits_zero_f32

/-- The kernel's bias added as a row is the reference's bias added as a vector. -/
theorem actR10_pre (a : S50000x128.Idx → EReal) (b : S128.Idx → EReal) :
    actR10 a (shapeCast S1x128 b shapeCasts_S128_S1x128) = pre4 (F := Ideal) a b := by
  funext i
  obtain ⟨r, j, rfl⟩ : ∃ (r : Fin 50000) (j : Fin 128), i = ix2 r j := ⟨i 0, i 1, eq_ix2 i⟩
  rw [pre4_apply]
  show a (ix2 r j) + shapeCast S1x128 b shapeCasts_S128_S1x128 (ix2 (0 : Fin 1) j) = _
  rw [shapeCast_a_1a_apply]

/-- The row of counts the kernel divides by is the real number 50000 in every column. -/
theorem countRow4_apply (j : Fin 128) : Cert.KernelIdeal.Chain.countRow4 (F := Ideal) (ix2 (0 : Fin 1) j) = ((50000 : ℝ) : EReal) := by
  show Ideal.ofBits .f32 0x47435000#32 = _
  exact ofBits_count

/-- The kernel's mean row, at a column, is the reference's mean. -/
theorem mean_row4 (a : S50000x128.Idx → EReal) (Bb : S1x128.Idx → EReal) (j : Fin 128) :
    Host.divf (F := Ideal) (sumR10 a Bb) Cert.KernelIdeal.Chain.countRow4 (ix2 (0 : Fin 1) j)
      = mean4 (F := Ideal) (actR10 a Bb) (ix1 j) := by
  rw [mean4_apply]
  show Ideal.div (sumR10 a Bb (ix2 (0 : Fin 1) j)) (Cert.KernelIdeal.Chain.countRow4 (F := Ideal) (ix2 (0 : Fin 1) j)) = _
  rw [countRow4_apply]
  unfold sumR10
  rw [zeroWR10_zero, zero_add]

/-- The kernel's variance row, at a column, is the reference's variance, for real-valued activations. -/
theorem var_row4 (a : S50000x128.Idx → EReal) (Bb : S1x128.Idx → EReal) (hy : AllReal (actR10 a Bb)) (j : Fin 128) :
    subf (Host.divf (F := Ideal) (sqR10 a Bb) Cert.KernelIdeal.Chain.countRow4)
        (mulf (Host.divf (F := Ideal) (sumR10 a Bb) Cert.KernelIdeal.Chain.countRow4)
          (Host.divf (F := Ideal) (sumR10 a Bb) Cert.KernelIdeal.Chain.countRow4)) (ix2 (0 : Fin 1) j)
      = var4 (F := Ideal) (actR10 a Bb) (ix1 j) := by
  rw [var4_two_forms _ hy j, ← mean_row4 a Bb j]
  show Ideal.div (sqR10 a Bb (ix2 (0 : Fin 1) j)) (Cert.KernelIdeal.Chain.countRow4 (F := Ideal) (ix2 (0 : Fin 1) j)) - _ = _
  rw [countRow4_apply]
  unfold sqR10
  rw [zeroWR10_zero, zero_add]
  rfl

/-- Layer 4: the kernel's value is the reference's, when the layer's activations are real. -/
theorem layer4 (x : S50000x128.Idx → EReal) (w : S128x128.Idx → EReal) (b g be : S128.Idx → EReal)
    (src dst : IVec S450000 32) (wgt : S450000.Idx → EReal)
    (hact : AllReal (act4 (F := Ideal) x w b src dst wgt)) :
    bn11 (actR10 (agg4 (F := Ideal) (mm9 x w) wgt src dst) (shapeCast S1x128 b shapeCasts_S128_S1x128))
        (Host.divf (F := Ideal) (sumR10 (agg4 (F := Ideal) (mm9 x w) wgt src dst) (shapeCast S1x128 b shapeCasts_S128_S1x128)) Cert.KernelIdeal.Chain.countRow4)
        (subf (Host.divf (F := Ideal) (sqR10 (agg4 (F := Ideal) (mm9 x w) wgt src dst) (shapeCast S1x128 b shapeCasts_S128_S1x128)) Cert.KernelIdeal.Chain.countRow4)
          (mulf (Host.divf (F := Ideal) (sumR10 (agg4 (F := Ideal) (mm9 x w) wgt src dst) (shapeCast S1x128 b shapeCasts_S128_S1x128)) Cert.KernelIdeal.Chain.countRow4)
            (Host.divf (F := Ideal) (sumR10 (agg4 (F := Ideal) (mm9 x w) wgt src dst) (shapeCast S1x128 b shapeCasts_S128_S1x128)) Cert.KernelIdeal.Chain.countRow4)))
        (shapeCast S1x128 g shapeCasts_S128_S1x128) (shapeCast S1x128 be shapeCasts_S128_S1x128)
      = refLayer4 (F := Ideal) x w b g be src dst wgt := by
  have hA : actR10 (agg4 (F := Ideal) (mm9 x w) wgt src dst) (shapeCast S1x128 b shapeCasts_S128_S1x128)
      = act4 (F := Ideal) x w b src dst wgt := by
    rw [actR10_pre, mm9_lin4]; rfl
  have hy : AllReal (actR10 (agg4 (F := Ideal) (mm9 x w) wgt src dst) (shapeCast S1x128 b shapeCasts_S128_S1x128)) := hA ▸ hact
  funext i
  obtain ⟨r, j, rfl⟩ : ∃ (r : Fin 50000) (j : Fin 128), i = ix2 r j := ⟨i 0, i 1, eq_ix2 i⟩
  rw [refLayer4_apply, normed4_apply, ← hA, ← mean_row4 _ _ j, ← var_row4 _ _ hy j]
  unfold bn11
  show max (_ * _ * Ideal.rsqrt (_ + epsW11) + _) zeroW11 = _
  rw [shapeCast_a_1a_apply, shapeCast_a_1a_apply, zeroW11_zero]
  rfl

end Cert.Bridge

end
-- ==== Proof.RegR13.lean ====
/-
  Region 13: the fifth layer's bias and column statistics. The aggregated features (50000 rows, 256 columns) are cut into 25 blocks of 2000 rows and the
  bias is one 256-entry row. At each grid point the kernel adds the bias to the block and
  writes the result to the same rows of the first output; the second and third outputs are 256-entry rows that stay
  in place over the whole grid: the first point sets them to zero, and every point adds to them the block's column
  sums and the column sums of its squares. So after point n they hold the column sums over the first (n + 1)·2000
  rows, and after the last point, which alone writes them back, over all 50000 rows.
-/
import proofs.«107715_j23149873725632_1_alg».proof.Proof.Gen.KernelIdeal.Frame
import proofs.«107715_j23149873725632_1_alg».proof.Proof.LibColSum
import proofs.«107715_j23149873725632_1_alg».proof.Proof.LibTileSum
import Idealize.ShloMosaic.Lib.Pipeline.Value
import Idealize.ShloMosaic.Lib.ValueIdx
import Idealize.ShloMosaic.Lib.ValueLayout

set_option maxRecDepth 16384

noncomputable section

namespace Cert.KernelIdeal.RegVal

open Cert.KernelIdeal Cert.KernelIdeal.Gen Idealize.ShloMosaic Idealize.ShloMosaic.TcCoe Idealize.SL.Sem Idealize.ShloMosaic.Tactic
open Idealize.ShloMosaic.ValueIdx
open Idealize.ShloMosaic.Pipeline (Dat)

theorem hzR_13 : (![0, 0] : Fin 2 → Nat) = fun _ => 0 := funext fun a => by fin_cases a <;> rfl

/-! ## What each case of the body leaves in the three outputs -/

section Pieces
variable {F : FTy → Type} [FloatOps F]

theorem pieceA2_13 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S2000x256 .f32) (harg3 : arg3.IsWhole) (arg4 : Memref sig .tc .vmem S1x256 .f32) (harg4 : arg4.IsWhole) (arg5 : Memref sig .tc .vmem S1x256 .f32) (harg5 : arg5.IsWhole) (hc0 : cond13_0 i)
    (x0 : Vec F S2000x256 .f32) (x1 : Vec F S1x256 .f32) :
    out13_A_2 c i arg1 harg1 arg2 harg2 arg3 harg3 arg4 harg4 arg5 harg5 hc0 x0 x1 = k13_pay3 x0 x1 := by
  unfold out13_A_2
  rw [View.read_writes_eq_canon _ _ _ (cover13_A_2 c i arg1 harg1 arg2 harg2 arg3 harg3 arg4 harg4 arg5 harg5 hc0 x0 x1)]
  unfold kernelRun13_A
  dsimp only
  sl_unfold_words
  rw [View.canon_unit_zero hzR_13]
  simp only [View.readAt_eq_ld, harg1.read_unread, harg2.read_unread,
    View.ld_unit_zero (S := S2000x256) hzR_13, View.ld_unit_zero (S := S1x256) hzR_13]

theorem pieceB2_13 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S2000x256 .f32) (harg3 : arg3.IsWhole) (arg4 : Memref sig .tc .vmem S1x256 .f32) (harg4 : arg4.IsWhole) (arg5 : Memref sig .tc .vmem S1x256 .f32) (harg5 : arg5.IsWhole) (hc0 : ¬cond13_0 i)
    (x0 : Vec F S2000x256 .f32) (x1 : Vec F S1x256 .f32) (xo3 xo4 : Vec F S1x256 .f32) :
    out13_B_2 c i arg1 harg1 arg2 harg2 arg3 harg3 arg4 harg4 arg5 harg5 hc0 x0 x1 xo3 xo4 = k13_pay3 x0 x1 := by
  unfold out13_B_2
  rw [View.read_writes_eq_canon _ _ _ (cover13_B_2 c i arg1 harg1 arg2 harg2 arg3 harg3 arg4 harg4 arg5 harg5 hc0 x0 x1 xo3 xo4)]
  unfold kernelRun13_B
  dsimp only
  rw [View.canon_unit_zero hzR_13]
  simp only [View.readAt_eq_ld, harg1.read_unread, harg2.read_unread,
    View.ld_unit_zero (S := S2000x256) hzR_13, View.ld_unit_zero (S := S1x256) hzR_13]

theorem pieceA3_13 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S2000x256 .f32) (harg3 : arg3.IsWhole) (arg4 : Memref sig .tc .vmem S1x256 .f32) (harg4 : arg4.IsWhole) (arg5 : Memref sig .tc .vmem S1x256 .f32) (harg5 : arg5.IsWhole) (hc0 : cond13_0 i)
    (x0 : Vec F S2000x256 .f32) (x1 : Vec F S1x256 .f32) :
    out13_A_3 c i arg1 harg1 arg2 harg2 arg3 harg3 arg4 harg4 arg5 harg5 hc0 x0 x1 = k13_pay4 x0 x1 k13_pay1 := by
  unfold out13_A_3
  rw [View.read_writes_eq_canon _ _ _ (cover13_A_3 c i arg1 harg1 arg2 harg2 arg3 harg3 arg4 harg4 arg5 harg5 hc0 x0 x1)]
  unfold kernelRun13_A
  dsimp only
  sl_unfold_words
  rw [View.canon_cons_unit_zero hzR_13]
  simp only [View.readAt_eq_ld, harg1.read_unread, harg2.read_unread, View.readCov_unit_zero (S := S1x256) arg4.view hzR_13,
    View.ld_unit_zero (S := S2000x256) hzR_13, View.ld_unit_zero (S := S1x256) hzR_13]

theorem pieceB3_13 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S2000x256 .f32) (harg3 : arg3.IsWhole) (arg4 : Memref sig .tc .vmem S1x256 .f32) (harg4 : arg4.IsWhole) (arg5 : Memref sig .tc .vmem S1x256 .f32) (harg5 : arg5.IsWhole) (hc0 : ¬cond13_0 i)
    (x0 : Vec F S2000x256 .f32) (x1 : Vec F S1x256 .f32) (xo3 xo4 : Vec F S1x256 .f32) :
    out13_B_3 c i arg1 harg1 arg2 harg2 arg3 harg3 arg4 harg4 arg5 harg5 hc0 x0 x1 xo3 xo4 = k13_pay4 x0 x1 xo3 := by
  unfold out13_B_3
  rw [View.read_writes_eq_canon _ _ _ (cover13_B_3 c i arg1 harg1 arg2 harg2 arg3 harg3 arg4 harg4 arg5 harg5 hc0 x0 x1 xo3 xo4)]
  unfold kernelRun13_B
  dsimp only
  rw [View.canon_unit_zero hzR_13]
  simp only [View.readAt_eq_ld, harg1.read_unread, harg2.read_unread, harg4.read_unread,
    View.ld_unit_zero (S := S2000x256) hzR_13, View.ld_unit_zero (S := S1x256) hzR_13]

theorem pieceA4_13 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S2000x256 .f32) (harg3 : arg3.IsWhole) (arg4 : Memref sig .tc .vmem S1x256 .f32) (harg4 : arg4.IsWhole) (arg5 : Memref sig .tc .vmem S1x256 .f32) (harg5 : arg5.IsWhole) (hc0 : cond13_0 i)
    (x0 : Vec F S2000x256 .f32) (x1 : Vec F S1x256 .f32) :
    out13_A_4 c i arg1 harg1 arg2 harg2 arg3 harg3 arg4 harg4 arg5 harg5 hc0 x0 x1 = k13_pay5 x0 x1 k13_pay2 := by
  unfold out13_A_4
  rw [View.read_writes_eq_canon _ _ _ (cover13_A_4 c i arg1 harg1 arg2 harg2 arg3 harg3 arg4 harg4 arg5 harg5 hc0 x0 x1)]
  unfold kernelRun13_A
  dsimp only
  sl_unfold_words
  rw [View.canon_cons_unit_zero hzR_13]
  simp only [View.readAt_eq_ld, harg1.read_unread, harg2.read_unread, View.readCov_unit_zero (S := S1x256) arg5.view hzR_13,
    View.ld_unit_zero (S := S2000x256) hzR_13, View.ld_unit_zero (S := S1x256) hzR_13]

theorem pieceB4_13 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S2000x256 .f32) (harg3 : arg3.IsWhole) (arg4 : Memref sig .tc .vmem S1x256 .f32) (harg4 : arg4.IsWhole) (arg5 : Memref sig .tc .vmem S1x256 .f32) (harg5 : arg5.IsWhole) (hc0 : ¬cond13_0 i)
    (x0 : Vec F S2000x256 .f32) (x1 : Vec F S1x256 .f32) (xo3 xo4 : Vec F S1x256 .f32) :
    out13_B_4 c i arg1 harg1 arg2 harg2 arg3 harg3 arg4 harg4 arg5 harg5 hc0 x0 x1 xo3 xo4 = k13_pay5 x0 x1 xo4 := by
  unfold out13_B_4
  rw [View.read_writes_eq_canon _ _ _ (cover13_B_4 c i arg1 harg1 arg2 harg2 arg3 harg3 arg4 harg4 arg5 harg5 hc0 x0 x1 xo3 xo4)]
  unfold kernelRun13_B
  dsimp only
  rw [View.canon_unit_zero hzR_13]
  simp only [View.readAt_eq_ld, harg1.read_unread, harg2.read_unread, harg5.read_unread,
    View.ld_unit_zero (S := S2000x256) hzR_13, View.ld_unit_zero (S := S1x256) hzR_13]

end Pieces

/-! ## The payloads on the extended reals -/

/-- The zero word. -/
def zeroWR13 : EReal := Scalar.ofBits (F := Ideal) .f32 0x00000000#32

/-- The bias added, entry by entry. -/
theorem payR3_13 (x0 : Vec Ideal S2000x256 .f32) (x1 : Vec Ideal S1x256 .f32) (p : Fin 2000) (q : Fin 256) :
    k13_pay3 x0 x1 (ix2 p q) = x0 (ix2 p q) + x1 (ix2 (0 : Fin 1) q) := by
  unfold k13_pay3
  simp only [shapeCast_self, addf, maximumf, broadcast, broadcastTo_1b_ab_apply, Ideal.addf_def, Ideal.maximumf_def, zeroWR13]

/-- The running column sums after a point: what they held plus the block's column sums. -/
theorem payR4_13 (x0 : Vec Ideal S2000x256 .f32) (x1 s : Vec Ideal S1x256 .f32) (q : Fin 256) :
    k13_pay4 x0 x1 s (ix2 (0 : Fin 1) q) = s (ix2 (0 : Fin 1) q) + ∑ p : Fin 2000, k13_pay3 x0 x1 (ix2 p q) := by
  unfold k13_pay4
  simp only [shapeCast_self, addf, Ideal.addf_def]
  exact congrArg (s (ix2 (0 : Fin 1) q) + ·) (Cert.LibColSum.rowOfColSums_apply (k13_pay3 x0 x1) _ _ _ _ 0 q)

/-- The running column sums of squares after a point. -/
theorem payR5_13 (x0 : Vec Ideal S2000x256 .f32) (x1 s : Vec Ideal S1x256 .f32) (q : Fin 256) :
    k13_pay5 x0 x1 s (ix2 (0 : Fin 1) q)
      = s (ix2 (0 : Fin 1) q) + ∑ p : Fin 2000, k13_pay3 x0 x1 (ix2 p q) * k13_pay3 x0 x1 (ix2 p q) := by
  unfold k13_pay5
  simp only [shapeCast_self, addf, Ideal.addf_def]
  refine congrArg (s (ix2 (0 : Fin 1) q) + ·) ((Cert.LibColSum.rowOfColSums_apply (mulf (k13_pay3 x0 x1) (k13_pay3 x0 x1)) _ _ _ _ 0 q).trans ?_)
  simp only [mulf, Ideal.mulf_def]

/-- The first point's reset of the two running rows. -/
theorem payR1_13 (q : Fin 256) : k13_pay1 (F := Ideal) (ix2 (0 : Fin 1) q) = zeroWR13 := by
  unfold k13_pay1; simp only [broadcast, zeroWR13]
theorem payR2_13 (q : Fin 256) : k13_pay2 (F := Ideal) (ix2 (0 : Fin 1) q) = zeroWR13 := by
  unfold k13_pay2; simp only [broadcast, zeroWR13]

variable (V : (c : Dev nD) → (b : Ref sig .tc) → Buf (Elt Ideal) ((c : Thread nD τ).loc b))

/-- The index maps over the 25 grid points: the row blocks move with the point, the three rows stay. -/
theorem idxR13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0 :=
  (by decide +kernel : ∀ t : Fin grid13.N, _)

/-- The bias added to the whole array. -/
def actR13 (A : S50000x256.Idx → EReal) (B : S1x256.Idx → EReal) : S50000x256.Idx → EReal :=
  fun i => A i + B (ix2 (0 : Fin 1) (i 1))

/-- Column `q` of a 50000-row array as a sequence (zero past the last row). -/
def colR13 (Y : S50000x256.Idx → EReal) (q : Fin 256) (s : ℕ) : EReal :=
  if h : s < 50000 then Y (ix2 (⟨s, h⟩ : Fin 50000) q) else 0

set_option maxHeartbeats 4000000 in
/-- What every point leaves in the first output's block: the whole-array activations at the block's rows. -/
theorem afterR2_13 (c : Dev nD) (t : Fin cfg13.N) :
    (outsAt13 V c t.val t.isLt).1 = k13_pay3 (iblk13 V c 0 t) (iblk13 V c 1 t) := by
  by_cases h0 : t.val % 25 = 0
  · exact (congrArg (fun z => z.1) (outsAt13_A V c t h0)).trans
      (pieceA2_13 (F := Ideal) c (grid13.coords t) (ms13_0 t) (hs13_0 t) (ms13_1 t) (hs13_1 t) (ms13_2 t) (hs13_2 t) (ms13_3 t) (hs13_3 t) (ms13_4 t) (hs13_4 t) ((hcond13_0 t).mpr h0) (iblk13 V c 0 t) (iblk13 V c 1 t))
  · exact (congrArg (fun z => z.1) (outsAt13_B V c t h0)).trans
      (pieceB2_13 (F := Ideal) c (grid13.coords t) (ms13_0 t) (hs13_0 t) (ms13_1 t) (hs13_1 t) (ms13_2 t) (hs13_2 t) (ms13_3 t) (hs13_3 t) (ms13_4 t) (hs13_4 t) (fun h => h0 ((hcond13_0 t).mp h)) (iblk13 V c 0 t) (iblk13 V c 1 t)
        (outsAt13 V c (t.val - 1) (Nat.lt_of_le_of_lt (Nat.sub_le _ _) t.isLt)).2.1 (outsAt13 V c (t.val - 1) (Nat.lt_of_le_of_lt (Nat.sub_le _ _) t.isLt)).2.2)

/-- A block's activations are the whole array's at the block's rows. -/
theorem blkAct13 (c : Dev nD) (t : Fin cfg13.N) (A : S50000x256.Idx → EReal) (B : S1x256.Idx → EReal)
    (hA : V c (Pipeline.arrRef spec13 0) = A) (hB : V c (Pipeline.arrRef spec13 1) = B) (p : Fin 2000) (q : Fin 256) :
    k13_pay3 (iblk13 V c 0 t) (iblk13 V c 1 t) (ix2 p q) = colR13 (actR13 A B) q (2000 * t.val + p.val) := by
  have hb0 : iblk13 V c 0 t = ((cfg13.win 0).blk t).view.read (Elt Ideal) A := by unfold iblk13; rw [hA]
  have hb1 : iblk13 V c 1 t = ((cfg13.win 1).blk t).view.read (Elt Ideal) B := by unfold iblk13; rw [hB]
  rw [hb0, hb1]
  refine (payR3_13 _ _ p q).trans ?_
  obtain ⟨e0, e1, e2, e3, e4, e5, e6, e7, e8, e9⟩ := idxR13 t
  have hN : t.val < 25 := lt_of_lt_of_eq t.isLt (show cfg13.N = 25 from N_13)
  have hlt : 2000 * t.val + p.val < 50000 := by have := p.isLt; omega
  have h0 : ((cfg13.win 0).blk t).view.emb (ix2 p q) = ix2 (⟨2000 * t.val + p.val, hlt⟩ : Fin 50000) q := by
    funext a; apply Fin.ext
    match a with
    | ⟨0, _⟩ => show win13_0.index t (0 : Fin 2) * 2000 + 1 * p.val = 2000 * t.val + p.val; omega
    | ⟨1, _⟩ => show win13_0.index t (1 : Fin 2) * 256 + 1 * q.val = q.val; omega
  have h1 : ((cfg13.win 1).blk t).view.emb (ix2 (0 : Fin 1) q) = ix2 (0 : Fin 1) q := by
    funext a; apply Fin.ext
    match a with
    | ⟨0, _⟩ => show win13_1.index t (0 : Fin 2) * 1 + 1 * 0 = 0; omega
    | ⟨1, _⟩ => show win13_1.index t (1 : Fin 2) * 256 + 1 * q.val = q.val; omega
  show A (((cfg13.win 0).blk t).view.emb (ix2 p q)) + B (((cfg13.win 1).blk t).view.emb (ix2 (0 : Fin 1) q)) = _
  rw [congrArg A h0, congrArg B h1]
  unfold colR13 actR13
  rw [dif_pos hlt]

/-! ## The running sums, point by point -/

set_option maxHeartbeats 4000000 in
/-- After point `n` the second output's row holds, in column `q`, the column's sum over the first (n + 1) blocks. -/
theorem acc3_13 (c : Dev nD) (A : S50000x256.Idx → EReal) (B : S1x256.Idx → EReal)
    (hA : V c (Pipeline.arrRef spec13 0) = A) (hB : V c (Pipeline.arrRef spec13 1) = B) :
    ∀ (n : ℕ) (hn : n < cfg13.N) (q : Fin 256),
      (outsAt13 V c n hn).2.1 (ix2 (0 : Fin 1) q)
        = zeroWR13 + Cert.LibTileSum.tileAcc 2000 (colR13 (actR13 A B) q) (n + 1) := by
  intro n
  induction n with
  | zero =>
    intro hn q
    have h : (outsAt13 V c 0 hn).2.1 = k13_pay4 (iblk13 V c 0 ⟨0, hn⟩) (iblk13 V c 1 ⟨0, hn⟩) (k13_pay1 (F := Ideal)) :=
      (congrArg (fun z => z.2.1) (outsAt13_A V c ⟨0, hn⟩ (Nat.zero_mod _))).trans
        (pieceA3_13 (F := Ideal) c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) ((hcond13_0 ⟨0, hn⟩).mpr (Nat.zero_mod _))
          (iblk13 V c 0 ⟨0, hn⟩) (iblk13 V c 1 ⟨0, hn⟩))
    rw [h, payR4_13, payR1_13, Cert.LibTileSum.tileAcc_succ, Cert.LibTileSum.tileAcc_zero, zero_add]
    exact congrArg (zeroWR13 + ·) (Finset.sum_congr rfl fun p _ => blkAct13 V c ⟨0, hn⟩ A B hA hB p q)
  | succ n ih =>
    intro hn q
    have hN : n + 1 < 25 := lt_of_lt_of_eq hn (show cfg13.N = 25 from N_13)
    have h0 : ¬ (n + 1) % 25 = 0 := by omega
    have h : (outsAt13 V c (n + 1) hn).2.1
        = k13_pay4 (iblk13 V c 0 ⟨n + 1, hn⟩) (iblk13 V c 1 ⟨n + 1, hn⟩) (outsAt13 V c n (Nat.lt_of_succ_lt hn)).2.1 :=
      (congrArg (fun z => z.2.1) (outsAt13_B V c ⟨n + 1, hn⟩ h0)).trans
        (pieceB3_13 (F := Ideal) c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (fun h => h0 ((hcond13_0 ⟨n + 1, hn⟩).mp h))
          (iblk13 V c 0 ⟨n + 1, hn⟩) (iblk13 V c 1 ⟨n + 1, hn⟩)
          (outsAt13 V c n (Nat.lt_of_succ_lt hn)).2.1 (outsAt13 V c n (Nat.lt_of_succ_lt hn)).2.2)
    rw [h, payR4_13, ih (Nat.lt_of_succ_lt hn) q, Cert.LibTileSum.tileAcc_succ 2000 _ (n + 1), add_assoc]
    exact congrArg (fun z => zeroWR13 + (Cert.LibTileSum.tileAcc 2000 (colR13 (actR13 A B) q) (n + 1) + z))
      (Finset.sum_congr rfl fun p _ => blkAct13 V c ⟨n + 1, hn⟩ A B hA hB p q)

set_option maxHeartbeats 4000000 in
/-- After point `n` the third output's row holds, in column `q`, the column's sum of squares over the first (n + 1) blocks. -/
theorem acc4_13 (c : Dev nD) (A : S50000x256.Idx → EReal) (B : S1x256.Idx → EReal)
    (hA : V c (Pipeline.arrRef spec13 0) = A) (hB : V c (Pipeline.arrRef spec13 1) = B) :
    ∀ (n : ℕ) (hn : n < cfg13.N) (q : Fin 256),
      (outsAt13 V c n hn).2.2 (ix2 (0 : Fin 1) q)
        = zeroWR13 + Cert.LibTileSum.tileAcc 2000 (fun s => colR13 (actR13 A B) q s * colR13 (actR13 A B) q s) (n + 1) := by
  intro n
  induction n with
  | zero =>
    intro hn q
    have h : (outsAt13 V c 0 hn).2.2 = k13_pay5 (iblk13 V c 0 ⟨0, hn⟩) (iblk13 V c 1 ⟨0, hn⟩) (k13_pay2 (F := Ideal)) :=
      (congrArg (fun z => z.2.2) (outsAt13_A V c ⟨0, hn⟩ (Nat.zero_mod _))).trans
        (pieceA4_13 (F := Ideal) c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) ((hcond13_0 ⟨0, hn⟩).mpr (Nat.zero_mod _))
          (iblk13 V c 0 ⟨0, hn⟩) (iblk13 V c 1 ⟨0, hn⟩))
    rw [h, payR5_13, payR2_13, Cert.LibTileSum.tileAcc_succ, Cert.LibTileSum.tileAcc_zero, zero_add]
    exact congrArg (zeroWR13 + ·) (Finset.sum_congr rfl fun p _ => by rw [blkAct13 V c ⟨0, hn⟩ A B hA hB p q])
  | succ n ih =>
    intro hn q
    have hN : n + 1 < 25 := lt_of_lt_of_eq hn (show cfg13.N = 25 from N_13)
    have h0 : ¬ (n + 1) % 25 = 0 := by omega
    have h : (outsAt13 V c (n + 1) hn).2.2
        = k13_pay5 (iblk13 V c 0 ⟨n + 1, hn⟩) (iblk13 V c 1 ⟨n + 1, hn⟩) (outsAt13 V c n (Nat.lt_of_succ_lt hn)).2.2 :=
      (congrArg (fun z => z.2.2) (outsAt13_B V c ⟨n + 1, hn⟩ h0)).trans
        (pieceB4_13 (F := Ideal) c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (fun h => h0 ((hcond13_0 ⟨n + 1, hn⟩).mp h))
          (iblk13 V c 0 ⟨n + 1, hn⟩) (iblk13 V c 1 ⟨n + 1, hn⟩)
          (outsAt13 V c n (Nat.lt_of_succ_lt hn)).2.1 (outsAt13 V c n (Nat.lt_of_succ_lt hn)).2.2)
    rw [h, payR5_13, ih (Nat.lt_of_succ_lt hn) q, Cert.LibTileSum.tileAcc_succ 2000 _ (n + 1), add_assoc]
    exact congrArg (fun z => zeroWR13 + (Cert.LibTileSum.tileAcc 2000 (fun s => colR13 (actR13 A B) q s * colR13 (actR13 A B) q s) (n + 1) + z))
      (Finset.sum_congr rfl fun p _ => by rw [blkAct13 V c ⟨n + 1, hn⟩ A B hA hB p q])

end Cert.KernelIdeal.RegVal

end
-- ==== Proof.RegR13b.lean ====
/-
  Region 13, continued: the three output arrays after the region. The first is the bias applied to the whole
  input, block by block; the second and third are the column sums and the column sums of squares of that array
  over all 50000 rows, which the last grid point writes back.
-/
import proofs.«107715_j23149873725632_1_alg».proof.Proof.RegR13

set_option maxRecDepth 16384

noncomputable section

namespace Cert.KernelIdeal.RegVal

open Cert.KernelIdeal Cert.KernelIdeal.Gen Idealize.ShloMosaic Idealize.ShloMosaic.TcCoe Idealize.SL.Sem Idealize.ShloMosaic.Tactic
open Idealize.ShloMosaic.ValueIdx
open Idealize.ShloMosaic.Pipeline (Dat)

variable (V : (c : Dev nD) → (b : Ref sig .tc) → Buf (Elt Ideal) ((c : Thread nD τ).loc b))

set_option maxHeartbeats 2000000 in
/-- What point `t` writes back to the first output is block `t` of the whole array of activations. -/
theorem flushedR2_13 (c : Dev nD) (t : Fin cfg13.N) (A : S50000x256.Idx → EReal) (B : S1x256.Idx → EReal)
    (hA : V c (Pipeline.arrRef spec13 0) = A) (hB : V c (Pipeline.arrRef spec13 1) = B) :
    (dat13 V c).flushed 2 t = ((cfg13.win 2).blk t).view.read (Elt Ideal) (actR13 A B) := by
  have hN : t.val < 25 := lt_of_lt_of_eq t.isLt (show cfg13.N = 25 from N_13)
  obtain ⟨e0, e1, e2, e3, e4, e5, e6, e7, e8, e9⟩ := idxR13 t
  show (cfg13.win 2).cut (grid13.coords t) ((dat13 V c).after 2 t) = _
  rw [after13_2, afterR2_13 V c t]
  funext j
  obtain ⟨p, q, rfl⟩ : ∃ (p : Fin 2000) (q : Fin 256), j = ix2 p q := ⟨j 0, j 1, eq_ix2 j⟩
  refine (blkAct13 V c t A B hA hB p q).trans ?_
  have hlt : 2000 * t.val + p.val < 50000 := by have := p.isLt; omega
  unfold colR13
  rw [dif_pos hlt]
  show actR13 A B (ix2 (⟨2000 * t.val + p.val, hlt⟩ : Fin 50000) q) = actR13 A B (((cfg13.win 2).blk t).view.emb (ix2 p q))
  refine congrArg (actR13 A B) ?_
  funext a; apply Fin.ext
  match a with
  | ⟨0, _⟩ => show 2000 * t.val + p.val = win13_2.index t (0 : Fin 2) * 2000 + 1 * p.val; omega
  | ⟨1, _⟩ => show q.val = win13_2.index t (1 : Fin 2) * 256 + 1 * q.val; omega

/-- An index of the first output is in point `t`'s block iff each coordinate is in the block's range on its axis. -/
theorem mem_blkR2_13 (t : Fin cfg13.N) (i : S50000x256.Idx) :
    i ∈ ((cfg13.win 2).blk t).view.set ↔ ∀ a : Fin 2, win13_2.index t a * S2000x256.size a ≤ (i a).val
      ∧ (i a).val < win13_2.index t a * S2000x256.size a + S2000x256.size a := by
  show i ∈ ((View.whole main_v151_0).slice (win13_2.rect t)).set ↔ _
  rw [View.set_slice_whole, Rect.mem_set_unit]
  exact Iff.rfl

/-- Every block of rows is some point's. -/
theorem idx_ontoR2_13 : ∀ q0 : Fin 25, ∃ t : Fin cfg13.N, win13_2.index t = ![q0.val, 0] :=
  (by decide +kernel : ∀ q0 : Fin 25, ∃ t : Fin grid13.N, win13_2.index t = ![q0.val, 0])

/-- The 25 blocks of 2000 rows tile the 50000 rows. -/
theorem coverR2_13 (i : S50000x256.Idx) :
    ∃ t : Fin cfg13.N, (cfg13.win 2).flush t = true ∧ i ∈ ((cfg13.win 2).blk t).view.set := by
  have hi0 : (i 0).val < 50000 := (i 0).isLt
  have hi1 : (i 1).val < 256 := (i 1).isLt
  obtain ⟨t, ht⟩ := idx_ontoR2_13 ⟨(i 0).val / 2000, by omega⟩
  have q0 : win13_2.index t (0 : Fin 2) = (i 0).val / 2000 := congrFun ht 0
  have q1 : win13_2.index t (1 : Fin 2) = 0 := congrFun ht 1
  refine ⟨t, flush13_2 t, ?_⟩
  rw [mem_blkR2_13]
  intro a
  match a with
  | ⟨0, _⟩ => show win13_2.index t (0 : Fin 2) * 2000 ≤ (i 0).val ∧ (i 0).val < win13_2.index t (0 : Fin 2) * 2000 + 2000; omega
  | ⟨1, _⟩ => show win13_2.index t (1 : Fin 2) * 256 ≤ (i 1).val ∧ (i 1).val < win13_2.index t (1 : Fin 2) * 256 + 256; omega

/-- After the region the first output holds the activations of the whole input. -/
theorem finalR2_13 (c : Dev nD) (A : S50000x256.Idx → EReal) (B : S1x256.Idx → EReal)
    (hA : V c (Pipeline.arrRef spec13 0) = A) (hB : V c (Pipeline.arrRef spec13 1) = B) :
    (dat13 V c).arrAt 2 cfg13.N = actR13 A B :=
  (dat13 V c).arrAt_eq_of_cover 2 _ (fun t _ => flushedR2_13 V c t A B hA hB) coverR2_13

/-- The column sums of the activations over all 50000 rows (from the zero word). -/
def sumR13 (A : S50000x256.Idx → EReal) (B : S1x256.Idx → EReal) : S1x256.Idx → EReal :=
  fun j => zeroWR13 + ∑ s : Fin 50000, actR13 A B (ix2 s (j 1))

set_option maxHeartbeats 2000000 in
/-- Only the last point writes this row back, and what it writes is the sum over all 25 blocks. -/
theorem flushedR3_13 (c : Dev nD) (t : Fin cfg13.N) (hf : (cfg13.win 3).flush t = true)
    (A : S50000x256.Idx → EReal) (B : S1x256.Idx → EReal)
    (hA : V c (Pipeline.arrRef spec13 0) = A) (hB : V c (Pipeline.arrRef spec13 1) = B) :
    (dat13 V c).flushed 3 t = ((cfg13.win 3).blk t).view.read (Elt Ideal) (sumR13 A B) := by
  have hN : t.val < 25 := lt_of_lt_of_eq t.isLt (show cfg13.N = 25 from N_13)
  have h24 : t.val % 25 = 24 := (flush13_3 t).mp hf
  have ht : t.val + 1 = 25 := by omega
  obtain ⟨e0, e1, e2, e3, e4, e5, e6, e7, e8, e9⟩ := idxR13 t
  show (cfg13.win 3).cut (grid13.coords t) ((dat13 V c).after 3 t) = _
  rw [after13_3]
  funext j
  obtain ⟨u, q, rfl⟩ : ∃ (u : Fin 1) (q : Fin 256), j = ix2 u q := ⟨j 0, j 1, eq_ix2 j⟩
  obtain rfl : u = 0 := Subsingleton.elim _ _
  refine (acc3_13 V c A B hA hB t.val t.isLt q).trans ?_
  rw [ht, Cert.LibTileSum.tileAcc_all 25 2000]
  show zeroWR13 + ∑ s : Fin 50000, colR13 (actR13 A B) q s.val = sumR13 A B (((cfg13.win 3).blk t).view.emb (ix2 (0 : Fin 1) q))
  unfold sumR13
  refine congrArg (zeroWR13 + ·) (Finset.sum_congr rfl fun s _ => ?_)
  have hq : ix2 s q = ix2 s ((((cfg13.win 3).blk t).view.emb (ix2 (0 : Fin 1) q)) 1) := by
    funext a; apply Fin.ext
    match a with
    | ⟨0, _⟩ => rfl
    | ⟨1, _⟩ => show q.val = win13_3.index t (1 : Fin 2) * 256 + 1 * q.val; omega
  unfold colR13
  rw [dif_pos s.isLt]
  show actR13 A B (ix2 s q) = _
  rw [hq]
  rfl

/-- An index of the row is in point `t`'s block iff each coordinate is in the block's range on its axis. -/
theorem mem_blkR3_13 (t : Fin cfg13.N) (i : S1x256.Idx) :
    i ∈ ((cfg13.win 3).blk t).view.set ↔ ∀ a : Fin 2, win13_3.index t a * S1x256.size a ≤ (i a).val
      ∧ (i a).val < win13_3.index t a * S1x256.size a + S1x256.size a := by
  show i ∈ ((View.whole main_v151_1).slice (win13_3.rect t)).set ↔ _
  rw [View.set_slice_whole, Rect.mem_set_unit]
  exact Iff.rfl

/-- The last point's block is the whole row. -/
theorem coverR3_13 (i : S1x256.Idx) :
    ∃ t : Fin cfg13.N, (cfg13.win 3).flush t = true ∧ i ∈ ((cfg13.win 3).blk t).view.set := by
  have hi0 : (i 0).val < 1 := (i 0).isLt
  have hi1 : (i 1).val < 256 := (i 1).isLt
  have h24 : 24 < cfg13.N := by rw [show cfg13.N = 25 from N_13]; omega
  obtain ⟨e0, e1, e2, e3, e4, e5, e6, e7, e8, e9⟩ := idxR13 ⟨24, h24⟩
  refine ⟨⟨24, h24⟩, (flush13_3 _).mpr (show (24 : ℕ) % 25 = 24 from rfl), ?_⟩
  rw [mem_blkR3_13]
  intro a
  match a with
  | ⟨0, _⟩ => show win13_3.index ⟨24, h24⟩ (0 : Fin 2) * 1 ≤ (i 0).val ∧ (i 0).val < win13_3.index ⟨24, h24⟩ (0 : Fin 2) * 1 + 1; omega
  | ⟨1, _⟩ => show win13_3.index ⟨24, h24⟩ (1 : Fin 2) * 256 ≤ (i 1).val ∧ (i 1).val < win13_3.index ⟨24, h24⟩ (1 : Fin 2) * 256 + 256; omega

/-- After the region the row holds the column statistic over all 50000 rows. -/
theorem finalR3_13 (c : Dev nD) (A : S50000x256.Idx → EReal) (B : S1x256.Idx → EReal)
    (hA : V c (Pipeline.arrRef spec13 0) = A) (hB : V c (Pipeline.arrRef spec13 1) = B) :
    (dat13 V c).arrAt 3 cfg13.N = sumR13 A B :=
  (dat13 V c).arrAt_eq_of_cover 3 _ (fun t hf => flushedR3_13 V c t hf A B hA hB) coverR3_13

/-- The column sums of the squared activations over all 50000 rows (from the zero word). -/
def sqR13 (A : S50000x256.Idx → EReal) (B : S1x256.Idx → EReal) : S1x256.Idx → EReal :=
  fun j => zeroWR13 + ∑ s : Fin 50000, actR13 A B (ix2 s (j 1)) * actR13 A B (ix2 s (j 1))

set_option maxHeartbeats 2000000 in
/-- Only the last point writes this row back, and what it writes is the sum over all 25 blocks. -/
theorem flushedR4_13 (c : Dev nD) (t : Fin cfg13.N) (hf : (cfg13.win 4).flush t = true)
    (A : S50000x256.Idx → EReal) (B : S1x256.Idx → EReal)
    (hA : V c (Pipeline.arrRef spec13 0) = A) (hB : V c (Pipeline.arrRef spec13 1) = B) :
    (dat13 V c).flushed 4 t = ((cfg13.win 4).blk t).view.read (Elt Ideal) (sqR13 A B) := by
  have hN : t.val < 25 := lt_of_lt_of_eq t.isLt (show cfg13.N = 25 from N_13)
  have h24 : t.val % 25 = 24 := (flush13_4 t).mp hf
  have ht : t.val + 1 = 25 := by omega
  obtain ⟨e0, e1, e2, e3, e4, e5, e6, e7, e8, e9⟩ := idxR13 t
  show (cfg13.win 4).cut (grid13.coords t) ((dat13 V c).after 4 t) = _
  rw [after13_4]
  funext j
  obtain ⟨u, q, rfl⟩ : ∃ (u : Fin 1) (q : Fin 256), j = ix2 u q := ⟨j 0, j 1, eq_ix2 j⟩
  obtain rfl : u = 0 := Subsingleton.elim _ _
  refine (acc4_13 V c A B hA hB t.val t.isLt q).trans ?_
  rw [ht, Cert.LibTileSum.tileAcc_all 25 2000]
  show zeroWR13 + ∑ s : Fin 50000, colR13 (actR13 A B) q s.val * colR13 (actR13 A B) q s.val = sqR13 A B (((cfg13.win 4).blk t).view.emb (ix2 (0 : Fin 1) q))
  unfold sqR13
  refine congrArg (zeroWR13 + ·) (Finset.sum_congr rfl fun s _ => ?_)
  have hq : ix2 s q = ix2 s ((((cfg13.win 4).blk t).view.emb (ix2 (0 : Fin 1) q)) 1) := by
    funext a; apply Fin.ext
    match a with
    | ⟨0, _⟩ => rfl
    | ⟨1, _⟩ => show q.val = win13_4.index t (1 : Fin 2) * 256 + 1 * q.val; omega
  unfold colR13
  rw [dif_pos s.isLt]
  show actR13 A B (ix2 s q) * actR13 A B (ix2 s q) = _
  rw [hq]
  rfl

/-- An index of the row is in point `t`'s block iff each coordinate is in the block's range on its axis. -/
theorem mem_blkR4_13 (t : Fin cfg13.N) (i : S1x256.Idx) :
    i ∈ ((cfg13.win 4).blk t).view.set ↔ ∀ a : Fin 2, win13_4.index t a * S1x256.size a ≤ (i a).val
      ∧ (i a).val < win13_4.index t a * S1x256.size a + S1x256.size a := by
  show i ∈ ((View.whole main_v151_2).slice (win13_4.rect t)).set ↔ _
  rw [View.set_slice_whole, Rect.mem_set_unit]
  exact Iff.rfl

/-- The last point's block is the whole row. -/
theorem coverR4_13 (i : S1x256.Idx) :
    ∃ t : Fin cfg13.N, (cfg13.win 4).flush t = true ∧ i ∈ ((cfg13.win 4).blk t).view.set := by
  have hi0 : (i 0).val < 1 := (i 0).isLt
  have hi1 : (i 1).val < 256 := (i 1).isLt
  have h24 : 24 < cfg13.N := by rw [show cfg13.N = 25 from N_13]; omega
  obtain ⟨e0, e1, e2, e3, e4, e5, e6, e7, e8, e9⟩ := idxR13 ⟨24, h24⟩
  refine ⟨⟨24, h24⟩, (flush13_4 _).mpr (show (24 : ℕ) % 25 = 24 from rfl), ?_⟩
  rw [mem_blkR4_13]
  intro a
  match a with
  | ⟨0, _⟩ => show win13_4.index ⟨24, h24⟩ (0 : Fin 2) * 1 ≤ (i 0).val ∧ (i 0).val < win13_4.index ⟨24, h24⟩ (0 : Fin 2) * 1 + 1; omega
  | ⟨1, _⟩ => show win13_4.index ⟨24, h24⟩ (1 : Fin 2) * 256 ≤ (i 1).val ∧ (i 1).val < win13_4.index ⟨24, h24⟩ (1 : Fin 2) * 256 + 256; omega

/-- After the region the row holds the column statistic over all 50000 rows. -/
theorem finalR4_13 (c : Dev nD) (A : S50000x256.Idx → EReal) (B : S1x256.Idx → EReal)
    (hA : V c (Pipeline.arrRef spec13 0) = A) (hB : V c (Pipeline.arrRef spec13 1) = B) :
    (dat13 V c).arrAt 4 cfg13.N = sqR13 A B :=
  (dat13 V c).arrAt_eq_of_cover 4 _ (fun t hf => flushedR4_13 V c t hf A B hA hB) coverR4_13

end Cert.KernelIdeal.RegVal

end
-- ==== Proof.RefMath5.lean ====
import proofs.«107715_j23149873725632_1_alg».proof.Proof.RefOpsRead5
import proofs.«107715_j23149873725632_1_alg».proof.Proof.RefMath1
import proofs.«107715_j23149873725632_1_alg».proof.Proof.LibDotRows
import proofs.«107715_j23149873725632_1_alg».proof.Proof.LibBcast
import Idealize.ShloMosaic.Lib.IdealHost

/-! Layer 5's named sub-stages read at an entry, on the extended reals: RefMath1.lean's statements at this layer's
    widths (128 in, 256 out). -/

noncomputable section

namespace Cert.ReferenceIdeal.HandRun

open Cert.ReferenceIdeal Cert.ReferenceIdeal.Gen Idealize.ShloMosaic Idealize.ShloMosaic.ValueIdx

/-- (M1) The matrix product at an entry: the sum over the 128 input columns. -/
theorem lin5_apply (x : FVec Ideal S50000x128 .f32) (w : FVec Ideal S128x256 .f32) (r : Fin 50000) (j : Fin 256) :
    lin5 x w (ix2 r j) = ∑ k : Fin 128, x (ix2 r k) * w (ix2 k j) :=
  Cert.LibDotRows.dot_rows_cols dot_S50000x128_S128x256_S50000x256_1_0_0_1_n_n_wf none x w r j

/-- A row vector repeated down the rows reads, at (r, j), the vector at j (for any float values). -/
theorem rows5_apply {F : FTy → Type} [FloatOps F] (v : FVec F S256 .f32) (r : Fin 50000) (j : Fin 256) :
    rows5 v (ix2 r j) = v (ix1 j) :=
  (Cert.LibBcast.rowDownRows_apply _ bcast_S1x256_S50000x256_0_1 r j).trans
    (Cert.LibBcast.vecAsRow_apply v bcast_S256_S1x256_1 0 j)

/-- A rank-zero value spread over the 256 columns reads that value. -/
theorem splat5_apply {α : Type} (c : S_.Idx → α) (j : Fin 256) :
    broadcastInDim S256 ![] bcast_S_S256 c (ix1 j) = c ix0 :=
  broadcastInDim_scalar_apply bcast_S_S256 c (ix1 j)

/-- (M2) The pre-activation at an entry: the aggregate's entry plus the bias of its column. -/
theorem pre5_apply (a : FVec Ideal S50000x256 .f32) (b : FVec Ideal S256 .f32) (r : Fin 50000) (j : Fin 256) :
    pre5 a b (ix2 r j) = a (ix2 r j) + b (ix1 j) := by
  show addf a (rows5 b) (ix2 r j) = _
  rw [addf_apply, rows5_apply]

/-- (M2) The rectifier at an entry: the maximum with the real zero. -/
theorem relu5_apply (z : FVec Ideal S50000x256 .f32) (r : Fin 50000) (j : Fin 256) :
    relu5 z (ix2 r j) = max (z (ix2 r j)) 0 := by
  show maximumf z (broadcastInDim S50000x256 ![] bcast_S_S50000x256 (constant (F := Ideal) S_ .f32 0x00000000#32)) (ix2 r j) = _
  rw [maximumf_apply, broadcastInDim_scalar_apply, constant_apply, Ideal.ofBits_zero_f32]

/-- (M4) The normalisation at an entry; the word 0x3727C5AC is the f32 nearest 1e-5. -/
theorem norm5_apply (y : FVec Ideal S50000x256 .f32) (μ σ2 γ β : FVec Ideal S256 .f32) (r : Fin 50000) (j : Fin 256) :
    norm5 y μ σ2 γ β (ix2 r j)
      = γ (ix1 j) * (y (ix2 r j) - μ (ix1 j)) * Ideal.rsqrt (σ2 (ix1 j) + Ideal.ofBits .f32 0x3727C5AC#32) + β (ix1 j) := by
  show addf (mulf (mulf (rows5 γ) (subf y (rows5 μ)))
      (rows5 (Host.rsqrt (F := Ideal) (addf σ2 (broadcastInDim S256 ![] bcast_S_S256 (constant (F := Ideal) S_ .f32 0x3727C5AC#32))))))
    (rows5 β) (ix2 r j) = _
  rw [addf_apply, mulf_apply, mulf_apply, subf_apply, rows5_apply, rows5_apply, rows5_apply, rows5_apply]
  show _ * _ * FloatOps.hostUnary .rsqrt (addf σ2 (broadcastInDim S256 ![] bcast_S_S256 (constant (F := Ideal) S_ .f32 0x3727C5AC#32)) (ix1 j)) + _ = _
  rw [addf_apply, splat5_apply, constant_apply]
  rfl

/-- The normalised pre-activation at an entry (this layer normalises first). -/
theorem normed5_apply (x : FVec Ideal S50000x128 .f32) (w : FVec Ideal S128x256 .f32) (b γ β : FVec Ideal S256 .f32)
    (src dst : IVec S450000 32) (wgt : FVec Ideal S450000 .f32) (r : Fin 50000) (j : Fin 256) :
    normed5 x w b γ β src dst wgt (ix2 r j)
      = γ (ix1 j) * (act5 x w b src dst wgt (ix2 r j) - mean5 (act5 x w b src dst wgt) (ix1 j))
          * Ideal.rsqrt (var5 (act5 x w b src dst wgt) (ix1 j) + Ideal.ofBits .f32 0x3727C5AC#32) + β (ix1 j) :=
  norm5_apply _ _ _ _ _ r j

/-- The layer's output at an entry: the rectified normalised pre-activation. -/
theorem refLayer5_apply (x : FVec Ideal S50000x128 .f32) (w : FVec Ideal S128x256 .f32) (b γ β : FVec Ideal S256 .f32)
    (src dst : IVec S450000 32) (wgt : FVec Ideal S450000 .f32) (r : Fin 50000) (j : Fin 256) :
    refLayer5 x w b γ β src dst wgt (ix2 r j) = max (normed5 x w b γ β src dst wgt (ix2 r j)) 0 :=
  relu5_apply _ r j

end Cert.ReferenceIdeal.HandRun

end
-- ==== Proof.RefMath5Stats.lean ====
import proofs.«107715_j23149873725632_1_alg».proof.Proof.RefMath5
import proofs.«107715_j23149873725632_1_alg».proof.Proof.RefMath1Stats

/-! Layer 5's column statistics read at a column, on the extended reals: RefMath1Stats.lean's statements at width 256
    (AllReal, the comparison lemma, the count word and the variance's divisor are layer 1's). -/

set_option maxRecDepth 8192

noncomputable section

namespace Cert.ReferenceIdeal.HandRun

open Cert.ReferenceIdeal Cert.ReferenceIdeal.Gen Idealize.ShloMosaic Idealize.ShloMosaic.ValueIdx

/-- The column sum at column j (the host sum starts from the zero word: 0 + s = s). -/
theorem colSum5_apply (y : FVec Ideal S50000x256 .f32) (j : Fin 256) : colSum5 y (ix1 j) = ∑ r : Fin 50000, y (ix2 r j) := by
  show Host.reduceAdd y (constant (F := Ideal) S_ .f32 0x00000000#32) reducesTo_S50000x256_S256_d0 h_S_ (ix1 j) = _
  rw [hostReduceAdd_apply, Ideal.hostReduceAdd_single reducesTo_S50000x256_S256_d0 (by decide : S50000x256.Reduces [0] S256),
    constant_apply, Ideal.ofBits_zero_f32, zero_add]
  refine Finset.sum_congr rfl fun i _ => congrArg y ?_
  funext ax; apply Fin.ext
  match ax with
  | ⟨0, _⟩ => rfl
  | ⟨1, _⟩ => rfl

/-- (M3) The mean at column j. -/
theorem mean5_apply (y : FVec Ideal S50000x256 .f32) (j : Fin 256) :
    mean5 y (ix1 j) = Ideal.div (∑ r : Fin 50000, y (ix2 r j)) ((50000 : ℝ) : EReal) := by
  show Host.divf (F := Ideal) (colSum5 y) (broadcastInDim S256 ![] bcast_S_S256 (constant (F := Ideal) S_ .f32 0x47435000#32)) (ix1 j) = _
  rw [hostDivf_apply, colSum5_apply, splat5_apply, constant_apply, ofBits_count]

/-- A centred entry: the entry less its column's mean. -/
theorem centered5_apply (y : FVec Ideal S50000x256 .f32) (r : Fin 50000) (j : Fin 256) :
    centered5 y (ix2 r j) = y (ix2 r j) - Ideal.div (∑ s : Fin 50000, y (ix2 s j)) ((50000 : ℝ) : EReal) := by
  show subf y (broadcastInDim S50000x256 ![0, 1] bcast_S1x256_S50000x256_0_1
      (Host.divf (F := Ideal) (broadcastInDim S1x256 ![1] bcast_S256_S1x256_1 (colSum5 y))
        (broadcastInDim S1x256 ![] bcast_S_S1x256 (constant (F := Ideal) S_ .f32 0x47435000#32)))) (ix2 r j) = _
  rw [subf_apply, Cert.LibBcast.rowDownRows_apply, hostDivf_apply, Cert.LibBcast.vecAsRow_apply, broadcastInDim_scalar_apply,
    constant_apply, colSum5_apply, ofBits_count]

/-- (M3) The variance at column j, its guard resolved: the mean of the squared deviations from the column's mean. -/
theorem var5_apply (y : FVec Ideal S50000x256 .f32) (j : Fin 256) :
    var5 y (ix1 j)
      = Ideal.div (∑ r : Fin 50000,
            (y (ix2 r j) - Ideal.div (∑ s : Fin 50000, y (ix2 s j)) ((50000 : ℝ) : EReal))
              * (y (ix2 r j) - Ideal.div (∑ s : Fin 50000, y (ix2 s j)) ((50000 : ℝ) : EReal))) ((50000 : ℝ) : EReal) := by
  show select (broadcastInDim S256 ![] bcast_S_S256 (cmpf .ogt (varCount (F := Ideal)) (constant (F := Ideal) S_ .f32 0x00000000#32)))
      (Host.divf (F := Ideal) (colSum5 (mulf (centered5 y) (centered5 y))) (broadcastInDim S256 ![] bcast_S_S256 (varCount (F := Ideal))))
      (broadcastInDim S256 ![] bcast_S_S256 (id (constant (F := Ideal) S_ .f32 0x7FC00000#32))) (ix1 j) = _
  rw [select_apply, splat5_apply, cmpf_apply, varCount_apply, constant_apply, Ideal.ofBits_zero_f32]
  rw [show FloatOps.cmpf (F := Ideal) .ogt ((50000 : ℝ) : EReal) 0 = 1#1 from (cmp_ogt_coe_zero 50000).mpr (by norm_num),
    select_one, hostDivf_apply, colSum5_apply, splat5_apply, varCount_apply]
  have hsum : (∑ r : Fin 50000, mulf (centered5 y) (centered5 y) (ix2 r j))
      = ∑ r : Fin 50000,
          (y (ix2 r j) - Ideal.div (∑ s : Fin 50000, y (ix2 s j)) ((50000 : ℝ) : EReal))
            * (y (ix2 r j) - Ideal.div (∑ s : Fin 50000, y (ix2 s j)) ((50000 : ℝ) : EReal)) :=
    Finset.sum_congr rfl fun r _ => by rw [mulf_apply, centered5_apply]
  rw [hsum]

/-- (M6) For real-valued data the variance is the mean of the squares less the squared mean. -/
theorem var5_two_forms (y : FVec Ideal S50000x256 .f32) (hy : AllReal y) (j : Fin 256) :
    var5 y (ix1 j)
      = Ideal.div (∑ r : Fin 50000, y (ix2 r j) * y (ix2 r j)) ((50000 : ℝ) : EReal) - mean5 y (ix1 j) * mean5 y (ix1 j) := by
  rw [var5_apply, mean5_apply]
  choose h hh using hy
  have key := LibBatchVariance.variance_two_forms (fun r : Fin 50000 => h (ix2 r j)) 50000 (by norm_num) (by simp)
  simp only [hh]
  exact key

/-- The mean of real-valued data is real. -/
theorem mean5_real (y : FVec Ideal S50000x256 .f32) (hy : AllReal y) (j : Fin 256) : ∃ q : ℝ, mean5 y (ix1 j) = (q : EReal) := by
  rw [mean5_apply]
  choose h hh using hy
  refine ⟨(∑ r : Fin 50000, h (ix2 r j)) * (1 / 50000), ?_⟩
  have key := LibBatchVariance.mean_real (fun r : Fin 50000 => h (ix2 r j)) 50000 (by norm_num)
  simp only [hh]
  exact key

/-- The variance of real-valued data is a nonnegative real. -/
theorem var5_real (y : FVec Ideal S50000x256 .f32) (hy : AllReal y) (j : Fin 256) :
    ∃ v : ℝ, 0 ≤ v ∧ var5 y (ix1 j) = (v : EReal) := by
  rw [var5_apply]
  choose h hh using hy
  obtain ⟨v, hv, key⟩ := LibBatchVariance.variance_real (fun r : Fin 50000 => h (ix2 r j)) 50000 (by norm_num)
  refine ⟨v, hv, ?_⟩
  simp only [hh]
  exact key

end Cert.ReferenceIdeal.HandRun

end
-- ==== Proof.Bridge5.lean ====
/-
  Layer 5, the two sides joined. The kernel computes the layer as: the matrix product, the weighted aggregate over
  the edges, the bias with the column sums s and the column sums of squares ss, then
  mean = s / N, variance = ss / N − mean², and scale · (a − mean) · (variance + ε)^(−1/2) + shift, clipped below at zero. The reference
  computes the same product, aggregate and bias, takes the mean as the column sum over N, the variance
  as the mean of the squared deviations from the mean, normalises in the same way and applies the rectifier. For real-valued activations
  the two variances are one number: the mean of the squared deviations is the mean of the squares less the squared
  mean. Everything else agrees entry by entry.
-/
import proofs.«107715_j23149873725632_1_alg».proof.Proof.RegMM12
import proofs.«107715_j23149873725632_1_alg».proof.Proof.RegR13b
import proofs.«107715_j23149873725632_1_alg».proof.Proof.RegBN14
import proofs.«107715_j23149873725632_1_alg».proof.Proof.RefMath5Stats
import proofs.«107715_j23149873725632_1_alg».proof.Proof.KerChain5
import Idealize.ShloMosaic.Lib.ValueLayout

noncomputable section

namespace Cert.Bridge

open Idealize.ShloMosaic Idealize.ShloMosaic.ValueIdx
open Cert.KernelIdeal Cert.KernelIdeal.RegVal Cert.KernelIdeal.Gen
open Cert.ReferenceIdeal.HandRun (AllReal lin5 agg5 pre5 relu5 act5 mean5 var5 norm5 normed5 refLayer5 lin5_apply pre5_apply relu5_apply
  norm5_apply normed5_apply refLayer5_apply mean5_apply var5_two_forms ofBits_count)

theorem zeroWR13_zero : zeroWR13 = 0 := by
  show Ideal.ofBits .f32 0x00000000#32 = 0
  exact Ideal.ofBits_zero_f32

/-- The kernel's product is the reference's. -/
theorem mm12_lin5 (x : S50000x128.Idx → EReal) (w : S128x256.Idx → EReal) : mm12 x w = lin5 (F := Ideal) x w := by
  funext i
  obtain ⟨r, j, rfl⟩ : ∃ (r : Fin 50000) (j : Fin 256), i = ix2 r j := ⟨i 0, i 1, eq_ix2 i⟩
  exact (lin5_apply x w r j).symm

theorem zeroW14_zero : zeroW14 = 0 := by
  show Ideal.ofBits .f32 0x00000000#32 = 0
  exact Ideal.ofBits_zero_f32

/-- The kernel's bias added as a row is the reference's bias added as a vector. -/
theorem actR13_pre (a : S50000x256.Idx → EReal) (b : S256.Idx → EReal) :
    actR13 a (shapeCast S1x256 b shapeCasts_S256_S1x256) = pre5 (F := Ideal) a b := by
  funext i
  obtain ⟨r, j, rfl⟩ : ∃ (r : Fin 50000) (j : Fin 256), i = ix2 r j := ⟨i 0, i 1, eq_ix2 i⟩
  rw [pre5_apply]
  show a (ix2 r j) + shapeCast S1x256 b shapeCasts_S256_S1x256 (ix2 (0 : Fin 1) j) = _
  rw [shapeCast_a_1a_apply]

/-- The row of counts the kernel divides by is the real number 50000 in every column. -/
theorem countRow5_apply (j : Fin 256) : Cert.KernelIdeal.Chain.countRow5 (F := Ideal) (ix2 (0 : Fin 1) j) = ((50000 : ℝ) : EReal) := by
  show Ideal.ofBits .f32 0x47435000#32 = _
  exact ofBits_count

/-- The kernel's mean row, at a column, is the reference's mean. -/
theorem mean_row5 (a : S50000x256.Idx → EReal) (Bb : S1x256.Idx → EReal) (j : Fin 256) :
    Host.divf (F := Ideal) (sumR13 a Bb) Cert.KernelIdeal.Chain.countRow5 (ix2 (0 : Fin 1) j)
      = mean5 (F := Ideal) (actR13 a Bb) (ix1 j) := by
  rw [mean5_apply]
  show Ideal.div (sumR13 a Bb (ix2 (0 : Fin 1) j)) (Cert.KernelIdeal.Chain.countRow5 (F := Ideal) (ix2 (0 : Fin 1) j)) = _
  rw [countRow5_apply]
  unfold sumR13
  rw [zeroWR13_zero, zero_add]

/-- The kernel's variance row, at a column, is the reference's variance, for real-valued activations. -/
theorem var_row5 (a : S50000x256.Idx → EReal) (Bb : S1x256.Idx → EReal) (hy : AllReal (actR13 a Bb)) (j : Fin 256) :
    subf (Host.divf (F := Ideal) (sqR13 a Bb) Cert.KernelIdeal.Chain.countRow5)
        (mulf (Host.divf (F := Ideal) (sumR13 a Bb) Cert.KernelIdeal.Chain.countRow5)
          (Host.divf (F := Ideal) (sumR13 a Bb) Cert.KernelIdeal.Chain.countRow5)) (ix2 (0 : Fin 1) j)
      = var5 (F := Ideal) (actR13 a Bb) (ix1 j) := by
  rw [var5_two_forms _ hy j, ← mean_row5 a Bb j]
  show Ideal.div (sqR13 a Bb (ix2 (0 : Fin 1) j)) (Cert.KernelIdeal.Chain.countRow5 (F := Ideal) (ix2 (0 : Fin 1) j)) - _ = _
  rw [countRow5_apply]
  unfold sqR13
  rw [zeroWR13_zero, zero_add]
  rfl

/-- Layer 5: the kernel's value is the reference's, when the layer's activations are real. -/
theorem layer5 (x : S50000x128.Idx → EReal) (w : S128x256.Idx → EReal) (b g be : S256.Idx → EReal)
    (src dst : IVec S450000 32) (wgt : S450000.Idx → EReal)
    (hact : AllReal (act5 (F := Ideal) x w b src dst wgt)) :
    bn14 (actR13 (agg5 (F := Ideal) (mm12 x w) wgt src dst) (shapeCast S1x256 b shapeCasts_S256_S1x256))
        (Host.divf (F := Ideal) (sumR13 (agg5 (F := Ideal) (mm12 x w) wgt src dst) (shapeCast S1x256 b shapeCasts_S256_S1x256)) Cert.KernelIdeal.Chain.countRow5)
        (subf (Host.divf (F := Ideal) (sqR13 (agg5 (F := Ideal) (mm12 x w) wgt src dst) (shapeCast S1x256 b shapeCasts_S256_S1x256)) Cert.KernelIdeal.Chain.countRow5)
          (mulf (Host.divf (F := Ideal) (sumR13 (agg5 (F := Ideal) (mm12 x w) wgt src dst) (shapeCast S1x256 b shapeCasts_S256_S1x256)) Cert.KernelIdeal.Chain.countRow5)
            (Host.divf (F := Ideal) (sumR13 (agg5 (F := Ideal) (mm12 x w) wgt src dst) (shapeCast S1x256 b shapeCasts_S256_S1x256)) Cert.KernelIdeal.Chain.countRow5)))
        (shapeCast S1x256 g shapeCasts_S256_S1x256) (shapeCast S1x256 be shapeCasts_S256_S1x256)
      = refLayer5 (F := Ideal) x w b g be src dst wgt := by
  have hA : actR13 (agg5 (F := Ideal) (mm12 x w) wgt src dst) (shapeCast S1x256 b shapeCasts_S256_S1x256)
      = act5 (F := Ideal) x w b src dst wgt := by
    rw [actR13_pre, mm12_lin5]; rfl
  have hy : AllReal (actR13 (agg5 (F := Ideal) (mm12 x w) wgt src dst) (shapeCast S1x256 b shapeCasts_S256_S1x256)) := hA ▸ hact
  funext i
  obtain ⟨r, j, rfl⟩ : ∃ (r : Fin 50000) (j : Fin 256), i = ix2 r j := ⟨i 0, i 1, eq_ix2 i⟩
  rw [refLayer5_apply, normed5_apply, ← hA, ← mean_row5 _ _ j, ← var_row5 _ _ hy j]
  unfold bn14
  show max (_ * _ * Ideal.rsqrt (_ + epsW14) + _) zeroW14 = _
  rw [shapeCast_a_1a_apply, shapeCast_a_1a_apply, zeroW14_zero]
  rfl

end Cert.Bridge

end
-- ==== Proof.KerLayers.lean ====
/-
  The five layers of the kernel program, read off the run: at each layer's exit the normalised features are the
  reference's layer of the layer's input, when the layer's activations are real. Each is the chain of the layer's
  boundary contents (product, aggregate, bias and statistics, mean and variance, normalisation) closed by the
  layer's bridge.
-/
import proofs.«107715_j23149873725632_1_alg».proof.Proof.KerChain5
import proofs.«107715_j23149873725632_1_alg».proof.Proof.RegR1b
import proofs.«107715_j23149873725632_1_alg».proof.Proof.Bridge1
import proofs.«107715_j23149873725632_1_alg».proof.Proof.RegR4b
import proofs.«107715_j23149873725632_1_alg».proof.Proof.Bridge2
import proofs.«107715_j23149873725632_1_alg».proof.Proof.RegR7b
import proofs.«107715_j23149873725632_1_alg».proof.Proof.Bridge3
import proofs.«107715_j23149873725632_1_alg».proof.Proof.RegR10b
import proofs.«107715_j23149873725632_1_alg».proof.Proof.Bridge4
import proofs.«107715_j23149873725632_1_alg».proof.Proof.RegR13b
import proofs.«107715_j23149873725632_1_alg».proof.Proof.Bridge5

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx
open Cert.KernelIdeal.RegVal
open Cert.ReferenceIdeal.HandRun (AllReal srcIdx dstIdx edgeNorm act1 act2 act3 act4 act5 refLayer1 refLayer2 refLayer3 refLayer4 refLayer5)

variable (m : (ℓ : Loc nD τ sig) → Buf (Elt Ideal) ℓ) (ρ : Dev nD → PrngReg) (c : Dev nD)

set_option maxHeartbeats 2000000 in
/-- Layer 1: at the second layer's entry the normalised features are the reference's first layer of the launch contents. -/
theorem layer1_value
    (hact : AllReal (act1 (F := Ideal) (m ((c : Thread nD τ).loc main_arg0)) (m ((c : Thread nD τ).loc main_arg3)) (m ((c : Thread nD τ).loc main_arg4)) (srcIdx (m ((c : Thread nD τ).loc main_arg1))) (dstIdx (m ((c : Thread nD τ).loc main_arg1))) (edgeNorm (F := Ideal) (m ((c : Thread nD τ).loc main_arg1)) (m ((c : Thread nD τ).loc main_arg2))))) :
    W10 m ρ c (main_v60 : DevRef τ sig)
      = refLayer1 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (srcIdx (m ((c : Thread nD τ).loc main_arg1))) (dstIdx (m ((c : Thread nD τ).loc main_arg1))) (edgeNorm (F := Ideal) (m ((c : Thread nD τ).loc main_arg1)) (m ((c : Thread nD τ).loc main_arg2))) := by
  have hA := W7_v49 m ρ c
  have hB := W7_v50 m ρ c
  have e0 := W8_v51_0 m ρ c _ (finalR2_1 (V7 m ρ) c _ _ hA hB)
  have e1 := W8_v51_1 m ρ c _ (finalR3_1 (V7 m ρ) c _ _ hA hB)
  have e2 := W8_v51_2 m ρ c _ (finalR4_1 (V7 m ρ) c _ _ hA hB)
  exact (W10_v60 m ρ c _ _ _ e0 e1 e2).trans (Cert.Bridge.layer1 _ _ _ _ _ _ _ _ hact)

set_option maxHeartbeats 2000000 in
/-- Layer 2: from the layer's input `X` at its entry, the normalised features at its exit are the reference's layer of `X`. -/
theorem layer2_value (X : S50000x32.Idx → EReal) (hX : W10 m ρ c (main_v60 : DevRef τ sig) = X)
    (hact : AllReal (act2 (F := Ideal) X (m ((c : Thread nD τ).loc main_arg7)) (m ((c : Thread nD τ).loc main_arg8)) (srcIdx (m ((c : Thread nD τ).loc main_arg1))) (dstIdx (m ((c : Thread nD τ).loc main_arg1))) (edgeNorm (F := Ideal) (m ((c : Thread nD τ).loc main_arg1)) (m ((c : Thread nD τ).loc main_arg2))))) :
    W15 m ρ c (main_v85 : DevRef τ sig)
      = refLayer2 (F := Ideal) X (m ((c : Thread nD τ).loc main_arg7)) (m ((c : Thread nD τ).loc main_arg8)) (m ((c : Thread nD τ).loc main_arg9)) (m ((c : Thread nD τ).loc main_arg10)) (srcIdx (m ((c : Thread nD τ).loc main_arg1))) (dstIdx (m ((c : Thread nD τ).loc main_arg1))) (edgeNorm (F := Ideal) (m ((c : Thread nD τ).loc main_arg1)) (m ((c : Thread nD τ).loc main_arg2))) := by
  have hA := W12_v74 m ρ c X hX
  have hB := W12_v75 m ρ c
  have e0 := W13_v76_0 m ρ c _ (finalR2_4 (V12 m ρ) c _ _ hA hB)
  have e1 := W13_v76_1 m ρ c _ (finalR3_4 (V12 m ρ) c _ _ hA hB)
  have e2 := W13_v76_2 m ρ c _ (finalR4_4 (V12 m ρ) c _ _ hA hB)
  exact (W15_v85 m ρ c _ _ _ e0 e1 e2).trans (Cert.Bridge.layer2 _ _ _ _ _ _ _ _ hact)

set_option maxHeartbeats 2000000 in
/-- Layer 3: from the layer's input `X` at its entry, the normalised features at its exit are the reference's layer of `X`. -/
theorem layer3_value (X : S50000x64.Idx → EReal) (hX : W15 m ρ c (main_v85 : DevRef τ sig) = X)
    (hact : AllReal (act3 (F := Ideal) X (m ((c : Thread nD τ).loc main_arg11)) (m ((c : Thread nD τ).loc main_arg12)) (srcIdx (m ((c : Thread nD τ).loc main_arg1))) (dstIdx (m ((c : Thread nD τ).loc main_arg1))) (edgeNorm (F := Ideal) (m ((c : Thread nD τ).loc main_arg1)) (m ((c : Thread nD τ).loc main_arg2))))) :
    W20 m ρ c (main_v110 : DevRef τ sig)
      = refLayer3 (F := Ideal) X (m ((c : Thread nD τ).loc main_arg11)) (m ((c : Thread nD τ).loc main_arg12)) (m ((c : Thread nD τ).loc main_arg13)) (m ((c : Thread nD τ).loc main_arg14)) (srcIdx (m ((c : Thread nD τ).loc main_arg1))) (dstIdx (m ((c : Thread nD τ).loc main_arg1))) (edgeNorm (F := Ideal) (m ((c : Thread nD τ).loc main_arg1)) (m ((c : Thread nD τ).loc main_arg2))) := by
  have hA := W17_v99 m ρ c X hX
  have hB := W17_v100 m ρ c
  have e0 := W18_v101_0 m ρ c _ (finalR2_7 (V17 m ρ) c _ _ hA hB)
  have e1 := W18_v101_1 m ρ c _ (finalR3_7 (V17 m ρ) c _ _ hA hB)
  have e2 := W18_v101_2 m ρ c _ (finalR4_7 (V17 m ρ) c _ _ hA hB)
  exact (W20_v110 m ρ c _ _ _ e0 e1 e2).trans (Cert.Bridge.layer3 _ _ _ _ _ _ _ _ hact)

set_option maxHeartbeats 2000000 in
/-- Layer 4: from the layer's input `X` at its entry, the normalised features at its exit are the reference's layer of `X`. -/
theorem layer4_value (X : S50000x128.Idx → EReal) (hX : W20 m ρ c (main_v110 : DevRef τ sig) = X)
    (hact : AllReal (act4 (F := Ideal) X (m ((c : Thread nD τ).loc main_arg15)) (m ((c : Thread nD τ).loc main_arg16)) (srcIdx (m ((c : Thread nD τ).loc main_arg1))) (dstIdx (m ((c : Thread nD τ).loc main_arg1))) (edgeNorm (F := Ideal) (m ((c : Thread nD τ).loc main_arg1)) (m ((c : Thread nD τ).loc main_arg2))))) :
    W25 m ρ c (main_v135 : DevRef τ sig)
      = refLayer4 (F := Ideal) X (m ((c : Thread nD τ).loc main_arg15)) (m ((c : Thread nD τ).loc main_arg16)) (m ((c : Thread nD τ).loc main_arg17)) (m ((c : Thread nD τ).loc main_arg18)) (srcIdx (m ((c : Thread nD τ).loc main_arg1))) (dstIdx (m ((c : Thread nD τ).loc main_arg1))) (edgeNorm (F := Ideal) (m ((c : Thread nD τ).loc main_arg1)) (m ((c : Thread nD τ).loc main_arg2))) := by
  have hA := W22_v124 m ρ c X hX
  have hB := W22_v125 m ρ c
  have e0 := W23_v126_0 m ρ c _ (finalR2_10 (V22 m ρ) c _ _ hA hB)
  have e1 := W23_v126_1 m ρ c _ (finalR3_10 (V22 m ρ) c _ _ hA hB)
  have e2 := W23_v126_2 m ρ c _ (finalR4_10 (V22 m ρ) c _ _ hA hB)
  exact (W25_v135 m ρ c _ _ _ e0 e1 e2).trans (Cert.Bridge.layer4 _ _ _ _ _ _ _ _ hact)

set_option maxHeartbeats 2000000 in
/-- Layer 5: from the layer's input `X` at its entry, the normalised features at its exit are the reference's layer of `X`. -/
theorem layer5_value (X : S50000x128.Idx → EReal) (hX : W25 m ρ c (main_v135 : DevRef τ sig) = X)
    (hact : AllReal (act5 (F := Ideal) X (m ((c : Thread nD τ).loc main_arg19)) (m ((c : Thread nD τ).loc main_arg20)) (srcIdx (m ((c : Thread nD τ).loc main_arg1))) (dstIdx (m ((c : Thread nD τ).loc main_arg1))) (edgeNorm (F := Ideal) (m ((c : Thread nD τ).loc main_arg1)) (m ((c : Thread nD τ).loc main_arg2))))) :
    W30 m ρ c (main_v160 : DevRef τ sig)
      = refLayer5 (F := Ideal) X (m ((c : Thread nD τ).loc main_arg19)) (m ((c : Thread nD τ).loc main_arg20)) (m ((c : Thread nD τ).loc main_arg21)) (m ((c : Thread nD τ).loc main_arg22)) (srcIdx (m ((c : Thread nD τ).loc main_arg1))) (dstIdx (m ((c : Thread nD τ).loc main_arg1))) (edgeNorm (F := Ideal) (m ((c : Thread nD τ).loc main_arg1)) (m ((c : Thread nD τ).loc main_arg2))) := by
  have hA := W27_v149 m ρ c X hX
  have hB := W27_v150 m ρ c
  have e0 := W28_v151_0 m ρ c _ (finalR2_13 (V27 m ρ) c _ _ hA hB)
  have e1 := W28_v151_1 m ρ c _ (finalR3_13 (V27 m ρ) c _ _ hA hB)
  have e2 := W28_v151_2 m ρ c _ (finalR4_13 (V27 m ρ) c _ _ hA hB)
  exact (W30_v160 m ρ c _ _ _ e0 e1 e2).trans (Cert.Bridge.layer5 _ _ _ _ _ _ _ _ hact)

end Cert.KernelIdeal.Chain

end
-- ==== Proof.RegH15.lean ====
/-
  Region 15: the first dense layer of the head, with its rectifier. The input (50000 rows, 256 columns) is cut into 25 blocks of 2000 rows; at each grid point the
  kernel multiplies one block by the whole 256×128 weight matrix, adds the 128-entry bias row, clips the sum below at zero and writes the
  2000×128 result to the same rows of the output. Entry (r, j) of the output is the sum over k of X(r, k) · W(k, j),
  plus b(j), clipped; the 25 blocks tile the 50000 rows.
-/
import proofs.«107715_j23149873725632_1_alg».proof.Proof.Gen.KernelIdeal.Frame
import proofs.«107715_j23149873725632_1_alg».proof.Proof.LibMatmul2D
import Idealize.ShloMosaic.Lib.Pipeline.Value
import Idealize.ShloMosaic.Lib.ValueIdx
import Idealize.ShloMosaic.Lib.ValueLayout

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hzH_15 : (![0, 0] : Fin 2 → Nat) = fun _ => 0 := funext fun a => by fin_cases a <;> rfl

/-- The zero word. -/
def zeroWH15 : EReal := Scalar.ofBits (F := Ideal) .f32 0x00000000#32

/-- The dense layer, entry by entry. -/
def dense15 (X : S50000x256.Idx → EReal) (Wt : S256x128.Idx → EReal) (B : S1x128.Idx → EReal) : S50000x128.Idx → EReal :=
  fun i => max ((∑ k : Fin 256, X (ix2 (i 0) k) * Wt (ix2 k (i 1))) + B (ix2 (0 : Fin 1) (i 1))) zeroWH15

/-- The body's one store at an entry of the block. -/
theorem payH15 (x0 : Vec Ideal S2000x256 .f32) (x1 : Vec Ideal S256x128 .f32) (x2 : Vec Ideal S1x128 .f32) (p : Fin 2000) (q : Fin 128) :
    k15_pay1 x0 x1 x2 (ix2 p q) = max ((∑ k : Fin 256, x0 (ix2 p k) * x1 (ix2 k q)) + x2 (ix2 (0 : Fin 1) q)) zeroWH15 := by
  unfold k15_pay1
  simp only [shapeCast_self, addf, maximumf, broadcast, broadcastTo_1b_ab_apply, Ideal.addf_def, Ideal.maximumf_def, zeroWH15]
  exact congrArg (fun z => max (z + x2 (ix2 (0 : Fin 1) q)) (Scalar.ofBits (F := Ideal) .f32 0x00000000#32)) (Cert.LibMatmul2D.rows_cols _ none _ _ p q)

/-- The index maps over the 25 grid points: the row blocks move with the point, the weights and the bias stay. -/
theorem idxH15 : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0 :=
  (by decide +kernel : ∀ t : Fin grid15.N, _)

set_option maxHeartbeats 1000000 in
/-- What point `t` writes back is block `t` of the whole dense layer (the three input arrays named). -/
theorem flushedH15 (c : Dev nD) (t : Fin cfg15.N) (X : S50000x256.Idx → EReal) (Wt : S256x128.Idx → EReal) (B : S1x128.Idx → EReal)
    (hX : V c (Pipeline.arrRef spec15 0) = X) (hW : V c (Pipeline.arrRef spec15 1) = Wt) (hB : V c (Pipeline.arrRef spec15 2) = B) :
    (dat15 V c).flushed 3 t = ((cfg15.win 3).blk t).view.read (Elt Ideal) (dense15 X Wt B) := by
  have hb0 : iblk15 V c 0 t = ((cfg15.win 0).blk t).view.read (Elt Ideal) X := by unfold iblk15; rw [hX]
  have hb1 : iblk15 V c 1 t = ((cfg15.win 1).blk t).view.read (Elt Ideal) Wt := by unfold iblk15; rw [hW]
  have hb2 : iblk15 V c 2 t = ((cfg15.win 2).blk t).view.read (Elt Ideal) B := by unfold iblk15; rw [hB]
  show (cfg15.win 3).cut (grid15.coords t) ((dat15 V c).after 3 t) = _
  rw [after15_3, hb0, hb1, hb2]
  unfold out15_3
  rw [View.canon_unit_zero hzH_15]
  simp only [View.ld_unit_zero (S := S2000x256) hzH_15, View.ld_unit_zero (S := S256x128) hzH_15, View.ld_unit_zero (S := S1x128) hzH_15]
  obtain ⟨e0, e1, e2, e3, e4, e5, e6, e7⟩ := idxH15 t
  funext j
  obtain ⟨p, q, rfl⟩ : ∃ (p : Fin 2000) (q : Fin 128), j = ix2 p q := ⟨j 0, j 1, eq_ix2 j⟩
  refine (payH15 _ _ _ p q).trans ?_
  have h2 : ((cfg15.win 2).blk t).view.emb (ix2 (0 : Fin 1) q) = ix2 (0 : Fin 1) ((((cfg15.win 3).blk t).view.emb (ix2 p q)) 1) := by
    funext a; apply Fin.ext
    match a with
    | ⟨0, _⟩ => show win15_2.index t (0 : Fin 2) * 1 + 1 * 0 = 0; omega
    | ⟨1, _⟩ => show win15_2.index t (1 : Fin 2) * 128 + 1 * q.val = win15_3.index t (1 : Fin 2) * 128 + 1 * q.val; omega
  have hs : (∑ k : Fin 256, X (((cfg15.win 0).blk t).view.emb (ix2 p k)) * Wt (((cfg15.win 1).blk t).view.emb (ix2 k q)))
      = ∑ k : Fin 256, X (ix2 ((((cfg15.win 3).blk t).view.emb (ix2 p q)) 0) k) * Wt (ix2 k ((((cfg15.win 3).blk t).view.emb (ix2 p q)) 1)) := by
    refine Finset.sum_congr rfl fun k _ => ?_
    have h0 : ((cfg15.win 0).blk t).view.emb (ix2 p k) = ix2 ((((cfg15.win 3).blk t).view.emb (ix2 p q)) 0) k := by
      funext a; apply Fin.ext
      match a with
      | ⟨0, _⟩ => show win15_0.index t (0 : Fin 2) * 2000 + 1 * p.val = win15_3.index t (0 : Fin 2) * 2000 + 1 * p.val; omega
      | ⟨1, _⟩ => show win15_0.index t (1 : Fin 2) * 256 + 1 * k.val = k.val; omega
    have h1 : ((cfg15.win 1).blk t).view.emb (ix2 k q) = ix2 k ((((cfg15.win 3).blk t).view.emb (ix2 p q)) 1) := by
      funext a; apply Fin.ext
      match a with
      | ⟨0, _⟩ => show win15_1.index t (0 : Fin 2) * 256 + 1 * k.val = k.val; omega
      | ⟨1, _⟩ => show win15_1.index t (1 : Fin 2) * 128 + 1 * q.val = win15_3.index t (1 : Fin 2) * 128 + 1 * q.val; omega
    exact congrArg₂ (· * ·) (congrArg X h0) (congrArg Wt h1)
  show max ((∑ k : Fin 256, X (((cfg15.win 0).blk t).view.emb (ix2 p k)) * Wt (((cfg15.win 1).blk t).view.emb (ix2 k q))) + B (((cfg15.win 2).blk t).view.emb (ix2 (0 : Fin 1) q))) zeroWH15
      = dense15 X Wt B (((cfg15.win 3).blk t).view.emb (ix2 p q))
  unfold dense15
  rw [hs, congrArg B h2]
  rfl

/-- An index of the output array is in point `t`'s block iff each coordinate is in the block's range on its axis. -/
theorem mem_blkH15 (t : Fin cfg15.N) (i : S50000x128.Idx) :
    i ∈ ((cfg15.win 3).blk t).view.set ↔ ∀ a : Fin 2, win15_3.index t a * S2000x128.size a ≤ (i a).val
      ∧ (i a).val < win15_3.index t a * S2000x128.size a + S2000x128.size a := by
  show i ∈ ((View.whole main_v162).slice (win15_3.rect t)).set ↔ _
  rw [View.set_slice_whole, Rect.mem_set_unit]
  exact Iff.rfl

/-- Every block of rows is some point's. -/
theorem idx_ontoH15 : ∀ q0 : Fin 25, ∃ t : Fin cfg15.N, win15_3.index t = ![q0.val, 0] :=
  (by decide +kernel : ∀ q0 : Fin 25, ∃ t : Fin grid15.N, win15_3.index t = ![q0.val, 0])

/-- The 25 blocks of 2000 rows tile the 50000 rows: row r is in block r / 2000. -/
theorem coverH15 (i : S50000x128.Idx) :
    ∃ t : Fin cfg15.N, (cfg15.win 3).flush t = true ∧ i ∈ ((cfg15.win 3).blk t).view.set := by
  have hi0 : (i 0).val < 50000 := (i 0).isLt
  have hi1 : (i 1).val < 128 := (i 1).isLt
  obtain ⟨t, ht⟩ := idx_ontoH15 ⟨(i 0).val / 2000, by omega⟩
  have q0 : win15_3.index t (0 : Fin 2) = (i 0).val / 2000 := congrFun ht 0
  have q1 : win15_3.index t (1 : Fin 2) = 0 := congrFun ht 1
  refine ⟨t, flush15_3 t, ?_⟩
  rw [mem_blkH15]
  intro a
  match a with
  | ⟨0, _⟩ => show win15_3.index t (0 : Fin 2) * 2000 ≤ (i 0).val ∧ (i 0).val < win15_3.index t (0 : Fin 2) * 2000 + 2000; omega
  | ⟨1, _⟩ => show win15_3.index t (1 : Fin 2) * 128 ≤ (i 1).val ∧ (i 1).val < win15_3.index t (1 : Fin 2) * 128 + 128; omega

/-- After the region the output array holds the dense layer of the three input arrays as the region found them. -/
theorem finalH15 (c : Dev nD) (X : S50000x256.Idx → EReal) (Wt : S256x128.Idx → EReal) (B : S1x128.Idx → EReal)
    (hX : V c (Pipeline.arrRef spec15 0) = X) (hW : V c (Pipeline.arrRef spec15 1) = Wt) (hB : V c (Pipeline.arrRef spec15 2) = B) :
    (dat15 V c).arrAt 3 cfg15.N = dense15 X Wt B :=
  (dat15 V c).arrAt_eq_of_cover 3 _ (fun t _ => flushedH15 V c t X Wt B hX hW hB) coverH15

end Cert.KernelIdeal.RegVal

end
-- ==== Proof.RegH16.lean ====
/-
  Region 16: the last dense layer, one output per node. The input (50000 rows, 128 columns) is cut into 25 blocks of 2000 rows; at each grid point the
  kernel multiplies one block by the whole 128×1 weight matrix, adds the 1-entry bias row and writes the
  2000×1 result to the same rows of the output. Entry (r, j) of the output is the sum over k of X(r, k) · W(k, j),
  plus b(j); the 25 blocks tile the 50000 rows.
-/
import proofs.«107715_j23149873725632_1_alg».proof.Proof.Gen.KernelIdeal.Frame
import proofs.«107715_j23149873725632_1_alg».proof.Proof.LibMatmul2D
import Idealize.ShloMosaic.Lib.Pipeline.Value
import Idealize.ShloMosaic.Lib.ValueIdx
import Idealize.ShloMosaic.Lib.ValueLayout

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hzH_16 : (![0, 0] : Fin 2 → Nat) = fun _ => 0 := funext fun a => by fin_cases a <;> rfl

/-- The dense layer, entry by entry. -/
def dense16 (X : S50000x128.Idx → EReal) (Wt : S128x1.Idx → EReal) (B : S1x1.Idx → EReal) : S50000x1.Idx → EReal :=
  fun i => (∑ k : Fin 128, X (ix2 (i 0) k) * Wt (ix2 k (i 1))) + B (ix2 (0 : Fin 1) (i 1))

/-- The body's one store at an entry of the block. -/
theorem payH16 (x0 : Vec Ideal S2000x128 .f32) (x1 : Vec Ideal S128x1 .f32) (x2 : Vec Ideal S1x1 .f32) (p : Fin 2000) (q : Fin 1) :
    k16_pay1 x0 x1 x2 (ix2 p q) = (∑ k : Fin 128, x0 (ix2 p k) * x1 (ix2 k q)) + x2 (ix2 (0 : Fin 1) q) := by
  unfold k16_pay1
  simp only [shapeCast_self, addf, maximumf, broadcast, broadcastTo_1b_ab_apply, Ideal.addf_def, Ideal.maximumf_def]
  exact congrArg (fun z => z + x2 (ix2 (0 : Fin 1) q)) (Cert.LibMatmul2D.rows_cols _ none _ _ p q)

/-- The index maps over the 25 grid points: the row blocks move with the point, the weights and the bias stay. -/
theorem idxH16 : ∀ t : Fin cfg16.N, win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = t.val ∧ win16_3.index t (1 : Fin 2) = 0 :=
  (by decide +kernel : ∀ t : Fin grid16.N, _)

set_option maxHeartbeats 1000000 in
/-- What point `t` writes back is block `t` of the whole dense layer (the three input arrays named). -/
theorem flushedH16 (c : Dev nD) (t : Fin cfg16.N) (X : S50000x128.Idx → EReal) (Wt : S128x1.Idx → EReal) (B : S1x1.Idx → EReal)
    (hX : V c (Pipeline.arrRef spec16 0) = X) (hW : V c (Pipeline.arrRef spec16 1) = Wt) (hB : V c (Pipeline.arrRef spec16 2) = B) :
    (dat16 V c).flushed 3 t = ((cfg16.win 3).blk t).view.read (Elt Ideal) (dense16 X Wt B) := by
  have hb0 : iblk16 V c 0 t = ((cfg16.win 0).blk t).view.read (Elt Ideal) X := by unfold iblk16; rw [hX]
  have hb1 : iblk16 V c 1 t = ((cfg16.win 1).blk t).view.read (Elt Ideal) Wt := by unfold iblk16; rw [hW]
  have hb2 : iblk16 V c 2 t = ((cfg16.win 2).blk t).view.read (Elt Ideal) B := by unfold iblk16; rw [hB]
  show (cfg16.win 3).cut (grid16.coords t) ((dat16 V c).after 3 t) = _
  rw [after16_3, hb0, hb1, hb2]
  unfold out16_3
  rw [View.canon_unit_zero hzH_16]
  simp only [View.ld_unit_zero (S := S2000x128) hzH_16, View.ld_unit_zero (S := S128x1) hzH_16, View.ld_unit_zero (S := S1x1) hzH_16]
  obtain ⟨e0, e1, e2, e3, e4, e5, e6, e7⟩ := idxH16 t
  funext j
  obtain ⟨p, q, rfl⟩ : ∃ (p : Fin 2000) (q : Fin 1), j = ix2 p q := ⟨j 0, j 1, eq_ix2 j⟩
  refine (payH16 _ _ _ p q).trans ?_
  have h2 : ((cfg16.win 2).blk t).view.emb (ix2 (0 : Fin 1) q) = ix2 (0 : Fin 1) ((((cfg16.win 3).blk t).view.emb (ix2 p q)) 1) := by
    funext a; apply Fin.ext
    match a with
    | ⟨0, _⟩ => show win16_2.index t (0 : Fin 2) * 1 + 1 * 0 = 0; omega
    | ⟨1, _⟩ => show win16_2.index t (1 : Fin 2) * 1 + 1 * q.val = win16_3.index t (1 : Fin 2) * 1 + 1 * q.val; omega
  have hs : (∑ k : Fin 128, X (((cfg16.win 0).blk t).view.emb (ix2 p k)) * Wt (((cfg16.win 1).blk t).view.emb (ix2 k q)))
      = ∑ k : Fin 128, X (ix2 ((((cfg16.win 3).blk t).view.emb (ix2 p q)) 0) k) * Wt (ix2 k ((((cfg16.win 3).blk t).view.emb (ix2 p q)) 1)) := by
    refine Finset.sum_congr rfl fun k _ => ?_
    have h0 : ((cfg16.win 0).blk t).view.emb (ix2 p k) = ix2 ((((cfg16.win 3).blk t).view.emb (ix2 p q)) 0) k := by
      funext a; apply Fin.ext
      match a with
      | ⟨0, _⟩ => show win16_0.index t (0 : Fin 2) * 2000 + 1 * p.val = win16_3.index t (0 : Fin 2) * 2000 + 1 * p.val; omega
      | ⟨1, _⟩ => show win16_0.index t (1 : Fin 2) * 128 + 1 * k.val = k.val; omega
    have h1 : ((cfg16.win 1).blk t).view.emb (ix2 k q) = ix2 k ((((cfg16.win 3).blk t).view.emb (ix2 p q)) 1) := by
      funext a; apply Fin.ext
      match a with
      | ⟨0, _⟩ => show win16_1.index t (0 : Fin 2) * 128 + 1 * k.val = k.val; omega
      | ⟨1, _⟩ => show win16_1.index t (1 : Fin 2) * 1 + 1 * q.val = win16_3.index t (1 : Fin 2) * 1 + 1 * q.val; omega
    exact congrArg₂ (· * ·) (congrArg X h0) (congrArg Wt h1)
  show (∑ k : Fin 128, X (((cfg16.win 0).blk t).view.emb (ix2 p k)) * Wt (((cfg16.win 1).blk t).view.emb (ix2 k q))) + B (((cfg16.win 2).blk t).view.emb (ix2 (0 : Fin 1) q))
      = dense16 X Wt B (((cfg16.win 3).blk t).view.emb (ix2 p q))
  unfold dense16
  rw [hs, congrArg B h2]
  rfl

/-- An index of the output array is in point `t`'s block iff each coordinate is in the block's range on its axis. -/
theorem mem_blkH16 (t : Fin cfg16.N) (i : S50000x1.Idx) :
    i ∈ ((cfg16.win 3).blk t).view.set ↔ ∀ a : Fin 2, win16_3.index t a * S2000x1.size a ≤ (i a).val
      ∧ (i a).val < win16_3.index t a * S2000x1.size a + S2000x1.size a := by
  show i ∈ ((View.whole main_v164).slice (win16_3.rect t)).set ↔ _
  rw [View.set_slice_whole, Rect.mem_set_unit]
  exact Iff.rfl

/-- Every block of rows is some point's. -/
theorem idx_ontoH16 : ∀ q0 : Fin 25, ∃ t : Fin cfg16.N, win16_3.index t = ![q0.val, 0] :=
  (by decide +kernel : ∀ q0 : Fin 25, ∃ t : Fin grid16.N, win16_3.index t = ![q0.val, 0])

/-- The 25 blocks of 2000 rows tile the 50000 rows: row r is in block r / 2000. -/
theorem coverH16 (i : S50000x1.Idx) :
    ∃ t : Fin cfg16.N, (cfg16.win 3).flush t = true ∧ i ∈ ((cfg16.win 3).blk t).view.set := by
  have hi0 : (i 0).val < 50000 := (i 0).isLt
  have hi1 : (i 1).val < 1 := (i 1).isLt
  obtain ⟨t, ht⟩ := idx_ontoH16 ⟨(i 0).val / 2000, by omega⟩
  have q0 : win16_3.index t (0 : Fin 2) = (i 0).val / 2000 := congrFun ht 0
  have q1 : win16_3.index t (1 : Fin 2) = 0 := congrFun ht 1
  refine ⟨t, flush16_3 t, ?_⟩
  rw [mem_blkH16]
  intro a
  match a with
  | ⟨0, _⟩ => show win16_3.index t (0 : Fin 2) * 2000 ≤ (i 0).val ∧ (i 0).val < win16_3.index t (0 : Fin 2) * 2000 + 2000; omega
  | ⟨1, _⟩ => show win16_3.index t (1 : Fin 2) * 1 ≤ (i 1).val ∧ (i 1).val < win16_3.index t (1 : Fin 2) * 1 + 1; omega

/-- After the region the output array holds the dense layer of the three input arrays as the region found them. -/
theorem finalH16 (c : Dev nD) (X : S50000x128.Idx → EReal) (Wt : S128x1.Idx → EReal) (B : S1x1.Idx → EReal)
    (hX : V c (Pipeline.arrRef spec16 0) = X) (hW : V c (Pipeline.arrRef spec16 1) = Wt) (hB : V c (Pipeline.arrRef spec16 2) = B) :
    (dat16 V c).arrAt 3 cfg16.N = dense16 X Wt B :=
  (dat16 V c).arrAt_eq_of_cover 3 _ (fun t _ => flushedH16 V c t X Wt B hX hW hB) coverH16

end Cert.KernelIdeal.RegVal

end
-- ==== Proof.KerChain6.lean ====
import proofs.«107715_j23149873725632_1_alg».proof.Proof.Gen.KernelIdeal.Frame
import proofs.«107715_j23149873725632_1_alg».proof.Proof.KerChain5
import proofs.«107715_j23149873725632_1_alg».proof.Proof.RegH15
import proofs.«107715_j23149873725632_1_alg».proof.Proof.RegH16

/-! The kernel program's head (W30 … W35 of the generated frame): a stretch that lays the first dense bias out as a
    one-row array, region 15 (the first dense layer, rectified), the same for the second bias and region 16 (the second
    dense layer), and the last stretch, which reads the 50000 × 1 column as a vector into the result main_v165.  X is the
    contents of main_v160 (the fifth layer's output) at the head's entry. -/

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx
open Cert.KernelIdeal.RegVal (dense15 dense16 finalH15 finalH16)
open Cert.ReferenceIdeal.HandRun (Keeps KeepsOutside)

section Stretches
variable {F : FTy → Type} [FloatOps F] (V : Valuation τ sig (Elt F))

theorem h15_v161 : after hostOps15 V (main_v161 : DevRef τ sig) = shapeCast S1x128 (V (main_arg24 : DevRef τ sig)) shapeCasts_S128_S1x128 := by
  simp only [hostOps15]
  after_results_simp
  rfl

theorem h16_v163 : after hostOps16 V (main_v163 : DevRef τ sig) = shapeCast S1x1 (V (main_arg26 : DevRef τ sig)) shapeCasts_S1_S1x1 := by
  simp only [hostOps16]
  after_results_simp
  rfl

theorem h17_v165 : after hostOps17 V (main_v165 : DevRef τ sig) = shapeCast S50000 (V (main_v164 : DevRef τ sig)) shapeCasts_S50000x1_S50000 := by
  simp only [hostOps17]
  after_results_simp
  rfl

end Stretches

variable (m : (ℓ : Loc nD τ sig) → Buf (Elt Ideal) ℓ) (ρ : Dev nD → PrngReg) (c : Dev nD)

theorem W31_keep (r : Ref sig .tc) (h : r ∉ hostOps15_W) : W31 m ρ c (Proc.devRef .tc r) = W30 m ρ c (Proc.devRef .tc r) :=
  hostOps15_keeps r h _
theorem W32_keep (r : Ref sig .tc) (h : ∀ w, Pipeline.arrRef spec15 w ≠ r) :
    W32 m ρ c (Proc.devRef .tc r) = W31 m ρ c (Proc.devRef .tc r) := W32_of_ne m ρ c r h
theorem W33_keep (r : Ref sig .tc) (h : r ∉ hostOps16_W) : W33 m ρ c (Proc.devRef .tc r) = W32 m ρ c (Proc.devRef .tc r) :=
  hostOps16_keeps r h _
theorem W34_keep (r : Ref sig .tc) (h : ∀ w, Pipeline.arrRef spec16 w ≠ r) :
    W34 m ρ c (Proc.devRef .tc r) = W33 m ρ c (Proc.devRef .tc r) := W34_of_ne m ρ c r h
theorem W35_keep (r : Ref sig .tc) (h : r ∉ hostOps17_W) : W35 m ρ c (Proc.devRef .tc r) = W34 m ρ c (Proc.devRef .tc r) :=
  hostOps17_keeps r h _

/-- The head's four parameter arrays are as launched at its entry. -/
theorem W30_arg23 : W30 m ρ c (main_arg23 : DevRef τ sig) = m ((c : Thread nD τ).loc main_arg23) := W30_of_launch m ρ c main_arg23 (W25_of_launch m ρ c main_arg23 (W20_of_launch m ρ c main_arg23 (W15_of_launch m ρ c main_arg23 (W10_of_launch m ρ c main_arg23 (by decide) (by decide) (by decide) (by decide) (by decide) (by decide)) (by decide) (by decide) (by decide) (by decide) (by decide)) (by decide) (by decide) (by decide) (by decide) (by decide)) (by decide) (by decide) (by decide) (by decide) (by decide)) (by decide) (by decide) (by decide) (by decide) (by decide)
theorem W30_arg24 : W30 m ρ c (main_arg24 : DevRef τ sig) = m ((c : Thread nD τ).loc main_arg24) := W30_of_launch m ρ c main_arg24 (W25_of_launch m ρ c main_arg24 (W20_of_launch m ρ c main_arg24 (W15_of_launch m ρ c main_arg24 (W10_of_launch m ρ c main_arg24 (by decide) (by decide) (by decide) (by decide) (by decide) (by decide)) (by decide) (by decide) (by decide) (by decide) (by decide)) (by decide) (by decide) (by decide) (by decide) (by decide)) (by decide) (by decide) (by decide) (by decide) (by decide)) (by decide) (by decide) (by decide) (by decide) (by decide)
theorem W30_arg25 : W30 m ρ c (main_arg25 : DevRef τ sig) = m ((c : Thread nD τ).loc main_arg25) := W30_of_launch m ρ c main_arg25 (W25_of_launch m ρ c main_arg25 (W20_of_launch m ρ c main_arg25 (W15_of_launch m ρ c main_arg25 (W10_of_launch m ρ c main_arg25 (by decide) (by decide) (by decide) (by decide) (by decide) (by decide)) (by decide) (by decide) (by decide) (by decide) (by decide)) (by decide) (by decide) (by decide) (by decide) (by decide)) (by decide) (by decide) (by decide) (by decide) (by decide)) (by decide) (by decide) (by decide) (by decide) (by decide)
theorem W30_arg26 : W30 m ρ c (main_arg26 : DevRef τ sig) = m ((c : Thread nD τ).loc main_arg26) := W30_of_launch m ρ c main_arg26 (W25_of_launch m ρ c main_arg26 (W20_of_launch m ρ c main_arg26 (W15_of_launch m ρ c main_arg26 (W10_of_launch m ρ c main_arg26 (by decide) (by decide) (by decide) (by decide) (by decide) (by decide)) (by decide) (by decide) (by decide) (by decide) (by decide)) (by decide) (by decide) (by decide) (by decide) (by decide)) (by decide) (by decide) (by decide) (by decide) (by decide)) (by decide) (by decide) (by decide) (by decide) (by decide)

/-- Region 15 leaves the first dense layer of X, rectified, in main_v162. -/
theorem W32_v162 (X : S50000x256.Idx → EReal) (hX : W30 m ρ c (main_v160 : DevRef τ sig) = X) :
    W32 m ρ c (main_v162 : DevRef τ sig)
      = dense15 X (m ((c : Thread nD τ).loc main_arg23)) (shapeCast S1x128 (m ((c : Thread nD τ).loc main_arg24)) shapeCasts_S128_S1x128) :=
  (W32_arr m ρ c 3).trans (finalH15 (V31 m ρ) c X _ _
    ((W31_keep m ρ c main_v160 (by decide)).trans hX)
    ((W31_keep m ρ c main_arg23 (by decide)).trans (W30_arg23 m ρ c))
    ((h15_v161 (W30 m ρ c)).trans (by rw [W30_arg24 m ρ c])))

/-- Region 16 leaves the second dense layer of that in main_v164. -/
theorem W34_v164 (X : S50000x256.Idx → EReal) (hX : W30 m ρ c (main_v160 : DevRef τ sig) = X) :
    W34 m ρ c (main_v164 : DevRef τ sig)
      = dense16 (dense15 X (m ((c : Thread nD τ).loc main_arg23)) (shapeCast S1x128 (m ((c : Thread nD τ).loc main_arg24)) shapeCasts_S128_S1x128))
          (m ((c : Thread nD τ).loc main_arg25)) (shapeCast S1x1 (m ((c : Thread nD τ).loc main_arg26)) shapeCasts_S1_S1x1) :=
  (W34_arr m ρ c 3).trans (finalH16 (V33 m ρ) c _ _ _
    ((W33_keep m ρ c main_v162 (by decide)).trans (W32_v162 m ρ c X hX))
    ((W33_keep m ρ c main_arg25 (by decide)).trans ((W32_keep m ρ c main_arg25 (by decide)).trans
      ((W31_keep m ρ c main_arg25 (by decide)).trans (W30_arg25 m ρ c))))
    ((h16_v163 (W32 m ρ c)).trans (by
      rw [W32_keep m ρ c main_arg26 (by decide), W31_keep m ρ c main_arg26 (by decide), W30_arg26 m ρ c])))

/-- The result: that column read as a vector. -/
theorem W35_v165 (X : S50000x256.Idx → EReal) (hX : W30 m ρ c (main_v160 : DevRef τ sig) = X) :
    W35 m ρ c (main_v165 : DevRef τ sig)
      = shapeCast S50000
          (dense16 (dense15 X (m ((c : Thread nD τ).loc main_arg23)) (shapeCast S1x128 (m ((c : Thread nD τ).loc main_arg24)) shapeCasts_S128_S1x128))
            (m ((c : Thread nD τ).loc main_arg25)) (shapeCast S1x1 (m ((c : Thread nD τ).loc main_arg26)) shapeCasts_S1_S1x1))
          shapeCasts_S50000x1_S50000 :=
  (h17_v165 (W34 m ρ c)).trans (by rw [W34_v164 m ρ c X hX])

end Cert.KernelIdeal.Chain

end
-- ==== Proof.RefOpsRead6.lean ====
import proofs.«107715_j23149873725632_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! Stage 6 read back: the result main_v230 is the head of the network applied to the last layer's output. -/

/-- The head: a dense layer to width 128 with its bias, rectified, a dense layer to width 1 with its bias, and the
    column read as a vector. -/
def head (x : FVec F S50000x256 .f32) (w₁ : FVec F S256x128 .f32) (b₁ : FVec F S128 .f32)
    (w₂ : FVec F S128x1 .f32) (b₂ : FVec F S1 .f32) : FVec F S50000 .f32 :=
  shapeCast S50000
    (addf
      (Host.dotGeneral (F := F) dot_S50000x128_S128x1_S50000x1_1_0_0_1_n_n none
        (maximumf
          (addf (Host.dotGeneral (F := F) dot_S50000x256_S256x128_S50000x128_1_0_0_1_n_n none x w₁)
            (broadcastInDim S50000x128 ![0, 1] bcast_S1x128_S50000x128_0_1 (broadcastInDim S1x128 ![1] bcast_S128_S1x128_1 b₁)))
          (broadcastInDim S50000x128 ![] bcast_S_S50000x128 (constant (F := F) S_ .f32 0x00000000#32)))
        w₂)
      (broadcastInDim S50000x1 ![0, 1] bcast_S1x1_S50000x1_0_1 (broadcastInDim S1x1 ![1] bcast_S1_S1x1_1 b₂)))
    shapeCasts_S50000x1_S50000

theorem seg6_v230 (V : Valuation τ sig (Elt F)) :
    after seg6 V (main_v230 : DevRef τ sig)
      = head (V (main_v220 : DevRef τ sig)) (V (main_arg23 : DevRef τ sig)) (V (main_arg24 : DevRef τ sig))
          (V (main_arg25 : DevRef τ sig)) (V (main_arg26 : DevRef τ sig)) := by
  simp only [seg6, piece10]
  after_results_simp
  rfl

end Cert.ReferenceIdeal.HandRun

end
-- ==== Proof.RefOpsReadAll.lean ====
import proofs.«107715_j23149873725632_1_alg».proof.Proof.RefOpsRead0
import proofs.«107715_j23149873725632_1_alg».proof.Proof.RefOpsRead2
import proofs.«107715_j23149873725632_1_alg».proof.Proof.RefOpsRead3
import proofs.«107715_j23149873725632_1_alg».proof.Proof.RefOpsRead4
import proofs.«107715_j23149873725632_1_alg».proof.Proof.RefOpsRead5
import proofs.«107715_j23149873725632_1_alg».proof.Proof.RefOpsRead6

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! The result of the reference program as ONE term of its 27 arguments.

    The line of operations is the seven stages in a row, so the contents after it are the stages' folds nested
    (ops_val).  Each stage's read lemma (RefOpsRead0 … RefOpsRead6) gives the one or three buffers a later stage reads as
    a term of the contents the stage starts from, and a stage keeps every buffer it does not write (segK_keeps); reading
    main_v230 after the last stage and following each operand back through the stages to the launch contents composes
    the head over the five layers over the edge-list preparation. -/

/-- The contents after stage 0, after stages 0 and 1, …, after all seven stages. -/
def val1 (V : Valuation τ sig (Elt F)) : Valuation τ sig (Elt F) := after seg0 V
def val2 (V : Valuation τ sig (Elt F)) : Valuation τ sig (Elt F) := after seg1 (val1 V)
def val3 (V : Valuation τ sig (Elt F)) : Valuation τ sig (Elt F) := after seg2 (val2 V)
def val4 (V : Valuation τ sig (Elt F)) : Valuation τ sig (Elt F) := after seg3 (val3 V)
def val5 (V : Valuation τ sig (Elt F)) : Valuation τ sig (Elt F) := after seg4 (val4 V)
def val6 (V : Valuation τ sig (Elt F)) : Valuation τ sig (Elt F) := after seg5 (val5 V)
def val7 (V : Valuation τ sig (Elt F)) : Valuation τ sig (Elt F) := after seg6 (val6 V)

/-- The whole line is the seven stages in a row. -/
theorem ops_val (V : Valuation τ sig (Elt F)) : after ops V = val7 V :=
  (after_app seg0 _ V).trans <| (after_app seg1 _ _).trans <| (after_app seg2 _ _).trans <|
    (after_app seg3 _ _).trans <| (after_app seg4 _ _).trans <| (after_app seg5 seg6 _)

/-- The same with the stages' folds spelt out. -/
theorem ops_after (V : Valuation τ sig (Elt F)) :
    after ops V = after seg6 (after seg5 (after seg4 (after seg3 (after seg2 (after seg1 (after seg0 V)))))) := ops_val V

section
variable (V : Valuation τ sig (Elt F))

/-! A stage keeps what it does not write (stated for rewriting: the reference is not part of the pattern's key). -/
theorem val1_keep {r : Ref sig .tc} (h : r ∉ seg0_W) : val1 V (no_index (Proc.devRef .tc r)) = V (Proc.devRef .tc r) := seg0_keeps r h V
theorem val2_keep {r : Ref sig .tc} (h : r ∉ seg1_W) : val2 V (no_index (Proc.devRef .tc r)) = val1 V (Proc.devRef .tc r) := seg1_keeps r h _
theorem val3_keep {r : Ref sig .tc} (h : r ∉ seg2_W) : val3 V (no_index (Proc.devRef .tc r)) = val2 V (Proc.devRef .tc r) := seg2_keeps r h _
theorem val4_keep {r : Ref sig .tc} (h : r ∉ seg3_W) : val4 V (no_index (Proc.devRef .tc r)) = val3 V (Proc.devRef .tc r) := seg3_keeps r h _
theorem val5_keep {r : Ref sig .tc} (h : r ∉ seg4_W) : val5 V (no_index (Proc.devRef .tc r)) = val4 V (Proc.devRef .tc r) := seg4_keeps r h _
theorem val6_keep {r : Ref sig .tc} (h : r ∉ seg5_W) : val6 V (no_index (Proc.devRef .tc r)) = val5 V (Proc.devRef .tc r) := seg5_keeps r h _
theorem val7_keep {r : Ref sig .tc} (h : r ∉ seg6_W) : val7 V (no_index (Proc.devRef .tc r)) = val6 V (Proc.devRef .tc r) := seg6_keeps r h _

/-! What each stage hands on, over the contents before it. -/
theorem val1_v4 : val1 V (no_index (Proc.devRef .tc main_v4)) = srcIdx (V (main_arg1 : DevRef τ sig)) := seg0_v4 V
theorem val1_v7 : val1 V (no_index (Proc.devRef .tc main_v7)) = dstIdx (V (main_arg1 : DevRef τ sig)) := seg0_v7 V
theorem val1_v35 : val1 V (no_index (Proc.devRef .tc main_v35))
    = edgeNorm (V (main_arg1 : DevRef τ sig)) (V (main_arg2 : DevRef τ sig)) := seg0_v35 V
theorem val2_v72 : val2 V (no_index (Proc.devRef .tc main_v72))
    = refLayer1 (val1 V (main_arg0 : DevRef τ sig)) (val1 V (main_arg3 : DevRef τ sig)) (val1 V (main_arg4 : DevRef τ sig))
        (val1 V (main_arg5 : DevRef τ sig)) (val1 V (main_arg6 : DevRef τ sig))
        (val1 V (main_v4 : DevRef τ sig)) (val1 V (main_v7 : DevRef τ sig)) (val1 V (main_v35 : DevRef τ sig)) := seg1_v72 _
theorem val3_v109 : val3 V (no_index (Proc.devRef .tc main_v109))
    = refLayer2 (val2 V (main_v72 : DevRef τ sig)) (val2 V (main_arg7 : DevRef τ sig)) (val2 V (main_arg8 : DevRef τ sig))
        (val2 V (main_arg9 : DevRef τ sig)) (val2 V (main_arg10 : DevRef τ sig))
        (val2 V (main_v4 : DevRef τ sig)) (val2 V (main_v7 : DevRef τ sig)) (val2 V (main_v35 : DevRef τ sig)) := seg2_v109 _
theorem val4_v146 : val4 V (no_index (Proc.devRef .tc main_v146))
    = refLayer3 (val3 V (main_v109 : DevRef τ sig)) (val3 V (main_arg11 : DevRef τ sig)) (val3 V (main_arg12 : DevRef τ sig))
        (val3 V (main_arg13 : DevRef τ sig)) (val3 V (main_arg14 : DevRef τ sig))
        (val3 V (main_v4 : DevRef τ sig)) (val3 V (main_v7 : DevRef τ sig)) (val3 V (main_v35 : DevRef τ sig)) := seg3_v146 _
theorem val5_v183 : val5 V (no_index (Proc.devRef .tc main_v183))
    = refLayer4 (val4 V (main_v146 : DevRef τ sig)) (val4 V (main_arg15 : DevRef τ sig)) (val4 V (main_arg16 : DevRef τ sig))
        (val4 V (main_arg17 : DevRef τ sig)) (val4 V (main_arg18 : DevRef τ sig))
        (val4 V (main_v4 : DevRef τ sig)) (val4 V (main_v7 : DevRef τ sig)) (val4 V (main_v35 : DevRef τ sig)) := seg4_v183 _
theorem val6_v220 : val6 V (no_index (Proc.devRef .tc main_v220))
    = refLayer5 (val5 V (main_v183 : DevRef τ sig)) (val5 V (main_arg19 : DevRef τ sig)) (val5 V (main_arg20 : DevRef τ sig))
        (val5 V (main_arg21 : DevRef τ sig)) (val5 V (main_arg22 : DevRef τ sig))
        (val5 V (main_v4 : DevRef τ sig)) (val5 V (main_v7 : DevRef τ sig)) (val5 V (main_v35 : DevRef τ sig)) := seg5_v220 _
theorem val7_v230 : val7 V (no_index (Proc.devRef .tc main_v230))
    = head (val6 V (main_v220 : DevRef τ sig)) (val6 V (main_arg23 : DevRef τ sig)) (val6 V (main_arg24 : DevRef τ sig))
        (val6 V (main_arg25 : DevRef τ sig)) (val6 V (main_arg26 : DevRef τ sig)) := seg6_v230 _

end

/-- The network: the head over the five graph-convolution layers over the prepared edge list — x the node features, ei
    the 2 × 400000 edge list, ew the edge weights, then each layer's (W, b, γ, β) and the head's (W₁, b₁, W₂, b₂), in
    the order of @main's arguments. -/
def refOut (x : FVec F S50000x32 .f32) (ei : IVec S2x400000 32) (ew : FVec F S400000x1 .f32)
    (w1 : FVec F S32x32 .f32) (b1 g1 be1 : FVec F S32 .f32)
    (w2 : FVec F S32x64 .f32) (b2 g2 be2 : FVec F S64 .f32)
    (w3 : FVec F S64x128 .f32) (b3 g3 be3 : FVec F S128 .f32)
    (w4 : FVec F S128x128 .f32) (b4 g4 be4 : FVec F S128 .f32)
    (w5 : FVec F S128x256 .f32) (b5 g5 be5 : FVec F S256 .f32)
    (wh1 : FVec F S256x128 .f32) (bh1 : FVec F S128 .f32) (wh2 : FVec F S128x1 .f32) (bh2 : FVec F S1 .f32) :
    FVec F S50000 .f32 :=
  head
    (refLayer5
      (refLayer4
        (refLayer3
          (refLayer2
            (refLayer1 x w1 b1 g1 be1 (srcIdx ei) (dstIdx ei) (edgeNorm ei ew))
            w2 b2 g2 be2 (srcIdx ei) (dstIdx ei) (edgeNorm ei ew))
          w3 b3 g3 be3 (srcIdx ei) (dstIdx ei) (edgeNorm ei ew))
        w4 b4 g4 be4 (srcIdx ei) (dstIdx ei) (edgeNorm ei ew))
      w5 b5 g5 be5 (srcIdx ei) (dstIdx ei) (edgeNorm ei ew))
    wh1 bh1 wh2 bh2

set_option maxRecDepth 16384 in
set_option maxHeartbeats 4000000 in
/-- The result buffer after the whole program: the network of the 27 arguments' launch contents. -/
theorem ops_v230 (V : Valuation τ sig (Elt F)) :
    after ops V (main_v230 : DevRef τ sig)
      = refOut (V (main_arg0 : DevRef τ sig))
          (V (main_arg1 : DevRef τ sig))
          (V (main_arg2 : DevRef τ sig))
          (V (main_arg3 : DevRef τ sig))
          (V (main_arg4 : DevRef τ sig))
          (V (main_arg5 : DevRef τ sig))
          (V (main_arg6 : DevRef τ sig))
          (V (main_arg7 : DevRef τ sig))
          (V (main_arg8 : DevRef τ sig))
          (V (main_arg9 : DevRef τ sig))
          (V (main_arg10 : DevRef τ sig))
          (V (main_arg11 : DevRef τ sig))
          (V (main_arg12 : DevRef τ sig))
          (V (main_arg13 : DevRef τ sig))
          (V (main_arg14 : DevRef τ sig))
          (V (main_arg15 : DevRef τ sig))
          (V (main_arg16 : DevRef τ sig))
          (V (main_arg17 : DevRef τ sig))
          (V (main_arg18 : DevRef τ sig))
          (V (main_arg19 : DevRef τ sig))
          (V (main_arg20 : DevRef τ sig))
          (V (main_arg21 : DevRef τ sig))
          (V (main_arg22 : DevRef τ sig))
          (V (main_arg23 : DevRef τ sig))
          (V (main_arg24 : DevRef τ sig))
          (V (main_arg25 : DevRef τ sig))
          (V (main_arg26 : DevRef τ sig)) := by
  rw [ops_val]
  simp (disch := decide) only [val7_v230, val6_v220, val5_v183, val4_v146, val3_v109, val2_v72, val1_v4, val1_v7, val1_v35,
    val7_keep, val6_keep, val5_keep, val4_keep, val3_keep, val2_keep, val1_keep]
  rfl

end Cert.ReferenceIdeal.HandRun

end
-- ==== Proof.RefMathPre.lean ====
import proofs.«107715_j23149873725632_1_alg».proof.Proof.Gen.Pre_finite_inputs
import proofs.«107715_j23149873725632_1_alg».proof.Proof.RefMath1Stats
import Idealize.ShloMosaic.Lib.ReduceAll
import Idealize.ShloMosaic.Lib.IdealHost

/-! From the precondition to real-valued arguments.  The precondition's function computes, for each float argument x,
    whether |x| < +∞ at every entry (an all-reduction by "and" of the comparison), and the "and" of these 26 bits; that
    it is all ones says each bit is one, so every entry of every float argument has |x| < +∞, and an extended real whose
    absolute value (max x (−x)) is below +∞ is a real number. -/

set_option maxRecDepth 16384

noncomputable section

namespace Cert.Pre_finite_inputs.Hand

open Cert.Pre_finite_inputs Idealize.ShloMosaic Idealize.ShloMosaic.ValueIdx
open Cert.ReferenceIdeal.HandRun (AllReal)

instance : Subsingleton S_.Idx := ⟨fun a b => funext fun d => d.elim0⟩

/-- The f32 word 0x7F800000 is +∞. -/
theorem ofBits_inf : Ideal.ofBits .f32 0x7F800000#32 = (⊤ : EReal) := by simp [Ideal.ofBits, Ideal.ieee]

/-- An extended real whose absolute value is below +∞ is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One check of the precondition: the all-reduction of |a| < +∞ is one, so a is real-valued. -/
theorem allReal_of_all_finite {s : Shape} {axes : List (Fin s.rank)} (a : FVec Ideal s .f32)
    (hb : S_.BroadcastsInDim s (![] : Fin 0 → Fin s.rank)) (hred : s.ReducesTo axes S_) (hu : 0 < S_.numel) (init : S_.Idx → BitVec 1)
    (h : Host.reduce IntOp.andi (cmpf .olt (Host.absf a) (broadcastInDim s ![] hb (constant (F := Ideal) S_ .f32 0x7F800000#32)))
        init hred hu ix0 = 1#1) : AllReal a := fun i => by
  have hi := Host.reduce_andi_all _ init hred hu ix0 h i
  rw [cmpf_apply, broadcastInDim_scalar_apply, constant_apply, ofBits_inf] at hi
  exact real_of_abs_lt_top (a i) hi

variable [Facts]

set_option maxHeartbeats 4000000 in
/-- The precondition makes each of the 26 float arguments real-valued (a1, the edge list, is an integer array). -/
theorem allReal_of_pre (a0 : FVec Ideal S50000x32 .f32) (a1 : IVec S2x400000 32) (a2 : FVec Ideal S400000x1 .f32) (a3 : FVec Ideal S32x32 .f32) (a4 : FVec Ideal S32 .f32) (a5 : FVec Ideal S32 .f32) (a6 : FVec Ideal S32 .f32) (a7 : FVec Ideal S32x64 .f32) (a8 : FVec Ideal S64 .f32) (a9 : FVec Ideal S64 .f32) (a10 : FVec Ideal S64 .f32) (a11 : FVec Ideal S64x128 .f32) (a12 : FVec Ideal S128 .f32) (a13 : FVec Ideal S128 .f32) (a14 : FVec Ideal S128 .f32) (a15 : FVec Ideal S128x128 .f32) (a16 : FVec Ideal S128 .f32) (a17 : FVec Ideal S128 .f32) (a18 : FVec Ideal S128 .f32) (a19 : FVec Ideal S128x256 .f32) (a20 : FVec Ideal S256 .f32) (a21 : FVec Ideal S256 .f32) (a22 : FVec Ideal S256 .f32) (a23 : FVec Ideal S256x128 .f32) (a24 : FVec Ideal S128 .f32) (a25 : FVec Ideal S128x1 .f32) (a26 : FVec Ideal S1 .f32)
    (h : fn (F := Ideal) a0 a1 a2 a3 a4 a5 a6 a7 a8 a9 a10 a11 a12 a13 a14 a15 a16 a17 a18 a19 a20 a21 a22 a23 a24 a25 a26 = fun _ => 1#1) :
    AllReal a0 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 ∧ AllReal a23 ∧ AllReal a24 ∧ AllReal a25 ∧ AllReal a26 := by
  have h0 := congrFun h ix0
  dsimp only [fn, fn_part1, fn_part2, fn_part3, fn_part4, fn_part5, fn_part6, fn_part7] at h0
  obtain ⟨h0, c26⟩ := IntOp.andi_eq_one.mp h0
  obtain ⟨h0, c25⟩ := IntOp.andi_eq_one.mp h0
  obtain ⟨h0, c24⟩ := IntOp.andi_eq_one.mp h0
  obtain ⟨h0, c23⟩ := IntOp.andi_eq_one.mp h0
  obtain ⟨h0, c22⟩ := IntOp.andi_eq_one.mp h0
  obtain ⟨h0, c21⟩ := IntOp.andi_eq_one.mp h0
  obtain ⟨h0, c20⟩ := IntOp.andi_eq_one.mp h0
  obtain ⟨h0, c19⟩ := IntOp.andi_eq_one.mp h0
  obtain ⟨h0, c18⟩ := IntOp.andi_eq_one.mp h0
  obtain ⟨h0, c17⟩ := IntOp.andi_eq_one.mp h0
  obtain ⟨h0, c16⟩ := IntOp.andi_eq_one.mp h0
  obtain ⟨h0, c15⟩ := IntOp.andi_eq_one.mp h0
  obtain ⟨h0, c14⟩ := IntOp.andi_eq_one.mp h0
  obtain ⟨h0, c13⟩ := IntOp.andi_eq_one.mp h0
  obtain ⟨h0, c12⟩ := IntOp.andi_eq_one.mp h0
  obtain ⟨h0, c11⟩ := IntOp.andi_eq_one.mp h0
  obtain ⟨h0, c10⟩ := IntOp.andi_eq_one.mp h0
  obtain ⟨h0, c9⟩ := IntOp.andi_eq_one.mp h0
  obtain ⟨h0, c8⟩ := IntOp.andi_eq_one.mp h0
  obtain ⟨h0, c7⟩ := IntOp.andi_eq_one.mp h0
  obtain ⟨h0, c6⟩ := IntOp.andi_eq_one.mp h0
  obtain ⟨h0, c5⟩ := IntOp.andi_eq_one.mp h0
  obtain ⟨h0, c4⟩ := IntOp.andi_eq_one.mp h0
  obtain ⟨h0, c3⟩ := IntOp.andi_eq_one.mp h0
  obtain ⟨c0, c2⟩ := IntOp.andi_eq_one.mp h0
  exact ⟨allReal_of_all_finite _ _ _ _ _ c0, allReal_of_all_finite _ _ _ _ _ c2, allReal_of_all_finite _ _ _ _ _ c3, allReal_of_all_finite _ _ _ _ _ c4, allReal_of_all_finite _ _ _ _ _ c5, allReal_of_all_finite _ _ _ _ _ c6, allReal_of_all_finite _ _ _ _ _ c7, allReal_of_all_finite _ _ _ _ _ c8, allReal_of_all_finite _ _ _ _ _ c9, allReal_of_all_finite _ _ _ _ _ c10, allReal_of_all_finite _ _ _ _ _ c11, allReal_of_all_finite _ _ _ _ _ c12, allReal_of_all_finite _ _ _ _ _ c13, allReal_of_all_finite _ _ _ _ _ c14, allReal_of_all_finite _ _ _ _ _ c15, allReal_of_all_finite _ _ _ _ _ c16, allReal_of_all_finite _ _ _ _ _ c17, allReal_of_all_finite _ _ _ _ _ c18, allReal_of_all_finite _ _ _ _ _ c19, allReal_of_all_finite _ _ _ _ _ c20, allReal_of_all_finite _ _ _ _ _ c21, allReal_of_all_finite _ _ _ _ _ c22, allReal_of_all_finite _ _ _ _ _ c23, allReal_of_all_finite _ _ _ _ _ c24, allReal_of_all_finite _ _ _ _ _ c25, allReal_of_all_finite _ _ _ _ _ c26⟩

end Cert.Pre_finite_inputs.Hand

end
-- ==== Proof.LibRealMatrix.lean ====
/-
  Matrix algebra on the extended reals for entries that are real numbers.

  The extended reals are not a ring: with an infinite entry, distributivity fails, and with it the associativity of
  the matrix product. For matrices all of whose entries are real numbers (`IsReal`: the value is the coercion of a
  real) every finite sum and product is again real, and the usual laws hold. Here:
    * `IsReal` and its closure under `+`, `*`, finite sums and `max` against a real;
    * `sum_coe`: a finite sum of coerced reals is the coercion of the real sum;
    * `matmul_assoc`: (A X) W = A (X W) entry by entry, for real-valued A, X, W over any finite index types;
    * `sum_split`: a sum over `Fin (m + n)` is the sum over the first `m` plus the sum over the last `n` indices
      (no finiteness needed: `+` on the extended reals is associative and commutative).
  It imports Mathlib only.
-/
import Mathlib.Data.EReal.Basic
import Mathlib.Data.EReal.Operations
import Mathlib.Algebra.BigOperators.Fin
import Mathlib.Algebra.BigOperators.Ring.Finset

namespace Cert.LibRealMatrix

open scoped BigOperators

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of coerced reals is the coercion of the sum of the reals. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (hf : ∀ i, IsReal (f i)) : IsReal (∑ i ∈ s, f i) := by
  choose g hg using hf
  exact ⟨∑ i ∈ s, g i, by rw [← sum_coe]; exact Finset.sum_congr rfl fun i _ => hg i⟩

/-- Associativity of the matrix product, entry (m, n), for matrices with real entries:
    ∑ j, (∑ k, A m k * X k j) * W j n = ∑ k, A m k * (∑ j, X k j * W j n). -/
theorem matmul_assoc {K J : Type*} [Fintype K] [Fintype J] (a : K → EReal) (X : K → J → EReal) (w : J → EReal)
    (ha : ∀ k, IsReal (a k)) (hX : ∀ k j, IsReal (X k j)) (hw : ∀ j, IsReal (w j)) :
    ∑ j, (∑ k, a k * X k j) * w j = ∑ k, a k * ∑ j, X k j * w j := by
  choose a' ha' using ha
  choose X' hX' using hX
  choose w' hw' using hw
  have hl : ∀ j, (∑ k, a k * X k j) * w j = (((∑ k, a' k * X' k j) * w' j : ℝ) : EReal) := fun j => by
    rw [EReal.coe_mul, ← sum_coe, hw' j]
    congr 1
    exact Finset.sum_congr rfl fun k _ => by rw [ha' k, hX' k j, EReal.coe_mul]
  have hr : ∀ k, a k * ∑ j, X k j * w j = ((a' k * ∑ j, X' k j * w' j : ℝ) : EReal) := fun k => by
    rw [EReal.coe_mul, ← sum_coe, ha' k]
    congr 1
    exact Finset.sum_congr rfl fun j _ => by rw [hX' k j, hw' j, EReal.coe_mul]
  rw [Finset.sum_congr rfl fun j _ => hl j, Finset.sum_congr rfl fun k _ => hr k, sum_coe, sum_coe]
  congr 1
  simp only [Finset.sum_mul, Finset.mul_sum]
  rw [Finset.sum_comm]
  exact Finset.sum_congr rfl fun k _ => Finset.sum_congr rfl fun j _ => by ring

/-- A sum over `Fin (m + n)` is the sum over its first `m` indices plus the sum over its last `n`. -/
theorem sum_split {m n : ℕ} (f : Fin (m + n) → EReal) :
    ∑ i, f i = ∑ i : Fin m, f (Fin.castAdd n i) + ∑ i : Fin n, f (Fin.natAdd m i) :=
  Fin.sum_univ_add f

end Cert.LibRealMatrix
-- ==== Proof.RefMath1Real.lean ====
import proofs.«107715_j23149873725632_1_alg».proof.Proof.RefMath1Stats
import proofs.«107715_j23149873725632_1_alg».proof.Proof.LibRealMatrix

/-! Realness through layer 1's pointwise sub-stages: with real-valued inputs every entry of the matrix product, the
    pre-activation, its rectification, the column means and variances and the normalised output is a real number
    (the variance is nonnegative, so the variance plus the positive constant is positive and its inverse square root is
    real).  The aggregation over the edges and the edge weights are in RefMath1Agg.lean. -/

set_option maxRecDepth 8192

noncomputable section

namespace Cert.ReferenceIdeal.HandRun

open Cert.ReferenceIdeal Cert.ReferenceIdeal.Gen Idealize.ShloMosaic Idealize.ShloMosaic.ValueIdx
open Cert.LibRealMatrix (IsReal)

/-- A difference of two real numbers is real. -/
theorem isReal_sub {x y : EReal} (hx : IsReal x) (hy : IsReal y) : IsReal (x - y) := by
  obtain ⟨a, rfl⟩ := hx; obtain ⟨b, rfl⟩ := hy
  exact ⟨a - b, (EReal.coe_sub a b).symm⟩

/-- An entry of a real-valued array is real. -/
theorem AllReal.at {ι : Type} {f : ι → EReal} (h : AllReal f) (i : ι) : IsReal (f i) := h i

/-- A two-dimensional array is real-valued when its entry at every (r, j) is … -/
theorem AllReal.of_ix2 {n0 n1 : ℕ} {f : (⟨2, ![n0, n1]⟩ : Shape).Idx → EReal} (h : ∀ r j, IsReal (f (ix2 r j))) : AllReal f :=
  fun i => by rw [eq_ix2 i]; exact h (i 0) (i 1)

/-- … and a vector when its entry at every j is. -/
theorem AllReal.of_ix1 {n : ℕ} {f : (⟨1, ![n]⟩ : Shape).Idx → EReal} (h : ∀ j, IsReal (f (ix1 j))) : AllReal f :=
  fun i => by rw [eq_ix1 i]; exact h (i 0)

/-- The inverse square root of a positive real is real. -/
theorem rsqrt_coe_of_pos {r : ℝ} (h : 0 < r) : Ideal.rsqrt ((r : ℝ) : EReal) = (((Real.sqrt r)⁻¹ : ℝ) : EReal) := by
  rw [Ideal.rsqrt_coe, if_neg (not_lt.mpr h.le), if_neg h.ne']

/-- The f32 word 0x3727C5AC (the float nearest 1e-5) is a positive real. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

section
variable {x : FVec Ideal S50000x32 .f32} {w : FVec Ideal S32x32 .f32} {a z y : FVec Ideal S50000x32 .f32}
  {b μ σ2 γ β : FVec Ideal S32 .f32}

theorem allReal_lin1 (hx : AllReal x) (hw : AllReal w) : AllReal (lin1 x w) :=
  AllReal.of_ix2 fun r j => by rw [lin1_apply]; exact IsReal.sum _ fun k => (hx.at _).mul (hw.at _)

theorem allReal_pre1 (ha : AllReal a) (hb : AllReal b) : AllReal (pre1 a b) :=
  AllReal.of_ix2 fun r j => by rw [pre1_apply]; exact (ha.at _).add (hb.at _)

theorem allReal_relu1 (hz : AllReal z) : AllReal (relu1 z) :=
  AllReal.of_ix2 fun r j => by rw [relu1_apply]; exact (hz.at _).max IsReal.zero

theorem allReal_mean1 (hy : AllReal y) : AllReal (mean1 y) := AllReal.of_ix1 fun j => mean1_real y hy j

theorem allReal_var1 (hy : AllReal y) : AllReal (var1 y) :=
  AllReal.of_ix1 fun j => let ⟨v, _, h⟩ := var1_real y hy j; ⟨v, h⟩

/-- The normalisation of real data by a real mean, a nonnegative real variance and real scale and shift is real. -/
theorem allReal_norm1 (hy : AllReal y) (hμ : AllReal μ) (hσ : ∀ j, ∃ v : ℝ, 0 ≤ v ∧ σ2 (ix1 j) = (v : EReal))
    (hγ : AllReal γ) (hβ : AllReal β) : AllReal (norm1 y μ σ2 γ β) :=
  AllReal.of_ix2 fun r j => by
    rw [norm1_apply]
    obtain ⟨v, hv, hσj⟩ := hσ j
    obtain ⟨e, he, hε⟩ := ofBits_eps
    rw [hσj, hε, ← EReal.coe_add, rsqrt_coe_of_pos (by positivity : 0 < v + e)]
    exact (((hγ.at _).mul (isReal_sub (hy.at _) (hμ.at _))).mul (IsReal.coe _)).add (hβ.at _)

end

/-- The layer's output is real when its rectified pre-activation, its scale and its shift are. -/
theorem allReal_refLayer1 {x : FVec Ideal S50000x32 .f32} {w : FVec Ideal S32x32 .f32} {b γ β : FVec Ideal S32 .f32}
    {src dst : IVec S450000 32} {wgt : FVec Ideal S450000 .f32}
    (hact : AllReal (act1 x w b src dst wgt)) (hγ : AllReal γ) (hβ : AllReal β) :
    AllReal (refLayer1 x w b γ β src dst wgt) :=
  allReal_norm1 hact (allReal_mean1 hact) (fun j => var1_real _ hact j) hγ hβ

end Cert.ReferenceIdeal.HandRun

end
-- ==== Proof.LibRowGather.lean ====
/-
  A gather of whole rows, read at an entry.

  `x[idx]` for a matrix x : [N, K] and R start indices kept as a column [R, 1] takes, for each e, the row of x whose
  number is the e-th start index read as a signed integer and clamped into [0, N - 1]; entry (e, k) of the result is x at
  that row and column k.  The same for a vector x : [N]: entry e of the result is x at that row.  The row read depends
  only on the start indices, not on the width K: gathers of different widths at the same indices read the same rows.
  The dimension records are the ones built from the literal axis lists; their well-formedness proofs are parameters.
-/
import Idealize.ShloMosaic.Lib.ValueIdx
import Idealize.ShloMosaic.PureOps.Ideal

namespace Cert.LibRowGather

open Idealize.ShloMosaic Idealize.ShloMosaic.ValueIdx

variable {α : Type}

/-- The row a start index names: read signed, clamped into [0, N - 1]. -/
def row (N : Nat) (hN : 0 < N) {R w : Nat} (idx : IVec ⟨2, ![R, 1]⟩ w) (e : Fin R) : Fin N :=
  ⟨min (idx (ix2 e (0 : Fin 1))).toInt.toNat (N - 1), by omega⟩

/-- The dimension numbers of a row gather out of [N, K] at start indices [R, 1] into [R, K]. -/
abbrev rowDims (N R K : Nat)
    (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- Entry (e, k) of the row gather is the operand at the row the e-th start index names and column k. -/
theorem rowGather_apply {N R K w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (e : Fin R) (k : Fin K) :
    Host.gather (rowDims N R K wf) x idx (ix2 e k) = x (ix2 (row N hN idx e) k) := by
  unfold Host.gather
  congr 1
  funext a
  refine Fin.ext ?_
  match a with
  | ⟨0, _⟩ =>
    show (rowDims N R K wf).start (ix2 e k) idx 0 + (rowDims N R K wf).batchCoord (ix2 e k) 0
        + (rowDims N R K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R K wf).startIndexMap from List.mem_singleton.mpr rfl)]
    have hsi : (rowDims N R K wf).siIdx (ix2 e k) ⟨List.idxOf (0 : Fin 2) (rowDims N R K wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R K wf).start (ix2 e k) idx 1 + (rowDims N R K wf).batchCoord (ix2 e k) 1
        + (rowDims N R K wf).offCoord (ix2 e k) 1 = _
    rw [GatherDims.batchCoord_eq_zero _ _ _ List.not_mem_nil]
    unfold GatherDims.start
    rw [dif_neg (fun h => Nat.one_ne_zero (congrArg Fin.val (List.mem_singleton.mp h)))]
    unfold GatherDims.offCoord
    rw [dif_pos ((GatherDims.mem_sKept _ _).mpr ⟨fun h => Nat.one_ne_zero (congrArg Fin.val (List.mem_singleton.mp h)), List.not_mem_nil⟩)]
    simp only [Nat.zero_add]
    rfl

/-- The dimension numbers of a gather out of a vector [N] at start indices [R, 1] into [R]. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry e of the vector gather is the operand at the row the e-th start index names. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e) = x (ix1 (row N hN idx e)) := by
  unfold Host.gather
  congr 1
  funext a
  obtain rfl : a = 0 := Subsingleton.elim _ _
  refine Fin.ext ?_
  show (vecDims N R wf).start (ix1 e) idx 0 + (vecDims N R wf).batchCoord (ix1 e) 0
      + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibRowGather
-- ==== Proof.LibRowScatterAdd.lean ====
/-
  An accumulating scatter of whole rows, read at an entry on the extended reals.

  Rows u : [R, K] are added into x : [N, K]; row e goes to the row whose number is the e-th scatter index (kept as a
  column [R, 1]) read as a signed integer, and is dropped when that number is outside [0, N).  Entry (v, k) of the result is
  x (v, k) plus the sum of u (e, k) over the rows e that land on v.  The set of rows landing on v depends only on the
  scatter indices, not on the width K.  The same for vectors: u : [R] added into x : [N].
-/
import Idealize.ShloMosaic.Lib.ValueIdx
import Idealize.ShloMosaic.PureOps.Ideal

namespace Cert.LibRowScatterAdd

open Idealize.ShloMosaic Idealize.ShloMosaic.ValueIdx

/-- The rows that land on row v: their scatter index, read signed, is v. -/
def hits (N : Nat) {R w : Nat} (idx : IVec ⟨2, ![R, 1]⟩ w) (v : Fin N) : Finset (Fin R) :=
  Finset.univ.filter fun e => (idx (ix2 e (0 : Fin 1))).toInt = (v.val : Int)

/-- The dimension numbers of a row scatter of [R, K] into [N, K] at scatter indices [R, 1]. -/
abbrev rowDims (N R K : Nat) (wf : ScatterDims.WF ⟨2, ![N, K]⟩ ⟨2, ![R, 1]⟩ ⟨2, ![R, K]⟩ [1] [0] [0] 1) :
    ScatterDims ⟨2, ![N, K]⟩ ⟨2, ![R, 1]⟩ ⟨2, ![R, K]⟩ where
  updateWindowDims := [1]
  insertedWindowDims := [0]
  scatterDimsToOperandDims := [0]
  indexVectorDim := 1
  wf := wf

section Row
variable {N R K w : Nat} (wf : ScatterDims.WF ⟨2, ![N, K]⟩ ⟨2, ![R, 1]⟩ ⟨2, ![R, K]⟩ [1] [0] [0] 1)
  (idx : IVec ⟨2, ![R, 1]⟩ w)

theorem start0 (e : Fin R) (k' : Fin K) :
    (rowDims N R K wf).start (ix2 e k') idx 0 = (idx (ix2 e (0 : Fin 1))).toInt := by
  unfold ScatterDims.start
  rw [dif_pos (show (0 : Fin 2) ∈ (rowDims N R K wf).scatterDimsToOperandDims from List.mem_singleton.mpr rfl)]
  have hsi : (rowDims N R K wf).siIdx (ix2 e k') ⟨List.idxOf (0 : Fin 2) (rowDims N R K wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start1 (e : Fin R) (k' : Fin K) : (rowDims N R K wf).start (ix2 e k') idx 1 = 0 := by
  unfold ScatterDims.start
  rw [dif_neg (fun h => Nat.one_ne_zero (congrArg Fin.val (List.mem_singleton.mp h)))]

theorem window0 (e : Fin R) (k' : Fin K) : (rowDims N R K wf).window (ix2 e k') 0 = 0 := by
  unfold ScatterDims.window
  rw [dif_neg]
  intro h
  simp [ScatterDims.sKept, Shape.kept] at h

theorem window1 (e : Fin R) (k' : Fin K) : (rowDims N R K wf).window (ix2 e k') 1 = k'.val := by
  unfold ScatterDims.window
  rw [dif_pos (by simp [ScatterDims.sKept, Shape.kept])]
  rfl

theorem resultIdx_eq_some_iff (e : Fin R) (k' : Fin K) (v : Fin N) (k : Fin K) :
    (rowDims N R K wf).resultIdx? (ix2 e k') idx = some (ix2 v k)
      ↔ (idx (ix2 e (0 : Fin 1))).toInt = (v.val : Int) ∧ k' = k := by
  unfold ScatterDims.resultIdx?
  constructor
  · intro h
    split at h
    · rename_i hc
      have hf := Option.some.inj h
      have h0 : ((rowDims N R K wf).start (ix2 e k') idx 0 + ((rowDims N R K wf).window (ix2 e k') 0 : Nat)).toNat = v.val :=
        congrArg (fun f => (f 0).val) hf
      have h1 : ((rowDims N R K wf).start (ix2 e k') idx 1 + ((rowDims N R K wf).window (ix2 e k') 1 : Nat)).toNat = k.val :=
        congrArg (fun f => (f 1).val) hf
      have hc0 := hc 0
      rw [start0, window0] at h0 hc0
      rw [start1, window1] at h1
      refine ⟨by omega, Fin.ext (by omega)⟩
    · exact absurd h (by simp)
  · rintro ⟨hz, rfl⟩
    have hc : ∀ a, 0 ≤ (rowDims N R K wf).start (ix2 e k') idx a + ((rowDims N R K wf).window (ix2 e k') a : Nat)
        ∧ (rowDims N R K wf).start (ix2 e k') idx a + ((rowDims N R K wf).window (ix2 e k') a : Nat)
            < ((⟨2, ![N, K]⟩ : Shape).size a : Nat) := by
      intro a
      match a with
      | ⟨0, _⟩ =>
        show 0 ≤ (rowDims N R K wf).start (ix2 e k') idx 0 + ((rowDims N R K wf).window (ix2 e k') 0 : Nat)
          ∧ (rowDims N R K wf).start (ix2 e k') idx 0 + ((rowDims N R K wf).window (ix2 e k') 0 : Nat) < (N : Int)
        rw [start0, window0, hz]
        have := v.isLt
        omega
      | ⟨1, _⟩ =>
        show 0 ≤ (rowDims N R K wf).start (ix2 e k') idx 1 + ((rowDims N R K wf).window (ix2 e k') 1 : Nat)
          ∧ (rowDims N R K wf).start (ix2 e k') idx 1 + ((rowDims N R K wf).window (ix2 e k') 1 : Nat) < (K : Int)
        rw [start1, window1]
        have := k'.isLt
        omega
    rw [dif_pos hc]
    congr 1
    funext a
    apply Fin.ext
    match a with
    | ⟨0, _⟩ =>
      show ((rowDims N R K wf).start (ix2 e k') idx 0 + ((rowDims N R K wf).window (ix2 e k') 0 : Nat)).toNat = v.val
      rw [start0, window0, hz]; omega
    | ⟨1, _⟩ =>
      show ((rowDims N R K wf).start (ix2 e k') idx 1 + ((rowDims N R K wf).window (ix2 e k') 1 : Nat)).toNat = k'.val
      rw [start1, window1]; omega

open Classical in
/-- Entry (v, k) of the accumulating row scatter: the operand's entry plus the sum over the rows landing on v of their
    entries in column k. -/
theorem rowScatterAdd_apply (x : (⟨2, ![N, K]⟩ : Shape).Idx → EReal) (upd : (⟨2, ![R, K]⟩ : Shape).Idx → EReal)
    (v : Fin N) (k : Fin K) :
    Ideal.hostScatterAdd (rowDims N R K wf) x idx upd (ix2 v k)
      = x (ix2 v k) + ∑ e ∈ hits N idx v, upd (ix2 e k) := by
  unfold Ideal.hostScatterAdd
  congr 1
  rw [Finset.sum_filter, sum_idx2]
  unfold hits
  rw [Finset.sum_filter]
  refine Finset.sum_congr rfl fun e _ => ?_
  simp only [resultIdx_eq_some_iff wf idx]
  by_cases hz : (idx (ix2 e (0 : Fin 1))).toInt = (v.val : Int)
  · simp only [hz, true_and, if_true]
    rw [Finset.sum_ite_eq' Finset.univ k (fun k' => upd (ix2 e k'))]
    simp
  · simp only [hz, false_and, if_false]
    exact Finset.sum_const_zero

end Row

/-! ## The same for vectors -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of a vector [R] into a vector [N] at scatter indices [R, 1]. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)
  (idx : IVec ⟨2, ![R, 1]⟩ w)

theorem vstart0 (e : Fin R) :
    (vecDims N R wf).start (ix1 e) idx 0 = (idx (ix2 e (0 : Fin 1))).toInt := by
  unfold ScatterDims.start
  rw [dif_pos (show (0 : Fin 1) ∈ (vecDims N R wf).scatterDimsToOperandDims from List.mem_singleton.mpr rfl)]
  have hsi : (vecDims N R wf).siIdx (ix1 e) ⟨List.idxOf (0 : Fin 1) (vecDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vwindow0 (e : Fin R) : (vecDims N R wf).window (ix1 e) 0 = 0 := by
  unfold ScatterDims.window
  rw [dif_neg]
  intro h
  simp [ScatterDims.sKept, Shape.kept] at h

theorem vresultIdx_eq_some_iff (e : Fin R) (v : Fin N) :
    (vecDims N R wf).resultIdx? (ix1 e) idx = some (ix1 v) ↔ (idx (ix2 e (0 : Fin 1))).toInt = (v.val : Int) := by
  unfold ScatterDims.resultIdx?
  constructor
  · intro h
    split at h
    · rename_i hc
      have hf := Option.some.inj h
      have h0 : ((vecDims N R wf).start (ix1 e) idx 0 + ((vecDims N R wf).window (ix1 e) 0 : Nat)).toNat = v.val :=
        congrArg (fun f => (f 0).val) hf
      have hc0 := hc 0
      rw [vstart0, vwindow0] at h0 hc0
      omega
    · exact absurd h (by simp)
  · intro hz
    have hc : ∀ a, 0 ≤ (vecDims N R wf).start (ix1 e) idx a + ((vecDims N R wf).window (ix1 e) a : Nat)
        ∧ (vecDims N R wf).start (ix1 e) idx a + ((vecDims N R wf).window (ix1 e) a : Nat)
            < ((⟨1, ![N]⟩ : Shape).size a : Nat) := by
      intro a
      obtain rfl : a = 0 := Subsingleton.elim _ _
      show 0 ≤ (vecDims N R wf).start (ix1 e) idx 0 + ((vecDims N R wf).window (ix1 e) 0 : Nat)
        ∧ (vecDims N R wf).start (ix1 e) idx 0 + ((vecDims N R wf).window (ix1 e) 0 : Nat) < (N : Int)
      rw [vstart0, vwindow0, hz]
      have := v.isLt
      omega
    rw [dif_pos hc]
    congr 1
    funext a
    apply Fin.ext
    obtain rfl : a = 0 := Subsingleton.elim _ _
    show ((vecDims N R wf).start (ix1 e) idx 0 + ((vecDims N R wf).window (ix1 e) 0 : Nat)).toNat = v.val
    rw [vstart0, vwindow0, hz]; omega

open Classical in
/-- Entry v of the accumulating vector scatter: the operand's entry plus the sum of the entries landing on v. -/
theorem vecScatterAdd_apply (x : (⟨1, ![N]⟩ : Shape).Idx → EReal) (upd : (⟨1, ![R]⟩ : Shape).Idx → EReal) (v : Fin N) :
    Ideal.hostScatterAdd (vecDims N R wf) x idx upd (ix1 v) = x (ix1 v) + ∑ e ∈ hits N idx v, upd (ix1 e) := by
  unfold Ideal.hostScatterAdd
  congr 1
  rw [Finset.sum_filter, sum_idx1]
  unfold hits
  rw [Finset.sum_filter]
  refine Finset.sum_congr rfl fun e _ => ?_
  simp only [vresultIdx_eq_some_iff wf idx]

end Vec

end Cert.LibRowScatterAdd
-- ==== Proof.RefMath1Agg.lean ====
import proofs.«107715_j23149873725632_1_alg».proof.Proof.RefMath1Real
import proofs.«107715_j23149873725632_1_alg».proof.Proof.LibRowGather
import proofs.«107715_j23149873725632_1_alg».proof.Proof.LibRowScatterAdd

/-! Realness through the aggregation over the edges: an entry of the aggregate is the zero it starts from plus a finite
    sum, over the edges landing on its row, of an edge weight times an entry of the gathered operand — real numbers when
    the operand and the edge weights are real-valued, whatever the index arrays hold.  Hence the layer's rectified
    pre-activation is real-valued when its four float inputs are. -/

set_option maxRecDepth 8192

noncomputable section

namespace Cert.ReferenceIdeal.HandRun

open Cert.ReferenceIdeal Cert.ReferenceIdeal.Gen Idealize.ShloMosaic Idealize.ShloMosaic.ValueIdx
open Cert.LibRealMatrix (IsReal)

/-- The host's accumulating scatter at the ideal values is the exact sum (the instance's field). -/
theorem scatterAdd_ideal {s si u : Shape} {w : ℕ} {φ : FTy} (d : ScatterDims s si u) (x : FVec Ideal s φ) (idx : IVec si w)
    (upd : FVec Ideal u φ) : Host.scatterAdd (F := Ideal) d x idx upd = Ideal.hostScatterAdd d x idx upd := rfl

/-- The aggregate over the dimension records spelt as row scatter and row gather (for any float values: the records
    unfold to the same literals). -/
theorem agg1_rows {F : FTy → Type} [FloatOps F] (h : FVec F S50000x32 .f32) (wgt : FVec F S450000 .f32) (src dst : IVec S450000 32) :
    agg1 (F := F) h wgt src dst
      = Host.scatterAdd (F := F) (Cert.LibRowScatterAdd.rowDims 50000 450000 32 scatter_S50000x32_S450000x1_S450000x32_1_0_0_1_wf)
          (broadcastInDim S50000x32 ![] bcast_S_S50000x32 (constant (F := F) S_ .f32 0x00000000#32))
          (broadcastInDim S450000x1 ![0] bcast_S450000_S450000x1_0 dst)
          (mulf (broadcastInDim S450000x32 ![0, 1] bcast_S450000x1_S450000x32_0_1 (broadcastInDim S450000x1 ![0] bcast_S450000_S450000x1_0 wgt))
            (Host.gather (Cert.LibRowGather.rowDims 50000 450000 32 gather_S50000x32_S450000x1_S450000x32_1_0_n_n_0_1_132_wf) h (wrapIdx src))) := rfl

theorem allReal_agg1 {h : FVec Ideal S50000x32 .f32} {wgt : FVec Ideal S450000 .f32} {src dst : IVec S450000 32}
    (hh : AllReal h) (hw : AllReal wgt) : AllReal (agg1 (F := Ideal) h wgt src dst) :=
  AllReal.of_ix2 fun v k => by
    rw [agg1_rows, scatterAdd_ideal, Cert.LibRowScatterAdd.rowScatterAdd_apply]
    refine IsReal.add ?_ (IsReal.sum _ fun e => ?_)
    · rw [broadcastInDim_scalar_apply, constant_apply, Ideal.ofBits_zero_f32]; exact IsReal.zero
    · rw [mulf_apply, Cert.LibBcast.colOverLanes_apply, Cert.LibBcast.vecAsCol_apply,
        Cert.LibRowGather.rowGather_apply (by norm_num : 0 < 50000)]
      exact (hw.at _).mul (hh.at _)

/-- The layer's rectified pre-activation is real-valued when the features, the weights, the bias and the edge weights are. -/
theorem allReal_act1 (x : FVec Ideal S50000x32 .f32) (w : FVec Ideal S32x32 .f32) (b : FVec Ideal S32 .f32)
    (src dst : IVec S450000 32) (wgt : FVec Ideal S450000 .f32)
    (hx : AllReal x) (hw : AllReal w) (hb : AllReal b) (hwgt : AllReal wgt) : AllReal (act1 x w b src dst wgt) :=
  allReal_relu1 (allReal_pre1 (allReal_agg1 (allReal_lin1 hx hw) hwgt) hb)

/-- … and then so is the layer's output, the scale and the shift being real-valued too. -/
theorem allReal_layer1 {x : FVec Ideal S50000x32 .f32} {w : FVec Ideal S32x32 .f32} {b γ β : FVec Ideal S32 .f32}
    {src dst : IVec S450000 32} {wgt : FVec Ideal S450000 .f32}
    (hx : AllReal x) (hw : AllReal w) (hb : AllReal b) (hγ : AllReal γ) (hβ : AllReal β) (hwgt : AllReal wgt) :
    AllReal (refLayer1 x w b γ β src dst wgt) :=
  allReal_refLayer1 (allReal_act1 x w b src dst wgt hx hw hb hwgt) hγ hβ

end Cert.ReferenceIdeal.HandRun

end
-- ==== Proof.RefMath2Real.lean ====
import proofs.«107715_j23149873725632_1_alg».proof.Proof.RefMath2Stats
import proofs.«107715_j23149873725632_1_alg».proof.Proof.RefMath1Real

/-! Realness through layer 2's pointwise sub-stages: RefMath1Real.lean's statements at width 64 (the general lemmas are
    layer 1's). -/

set_option maxRecDepth 8192

noncomputable section

namespace Cert.ReferenceIdeal.HandRun

open Cert.ReferenceIdeal Cert.ReferenceIdeal.Gen Idealize.ShloMosaic Idealize.ShloMosaic.ValueIdx
open Cert.LibRealMatrix (IsReal)

section
variable {x : FVec Ideal S50000x32 .f32} {w : FVec Ideal S32x64 .f32} {a z y : FVec Ideal S50000x64 .f32}
  {b μ σ2 γ β : FVec Ideal S64 .f32}

theorem allReal_lin2 (hx : AllReal x) (hw : AllReal w) : AllReal (lin2 x w) :=
  AllReal.of_ix2 fun r j => by rw [lin2_apply]; exact IsReal.sum _ fun k => (hx.at _).mul (hw.at _)

theorem allReal_pre2 (ha : AllReal a) (hb : AllReal b) : AllReal (pre2 a b) :=
  AllReal.of_ix2 fun r j => by rw [pre2_apply]; exact (ha.at _).add (hb.at _)

theorem allReal_relu2 (hz : AllReal z) : AllReal (relu2 z) :=
  AllReal.of_ix2 fun r j => by rw [relu2_apply]; exact (hz.at _).max IsReal.zero

theorem allReal_mean2 (hy : AllReal y) : AllReal (mean2 y) := AllReal.of_ix1 fun j => mean2_real y hy j

theorem allReal_var2 (hy : AllReal y) : AllReal (var2 y) :=
  AllReal.of_ix1 fun j => let ⟨v, _, h⟩ := var2_real y hy j; ⟨v, h⟩

/-- The normalisation of real data by a real mean, a nonnegative real variance and real scale and shift is real. -/
theorem allReal_norm2 (hy : AllReal y) (hμ : AllReal μ) (hσ : ∀ j, ∃ v : ℝ, 0 ≤ v ∧ σ2 (ix1 j) = (v : EReal))
    (hγ : AllReal γ) (hβ : AllReal β) : AllReal (norm2 y μ σ2 γ β) :=
  AllReal.of_ix2 fun r j => by
    rw [norm2_apply]
    obtain ⟨v, hv, hσj⟩ := hσ j
    obtain ⟨e, he, hε⟩ := ofBits_eps
    rw [hσj, hε, ← EReal.coe_add, rsqrt_coe_of_pos (by positivity : 0 < v + e)]
    exact (((hγ.at _).mul (isReal_sub (hy.at _) (hμ.at _))).mul (IsReal.coe _)).add (hβ.at _)

end

/-- The layer's output is real when its pre-activation (rectified), its scale and its shift are. -/
theorem allReal_refLayer2 {x : FVec Ideal S50000x32 .f32} {w : FVec Ideal S32x64 .f32} {b γ β : FVec Ideal S64 .f32}
    {src dst : IVec S450000 32} {wgt : FVec Ideal S450000 .f32}
    (hact : AllReal (act2 x w b src dst wgt)) (hγ : AllReal γ) (hβ : AllReal β) :
    AllReal (refLayer2 x w b γ β src dst wgt) :=
  allReal_norm2 hact (allReal_mean2 hact) (fun j => var2_real _ hact j) hγ hβ

end Cert.ReferenceIdeal.HandRun

end
-- ==== Proof.RefMath2Agg.lean ====
import proofs.«107715_j23149873725632_1_alg».proof.Proof.RefMath2Real
import proofs.«107715_j23149873725632_1_alg».proof.Proof.RefMath1Agg

/-! Realness through layer 2's aggregation over the edges, and of the layer's pre-activation and output from its float
    inputs: RefMath1Agg.lean's statements at width 64. -/

set_option maxRecDepth 8192

noncomputable section

namespace Cert.ReferenceIdeal.HandRun

open Cert.ReferenceIdeal Cert.ReferenceIdeal.Gen Idealize.ShloMosaic Idealize.ShloMosaic.ValueIdx
open Cert.LibRealMatrix (IsReal)

/-- The aggregate over the dimension records spelt as row scatter and row gather (for any float values). -/
theorem agg2_rows {F : FTy → Type} [FloatOps F] (h : FVec F S50000x64 .f32) (wgt : FVec F S450000 .f32) (src dst : IVec S450000 32) :
    agg2 (F := F) h wgt src dst
      = Host.scatterAdd (F := F) (Cert.LibRowScatterAdd.rowDims 50000 450000 64 scatter_S50000x64_S450000x1_S450000x64_1_0_0_1_wf)
          (broadcastInDim S50000x64 ![] bcast_S_S50000x64 (constant (F := F) S_ .f32 0x00000000#32))
          (broadcastInDim S450000x1 ![0] bcast_S450000_S450000x1_0 dst)
          (mulf (broadcastInDim S450000x64 ![0, 1] bcast_S450000x1_S450000x64_0_1 (broadcastInDim S450000x1 ![0] bcast_S450000_S450000x1_0 wgt))
            (Host.gather (Cert.LibRowGather.rowDims 50000 450000 64 gather_S50000x64_S450000x1_S450000x64_1_0_n_n_0_1_164_wf) h (wrapIdx src))) := rfl

theorem allReal_agg2 {h : FVec Ideal S50000x64 .f32} {wgt : FVec Ideal S450000 .f32} {src dst : IVec S450000 32}
    (hh : AllReal h) (hw : AllReal wgt) : AllReal (agg2 (F := Ideal) h wgt src dst) :=
  AllReal.of_ix2 fun v k => by
    rw [agg2_rows, scatterAdd_ideal, Cert.LibRowScatterAdd.rowScatterAdd_apply]
    refine IsReal.add ?_ (IsReal.sum _ fun e => ?_)
    · rw [broadcastInDim_scalar_apply, constant_apply, Ideal.ofBits_zero_f32]; exact IsReal.zero
    · rw [mulf_apply, Cert.LibBcast.colOverLanes_apply, Cert.LibBcast.vecAsCol_apply,
        Cert.LibRowGather.rowGather_apply (by norm_num : 0 < 50000)]
      exact (hw.at _).mul (hh.at _)

/-- The layer's pre-activation (rectified) is real-valued when its input, the weights, the bias and the edge weights are. -/
theorem allReal_act2 (x : FVec Ideal S50000x32 .f32) (w : FVec Ideal S32x64 .f32) (b : FVec Ideal S64 .f32)
    (src dst : IVec S450000 32) (wgt : FVec Ideal S450000 .f32)
    (hx : AllReal x) (hw : AllReal w) (hb : AllReal b) (hwgt : AllReal wgt) : AllReal (act2 x w b src dst wgt) :=
  allReal_relu2 (allReal_pre2 (allReal_agg2 (allReal_lin2 hx hw) hwgt) hb)

/-- … and then so is the layer's output, the scale and the shift being real-valued too. -/
theorem allReal_layer2 {x : FVec Ideal S50000x32 .f32} {w : FVec Ideal S32x64 .f32} {b γ β : FVec Ideal S64 .f32}
    {src dst : IVec S450000 32} {wgt : FVec Ideal S450000 .f32}
    (hx : AllReal x) (hw : AllReal w) (hb : AllReal b) (hγ : AllReal γ) (hβ : AllReal β) (hwgt : AllReal wgt) :
    AllReal (refLayer2 x w b γ β src dst wgt) :=
  allReal_refLayer2 (allReal_act2 x w b src dst wgt hx hw hb hwgt) hγ hβ

end Cert.ReferenceIdeal.HandRun

end
-- ==== Proof.RefMath3Real.lean ====
import proofs.«107715_j23149873725632_1_alg».proof.Proof.RefMath3Stats
import proofs.«107715_j23149873725632_1_alg».proof.Proof.RefMath1Real

/-! Realness through layer 3's pointwise sub-stages: RefMath1Real.lean's statements at width 128 (the general lemmas are
    layer 1's). -/

set_option maxRecDepth 8192

noncomputable section

namespace Cert.ReferenceIdeal.HandRun

open Cert.ReferenceIdeal Cert.ReferenceIdeal.Gen Idealize.ShloMosaic Idealize.ShloMosaic.ValueIdx
open Cert.LibRealMatrix (IsReal)

section
variable {x : FVec Ideal S50000x64 .f32} {w : FVec Ideal S64x128 .f32} {a z y : FVec Ideal S50000x128 .f32}
  {b μ σ2 γ β : FVec Ideal S128 .f32}

theorem allReal_lin3 (hx : AllReal x) (hw : AllReal w) : AllReal (lin3 x w) :=
  AllReal.of_ix2 fun r j => by rw [lin3_apply]; exact IsReal.sum _ fun k => (hx.at _).mul (hw.at _)

theorem allReal_pre3 (ha : AllReal a) (hb : AllReal b) : AllReal (pre3 a b) :=
  AllReal.of_ix2 fun r j => by rw [pre3_apply]; exact (ha.at _).add (hb.at _)

theorem allReal_relu3 (hz : AllReal z) : AllReal (relu3 z) :=
  AllReal.of_ix2 fun r j => by rw [relu3_apply]; exact (hz.at _).max IsReal.zero

theorem allReal_mean3 (hy : AllReal y) : AllReal (mean3 y) := AllReal.of_ix1 fun j => mean3_real y hy j

theorem allReal_var3 (hy : AllReal y) : AllReal (var3 y) :=
  AllReal.of_ix1 fun j => let ⟨v, _, h⟩ := var3_real y hy j; ⟨v, h⟩

/-- The normalisation of real data by a real mean, a nonnegative real variance and real scale and shift is real. -/
theorem allReal_norm3 (hy : AllReal y) (hμ : AllReal μ) (hσ : ∀ j, ∃ v : ℝ, 0 ≤ v ∧ σ2 (ix1 j) = (v : EReal))
    (hγ : AllReal γ) (hβ : AllReal β) : AllReal (norm3 y μ σ2 γ β) :=
  AllReal.of_ix2 fun r j => by
    rw [norm3_apply]
    obtain ⟨v, hv, hσj⟩ := hσ j
    obtain ⟨e, he, hε⟩ := ofBits_eps
    rw [hσj, hε, ← EReal.coe_add, rsqrt_coe_of_pos (by positivity : 0 < v + e)]
    exact (((hγ.at _).mul (isReal_sub (hy.at _) (hμ.at _))).mul (IsReal.coe _)).add (hβ.at _)

end

/-- The layer's output is real when its pre-activation (rectified), its scale and its shift are. -/
theorem allReal_refLayer3 {x : FVec Ideal S50000x64 .f32} {w : FVec Ideal S64x128 .f32} {b γ β : FVec Ideal S128 .f32}
    {src dst : IVec S450000 32} {wgt : FVec Ideal S450000 .f32}
    (hact : AllReal (act3 x w b src dst wgt)) (hγ : AllReal γ) (hβ : AllReal β) :
    AllReal (refLayer3 x w b γ β src dst wgt) :=
  allReal_norm3 hact (allReal_mean3 hact) (fun j => var3_real _ hact j) hγ hβ

end Cert.ReferenceIdeal.HandRun

end
-- ==== Proof.RefMath3Agg.lean ====
import proofs.«107715_j23149873725632_1_alg».proof.Proof.RefMath3Real
import proofs.«107715_j23149873725632_1_alg».proof.Proof.RefMath1Agg

/-! Realness through layer 3's aggregation over the edges, and of the layer's pre-activation and output from its float
    inputs: RefMath1Agg.lean's statements at width 128. -/

set_option maxRecDepth 8192

noncomputable section

namespace Cert.ReferenceIdeal.HandRun

open Cert.ReferenceIdeal Cert.ReferenceIdeal.Gen Idealize.ShloMosaic Idealize.ShloMosaic.ValueIdx
open Cert.LibRealMatrix (IsReal)

/-- The aggregate over the dimension records spelt as row scatter and row gather (for any float values). -/
theorem agg3_rows {F : FTy → Type} [FloatOps F] (h : FVec F S50000x128 .f32) (wgt : FVec F S450000 .f32) (src dst : IVec S450000 32) :
    agg3 (F := F) h wgt src dst
      = Host.scatterAdd (F := F) (Cert.LibRowScatterAdd.rowDims 50000 450000 128 scatter_S50000x128_S450000x1_S450000x128_1_0_0_1_wf)
          (broadcastInDim S50000x128 ![] bcast_S_S50000x128 (constant (F := F) S_ .f32 0x00000000#32))
          (broadcastInDim S450000x1 ![0] bcast_S450000_S450000x1_0 dst)
          (mulf (broadcastInDim S450000x128 ![0, 1] bcast_S450000x1_S450000x128_0_1 (broadcastInDim S450000x1 ![0] bcast_S450000_S450000x1_0 wgt))
            (Host.gather (Cert.LibRowGather.rowDims 50000 450000 128 gather_S50000x128_S450000x1_S450000x128_1_0_n_n_0_1_1128_wf) h (wrapIdx src))) := rfl

theorem allReal_agg3 {h : FVec Ideal S50000x128 .f32} {wgt : FVec Ideal S450000 .f32} {src dst : IVec S450000 32}
    (hh : AllReal h) (hw : AllReal wgt) : AllReal (agg3 (F := Ideal) h wgt src dst) :=
  AllReal.of_ix2 fun v k => by
    rw [agg3_rows, scatterAdd_ideal, Cert.LibRowScatterAdd.rowScatterAdd_apply]
    refine IsReal.add ?_ (IsReal.sum _ fun e => ?_)
    · rw [broadcastInDim_scalar_apply, constant_apply, Ideal.ofBits_zero_f32]; exact IsReal.zero
    · rw [mulf_apply, Cert.LibBcast.colOverLanes_apply, Cert.LibBcast.vecAsCol_apply,
        Cert.LibRowGather.rowGather_apply (by norm_num : 0 < 50000)]
      exact (hw.at _).mul (hh.at _)

/-- The layer's pre-activation (rectified) is real-valued when its input, the weights, the bias and the edge weights are. -/
theorem allReal_act3 (x : FVec Ideal S50000x64 .f32) (w : FVec Ideal S64x128 .f32) (b : FVec Ideal S128 .f32)
    (src dst : IVec S450000 32) (wgt : FVec Ideal S450000 .f32)
    (hx : AllReal x) (hw : AllReal w) (hb : AllReal b) (hwgt : AllReal wgt) : AllReal (act3 x w b src dst wgt) :=
  allReal_relu3 (allReal_pre3 (allReal_agg3 (allReal_lin3 hx hw) hwgt) hb)

/-- … and then so is the layer's output, the scale and the shift being real-valued too. -/
theorem allReal_layer3 {x : FVec Ideal S50000x64 .f32} {w : FVec Ideal S64x128 .f32} {b γ β : FVec Ideal S128 .f32}
    {src dst : IVec S450000 32} {wgt : FVec Ideal S450000 .f32}
    (hx : AllReal x) (hw : AllReal w) (hb : AllReal b) (hγ : AllReal γ) (hβ : AllReal β) (hwgt : AllReal wgt) :
    AllReal (refLayer3 x w b γ β src dst wgt) :=
  allReal_refLayer3 (allReal_act3 x w b src dst wgt hx hw hb hwgt) hγ hβ

end Cert.ReferenceIdeal.HandRun

end
-- ==== Proof.RefMath4Real.lean ====
import proofs.«107715_j23149873725632_1_alg».proof.Proof.RefMath4Stats
import proofs.«107715_j23149873725632_1_alg».proof.Proof.RefMath1Real

/-! Realness through layer 4's pointwise sub-stages: RefMath1Real.lean's statements at width 128 (the general lemmas are
    layer 1's). -/

set_option maxRecDepth 8192

noncomputable section

namespace Cert.ReferenceIdeal.HandRun

open Cert.ReferenceIdeal Cert.ReferenceIdeal.Gen Idealize.ShloMosaic Idealize.ShloMosaic.ValueIdx
open Cert.LibRealMatrix (IsReal)

section
variable {x : FVec Ideal S50000x128 .f32} {w : FVec Ideal S128x128 .f32} {a z y : FVec Ideal S50000x128 .f32}
  {b μ σ2 γ β : FVec Ideal S128 .f32}

theorem allReal_lin4 (hx : AllReal x) (hw : AllReal w) : AllReal (lin4 x w) :=
  AllReal.of_ix2 fun r j => by rw [lin4_apply]; exact IsReal.sum _ fun k => (hx.at _).mul (hw.at _)

theorem allReal_pre4 (ha : AllReal a) (hb : AllReal b) : AllReal (pre4 a b) :=
  AllReal.of_ix2 fun r j => by rw [pre4_apply]; exact (ha.at _).add (hb.at _)

theorem allReal_relu4 (hz : AllReal z) : AllReal (relu4 z) :=
  AllReal.of_ix2 fun r j => by rw [relu4_apply]; exact (hz.at _).max IsReal.zero

theorem allReal_mean4 (hy : AllReal y) : AllReal (mean4 y) := AllReal.of_ix1 fun j => mean4_real y hy j

theorem allReal_var4 (hy : AllReal y) : AllReal (var4 y) :=
  AllReal.of_ix1 fun j => let ⟨v, _, h⟩ := var4_real y hy j; ⟨v, h⟩

/-- The normalisation of real data by a real mean, a nonnegative real variance and real scale and shift is real. -/
theorem allReal_norm4 (hy : AllReal y) (hμ : AllReal μ) (hσ : ∀ j, ∃ v : ℝ, 0 ≤ v ∧ σ2 (ix1 j) = (v : EReal))
    (hγ : AllReal γ) (hβ : AllReal β) : AllReal (norm4 y μ σ2 γ β) :=
  AllReal.of_ix2 fun r j => by
    rw [norm4_apply]
    obtain ⟨v, hv, hσj⟩ := hσ j
    obtain ⟨e, he, hε⟩ := ofBits_eps
    rw [hσj, hε, ← EReal.coe_add, rsqrt_coe_of_pos (by positivity : 0 < v + e)]
    exact (((hγ.at _).mul (isReal_sub (hy.at _) (hμ.at _))).mul (IsReal.coe _)).add (hβ.at _)

end

/-- The layer's output is real when its pre-activation (not yet rectified), its scale and its shift are. -/
theorem allReal_refLayer4 {x : FVec Ideal S50000x128 .f32} {w : FVec Ideal S128x128 .f32} {b γ β : FVec Ideal S128 .f32}
    {src dst : IVec S450000 32} {wgt : FVec Ideal S450000 .f32}
    (hact : AllReal (act4 x w b src dst wgt)) (hγ : AllReal γ) (hβ : AllReal β) :
    AllReal (refLayer4 x w b γ β src dst wgt) :=
  allReal_relu4 (allReal_norm4 hact (allReal_mean4 hact) (fun j => var4_real _ hact j) hγ hβ)

end Cert.ReferenceIdeal.HandRun

end
-- ==== Proof.RefMath4Agg.lean ====
import proofs.«107715_j23149873725632_1_alg».proof.Proof.RefMath4Real
import proofs.«107715_j23149873725632_1_alg».proof.Proof.RefMath1Agg

/-! Realness through layer 4's aggregation over the edges, and of the layer's pre-activation and output from its float
    inputs: RefMath1Agg.lean's statements at width 128. -/

set_option maxRecDepth 8192

noncomputable section

namespace Cert.ReferenceIdeal.HandRun

open Cert.ReferenceIdeal Cert.ReferenceIdeal.Gen Idealize.ShloMosaic Idealize.ShloMosaic.ValueIdx
open Cert.LibRealMatrix (IsReal)

/-- The aggregate over the dimension records spelt as row scatter and row gather (for any float values). -/
theorem agg4_rows {F : FTy → Type} [FloatOps F] (h : FVec F S50000x128 .f32) (wgt : FVec F S450000 .f32) (src dst : IVec S450000 32) :
    agg4 (F := F) h wgt src dst
      = Host.scatterAdd (F := F) (Cert.LibRowScatterAdd.rowDims 50000 450000 128 scatter_S50000x128_S450000x1_S450000x128_1_0_0_1_wf)
          (broadcastInDim S50000x128 ![] bcast_S_S50000x128 (constant (F := F) S_ .f32 0x00000000#32))
          (broadcastInDim S450000x1 ![0] bcast_S450000_S450000x1_0 dst)
          (mulf (broadcastInDim S450000x128 ![0, 1] bcast_S450000x1_S450000x128_0_1 (broadcastInDim S450000x1 ![0] bcast_S450000_S450000x1_0 wgt))
            (Host.gather (Cert.LibRowGather.rowDims 50000 450000 128 gather_S50000x128_S450000x1_S450000x128_1_0_n_n_0_1_1128_wf) h (wrapIdx src))) := rfl

theorem allReal_agg4 {h : FVec Ideal S50000x128 .f32} {wgt : FVec Ideal S450000 .f32} {src dst : IVec S450000 32}
    (hh : AllReal h) (hw : AllReal wgt) : AllReal (agg4 (F := Ideal) h wgt src dst) :=
  AllReal.of_ix2 fun v k => by
    rw [agg4_rows, scatterAdd_ideal, Cert.LibRowScatterAdd.rowScatterAdd_apply]
    refine IsReal.add ?_ (IsReal.sum _ fun e => ?_)
    · rw [broadcastInDim_scalar_apply, constant_apply, Ideal.ofBits_zero_f32]; exact IsReal.zero
    · rw [mulf_apply, Cert.LibBcast.colOverLanes_apply, Cert.LibBcast.vecAsCol_apply,
        Cert.LibRowGather.rowGather_apply (by norm_num : 0 < 50000)]
      exact (hw.at _).mul (hh.at _)

/-- The layer's pre-activation (not yet rectified) is real-valued when its input, the weights, the bias and the edge weights are. -/
theorem allReal_act4 (x : FVec Ideal S50000x128 .f32) (w : FVec Ideal S128x128 .f32) (b : FVec Ideal S128 .f32)
    (src dst : IVec S450000 32) (wgt : FVec Ideal S450000 .f32)
    (hx : AllReal x) (hw : AllReal w) (hb : AllReal b) (hwgt : AllReal wgt) : AllReal (act4 x w b src dst wgt) :=
  allReal_pre4 (allReal_agg4 (allReal_lin4 hx hw) hwgt) hb

/-- … and then so is the layer's output, the scale and the shift being real-valued too. -/
theorem allReal_layer4 {x : FVec Ideal S50000x128 .f32} {w : FVec Ideal S128x128 .f32} {b γ β : FVec Ideal S128 .f32}
    {src dst : IVec S450000 32} {wgt : FVec Ideal S450000 .f32}
    (hx : AllReal x) (hw : AllReal w) (hb : AllReal b) (hγ : AllReal γ) (hβ : AllReal β) (hwgt : AllReal wgt) :
    AllReal (refLayer4 x w b γ β src dst wgt) :=
  allReal_refLayer4 (allReal_act4 x w b src dst wgt hx hw hb hwgt) hγ hβ

end Cert.ReferenceIdeal.HandRun

end
-- ==== Proof.RefMath5Real.lean ====
import proofs.«107715_j23149873725632_1_alg».proof.Proof.RefMath5Stats
import proofs.«107715_j23149873725632_1_alg».proof.Proof.RefMath1Real

/-! Realness through layer 5's pointwise sub-stages: RefMath1Real.lean's statements at width 256 (the general lemmas are
    layer 1's). -/

set_option maxRecDepth 8192

noncomputable section

namespace Cert.ReferenceIdeal.HandRun

open Cert.ReferenceIdeal Cert.ReferenceIdeal.Gen Idealize.ShloMosaic Idealize.ShloMosaic.ValueIdx
open Cert.LibRealMatrix (IsReal)

section
variable {x : FVec Ideal S50000x128 .f32} {w : FVec Ideal S128x256 .f32} {a z y : FVec Ideal S50000x256 .f32}
  {b μ σ2 γ β : FVec Ideal S256 .f32}

theorem allReal_lin5 (hx : AllReal x) (hw : AllReal w) : AllReal (lin5 x w) :=
  AllReal.of_ix2 fun r j => by rw [lin5_apply]; exact IsReal.sum _ fun k => (hx.at _).mul (hw.at _)

theorem allReal_pre5 (ha : AllReal a) (hb : AllReal b) : AllReal (pre5 a b) :=
  AllReal.of_ix2 fun r j => by rw [pre5_apply]; exact (ha.at _).add (hb.at _)

theorem allReal_relu5 (hz : AllReal z) : AllReal (relu5 z) :=
  AllReal.of_ix2 fun r j => by rw [relu5_apply]; exact (hz.at _).max IsReal.zero

theorem allReal_mean5 (hy : AllReal y) : AllReal (mean5 y) := AllReal.of_ix1 fun j => mean5_real y hy j

theorem allReal_var5 (hy : AllReal y) : AllReal (var5 y) :=
  AllReal.of_ix1 fun j => let ⟨v, _, h⟩ := var5_real y hy j; ⟨v, h⟩

/-- The normalisation of real data by a real mean, a nonnegative real variance and real scale and shift is real. -/
theorem allReal_norm5 (hy : AllReal y) (hμ : AllReal μ) (hσ : ∀ j, ∃ v : ℝ, 0 ≤ v ∧ σ2 (ix1 j) = (v : EReal))
    (hγ : AllReal γ) (hβ : AllReal β) : AllReal (norm5 y μ σ2 γ β) :=
  AllReal.of_ix2 fun r j => by
    rw [norm5_apply]
    obtain ⟨v, hv, hσj⟩ := hσ j
    obtain ⟨e, he, hε⟩ := ofBits_eps
    rw [hσj, hε, ← EReal.coe_add, rsqrt_coe_of_pos (by positivity : 0 < v + e)]
    exact (((hγ.at _).mul (isReal_sub (hy.at _) (hμ.at _))).mul (IsReal.coe _)).add (hβ.at _)

end

/-- The layer's output is real when its pre-activation (not yet rectified), its scale and its shift are. -/
theorem allReal_refLayer5 {x : FVec Ideal S50000x128 .f32} {w : FVec Ideal S128x256 .f32} {b γ β : FVec Ideal S256 .f32}
    {src dst : IVec S450000 32} {wgt : FVec Ideal S450000 .f32}
    (hact : AllReal (act5 x w b src dst wgt)) (hγ : AllReal γ) (hβ : AllReal β) :
    AllReal (refLayer5 x w b γ β src dst wgt) :=
  allReal_relu5 (allReal_norm5 hact (allReal_mean5 hact) (fun j => var5_real _ hact j) hγ hβ)

end Cert.ReferenceIdeal.HandRun

end
-- ==== Proof.RefMath5Agg.lean ====
import proofs.«107715_j23149873725632_1_alg».proof.Proof.RefMath5Real
import proofs.«107715_j23149873725632_1_alg».proof.Proof.RefMath1Agg

/-! Realness through layer 5's aggregation over the edges, and of the layer's pre-activation and output from its float
    inputs: RefMath1Agg.lean's statements at width 256. -/

set_option maxRecDepth 8192

noncomputable section

namespace Cert.ReferenceIdeal.HandRun

open Cert.ReferenceIdeal Cert.ReferenceIdeal.Gen Idealize.ShloMosaic Idealize.ShloMosaic.ValueIdx
open Cert.LibRealMatrix (IsReal)

/-- The aggregate over the dimension records spelt as row scatter and row gather (for any float values). -/
theorem agg5_rows {F : FTy → Type} [FloatOps F] (h : FVec F S50000x256 .f32) (wgt : FVec F S450000 .f32) (src dst : IVec S450000 32) :
    agg5 (F := F) h wgt src dst
      = Host.scatterAdd (F := F) (Cert.LibRowScatterAdd.rowDims 50000 450000 256 scatter_S50000x256_S450000x1_S450000x256_1_0_0_1_wf)
          (broadcastInDim S50000x256 ![] bcast_S_S50000x256 (constant (F := F) S_ .f32 0x00000000#32))
          (broadcastInDim S450000x1 ![0] bcast_S450000_S450000x1_0 dst)
          (mulf (broadcastInDim S450000x256 ![0, 1] bcast_S450000x1_S450000x256_0_1 (broadcastInDim S450000x1 ![0] bcast_S450000_S450000x1_0 wgt))
            (Host.gather (Cert.LibRowGather.rowDims 50000 450000 256 gather_S50000x256_S450000x1_S450000x256_1_0_n_n_0_1_1256_wf) h (wrapIdx src))) := rfl

theorem allReal_agg5 {h : FVec Ideal S50000x256 .f32} {wgt : FVec Ideal S450000 .f32} {src dst : IVec S450000 32}
    (hh : AllReal h) (hw : AllReal wgt) : AllReal (agg5 (F := Ideal) h wgt src dst) :=
  AllReal.of_ix2 fun v k => by
    rw [agg5_rows, scatterAdd_ideal, Cert.LibRowScatterAdd.rowScatterAdd_apply]
    refine IsReal.add ?_ (IsReal.sum _ fun e => ?_)
    · rw [broadcastInDim_scalar_apply, constant_apply, Ideal.ofBits_zero_f32]; exact IsReal.zero
    · rw [mulf_apply, Cert.LibBcast.colOverLanes_apply, Cert.LibBcast.vecAsCol_apply,
        Cert.LibRowGather.rowGather_apply (by norm_num : 0 < 50000)]
      exact (hw.at _).mul (hh.at _)

/-- The layer's pre-activation (not yet rectified) is real-valued when its input, the weights, the bias and the edge weights are. -/
theorem allReal_act5 (x : FVec Ideal S50000x128 .f32) (w : FVec Ideal S128x256 .f32) (b : FVec Ideal S256 .f32)
    (src dst : IVec S450000 32) (wgt : FVec Ideal S450000 .f32)
    (hx : AllReal x) (hw : AllReal w) (hb : AllReal b) (hwgt : AllReal wgt) : AllReal (act5 x w b src dst wgt) :=
  allReal_pre5 (allReal_agg5 (allReal_lin5 hx hw) hwgt) hb

/-- … and then so is the layer's output, the scale and the shift being real-valued too. -/
theorem allReal_layer5 {x : FVec Ideal S50000x128 .f32} {w : FVec Ideal S128x256 .f32} {b γ β : FVec Ideal S256 .f32}
    {src dst : IVec S450000 32} {wgt : FVec Ideal S450000 .f32}
    (hx : AllReal x) (hw : AllReal w) (hb : AllReal b) (hγ : AllReal γ) (hβ : AllReal β) (hwgt : AllReal wgt) :
    AllReal (refLayer5 x w b γ β src dst wgt) :=
  allReal_refLayer5 (allReal_act5 x w b src dst wgt hx hw hb hwgt) hγ hβ

end Cert.ReferenceIdeal.HandRun

end
-- ==== Proof.RefMathEdge.lean ====
import proofs.«107715_j23149873725632_1_alg».proof.Proof.RefMath1Real
import proofs.«107715_j23149873725632_1_alg».proof.Proof.RefOpsRead0
import proofs.«107715_j23149873725632_1_alg».proof.Proof.LibRowGather
import proofs.«107715_j23149873725632_1_alg».proof.Proof.LibRowScatterAdd

/-! Realness of the normalised edge weights: the weights with the self loops' ones appended are real-valued when the
    given weights are (an entry of a concatenation is an entry of a piece); the degrees are zero plus finite sums of
    them; the guarded inverse square root of a real degree is real (its reciprocal square root where the degree is
    positive, zero elsewhere); a gathered entry is an entry of the operand; and the normalised weight is a product of
    three such reals. -/

set_option maxRecDepth 8192

noncomputable section

namespace Cert.ReferenceIdeal.HandRun

open Cert.ReferenceIdeal Cert.ReferenceIdeal.Gen Idealize.ShloMosaic Idealize.ShloMosaic.ValueIdx
open Cert.LibRealMatrix (IsReal)

/-- An entry of a concatenation of real-valued pieces is real: it is an entry of one of the pieces. -/
theorem isReal_concatenate {t : Shape} (a : Fin t.rank) (xs : List ((s : Shape) × (s.Idx → EReal)))
    (h : Shape.Concatenates (xs.map (·.1)) t a) (hx : ∀ p ∈ xs, ∀ i, IsReal (p.2 i)) (j : t.Idx) :
    IsReal (concatenate t a xs h j) := by
  unfold concatenate
  exact hx _ (List.getElem_mem _) _

theorem isReal_one : IsReal (1 : EReal) := ⟨1, EReal.coe_one.symm⟩

/-- The weights with the self loops' ones appended are real-valued when the given weights are. -/
theorem allReal_wgtLoops {ew : FVec Ideal S400000x1 .f32} (hew : AllReal ew) : AllReal (wgtLoops ew) := fun j => by
  refine isReal_concatenate (t := S450000) (0 : Fin 1)
    [⟨S400000, shapeCast S400000 ew shapeCasts_S400000x1_S400000⟩,
     ⟨S50000, broadcastInDim S50000 ![] bcast_S_S50000 (constant (F := Ideal) S_ .f32 0x3F800000#32)⟩]
    concatenates_S400000_S50000_S450000_d0 (fun p hp i => ?_) j
  rcases List.mem_cons.mp hp with rfl | hp
  · show IsReal (shapeCast S400000 ew shapeCasts_S400000x1_S400000 i)
    unfold shapeCast
    exact hew.at _
  · rcases List.mem_cons.mp hp with rfl | hp
    · show IsReal (broadcastInDim S50000 ![] bcast_S_S50000 (constant (F := Ideal) S_ .f32 0x3F800000#32) i)
      rw [broadcastInDim_scalar_apply, constant_apply, Ideal.ofBits_one_f32]
      exact isReal_one
    · exact absurd hp (List.not_mem_nil)

theorem zeroNodes_apply (i : S50000.Idx) : zeroNodes (F := Ideal) i = 0 := by
  show broadcastInDim S50000 ![] bcast_S_S50000 (constant (F := Ideal) S_ .f32 0x00000000#32) i = _
  rw [broadcastInDim_scalar_apply, constant_apply, Ideal.ofBits_zero_f32]

/-- The weighted in-degrees are real-valued when the weights are. -/
theorem scatterAdd_ideal' {s si u : Shape} {w : ℕ} {φ : FTy} (d : ScatterDims s si u) (x : FVec Ideal s φ) (idx : IVec si w)
    (upd : FVec Ideal u φ) : Host.scatterAdd (F := Ideal) d x idx upd = Ideal.hostScatterAdd d x idx upd := rfl

/-- The degrees over the dimension record spelt as a vector scatter (for any float values). -/
theorem degree_vec {F : FTy → Type} [FloatOps F] (ei : IVec S2x400000 32) (ew : FVec F S400000x1 .f32) :
    degree (F := F) ei ew
      = Host.scatterAdd (F := F) (Cert.LibRowScatterAdd.vecDims 50000 450000 scatter_S50000_S450000x1_S450000_n_0_0_1_wf)
          (zeroNodes (F := F)) (broadcastInDim S450000x1 ![0] bcast_S450000_S450000x1_0 (dstIdx ei)) (wgtLoops ew) := rfl

theorem allReal_degree {ei : IVec S2x400000 32} {ew : FVec Ideal S400000x1 .f32} (hew : AllReal ew) :
    AllReal (degree (F := Ideal) ei ew) :=
  AllReal.of_ix1 fun v => by
    rw [degree_vec, scatterAdd_ideal', Cert.LibRowScatterAdd.vecScatterAdd_apply, zeroNodes_apply]
    exact IsReal.zero.add (IsReal.sum _ fun e => (allReal_wgtLoops hew).at _)

/-- The guarded inverse square root of a real-valued vector is real-valued. -/
theorem allReal_dinv {d : FVec Ideal S50000 .f32} (hd : AllReal d) : AllReal (dinv d) := fun i => by
  obtain ⟨r, hr⟩ := hd i
  show IsReal (Scalar.select (Ideal.cmp .ogt (d i) (zeroNodes (F := Ideal) i))
    (Ideal.rsqrt (Scalar.select (Ideal.cmp .ogt (d i) (zeroNodes (F := Ideal) i)) (d i)
      (broadcastInDim S50000 ![] bcast_S_S50000 (id (constant (F := Ideal) S_ .f32 0x3F800000#32)) i)))
    (broadcastInDim S50000 ![] bcast_S_S50000 (id (constant (F := Ideal) S_ .f32 0x00000000#32)) i))
  rw [zeroNodes_apply, hr]
  by_cases hpos : 0 < r
  · rw [show Ideal.cmp .ogt ((r : ℝ) : EReal) 0 = 1#1 from (cmp_ogt_coe_zero r).mpr hpos, select_one, select_one, rsqrt_coe_of_pos hpos]
    exact IsReal.coe _
  · have hc : Ideal.cmp .ogt ((r : ℝ) : EReal) 0 = 0#1 := eq_zero_of_ne_one fun h => hpos ((cmp_ogt_coe_zero r).mp h)
    rw [hc, select_zero, broadcastInDim_scalar_apply]
    show IsReal (constant (F := Ideal) S_ .f32 0x00000000#32 ix0)
    rw [constant_apply, Ideal.ofBits_zero_f32]
    exact IsReal.zero

/-- An entry gathered from a real-valued vector is real. -/
theorem gather_vec {α : Type} (x : S50000.Idx → α) (idx : IVec S450000x1 32) :
    Host.gather gather_S50000_S450000x1_S450000_n_0_n_n_0_1_1 x idx
      = Host.gather (Cert.LibRowGather.vecDims 50000 450000 gather_S50000_S450000x1_S450000_n_0_n_n_0_1_1_wf) x idx := rfl

theorem isReal_gatherVec {x : FVec Ideal S50000 .f32} (hx : AllReal x) (idx : IVec S450000x1 32) (e : Fin 450000) :
    IsReal (Host.gather gather_S50000_S450000x1_S450000_n_0_n_n_0_1_1 x idx (ix1 e)) := by
  rw [gather_vec, Cert.LibRowGather.vecGather_apply (by norm_num : 0 < 50000)]
  exact hx.at _

/-- The normalised edge weights are real-valued when the given edge weights are. -/
theorem allReal_edgeNorm (ei : IVec S2x400000 32) (ew : FVec Ideal S400000x1 .f32) (hew : AllReal ew) :
    AllReal (edgeNorm (F := Ideal) ei ew) :=
  AllReal.of_ix1 fun e => by
    show IsReal (mulf (mulf (Host.gather gather_S50000_S450000x1_S450000_n_0_n_n_0_1_1 (dinv (degree (F := Ideal) ei ew)) (wrapIdx (srcIdx ei)))
        (wgtLoops ew))
      (Host.gather gather_S50000_S450000x1_S450000_n_0_n_n_0_1_1 (dinv (degree (F := Ideal) ei ew)) (wrapIdx (dstIdx ei))) (ix1 e))
    rw [mulf_apply, mulf_apply]
    exact ((isReal_gatherVec (allReal_dinv (allReal_degree hew)) _ e).mul ((allReal_wgtLoops hew).at _)).mul
      (isReal_gatherVec (allReal_dinv (allReal_degree hew)) _ e)

end Cert.ReferenceIdeal.HandRun

end
-- ==== Proof.HeadDense.lean ====
import proofs.«107715_j23149873725632_1_alg».proof.Proof.RegH15
import proofs.«107715_j23149873725632_1_alg».proof.Proof.RegH16
import proofs.«107715_j23149873725632_1_alg».proof.Proof.RefOpsRead6
import proofs.«107715_j23149873725632_1_alg».proof.Proof.LibDotRows
import proofs.«107715_j23149873725632_1_alg».proof.Proof.LibBcast
import Idealize.ShloMosaic.Lib.IdealHost
import Idealize.ShloMosaic.Lib.ValueLayout

/-! The kernel program's two head regions compose to the reference's head: entry by entry both are
    (Σ_k max((Σ_k' X(r,k')·W₁(k',k)) + b₁(k), 0) · W₂(k,q)) + b₂(q), the biases read through their one-row layouts on the
    kernel side and through their broadcasts on the reference side, and the last step reads the 50000 × 1 column as a
    vector on both sides. -/

set_option maxRecDepth 8192

noncomputable section

namespace Cert.Bridge

open Cert.KernelIdeal Cert.KernelIdeal.Gen Idealize.ShloMosaic Idealize.ShloMosaic.ValueIdx
open Cert.KernelIdeal.RegVal (dense15 dense16 zeroWH15)
open Cert.ReferenceIdeal.HandRun (head)

theorem zeroWH15_eq : zeroWH15 = 0 := by
  unfold zeroWH15
  exact Ideal.ofBits_zero_f32

/-- The reference's first dense layer, rectified, at an entry. -/
theorem refDense1_apply (X : FVec Ideal S50000x256 .f32) (w₁ : FVec Ideal S256x128 .f32) (b₁ : FVec Ideal S128 .f32)
    (r : Fin 50000) (k : Fin 128) :
    maximumf
        (addf (Host.dotGeneral (F := Ideal) Cert.ReferenceIdeal.dot_S50000x256_S256x128_S50000x128_1_0_0_1_n_n none X w₁)
          (broadcastInDim Cert.ReferenceIdeal.S50000x128 ![0, 1] Cert.ReferenceIdeal.Gen.bcast_S1x128_S50000x128_0_1
            (broadcastInDim Cert.ReferenceIdeal.S1x128 ![1] Cert.ReferenceIdeal.Gen.bcast_S128_S1x128_1 b₁)))
        (broadcastInDim Cert.ReferenceIdeal.S50000x128 ![] Cert.ReferenceIdeal.Gen.bcast_S_S50000x128
          (constant (F := Ideal) Cert.ReferenceIdeal.S_ .f32 0x00000000#32)) (ix2 r k)
      = max ((∑ k' : Fin 256, X (ix2 r k') * w₁ (ix2 k' k)) + b₁ (ix1 k)) 0 := by
  rw [maximumf_apply, addf_apply, broadcastInDim_scalar_apply, constant_apply, Ideal.ofBits_zero_f32,
    Cert.LibBcast.rowDownRows_apply, Cert.LibBcast.vecAsRow_apply]
  exact congrArg (fun s => max (s + b₁ (ix1 k)) 0)
    (Cert.LibDotRows.dot_rows_cols Cert.ReferenceIdeal.Gen.dot_S50000x256_S256x128_S50000x128_1_0_0_1_n_n_wf none X w₁ r k)

/-- The two dense regions of the kernel program, then the column read as a vector, are the reference's head. -/
theorem head_dense (X : FVec Ideal S50000x256 .f32) (w₁ : FVec Ideal S256x128 .f32) (b₁ : FVec Ideal S128 .f32)
    (w₂ : FVec Ideal S128x1 .f32) (b₂ : FVec Ideal S1 .f32) :
    shapeCast S50000 (dense16 (dense15 X w₁ (shapeCast S1x128 b₁ shapeCasts_S128_S1x128)) w₂ (shapeCast S1x1 b₂ shapeCasts_S1_S1x1))
        shapeCasts_S50000x1_S50000
      = head (F := Ideal) X w₁ b₁ w₂ b₂ := by
  have hcol : dense16 (dense15 X w₁ (shapeCast S1x128 b₁ shapeCasts_S128_S1x128)) w₂ (shapeCast S1x1 b₂ shapeCasts_S1_S1x1)
      = addf
          (Host.dotGeneral (F := Ideal) Cert.ReferenceIdeal.dot_S50000x128_S128x1_S50000x1_1_0_0_1_n_n none
            (maximumf
              (addf (Host.dotGeneral (F := Ideal) Cert.ReferenceIdeal.dot_S50000x256_S256x128_S50000x128_1_0_0_1_n_n none X w₁)
                (broadcastInDim Cert.ReferenceIdeal.S50000x128 ![0, 1] Cert.ReferenceIdeal.Gen.bcast_S1x128_S50000x128_0_1
                  (broadcastInDim Cert.ReferenceIdeal.S1x128 ![1] Cert.ReferenceIdeal.Gen.bcast_S128_S1x128_1 b₁)))
              (broadcastInDim Cert.ReferenceIdeal.S50000x128 ![] Cert.ReferenceIdeal.Gen.bcast_S_S50000x128
                (constant (F := Ideal) Cert.ReferenceIdeal.S_ .f32 0x00000000#32)))
            w₂)
          (broadcastInDim Cert.ReferenceIdeal.S50000x1 ![0, 1] Cert.ReferenceIdeal.Gen.bcast_S1x1_S50000x1_0_1
            (broadcastInDim Cert.ReferenceIdeal.S1x1 ![1] Cert.ReferenceIdeal.Gen.bcast_S1_S1x1_1 b₂)) := by
    funext i
    obtain ⟨r, q, rfl⟩ : ∃ (r : Fin 50000) (q : Fin 1), i = ix2 r q := ⟨i 0, i 1, eq_ix2 i⟩
    rw [addf_apply, Cert.LibBcast.rowDownRows_apply, Cert.LibBcast.vecAsRow_apply]
    refine Eq.trans ?_ (congrArg (· + b₂ (ix1 q))
      (Cert.LibDotRows.dot_rows_cols Cert.ReferenceIdeal.Gen.dot_S50000x128_S128x1_S50000x1_1_0_0_1_n_n_wf none _ w₂ r q).symm)
    show (∑ k : Fin 128, dense15 X w₁ (shapeCast S1x128 b₁ shapeCasts_S128_S1x128) (ix2 r k) * w₂ (ix2 k q))
        + shapeCast S1x1 b₂ shapeCasts_S1_S1x1 (ix2 (0 : Fin 1) q) = _
    rw [shapeCast_a_1a_apply]
    refine congrArg (· + b₂ (ix1 q)) (Finset.sum_congr rfl fun k _ => congrArg (· * w₂ (ix2 k q)) ?_)
    rw [refDense1_apply]
    show max ((∑ k' : Fin 256, X (ix2 r k') * w₁ (ix2 k' k)) + shapeCast S1x128 b₁ shapeCasts_S128_S1x128 (ix2 (0 : Fin 1) k)) zeroWH15 = _
    rw [shapeCast_a_1a_apply, zeroWH15_eq]
  rw [hcol]
  rfl

end Cert.Bridge

end
-- ==== Proof.KerValue.lean ====
/-
  The kernel program's result as a function of the launch contents. Under the precondition every float argument
  is real-valued; so are the normalised edge weights, and then, layer after layer, the products, the aggregates,
  the activations, the means, the variances (which are nonnegative, so that variance + ε is positive and its inverse
  square root real) and the normalised features. With real activations each layer of the kernel is the reference's
  layer of the same input, and the two dense layers of the head agree entry by entry; so the result buffer at the
  last boundary holds the reference's network of the 27 arguments.
-/
import proofs.«107715_j23149873725632_1_alg».proof.Proof.KerLayers
import proofs.«107715_j23149873725632_1_alg».proof.Proof.KerChain6
import proofs.«107715_j23149873725632_1_alg».proof.Proof.RefOpsReadAll
import proofs.«107715_j23149873725632_1_alg».proof.Proof.RefMathPre
import proofs.«107715_j23149873725632_1_alg».proof.Proof.RefMath1Agg
import proofs.«107715_j23149873725632_1_alg».proof.Proof.RefMath2Agg
import proofs.«107715_j23149873725632_1_alg».proof.Proof.RefMath3Agg
import proofs.«107715_j23149873725632_1_alg».proof.Proof.RefMath4Agg
import proofs.«107715_j23149873725632_1_alg».proof.Proof.RefMath5Agg
import proofs.«107715_j23149873725632_1_alg».proof.Proof.RefMathEdge
import proofs.«107715_j23149873725632_1_alg».proof.Proof.HeadDense
import proofs.«107715_j23149873725632_1_alg».proof.Defs

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx
open Cert.ReferenceIdeal.HandRun (AllReal refOut allReal_edgeNorm allReal_act1 allReal_act2 allReal_act3 allReal_act4 allReal_act5
  allReal_refLayer1 allReal_refLayer2 allReal_refLayer3 allReal_refLayer4 allReal_refLayer5 srcIdx dstIdx edgeNorm)

variable (m : (ℓ : Loc nD τ sig) → Buf (Elt Ideal) ℓ) (ρ : Dev nD → PrngReg) (c : Dev nD)

set_option maxHeartbeats 4000000 in
/-- Under the precondition the result buffer at the last boundary holds the reference's network of the launch contents. -/
theorem kernel_value (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) = fun _ => 1#1) :
    W35 m ρ c (main_v165 : DevRef τ sig) = refOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  obtain ⟨h0, h2, h3, h4, h5, h6, h7, h8, h9, h10, h11, h12, h13, h14, h15, h16, h17, h18, h19, h20, h21, h22, h23, h24, h25, h26⟩ :=
    Cert.Pre_finite_inputs.Hand.allReal_of_pre _ _ _ _ _ _ _ _ _ _ _ _ _ _ _ _ _ _ _ _ _ _ _ _ _ _ _ hpre
  have hwgt := allReal_edgeNorm (m ((c : Thread nD τ).loc main_arg1)) (m ((c : Thread nD τ).loc main_arg2)) h2
  have ha1 := allReal_act1 _ _ _ (srcIdx (m ((c : Thread nD τ).loc main_arg1))) (dstIdx (m ((c : Thread nD τ).loc main_arg1))) _ h0 h3 h4 hwgt
  have e1 := layer1_value m ρ c ha1
  have hr1 := allReal_refLayer1 ha1 h5 h6
  have ha2 := allReal_act2 _ _ _ (srcIdx (m ((c : Thread nD τ).loc main_arg1))) (dstIdx (m ((c : Thread nD τ).loc main_arg1))) _ hr1 h7 h8 hwgt
  have e2 := layer2_value m ρ c _ e1 ha2
  have hr2 := allReal_refLayer2 ha2 h9 h10
  have ha3 := allReal_act3 _ _ _ (srcIdx (m ((c : Thread nD τ).loc main_arg1))) (dstIdx (m ((c : Thread nD τ).loc main_arg1))) _ hr2 h11 h12 hwgt
  have e3 := layer3_value m ρ c _ e2 ha3
  have hr3 := allReal_refLayer3 ha3 h13 h14
  have ha4 := allReal_act4 _ _ _ (srcIdx (m ((c : Thread nD τ).loc main_arg1))) (dstIdx (m ((c : Thread nD τ).loc main_arg1))) _ hr3 h15 h16 hwgt
  have e4 := layer4_value m ρ c _ e3 ha4
  have hr4 := allReal_refLayer4 ha4 h17 h18
  have ha5 := allReal_act5 _ _ _ (srcIdx (m ((c : Thread nD τ).loc main_arg1))) (dstIdx (m ((c : Thread nD τ).loc main_arg1))) _ hr4 h19 h20 hwgt
  have e5 := layer5_value m ρ c _ e4 ha5
  exact (W35_v165 m ρ c _ e5).trans (Cert.Bridge.head_dense _ _ _ _ _)

end Cert.KernelIdeal.Chain

end
-- ==== Proof.ProofKer.lean ====
/-
  The idealized kernel's side of the comparison: under the precondition its run ends with the result buffer at the
  reference's network of the launch contents of the 27 arguments, and with the arguments as launched.
-/
import proofs.«107715_j23149873725632_1_alg».proof.Defs
import proofs.«107715_j23149873725632_1_alg».proof.Proof.Gen.Pre_finite_inputs
import proofs.«107715_j23149873725632_1_alg».proof.Proof.KernelRun
import proofs.«107715_j23149873725632_1_alg».proof.Proof.KerValue

set_option maxRecDepth 16384

noncomputable section

namespace Cert.Proof

open Idealize.ShloMosaic Idealize.SL.Sem

set_option maxHeartbeats 4000000 in
theorem ker_side (m : (ℓ : Loc Cert.KernelIdeal.nD Cert.KernelIdeal.τ Cert.KernelIdeal.sig) → Buf (Elt Ideal) ℓ)
    (g : Dev Cert.KernelIdeal.nD → PrngReg)
    (hpre : Cert.Pre_KernelIdeal (hPre_finite_inputs := Cert.Pre_finite_inputs.Gen.facts) m) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v165)
          = Cert.ReferenceIdeal.HandRun.refOut (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))
          (m ((c.tc : Thread Cert.KernelIdeal.nD Cert.KernelIdeal.τ).loc Cert.KernelIdeal.main_arg16))
          (m ((c.tc : Thread Cert.KernelIdeal.nD Cert.KernelIdeal.τ).loc Cert.KernelIdeal.main_arg17))
          (m ((c.tc : Thread Cert.KernelIdeal.nD Cert.KernelIdeal.τ).loc Cert.KernelIdeal.main_arg18))
          (m ((c.tc : Thread Cert.KernelIdeal.nD Cert.KernelIdeal.τ).loc Cert.KernelIdeal.main_arg19))
          (m ((c.tc : Thread Cert.KernelIdeal.nD Cert.KernelIdeal.τ).loc Cert.KernelIdeal.main_arg20))
          (m ((c.tc : Thread Cert.KernelIdeal.nD Cert.KernelIdeal.τ).loc Cert.KernelIdeal.main_arg21))
          (m ((c.tc : Thread Cert.KernelIdeal.nD Cert.KernelIdeal.τ).loc Cert.KernelIdeal.main_arg22))
          (m ((c.tc : Thread Cert.KernelIdeal.nD Cert.KernelIdeal.τ).loc Cert.KernelIdeal.main_arg23))
          (m ((c.tc : Thread Cert.KernelIdeal.nD Cert.KernelIdeal.τ).loc Cert.KernelIdeal.main_arg24))
          (m ((c.tc : Thread Cert.KernelIdeal.nD Cert.KernelIdeal.τ).loc Cert.KernelIdeal.main_arg25))
          (m ((c.tc : Thread Cert.KernelIdeal.nD Cert.KernelIdeal.τ).loc Cert.KernelIdeal.main_arg26))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)) :=
  (θ_run (Cert.KernelIdeal.defs (F := Ideal)) _ _).mono
    (fun r h c => ⟨(h c).1.trans (Cert.KernelIdeal.Chain.kernel_value m g c (hpre c)), (h c).2⟩)
    (Cert.KernelIdeal.Named.run_named (F := Ideal) m g)

end Cert.Proof

end
-- ==== Proof.ProofRef.lean ====
/-
  The idealized reference's side of the comparison: from a memory agreeing with the kernel's on the 27 arguments,
  its run ends with the result buffer at its network of those arguments — a function of the arguments alone — and
  with the arguments as launched.
-/
import proofs.«107715_j23149873725632_1_alg».proof.Defs
import proofs.«107715_j23149873725632_1_alg».proof.Proof.RefRun
import proofs.«107715_j23149873725632_1_alg».proof.Proof.RefOpsReadAll

set_option maxRecDepth 16384

noncomputable section

namespace Cert.Proof

open Idealize.ShloMosaic Idealize.SL.Sem

section RefOutCongr
open Cert.ReferenceIdeal

/-- The reference's network is a function of its 27 arguments. -/
theorem refOut_congr
    {x x' : FVec Ideal S50000x32 .f32} {ei ei' : IVec S2x400000 32} {ew ew' : FVec Ideal S400000x1 .f32} {w1 w1' : FVec Ideal S32x32 .f32} {b1 b1' : FVec Ideal S32 .f32} {g1 g1' : FVec Ideal S32 .f32} {be1 be1' : FVec Ideal S32 .f32} {w2 w2' : FVec Ideal S32x64 .f32} {b2 b2' : FVec Ideal S64 .f32} {g2 g2' : FVec Ideal S64 .f32} {be2 be2' : FVec Ideal S64 .f32} {w3 w3' : FVec Ideal S64x128 .f32} {b3 b3' : FVec Ideal S128 .f32} {g3 g3' : FVec Ideal S128 .f32} {be3 be3' : FVec Ideal S128 .f32} {w4 w4' : FVec Ideal S128x128 .f32} {b4 b4' : FVec Ideal S128 .f32} {g4 g4' : FVec Ideal S128 .f32} {be4 be4' : FVec Ideal S128 .f32} {w5 w5' : FVec Ideal S128x256 .f32} {b5 b5' : FVec Ideal S256 .f32} {g5 g5' : FVec Ideal S256 .f32} {be5 be5' : FVec Ideal S256 .f32} {wh1 wh1' : FVec Ideal S256x128 .f32} {bh1 bh1' : FVec Ideal S128 .f32} {wh2 wh2' : FVec Ideal S128x1 .f32} {bh2 bh2' : FVec Ideal S1 .f32}
    (e0 : x = x') (e1 : ei = ei') (e2 : ew = ew') (e3 : w1 = w1') (e4 : b1 = b1') (e5 : g1 = g1') (e6 : be1 = be1') (e7 : w2 = w2') (e8 : b2 = b2') (e9 : g2 = g2') (e10 : be2 = be2') (e11 : w3 = w3') (e12 : b3 = b3') (e13 : g3 = g3') (e14 : be3 = be3') (e15 : w4 = w4') (e16 : b4 = b4') (e17 : g4 = g4') (e18 : be4 = be4') (e19 : w5 = w5') (e20 : b5 = b5') (e21 : g5 = g5') (e22 : be5 = be5') (e23 : wh1 = wh1') (e24 : bh1 = bh1') (e25 : wh2 = wh2') (e26 : bh2 = bh2') :
    Cert.ReferenceIdeal.HandRun.refOut (F := Ideal) x ei ew w1 b1 g1 be1 w2 b2 g2 be2 w3 b3 g3 be3 w4 b4 g4 be4 w5 b5 g5 be5 wh1 bh1 wh2 bh2
      = Cert.ReferenceIdeal.HandRun.refOut (F := Ideal) x' ei' ew' w1' b1' g1' be1' w2' b2' g2' be2' w3' b3' g3' be3' w4' b4' g4' be4' w5' b5' g5' be5' wh1' bh1' wh2' bh2' := by
  subst e0 e1 e2 e3 e4 e5 e6 e7 e8 e9 e10 e11 e12 e13 e14 e15 e16 e17 e18 e19 e20 e21 e22 e23 e24 e25 e26
  rfl

end RefOutCongr

set_option maxHeartbeats 4000000 in
theorem ref_side (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v230)
          = Cert.ReferenceIdeal.HandRun.refOut (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))
          (m ((c.tc : Thread Cert.KernelIdeal.nD Cert.KernelIdeal.τ).loc Cert.KernelIdeal.main_arg16))
          (m ((c.tc : Thread Cert.KernelIdeal.nD Cert.KernelIdeal.τ).loc Cert.KernelIdeal.main_arg17))
          (m ((c.tc : Thread Cert.KernelIdeal.nD Cert.KernelIdeal.τ).loc Cert.KernelIdeal.main_arg18))
          (m ((c.tc : Thread Cert.KernelIdeal.nD Cert.KernelIdeal.τ).loc Cert.KernelIdeal.main_arg19))
          (m ((c.tc : Thread Cert.KernelIdeal.nD Cert.KernelIdeal.τ).loc Cert.KernelIdeal.main_arg20))
          (m ((c.tc : Thread Cert.KernelIdeal.nD Cert.KernelIdeal.τ).loc Cert.KernelIdeal.main_arg21))
          (m ((c.tc : Thread Cert.KernelIdeal.nD Cert.KernelIdeal.τ).loc Cert.KernelIdeal.main_arg22))
          (m ((c.tc : Thread Cert.KernelIdeal.nD Cert.KernelIdeal.τ).loc Cert.KernelIdeal.main_arg23))
          (m ((c.tc : Thread Cert.KernelIdeal.nD Cert.KernelIdeal.τ).loc Cert.KernelIdeal.main_arg24))
          (m ((c.tc : Thread Cert.KernelIdeal.nD Cert.KernelIdeal.τ).loc Cert.KernelIdeal.main_arg25))
          (m ((c.tc : Thread Cert.KernelIdeal.nD Cert.KernelIdeal.τ).loc Cert.KernelIdeal.main_arg26))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)) := by
  refine (θ_run (Cert.ReferenceIdeal.defs (F := Ideal)) _ _).mono (fun r h c => ?_)
    (Cert.ReferenceIdeal.HandRun.run_main (F := Ideal) m' g')
  obtain ⟨a0, a1, a2, a3, a4, a5, a6, a7, a8, a9, a10, a11, a12, a13, a14, a15, a16, a17, a18, a19, a20, a21, a22, a23, a24, a25, a26⟩ := hagree c
  exact ⟨((h c Cert.ReferenceIdeal.main_v230).trans (Cert.ReferenceIdeal.HandRun.ops_v230 _)).trans
      (refOut_congr a0 a1 a2 a3 a4 a5 a6 a7 a8 a9 a10 a11 a12 a13 a14 a15 a16 a17 a18 a19 a20 a21 a22 a23 a24 a25 a26),
    (h c Cert.ReferenceIdeal.main_arg0).trans (Cert.ReferenceIdeal.HandRun.arg0_eq _),
    (h c Cert.ReferenceIdeal.main_arg1).trans (Cert.ReferenceIdeal.HandRun.arg1_eq _),
    (h c Cert.ReferenceIdeal.main_arg2).trans (Cert.ReferenceIdeal.HandRun.arg2_eq _),
    (h c Cert.ReferenceIdeal.main_arg3).trans (Cert.ReferenceIdeal.HandRun.arg3_eq _),
    (h c Cert.ReferenceIdeal.main_arg4).trans (Cert.ReferenceIdeal.HandRun.arg4_eq _),
    (h c Cert.ReferenceIdeal.main_arg5).trans (Cert.ReferenceIdeal.HandRun.arg5_eq _),
    (h c Cert.ReferenceIdeal.main_arg6).trans (Cert.ReferenceIdeal.HandRun.arg6_eq _),
    (h c Cert.ReferenceIdeal.main_arg7).trans (Cert.ReferenceIdeal.HandRun.arg7_eq _),
    (h c Cert.ReferenceIdeal.main_arg8).trans (Cert.ReferenceIdeal.HandRun.arg8_eq _),
    (h c Cert.ReferenceIdeal.main_arg9).trans (Cert.ReferenceIdeal.HandRun.arg9_eq _),
    (h c Cert.ReferenceIdeal.main_arg10).trans (Cert.ReferenceIdeal.HandRun.arg10_eq _),
    (h c Cert.ReferenceIdeal.main_arg11).trans (Cert.ReferenceIdeal.HandRun.arg11_eq _),
    (h c Cert.ReferenceIdeal.main_arg12).trans (Cert.ReferenceIdeal.HandRun.arg12_eq _),
    (h c Cert.ReferenceIdeal.main_arg13).trans (Cert.ReferenceIdeal.HandRun.arg13_eq _),
    (h c Cert.ReferenceIdeal.main_arg14).trans (Cert.ReferenceIdeal.HandRun.arg14_eq _),
    (h c Cert.ReferenceIdeal.main_arg15).trans (Cert.ReferenceIdeal.HandRun.arg15_eq _),
    (h c Cert.ReferenceIdeal.main_arg16).trans (Cert.ReferenceIdeal.HandRun.arg16_eq _),
    (h c Cert.ReferenceIdeal.main_arg17).trans (Cert.ReferenceIdeal.HandRun.arg17_eq _),
    (h c Cert.ReferenceIdeal.main_arg18).trans (Cert.ReferenceIdeal.HandRun.arg18_eq _),
    (h c Cert.ReferenceIdeal.main_arg19).trans (Cert.ReferenceIdeal.HandRun.arg19_eq _),
    (h c Cert.ReferenceIdeal.main_arg20).trans (Cert.ReferenceIdeal.HandRun.arg20_eq _),
    (h c Cert.ReferenceIdeal.main_arg21).trans (Cert.ReferenceIdeal.HandRun.arg21_eq _),
    (h c Cert.ReferenceIdeal.main_arg22).trans (Cert.ReferenceIdeal.HandRun.arg22_eq _),
    (h c Cert.ReferenceIdeal.main_arg23).trans (Cert.ReferenceIdeal.HandRun.arg23_eq _),
    (h c Cert.ReferenceIdeal.main_arg24).trans (Cert.ReferenceIdeal.HandRun.arg24_eq _),
    (h c Cert.ReferenceIdeal.main_arg25).trans (Cert.ReferenceIdeal.HandRun.arg25_eq _),
    (h c Cert.ReferenceIdeal.main_arg26).trans (Cert.ReferenceIdeal.HandRun.arg26_eq _)⟩

end Cert.Proof

end
-- ==== Proof.lean ====
/-
  The proof of `Cert.Claim`. The two kernel programs' frames are their generated frame certificates; the
  reference's frame is its run, written out operation by operation, with the result dropped; the idealization
  rewrote nothing, so `preserves` is trivial. For the algebraic claim both programs end with their result at one
  function of the 27 arguments, the reference's network: the reference by its run read back, the kernel by its run
  through the seventeen regions and the host stretches between them, whose boundary contents are read layer by
  layer and joined to the reference's layers — the only place where the two computations differ is the variance
  (mean of squares less squared mean against mean of squared deviations), equal for real-valued activations,
  which the precondition gives.
-/
import proofs.«107715_j23149873725632_1_alg».proof.Defs
import proofs.«107715_j23149873725632_1_alg».proof.Proof.Gen.Kernel
import proofs.«107715_j23149873725632_1_alg».proof.Proof.Gen.Kernel.Frame
import proofs.«107715_j23149873725632_1_alg».proof.Proof.Gen.KernelIdeal
import proofs.«107715_j23149873725632_1_alg».proof.Proof.Gen.KernelIdeal.Frame
import proofs.«107715_j23149873725632_1_alg».proof.Proof.Gen.ReferenceIdeal
import proofs.«107715_j23149873725632_1_alg».proof.Proof.Gen.Pre_finite_inputs
import proofs.«107715_j23149873725632_1_alg».proof.Proof.RefRun
import proofs.«107715_j23149873725632_1_alg».proof.Proof.ProofKer
import proofs.«107715_j23149873725632_1_alg».proof.Proof.ProofRef
import Idealize.ShloMosaic.Adequacy
import Idealize.ShloMosaic.Init

set_option maxRecDepth 16384

noncomputable section

namespace Cert.Proof

open Idealize.ShloMosaic Idealize.SL.Sem

theorem frame_p : Cert.frame_Kernel (hKernel := Cert.Kernel.Gen.facts) (hPre_finite_inputs := Cert.Pre_finite_inputs.Gen.facts) :=
  fun m ρ _ => Cert.Kernel.Gen.frame m ρ

theorem frame_pi : Cert.frame_KernelIdeal (hKernelIdeal := Cert.KernelIdeal.Gen.facts) (hPre_finite_inputs := Cert.Pre_finite_inputs.Gen.facts) :=
  fun m ρ _ => Cert.KernelIdeal.Gen.frame m ρ

theorem preserves : Cert.preserves_Kernel_KernelIdeal := trivial

set_option maxHeartbeats 4000000 in
/-- Both programs end with the reference's network of the arguments in their result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' hpre hagree => ⟨_, ker_side m ρ hpre, ref_side m m' ρ' hagree⟩

theorem claim : Cert.Claim :=
  ⟨Cert.Kernel.Gen.facts, Cert.KernelIdeal.Gen.facts, Cert.ReferenceIdeal.Gen.facts, Cert.Pre_finite_inputs.Gen.facts,
    frame_p, frame_pi, Cert.ReferenceIdeal.HandRun.frame_ri, preserves, algebraic⟩

end Cert.Proof

end
